-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x3x224x224 : Shape := ⟨4, ![512, 3, 224, 224]⟩
abbrev S512 : Shape := ⟨1, ![512]⟩
abbrev S_ : Shape := ⟨0, ![]⟩

class Facts : Prop where
  bcast_S_S512x3x224x224 : S_.BroadcastsInDim S512x3x224x224 (![] : Fin 0 → Fin S512x3x224x224.rank)
  reducesTo_S512x3x224x224_S_d0_1_2_3 : S512x3x224x224.ReducesTo [0, 1, 2, 3] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S512x3x224x224 .f32) (main_arg1 : FVec F S512 .f32) : IVec S_ 1 :=
  let main_v0 : FVec F S512x3x224x224 .f32 := Host.absf main_arg0
  let main_cst : FVec F S_ .f32 := constant S_ .f32 0x7F800000#32
  let main_v1 : FVec F S512x3x224x224 .f32 := broadcastInDim S512x3x224x224 ![] bcast_S_S512x3x224x224 main_cst
  let main_v2 : IVec S512x3x224x224 1 := cmpf .olt main_v0 main_v1
  let main_c : IVec S_ 1 := constantI S_ 1 1#1
  let main_v3 : IVec S_ 1 := (fun x v => Host.reduce IntOp.andi x v reducesTo_S512x3x224x224_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S512x3x224x224 : Shape := ⟨4, ![512, 3, 224, 224]⟩
abbrev S512 : Shape := ⟨1, ![512]⟩
abbrev S3x224x224x512 : Shape := ⟨4, ![3, 224, 224, 512]⟩
abbrev S3x224x28x8x4x128 : Shape := ⟨6, ![3, 224, 28, 8, 4, 128]⟩
abbrev S3x224x28x4x8x128 : Shape := ⟨6, ![3, 224, 28, 4, 8, 128]⟩
abbrev S77070336 : Shape := ⟨1, ![77070336]⟩
abbrev S28672 : Shape := ⟨1, ![28672]⟩
abbrev S_ : Shape := ⟨0, ![]⟩
abbrev S16 : Shape := ⟨1, ![16]⟩
abbrev S1x16x224x512 : Shape := ⟨4, ![1, 16, 224, 512]⟩
abbrev S1x1x1x512 : Shape := ⟨4, ![1, 1, 1, 512]⟩

abbrev nBuf : Table → Nat
  | .hbm => 12
  | .local .tc .vmem => 5
  | .local .scVector .vmem => 4
  | _ => 0

abbrev bufTy : (tb : Table) → Fin (nBuf tb) → BufTy
  | .hbm, ⟨0, _⟩ => ⟨S512x3x224x224, .f32⟩
  | .hbm, ⟨1, _⟩ => ⟨S512, .f32⟩
  | .hbm, ⟨2, _⟩ => ⟨S3x224x224x512, .f32⟩
  | .hbm, ⟨3, _⟩ => ⟨S3x224x28x8x4x128, .f32⟩
  | .hbm, ⟨4, _⟩ => ⟨S3x224x28x4x8x128, .f32⟩
  | .hbm, ⟨5, _⟩ => ⟨S77070336, .f32⟩
  | .hbm, ⟨6, _⟩ => ⟨S77070336, .f32⟩
  | .hbm, ⟨7, _⟩ => ⟨S3x224x28x4x8x128, .f32⟩
  | .hbm, ⟨8, _⟩ => ⟨S3x224x28x8x4x128, .f32⟩
  | .hbm, ⟨9, _⟩ => ⟨S3x224x224x512, .f32⟩
  | .hbm, ⟨10, _⟩ => ⟨S3x224x224x512, .f32⟩
  | .hbm, ⟨11, _⟩ => ⟨S512x3x224x224, .f32⟩
  | .local .tc .vmem, ⟨0, _⟩ => ⟨S512, .f32⟩
  | .local .tc .vmem, ⟨1, _⟩ => ⟨S1x16x224x512, .f32⟩
  | .local .tc .vmem, ⟨2, _⟩ => ⟨S1x16x224x512, .f32⟩
  | .local .tc .vmem, ⟨3, _⟩ => ⟨S1x16x224x512, .f32⟩
  | .local .tc .vmem, ⟨4, _⟩ => ⟨S1x16x224x512, .f32⟩
  | .local .scVector .vmem, ⟨0, _⟩ => ⟨S512, .f32⟩
  | .local .scVector .vmem, ⟨1, _⟩ => ⟨S28672, .f32⟩
  | .local .scVector .vmem, ⟨2, _⟩ => ⟨S28672, .f32⟩
  | .local .scVector .vmem, ⟨3, _⟩ => ⟨S28672, .f32⟩
  | _, _ => ⟨S512x3x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v3_scv : Ref sig .scVector := ⟨.hbm, 5, rfl⟩
abbrev main_arg1_scv : Ref sig .scVector := ⟨.hbm, 1, rfl⟩
abbrev main_v4_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let c38535168_i32 : BitVec 32 := 38535168#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1204224_i32 : BitVec 32 := 1204224#32
  let v2 : BitVec 32 := Scalar.muli v1 c1204224_i32
  let v3 : BitVec 32 := Scalar.addi c38535168_i32 v2
  let v228 : BitVec 32 := Scalar.addi v3 c0_i32
  ![v228.toNat]
@[reducible] def k0_t1_loop : Scf.Loop 32 :=
  let c0_i32_96 : BitVec 32 := 0#32
  let c14_i32 : BitVec 32 := 14#32
  let v237 : BitVec 32 := Scalar.addi c0_i32_96 c14_i32
  let c1_i32 : BitVec 32 := 1#32
  ⟨c0_i32_96, v237, c1_i32⟩
def k0_off2 (i : grid0.Coords) (k0_t1 : Fin k0_t1_loop.trips) (c0_i32_98 : BitVec 32) : Fin 1 → Nat :=
  let c38535168_i32 : BitVec 32 := 38535168#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1204224_i32 : BitVec 32 := 1204224#32
  let v2 : BitVec 32 := Scalar.muli v1 c1204224_i32
  let v3 : BitVec 32 := Scalar.addi c38535168_i32 v2
  let c0_i32_96 : BitVec 32 := 0#32
  let c1_i32 : BitVec 32 := 1#32
  let arg15 : BitVec 32 := Scf.iv c0_i32_96 c1_i32 k0_t1
  let c3_i32 : BitVec 32 := 3#32
  let v238 : BitVec 32 := Scalar.muli arg15 c3_i32
  let v239 : BitVec 32 := Scalar.addi v238 c0_i32_98
  let c28672_i32_99 : BitVec 32 := 28672#32
  let v240 : BitVec 32 := Scalar.muli v239 c28672_i32_99
  let v241 : BitVec 32 := Scalar.addi v3 v240
  ![v241.toNat]
@[reducible] def k0_t2_loop : Scf.Loop 32 :=
  let c0_i32_101 : BitVec 32 := 0#32
  let c7_i32 : BitVec 32 := 7#32
  let v244 : BitVec 32 := Scalar.addi c0_i32_101 c7_i32
  let c1_i32_102 : BitVec 32 := 1#32
  ⟨c0_i32_101, v244, c1_i32_102⟩
def k0_off3 (k0_t2 : Fin k0_t2_loop.trips) (c0_i32_147 : BitVec 32) (c0_i32_148 : BitVec 32) (c0_i32_149 : BitVec 32) : Fin 1 → Nat :=
  let c0_i32_101 : BitVec 32 := 0#32
  let c1_i32_102 : BitVec 32 := 1#32
  let arg16 : BitVec 32 := Scf.iv c0_i32_101 c1_i32_102 k0_t2
  let c4096_i32 : BitVec 32 := 4096#32
  let v307 : BitVec 32 := Scalar.muli arg16 c4096_i32
  let v308 : BitVec 32 := Scalar.addi v307 c0_i32_147
  let v309 : BitVec 32 := Scalar.addi v308 c0_i32_148
  let v310 : BitVec 32 := Scalar.addi v309 c0_i32_149
  let v311 : Index := Scalar.indexCast v310
  ![v311.toNat]
@[reducible] def k0_t3_loop : Scf.Loop 32 :=
  let c0_i32_111 : BitVec 32 := 0#32
  let c7_i32_112 : BitVec 32 := 7#32
  let v257 : BitVec 32 := Scalar.addi c0_i32_111 c7_i32_112
  let c1_i32_113 : BitVec 32 := 1#32
  ⟨c0_i32_111, v257, c1_i32_113⟩
def k0_off4 (k0_t3 : Fin k0_t3_loop.trips) (c0_i32_147 : BitVec 32) (c0_i32_148 : BitVec 32) (c0_i32_149 : BitVec 32) : Fin 1 → Nat :=
  let c0_i32_111 : BitVec 32 := 0#32
  let c1_i32_113 : BitVec 32 := 1#32
  let arg16 : BitVec 32 := Scf.iv c0_i32_111 c1_i32_113 k0_t3
  let c4096_i32 : BitVec 32 := 4096#32
  let v307 : BitVec 32 := Scalar.muli arg16 c4096_i32
  let v308 : BitVec 32 := Scalar.addi v307 c0_i32_147
  let v309 : BitVec 32 := Scalar.addi v308 c0_i32_148
  let v310 : BitVec 32 := Scalar.addi v309 c0_i32_149
  let v311 : Index := Scalar.indexCast v310
  ![v311.toNat]
@[reducible] def k0_t4_loop : Scf.Loop 32 :=
  let c0_i32_122 : BitVec 32 := 0#32
  let c7_i32_123 : BitVec 32 := 7#32
  let v270 : BitVec 32 := Scalar.addi c0_i32_122 c7_i32_123
  let c1_i32_124 : BitVec 32 := 1#32
  ⟨c0_i32_122, v270, c1_i32_124⟩
def k0_off5 (k0_t4 : Fin k0_t4_loop.trips) (c0_i32_147 : BitVec 32) (c0_i32_148 : BitVec 32) (c0_i32_149 : BitVec 32) : Fin 1 → Nat :=
  let c0_i32_122 : BitVec 32 := 0#32
  let c1_i32_124 : BitVec 32 := 1#32
  let arg16 : BitVec 32 := Scf.iv c0_i32_122 c1_i32_124 k0_t4
  let c4096_i32 : BitVec 32 := 4096#32
  let v307 : BitVec 32 := Scalar.muli arg16 c4096_i32
  let v308 : BitVec 32 := Scalar.addi v307 c0_i32_147
  let v309 : BitVec 32 := Scalar.addi v308 c0_i32_148
  let v310 : BitVec 32 := Scalar.addi v309 c0_i32_149
  let v311 : Index := Scalar.indexCast v310
  ![v311.toNat]
def k0_cond1 (k0_t1 : Fin k0_t1_loop.trips) : BitVec 1 :=
  let c0_i32_96 : BitVec 32 := 0#32
  let c1_i32 : BitVec 32 := 1#32
  let arg15 : BitVec 32 := Scf.iv c0_i32_96 c1_i32 k0_t1
  let c1_i32_132 : BitVec 32 := 1#32
  let v283 : BitVec 32 := Scalar.addi arg15 c1_i32_132
  let c14_i32_133 : BitVec 32 := 14#32
  let v284 : BitVec 1 := Scalar.cmpi .slt v283 c14_i32_133
  let v285 : BitVec 32 := Scalar.extui v284
  let c0_i32_134 : BitVec 32 := 0#32
  let v286 : BitVec 1 := Scalar.cmpi .ne v285 c0_i32_134
  v286

def k0_off6 (i : grid0.Coords) (k0_t1 : Fin k0_t1_loop.trips) : Fin 1 → Nat :=
  let c38535168_i32 : BitVec 32 := 38535168#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1204224_i32 : BitVec 32 := 1204224#32
  let v2 : BitVec 32 := Scalar.muli v1 c1204224_i32
  let v3 : BitVec 32 := Scalar.addi c38535168_i32 v2
  let c0_i32_96 : BitVec 32 := 0#32
  let c1_i32 : BitVec 32 := 1#32
  let arg15 : BitVec 32 := Scf.iv c0_i32_96 c1_i32 k0_t1
  let c1_i32_147 : BitVec 32 := 1#32
  let v307 : BitVec 32 := Scalar.addi arg15 c1_i32_147
  let c3_i32_148 : BitVec 32 := 3#32
  let v308 : BitVec 32 := Scalar.muli v307 c3_i32_148
  let c0_i32_149 : BitVec 32 := 0#32
  let v309 : BitVec 32 := Scalar.addi v308 c0_i32_149
  let c28672_i32_150 : BitVec 32 := 28672#32
  let v310 : BitVec 32 := Scalar.muli v309 c28672_i32_150
  let v311 : BitVec 32 := Scalar.addi v3 v310
  ![v311.toNat]
def k0_cond2 (k0_t1 : Fin k0_t1_loop.trips) : BitVec 1 :=
  let c0_i32_96 : BitVec 32 := 0#32
  let c1_i32 : BitVec 32 := 1#32
  let arg15 : BitVec 32 := Scf.iv c0_i32_96 c1_i32 k0_t1
  let c1_i32_138 : BitVec 32 := 1#32
  let v293 : BitVec 32 := Scalar.addi arg15 c1_i32_138
  let c14_i32_139 : BitVec 32 := 14#32
  let v294 : BitVec 1 := Scalar.cmpi .slt v293 c14_i32_139
  let v295 : BitVec 32 := Scalar.extui v294
  let c0_i32_140 : BitVec 32 := 0#32
  let v296 : BitVec 1 := Scalar.cmpi .ne v295 c0_i32_140
  v296

def k0_off7 (i : grid0.Coords) (k0_t1 : Fin k0_t1_loop.trips) : Fin 1 → Nat :=
  let c38535168_i32 : BitVec 32 := 38535168#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1204224_i32 : BitVec 32 := 1204224#32
  let v2 : BitVec 32 := Scalar.muli v1 c1204224_i32
  let v3 : BitVec 32 := Scalar.addi c38535168_i32 v2
  let c0_i32_96 : BitVec 32 := 0#32
  let c1_i32 : BitVec 32 := 1#32
  let arg15 : BitVec 32 := Scf.iv c0_i32_96 c1_i32 k0_t1
  let c1_i32_147 : BitVec 32 := 1#32
  let v307 : BitVec 32 := Scalar.addi arg15 c1_i32_147
  let c3_i32_148 : BitVec 32 := 3#32
  let v308 : BitVec 32 := Scalar.muli v307 c3_i32_148
  let c1_i32_149 : BitVec 32 := 1#32
  let v309 : BitVec 32 := Scalar.addi v308 c1_i32_149
  let c28672_i32_150 : BitVec 32 := 28672#32
  let v310 : BitVec 32 := Scalar.muli v309 c28672_i32_150
  let v311 : BitVec 32 := Scalar.addi v3 v310
  ![v311.toNat]
def k0_cond3 (k0_t1 : Fin k0_t1_loop.trips) : BitVec 1 :=
  let c0_i32_96 : BitVec 32 := 0#32
  let c1_i32 : BitVec 32 := 1#32
  let arg15 : BitVec 32 := Scf.iv c0_i32_96 c1_i32 k0_t1
  let c1_i32_144 : BitVec 32 := 1#32
  let v303 : BitVec 32 := Scalar.addi arg15 c1_i32_144
  let c14_i32_145 : BitVec 32 := 14#32
  let v304 : BitVec 1 := Scalar.cmpi .slt v303 c14_i32_145
  let v305 : BitVec 32 := Scalar.extui v304
  let c0_i32_146 : BitVec 32 := 0#32
  let v306 : BitVec 1 := Scalar.cmpi .ne v305 c0_i32_146
  v306

def k0_off8 (i : grid0.Coords) (k0_t1 : Fin k0_t1_loop.trips) : Fin 1 → Nat :=
  let c38535168_i32 : BitVec 32 := 38535168#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1204224_i32 : BitVec 32 := 1204224#32
  let v2 : BitVec 32 := Scalar.muli v1 c1204224_i32
  let v3 : BitVec 32 := Scalar.addi c38535168_i32 v2
  let c0_i32_96 : BitVec 32 := 0#32
  let c1_i32 : BitVec 32 := 1#32
  let arg15 : BitVec 32 := Scf.iv c0_i32_96 c1_i32 k0_t1
  let c1_i32_147 : BitVec 32 := 1#32
  let v307 : BitVec 32 := Scalar.addi arg15 c1_i32_147
  let c3_i32_148 : BitVec 32 := 3#32
  let v308 : BitVec 32 := Scalar.muli v307 c3_i32_148
  let c2_i32_149 : BitVec 32 := 2#32
  let v309 : BitVec 32 := Scalar.addi v308 c2_i32_149
  let c28672_i32_150 : BitVec 32 := 28672#32
  let v310 : BitVec 32 := Scalar.muli v309 c28672_i32_150
  let v311 : BitVec 32 := Scalar.addi v3 v310
  ![v311.toNat]
abbrev grid1 : Pipeline.Grid := ⟨1, ![21], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_3 (i : grid1.Coords) : Fin 4 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage1_0 : Fin 1 → Memref sig .tc .vmem S512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x16x224x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x224x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S512x3x224x224_S3x224x224x512_1_2_3_0 : S512x3x224x224.Transposes [1, 2, 3, 0] S3x224x224x512
  shapeCasts_S3x224x224x512_S3x224x28x8x4x128 : S3x224x224x512.ShapeCasts S3x224x28x8x4x128
  transposes_S3x224x28x8x4x128_S3x224x28x4x8x128_0_1_2_4_3_5 : S3x224x28x8x4x128.Transposes [0, 1, 2, 4, 3, 5] S3x224x28x4x8x128
  shapeCasts_S3x224x28x4x8x128_S77070336 : S3x224x28x4x8x128.ShapeCasts S77070336
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  shapeCasts_S77070336_S3x224x28x4x8x128 : S77070336.ShapeCasts S3x224x28x4x8x128
  transposes_S3x224x28x4x8x128_S3x224x28x8x4x128_0_1_2_4_3_5 : S3x224x28x4x8x128.Transposes [0, 1, 2, 4, 3, 5] S3x224x28x8x4x128
  shapeCasts_S3x224x28x8x4x128_S3x224x224x512 : S3x224x28x8x4x128.ShapeCasts S3x224x224x512
  inb_S512_S512_0 : ∀ a, (![0] : Fin 1 → Nat) a + S512.size a ≤ S512.size a
  h_S512 : 0 < S512.numel
  natLt_1_32 : 1 < 32
  inb_S1x16x224x512_S1x16x224x512_0_0_0_0 : ∀ a, (![0, 0, 0, 0] : Fin 4 → Nat) a + S1x16x224x512.size a ≤ S1x16x224x512.size a
  h_S1x16x224x512 : 0 < S1x16x224x512.numel
  shapeCasts_S1x16x224x512_S1x16x224x512 : S1x16x224x512.ShapeCasts S1x16x224x512
  shapeCasts_S512_S1x1x1x512 : S512.ShapeCasts S1x1x1x512
  broadcasts_S1x1x1x512_S1x16x224x512 : S1x1x1x512.Broadcasts S1x16x224x512
  transposes_S3x224x224x512_S512x3x224x224_3_0_1_2 : S3x224x224x512.Transposes [3, 0, 1, 2] S512x3x224x224
  hcc0_scratch4 : 0 + S_.numel ≤ 12
  hcc0_scratch5 : 1 + S_.numel ≤ 12
  hcc0_scratch6 : 2 + S_.numel ≤ 12
  hcc0_scratch7 : 3 + S_.numel ≤ 12
  hcc0_scratch8 : 4 + S_.numel ≤ 12
  hcc0_scratch9 : 5 + S_.numel ≤ 12
  hcc0_scoped0 : 6 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 3), ∀ a, (k0_off1 i (BitVec.ofNat 32 (28672 * r.val))) a + S28672.size a ≤ S77070336.size a
  k0_t1_ok : k0_t1_loop.OK
  k0_off2_inb : ∀ (i : grid0.Coords) (k0_t1 : Fin k0_t1_loop.trips), ∀ (r : Fin 3), ∀ a, (k0_off2 i k0_t1 (BitVec.ofNat 32 r.val)) a + S28672.size a ≤ S77070336.size a
  k0_t2_ok : k0_t2_loop.OK
  k0_off3_inb : ∀ k0_t2 : Fin k0_t2_loop.trips, ∀ (r₁ : Fin 4) (r₂ : Fin 8) (r₃ : Fin 8), ∀ a, (k0_off3 k0_t2 (BitVec.ofNat 32 (1024 * r₁.val)) (BitVec.ofNat 32 (128 * r₂.val)) (BitVec.ofNat 32 (16 * r₃.val))) a + S16.size a ≤ S28672.size a
  k0_t3_ok : k0_t3_loop.OK
  k0_off4_inb : ∀ k0_t3 : Fin k0_t3_loop.trips, ∀ (r₁ : Fin 4) (r₂ : Fin 8) (r₃ : Fin 8), ∀ a, (k0_off4 k0_t3 (BitVec.ofNat 32 (1024 * r₁.val)) (BitVec.ofNat 32 (128 * r₂.val)) (BitVec.ofNat 32 (16 * r₃.val))) a + S16.size a ≤ S28672.size a
  k0_t4_ok : k0_t4_loop.OK
  k0_off5_inb : ∀ k0_t4 : Fin k0_t4_loop.trips, ∀ (r₁ : Fin 4) (r₂ : Fin 8) (r₃ : Fin 8), ∀ a, (k0_off5 k0_t4 (BitVec.ofNat 32 (1024 * r₁.val)) (BitVec.ofNat 32 (128 * r₂.val)) (BitVec.ofNat 32 (16 * r₃.val))) a + S16.size a ≤ S28672.size a
  k0_off6_inb : ∀ (i : grid0.Coords) (k0_t1 : Fin k0_t1_loop.trips), ∀ (k0_h1 : k0_cond1 k0_t1 = 1#1), ∀ a, (k0_off6 i k0_t1) a + S28672.size a ≤ S77070336.size a
  k0_off7_inb : ∀ (i : grid0.Coords) (k0_t1 : Fin k0_t1_loop.trips), ∀ (k0_h2 : k0_cond2 k0_t1 = 1#1), ∀ a, (k0_off7 i k0_t1) a + S28672.size a ≤ S77070336.size a
  k0_off8_inb : ∀ (i : grid0.Coords) (k0_t1 : Fin k0_t1_loop.trips), ∀ (k0_h3 : k0_cond3 k0_t1 = 1#1), ∀ a, (k0_off8 i k0_t1) a + S28672.size a ≤ S77070336.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S512.size a
  hwx1_0 : ∀ i : grid1.Coords, EltTy.bits .f32 = 32 ∨ (Rect.block (s := S512) S512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S1x16x224x512.size a ≤ S3x224x224x512.size a
  hwx1_1 : ∀ i : grid1.Coords, EltTy.bits .f32 = 32 ∨ (Rect.block (s := S3x224x224x512) S1x16x224x512.size (cc1_transform_2 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S1x16x224x512.size a ≤ S3x224x224x512.size a
  hwx1_2 : ∀ i : grid1.Coords, EltTy.bits .f32 = 32 ∨ (Rect.block (s := S3x224x224x512) S1x16x224x512.size (cc1_transform_3 i) (hinb1_2 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scoped0 : DmaSems sig S_ := SemArray.consecutive 6 S_ hcc0_scoped0

abbrev win1_0 : Pipeline.Window sig grid1 :=
  Pipeline.Window.ofSpec (Memref.whole main_arg1) S512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x16x224x512.size cc1_transform_2 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x16x224x512.size cc1_transform_3 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x3x224x224 : Shape := ⟨4, ![512, 3, 224, 224]⟩
abbrev S512 : Shape := ⟨1, ![512]⟩
abbrev S_ : Shape := ⟨0, ![]⟩
abbrev S512x1x1x1 : Shape := ⟨4, ![512, 1, 1, 1]⟩

abbrev nBuf : Space → Nat
  | .hbm => 10
  | .vmem => 0
  | .smem => 0
  | _ => 0

abbrev bufTy : (tb : Table) → Fin (tcTables nBuf tb) → BufTy
  | .hbm, ⟨0, _⟩ => ⟨S512x3x224x224, .f32⟩
  | .hbm, ⟨1, _⟩ => ⟨S512, .f32⟩
  | .hbm, ⟨2, _⟩ => ⟨S_, .f32⟩
  | .hbm, ⟨3, _⟩ => ⟨S512, .f32⟩
  | .hbm, ⟨4, _⟩ => ⟨S512, .i1⟩
  | .hbm, ⟨5, _⟩ => ⟨S512x1x1x1, .i1⟩
  | .hbm, ⟨6, _⟩ => ⟨S_, .f32⟩
  | .hbm, ⟨7, _⟩ => ⟨S512x3x224x224, .f32⟩
  | .hbm, ⟨8, _⟩ => ⟨S512x3x224x224, .i1⟩
  | .hbm, ⟨9, _⟩ => ⟨S512x3x224x224, .f32⟩
  | _, _ => ⟨S512x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1x1x1_0 : S512.BroadcastsInDim S512x1x1x1 (![0] : Fin 1 → Fin S512x1x1x1.rank)
  bcast_S_S512x3x224x224 : S_.BroadcastsInDim S512x3x224x224 (![] : Fin 0 → Fin S512x3x224x224.rank)
  bcast_S512x1x1x1_S512x3x224x224_0_1_2_3 : S512x1x1x1.BroadcastsInDim S512x3x224x224 (![0, 1, 2, 3] : Fin 4 → Fin S512x3x224x224.rank)

variable [Facts₀]

class Facts : Prop extends Facts₀ where

variable [Facts]
-- ==== Proof.Common.lean ====
/-
  The shared vocabulary of the proof about the idealized kernel program: the program as the SparseCore launch
  theorem sees it, the ghost state (launch handshakes, the pipelined call's staging cells, local-transfer counters),
  the arrays as locations of a device, the partition of the flat array of 77070336 words into 2688 chunks of 28672
  (chunks 1344 … 2687 are the SparseCore half; tile (c, s) owns the 42 chunks from 1344 + 42·(2s + c)), the keep
  mask in the two spellings the program uses, and what the launch hands each vector subcore and takes back.
-/
import proofs.«205805_g86552180949287_cont_9to1_m_41_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«205805_g86552180949287_cont_9to1_m_41_25_alg».proof.Proof.Gen.KernelIdeal
import proofs.«205805_g86552180949287_cont_9to1_m_41_25_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the pipelined call's staging cells, the local transfers' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EH : Emb UH (MT nD τ sig (HIx 1) (Elt F) ℕ UU ℕ) := embL
def ER : Emb UK (MT nD τ sig (HIx 1) (Elt F) ℕ UU ℕ) :=
  (Emb.inl : Emb UK (UK × Counters)).trans (embR : Emb (UK × Counters) (MT nD τ sig (HIx 1) (Elt F) ℕ UU ℕ))
instance ER_landsIn : (ER : Emb UK 𝕄).LandsIn (upEmb : UEmb _ 𝕄) := by unfold ER; infer_instance

/-! ## The arrays, as locations of device `d` -/

abbrev imgLoc (d : Dev nD) : Loc nD τ sig := (SparseCore.T d).loc main_arg0
abbrev rndLoc (d : Dev nD) : Loc nD τ sig := (SparseCore.T d).loc main_arg1
/-- The flat re-laid input the SparseCore call reads, and the flat array it writes. -/
abbrev fltLoc (d : Dev nD) : Loc nD τ sig := (SparseCore.T d).loc main_v3
abbrev outLoc (d : Dev nD) : Loc nD τ sig := (SparseCore.T d).loc main_v4
abbrev resLoc (d : Dev nD) : Loc nD τ sig := (SparseCore.T d).loc main_v9

/-! ## The chunks of the flat array -/

theorem hdivC : 2688 ∣ S77070336.size 0 := ⟨28672, rfl⟩
/-- Chunk `k`: words `28672·k … 28672·k + 28671` of the flat array. -/
abbrev chunk (k : Fin 2688) : Rect S77070336 := Rect.part (s := S77070336) (a₀ := 0) hdivC k
abbrev chunkSet (k : Fin 2688) : Finset S77070336.Idx := (chunk k).set

/-- Vector subcore `s` of SparseCore `c` is worker `2s + c`; its `i`-th chunk. -/
def tileChunk (c : Fin 2) (s : Fin 16) (i : Fin 42) : Fin 2688 := ⟨1344 + 42 * (2 * s.val + c.val) + i.val, by omega⟩

/-! ## The keep mask, in the two spellings of the program -/

section Mask
variable [FloatOps F]

/-- A group of sixteen random numbers to its multiplier, as the SparseCore body spells it: `1` where the number is at
    least the threshold word, `0` elsewhere, by a select between two broadcast constants. -/
def keepSel (v : FVec F S16 .f32) : FVec F S16 .f32 :=
  select (cmpf .oge v (broadcast S16 (Scalar.ofBits .f32 0x3DCCCCCD#32)))
    (broadcast S16 (Scalar.ofBits .f32 0x3F800000#32)) (broadcast S16 (Scalar.ofBits .f32 0x00000000#32))

/-- Position `p` of the flat array belongs to frame `128·((p / 1024) mod 4) + p mod 128`: lane `p mod 16` of group
    `8·((p / 1024) mod 4) + (p mod 128) / 16` of the random numbers. -/
def grpOf (p : ℕ) : ℕ := 8 * ((p / 1024) % 4) + (p % 128) / 16
theorem grpOf_lt (p : ℕ) : 16 * grpOf p + 16 ≤ 512 := by unfold grpOf; omega

/-- The sixteen random numbers of group `g`. -/
def rndGrp (rd : (⟨S512, .f32⟩ : BufTy).Contents (Elt F)) (g : ℕ) (hg : 16 * g + 16 ≤ 512) : FVec F S16 .f32 :=
  fun l => rd (ValueIdx.ix1 (⟨16 * g + (l 0).val, by have h16 : (l 0).val < 16 := (l 0).isLt; omega⟩ : Fin 512))

/-- What the SparseCore half holds after the call, as one function of the flat index: the input word times its
    frame's multiplier. -/
def scOut (fl : (⟨S77070336, .f32⟩ : BufTy).Contents (Elt F)) (rd : (⟨S512, .f32⟩ : BufTy).Contents (Elt F)) :
    (⟨S77070336, .f32⟩ : BufTy).Contents (Elt F) :=
  fun j => FloatOps.mulf (fl j) (keepSel (rndGrp rd (grpOf (j 0).val) (grpOf_lt _)) (ValueIdx.ix1 (⟨(j 0).val % 16, Nat.mod_lt _ (by decide)⟩ : Fin 16)))

end Mask

/-! ## What the launch hands a vector subcore and takes back -/

section Pay
variable [FloatOps F]

/-- Worker number `2s + c` of vector subcore `s` of SparseCore `c`, as an index of the 32 read shares. -/
def widx (c : Fin 2) (s : Fin 16) : Fin 32 := ⟨2 * s.val + c.val, by omega⟩

/-- A tile's hand at its start: a read share of the flat input and of the random numbers (nobody writes them during the
    call), and its own 42 chunks of the flat output, whole, at the contents `o0` the call found there. -/
def tileGo (d : Dev nD) (c : Fin 2) (s : Fin 16) (fl : Buf (Elt F) (fltLoc d)) (rd : Buf (Elt F) (rndLoc d)) (o0 : Buf (Elt F) (outLoc d)) : sProp 𝕄 :=
  iprop((fltLoc d ↦{Transfers.shareTok fullShare 32 (widx c s)} fl) ∗ (rndLoc d ↦{Transfers.shareTok fullShare 32 (widx c s)} rd)
    ∗ bigSep Finset.univ fun i : Fin 42 => outLoc d ↦[chunkSet (tileChunk c s i)]{fullShare} o0)

/-- A tile's hand at its end: the same read shares, and its 42 chunks at the masked input (`scOut`). -/
def tileTd (d : Dev nD) (c : Fin 2) (s : Fin 16) (fl : Buf (Elt F) (fltLoc d)) (rd : Buf (Elt F) (rndLoc d)) : sProp 𝕄 :=
  iprop((fltLoc d ↦{Transfers.shareTok fullShare 32 (widx c s)} fl) ∗ (rndLoc d ↦{Transfers.shareTok fullShare 32 (widx c s)} rd)
    ∗ bigSep Finset.univ fun i : Fin 42 => outLoc d ↦[chunkSet (tileChunk c s i)]{fullShare} (scOut fl rd : Buf (Elt F) (outLoc d)))

variable (fl : (d : Dev nD) → Buf (Elt F) (fltLoc d)) (rd : (d : Dev nD) → Buf (Elt F) (rndLoc d)) (o0 : (d : Dev nD) → Buf (Elt F) (outLoc d))

/-- The one call: a SparseCore takes its sixteen tiles' hands and gives them back; nothing else is carried. -/
def P : (K (F := F)).Pay (nD := nD) (Val := Elt F) (Name := ℕ) (U := UU) where
  st := fun q d c => match q with | 0 => bigSep Finset.univ fun s : Fin 16 => tileGo d (Fin.cast nCore_zero c) s (fl d) (rd d) (o0 d)
  dn := fun q d c => match q with | 0 => bigSep Finset.univ fun s : Fin 16 => tileTd d (Fin.cast nCore_zero c) s (fl d) (rd d)
  go := fun q d c i => match q with | 0 => tileGo d (Fin.cast nCore_zero c) (Fin.cast nSub_zero i) (fl d) (rd d) (o0 d)
  td := fun q d c i => match q with | 0 => tileTd d (Fin.cast nCore_zero c) (Fin.cast nSub_zero i) (fl d) (rd d)
  x := fun _ _ => iprop(emp)

instance P_storable : (P (F := F) fl rd o0).IsStorable where
  st q d c := match q with | 0 => by unfold P tileGo; infer_instance
  dn q d c := match q with | 0 => by unfold P tileTd; infer_instance
  go q d c i := match q with | 0 => by unfold P tileGo; infer_instance
  td q d c i := match q with | 0 => by unfold P tileTd; infer_instance

end Pay

end Cert.Proof.KI

end
-- ==== Proof.TileBase.lean ====
/-
  The resources of one vector subcore's task: its four scratch buffers and seven semaphores taken out of what a
  subcore owns, the arrays as the subcore's memrefs address them, and the chunk a slice of the flat array names.
-/
import proofs.«205805_g86552180949287_cont_9to1_m_41_25_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The SparseCore and the vector subcore of a grid point, as the machine's and as the partition's indices. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cC (L : grid0.Coords) : Fin 2 := Fin.cast bound_zero (L 0)
abbrev sC (L : grid0.Coords) : Fin 16 := Fin.cast bound_one (L 1)

section Res

variable (d : Dev nD) (L : grid0.Coords)

/-- The semaphore cell of one of the task's DMA semaphores. -/
abbrev cellOf (sm : DmaSems sig S_) : GSem nD τ sig := (V d (cV L) (jV L), .dma sm.sem)

/-- The task's seven cells: the scoped one of the first copy, three for the fetches, three for the write-outs. -/
def tileCells : Finset (GSem nD τ sig) :=
  {cellOf d L cc0_scoped0, cellOf d L cc0_scratch4, cellOf d L cc0_scratch5, cellOf d L cc0_scratch6,
    cellOf d L cc0_scratch7, cellOf d L cc0_scratch8, cellOf d L cc0_scratch9}

omit [FloatOps F] in
theorem tileCells_sub : tileCells d L ⊆ ownCells (V d (cV L) (jV L)) := by
  intro g hg
  unfold tileCells at hg
  simp only [Finset.mem_insert, Finset.mem_singleton] at hg
  rcases hg with rfl | rfl | rfl | rfl | rfl | rfl | rfl <;> exact mem_ownCells.mpr ⟨rfl, show (SemLoc.dma _ : SemLoc sig).isScoped .scVector = true by decide⟩

omit [FloatOps F] in
theorem ownSems0_V :
    (ownSems0 (V d (cV L) (jV L)) : sProp 𝕄)
      = iprop((semVal (cellOf d L cc0_scoped0) 0 ∗ semVal (cellOf d L cc0_scratch4) 0 ∗ semVal (cellOf d L cc0_scratch5) 0
          ∗ semVal (cellOf d L cc0_scratch6) 0 ∗ semVal (cellOf d L cc0_scratch7) 0 ∗ semVal (cellOf d L cc0_scratch8) 0
          ∗ semVal (cellOf d L cc0_scratch9) 0)
          ∗ bigSep (ownCells (V d (cV L) (jV L)) \ tileCells d L) fun g => semVal g 0) := by
  unfold SparseCore.Cfg.ownSems0
  rw [SparseCore.bigSep_sdiff_split' (tileCells_sub d L)]
  unfold tileCells
  rw [SparseCore.bigSep_insert' (by simp only [Finset.mem_insert, Finset.mem_singleton, Prod.mk.injEq, true_and]; decide),
    SparseCore.bigSep_insert' (by simp only [Finset.mem_insert, Finset.mem_singleton, Prod.mk.injEq, true_and]; decide),
    SparseCore.bigSep_insert' (by simp only [Finset.mem_insert, Finset.mem_singleton, Prod.mk.injEq, true_and]; decide),
    SparseCore.bigSep_insert' (by simp only [Finset.mem_insert, Finset.mem_singleton, Prod.mk.injEq, true_and]; decide),
    SparseCore.bigSep_insert' (by simp only [Finset.mem_insert, Finset.mem_singleton, Prod.mk.injEq, true_and]; decide),
    SparseCore.bigSep_insert' (by simp only [Finset.mem_singleton, Prod.mk.injEq, true_and]; decide), bigSep_singleton]

/-- The task's four scratch buffers, as references of the subcore. -/

def tileRefs : Finset (DevRef τ sig) :=
  {(Proc.scVector (cV L) (jV L)).devRef cc0_scratch0, (Proc.scVector (cV L) (jV L)).devRef cc0_scratch1,
    (Proc.scVector (cV L) (jV L)).devRef cc0_scratch2, (Proc.scVector (cV L) (jV L)).devRef cc0_scratch3}

omit [FloatOps F] in
theorem tileRefs_sub : tileRefs L ⊆ ownRefs (τ := τ) (.scVector (cV L) (jV L)) := by
  intro g hg
  unfold tileRefs at hg
  simp only [Finset.mem_insert, Finset.mem_singleton] at hg
  rcases hg with rfl | rfl | rfl | rfl <;> exact SparseCore.Cfg.mem_ownRefs_of_owner (p := Proc.scVector (cV L) (jV L)) rfl

omit [FloatOps F] in
theorem devRef_ne {a b : Ref sig .scVector} (h : a ≠ b) :
    (Proc.scVector (cV L) (jV L)).devRef a ≠ (Proc.scVector (cV L) (jV L)).devRef b :=
  fun e => h (Proc.devRef_injective _ e)

omit [FloatOps F] in
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f))
          ∗ bigSep (ownRefs (τ := τ) (.scVector (cV L) (jV L)) \ tileRefs L) fun b => iprop(∃ f, ((d, b) : Loc nD τ sig) ↦{fullShare} f)) := by
  unfold SparseCore.Cfg.ownBufs
  refine (SparseCore.bigSep_sdiff_split' (tileRefs_sub L)).trans ?_
  unfold tileRefs
  rw [SparseCore.bigSep_insert' (by
      simp only [Finset.mem_insert, Finset.mem_singleton, not_or]
      exact ⟨devRef_ne L (by decide), devRef_ne L (by decide), devRef_ne L (by decide)⟩),
    SparseCore.bigSep_insert' (by
      simp only [Finset.mem_insert, Finset.mem_singleton, not_or]
      exact ⟨devRef_ne L (by decide), devRef_ne L (by decide)⟩),
    SparseCore.bigSep_insert' (by
      simp only [Finset.mem_singleton]
      exact devRef_ne L (by decide)), bigSep_singleton]

end Res

section Chunks

variable (d : Dev nD) (L : grid0.Coords)

/-- The chunk number, among the tile's 42, that write-out `r` of trip `t` goes to. -/
def chunkIx (t : Fin k0_t1_loop.trips) (r : Fin 3) : Fin 42 :=
  ⟨3 * t.val + r.val, by have h : t.val < 14 := t.isLt; have := r.isLt; omega⟩

/-- The rectangle the program slices the flat arrays at for chunk `r` of trip `t`. -/
abbrev oRect (t : Fin k0_t1_loop.trips) (r : Fin 3) : Rect S77070336 :=
  Rect.unit (s := S77070336) (k0_off2 L t (BitVec.ofNat 32 r.val)) S28672.size (k0_off2_inb L t r)

omit [FloatOps F] in
/-- That rectangle is chunk `1344 + 42·(2s + c) + 3t + r` of the partition into 2688. -/
theorem oRect_eq (t : Fin k0_t1_loop.trips) (r : Fin 3) : oRect L t r = chunk (tileChunk (cC L) (sC L) (chunkIx t r)) := by
  unfold oRect chunk Rect.part Rect.block
  congr 1 <;> funext a
  · rw [k0_off2_eq]
    match a with
    | 0 =>
      simp [Shape.partIx, Shape.partSize, tileChunk, chunkIx]
      omega
  · match a with
    | 0 => simp [Shape.partSize]

/-- The slice of the flat output the program writes chunk `r` of trip `t` to. -/
abbrev oSl (t : Fin k0_t1_loop.trips) (r : Fin 3) : Memref sig .scVector .hbm S28672 .f32 :=
  (Memref.whole main_v4_scv : Memref sig .scVector .hbm S77070336 .f32).slice (oRect L t r) (fun _ => rfl)

omit [FloatOps F] in
theorem set_oSl (t : Fin k0_t1_loop.trips) (r : Fin 3) : (oSl L t r).view.set = chunkSet (tileChunk (cC L) (sC L) (chunkIx t r)) := by
  show ((View.whole main_v4_scv).slice (oRect L t r)).set = _
  rw [View.set_slice_whole, oRect_eq]

omit [FloatOps F] in
/-- A chunk of the flat output as the write-out's destination memref addresses it. -/
theorem pts_oSl (t : Fin k0_t1_loop.trips) (r : Fin 3) (f : Buf (Elt F) (outLoc d)) :
    ((oSl L t r).view.loc (V d (cV L) (jV L)) ↦[(oSl L t r).view.set]{fullShare} f : sProp 𝕄)
      = outLoc d ↦[chunkSet (tileChunk (cC L) (sC L) (chunkIx t r))]{fullShare} f := by
  rw [set_oSl]

end Chunks

end Cert.Proof.KI

end
-- ==== Proof.TileInv.lean ====
/-
  What the outer loop of a vector subcore's task keeps between trips, and the bookkeeping it rests on: the arrays and
  scratch buffers as the subcore's memrefs address them, a buffer's fetch outstanding or at rest, the three chunks a trip
  writes taken out of the family of 42, and the trip's conditions decided by the trip number.
-/
import proofs.«205805_g86552180949287_cont_9to1_m_41_25_alg».proof.Proof.TileBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem pts_fl (d : Dev nD) (L : grid0.Coords) (q : PosShare TreeShare) (f : Buf (Elt F) (fltLoc d)) :
    ((Memref.whole main_v3_scv : Memref sig .scVector .hbm S77070336 .f32).view.loc (V d (cV L) (jV L)) ↦{q} f : sProp 𝕄) = fltLoc d ↦{q} f := by
  first | rfl | simp only [Memref.view_whole, View.set_whole]
omit [FloatOps F] in
theorem pts_rd (d : Dev nD) (L : grid0.Coords) (q : PosShare TreeShare) (f : Buf (Elt F) (rndLoc d)) :
    ((Memref.whole main_arg1_scv : Memref sig .scVector .hbm S512 .f32).view.loc (V d (cV L) (jV L)) ↦{q} f : sProp 𝕄) = rndLoc d ↦{q} f := by
  first | rfl | simp only [Memref.view_whole, View.set_whole]
omit [FloatOps F] in
theorem pts_s0 (d : Dev nD) (L : grid0.Coords) (f : Buf (Elt F) ((V d (cV L) (jV L)).loc cc0_scratch0)) :
    ((Memref.whole cc0_scratch0 : Memref sig .scVector .vmem S512 .f32).view.loc (V d (cV L) (jV L)) ↦{fullShare} f : sProp 𝕄) = (V d (cV L) (jV L)).loc cc0_scratch0 ↦{fullShare} f := rfl
omit [FloatOps F] in
theorem pts_s1 (d : Dev nD) (L : grid0.Coords) (f : Buf (Elt F) ((V d (cV L) (jV L)).loc cc0_scratch1)) :
    ((Memref.whole cc0_scratch1 : Memref sig .scVector .vmem S28672 .f32).view.loc (V d (cV L) (jV L)) ↦{fullShare} f : sProp 𝕄) = (V d (cV L) (jV L)).loc cc0_scratch1 ↦{fullShare} f := rfl
omit [FloatOps F] in
theorem pts_s2 (d : Dev nD) (L : grid0.Coords) (f : Buf (Elt F) ((V d (cV L) (jV L)).loc cc0_scratch2)) :
    ((Memref.whole cc0_scratch2 : Memref sig .scVector .vmem S28672 .f32).view.loc (V d (cV L) (jV L)) ↦{fullShare} f : sProp 𝕄) = (V d (cV L) (jV L)).loc cc0_scratch2 ↦{fullShare} f := rfl
omit [FloatOps F] in
theorem pts_s3 (d : Dev nD) (L : grid0.Coords) (f : Buf (Elt F) ((V d (cV L) (jV L)).loc cc0_scratch3)) :
    ((Memref.whole cc0_scratch3 : Memref sig .scVector .vmem S28672 .f32).view.loc (V d (cV L) (jV L)) ↦{fullShare} f : sProp 𝕄) = (V d (cV L) (jV L)).loc cc0_scratch3 ↦{fullShare} f := rfl

/-- Buffer 1's fetch is outstanding: its flight delivers the buffer at some contents and the lent elements of the read
    token; the token's other elements are held beside it. -/
def fetching0 (d : Dev nD) (L : grid0.Coords) (fl : Buf (Elt F) (fltLoc d)) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch1)),
    Transfers.Flight countersEmb (V d (cV L) (jV L)) (SemLoc.dma cc0_scratch4.sem) default 917504
        iprop(((Memref.whole cc0_scratch1 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 0)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 0)} fl))

/-- Buffer 1 at rest: whole at some contents, its fetch cell at zero, its read token whole. -/
def idle0 (d : Dev nD) (L : grid0.Coords) (fl : Buf (Elt F) (fltLoc d)) : sProp 𝕄 :=
  iprop((∃ g : Buf (Elt F) ((V d (cV L) (jV L)).loc cc0_scratch1), (Memref.whole cc0_scratch1 : Memref sig .scVector .vmem S28672 .f32).view.loc (V d (cV L) (jV L)) ↦{fullShare} g)
    ∗ semVal ((V d (cV L) (jV L)), SemLoc.dma cc0_scratch4.sem) 0 ∗ ((Memref.whole main_v3_scv : Memref sig .scVector .hbm S77070336 .f32).view.loc (V d (cV L) (jV L)) ↦{(Transfers.shareTok (Transfers.shareTok fullShare 32 (widx (cC L) (sC L))) 3 0)} fl))

/-- Buffer 2's fetch is outstanding: its flight delivers the buffer at some contents and the lent elements of the read
    token; the token's other elements are held beside it. -/
def fetching1 (d : Dev nD) (L : grid0.Coords) (fl : Buf (Elt F) (fltLoc d)) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch2)),
    Transfers.Flight countersEmb (V d (cV L) (jV L)) (SemLoc.dma cc0_scratch5.sem) default 917504
        iprop(((Memref.whole cc0_scratch2 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 1)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 1)} fl))

/-- Buffer 2 at rest: whole at some contents, its fetch cell at zero, its read token whole. -/
def idle1 (d : Dev nD) (L : grid0.Coords) (fl : Buf (Elt F) (fltLoc d)) : sProp 𝕄 :=
  iprop((∃ g : Buf (Elt F) ((V d (cV L) (jV L)).loc cc0_scratch2), (Memref.whole cc0_scratch2 : Memref sig .scVector .vmem S28672 .f32).view.loc (V d (cV L) (jV L)) ↦{fullShare} g)
    ∗ semVal ((V d (cV L) (jV L)), SemLoc.dma cc0_scratch5.sem) 0 ∗ ((Memref.whole main_v3_scv : Memref sig .scVector .hbm S77070336 .f32).view.loc (V d (cV L) (jV L)) ↦{(Transfers.shareTok (Transfers.shareTok fullShare 32 (widx (cC L) (sC L))) 3 1)} fl))

/-- Buffer 3's fetch is outstanding: its flight delivers the buffer at some contents and the lent elements of the read
    token; the token's other elements are held beside it. -/
def fetching2 (d : Dev nD) (L : grid0.Coords) (fl : Buf (Elt F) (fltLoc d)) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch3)),
    Transfers.Flight countersEmb (V d (cV L) (jV L)) (SemLoc.dma cc0_scratch6.sem) default 917504
        iprop(((Memref.whole cc0_scratch3 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 2)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 2)} fl))

/-- Buffer 3 at rest: whole at some contents, its fetch cell at zero, its read token whole. -/
def idle2 (d : Dev nD) (L : grid0.Coords) (fl : Buf (Elt F) (fltLoc d)) : sProp 𝕄 :=
  iprop((∃ g : Buf (Elt F) ((V d (cV L) (jV L)).loc cc0_scratch3), (Memref.whole cc0_scratch3 : Memref sig .scVector .vmem S28672 .f32).view.loc (V d (cV L) (jV L)) ↦{fullShare} g)
    ∗ semVal ((V d (cV L) (jV L)), SemLoc.dma cc0_scratch6.sem) 0 ∗ ((Memref.whole main_v3_scv : Memref sig .scVector .hbm S77070336 .f32).view.loc (V d (cV L) (jV L)) ↦{(Transfers.shareTok (Transfers.shareTok fullShare 32 (widx (cC L) (sC L))) 3 2)} fl))

/-- Before trip `k` of the outer loop: the three fetches of chunks `3k, 3k+1, 3k+2` are outstanding (after the last trip:
    nothing is), no write-out is, and every one of the tile's 42 chunks of the output is held whole at some contents. -/
def inv (d : Dev nD) (L : grid0.Coords) (fl : Buf (Elt F) (fltLoc d)) (O : CellTallies nD τ sig (HIx 1)) (W : Waits sig (HIx 1))
    (k : Nat) (_ : PUnit) : sProp 𝕄 :=
  iprop(Transfers.MayWaits (V d (cV L) (jV L)) (none : HIx 1) O
    ∗ (if k < 14 then iprop(fetching0 d L fl ∗ fetching1 d L fl ∗ fetching2 d L fl) else iprop(idle0 d L fl ∗ idle1 d L fl ∗ idle2 d L fl))
    ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0
    ∗ (bigSep Finset.univ fun i : Fin 42 => iprop(∃ f : Buf (Elt F) (outLoc d), outLoc d ↦[chunkSet (tileChunk (cC L) (sC L) i)]{fullShare} f))
    ∗ ∃ W', ⌜∀ p ∈ W', p ∈ W ∨ p.2 = none⌝ ∗ owes (V d (cV L) (jV L)) O W')

omit [FloatOps F] in
theorem chunkIx_ne (t : Fin k0_t1_loop.trips) {r r' : Fin 3} (h : r ≠ r') : chunkIx t r ≠ chunkIx t r' :=
  fun e => h (Fin.ext (by have := congrArg Fin.val e; simp only [chunkIx] at this; omega))

omit [FloatOps F] in
/-- Three members of a family over the 42 chunks, and the rest. -/
theorem out_take (Φ : Fin 42 → sProp 𝕄) {i0 i1 i2 : Fin 42} (h01 : i0 ≠ i1) (h02 : i0 ≠ i2) (h12 : i1 ≠ i2) :
    bigSep Finset.univ Φ = iprop(Φ i0 ∗ Φ i1 ∗ Φ i2 ∗ bigSep (((Finset.univ.erase i0).erase i1).erase i2) Φ) := by
  rw [SparseCore.bigSep_erase' (Finset.mem_univ i0),
    SparseCore.bigSep_erase' (Finset.mem_erase.mpr ⟨h01.symm, Finset.mem_univ i1⟩),
    SparseCore.bigSep_erase' (Finset.mem_erase.mpr ⟨h12.symm, Finset.mem_erase.mpr ⟨h02.symm, Finset.mem_univ i2⟩⟩)]

omit [FloatOps F] in
/-- Chunk `0` of trip `t` as the program's write-out names its destination. -/
theorem pts_oSl0 (d : Dev nD) (L : grid0.Coords) (t : Fin k0_t1_loop.trips) (f : Buf (Elt F) (outLoc d)) :
    (((Memref.whole main_v4_scv : Memref sig .scVector .hbm S77070336 .f32).slice (Rect.unit (s := S77070336) (k0_off2 L t 0#32) S28672.size (k0_off2_inb L t 0)) (fun _ => rfl)).view.loc (V d (cV L) (jV L)) ↦[((Memref.whole main_v4_scv : Memref sig .scVector .hbm S77070336 .f32).slice (Rect.unit (s := S77070336) (k0_off2 L t 0#32) S28672.size (k0_off2_inb L t 0)) (fun _ => rfl)).view.set]{fullShare} f : sProp 𝕄)
      = outLoc d ↦[chunkSet (tileChunk (cC L) (sC L) (chunkIx t 0))]{fullShare} f := pts_oSl d L t 0 f

omit [FloatOps F] in
/-- Chunk `1` of trip `t` as the program's write-out names its destination. -/
theorem pts_oSl1 (d : Dev nD) (L : grid0.Coords) (t : Fin k0_t1_loop.trips) (f : Buf (Elt F) (outLoc d)) :
    (((Memref.whole main_v4_scv : Memref sig .scVector .hbm S77070336 .f32).slice (Rect.unit (s := S77070336) (k0_off2 L t 1#32) S28672.size (k0_off2_inb L t 1)) (fun _ => rfl)).view.loc (V d (cV L) (jV L)) ↦[((Memref.whole main_v4_scv : Memref sig .scVector .hbm S77070336 .f32).slice (Rect.unit (s := S77070336) (k0_off2 L t 1#32) S28672.size (k0_off2_inb L t 1)) (fun _ => rfl)).view.set]{fullShare} f : sProp 𝕄)
      = outLoc d ↦[chunkSet (tileChunk (cC L) (sC L) (chunkIx t 1))]{fullShare} f := pts_oSl d L t 1 f

omit [FloatOps F] in
/-- Chunk `2` of trip `t` as the program's write-out names its destination. -/
theorem pts_oSl2 (d : Dev nD) (L : grid0.Coords) (t : Fin k0_t1_loop.trips) (f : Buf (Elt F) (outLoc d)) :
    (((Memref.whole main_v4_scv : Memref sig .scVector .hbm S77070336 .f32).slice (Rect.unit (s := S77070336) (k0_off2 L t 2#32) S28672.size (k0_off2_inb L t 2)) (fun _ => rfl)).view.loc (V d (cV L) (jV L)) ↦[((Memref.whole main_v4_scv : Memref sig .scVector .hbm S77070336 .f32).slice (Rect.unit (s := S77070336) (k0_off2 L t 2#32) S28672.size (k0_off2_inb L t 2)) (fun _ => rfl)).view.set]{fullShare} f : sProp 𝕄)
      = outLoc d ↦[chunkSet (tileChunk (cC L) (sC L) (chunkIx t 2))]{fullShare} f := pts_oSl d L t 2 f

theorem cond1_pos : ∀ k : Fin k0_t1_loop.trips, k.val + 1 < 14 → k0_cond1 k = 1#1 := by decide
theorem cond1_neg : ∀ k : Fin k0_t1_loop.trips, ¬ k.val + 1 < 14 → ¬ k0_cond1 k = 1#1 := by decide

theorem cond2_pos : ∀ k : Fin k0_t1_loop.trips, k.val + 1 < 14 → k0_cond2 k = 1#1 := by decide
theorem cond2_neg : ∀ k : Fin k0_t1_loop.trips, ¬ k.val + 1 < 14 → ¬ k0_cond2 k = 1#1 := by decide

theorem cond3_pos : ∀ k : Fin k0_t1_loop.trips, k.val + 1 < 14 → k0_cond3 k = 1#1 := by decide
theorem cond3_neg : ∀ k : Fin k0_t1_loop.trips, ¬ k.val + 1 < 14 → ¬ k0_cond3 k = 1#1 := by decide

omit [FloatOps F] in
theorem toks3 {ℓ : Loc nD τ sig} (q : PosShare TreeShare) (f : Buf (Elt F) ℓ) :
    (bigSep Finset.univ fun i : Fin 3 => (ℓ ↦{Transfers.shareTok q 3 i} f : sProp 𝕄))
      = iprop((ℓ ↦{Transfers.shareTok q 3 0} f) ∗ (ℓ ↦{Transfers.shareTok q 3 1} f) ∗ (ℓ ↦{Transfers.shareTok q 3 2} f)) := by
  rw [show (Finset.univ : Finset (Fin 3)) = {0, 1, 2} by decide, SparseCore.bigSep_insert' (by decide), SparseCore.bigSep_insert' (by decide), bigSep_singleton]

omit [FloatOps F] in
theorem out_weaken1 (d : Dev nD) (L : grid0.Coords) (o0 : Buf (Elt F) (outLoc d)) (i : Fin 42) :
    (outLoc d ↦[chunkSet (tileChunk (cC L) (sC L) i)]{fullShare} o0 : sProp 𝕄)
      ⊢ iprop(∃ f : Buf (Elt F) (outLoc d), outLoc d ↦[chunkSet (tileChunk (cC L) (sC L) i)]{fullShare} f) := by
  iintro H; iexists _; iexact H

omit [FloatOps F] in
/-- A chunk held at known contents is held at some contents. -/
theorem out_weaken (d : Dev nD) (L : grid0.Coords) (o0 : Buf (Elt F) (outLoc d)) :
    (bigSep Finset.univ fun i : Fin 42 => (outLoc d ↦[chunkSet (tileChunk (cC L) (sC L) i)]{fullShare} o0 : sProp 𝕄))
      ⊢ bigSep Finset.univ fun i : Fin 42 => iprop(∃ f : Buf (Elt F) (outLoc d), outLoc d ↦[chunkSet (tileChunk (cC L) (sC L) i)]{fullShare} f) :=
  bigSep_mono fun i _ => out_weaken1 d L o0 i

end Cert.Proof.KI

end
-- ==== Proof.TileMask.lean ====
/-
  A 28672-word buffer with its words multiplied by their frames' multipliers. Word p belongs to multiplier group
  8·((p / 1024) mod 4) + (p mod 128) / 16 and takes that group's lane p mod 16. `maskBlocks … kk` has only the blocks
  (of 4096 words) below kk multiplied: it is the buffer after kk trips of the in-place loop.
-/
import proofs.«205805_g86552180949287_cont_9to1_m_41_25_alg».proof.Proof.Common

noncomputable section

namespace Cert.Proof.KI

open Cert.KernelIdeal Cert.KernelIdeal.Gen
open Idealize.ShloMosaic

variable {F : FTy → Type} [FloatOps F]

/-- A buffer of 28672 words with every word multiplied by its frame's multiplier: word `p` by lane `p mod 16` of
    multiplier group `grpOf p`. -/
def maskBuf (mul : ℕ → FVec F S16 .f32) (g : (⟨S28672, .f32⟩ : BufTy).Contents (Elt F)) : (⟨S28672, .f32⟩ : BufTy).Contents (Elt F) :=
  fun p => FloatOps.mulf (g p) (mul (grpOf (p 0).val) (ValueIdx.ix1 (⟨(p 0).val % 16, Nat.mod_lt _ (by decide)⟩ : Fin 16)))

/-- The buffer with the blocks below `kk` multiplied and the others as they were. -/
def maskBlocks (mul : ℕ → FVec F S16 .f32) (g : (⟨S28672, .f32⟩ : BufTy).Contents (Elt F)) (kk : ℕ) : (⟨S28672, .f32⟩ : BufTy).Contents (Elt F) :=
  fun p => if (p 0).val / 4096 < kk then maskBuf mul g p else g p

theorem maskBlocks_zero (mul : ℕ → FVec F S16 .f32) (g : (⟨S28672, .f32⟩ : BufTy).Contents (Elt F)) : maskBlocks mul g 0 = g := by
  funext p; unfold maskBlocks; rw [if_neg (Nat.not_lt_zero _)]

theorem maskBlocks_seven (mul : ℕ → FVec F S16 .f32) (g : (⟨S28672, .f32⟩ : BufTy).Contents (Elt F)) : maskBlocks mul g 7 = maskBuf mul g := by
  funext p; unfold maskBlocks
  have h : (p 0).val < 28672 := (p 0).isLt
  rw [if_pos (by omega)]

end Cert.Proof.KI

end
-- ==== Proof.TileInnerVal.lean ====
/-
  The in-place loops over a 28672-word scratch buffer, word by word. One trip at block k makes 256 stores of sixteen
  words; store number n = 64·tn + 8·lg + sub (tn < 4, lg < 8, sub < 8) goes to words 4096·k + 1024·tn + 128·sub + 16·lg …
  and multiplies them by multiplier group 8·tn + lg. `stC … k n` is the buffer after the first n stores of trip k: the
  blocks below k and the first n sixteens of block k multiplied, the rest as it was. A store of the right product at the
  right place takes `stC … n` to `stC … (n + 1)`; that is all the arithmetic there is.
-/
import proofs.«205805_g86552180949287_cont_9to1_m_41_25_alg».proof.Proof.TileBase
import proofs.«205805_g86552180949287_cont_9to1_m_41_25_alg».proof.Proof.TileMask
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

/-- A store's place in a trip: (tn, sub, lg). -/
abbrev Tr : Type := Fin 4 × Fin 8 × Fin 8
/-- Its number in program order, its multiplier group, its first word in block `k`. -/
def num (t : Tr) : ℕ := 64 * t.1.val + 8 * t.2.2.val + t.2.1.val
def grp (t : Tr) : ℕ := 8 * t.1.val + t.2.2.val
def offw (k : ℕ) (t : Tr) : ℕ := 4096 * k + 1024 * t.1.val + 128 * t.2.1.val + 16 * t.2.2.val
/-- The number of the store that covers word `p` (in its block). -/
def sno (p : ℕ) : ℕ := 64 * ((p % 4096) / 1024) + 8 * ((p % 128) / 16) + (p % 1024) / 128

theorem in_iff (k : ℕ) (t : Tr) (p : ℕ) : (offw k t ≤ p ∧ p < offw k t + 16) ↔ (p / 4096 = k ∧ sno p = num t) := by
  obtain ⟨a, b, c⟩ := t
  have ha := a.isLt; have hb := b.isLt; have hc := c.isLt
  unfold offw sno num
  dsimp only
  constructor
  · intro h; omega
  · rintro ⟨h1, h2⟩
    have ea : (p % 4096) / 1024 = a.val := by omega
    have ec : (p % 128) / 16 = c.val := by omega
    have eb : (p % 1024) / 128 = b.val := by omega
    omega

theorem grp_of_in (k : ℕ) (t : Tr) (p : ℕ) (h : offw k t ≤ p ∧ p < offw k t + 16) : grpOf p = grp t ∧ p % 16 = p - offw k t := by
  obtain ⟨a, b, c⟩ := t
  have ha := a.isLt; have hb := b.isLt; have hc := c.isLt
  unfold offw at h
  unfold grpOf grp offw
  dsimp only at h ⊢
  omega

/-! ## The three payload shapes of the printed parts -/

/-- A loaded sixteen times a multiplier, as stored; a carried product, as stored; a loaded sixteen times a multiplier, as
    carried to the next part. -/
def payM (m : FVec F S16 .f32) (v : Vec F S16 .f32) : FVec F S16 .f32 :=
  shapeCast S16 (mulf (shapeCast S16 v shapeCasts_S16_S16) m) shapeCasts_S16_S16
def payS (x : FVec F S16 .f32) : FVec F S16 .f32 := shapeCast S16 x shapeCasts_S16_S16
def payP (m : FVec F S16 .f32) (v : Vec F S16 .f32) : FVec F S16 .f32 := mulf (shapeCast S16 v shapeCasts_S16_S16) m

theorem payM_apply (m : FVec F S16 .f32) (v : Vec F S16 .f32) (x : S16.Idx) : payM m v x = FloatOps.mulf (v x) (m x) := by
  unfold payM; rw [shapeCast_self, shapeCast_self]; rfl
theorem payS_eq (x : FVec F S16 .f32) : payS x = x := shapeCast_self _ _
theorem payP_apply (m : FVec F S16 .f32) (v : Vec F S16 .f32) (x : S16.Idx) : payP m v x = FloatOps.mulf (v x) (m x) := by
  unfold payP; rw [shapeCast_self]; rfl

/-! ## The buffer after n stores of trip k -/

def stC (mul : ℕ → FVec F S16 .f32) (g : (⟨S28672, .f32⟩ : BufTy).Contents (Elt F)) (k n : ℕ) : (⟨S28672, .f32⟩ : BufTy).Contents (Elt F) :=
  fun p => if (p 0).val / 4096 < k ∨ ((p 0).val / 4096 = k ∧ sno (p 0).val < n) then maskBuf mul g p else g p

theorem stC_zero (mul : ℕ → FVec F S16 .f32) (g : (⟨S28672, .f32⟩ : BufTy).Contents (Elt F)) (k : ℕ) : stC mul g k 0 = maskBlocks mul g k := by
  funext p; unfold stC maskBlocks
  exact if_congr ⟨fun h => h.elim id fun h => absurd h.2 (Nat.not_lt_zero _), Or.inl⟩ rfl rfl

theorem stC_full (mul : ℕ → FVec F S16 .f32) (g : (⟨S28672, .f32⟩ : BufTy).Contents (Elt F)) (k : ℕ) : stC mul g k 256 = maskBlocks mul g (k + 1) := by
  funext p; unfold stC maskBlocks
  refine if_congr ⟨fun h => ?_, fun h => ?_⟩ rfl rfl
  · rcases h with h | ⟨h, -⟩ <;> omega
  · have : sno (p 0).val < 256 := by unfold sno; omega
    by_cases hk : (p 0).val / 4096 < k
    · exact Or.inl hk
    · exact Or.inr ⟨by omega, this⟩

/-- A word no pending store covers reads as it was: a sixteen whose store number is not below `n`. -/
theorem stC_of_ge (mul : ℕ → FVec F S16 .f32) (g : (⟨S28672, .f32⟩ : BufTy).Contents (Elt F)) (k n : ℕ) (p : S28672.Idx)
    (hk : (p 0).val / 4096 = k) (hn : n ≤ sno (p 0).val) : stC mul g k n p = g p := by
  unfold stC; rw [if_neg]; omega

/-- A store of the right product over the sixteen of store number `n`: the step. -/
theorem stC_step (mul : ℕ → FVec F S16 .f32) (g : (⟨S28672, .f32⟩ : BufTy).Contents (Elt F)) (k : ℕ) (t : Tr)
    (f' : (⟨S28672, .f32⟩ : BufTy).Contents (Elt F))
    (hin : ∀ p : S28672.Idx, offw k t ≤ (p 0).val → (p 0).val < offw k t + 16 → f' p = maskBuf mul g p)
    (hout : ∀ p : S28672.Idx, ¬(offw k t ≤ (p 0).val ∧ (p 0).val < offw k t + 16) → f' p = stC mul g k (num t) p) :
    f' = stC mul g k (num t + 1) := by
  funext p
  by_cases hp : offw k t ≤ (p 0).val ∧ (p 0).val < offw k t + 16
  · rw [hin p hp.1 hp.2]
    have := (in_iff k t _).mp hp
    unfold stC; rw [if_pos (Or.inr ⟨this.1, by omega⟩)]
  · rw [hout p hp]
    have := mt (in_iff k t _).mpr hp
    unfold stC
    refine if_congr ⟨fun h => ?_, fun h => ?_⟩ rfl rfl
    · rcases h with h | ⟨h, h'⟩
      · exact Or.inl h
      · exact Or.inr ⟨h, by omega⟩
    · rcases h with h | ⟨h, h'⟩
      · exact Or.inl h
      · exact Or.inr ⟨h, by omega⟩

/-! ## The multipliers by group number; sequencing with the assertion changing -/

/-- The thirty-two multipliers as a table by group number. -/
def mulTab (v10 v17 v24 v31 v38 v45 v52 v59 v66 v73 v80 v87 v94 v101 v108 v115 v122 v129 v136 v143 v150 v157 v164 v171 v178 v185 v192 v199 v206 v213 v220 v227 : FVec F S16 .f32) : ℕ → FVec F S16 .f32
  | 0 => v10
  | 1 => v17
  | 2 => v24
  | 3 => v31
  | 4 => v38
  | 5 => v45
  | 6 => v52
  | 7 => v59
  | 8 => v66
  | 9 => v73
  | 10 => v80
  | 11 => v87
  | 12 => v94
  | 13 => v101
  | 14 => v108
  | 15 => v115
  | 16 => v122
  | 17 => v129
  | 18 => v136
  | 19 => v143
  | 20 => v150
  | 21 => v157
  | 22 => v164
  | 23 => v171
  | 24 => v178
  | 25 => v185
  | 26 => v192
  | 27 => v199
  | 28 => v206
  | 29 => v213
  | 30 => v220
  | _ => v227

/-- A call, then a continuation from what the call leaves. -/
theorem wp_stepV (d : Dev nD) (L : grid0.Coords) {α β : Type} {P : sProp 𝕄} {R : α → sProp 𝕄}
    {m : Prog (TpuEff nD τ sig (Elt F) Λ₀ (.scVector (cV L) (jV L))) α} {k : α → Prog (TpuEff nD τ sig (Elt F) Λ₀ (.scVector (cV L) (jV L))) β} {Q : β → sProp 𝕄}
    (hm : P ⊢ wp frame (wpE (defs₀ (F := F)) 𝒱₀ (V d (cV L) (jV L)) none) Set.univ m R)
    (hk : ∀ a, R a ⊢ wp frame (wpE (defs₀ (F := F)) 𝒱₀ (V d (cV L) (jV L)) none) Set.univ (k a) Q) :
    P ⊢ wp frame (wpE (defs₀ (F := F)) 𝒱₀ (V d (cV L) (jV L)) none) Set.univ (m >>= k) Q := by
  rw [wp_bind]; exact hm.trans (wp_mono _ _ _ fun a => hk a)

/-- A pure fact beside an assertion is a hypothesis. -/
theorem pure_pre {φ : Prop} {P Q : sProp 𝕄} (h : φ → (P ⊢ Q)) : iprop(⌜φ⌝ ∗ P) ⊢ Q := by
  iintro ⟨%hφ, HP⟩
  iapply (h hφ)
  iexact HP

end Cert.Proof.KI

end
-- ==== Proof.TileVal.lean ====
/-
  The values of a vector subcore's task: a chunk of the flat input as a buffer's contents, the table of the 32 multiplier
  groups, what a fetch lands, what a write-out of a masked chunk leaves on its chunk of the flat output, and what each
  multiplier group is: the keep mask of its group of random numbers.
-/
import proofs.«205805_g86552180949287_cont_9to1_m_41_25_alg».proof.Proof.TileBase
import proofs.«205805_g86552180949287_cont_9to1_m_41_25_alg».proof.Proof.TileMask
import proofs.«205805_g86552180949287_cont_9to1_m_41_25_alg».proof.Proof.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Chunk `n` of the flat array as the contents of a buffer of 28672 words. -/
def chunkOf (fl : (⟨S77070336, .f32⟩ : BufTy).Contents (Elt F)) (n : ℕ) : (⟨S28672, .f32⟩ : BufTy).Contents (Elt F) :=
  fun p => if h : 28672 * n + (p 0).val < 77070336 then fl (ValueIdx.ix1 (⟨28672 * n + (p 0).val, h⟩ : Fin 77070336))
    else fl (ValueIdx.ix1 (⟨0, by decide⟩ : Fin 77070336))

/-- Number, among the 2688 chunks of the flat array, of the tile's `m`-th chunk. -/
def cn (L : grid0.Coords) (m : ℕ) : ℕ := 1344 + 42 * (2 * (sC L).val + (cC L).val) + m

omit [FloatOps F] in
theorem cn_chunkIx (L : grid0.Coords) (t : Fin k0_t1_loop.trips) (r : Fin 3) :
    (tileChunk (cC L) (sC L) (chunkIx t r)).val = cn L (3 * t.val + r.val) := rfl

omit [FloatOps F] in
/-- What a fetch of the 28672 words at offset `28672·n` of the flat input lands in scratch buffer 1. -/
theorem fetch_val1 (d : Dev nD) (L : grid0.Coords) (fl : Buf (Elt F) (fltLoc d)) (f : Buf (Elt F) ((V d (cV L) (jV L)).loc cc0_scratch1))
    (off : Fin 1 → ℕ) (inb : ∀ a, off a + S28672.size a ≤ S77070336.size a) (n : ℕ) (hoff : off 0 = 28672 * n) :
    View.write (Elt F) (Memref.whole cc0_scratch1 : Memref sig .scVector .vmem S28672 .f32).view f
        (ReadAs.same.apply (View.read (Elt F) ((Memref.whole main_v3_scv : Memref sig .scVector .hbm S77070336 .f32).slice (Rect.unit (s := S77070336) off S28672.size inb) (fun _ => rfl)).view fl)) Finset.univ
      = chunkOf fl n := by
  refine (View.write_whole_univ (Val := Elt F) cc0_scratch1 f _).trans ?_
  rw [ReadAs.apply_same]
  funext p
  refine (View.read_apply _ _).trans ((cast_eq _ _).trans ?_)
  unfold chunkOf
  have hp : (p 0).val < 28672 := (p 0).isLt
  have hi := inb 0
  have hb : 28672 * n + (p 0).val < 77070336 := by
    have h1 : S28672.size 0 = 28672 := rfl
    have h2 : S77070336.size 0 = 77070336 := rfl
    omega
  rw [dif_pos hb]
  congr 1
  funext a
  match a with
  | 0 =>
    apply Fin.ext
    show ((Rect.unit (s := S77070336) off S28672.size inb).emb p 0 : ℕ) = 28672 * n + (p 0).val
    rw [Rect.emb_apply]
    show off 0 + 1 * (p 0).val = _
    omega

omit [FloatOps F] in
/-- What a fetch of the 28672 words at offset `28672·n` of the flat input lands in scratch buffer 2. -/
theorem fetch_val2 (d : Dev nD) (L : grid0.Coords) (fl : Buf (Elt F) (fltLoc d)) (f : Buf (Elt F) ((V d (cV L) (jV L)).loc cc0_scratch2))
    (off : Fin 1 → ℕ) (inb : ∀ a, off a + S28672.size a ≤ S77070336.size a) (n : ℕ) (hoff : off 0 = 28672 * n) :
    View.write (Elt F) (Memref.whole cc0_scratch2 : Memref sig .scVector .vmem S28672 .f32).view f
        (ReadAs.same.apply (View.read (Elt F) ((Memref.whole main_v3_scv : Memref sig .scVector .hbm S77070336 .f32).slice (Rect.unit (s := S77070336) off S28672.size inb) (fun _ => rfl)).view fl)) Finset.univ
      = chunkOf fl n := by
  refine (View.write_whole_univ (Val := Elt F) cc0_scratch2 f _).trans ?_
  rw [ReadAs.apply_same]
  funext p
  refine (View.read_apply _ _).trans ((cast_eq _ _).trans ?_)
  unfold chunkOf
  have hp : (p 0).val < 28672 := (p 0).isLt
  have hi := inb 0
  have hb : 28672 * n + (p 0).val < 77070336 := by
    have h1 : S28672.size 0 = 28672 := rfl
    have h2 : S77070336.size 0 = 77070336 := rfl
    omega
  rw [dif_pos hb]
  congr 1
  funext a
  match a with
  | 0 =>
    apply Fin.ext
    show ((Rect.unit (s := S77070336) off S28672.size inb).emb p 0 : ℕ) = 28672 * n + (p 0).val
    rw [Rect.emb_apply]
    show off 0 + 1 * (p 0).val = _
    omega

omit [FloatOps F] in
/-- What a fetch of the 28672 words at offset `28672·n` of the flat input lands in scratch buffer 3. -/
theorem fetch_val3 (d : Dev nD) (L : grid0.Coords) (fl : Buf (Elt F) (fltLoc d)) (f : Buf (Elt F) ((V d (cV L) (jV L)).loc cc0_scratch3))
    (off : Fin 1 → ℕ) (inb : ∀ a, off a + S28672.size a ≤ S77070336.size a) (n : ℕ) (hoff : off 0 = 28672 * n) :
    View.write (Elt F) (Memref.whole cc0_scratch3 : Memref sig .scVector .vmem S28672 .f32).view f
        (ReadAs.same.apply (View.read (Elt F) ((Memref.whole main_v3_scv : Memref sig .scVector .hbm S77070336 .f32).slice (Rect.unit (s := S77070336) off S28672.size inb) (fun _ => rfl)).view fl)) Finset.univ
      = chunkOf fl n := by
  refine (View.write_whole_univ (Val := Elt F) cc0_scratch3 f _).trans ?_
  rw [ReadAs.apply_same]
  funext p
  refine (View.read_apply _ _).trans ((cast_eq _ _).trans ?_)
  unfold chunkOf
  have hp : (p 0).val < 28672 := (p 0).isLt
  have hi := inb 0
  have hb : 28672 * n + (p 0).val < 77070336 := by
    have h1 : S28672.size 0 = 28672 := rfl
    have h2 : S77070336.size 0 = 77070336 := rfl
    omega
  rw [dif_pos hb]
  congr 1
  funext a
  match a with
  | 0 =>
    apply Fin.ext
    show ((Rect.unit (s := S77070336) off S28672.size inb).emb p 0 : ℕ) = 28672 * n + (p 0).val
    rw [Rect.emb_apply]
    show off 0 + 1 * (p 0).val = _
    omega

omit [FloatOps F] in
theorem rndGrp_congr (rd : (⟨S512, .f32⟩ : BufTy).Contents (Elt F)) {g g' : ℕ} (h : g = g') (hg : 16 * g + 16 ≤ 512) (hg' : 16 * g' + 16 ≤ 512) :
    rndGrp rd g hg = rndGrp rd g' hg' := by subst h; rfl

omit [FloatOps F] in
theorem off2_val (L : grid0.Coords) (t : Fin k0_t1_loop.trips) (r : Fin 3) :
    k0_off2 L t (BitVec.ofNat 32 r.val) 0 = 28672 * (tileChunk (cC L) (sC L) (chunkIx t r)).val := by
  rw [k0_off2_eq]
  simp [tileChunk, chunkIx]
  omega

/-- What a write-out of a masked chunk leaves on its chunk of the flat output: the masked input. -/
theorem wout_val (d : Dev nD) (L : grid0.Coords) (fl : Buf (Elt F) (fltLoc d)) (rd : Buf (Elt F) (rndLoc d))
    (t : Fin k0_t1_loop.trips) (r : Fin 3) (o : Buf (Elt F) (outLoc d)) (mul : ℕ → FVec F S16 .f32)
    (hmul : ∀ g (hg : 16 * g + 16 ≤ 512), mul g = keepSel (rndGrp rd g hg))
    (X : S28672.Idx → Elt F .f32) (hX : X = maskBuf mul (chunkOf fl (tileChunk (cC L) (sC L) (chunkIx t r)).val)) :
    (outLoc d ↦[chunkSet (tileChunk (cC L) (sC L) (chunkIx t r))]{fullShare}
        ((oSl L t r).view.writes (Elt F) o [⟨Rect.whole _, X⟩]) : sProp 𝕄)
      = outLoc d ↦[chunkSet (tileChunk (cC L) (sC L) (chunkIx t r))]{fullShare} (scOut fl rd : Buf (Elt F) (outLoc d)) := by
  refine pointsTo_congr fun i hi => ?_
  rw [← set_oSl L t r] at hi
  simp only [View.set, Finset.mem_map, Finset.mem_univ, true_and] at hi
  obtain ⟨y, rfl⟩ := hi
  have key : ((oSl L t r).view.writes (Elt F) o [⟨Rect.whole S28672, X⟩]) ((oSl L t r).view.emb y) = X y := by
    have h1 := View.read_writes_cons_emb (oSl L t r).view o (Rect.whole S28672) X [] y
    rw [Rect.emb_whole_apply] at h1
    exact ((View.read_apply _ _).trans (cast_eq _ _)).symm.trans h1
  refine key.trans ?_
  subst hX
  have hy : (y 0).val < 28672 := (y 0).isLt
  have hN : (tileChunk (cC L) (sC L) (chunkIx t r)).val < 2688 := (tileChunk (cC L) (sC L) (chunkIx t r)).isLt
  have hj : ((((View.whole main_v4_scv).slice (oRect L t r)).emb y) 0 : ℕ) = 28672 * (tileChunk (cC L) (sC L) (chunkIx t r)).val + (y 0).val := by
    show ((oRect L t r).emb y 0 : ℕ) = _
    rw [Rect.emb_apply]
    show k0_off2 L t (BitVec.ofNat 32 r.val) 0 + 1 * (y 0).val = _
    rw [off2_val]; omega
  generalize (tileChunk (cC L) (sC L) (chunkIx t r)).val = N at hN hj ⊢
  have hb : 28672 * N + (y 0).val < 77070336 := by omega
  have ej : ((View.whole main_v4_scv).slice (oRect L t r)).emb y = ValueIdx.ix1 (⟨28672 * N + (y 0).val, hb⟩ : Fin 77070336) := by
    funext a
    match a with
    | 0 => exact Fin.ext hj
  rw [ej]
  unfold maskBuf chunkOf scOut
  rw [dif_pos hb, hmul (grpOf (y 0).val) (grpOf_lt _)]
  have eg : grpOf (28672 * N + (y 0).val) = grpOf (y 0).val := by unfold grpOf; omega
  have el : (28672 * N + (y 0).val) % 16 = (y 0).val % 16 := by omega
  show _ = FloatOps.mulf _ (keepSel (rndGrp rd (grpOf (28672 * N + (y 0).val)) (grpOf_lt _)) (ValueIdx.ix1 (⟨(28672 * N + (y 0).val) % 16, Nat.mod_lt _ (by decide)⟩ : Fin 16)))
  simp only [el]
  rw [rndGrp_congr rd eg (grpOf_lt _) (grpOf_lt _)]

omit [FloatOps F] in
/-- A load of 16 lanes at word `16·g` of the scratch copy of the random numbers reads their group `g`. -/
theorem load_grp (d : Dev nD) (L : grid0.Coords) (rd : Buf (Elt F) (rndLoc d)) (f0 : Buf (Elt F) ((V d (cV L) (jV L)).loc cc0_scratch0))
    (g : ℕ) (hg : 16 * g + 16 ≤ 512) (inb : ∀ a, (![16 * g] : Fin 1 → ℕ) a + S16.size a ≤ S512.size a) :
    View.readAt (Elt F) (Memref.whole cc0_scratch0 : Memref sig .scVector .vmem S512 .f32).view (Rect.unit (s := S512) ![16 * g] S16.size inb).toLoadRect
        (View.write (Elt F) (Memref.whole cc0_scratch0 : Memref sig .scVector .vmem S512 .f32).view f0 (ReadAs.same.apply (View.read (Elt F) (Memref.whole main_arg1_scv : Memref sig .scVector .hbm S512 .f32).view rd)) Finset.univ)
      = rndGrp rd g hg := by
  have e1 : View.write (Elt F) (Memref.whole cc0_scratch0 : Memref sig .scVector .vmem S512 .f32).view f0 (ReadAs.same.apply (View.read (Elt F) (Memref.whole main_arg1_scv : Memref sig .scVector .hbm S512 .f32).view rd)) Finset.univ = rd := by
    refine (View.write_whole_univ (Val := Elt F) cc0_scratch0 f0 _).trans ?_
    rw [ReadAs.apply_same]
    exact View.read_whole _ _
  rw [e1]
  funext l
  rw [View.readAt_apply]
  refine (congrFun (View.read_whole (Val := Elt F) cc0_scratch0 rd) _).trans ?_
  unfold rndGrp
  congr 1
  funext a
  match a with
  | 0 =>
    apply Fin.ext
    show 16 * g + 1 * (l 0).val = 16 * g + (l 0).val
    omega

omit [FloatOps F] in
theorem shapeCast_same {s : Shape} {α : Type} (v : s.Idx → α) (h : s.ShapeCasts s) : shapeCast s v h = v :=
  funext fun i => congrArg v (Shape.reshapeEquiv_self _ i)

/-- A multiplier as the body forms it from a loaded group: the keep mask of that group. -/
theorem mul_case (d : Dev nD) (L : grid0.Coords) (rd : Buf (Elt F) (rndLoc d)) (f0 : Buf (Elt F) ((V d (cV L) (jV L)).loc cc0_scratch0))
    (g : ℕ) (hg : 16 * g + 16 ≤ 512) (inb : ∀ a, (![16 * g] : Fin 1 → ℕ) a + S16.size a ≤ S512.size a) :
    keepSel (shapeCast S16 (View.readAt (Elt F) (Memref.whole cc0_scratch0 : Memref sig .scVector .vmem S512 .f32).view (Rect.unit (s := S512) ![16 * g] S16.size inb).toLoadRect
        (View.write (Elt F) (Memref.whole cc0_scratch0 : Memref sig .scVector .vmem S512 .f32).view f0 (ReadAs.same.apply (View.read (Elt F) (Memref.whole main_arg1_scv : Memref sig .scVector .hbm S512 .f32).view rd)) Finset.univ)) shapeCasts_S16_S16)
      = keepSel (rndGrp rd g hg) := by
  exact congrArg keepSel ((shapeCast_same (s := S16) _ shapeCasts_S16_S16).trans (load_grp d L rd f0 g hg inb))

end Cert.Proof.KI

end
-- ==== Proof.TileInvV.lean ====
/-
  What the outer loop of a vector subcore's task keeps between trips, with the values: what each outstanding fetch
  lands, which of the tile's chunks hold the masked input already, and what the three loops over a buffer's blocks
  are required to do.
-/
import proofs.«205805_g86552180949287_cont_9to1_m_41_25_alg».proof.Proof.TileInv
import proofs.«205805_g86552180949287_cont_9to1_m_41_25_alg».proof.Proof.TileVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Buffer 1's fetch of the tile's chunk `m` is outstanding: its flight delivers the buffer at that chunk of the flat
    input and the lent elements of the read token; the token's other elements are held beside it. -/
def fetchingV0 (d : Dev nD) (L : grid0.Coords) (fl : Buf (Elt F) (fltLoc d)) (m : ℕ) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch1)),
    (Transfers.Flight countersEmb (V d (cV L) (jV L)) (SemLoc.dma cc0_scratch4.sem) default 917504
        iprop(((Memref.whole cc0_scratch1 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 0)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 0)} fl))
    ∗ ⌜g = chunkOf fl (cn L m)⌝)

/-- Buffer 2's fetch of the tile's chunk `m` is outstanding: its flight delivers the buffer at that chunk of the flat
    input and the lent elements of the read token; the token's other elements are held beside it. -/
def fetchingV1 (d : Dev nD) (L : grid0.Coords) (fl : Buf (Elt F) (fltLoc d)) (m : ℕ) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch2)),
    (Transfers.Flight countersEmb (V d (cV L) (jV L)) (SemLoc.dma cc0_scratch5.sem) default 917504
        iprop(((Memref.whole cc0_scratch2 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 1)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 1)} fl))
    ∗ ⌜g = chunkOf fl (cn L m)⌝)

/-- Buffer 3's fetch of the tile's chunk `m` is outstanding: its flight delivers the buffer at that chunk of the flat
    input and the lent elements of the read token; the token's other elements are held beside it. -/
def fetchingV2 (d : Dev nD) (L : grid0.Coords) (fl : Buf (Elt F) (fltLoc d)) (m : ℕ) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch3)),
    (Transfers.Flight countersEmb (V d (cV L) (jV L)) (SemLoc.dma cc0_scratch6.sem) default 917504
        iprop(((Memref.whole cc0_scratch3 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 2)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 2)} fl))
    ∗ ⌜g = chunkOf fl (cn L m)⌝)

/-- Before trip `k` of the outer loop: the fetches of the tile's chunks `3k, 3k+1, 3k+2` are outstanding (after the last
    trip: nothing is), no write-out is, and the tile's chunks below `3k` of the output hold the masked input, the others
    what the call found there. -/
def invV (d : Dev nD) (L : grid0.Coords) (fl : Buf (Elt F) (fltLoc d)) (rd : Buf (Elt F) (rndLoc d)) (o0 : Buf (Elt F) (outLoc d))
    (O : CellTallies nD τ sig (HIx 1)) (W : Waits sig (HIx 1)) (k : Nat) (_ : PUnit) : sProp 𝕄 :=
  iprop(Transfers.MayWaits (V d (cV L) (jV L)) (none : HIx 1) O
    ∗ (if k < 14 then iprop(fetchingV0 d L fl (3 * k + 0) ∗ fetchingV1 d L fl (3 * k + 1) ∗ fetchingV2 d L fl (3 * k + 2))
        else iprop(idle0 d L fl ∗ idle1 d L fl ∗ idle2 d L fl))
    ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0
    ∗ (bigSep Finset.univ (fun i : Fin 42 => (outLoc d ↦[chunkSet (tileChunk (cC L) (sC L) i)]{fullShare} (if i.val < 3 * k then (scOut fl rd : Buf (Elt F) (outLoc d)) else o0) : sProp 𝕄)))
    ∗ ∃ W', ⌜∀ p ∈ W', p ∈ W ∨ p.2 = none⌝ ∗ owes (V d (cV L) (jV L)) O W')

/-- What the loop over the seven blocks of scratch buffer 1 is required to do: leave the buffer with every word
    multiplied by its frame's multiplier. -/
def InnerSpec2 (d : Dev nD) (L : grid0.Coords) : Prop :=
  ∀ (v3 : BitVec 32) (v10 v17 v24 v31 v38 v45 v52 v59 v66 v73 v80 v87 v94 v101 v108 v115 v122 v129 v136 v143 v150 v157 v164 v171 v178 v185 v192 v199 v206 v213 v220 v227 : FVec F S16 .f32) (a b : BitVec 32) (t : Fin k0_t1_loop.trips) (g : Buf (Elt F) ((V d (cV L) (jV L)).loc cc0_scratch1)),
    ((Memref.whole cc0_scratch1 : Memref sig .scVector .vmem S28672 .f32).view.loc (V d (cV L) (jV L)) ↦{fullShare} g : sProp 𝕄)
      ⊢ wp frame (wpE (defs₀ (F := F)) 𝒱₀ (V d (cV L) (jV L)) none) Set.univ (Scf.Loop.for k0_t2_loop k0_t2_ok ⟨⟩ (k0_t2_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a b t))
          (fun _ => ((Memref.whole cc0_scratch1 : Memref sig .scVector .vmem S28672 .f32).view.loc (V d (cV L) (jV L)) ↦{fullShare} (maskBuf (mulTab v10 v17 v24 v31 v38 v45 v52 v59 v66 v73 v80 v87 v94 v101 v108 v115 v122 v129 v136 v143 v150 v157 v164 v171 v178 v185 v192 v199 v206 v213 v220 v227) g : Buf (Elt F) ((V d (cV L) (jV L)).loc cc0_scratch1)) : sProp 𝕄))

/-- What the loop over the seven blocks of scratch buffer 2 is required to do: leave the buffer with every word
    multiplied by its frame's multiplier. -/
def InnerSpec3 (d : Dev nD) (L : grid0.Coords) : Prop :=
  ∀ (v3 : BitVec 32) (v10 v17 v24 v31 v38 v45 v52 v59 v66 v73 v80 v87 v94 v101 v108 v115 v122 v129 v136 v143 v150 v157 v164 v171 v178 v185 v192 v199 v206 v213 v220 v227 : FVec F S16 .f32) (a b : BitVec 32) (t : Fin k0_t1_loop.trips) (g : Buf (Elt F) ((V d (cV L) (jV L)).loc cc0_scratch2)),
    ((Memref.whole cc0_scratch2 : Memref sig .scVector .vmem S28672 .f32).view.loc (V d (cV L) (jV L)) ↦{fullShare} g : sProp 𝕄)
      ⊢ wp frame (wpE (defs₀ (F := F)) 𝒱₀ (V d (cV L) (jV L)) none) Set.univ (Scf.Loop.for k0_t3_loop k0_t3_ok ⟨⟩ (k0_t3_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a b t))
          (fun _ => ((Memref.whole cc0_scratch2 : Memref sig .scVector .vmem S28672 .f32).view.loc (V d (cV L) (jV L)) ↦{fullShare} (maskBuf (mulTab v10 v17 v24 v31 v38 v45 v52 v59 v66 v73 v80 v87 v94 v101 v108 v115 v122 v129 v136 v143 v150 v157 v164 v171 v178 v185 v192 v199 v206 v213 v220 v227) g : Buf (Elt F) ((V d (cV L) (jV L)).loc cc0_scratch2)) : sProp 𝕄))

/-- What the loop over the seven blocks of scratch buffer 3 is required to do: leave the buffer with every word
    multiplied by its frame's multiplier. -/
def InnerSpec4 (d : Dev nD) (L : grid0.Coords) : Prop :=
  ∀ (v3 : BitVec 32) (v10 v17 v24 v31 v38 v45 v52 v59 v66 v73 v80 v87 v94 v101 v108 v115 v122 v129 v136 v143 v150 v157 v164 v171 v178 v185 v192 v199 v206 v213 v220 v227 : FVec F S16 .f32) (t : Fin k0_t1_loop.trips) (a b c : BitVec 32) (g : Buf (Elt F) ((V d (cV L) (jV L)).loc cc0_scratch3)),
    ((Memref.whole cc0_scratch3 : Memref sig .scVector .vmem S28672 .f32).view.loc (V d (cV L) (jV L)) ↦{fullShare} g : sProp 𝕄)
      ⊢ wp frame (wpE (defs₀ (F := F)) 𝒱₀ (V d (cV L) (jV L)) none) Set.univ (Scf.Loop.for k0_t4_loop k0_t4_ok ⟨⟩ (k0_t4_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 t a b c))
          (fun _ => ((Memref.whole cc0_scratch3 : Memref sig .scVector .vmem S28672 .f32).view.loc (V d (cV L) (jV L)) ↦{fullShare} (maskBuf (mulTab v10 v17 v24 v31 v38 v45 v52 v59 v66 v73 v80 v87 v94 v101 v108 v115 v122 v129 v136 v143 v150 v157 v164 v171 v178 v185 v192 v199 v206 v213 v220 v227) g : Buf (Elt F) ((V d (cV L) (jV L)).loc cc0_scratch3)) : sProp 𝕄))

omit [FloatOps F] in
theorem off1_val (L : grid0.Coords) (r : Fin 3) : k0_off1 L (BitVec.ofNat 32 (28672 * r.val)) 0 = 28672 * cn L r.val := by
  rw [k0_off1_eq]
  simp [cn]
  omega

omit [FloatOps F] in
theorem off6_val (L : grid0.Coords) (t : Fin k0_t1_loop.trips) : k0_off6 L t 0 = 28672 * cn L (3 * (t.val + 1) + 0) := by
  rw [k0_off6_eq]
  simp [cn]
  omega

omit [FloatOps F] in
theorem off7_val (L : grid0.Coords) (t : Fin k0_t1_loop.trips) : k0_off7 L t 0 = 28672 * cn L (3 * (t.val + 1) + 1) := by
  rw [k0_off7_eq]
  simp [cn]
  omega

omit [FloatOps F] in
theorem off8_val (L : grid0.Coords) (t : Fin k0_t1_loop.trips) : k0_off8 L t 0 = 28672 * cn L (3 * (t.val + 1) + 2) := by
  rw [k0_off8_eq]
  simp [cn]
  omega

/-- The chunks a trip does not write are held at the same contents before and after it. -/
theorem rest_congr (d : Dev nD) (L : grid0.Coords) (fl : Buf (Elt F) (fltLoc d)) (rd : Buf (Elt F) (rndLoc d)) (o0 : Buf (Elt F) (outLoc d))
    (k : Fin k0_t1_loop.trips) :
    bigSep (((Finset.univ.erase (chunkIx k 0)).erase (chunkIx k 1)).erase (chunkIx k 2)) (fun i : Fin 42 => (outLoc d ↦[chunkSet (tileChunk (cC L) (sC L) i)]{fullShare} (if i.val < 3 * k.val then (scOut fl rd : Buf (Elt F) (outLoc d)) else o0) : sProp 𝕄))
      = bigSep (((Finset.univ.erase (chunkIx k 0)).erase (chunkIx k 1)).erase (chunkIx k 2)) (fun i : Fin 42 => (outLoc d ↦[chunkSet (tileChunk (cC L) (sC L) i)]{fullShare} (if i.val < 3 * (k.val + 1) then (scOut fl rd : Buf (Elt F) (outLoc d)) else o0) : sProp 𝕄)) := by
  refine bigSep_congr fun i hi => ?_
  have h2 : i ≠ chunkIx k 2 := (Finset.mem_erase.mp hi).1
  have h1 : i ≠ chunkIx k 1 := (Finset.mem_erase.mp (Finset.mem_erase.mp hi).2).1
  have h0 : i ≠ chunkIx k 0 := (Finset.mem_erase.mp (Finset.mem_erase.mp (Finset.mem_erase.mp hi).2).2).1
  have n0 : i.val ≠ 3 * k.val + 0 := fun e => h0 (Fin.ext e)
  have n1 : i.val ≠ 3 * k.val + 1 := fun e => h1 (Fin.ext e)
  have n2 : i.val ≠ 3 * k.val + 2 := fun e => h2 (Fin.ext e)
  by_cases h : i.val < 3 * k.val
  · rw [if_pos h, if_pos (by omega)]
  · rw [if_neg h, if_neg (by omega)]

/-- Before the first trip no chunk is written. -/
theorem fam_zero (d : Dev nD) (L : grid0.Coords) (fl : Buf (Elt F) (fltLoc d)) (rd : Buf (Elt F) (rndLoc d)) (o0 : Buf (Elt F) (outLoc d)) :
    (bigSep Finset.univ fun i : Fin 42 => (outLoc d ↦[chunkSet (tileChunk (cC L) (sC L) i)]{fullShare} o0 : sProp 𝕄))
      = bigSep Finset.univ (fun i : Fin 42 => (outLoc d ↦[chunkSet (tileChunk (cC L) (sC L) i)]{fullShare} (if i.val < 3 * 0 then (scOut fl rd : Buf (Elt F) (outLoc d)) else o0) : sProp 𝕄)) :=
  bigSep_congr fun i _ => by rw [if_neg (by omega)]

/-- After the last trip every chunk is. -/
theorem fam_last (d : Dev nD) (L : grid0.Coords) (fl : Buf (Elt F) (fltLoc d)) (rd : Buf (Elt F) (rndLoc d)) (o0 : Buf (Elt F) (outLoc d)) :
    bigSep Finset.univ (fun i : Fin 42 => (outLoc d ↦[chunkSet (tileChunk (cC L) (sC L) i)]{fullShare} (if i.val < 3 * 14 then (scOut fl rd : Buf (Elt F) (outLoc d)) else o0) : sProp 𝕄))
      = bigSep Finset.univ fun i : Fin 42 => (outLoc d ↦[chunkSet (tileChunk (cC L) (sC L) i)]{fullShare} (scOut fl rd : Buf (Elt F) (outLoc d)) : sProp 𝕄) :=
  bigSep_congr fun i _ => by rw [if_pos (by have := i.isLt; omega)]

omit [FloatOps F] in
/-- What a write-out reads off a whole scratch buffer is the buffer's contents. -/
theorem read_same (b : Ref sig .scVector) (g : BufTy.Contents (Elt F) b.ty) :
    ReadAs.same.apply (View.read (Elt F) (Memref.whole b).view g) = g := by
  rw [ReadAs.apply_same]; exact View.read_whole _ _

end Cert.Proof.KI

end
-- ==== Proof.TileTripV.lean ====
/-
  One trip of the outer loop of a vector subcore's task, with the values: the fetched chunks go through the loops over
  their blocks and are written out as the masked input, the next three chunks are fetched, and the invariant holds at
  the next trip.
-/
import proofs.«205805_g86552180949287_cont_9to1_m_41_25_alg».proof.Proof.TileInvV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 2000000 in
theorem outer_tripV_pos (d : Dev nD) (L : grid0.Coords) (fl : Buf (Elt F) (fltLoc d)) (rd : Buf (Elt F) (rndLoc d)) (o0 : Buf (Elt F) (outLoc d))
    (O : CellTallies nD τ sig (HIx 1)) (W : Waits sig (HIx 1))
    (h2 : InnerSpec2 (F := F) d L) (h3 : InnerSpec3 (F := F) d L) (h4 : InnerSpec4 (F := F) d L)
    (v3 : BitVec 32) (v10 v17 v24 v31 v38 v45 v52 v59 v66 v73 v80 v87 v94 v101 v108 v115 v122 v129 v136 v143 v150 v157 v164 v171 v178 v185 v192 v199 v206 v213 v220 : FVec F S16 .f32) (v224 : IVec S16 1) (cst_93 cst_94 : F .f32)
    (hmul : ∀ g (hg : 16 * g + 16 ≤ 512), (mulTab v10 v17 v24 v31 v38 v45 v52 v59 v66 v73 v80 v87 v94 v101 v108 v115 v122 v129 v136 v143 v150 v157 v164 v171 v178 v185 v192 v199 v206 v213 v220 (k0_pay1 v224 cst_93 cst_94)) g = keepSel (rndGrp rd g hg))
    (k : Fin k0_t1_loop.trips) (acc : Unit) (hk1 : k.val + 1 < 14) :
    invV d L fl rd o0 O W k.val acc ⊢ wp frame (wpE (defs₀ (F := F)) 𝒱₀ (V d (cV L) (jV L)) none) Set.univ
      (k0_t1_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v224 cst_93 cst_94 k acc) (invV d L fl rd o0 O W (k.val + 1)) := by
  have hk : k.val < 14 := k.isLt
  unfold invV k0_t1_body
  rw [if_pos hk]
  unfold fetchingV0 fetchingV1 fetchingV2
  iintro ⟨#Hmw, ⟨⟨%A0, %g1, ⟨Hc4, Hfa⟩, %hg1⟩, ⟨%A1, %g2, ⟨Hc5, Hfb⟩, %hg2⟩, ⟨%A2, %g3, ⟨Hc6, Hfc⟩, %hg3⟩⟩, Hc7, Hc8, Hc9, Hout, %W', %hW', HO⟩
  ihave Hout' := (Entails.of_eq (out_take _ (chunkIx_ne k (r := 0) (r' := 1) (by decide)) (chunkIx_ne k (r := 0) (r' := 2) (by decide)) (chunkIx_ne k (r := 1) (r' := 2) (by decide)))) $$ Hout
  icases Hout' with ⟨Ho1, Ho2, Ho3, Hrest⟩
  ihave Ho1' := (Entails.of_eq (pts_oSl0 (F := F) d L k _).symm) $$ Ho1
  ihave Ho2' := (Entails.of_eq (pts_oSl1 (F := F) d L k _).symm) $$ Ho2
  ihave Ho3' := (Entails.of_eq (pts_oSl2 (F := F) d L k _).symm) $$ Ho3
  have h1 := cond1_pos k hk1
  have h2' := cond2_pos k hk1
  have h3' := cond3_pos k hk1
  sl_exec
  rw [wp_bind]
  iapply (wp_wand_r frame (wpE (defs₀ (F := F)) 𝒱₀ (V d (cV L) (jV L)) none) Set.univ)
  isplitl [Hc4_dst]
  · iapply (h2 _ _ _ _ _ _ _ _ _ _ _ _ _ _ _ _ _ _ _ _ _ _ _ _ _ _ _ _ _ _ _ _ _ _ _ _ g1); iexact Hc4_dst
  iintro %_ Hs1
  sl_exec
  rw [wp_bind]
  iapply (wp_wand_r frame (wpE (defs₀ (F := F)) 𝒱₀ (V d (cV L) (jV L)) none) Set.univ)
  isplitl [Hc5_dst]
  · iapply (h3 _ _ _ _ _ _ _ _ _ _ _ _ _ _ _ _ _ _ _ _ _ _ _ _ _ _ _ _ _ _ _ _ _ _ _ _ g2); iexact Hc5_dst
  iintro %_ Hs2
  sl_exec
  rw [wp_bind]
  iapply (wp_wand_r frame (wpE (defs₀ (F := F)) 𝒱₀ (V d (cV L) (jV L)) none) Set.univ)
  isplitl [Hc6_dst]
  · iapply (h4 _ _ _ _ _ _ _ _ _ _ _ _ _ _ _ _ _ _ _ _ _ _ _ _ _ _ _ _ _ _ _ _ _ _ _ _ _ g3); iexact Hc6_dst
  iintro %_ Hs3
  sl_exec
  sl_step
  rw [if_pos hk1]
  isplitr; · iexact Hmw
  isplitl [Hc4 Hfa Hc5 Hfb Hc6 Hfc]
  · isplitl [Hc4 Hfa]
    · iexists _, _; isplitl [Hc4 Hfa]
      · isplitl [Hc4]; · iexact Hc4
        iexact Hfa
      · ipureintro; exact fetch_val1 d L fl _ (k0_off6 L k) _ _ (off6_val L k)
    isplitl [Hc5 Hfb]
    · iexists _, _; isplitl [Hc5 Hfb]
      · isplitl [Hc5]; · iexact Hc5
        iexact Hfb
      · ipureintro; exact fetch_val2 d L fl _ (k0_off7 L k) _ _ (off7_val L k)
    · iexists _, _; isplitl [Hc6 Hfc]
      · isplitl [Hc6]; · iexact Hc6
        iexact Hfc
      · ipureintro; exact fetch_val3 d L fl _ (k0_off8 L k) _ _ (off8_val L k)
  isplitl [Hc7]; · iexact Hc7
  isplitl [Hc8]; · iexact Hc8
  isplitl [Hc9]; · iexact Hc9
  isplitl [Hrest Ho1' Ho2' Ho3']
  · rw [out_take _ (chunkIx_ne k (r := 0) (r' := 1) (by decide)) (chunkIx_ne k (r := 0) (r' := 2) (by decide)) (chunkIx_ne k (r := 1) (r' := 2) (by decide))]
    isplitl [Ho1']
    · rw [if_pos (show (chunkIx k 0).val < 3 * (k.val + 1) by simp only [chunkIx]; omega)]
      iapply (Entails.of_eq ((pts_oSl0 (F := F) d L k _).trans (wout_val d L fl rd k 0 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch1 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g1)).trans (by rw [hg1, cn_chunkIx]; rfl)))))
      iexact Ho1'
    isplitl [Ho2']
    · rw [if_pos (show (chunkIx k 1).val < 3 * (k.val + 1) by simp only [chunkIx]; omega)]
      iapply (Entails.of_eq ((pts_oSl1 (F := F) d L k _).trans (wout_val d L fl rd k 1 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch2 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g2)).trans (by rw [hg2, cn_chunkIx]; rfl)))))
      iexact Ho2'
    isplitl [Ho3']
    · rw [if_pos (show (chunkIx k 2).val < 3 * (k.val + 1) by simp only [chunkIx]; omega)]
      iapply (Entails.of_eq ((pts_oSl2 (F := F) d L k _).trans (wout_val d L fl rd k 2 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch3 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g3)).trans (by rw [hg3, cn_chunkIx]; rfl)))))
      iexact Ho3'
    rw [← rest_congr d L fl rd o0 k]
    iexact Hrest
  iexists _
  isplitr
  swap
  · iexact HO
  · ipureintro; intro p hp
    simp only [Finset.mem_insert] at hp
    rcases hp with rfl | rfl | rfl | rfl | rfl | rfl | hp <;> first | exact .inr rfl | exact hW' p hp

set_option maxHeartbeats 2000000 in
theorem outer_tripV_neg (d : Dev nD) (L : grid0.Coords) (fl : Buf (Elt F) (fltLoc d)) (rd : Buf (Elt F) (rndLoc d)) (o0 : Buf (Elt F) (outLoc d))
    (O : CellTallies nD τ sig (HIx 1)) (W : Waits sig (HIx 1))
    (h2 : InnerSpec2 (F := F) d L) (h3 : InnerSpec3 (F := F) d L) (h4 : InnerSpec4 (F := F) d L)
    (v3 : BitVec 32) (v10 v17 v24 v31 v38 v45 v52 v59 v66 v73 v80 v87 v94 v101 v108 v115 v122 v129 v136 v143 v150 v157 v164 v171 v178 v185 v192 v199 v206 v213 v220 : FVec F S16 .f32) (v224 : IVec S16 1) (cst_93 cst_94 : F .f32)
    (hmul : ∀ g (hg : 16 * g + 16 ≤ 512), (mulTab v10 v17 v24 v31 v38 v45 v52 v59 v66 v73 v80 v87 v94 v101 v108 v115 v122 v129 v136 v143 v150 v157 v164 v171 v178 v185 v192 v199 v206 v213 v220 (k0_pay1 v224 cst_93 cst_94)) g = keepSel (rndGrp rd g hg))
    (k : Fin k0_t1_loop.trips) (acc : Unit) (hk1 : ¬ k.val + 1 < 14) :
    invV d L fl rd o0 O W k.val acc ⊢ wp frame (wpE (defs₀ (F := F)) 𝒱₀ (V d (cV L) (jV L)) none) Set.univ
      (k0_t1_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v224 cst_93 cst_94 k acc) (invV d L fl rd o0 O W (k.val + 1)) := by
  have hk : k.val < 14 := k.isLt
  unfold invV k0_t1_body
  rw [if_pos hk]
  unfold fetchingV0 fetchingV1 fetchingV2
  iintro ⟨#Hmw, ⟨⟨%A0, %g1, ⟨Hc4, Hfa⟩, %hg1⟩, ⟨%A1, %g2, ⟨Hc5, Hfb⟩, %hg2⟩, ⟨%A2, %g3, ⟨Hc6, Hfc⟩, %hg3⟩⟩, Hc7, Hc8, Hc9, Hout, %W', %hW', HO⟩
  ihave Hout' := (Entails.of_eq (out_take _ (chunkIx_ne k (r := 0) (r' := 1) (by decide)) (chunkIx_ne k (r := 0) (r' := 2) (by decide)) (chunkIx_ne k (r := 1) (r' := 2) (by decide)))) $$ Hout
  icases Hout' with ⟨Ho1, Ho2, Ho3, Hrest⟩
  ihave Ho1' := (Entails.of_eq (pts_oSl0 (F := F) d L k _).symm) $$ Ho1
  ihave Ho2' := (Entails.of_eq (pts_oSl1 (F := F) d L k _).symm) $$ Ho2
  ihave Ho3' := (Entails.of_eq (pts_oSl2 (F := F) d L k _).symm) $$ Ho3
  have h1 := cond1_neg k hk1
  have h2' := cond2_neg k hk1
  have h3' := cond3_neg k hk1
  sl_exec
  rw [wp_bind]
  iapply (wp_wand_r frame (wpE (defs₀ (F := F)) 𝒱₀ (V d (cV L) (jV L)) none) Set.univ)
  isplitl [Hc4_dst]
  · iapply (h2 _ _ _ _ _ _ _ _ _ _ _ _ _ _ _ _ _ _ _ _ _ _ _ _ _ _ _ _ _ _ _ _ _ _ _ _ g1); iexact Hc4_dst
  iintro %_ Hs1
  sl_exec
  rw [wp_bind]
  iapply (wp_wand_r frame (wpE (defs₀ (F := F)) 𝒱₀ (V d (cV L) (jV L)) none) Set.univ)
  isplitl [Hc5_dst]
  · iapply (h3 _ _ _ _ _ _ _ _ _ _ _ _ _ _ _ _ _ _ _ _ _ _ _ _ _ _ _ _ _ _ _ _ _ _ _ _ g2); iexact Hc5_dst
  iintro %_ Hs2
  sl_exec
  rw [wp_bind]
  iapply (wp_wand_r frame (wpE (defs₀ (F := F)) 𝒱₀ (V d (cV L) (jV L)) none) Set.univ)
  isplitl [Hc6_dst]
  · iapply (h4 _ _ _ _ _ _ _ _ _ _ _ _ _ _ _ _ _ _ _ _ _ _ _ _ _ _ _ _ _ _ _ _ _ _ _ _ _ g3); iexact Hc6_dst
  iintro %_ Hs3
  sl_exec
  sl_step
  rw [if_neg hk1]
  unfold idle0 idle1 idle2
  isplitr; · iexact Hmw
  isplitl [Hs1 Hc4 Hfa Hs2 Hc5 Hfb Hs3 Hc6 Hfc]
  · isplitl [Hs1 Hc4 Hfa]
    · isplitl [Hs1]; · iexists _; iexact Hs1
      isplitl [Hc4]; · iexact Hc4
      iexact Hfa
    isplitl [Hs2 Hc5 Hfb]
    · isplitl [Hs2]; · iexists _; iexact Hs2
      isplitl [Hc5]; · iexact Hc5
      iexact Hfb
    · isplitl [Hs3]; · iexists _; iexact Hs3
      isplitl [Hc6]; · iexact Hc6
      iexact Hfc
  isplitl [Hc7]; · iexact Hc7
  isplitl [Hc8]; · iexact Hc8
  isplitl [Hc9]; · iexact Hc9
  isplitl [Hrest Ho1' Ho2' Ho3']
  · rw [out_take _ (chunkIx_ne k (r := 0) (r' := 1) (by decide)) (chunkIx_ne k (r := 0) (r' := 2) (by decide)) (chunkIx_ne k (r := 1) (r' := 2) (by decide))]
    isplitl [Ho1']
    · rw [if_pos (show (chunkIx k 0).val < 3 * (k.val + 1) by simp only [chunkIx]; omega)]
      iapply (Entails.of_eq ((pts_oSl0 (F := F) d L k _).trans (wout_val d L fl rd k 0 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch1 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g1)).trans (by rw [hg1, cn_chunkIx]; rfl)))))
      iexact Ho1'
    isplitl [Ho2']
    · rw [if_pos (show (chunkIx k 1).val < 3 * (k.val + 1) by simp only [chunkIx]; omega)]
      iapply (Entails.of_eq ((pts_oSl1 (F := F) d L k _).trans (wout_val d L fl rd k 1 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch2 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g2)).trans (by rw [hg2, cn_chunkIx]; rfl)))))
      iexact Ho2'
    isplitl [Ho3']
    · rw [if_pos (show (chunkIx k 2).val < 3 * (k.val + 1) by simp only [chunkIx]; omega)]
      iapply (Entails.of_eq ((pts_oSl2 (F := F) d L k _).trans (wout_val d L fl rd k 2 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch3 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g3)).trans (by rw [hg3, cn_chunkIx]; rfl)))))
      iexact Ho3'
    rw [← rest_congr d L fl rd o0 k]
    iexact Hrest
  iexists _
  isplitr
  swap
  · iexact HO
  · ipureintro; intro p hp
    simp only [Finset.mem_insert] at hp
    rcases hp with rfl | rfl | rfl | rfl | rfl | rfl | hp <;> first | exact .inr rfl | exact hW' p hp

theorem outer_tripV (d : Dev nD) (L : grid0.Coords) (fl : Buf (Elt F) (fltLoc d)) (rd : Buf (Elt F) (rndLoc d)) (o0 : Buf (Elt F) (outLoc d))
    (O : CellTallies nD τ sig (HIx 1)) (W : Waits sig (HIx 1))
    (h2 : InnerSpec2 (F := F) d L) (h3 : InnerSpec3 (F := F) d L) (h4 : InnerSpec4 (F := F) d L)
    (v3 : BitVec 32) (v10 v17 v24 v31 v38 v45 v52 v59 v66 v73 v80 v87 v94 v101 v108 v115 v122 v129 v136 v143 v150 v157 v164 v171 v178 v185 v192 v199 v206 v213 v220 : FVec F S16 .f32) (v224 : IVec S16 1) (cst_93 cst_94 : F .f32)
    (hmul : ∀ g (hg : 16 * g + 16 ≤ 512), (mulTab v10 v17 v24 v31 v38 v45 v52 v59 v66 v73 v80 v87 v94 v101 v108 v115 v122 v129 v136 v143 v150 v157 v164 v171 v178 v185 v192 v199 v206 v213 v220 (k0_pay1 v224 cst_93 cst_94)) g = keepSel (rndGrp rd g hg))
    (k : Fin k0_t1_loop.trips) (acc : Unit) :
    invV d L fl rd o0 O W k.val acc ⊢ wp frame (wpE (defs₀ (F := F)) 𝒱₀ (V d (cV L) (jV L)) none) Set.univ
      (k0_t1_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v224 cst_93 cst_94 k acc) (invV d L fl rd o0 O W (k.val + 1)) := by
  by_cases hk1 : k.val + 1 < 14
  · exact outer_tripV_pos d L fl rd o0 O W h2 h3 h4 _ _ _ _ _ _ _ _ _ _ _ _ _ _ _ _ _ _ _ _ _ _ _ _ _ _ _ _ _ _ _ _ _ _ _ hmul k acc hk1
  · exact outer_tripV_neg d L fl rd o0 O W h2 h3 h4 _ _ _ _ _ _ _ _ _ _ _ _ _ _ _ _ _ _ _ _ _ _ _ _ _ _ _ _ _ _ _ _ _ _ _ hmul k acc hk1

end Cert.Proof.KI

end
-- ==== Proof.TileMain.lean ====
/-
  One vector subcore's task, from what the three loops over a buffer's blocks are required to do: the copy of the random
  numbers and the 32 multiplier groups (each the keep mask of its group), the first three fetches, the outer loop by its
  invariant, and the hand given back with every one of the tile's 42 chunks at the masked input.
-/
import proofs.«205805_g86552180949287_cont_9to1_m_41_25_alg».proof.Proof.TileTripV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 1000000 in
/-- The task on vector subcore `(L 0, L 1)` of device `d`, given the three inner loops' effect on their buffers. -/
theorem tile_body_of_inner (d : Dev nD) (L : grid0.Coords) (hF : (K (F := F)).Facts)
    (fl : Buf (Elt F) (fltLoc d)) (rd : Buf (Elt F) (rndLoc d)) (o0 : Buf (Elt F) (outLoc d))
    (O : CellTallies nD τ sig (HIx 1)) (W : Waits sig (HIx 1)) (hO : ∀ g, O g none = 0)
    (h2 : InnerSpec2 (F := F) d L) (h3 : InnerSpec3 (F := F) d L) (h4 : InnerSpec4 (F := F) d L) :
    iprop(levAts (K (F := F)).L (K (F := F)).lev ∗ emp ∗ tileGo d (cC L) (sC L) fl rd o0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0)
          fun _ => iprop(tileTd d (cC L) (sC L) fl rd ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Hfl, Hrd, Hout⟩, ⟨⟨⟨%f0, Hs0⟩, ⟨%f1, Hs1⟩, ⟨%f2, Hs2⟩, ⟨%f3, Hs3⟩⟩, Hbufs⟩, ⟨⟨Hc0, Hc4, Hc5, Hc6, Hc7, Hc8, Hc9⟩, Hsems⟩, HO⟩
  ihave Hmw := ((K (F := F)).mayWaits_none (thr := (V d (cV L) (jV L))) hO) $$ Hlv
  ihave Hsp := (Transfers.pointsTo_toks_split (Transfers.shareTok fullShare 32 (widx (cC L) (sC L))) 3) $$ Hfl
  icases Hsp with ⟨Hfr, Htoks⟩
  ihave Htoks' := (Entails.of_eq (toks3 (F := F) _ _)) $$ Htoks
  icases Htoks' with ⟨Hfa, Hfb, Hfc⟩
  ihave Hfa' := (Entails.of_eq (pts_fl (F := F) d L _ _).symm) $$ Hfa
  ihave Hfb' := (Entails.of_eq (pts_fl (F := F) d L _ _).symm) $$ Hfb
  ihave Hfc' := (Entails.of_eq (pts_fl (F := F) d L _ _).symm) $$ Hfc
  ihave Hrd' := (Entails.of_eq (pts_rd (F := F) d L _ _).symm) $$ Hrd
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  sl_exec
  sl_for (invV d L fl rd o0 O W) $$ [Hmw Hc4 Hfa' Hc5 Hfb' Hc6 Hfc' Hc7 Hc8 Hc9 Hout HO]
  case region =>
    intro k acc
    exact outer_tripV d L fl rd o0 O W h2 h3 h4 _ _ _ _ _ _ _ _ _ _ _ _ _ _ _ _ _ _ _ _ _ _ _ _ _ _ _ _ _ _ _ _ _ _ _
      (by
        intro g hg
        have hg32 : g < 32 := by omega
        interval_cases g <;> exact mul_case d L rd f0 _ hg _) k acc
  · unfold invV
    rw [if_pos (by decide : (0 : ℕ) < 14)]
    unfold fetchingV0 fetchingV1 fetchingV2
    isplitl [Hmw]; · iexact Hmw
    isplitl [Hc4 Hfa' Hc5 Hfb' Hc6 Hfc']
    · isplitl [Hc4 Hfa']
      · iexists _, _; isplitl [Hc4 Hfa']
        · isplitl [Hc4]; · iexact Hc4
          iexact Hfa'
        · ipureintro; exact fetch_val1 d L fl _ (k0_off1 L 0#32) _ _ (off1_val L 0)
      isplitl [Hc5 Hfb']
      · iexists _, _; isplitl [Hc5 Hfb']
        · isplitl [Hc5]; · iexact Hc5
          iexact Hfb'
        · ipureintro; exact fetch_val2 d L fl _ (k0_off1 L 28672#32) _ _ (off1_val L 1)
      · iexists _, _; isplitl [Hc6 Hfc']
        · isplitl [Hc6]; · iexact Hc6
          iexact Hfc'
        · ipureintro; exact fetch_val3 d L fl _ (k0_off1 L 57344#32) _ _ (off1_val L 2)
    isplitl [Hc7]; · iexact Hc7
    isplitl [Hc8]; · iexact Hc8
    isplitl [Hc9]; · iexact Hc9
    isplitl [Hout]
    · iapply (Entails.of_eq (fam_zero (F := F) d L fl rd o0)); iexact Hout
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold invV
  rw [if_neg (by decide : ¬ (k0_t1_loop.trips : ℕ) < 14)]
  unfold idle0 idle1 idle2
  icases HI with ⟨-, ⟨⟨⟨%g1, Hs1⟩, Hc4, Hfa⟩, ⟨⟨%g2, Hs2⟩, Hc5, Hfb⟩, ⟨⟨%g3, Hs3⟩, Hc6, Hfc⟩⟩, Hc7, Hc8, Hc9, Hout, %W', %hW', HO⟩
  sl_exec
  sl_step
  isplitl [Hfr Hfa Hfb Hfc Hrd' Hout]
  · isplitl [Hfr Hfa Hfb Hfc]
    · iapply (Transfers.pointsTo_toks_join (Transfers.shareTok fullShare 32 (widx (cC L) (sC L))) 3)
      isplitl [Hfr]; · iexact Hfr
      rw [toks3]
      isplitl [Hfa]; · iapply (Entails.of_eq (pts_fl (F := F) d L _ _)); iexact Hfa
      isplitl [Hfb]; · iapply (Entails.of_eq (pts_fl (F := F) d L _ _)); iexact Hfb
      iapply (Entails.of_eq (pts_fl (F := F) d L _ _)); iexact Hfc
    isplitl [Hrd']; · iapply (Entails.of_eq (pts_rd (F := F) d L _ _)); iexact Hrd'
    iapply (Entails.of_eq (fam_last (F := F) d L fl rd o0)); iexact Hout
  isplitl [Hs0' Hs1 Hs2 Hs3 Hbufs]
  · isplitl [Hs0' Hs1 Hs2 Hs3]
    · isplitl [Hs0']; · iexists _; iexact Hs0'
      isplitl [Hs1]; · iexists _; iexact Hs1
      isplitl [Hs2]; · iexists _; iexact Hs2
      iexists _; iexact Hs3
    iexact Hbufs
  isplitl [Hc0 Hc4 Hc5 Hc6 Hc7 Hc8 Hc9 Hsems]
  · isplitl [Hc0 Hc4 Hc5 Hc6 Hc7 Hc8 Hc9]
    · isplitl [Hc0]; · iexact Hc0
      isplitl [Hc4]; · iexact Hc4
      isplitl [Hc5]; · iexact Hc5
      isplitl [Hc6]; · iexact Hc6
      isplitl [Hc7]; · iexact Hc7
      isplitl [Hc8]; · iexact Hc8
      iexact Hc9
    iexact Hsems
  iexists W'; isplitr
  · ipureintro; exact hW'
  · iexact HO

end Cert.Proof.KI

end
-- ==== Proof.TileInnerValT1.lean ====
/-
  Scratch buffer 1's in-place loop, by the stores: the rectangle of a store, what a load of it reads, a printed part's
  four stores over any contents, and the step from the buffer after n stores to the buffer after n + 4.
-/
import proofs.«205805_g86552180949287_cont_9to1_m_41_25_alg».proof.Proof.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

abbrev vw1 : View sig .scVector .vmem S28672 .f32 := (Memref.whole cc0_scratch1 : Memref sig .scVector .vmem S28672 .f32).view

/-- The sixteen words of a store of trip `k`, as the program slices them. -/
abbrev Rk1 (k : Fin k0_t2_loop.trips) (t : Tr) : Rect S28672 :=
  Rect.unit (k0_off3 k (BitVec.ofNat 32 (1024 * t.1.val)) (BitVec.ofNat 32 (128 * t.2.1.val)) (BitVec.ofNat 32 (16 * t.2.2.val))) S16.size
    (k0_off3_inb k t.1 t.2.1 t.2.2)

/-- What a load of them reads. -/
abbrev rd1 (f : (⟨S28672, .f32⟩ : BufTy).Contents (Elt F)) (k : Fin k0_t2_loop.trips) (t : Tr) : Vec F S16 .f32 :=
  View.readAt (Elt F) vw1 (Rk1 k t).toLoadRect f

/-- A printed part's four stores over contents `f`: the carried product, then three loaded sixteens times the multiplier. -/
def wr4_1 (f : (⟨S28672, .f32⟩ : BufTy).Contents (Elt F)) (x m : FVec F S16 .f32) (k : Fin k0_t2_loop.trips) (t0 t1 t2 t3 : Tr) :
    (⟨S28672, .f32⟩ : BufTy).Contents (Elt F) :=
  vw1.writes (Elt F) f [⟨Rk1 k t3, payM m (rd1 f k t3)⟩, ⟨Rk1 k t2, payM m (rd1 f k t2)⟩, ⟨Rk1 k t1, payM m (rd1 f k t1)⟩, ⟨Rk1 k t0, payS x⟩]

/-- The first part's three. -/
def wr3_1 (f : (⟨S28672, .f32⟩ : BufTy).Contents (Elt F)) (m : FVec F S16 .f32) (k : Fin k0_t2_loop.trips) (t0 t1 t2 : Tr) :
    (⟨S28672, .f32⟩ : BufTy).Contents (Elt F) :=
  vw1.writes (Elt F) f [⟨Rk1 k t2, payM m (rd1 f k t2)⟩, ⟨Rk1 k t1, payM m (rd1 f k t1)⟩, ⟨Rk1 k t0, payM m (rd1 f k t0)⟩]

theorem emb1 (k : Fin k0_t2_loop.trips) (t : Tr) (x : S16.Idx) : (((Rk1 k t).emb x) 0).val = offw k.val t + (x 0).val := by
  show (k0_off3 k _ _ _) 0 + 1 * (x 0).val = _
  rw [k0_off3_eq k t.1 t.2.1 t.2.2]
  show (4096 * k.val + 1024 * t.1.val + 128 * t.2.1.val + 16 * t.2.2.val) + 1 * (x 0).val = _
  unfold offw; omega

theorem mem1 (k : Fin k0_t2_loop.trips) (t : Tr) (p : S28672.Idx) :
    p ∈ (vw1.slice (Rk1 k t)).set ↔ (offw k.val t ≤ (p 0).val ∧ (p 0).val < offw k.val t + 16) := by
  show p ∈ ((View.whole cc0_scratch1).slice (Rk1 k t)).set ↔ _
  rw [View.set_slice_whole, Rect.mem_set_unit]
  have e : (k0_off3 k (BitVec.ofNat 32 (1024 * t.1.val)) (BitVec.ofNat 32 (128 * t.2.1.val)) (BitVec.ofNat 32 (16 * t.2.2.val))) 0 = offw k.val t := by
    rw [k0_off3_eq k t.1 t.2.1 t.2.2]; rfl
  constructor
  · intro h; have h0 := h 0; rw [e] at h0; exact h0
  · intro h a
    match a with
    | ⟨0, _⟩ =>
      show (k0_off3 k (BitVec.ofNat 32 (1024 * t.1.val)) (BitVec.ofNat 32 (128 * t.2.1.val)) (BitVec.ofNat 32 (16 * t.2.2.val))) 0 ≤ (p 0).val
        ∧ (p 0).val < (k0_off3 k (BitVec.ofNat 32 (1024 * t.1.val)) (BitVec.ofNat 32 (128 * t.2.1.val)) (BitVec.ofNat 32 (16 * t.2.2.val))) 0 + 16
      rw [e]; exact h

/-- A load of a sixteen not yet stored reads the buffer as the trip found it. -/
theorem rd1_stC (mul : ℕ → FVec F S16 .f32) (g : (⟨S28672, .f32⟩ : BufTy).Contents (Elt F)) (k : Fin k0_t2_loop.trips) (n : ℕ) (t : Tr)
    (hn : n ≤ num t) (x : S16.Idx) : rd1 (stC mul g k.val n) k t x = g ((Rk1 k t).emb x) := by
  show stC mul g k.val n ((Rk1 k t).emb x) = _
  have hx : (x 0).val < 16 := (x 0).isLt
  have he := emb1 k t x
  have := (in_iff k.val t (((Rk1 k t).emb x) 0).val).mp ⟨by omega, by omega⟩
  exact stC_of_ge mul g k.val n _ this.1 (by omega)

/-- THE STEP: the right product stored over the sixteen of store number `num t`. -/
theorem store1 (mul : ℕ → FVec F S16 .f32) (g : (⟨S28672, .f32⟩ : BufTy).Contents (Elt F)) (k : Fin k0_t2_loop.trips) (t : Tr) (v : FVec F S16 .f32)
    (hv : ∀ x : S16.Idx, v x = FloatOps.mulf (g ((Rk1 k t).emb x)) (mul (grp t) x)) :
    (vw1.slice (Rk1 k t)).write (Elt F) (stC mul g k.val (num t)) v Finset.univ = stC mul g k.val (num t + 1) := by
  refine stC_step mul g k.val t _ (fun p h1 h2 => ?_) (fun p hp => ?_)
  · have hm : p ∈ (vw1.slice (Rk1 k t)).set := (mem1 k t p).mpr ⟨h1, h2⟩
    obtain ⟨x, rfl⟩ := View.exists_emb_of_mem_set _ hm
    rw [View.write_emb_of_mem _ _ (Finset.mem_univ x), cast_eq, hv x]
    show _ = maskBuf mul g ((Rk1 k t).emb x)
    have h1' : offw k.val t ≤ (((Rk1 k t).emb x) 0).val := h1
    have h2' : (((Rk1 k t).emb x) 0).val < offw k.val t + 16 := h2
    obtain ⟨hg, hl⟩ := grp_of_in k.val t _ ⟨h1', h2'⟩
    unfold maskBuf
    rw [hg]
    congr 2
    funext a
    match a with
    | ⟨0, _⟩ => exact Fin.ext (by show (x 0).val = (((Rk1 k t).emb x) 0).val % 16; rw [hl, emb1]; omega)
  · rw [View.write_of_not_mem _ _ _ (by rw [View.setOn_univ]; exact fun hm => hp ((mem1 k t p).mp hm))]

/-- A PART'S STEP: from the buffer after `n0` stores, with the product for store `n0` carried, the part's four stores
    give the buffer after `n0 + 4`, and the product it carries on is the one for store `n0 + 4`. -/
theorem part_step1 (mul : ℕ → FVec F S16 .f32) (g : (⟨S28672, .f32⟩ : BufTy).Contents (Elt F)) (k : Fin k0_t2_loop.trips)
    (t0 t1 t2 t3 t4 : Tr) (n0 : ℕ) (h0 : n0 = num t0) (h1 : n0 + 1 = num t1) (h2 : n0 + 2 = num t2) (h3 : n0 + 3 = num t3) (h4 : n0 + 4 = num t4)
    (m : FVec F S16 .f32) (hm1 : m = mul (grp t1)) (hm2 : m = mul (grp t2)) (hm3 : m = mul (grp t3)) (hm4 : m = mul (grp t4))
    (x : FVec F S16 .f32) (hx : x = payP (mul (grp t0)) (rd1 g k t0)) :
    wr4_1 (stC mul g k.val n0) x m k t0 t1 t2 t3 = stC mul g k.val (n0 + 4)
      ∧ payP m (rd1 (stC mul g k.val n0) k t4) = payP (mul (grp t4)) (rd1 g k t4) := by
  constructor
  · unfold wr4_1
    rw [View.writes_cons, View.writes_cons, View.writes_cons, View.writes_cons, View.writes_nil]
    have e0 : (vw1.slice (Rk1 k t0)).write (Elt F) (stC mul g k.val n0) (payS x) Finset.univ = stC mul g k.val (n0 + 1) := by
      have s := store1 mul g k t0 (payS x) (fun i => by rw [payS_eq, hx, payP_apply]; rfl)
      rw [← h0] at s; exact s
    have e1 : (vw1.slice (Rk1 k t1)).write (Elt F) (stC mul g k.val (n0 + 1)) (payM m (rd1 (stC mul g k.val n0) k t1)) Finset.univ = stC mul g k.val (n0 + 2) := by
      have s := store1 mul g k t1 (payM m (rd1 (stC mul g k.val n0) k t1)) (fun i => by rw [payM_apply, rd1_stC mul g k n0 t1 (by omega), hm1])
      rw [← h1] at s; exact s
    have e2 : (vw1.slice (Rk1 k t2)).write (Elt F) (stC mul g k.val (n0 + 2)) (payM m (rd1 (stC mul g k.val n0) k t2)) Finset.univ = stC mul g k.val (n0 + 3) := by
      have s := store1 mul g k t2 (payM m (rd1 (stC mul g k.val n0) k t2)) (fun i => by rw [payM_apply, rd1_stC mul g k n0 t2 (by omega), hm2])
      rw [← h2] at s; exact s
    have e3 : (vw1.slice (Rk1 k t3)).write (Elt F) (stC mul g k.val (n0 + 3)) (payM m (rd1 (stC mul g k.val n0) k t3)) Finset.univ = stC mul g k.val (n0 + 4) := by
      have s := store1 mul g k t3 (payM m (rd1 (stC mul g k.val n0) k t3)) (fun i => by rw [payM_apply, rd1_stC mul g k n0 t3 (by omega), hm3])
      rw [← h3] at s; exact s
    show (vw1.slice (Rk1 k t3)).write (Elt F) ((vw1.slice (Rk1 k t2)).write (Elt F) ((vw1.slice (Rk1 k t1)).write (Elt F)
      ((vw1.slice (Rk1 k t0)).write (Elt F) (stC mul g k.val n0) (payS x) Finset.univ) _ Finset.univ) _ Finset.univ) _ Finset.univ = _
    rw [e0, e1, e2, e3]
  · funext i
    rw [payP_apply, payP_apply, rd1_stC mul g k n0 t4 (by omega), hm4]
    rfl

/-- The first part's step: three stores from the buffer as the trip found it. -/
theorem part_first1 (mul : ℕ → FVec F S16 .f32) (g : (⟨S28672, .f32⟩ : BufTy).Contents (Elt F)) (k : Fin k0_t2_loop.trips)
    (t0 t1 t2 t3 : Tr) (h0 : 0 = num t0) (h1 : 1 = num t1) (h2 : 2 = num t2) (h3 : 3 = num t3)
    (m : FVec F S16 .f32) (hm0 : m = mul (grp t0)) (hm1 : m = mul (grp t1)) (hm2 : m = mul (grp t2)) (hm3 : m = mul (grp t3)) :
    wr3_1 (stC mul g k.val 0) m k t0 t1 t2 = stC mul g k.val 3
      ∧ payP m (rd1 (stC mul g k.val 0) k t3) = payP (mul (grp t3)) (rd1 g k t3) := by
  constructor
  · unfold wr3_1
    rw [View.writes_cons, View.writes_cons, View.writes_cons, View.writes_nil]
    have e0 : (vw1.slice (Rk1 k t0)).write (Elt F) (stC mul g k.val 0) (payM m (rd1 (stC mul g k.val 0) k t0)) Finset.univ = stC mul g k.val (0 + 1) := by
      have s := store1 mul g k t0 (payM m (rd1 (stC mul g k.val 0) k t0)) (fun i => by rw [payM_apply, rd1_stC mul g k 0 t0 (by omega), hm0])
      rw [← h0] at s; exact s
    have e1 : (vw1.slice (Rk1 k t1)).write (Elt F) (stC mul g k.val (0 + 1)) (payM m (rd1 (stC mul g k.val 0) k t1)) Finset.univ = stC mul g k.val (1 + 1) := by
      have s := store1 mul g k t1 (payM m (rd1 (stC mul g k.val 0) k t1)) (fun i => by rw [payM_apply, rd1_stC mul g k 0 t1 (by omega), hm1])
      rw [← h1] at s; exact s
    have e2 : (vw1.slice (Rk1 k t2)).write (Elt F) (stC mul g k.val (1 + 1)) (payM m (rd1 (stC mul g k.val 0) k t2)) Finset.univ = stC mul g k.val (2 + 1) := by
      have s := store1 mul g k t2 (payM m (rd1 (stC mul g k.val 0) k t2)) (fun i => by rw [payM_apply, rd1_stC mul g k 0 t2 (by omega), hm2])
      rw [← h2] at s; exact s
    show (vw1.slice (Rk1 k t2)).write (Elt F) ((vw1.slice (Rk1 k t1)).write (Elt F)
      ((vw1.slice (Rk1 k t0)).write (Elt F) (stC mul g k.val 0) _ Finset.univ) _ Finset.univ) _ Finset.univ = _
    rw [e0, e1, e2]
  · funext i
    rw [payP_apply, payP_apply, rd1_stC mul g k 0 t3 (by omega), hm3]
    rfl

/-- The last store: the carried product for store 255. -/
theorem part_last1 (mul : ℕ → FVec F S16 .f32) (g : (⟨S28672, .f32⟩ : BufTy).Contents (Elt F)) (k : Fin k0_t2_loop.trips)
    (t0 : Tr) (h0 : 255 = num t0) (x : FVec F S16 .f32) (hx : x = payP (mul (grp t0)) (rd1 g k t0)) :
    vw1.writes (Elt F) (stC mul g k.val 255) [⟨Rk1 k t0, payS x⟩] = stC mul g k.val 256 := by
  show (vw1.slice (Rk1 k t0)).write (Elt F) (stC mul g k.val 255) (payS x) Finset.univ = stC mul g k.val 256
  have s := store1 mul g k t0 (payS x) (fun i => by rw [payS_eq, hx, payP_apply]; rfl)
  rw [← h0] at s; exact s

end Cert.Proof.KI

end
-- ==== Proof.TileInnerValP1.lean ====
/-
  Scratch buffer 1's in-place loop, part by part: each printed part of a trip is run once over ANY contents (its four
  stores and the product it carries on, as the three payload shapes), the parts are composed along the trip with the
  buffer kept in closed form by the number of stores done, and the loop goes by the blocks done.
  The table of parts below is a listing of the program's own parts in order (store numbers 4i − 5 … 4i − 2 for part i,
  the pending one 4i − 1); each entry has the same three-line proof.
-/
import proofs.«205805_g86552180949287_cont_9to1_m_41_25_alg».proof.Proof.TileInnerValT1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

theorem b1_part1 (d : Dev nD) (L : grid0.Coords) (m : FVec F S16 .f32) (a c : BitVec 32) (k : Fin k0_t2_loop.trips) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part1 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m a c k)
      (fun r => iprop(⌜r.2.1 = payP m (rd1 f k ((0 : Fin 4), (3 : Fin 8), (0 : Fin 8)))⌝ ∗ ((Memref.whole cc0_scratch1 : Memref sig .scVector .vmem S28672 .f32).view.loc (V d (cV L) (jV L)) ↦{fullShare} wr3_1 f m k ((0 : Fin 4), (0 : Fin 8), (0 : Fin 8)) ((0 : Fin 4), (1 : Fin 8), (0 : Fin 8)) ((0 : Fin 4), (2 : Fin 8), (0 : Fin 8))))) := by
  iintro Hs
  sl_exec
  sl_step
  isplitr; · ipureintro; rfl
  iexact Hs

theorem b1_part2 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part2 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (0 : Fin 8)))⌝ ∗ ((Memref.whole cc0_scratch1 : Memref sig .scVector .vmem S28672 .f32).view.loc (V d (cV L) (jV L)) ↦{fullShare} wr4_1 f x m k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8))))) := by
  iintro Hs
  sl_exec
  sl_step
  isplitr; · ipureintro; rfl
  iexact Hs

theorem b1_part3 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part3 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (1 : Fin 8)))⌝ ∗ ((Memref.whole cc0_scratch1 : Memref sig .scVector .vmem S28672 .f32).view.loc (V d (cV L) (jV L)) ↦{fullShare} wr4_1 f x m k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8))))) := by
  iintro Hs
  sl_exec
  sl_step
  isplitr; · ipureintro; rfl
  iexact Hs

theorem b1_part4 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part4 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (1 : Fin 8)))⌝ ∗ ((Memref.whole cc0_scratch1 : Memref sig .scVector .vmem S28672 .f32).view.loc (V d (cV L) (jV L)) ↦{fullShare} wr4_1 f x m k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8))))) := by
  iintro Hs
  sl_exec
  sl_step
  isplitr; · ipureintro; rfl
  iexact Hs

theorem b1_part5 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part5 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (2 : Fin 8)))⌝ ∗ ((Memref.whole cc0_scratch1 : Memref sig .scVector .vmem S28672 .f32).view.loc (V d (cV L) (jV L)) ↦{fullShare} wr4_1 f x m k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8))))) := by
  iintro Hs
  sl_exec
  sl_step
  isplitr; · ipureintro; rfl
  iexact Hs

theorem b1_part6 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part6 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (2 : Fin 8)))⌝ ∗ ((Memref.whole cc0_scratch1 : Memref sig .scVector .vmem S28672 .f32).view.loc (V d (cV L) (jV L)) ↦{fullShare} wr4_1 f x m k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8))))) := by
  iintro Hs
  sl_exec
  sl_step
  isplitr; · ipureintro; rfl
  iexact Hs

theorem b1_part7 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part7 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (3 : Fin 8)))⌝ ∗ ((Memref.whole cc0_scratch1 : Memref sig .scVector .vmem S28672 .f32).view.loc (V d (cV L) (jV L)) ↦{fullShare} wr4_1 f x m k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8))))) := by
  iintro Hs
  sl_exec
  sl_step
  isplitr; · ipureintro; rfl
  iexact Hs

theorem b1_part8 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part8 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (3 : Fin 8)))⌝ ∗ ((Memref.whole cc0_scratch1 : Memref sig .scVector .vmem S28672 .f32).view.loc (V d (cV L) (jV L)) ↦{fullShare} wr4_1 f x m k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8))))) := by
  iintro Hs
  sl_exec
  sl_step
  isplitr; · ipureintro; rfl
  iexact Hs

theorem b1_part9 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part9 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (4 : Fin 8)))⌝ ∗ ((Memref.whole cc0_scratch1 : Memref sig .scVector .vmem S28672 .f32).view.loc (V d (cV L) (jV L)) ↦{fullShare} wr4_1 f x m k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8))))) := by
  iintro Hs
  sl_exec
  sl_step
  isplitr; · ipureintro; rfl
  iexact Hs

theorem b1_part10 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part10 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (4 : Fin 8)))⌝ ∗ ((Memref.whole cc0_scratch1 : Memref sig .scVector .vmem S28672 .f32).view.loc (V d (cV L) (jV L)) ↦{fullShare} wr4_1 f x m k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8))))) := by
  iintro Hs
  sl_exec
  sl_step
  isplitr; · ipureintro; rfl
  iexact Hs

theorem b1_part11 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part11 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (5 : Fin 8)))⌝ ∗ ((Memref.whole cc0_scratch1 : Memref sig .scVector .vmem S28672 .f32).view.loc (V d (cV L) (jV L)) ↦{fullShare} wr4_1 f x m k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8))))) := by
  iintro Hs
  sl_exec
  sl_step
  isplitr; · ipureintro; rfl
  iexact Hs

theorem b1_part12 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part12 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (5 : Fin 8)))⌝ ∗ ((Memref.whole cc0_scratch1 : Memref sig .scVector .vmem S28672 .f32).view.loc (V d (cV L) (jV L)) ↦{fullShare} wr4_1 f x m k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8))))) := by
  iintro Hs
  sl_exec
  sl_step
  isplitr; · ipureintro; rfl
  iexact Hs

theorem b1_part13 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part13 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (6 : Fin 8)))⌝ ∗ ((Memref.whole cc0_scratch1 : Memref sig .scVector .vmem S28672 .f32).view.loc (V d (cV L) (jV L)) ↦{fullShare} wr4_1 f x m k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8))))) := by
  iintro Hs
  sl_exec
  sl_step
  isplitr; · ipureintro; rfl
  iexact Hs

theorem b1_part14 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part14 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (6 : Fin 8)))⌝ ∗ ((Memref.whole cc0_scratch1 : Memref sig .scVector .vmem S28672 .f32).view.loc (V d (cV L) (jV L)) ↦{fullShare} wr4_1 f x m k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8))))) := by
  iintro Hs
  sl_exec
  sl_step
  isplitr; · ipureintro; rfl
  iexact Hs

theorem b1_part15 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part15 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (7 : Fin 8)))⌝ ∗ ((Memref.whole cc0_scratch1 : Memref sig .scVector .vmem S28672 .f32).view.loc (V d (cV L) (jV L)) ↦{fullShare} wr4_1 f x m k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8))))) := by
  iintro Hs
  sl_exec
  sl_step
  isplitr; · ipureintro; rfl
  iexact Hs

theorem b1_part16 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part16 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (7 : Fin 8)))⌝ ∗ ((Memref.whole cc0_scratch1 : Memref sig .scVector .vmem S28672 .f32).view.loc (V d (cV L) (jV L)) ↦{fullShare} wr4_1 f x m k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8))))) := by
  iintro Hs
  sl_exec
  sl_step
  isplitr; · ipureintro; rfl
  iexact Hs

theorem b1_part17 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part17 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (0 : Fin 8)))⌝ ∗ ((Memref.whole cc0_scratch1 : Memref sig .scVector .vmem S28672 .f32).view.loc (V d (cV L) (jV L)) ↦{fullShare} wr4_1 f x m k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8))))) := by
  iintro Hs
  sl_exec
  sl_step
  isplitr; · ipureintro; rfl
  iexact Hs

theorem b1_part18 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part18 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (0 : Fin 8)))⌝ ∗ ((Memref.whole cc0_scratch1 : Memref sig .scVector .vmem S28672 .f32).view.loc (V d (cV L) (jV L)) ↦{fullShare} wr4_1 f x m k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8))))) := by
  iintro Hs
  sl_exec
  sl_step
  isplitr; · ipureintro; rfl
  iexact Hs

theorem b1_part19 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part19 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (1 : Fin 8)))⌝ ∗ ((Memref.whole cc0_scratch1 : Memref sig .scVector .vmem S28672 .f32).view.loc (V d (cV L) (jV L)) ↦{fullShare} wr4_1 f x m k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8))))) := by
  iintro Hs
  sl_exec
  sl_step
  isplitr; · ipureintro; rfl
  iexact Hs

theorem b1_part20 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part20 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (1 : Fin 8)))⌝ ∗ ((Memref.whole cc0_scratch1 : Memref sig .scVector .vmem S28672 .f32).view.loc (V d (cV L) (jV L)) ↦{fullShare} wr4_1 f x m k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8))))) := by
  iintro Hs
  sl_exec
  sl_step
  isplitr; · ipureintro; rfl
  iexact Hs

theorem b1_part21 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part21 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (2 : Fin 8)))⌝ ∗ ((Memref.whole cc0_scratch1 : Memref sig .scVector .vmem S28672 .f32).view.loc (V d (cV L) (jV L)) ↦{fullShare} wr4_1 f x m k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8))))) := by
  iintro Hs
  sl_exec
  sl_step
  isplitr; · ipureintro; rfl
  iexact Hs

theorem b1_part22 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part22 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (2 : Fin 8)))⌝ ∗ ((Memref.whole cc0_scratch1 : Memref sig .scVector .vmem S28672 .f32).view.loc (V d (cV L) (jV L)) ↦{fullShare} wr4_1 f x m k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8))))) := by
  iintro Hs
  sl_exec
  sl_step
  isplitr; · ipureintro; rfl
  iexact Hs

theorem b1_part23 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part23 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (3 : Fin 8)))⌝ ∗ ((Memref.whole cc0_scratch1 : Memref sig .scVector .vmem S28672 .f32).view.loc (V d (cV L) (jV L)) ↦{fullShare} wr4_1 f x m k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8))))) := by
  iintro Hs
  sl_exec
  sl_step
  isplitr; · ipureintro; rfl
  iexact Hs

theorem b1_part24 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part24 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (3 : Fin 8)))⌝ ∗ ((Memref.whole cc0_scratch1 : Memref sig .scVector .vmem S28672 .f32).view.loc (V d (cV L) (jV L)) ↦{fullShare} wr4_1 f x m k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8))))) := by
  iintro Hs
  sl_exec
  sl_step
  isplitr; · ipureintro; rfl
  iexact Hs

theorem b1_part25 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part25 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (4 : Fin 8)))⌝ ∗ ((Memref.whole cc0_scratch1 : Memref sig .scVector .vmem S28672 .f32).view.loc (V d (cV L) (jV L)) ↦{fullShare} wr4_1 f x m k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8))))) := by
  iintro Hs
  sl_exec
  sl_step
  isplitr; · ipureintro; rfl
  iexact Hs

theorem b1_part26 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part26 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (4 : Fin 8)))⌝ ∗ ((Memref.whole cc0_scratch1 : Memref sig .scVector .vmem S28672 .f32).view.loc (V d (cV L) (jV L)) ↦{fullShare} wr4_1 f x m k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8))))) := by
  iintro Hs
  sl_exec
  sl_step
  isplitr; · ipureintro; rfl
  iexact Hs

theorem b1_part27 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part27 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (5 : Fin 8)))⌝ ∗ ((Memref.whole cc0_scratch1 : Memref sig .scVector .vmem S28672 .f32).view.loc (V d (cV L) (jV L)) ↦{fullShare} wr4_1 f x m k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8))))) := by
  iintro Hs
  sl_exec
  sl_step
  isplitr; · ipureintro; rfl
  iexact Hs

theorem b1_part28 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part28 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (5 : Fin 8)))⌝ ∗ ((Memref.whole cc0_scratch1 : Memref sig .scVector .vmem S28672 .f32).view.loc (V d (cV L) (jV L)) ↦{fullShare} wr4_1 f x m k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8))))) := by
  iintro Hs
  sl_exec
  sl_step
  isplitr; · ipureintro; rfl
  iexact Hs

theorem b1_part29 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part29 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (6 : Fin 8)))⌝ ∗ ((Memref.whole cc0_scratch1 : Memref sig .scVector .vmem S28672 .f32).view.loc (V d (cV L) (jV L)) ↦{fullShare} wr4_1 f x m k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8))))) := by
  iintro Hs
  sl_exec
  sl_step
  isplitr; · ipureintro; rfl
  iexact Hs

theorem b1_part30 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part30 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (6 : Fin 8)))⌝ ∗ ((Memref.whole cc0_scratch1 : Memref sig .scVector .vmem S28672 .f32).view.loc (V d (cV L) (jV L)) ↦{fullShare} wr4_1 f x m k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8))))) := by
  iintro Hs
  sl_exec
  sl_step
  isplitr; · ipureintro; rfl
  iexact Hs

theorem b1_part31 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part31 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (7 : Fin 8)))⌝ ∗ ((Memref.whole cc0_scratch1 : Memref sig .scVector .vmem S28672 .f32).view.loc (V d (cV L) (jV L)) ↦{fullShare} wr4_1 f x m k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8))))) := by
  iintro Hs
  sl_exec
  sl_step
  isplitr; · ipureintro; rfl
  iexact Hs

theorem b1_part32 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part32 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (7 : Fin 8)))⌝ ∗ ((Memref.whole cc0_scratch1 : Memref sig .scVector .vmem S28672 .f32).view.loc (V d (cV L) (jV L)) ↦{fullShare} wr4_1 f x m k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8))))) := by
  iintro Hs
  sl_exec
  sl_step
  isplitr; · ipureintro; rfl
  iexact Hs

theorem b1_part33 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part33 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (0 : Fin 8)))⌝ ∗ ((Memref.whole cc0_scratch1 : Memref sig .scVector .vmem S28672 .f32).view.loc (V d (cV L) (jV L)) ↦{fullShare} wr4_1 f x m k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8))))) := by
  iintro Hs
  sl_exec
  sl_step
  isplitr; · ipureintro; rfl
  iexact Hs

theorem b1_part34 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part34 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (0 : Fin 8)))⌝ ∗ ((Memref.whole cc0_scratch1 : Memref sig .scVector .vmem S28672 .f32).view.loc (V d (cV L) (jV L)) ↦{fullShare} wr4_1 f x m k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8))))) := by
  iintro Hs
  sl_exec
  sl_step
  isplitr; · ipureintro; rfl
  iexact Hs

theorem b1_part35 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part35 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (1 : Fin 8)))⌝ ∗ ((Memref.whole cc0_scratch1 : Memref sig .scVector .vmem S28672 .f32).view.loc (V d (cV L) (jV L)) ↦{fullShare} wr4_1 f x m k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8))))) := by
  iintro Hs
  sl_exec
  sl_step
  isplitr; · ipureintro; rfl
  iexact Hs

theorem b1_part36 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part36 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (1 : Fin 8)))⌝ ∗ ((Memref.whole cc0_scratch1 : Memref sig .scVector .vmem S28672 .f32).view.loc (V d (cV L) (jV L)) ↦{fullShare} wr4_1 f x m k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8))))) := by
  iintro Hs
  sl_exec
  sl_step
  isplitr; · ipureintro; rfl
  iexact Hs

theorem b1_part37 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part37 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (2 : Fin 8)))⌝ ∗ ((Memref.whole cc0_scratch1 : Memref sig .scVector .vmem S28672 .f32).view.loc (V d (cV L) (jV L)) ↦{fullShare} wr4_1 f x m k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8))))) := by
  iintro Hs
  sl_exec
  sl_step
  isplitr; · ipureintro; rfl
  iexact Hs

theorem b1_part38 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part38 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (2 : Fin 8)))⌝ ∗ ((Memref.whole cc0_scratch1 : Memref sig .scVector .vmem S28672 .f32).view.loc (V d (cV L) (jV L)) ↦{fullShare} wr4_1 f x m k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8))))) := by
  iintro Hs
  sl_exec
  sl_step
  isplitr; · ipureintro; rfl
  iexact Hs

theorem b1_part39 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part39 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (3 : Fin 8)))⌝ ∗ ((Memref.whole cc0_scratch1 : Memref sig .scVector .vmem S28672 .f32).view.loc (V d (cV L) (jV L)) ↦{fullShare} wr4_1 f x m k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8))))) := by
  iintro Hs
  sl_exec
  sl_step
  isplitr; · ipureintro; rfl
  iexact Hs

theorem b1_part40 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part40 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (3 : Fin 8)))⌝ ∗ ((Memref.whole cc0_scratch1 : Memref sig .scVector .vmem S28672 .f32).view.loc (V d (cV L) (jV L)) ↦{fullShare} wr4_1 f x m k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8))))) := by
  iintro Hs
  sl_exec
  sl_step
  isplitr; · ipureintro; rfl
  iexact Hs

theorem b1_part41 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part41 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (4 : Fin 8)))⌝ ∗ ((Memref.whole cc0_scratch1 : Memref sig .scVector .vmem S28672 .f32).view.loc (V d (cV L) (jV L)) ↦{fullShare} wr4_1 f x m k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8))))) := by
  iintro Hs
  sl_exec
  sl_step
  isplitr; · ipureintro; rfl
  iexact Hs

theorem b1_part42 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part42 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (4 : Fin 8)))⌝ ∗ ((Memref.whole cc0_scratch1 : Memref sig .scVector .vmem S28672 .f32).view.loc (V d (cV L) (jV L)) ↦{fullShare} wr4_1 f x m k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8))))) := by
  iintro Hs
  sl_exec
  sl_step
  isplitr; · ipureintro; rfl
  iexact Hs

theorem b1_part43 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part43 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (5 : Fin 8)))⌝ ∗ ((Memref.whole cc0_scratch1 : Memref sig .scVector .vmem S28672 .f32).view.loc (V d (cV L) (jV L)) ↦{fullShare} wr4_1 f x m k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8))))) := by
  iintro Hs
  sl_exec
  sl_step
  isplitr; · ipureintro; rfl
  iexact Hs

theorem b1_part44 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part44 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (5 : Fin 8)))⌝ ∗ ((Memref.whole cc0_scratch1 : Memref sig .scVector .vmem S28672 .f32).view.loc (V d (cV L) (jV L)) ↦{fullShare} wr4_1 f x m k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8))))) := by
  iintro Hs
  sl_exec
  sl_step
  isplitr; · ipureintro; rfl
  iexact Hs

theorem b1_part45 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part45 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (6 : Fin 8)))⌝ ∗ ((Memref.whole cc0_scratch1 : Memref sig .scVector .vmem S28672 .f32).view.loc (V d (cV L) (jV L)) ↦{fullShare} wr4_1 f x m k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8))))) := by
  iintro Hs
  sl_exec
  sl_step
  isplitr; · ipureintro; rfl
  iexact Hs

theorem b1_part46 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part46 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (6 : Fin 8)))⌝ ∗ ((Memref.whole cc0_scratch1 : Memref sig .scVector .vmem S28672 .f32).view.loc (V d (cV L) (jV L)) ↦{fullShare} wr4_1 f x m k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8))))) := by
  iintro Hs
  sl_exec
  sl_step
  isplitr; · ipureintro; rfl
  iexact Hs

theorem b1_part47 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part47 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (7 : Fin 8)))⌝ ∗ ((Memref.whole cc0_scratch1 : Memref sig .scVector .vmem S28672 .f32).view.loc (V d (cV L) (jV L)) ↦{fullShare} wr4_1 f x m k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8))))) := by
  iintro Hs
  sl_exec
  sl_step
  isplitr; · ipureintro; rfl
  iexact Hs

theorem b1_part48 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part48 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (7 : Fin 8)))⌝ ∗ ((Memref.whole cc0_scratch1 : Memref sig .scVector .vmem S28672 .f32).view.loc (V d (cV L) (jV L)) ↦{fullShare} wr4_1 f x m k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8))))) := by
  iintro Hs
  sl_exec
  sl_step
  isplitr; · ipureintro; rfl
  iexact Hs

theorem b1_part49 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part49 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (0 : Fin 8)))⌝ ∗ ((Memref.whole cc0_scratch1 : Memref sig .scVector .vmem S28672 .f32).view.loc (V d (cV L) (jV L)) ↦{fullShare} wr4_1 f x m k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8))))) := by
  iintro Hs
  sl_exec
  sl_step
  isplitr; · ipureintro; rfl
  iexact Hs

theorem b1_part50 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part50 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (0 : Fin 8)))⌝ ∗ ((Memref.whole cc0_scratch1 : Memref sig .scVector .vmem S28672 .f32).view.loc (V d (cV L) (jV L)) ↦{fullShare} wr4_1 f x m k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8))))) := by
  iintro Hs
  sl_exec
  sl_step
  isplitr; · ipureintro; rfl
  iexact Hs

theorem b1_part51 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part51 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (1 : Fin 8)))⌝ ∗ ((Memref.whole cc0_scratch1 : Memref sig .scVector .vmem S28672 .f32).view.loc (V d (cV L) (jV L)) ↦{fullShare} wr4_1 f x m k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8))))) := by
  iintro Hs
  sl_exec
  sl_step
  isplitr; · ipureintro; rfl
  iexact Hs

theorem b1_part52 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part52 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (1 : Fin 8)))⌝ ∗ ((Memref.whole cc0_scratch1 : Memref sig .scVector .vmem S28672 .f32).view.loc (V d (cV L) (jV L)) ↦{fullShare} wr4_1 f x m k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8))))) := by
  iintro Hs
  sl_exec
  sl_step
  isplitr; · ipureintro; rfl
  iexact Hs

theorem b1_part53 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part53 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (2 : Fin 8)))⌝ ∗ ((Memref.whole cc0_scratch1 : Memref sig .scVector .vmem S28672 .f32).view.loc (V d (cV L) (jV L)) ↦{fullShare} wr4_1 f x m k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8))))) := by
  iintro Hs
  sl_exec
  sl_step
  isplitr; · ipureintro; rfl
  iexact Hs

theorem b1_part54 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part54 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (2 : Fin 8)))⌝ ∗ ((Memref.whole cc0_scratch1 : Memref sig .scVector .vmem S28672 .f32).view.loc (V d (cV L) (jV L)) ↦{fullShare} wr4_1 f x m k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8))))) := by
  iintro Hs
  sl_exec
  sl_step
  isplitr; · ipureintro; rfl
  iexact Hs

theorem b1_part55 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part55 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (3 : Fin 8)))⌝ ∗ ((Memref.whole cc0_scratch1 : Memref sig .scVector .vmem S28672 .f32).view.loc (V d (cV L) (jV L)) ↦{fullShare} wr4_1 f x m k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8))))) := by
  iintro Hs
  sl_exec
  sl_step
  isplitr; · ipureintro; rfl
  iexact Hs

theorem b1_part56 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part56 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (3 : Fin 8)))⌝ ∗ ((Memref.whole cc0_scratch1 : Memref sig .scVector .vmem S28672 .f32).view.loc (V d (cV L) (jV L)) ↦{fullShare} wr4_1 f x m k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8))))) := by
  iintro Hs
  sl_exec
  sl_step
  isplitr; · ipureintro; rfl
  iexact Hs

theorem b1_part57 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part57 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (4 : Fin 8)))⌝ ∗ ((Memref.whole cc0_scratch1 : Memref sig .scVector .vmem S28672 .f32).view.loc (V d (cV L) (jV L)) ↦{fullShare} wr4_1 f x m k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8))))) := by
  iintro Hs
  sl_exec
  sl_step
  isplitr; · ipureintro; rfl
  iexact Hs

theorem b1_part58 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part58 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (4 : Fin 8)))⌝ ∗ ((Memref.whole cc0_scratch1 : Memref sig .scVector .vmem S28672 .f32).view.loc (V d (cV L) (jV L)) ↦{fullShare} wr4_1 f x m k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8))))) := by
  iintro Hs
  sl_exec
  sl_step
  isplitr; · ipureintro; rfl
  iexact Hs

theorem b1_part59 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part59 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (5 : Fin 8)))⌝ ∗ ((Memref.whole cc0_scratch1 : Memref sig .scVector .vmem S28672 .f32).view.loc (V d (cV L) (jV L)) ↦{fullShare} wr4_1 f x m k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8))))) := by
  iintro Hs
  sl_exec
  sl_step
  isplitr; · ipureintro; rfl
  iexact Hs

theorem b1_part60 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part60 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (5 : Fin 8)))⌝ ∗ ((Memref.whole cc0_scratch1 : Memref sig .scVector .vmem S28672 .f32).view.loc (V d (cV L) (jV L)) ↦{fullShare} wr4_1 f x m k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8))))) := by
  iintro Hs
  sl_exec
  sl_step
  isplitr; · ipureintro; rfl
  iexact Hs

theorem b1_part61 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part61 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (6 : Fin 8)))⌝ ∗ ((Memref.whole cc0_scratch1 : Memref sig .scVector .vmem S28672 .f32).view.loc (V d (cV L) (jV L)) ↦{fullShare} wr4_1 f x m k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8))))) := by
  iintro Hs
  sl_exec
  sl_step
  isplitr; · ipureintro; rfl
  iexact Hs

theorem b1_part62 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part62 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (6 : Fin 8)))⌝ ∗ ((Memref.whole cc0_scratch1 : Memref sig .scVector .vmem S28672 .f32).view.loc (V d (cV L) (jV L)) ↦{fullShare} wr4_1 f x m k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8))))) := by
  iintro Hs
  sl_exec
  sl_step
  isplitr; · ipureintro; rfl
  iexact Hs

theorem b1_part63 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part63 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (7 : Fin 8)))⌝ ∗ ((Memref.whole cc0_scratch1 : Memref sig .scVector .vmem S28672 .f32).view.loc (V d (cV L) (jV L)) ↦{fullShare} wr4_1 f x m k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8))))) := by
  iintro Hs
  sl_exec
  sl_step
  isplitr; · ipureintro; rfl
  iexact Hs

theorem b1_part64 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part64 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (7 : Fin 8)))⌝ ∗ ((Memref.whole cc0_scratch1 : Memref sig .scVector .vmem S28672 .f32).view.loc (V d (cV L) (jV L)) ↦{fullShare} wr4_1 f x m k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8))))) := by
  iintro Hs
  sl_exec
  sl_step
  isplitr; · ipureintro; rfl
  iexact Hs

set_option maxHeartbeats 8000000 in
/-- The first sixty parts of a trip: from the buffer as the trip found it to the buffer after 239 stores. -/
theorem b1_wrap (d : Dev nD) (L : grid0.Coords) (v10 v17 v24 v31 v38 v45 v52 v59 v66 v73 v80 v87 v94 v101 v108 v115 v122 v129 v136 v143 v150 v157 v164 v171 v178 v185 v192 v199 v206 v213 v220 v227 : FVec F S16 .f32) (a c : BitVec 32) (k : Fin k0_t2_loop.trips) (g : Buf (Elt F) ((V d (cV L) (jV L)).loc cc0_scratch1)) :
    ((Memref.whole cc0_scratch1 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 0 : sProp 𝕄) ⊢ wp frame (wpE (defs₀ (F := F)) 𝒱₀ (V d (cV L) (jV L)) none) Set.univ (k0_part65 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v10 v17 v24 v31 v38 v45 v52 v59 v66 v73 v80 v87 v94 v101 v108 v115 v122 v129 v136 v143 v150 v157 v164 v171 v178 v185 v192 v199 v206 v213 a c k)
      (fun r => iprop(⌜r.2.1 = payP ((mulTab v10 v17 v24 v31 v38 v45 v52 v59 v66 v73 v80 v87 v94 v101 v108 v115 v122 v129 v136 v143 v150 v157 v164 v171 v178 v185 v192 v199 v206 v213 v220 v227) (grp ((3 : Fin 4), (7 : Fin 8), (5 : Fin 8)))) (rd1 g k ((3 : Fin 4), (7 : Fin 8), (5 : Fin 8)))⌝ ∗ ((Memref.whole cc0_scratch1 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 239))) := by
  rw [k0_part65_eq_skeleton]; unfold k0_part65_skel
  refine wp_stepV d L (b1_part1 d L _ _ _ _ _) fun r => ?_
  obtain ⟨w, x1, y1⟩ := r
  refine pure_pre fun hx1 => ?_
  have ps1 := part_first1 (mulTab v10 v17 v24 v31 v38 v45 v52 v59 v66 v73 v80 v87 v94 v101 v108 v115 v122 v129 v136 v143 v150 v157 v164 v171 v178 v185 v192 v199 v206 v213 v220 v227) g k ((0 : Fin 4), (0 : Fin 8), (0 : Fin 8)) ((0 : Fin 4), (1 : Fin 8), (0 : Fin 8)) ((0 : Fin 4), (2 : Fin 8), (0 : Fin 8)) ((0 : Fin 4), (3 : Fin 8), (0 : Fin 8)) rfl rfl rfl rfl v10 rfl rfl rfl rfl
  rw [ps1.1]
  replace hx1 := hx1.trans ps1.2
  clear ps1
  refine wp_stepV d L (b1_part2 d L _ _ _ _ _ _) fun r => ?_
  obtain ⟨x2, y2⟩ := r
  refine pure_pre fun hx2 => ?_
  have ps2 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8)) ((0 : Fin 4), (7 : Fin 8), (0 : Fin 8)) 3 rfl rfl rfl rfl rfl v10 rfl rfl rfl rfl x1 hx1
  rw [ps2.1]
  replace hx2 := hx2.trans ps2.2
  clear ps2 hx1
  refine wp_stepV d L (b1_part3 d L _ _ _ _ _ _) fun r => ?_
  obtain ⟨x3, y3⟩ := r
  refine pure_pre fun hx3 => ?_
  have ps3 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8)) ((0 : Fin 4), (3 : Fin 8), (1 : Fin 8)) 7 rfl rfl rfl rfl rfl v17 rfl rfl rfl rfl x2 hx2
  rw [ps3.1]
  replace hx3 := hx3.trans ps3.2
  clear ps3 hx2
  refine wp_stepV d L (b1_part4 d L _ _ _ _ _ _) fun r => ?_
  obtain ⟨x4, y4⟩ := r
  refine pure_pre fun hx4 => ?_
  have ps4 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8)) ((0 : Fin 4), (7 : Fin 8), (1 : Fin 8)) 11 rfl rfl rfl rfl rfl v17 rfl rfl rfl rfl x3 hx3
  rw [ps4.1]
  replace hx4 := hx4.trans ps4.2
  clear ps4 hx3
  refine wp_stepV d L (b1_part5 d L _ _ _ _ _ _) fun r => ?_
  obtain ⟨x5, y5⟩ := r
  refine pure_pre fun hx5 => ?_
  have ps5 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8)) ((0 : Fin 4), (3 : Fin 8), (2 : Fin 8)) 15 rfl rfl rfl rfl rfl v24 rfl rfl rfl rfl x4 hx4
  rw [ps5.1]
  replace hx5 := hx5.trans ps5.2
  clear ps5 hx4
  refine wp_stepV d L (b1_part6 d L _ _ _ _ _ _) fun r => ?_
  obtain ⟨x6, y6⟩ := r
  refine pure_pre fun hx6 => ?_
  have ps6 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8)) ((0 : Fin 4), (7 : Fin 8), (2 : Fin 8)) 19 rfl rfl rfl rfl rfl v24 rfl rfl rfl rfl x5 hx5
  rw [ps6.1]
  replace hx6 := hx6.trans ps6.2
  clear ps6 hx5
  refine wp_stepV d L (b1_part7 d L _ _ _ _ _ _) fun r => ?_
  obtain ⟨x7, y7⟩ := r
  refine pure_pre fun hx7 => ?_
  have ps7 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8)) ((0 : Fin 4), (3 : Fin 8), (3 : Fin 8)) 23 rfl rfl rfl rfl rfl v31 rfl rfl rfl rfl x6 hx6
  rw [ps7.1]
  replace hx7 := hx7.trans ps7.2
  clear ps7 hx6
  refine wp_stepV d L (b1_part8 d L _ _ _ _ _ _) fun r => ?_
  obtain ⟨x8, y8⟩ := r
  refine pure_pre fun hx8 => ?_
  have ps8 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8)) ((0 : Fin 4), (7 : Fin 8), (3 : Fin 8)) 27 rfl rfl rfl rfl rfl v31 rfl rfl rfl rfl x7 hx7
  rw [ps8.1]
  replace hx8 := hx8.trans ps8.2
  clear ps8 hx7
  refine wp_stepV d L (b1_part9 d L _ _ _ _ _ _) fun r => ?_
  obtain ⟨x9, y9⟩ := r
  refine pure_pre fun hx9 => ?_
  have ps9 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8)) ((0 : Fin 4), (3 : Fin 8), (4 : Fin 8)) 31 rfl rfl rfl rfl rfl v38 rfl rfl rfl rfl x8 hx8
  rw [ps9.1]
  replace hx9 := hx9.trans ps9.2
  clear ps9 hx8
  refine wp_stepV d L (b1_part10 d L _ _ _ _ _ _) fun r => ?_
  obtain ⟨x10, y10⟩ := r
  refine pure_pre fun hx10 => ?_
  have ps10 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8)) ((0 : Fin 4), (7 : Fin 8), (4 : Fin 8)) 35 rfl rfl rfl rfl rfl v38 rfl rfl rfl rfl x9 hx9
  rw [ps10.1]
  replace hx10 := hx10.trans ps10.2
  clear ps10 hx9
  refine wp_stepV d L (b1_part11 d L _ _ _ _ _ _) fun r => ?_
  obtain ⟨x11, y11⟩ := r
  refine pure_pre fun hx11 => ?_
  have ps11 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8)) ((0 : Fin 4), (3 : Fin 8), (5 : Fin 8)) 39 rfl rfl rfl rfl rfl v45 rfl rfl rfl rfl x10 hx10
  rw [ps11.1]
  replace hx11 := hx11.trans ps11.2
  clear ps11 hx10
  refine wp_stepV d L (b1_part12 d L _ _ _ _ _ _) fun r => ?_
  obtain ⟨x12, y12⟩ := r
  refine pure_pre fun hx12 => ?_
  have ps12 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8)) ((0 : Fin 4), (7 : Fin 8), (5 : Fin 8)) 43 rfl rfl rfl rfl rfl v45 rfl rfl rfl rfl x11 hx11
  rw [ps12.1]
  replace hx12 := hx12.trans ps12.2
  clear ps12 hx11
  refine wp_stepV d L (b1_part13 d L _ _ _ _ _ _) fun r => ?_
  obtain ⟨x13, y13⟩ := r
  refine pure_pre fun hx13 => ?_
  have ps13 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8)) ((0 : Fin 4), (3 : Fin 8), (6 : Fin 8)) 47 rfl rfl rfl rfl rfl v52 rfl rfl rfl rfl x12 hx12
  rw [ps13.1]
  replace hx13 := hx13.trans ps13.2
  clear ps13 hx12
  refine wp_stepV d L (b1_part14 d L _ _ _ _ _ _) fun r => ?_
  obtain ⟨x14, y14⟩ := r
  refine pure_pre fun hx14 => ?_
  have ps14 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8)) ((0 : Fin 4), (7 : Fin 8), (6 : Fin 8)) 51 rfl rfl rfl rfl rfl v52 rfl rfl rfl rfl x13 hx13
  rw [ps14.1]
  replace hx14 := hx14.trans ps14.2
  clear ps14 hx13
  refine wp_stepV d L (b1_part15 d L _ _ _ _ _ _) fun r => ?_
  obtain ⟨x15, y15⟩ := r
  refine pure_pre fun hx15 => ?_
  have ps15 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8)) ((0 : Fin 4), (3 : Fin 8), (7 : Fin 8)) 55 rfl rfl rfl rfl rfl v59 rfl rfl rfl rfl x14 hx14
  rw [ps15.1]
  replace hx15 := hx15.trans ps15.2
  clear ps15 hx14
  refine wp_stepV d L (b1_part16 d L _ _ _ _ _ _) fun r => ?_
  obtain ⟨x16, y16⟩ := r
  refine pure_pre fun hx16 => ?_
  have ps16 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8)) ((0 : Fin 4), (7 : Fin 8), (7 : Fin 8)) 59 rfl rfl rfl rfl rfl v59 rfl rfl rfl rfl x15 hx15
  rw [ps16.1]
  replace hx16 := hx16.trans ps16.2
  clear ps16 hx15
  refine wp_stepV d L (b1_part17 d L _ _ _ _ _ _) fun r => ?_
  obtain ⟨x17, y17⟩ := r
  refine pure_pre fun hx17 => ?_
  have ps17 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8)) ((1 : Fin 4), (3 : Fin 8), (0 : Fin 8)) 63 rfl rfl rfl rfl rfl v66 rfl rfl rfl rfl x16 hx16
  rw [ps17.1]
  replace hx17 := hx17.trans ps17.2
  clear ps17 hx16
  refine wp_stepV d L (b1_part18 d L _ _ _ _ _ _) fun r => ?_
  obtain ⟨x18, y18⟩ := r
  refine pure_pre fun hx18 => ?_
  have ps18 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8)) ((1 : Fin 4), (7 : Fin 8), (0 : Fin 8)) 67 rfl rfl rfl rfl rfl v66 rfl rfl rfl rfl x17 hx17
  rw [ps18.1]
  replace hx18 := hx18.trans ps18.2
  clear ps18 hx17
  refine wp_stepV d L (b1_part19 d L _ _ _ _ _ _) fun r => ?_
  obtain ⟨x19, y19⟩ := r
  refine pure_pre fun hx19 => ?_
  have ps19 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8)) ((1 : Fin 4), (3 : Fin 8), (1 : Fin 8)) 71 rfl rfl rfl rfl rfl v73 rfl rfl rfl rfl x18 hx18
  rw [ps19.1]
  replace hx19 := hx19.trans ps19.2
  clear ps19 hx18
  refine wp_stepV d L (b1_part20 d L _ _ _ _ _ _) fun r => ?_
  obtain ⟨x20, y20⟩ := r
  refine pure_pre fun hx20 => ?_
  have ps20 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8)) ((1 : Fin 4), (7 : Fin 8), (1 : Fin 8)) 75 rfl rfl rfl rfl rfl v73 rfl rfl rfl rfl x19 hx19
  rw [ps20.1]
  replace hx20 := hx20.trans ps20.2
  clear ps20 hx19
  refine wp_stepV d L (b1_part21 d L _ _ _ _ _ _) fun r => ?_
  obtain ⟨x21, y21⟩ := r
  refine pure_pre fun hx21 => ?_
  have ps21 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8)) ((1 : Fin 4), (3 : Fin 8), (2 : Fin 8)) 79 rfl rfl rfl rfl rfl v80 rfl rfl rfl rfl x20 hx20
  rw [ps21.1]
  replace hx21 := hx21.trans ps21.2
  clear ps21 hx20
  refine wp_stepV d L (b1_part22 d L _ _ _ _ _ _) fun r => ?_
  obtain ⟨x22, y22⟩ := r
  refine pure_pre fun hx22 => ?_
  have ps22 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8)) ((1 : Fin 4), (7 : Fin 8), (2 : Fin 8)) 83 rfl rfl rfl rfl rfl v80 rfl rfl rfl rfl x21 hx21
  rw [ps22.1]
  replace hx22 := hx22.trans ps22.2
  clear ps22 hx21
  refine wp_stepV d L (b1_part23 d L _ _ _ _ _ _) fun r => ?_
  obtain ⟨x23, y23⟩ := r
  refine pure_pre fun hx23 => ?_
  have ps23 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8)) ((1 : Fin 4), (3 : Fin 8), (3 : Fin 8)) 87 rfl rfl rfl rfl rfl v87 rfl rfl rfl rfl x22 hx22
  rw [ps23.1]
  replace hx23 := hx23.trans ps23.2
  clear ps23 hx22
  refine wp_stepV d L (b1_part24 d L _ _ _ _ _ _) fun r => ?_
  obtain ⟨x24, y24⟩ := r
  refine pure_pre fun hx24 => ?_
  have ps24 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8)) ((1 : Fin 4), (7 : Fin 8), (3 : Fin 8)) 91 rfl rfl rfl rfl rfl v87 rfl rfl rfl rfl x23 hx23
  rw [ps24.1]
  replace hx24 := hx24.trans ps24.2
  clear ps24 hx23
  refine wp_stepV d L (b1_part25 d L _ _ _ _ _ _) fun r => ?_
  obtain ⟨x25, y25⟩ := r
  refine pure_pre fun hx25 => ?_
  have ps25 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8)) ((1 : Fin 4), (3 : Fin 8), (4 : Fin 8)) 95 rfl rfl rfl rfl rfl v94 rfl rfl rfl rfl x24 hx24
  rw [ps25.1]
  replace hx25 := hx25.trans ps25.2
  clear ps25 hx24
  refine wp_stepV d L (b1_part26 d L _ _ _ _ _ _) fun r => ?_
  obtain ⟨x26, y26⟩ := r
  refine pure_pre fun hx26 => ?_
  have ps26 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8)) ((1 : Fin 4), (7 : Fin 8), (4 : Fin 8)) 99 rfl rfl rfl rfl rfl v94 rfl rfl rfl rfl x25 hx25
  rw [ps26.1]
  replace hx26 := hx26.trans ps26.2
  clear ps26 hx25
  refine wp_stepV d L (b1_part27 d L _ _ _ _ _ _) fun r => ?_
  obtain ⟨x27, y27⟩ := r
  refine pure_pre fun hx27 => ?_
  have ps27 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8)) ((1 : Fin 4), (3 : Fin 8), (5 : Fin 8)) 103 rfl rfl rfl rfl rfl v101 rfl rfl rfl rfl x26 hx26
  rw [ps27.1]
  replace hx27 := hx27.trans ps27.2
  clear ps27 hx26
  refine wp_stepV d L (b1_part28 d L _ _ _ _ _ _) fun r => ?_
  obtain ⟨x28, y28⟩ := r
  refine pure_pre fun hx28 => ?_
  have ps28 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8)) ((1 : Fin 4), (7 : Fin 8), (5 : Fin 8)) 107 rfl rfl rfl rfl rfl v101 rfl rfl rfl rfl x27 hx27
  rw [ps28.1]
  replace hx28 := hx28.trans ps28.2
  clear ps28 hx27
  refine wp_stepV d L (b1_part29 d L _ _ _ _ _ _) fun r => ?_
  obtain ⟨x29, y29⟩ := r
  refine pure_pre fun hx29 => ?_
  have ps29 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8)) ((1 : Fin 4), (3 : Fin 8), (6 : Fin 8)) 111 rfl rfl rfl rfl rfl v108 rfl rfl rfl rfl x28 hx28
  rw [ps29.1]
  replace hx29 := hx29.trans ps29.2
  clear ps29 hx28
  refine wp_stepV d L (b1_part30 d L _ _ _ _ _ _) fun r => ?_
  obtain ⟨x30, y30⟩ := r
  refine pure_pre fun hx30 => ?_
  have ps30 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8)) ((1 : Fin 4), (7 : Fin 8), (6 : Fin 8)) 115 rfl rfl rfl rfl rfl v108 rfl rfl rfl rfl x29 hx29
  rw [ps30.1]
  replace hx30 := hx30.trans ps30.2
  clear ps30 hx29
  refine wp_stepV d L (b1_part31 d L _ _ _ _ _ _) fun r => ?_
  obtain ⟨x31, y31⟩ := r
  refine pure_pre fun hx31 => ?_
  have ps31 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8)) ((1 : Fin 4), (3 : Fin 8), (7 : Fin 8)) 119 rfl rfl rfl rfl rfl v115 rfl rfl rfl rfl x30 hx30
  rw [ps31.1]
  replace hx31 := hx31.trans ps31.2
  clear ps31 hx30
  refine wp_stepV d L (b1_part32 d L _ _ _ _ _ _) fun r => ?_
  obtain ⟨x32, y32⟩ := r
  refine pure_pre fun hx32 => ?_
  have ps32 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8)) ((1 : Fin 4), (7 : Fin 8), (7 : Fin 8)) 123 rfl rfl rfl rfl rfl v115 rfl rfl rfl rfl x31 hx31
  rw [ps32.1]
  replace hx32 := hx32.trans ps32.2
  clear ps32 hx31
  refine wp_stepV d L (b1_part33 d L _ _ _ _ _ _) fun r => ?_
  obtain ⟨x33, y33⟩ := r
  refine pure_pre fun hx33 => ?_
  have ps33 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8)) ((2 : Fin 4), (3 : Fin 8), (0 : Fin 8)) 127 rfl rfl rfl rfl rfl v122 rfl rfl rfl rfl x32 hx32
  rw [ps33.1]
  replace hx33 := hx33.trans ps33.2
  clear ps33 hx32
  refine wp_stepV d L (b1_part34 d L _ _ _ _ _ _) fun r => ?_
  obtain ⟨x34, y34⟩ := r
  refine pure_pre fun hx34 => ?_
  have ps34 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8)) ((2 : Fin 4), (7 : Fin 8), (0 : Fin 8)) 131 rfl rfl rfl rfl rfl v122 rfl rfl rfl rfl x33 hx33
  rw [ps34.1]
  replace hx34 := hx34.trans ps34.2
  clear ps34 hx33
  refine wp_stepV d L (b1_part35 d L _ _ _ _ _ _) fun r => ?_
  obtain ⟨x35, y35⟩ := r
  refine pure_pre fun hx35 => ?_
  have ps35 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8)) ((2 : Fin 4), (3 : Fin 8), (1 : Fin 8)) 135 rfl rfl rfl rfl rfl v129 rfl rfl rfl rfl x34 hx34
  rw [ps35.1]
  replace hx35 := hx35.trans ps35.2
  clear ps35 hx34
  refine wp_stepV d L (b1_part36 d L _ _ _ _ _ _) fun r => ?_
  obtain ⟨x36, y36⟩ := r
  refine pure_pre fun hx36 => ?_
  have ps36 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8)) ((2 : Fin 4), (7 : Fin 8), (1 : Fin 8)) 139 rfl rfl rfl rfl rfl v129 rfl rfl rfl rfl x35 hx35
  rw [ps36.1]
  replace hx36 := hx36.trans ps36.2
  clear ps36 hx35
  refine wp_stepV d L (b1_part37 d L _ _ _ _ _ _) fun r => ?_
  obtain ⟨x37, y37⟩ := r
  refine pure_pre fun hx37 => ?_
  have ps37 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8)) ((2 : Fin 4), (3 : Fin 8), (2 : Fin 8)) 143 rfl rfl rfl rfl rfl v136 rfl rfl rfl rfl x36 hx36
  rw [ps37.1]
  replace hx37 := hx37.trans ps37.2
  clear ps37 hx36
  refine wp_stepV d L (b1_part38 d L _ _ _ _ _ _) fun r => ?_
  obtain ⟨x38, y38⟩ := r
  refine pure_pre fun hx38 => ?_
  have ps38 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8)) ((2 : Fin 4), (7 : Fin 8), (2 : Fin 8)) 147 rfl rfl rfl rfl rfl v136 rfl rfl rfl rfl x37 hx37
  rw [ps38.1]
  replace hx38 := hx38.trans ps38.2
  clear ps38 hx37
  refine wp_stepV d L (b1_part39 d L _ _ _ _ _ _) fun r => ?_
  obtain ⟨x39, y39⟩ := r
  refine pure_pre fun hx39 => ?_
  have ps39 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8)) ((2 : Fin 4), (3 : Fin 8), (3 : Fin 8)) 151 rfl rfl rfl rfl rfl v143 rfl rfl rfl rfl x38 hx38
  rw [ps39.1]
  replace hx39 := hx39.trans ps39.2
  clear ps39 hx38
  refine wp_stepV d L (b1_part40 d L _ _ _ _ _ _) fun r => ?_
  obtain ⟨x40, y40⟩ := r
  refine pure_pre fun hx40 => ?_
  have ps40 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8)) ((2 : Fin 4), (7 : Fin 8), (3 : Fin 8)) 155 rfl rfl rfl rfl rfl v143 rfl rfl rfl rfl x39 hx39
  rw [ps40.1]
  replace hx40 := hx40.trans ps40.2
  clear ps40 hx39
  refine wp_stepV d L (b1_part41 d L _ _ _ _ _ _) fun r => ?_
  obtain ⟨x41, y41⟩ := r
  refine pure_pre fun hx41 => ?_
  have ps41 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8)) ((2 : Fin 4), (3 : Fin 8), (4 : Fin 8)) 159 rfl rfl rfl rfl rfl v150 rfl rfl rfl rfl x40 hx40
  rw [ps41.1]
  replace hx41 := hx41.trans ps41.2
  clear ps41 hx40
  refine wp_stepV d L (b1_part42 d L _ _ _ _ _ _) fun r => ?_
  obtain ⟨x42, y42⟩ := r
  refine pure_pre fun hx42 => ?_
  have ps42 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8)) ((2 : Fin 4), (7 : Fin 8), (4 : Fin 8)) 163 rfl rfl rfl rfl rfl v150 rfl rfl rfl rfl x41 hx41
  rw [ps42.1]
  replace hx42 := hx42.trans ps42.2
  clear ps42 hx41
  refine wp_stepV d L (b1_part43 d L _ _ _ _ _ _) fun r => ?_
  obtain ⟨x43, y43⟩ := r
  refine pure_pre fun hx43 => ?_
  have ps43 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8)) ((2 : Fin 4), (3 : Fin 8), (5 : Fin 8)) 167 rfl rfl rfl rfl rfl v157 rfl rfl rfl rfl x42 hx42
  rw [ps43.1]
  replace hx43 := hx43.trans ps43.2
  clear ps43 hx42
  refine wp_stepV d L (b1_part44 d L _ _ _ _ _ _) fun r => ?_
  obtain ⟨x44, y44⟩ := r
  refine pure_pre fun hx44 => ?_
  have ps44 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8)) ((2 : Fin 4), (7 : Fin 8), (5 : Fin 8)) 171 rfl rfl rfl rfl rfl v157 rfl rfl rfl rfl x43 hx43
  rw [ps44.1]
  replace hx44 := hx44.trans ps44.2
  clear ps44 hx43
  refine wp_stepV d L (b1_part45 d L _ _ _ _ _ _) fun r => ?_
  obtain ⟨x45, y45⟩ := r
  refine pure_pre fun hx45 => ?_
  have ps45 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8)) ((2 : Fin 4), (3 : Fin 8), (6 : Fin 8)) 175 rfl rfl rfl rfl rfl v164 rfl rfl rfl rfl x44 hx44
  rw [ps45.1]
  replace hx45 := hx45.trans ps45.2
  clear ps45 hx44
  refine wp_stepV d L (b1_part46 d L _ _ _ _ _ _) fun r => ?_
  obtain ⟨x46, y46⟩ := r
  refine pure_pre fun hx46 => ?_
  have ps46 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8)) ((2 : Fin 4), (7 : Fin 8), (6 : Fin 8)) 179 rfl rfl rfl rfl rfl v164 rfl rfl rfl rfl x45 hx45
  rw [ps46.1]
  replace hx46 := hx46.trans ps46.2
  clear ps46 hx45
  refine wp_stepV d L (b1_part47 d L _ _ _ _ _ _) fun r => ?_
  obtain ⟨x47, y47⟩ := r
  refine pure_pre fun hx47 => ?_
  have ps47 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8)) ((2 : Fin 4), (3 : Fin 8), (7 : Fin 8)) 183 rfl rfl rfl rfl rfl v171 rfl rfl rfl rfl x46 hx46
  rw [ps47.1]
  replace hx47 := hx47.trans ps47.2
  clear ps47 hx46
  refine wp_stepV d L (b1_part48 d L _ _ _ _ _ _) fun r => ?_
  obtain ⟨x48, y48⟩ := r
  refine pure_pre fun hx48 => ?_
  have ps48 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8)) ((2 : Fin 4), (7 : Fin 8), (7 : Fin 8)) 187 rfl rfl rfl rfl rfl v171 rfl rfl rfl rfl x47 hx47
  rw [ps48.1]
  replace hx48 := hx48.trans ps48.2
  clear ps48 hx47
  refine wp_stepV d L (b1_part49 d L _ _ _ _ _ _) fun r => ?_
  obtain ⟨x49, y49⟩ := r
  refine pure_pre fun hx49 => ?_
  have ps49 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8)) ((3 : Fin 4), (3 : Fin 8), (0 : Fin 8)) 191 rfl rfl rfl rfl rfl v178 rfl rfl rfl rfl x48 hx48
  rw [ps49.1]
  replace hx49 := hx49.trans ps49.2
  clear ps49 hx48
  refine wp_stepV d L (b1_part50 d L _ _ _ _ _ _) fun r => ?_
  obtain ⟨x50, y50⟩ := r
  refine pure_pre fun hx50 => ?_
  have ps50 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8)) ((3 : Fin 4), (7 : Fin 8), (0 : Fin 8)) 195 rfl rfl rfl rfl rfl v178 rfl rfl rfl rfl x49 hx49
  rw [ps50.1]
  replace hx50 := hx50.trans ps50.2
  clear ps50 hx49
  refine wp_stepV d L (b1_part51 d L _ _ _ _ _ _) fun r => ?_
  obtain ⟨x51, y51⟩ := r
  refine pure_pre fun hx51 => ?_
  have ps51 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8)) ((3 : Fin 4), (3 : Fin 8), (1 : Fin 8)) 199 rfl rfl rfl rfl rfl v185 rfl rfl rfl rfl x50 hx50
  rw [ps51.1]
  replace hx51 := hx51.trans ps51.2
  clear ps51 hx50
  refine wp_stepV d L (b1_part52 d L _ _ _ _ _ _) fun r => ?_
  obtain ⟨x52, y52⟩ := r
  refine pure_pre fun hx52 => ?_
  have ps52 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8)) ((3 : Fin 4), (7 : Fin 8), (1 : Fin 8)) 203 rfl rfl rfl rfl rfl v185 rfl rfl rfl rfl x51 hx51
  rw [ps52.1]
  replace hx52 := hx52.trans ps52.2
  clear ps52 hx51
  refine wp_stepV d L (b1_part53 d L _ _ _ _ _ _) fun r => ?_
  obtain ⟨x53, y53⟩ := r
  refine pure_pre fun hx53 => ?_
  have ps53 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8)) ((3 : Fin 4), (3 : Fin 8), (2 : Fin 8)) 207 rfl rfl rfl rfl rfl v192 rfl rfl rfl rfl x52 hx52
  rw [ps53.1]
  replace hx53 := hx53.trans ps53.2
  clear ps53 hx52
  refine wp_stepV d L (b1_part54 d L _ _ _ _ _ _) fun r => ?_
  obtain ⟨x54, y54⟩ := r
  refine pure_pre fun hx54 => ?_
  have ps54 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8)) ((3 : Fin 4), (7 : Fin 8), (2 : Fin 8)) 211 rfl rfl rfl rfl rfl v192 rfl rfl rfl rfl x53 hx53
  rw [ps54.1]
  replace hx54 := hx54.trans ps54.2
  clear ps54 hx53
  refine wp_stepV d L (b1_part55 d L _ _ _ _ _ _) fun r => ?_
  obtain ⟨x55, y55⟩ := r
  refine pure_pre fun hx55 => ?_
  have ps55 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8)) ((3 : Fin 4), (3 : Fin 8), (3 : Fin 8)) 215 rfl rfl rfl rfl rfl v199 rfl rfl rfl rfl x54 hx54
  rw [ps55.1]
  replace hx55 := hx55.trans ps55.2
  clear ps55 hx54
  refine wp_stepV d L (b1_part56 d L _ _ _ _ _ _) fun r => ?_
  obtain ⟨x56, y56⟩ := r
  refine pure_pre fun hx56 => ?_
  have ps56 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8)) ((3 : Fin 4), (7 : Fin 8), (3 : Fin 8)) 219 rfl rfl rfl rfl rfl v199 rfl rfl rfl rfl x55 hx55
  rw [ps56.1]
  replace hx56 := hx56.trans ps56.2
  clear ps56 hx55
  refine wp_stepV d L (b1_part57 d L _ _ _ _ _ _) fun r => ?_
  obtain ⟨x57, y57⟩ := r
  refine pure_pre fun hx57 => ?_
  have ps57 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8)) ((3 : Fin 4), (3 : Fin 8), (4 : Fin 8)) 223 rfl rfl rfl rfl rfl v206 rfl rfl rfl rfl x56 hx56
  rw [ps57.1]
  replace hx57 := hx57.trans ps57.2
  clear ps57 hx56
  refine wp_stepV d L (b1_part58 d L _ _ _ _ _ _) fun r => ?_
  obtain ⟨x58, y58⟩ := r
  refine pure_pre fun hx58 => ?_
  have ps58 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8)) ((3 : Fin 4), (7 : Fin 8), (4 : Fin 8)) 227 rfl rfl rfl rfl rfl v206 rfl rfl rfl rfl x57 hx57
  rw [ps58.1]
  replace hx58 := hx58.trans ps58.2
  clear ps58 hx57
  refine wp_stepV d L (b1_part59 d L _ _ _ _ _ _) fun r => ?_
  obtain ⟨x59, y59⟩ := r
  refine pure_pre fun hx59 => ?_
  have ps59 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8)) ((3 : Fin 4), (3 : Fin 8), (5 : Fin 8)) 231 rfl rfl rfl rfl rfl v213 rfl rfl rfl rfl x58 hx58
  rw [ps59.1]
  replace hx59 := hx59.trans ps59.2
  clear ps59 hx58
  refine wp_stepV d L (b1_part60 d L _ _ _ _ _ _) fun r => ?_
  obtain ⟨x60, y60⟩ := r
  refine pure_pre fun hx60 => ?_
  have ps60 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8)) ((3 : Fin 4), (7 : Fin 8), (5 : Fin 8)) 235 rfl rfl rfl rfl rfl v213 rfl rfl rfl rfl x59 hx59
  rw [ps60.1]
  replace hx60 := hx60.trans ps60.2
  clear ps60 hx59
  iintro H
  first | rw [wp_pure] | rw [wp_ret]
  imodintro
  isplitr; · ipureintro; exact hx60
  iexact H

set_option maxHeartbeats 2000000 in
/-- ONE TRIP: block `k` multiplied in place. -/
theorem trip1 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (a c : BitVec 32) (t : Fin k0_t1_loop.trips) (g : Buf (Elt F) ((V d (cV L) (jV L)).loc cc0_scratch1)) (k : Fin k0_t2_loop.trips) (acc : Unit) :
    ((Memref.whole cc0_scratch1 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g k.val : sProp 𝕄) ⊢ wp frame (wpE (defs₀ (F := F)) 𝒱₀ (V d (cV L) (jV L)) none) Set.univ (k0_t2_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a c t k acc)
      (fun _ => ((Memref.whole cc0_scratch1 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g (k.val + 1) : sProp 𝕄)) := by
  rw [← stC_zero, ← stC_full]
  unfold k0_t2_body
  refine wp_stepV d L (b1_wrap d L v10 v17 v24 v31 v38 v45 v52 v59 v66 v73 v80 v87 v94 v101 v108 v115 v122 v129 v136 v143 v150 v157 v164 v171 v178 v185 v192 v199 v206 v213 v220 v227 _ _ k g) fun r => ?_
  obtain ⟨w, x60, y60⟩ := r
  refine pure_pre fun hx60 => ?_
  refine wp_stepV d L (b1_part61 d L _ _ _ _ _ _) fun r => ?_
  obtain ⟨x61, y61⟩ := r
  refine pure_pre fun hx61 => ?_
  have ps61 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8)) ((3 : Fin 4), (3 : Fin 8), (6 : Fin 8)) 239 rfl rfl rfl rfl rfl v220 rfl rfl rfl rfl x60 hx60
  rw [ps61.1]
  replace hx61 := hx61.trans ps61.2
  clear ps61 hx60
  refine wp_stepV d L (b1_part62 d L _ _ _ _ _ _) fun r => ?_
  obtain ⟨x62, y62⟩ := r
  refine pure_pre fun hx62 => ?_
  have ps62 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8)) ((3 : Fin 4), (7 : Fin 8), (6 : Fin 8)) 243 rfl rfl rfl rfl rfl v220 rfl rfl rfl rfl x61 hx61
  rw [ps62.1]
  replace hx62 := hx62.trans ps62.2
  clear ps62 hx61
  refine wp_stepV d L (b1_part63 d L _ _ _ _ _ _) fun r => ?_
  obtain ⟨x63, y63⟩ := r
  refine pure_pre fun hx63 => ?_
  have ps63 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8)) ((3 : Fin 4), (3 : Fin 8), (7 : Fin 8)) 247 rfl rfl rfl rfl rfl v227 rfl rfl rfl rfl x62 hx62
  rw [ps63.1]
  replace hx63 := hx63.trans ps63.2
  clear ps63 hx62
  refine wp_stepV d L (b1_part64 d L _ _ _ _ _ _) fun r => ?_
  obtain ⟨x64, y64⟩ := r
  refine pure_pre fun hx64 => ?_
  have ps64 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8)) ((3 : Fin 4), (7 : Fin 8), (7 : Fin 8)) 251 rfl rfl rfl rfl rfl v227 rfl rfl rfl rfl x63 hx63
  rw [ps64.1]
  replace hx64 := hx64.trans ps64.2
  clear ps64 hx63
  iintro Hs
  sl_exec
  sl_step
  rw [← part_last1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (7 : Fin 8)) rfl x64 hx64]
  iexact Hs

/-- THE LOOP: every block multiplied in place. -/
theorem inner1 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (a c : BitVec 32) (t : Fin k0_t1_loop.trips) (g : Buf (Elt F) ((V d (cV L) (jV L)).loc cc0_scratch1)) :
    ((Memref.whole cc0_scratch1 : Memref sig .scVector .vmem S28672 .f32).view.loc (V d (cV L) (jV L)) ↦{fullShare} g : sProp 𝕄) ⊢ wp frame (wpE (defs₀ (F := F)) 𝒱₀ (V d (cV L) (jV L)) none) Set.univ (Scf.Loop.for k0_t2_loop k0_t2_ok ⟨⟩ (k0_t2_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a c t))
      (fun _ => ((Memref.whole cc0_scratch1 : Memref sig .scVector .vmem S28672 .f32).view.loc (V d (cV L) (jV L)) ↦{fullShare} maskBuf (mulTab v10 v17 v24 v31 v38 v45 v52 v59 v66 v73 v80 v87 v94 v101 v108 v115 v122 v129 v136 v143 v150 v157 v164 v171 v178 v185 v192 v199 v206 v213 v220 v227) g : sProp 𝕄)) := by
  iintro Hs
  sl_for (fun (j : Nat) (_ : PUnit) => ((Memref.whole cc0_scratch1 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g j : sProp 𝕄)) $$ [Hs]
  case region => intro j acc; exact trip1 d L v3 v10 v17 v24 v31 v38 v45 v52 v59 v66 v73 v80 v87 v94 v101 v108 v115 v122 v129 v136 v143 v150 v157 v164 v171 v178 v185 v192 v199 v206 v213 v220 v227 a c t g j acc
  rw [maskBlocks_zero, show Scf.trips k0_t2_loop.lb k0_t2_loop.ub k0_t2_loop.st = 7 from rfl, maskBlocks_seven]
  isplitl [Hs]; · iexact Hs
  iintro %acc H
  iexact H

end Cert.Proof.KI

end
-- ==== Proof.TileInnerValT2.lean ====
/-
  Scratch buffer 2's in-place loop, by the stores: the rectangle of a store, what a load of it reads, a printed part's
  four stores over any contents, and the step from the buffer after n stores to the buffer after n + 4.
-/
import proofs.«205805_g86552180949287_cont_9to1_m_41_25_alg».proof.Proof.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

abbrev vw2 : View sig .scVector .vmem S28672 .f32 := (Memref.whole cc0_scratch2 : Memref sig .scVector .vmem S28672 .f32).view

/-- The sixteen words of a store of trip `k`, as the program slices them. -/
abbrev Rk2 (k : Fin k0_t3_loop.trips) (t : Tr) : Rect S28672 :=
  Rect.unit (k0_off4 k (BitVec.ofNat 32 (1024 * t.1.val)) (BitVec.ofNat 32 (128 * t.2.1.val)) (BitVec.ofNat 32 (16 * t.2.2.val))) S16.size
    (k0_off4_inb k t.1 t.2.1 t.2.2)

/-- What a load of them reads. -/
abbrev rd2 (f : (⟨S28672, .f32⟩ : BufTy).Contents (Elt F)) (k : Fin k0_t3_loop.trips) (t : Tr) : Vec F S16 .f32 :=
  View.readAt (Elt F) vw2 (Rk2 k t).toLoadRect f

/-- A printed part's four stores over contents `f`: the carried product, then three loaded sixteens times the multiplier. -/
def wr4_2 (f : (⟨S28672, .f32⟩ : BufTy).Contents (Elt F)) (x m : FVec F S16 .f32) (k : Fin k0_t3_loop.trips) (t0 t1 t2 t3 : Tr) :
    (⟨S28672, .f32⟩ : BufTy).Contents (Elt F) :=
  vw2.writes (Elt F) f [⟨Rk2 k t3, payM m (rd2 f k t3)⟩, ⟨Rk2 k t2, payM m (rd2 f k t2)⟩, ⟨Rk2 k t1, payM m (rd2 f k t1)⟩, ⟨Rk2 k t0, payS x⟩]

/-- The first part's three. -/
def wr3_2 (f : (⟨S28672, .f32⟩ : BufTy).Contents (Elt F)) (m : FVec F S16 .f32) (k : Fin k0_t3_loop.trips) (t0 t1 t2 : Tr) :
    (⟨S28672, .f32⟩ : BufTy).Contents (Elt F) :=
  vw2.writes (Elt F) f [⟨Rk2 k t2, payM m (rd2 f k t2)⟩, ⟨Rk2 k t1, payM m (rd2 f k t1)⟩, ⟨Rk2 k t0, payM m (rd2 f k t0)⟩]

theorem emb2 (k : Fin k0_t3_loop.trips) (t : Tr) (x : S16.Idx) : (((Rk2 k t).emb x) 0).val = offw k.val t + (x 0).val := by
  show (k0_off4 k _ _ _) 0 + 1 * (x 0).val = _
  rw [k0_off4_eq k t.1 t.2.1 t.2.2]
  show (4096 * k.val + 1024 * t.1.val + 128 * t.2.1.val + 16 * t.2.2.val) + 1 * (x 0).val = _
  unfold offw; omega

theorem mem2 (k : Fin k0_t3_loop.trips) (t : Tr) (p : S28672.Idx) :
    p ∈ (vw2.slice (Rk2 k t)).set ↔ (offw k.val t ≤ (p 0).val ∧ (p 0).val < offw k.val t + 16) := by
  show p ∈ ((View.whole cc0_scratch2).slice (Rk2 k t)).set ↔ _
  rw [View.set_slice_whole, Rect.mem_set_unit]
  have e : (k0_off4 k (BitVec.ofNat 32 (1024 * t.1.val)) (BitVec.ofNat 32 (128 * t.2.1.val)) (BitVec.ofNat 32 (16 * t.2.2.val))) 0 = offw k.val t := by
    rw [k0_off4_eq k t.1 t.2.1 t.2.2]; rfl
  constructor
  · intro h; have h0 := h 0; rw [e] at h0; exact h0
  · intro h a
    match a with
    | ⟨0, _⟩ =>
      show (k0_off4 k (BitVec.ofNat 32 (1024 * t.1.val)) (BitVec.ofNat 32 (128 * t.2.1.val)) (BitVec.ofNat 32 (16 * t.2.2.val))) 0 ≤ (p 0).val
        ∧ (p 0).val < (k0_off4 k (BitVec.ofNat 32 (1024 * t.1.val)) (BitVec.ofNat 32 (128 * t.2.1.val)) (BitVec.ofNat 32 (16 * t.2.2.val))) 0 + 16
      rw [e]; exact h

/-- A load of a sixteen not yet stored reads the buffer as the trip found it. -/
theorem rd2_stC (mul : ℕ → FVec F S16 .f32) (g : (⟨S28672, .f32⟩ : BufTy).Contents (Elt F)) (k : Fin k0_t3_loop.trips) (n : ℕ) (t : Tr)
    (hn : n ≤ num t) (x : S16.Idx) : rd2 (stC mul g k.val n) k t x = g ((Rk2 k t).emb x) := by
  show stC mul g k.val n ((Rk2 k t).emb x) = _
  have hx : (x 0).val < 16 := (x 0).isLt
  have he := emb2 k t x
  have := (in_iff k.val t (((Rk2 k t).emb x) 0).val).mp ⟨by omega, by omega⟩
  exact stC_of_ge mul g k.val n _ this.1 (by omega)

/-- THE STEP: the right product stored over the sixteen of store number `num t`. -/
theorem store2 (mul : ℕ → FVec F S16 .f32) (g : (⟨S28672, .f32⟩ : BufTy).Contents (Elt F)) (k : Fin k0_t3_loop.trips) (t : Tr) (v : FVec F S16 .f32)
    (hv : ∀ x : S16.Idx, v x = FloatOps.mulf (g ((Rk2 k t).emb x)) (mul (grp t) x)) :
    (vw2.slice (Rk2 k t)).write (Elt F) (stC mul g k.val (num t)) v Finset.univ = stC mul g k.val (num t + 1) := by
  refine stC_step mul g k.val t _ (fun p h1 h2 => ?_) (fun p hp => ?_)
  · have hm : p ∈ (vw2.slice (Rk2 k t)).set := (mem2 k t p).mpr ⟨h1, h2⟩
    obtain ⟨x, rfl⟩ := View.exists_emb_of_mem_set _ hm
    rw [View.write_emb_of_mem _ _ (Finset.mem_univ x), cast_eq, hv x]
    show _ = maskBuf mul g ((Rk2 k t).emb x)
    have h1' : offw k.val t ≤ (((Rk2 k t).emb x) 0).val := h1
    have h2' : (((Rk2 k t).emb x) 0).val < offw k.val t + 16 := h2
    obtain ⟨hg, hl⟩ := grp_of_in k.val t _ ⟨h1', h2'⟩
    unfold maskBuf
    rw [hg]
    congr 2
    funext a
    match a with
    | ⟨0, _⟩ => exact Fin.ext (by show (x 0).val = (((Rk2 k t).emb x) 0).val % 16; rw [hl, emb2]; omega)
  · rw [View.write_of_not_mem _ _ _ (by rw [View.setOn_univ]; exact fun hm => hp ((mem2 k t p).mp hm))]

/-- A PART'S STEP: from the buffer after `n0` stores, with the product for store `n0` carried, the part's four stores
    give the buffer after `n0 + 4`, and the product it carries on is the one for store `n0 + 4`. -/
theorem part_step2 (mul : ℕ → FVec F S16 .f32) (g : (⟨S28672, .f32⟩ : BufTy).Contents (Elt F)) (k : Fin k0_t3_loop.trips)
    (t0 t1 t2 t3 t4 : Tr) (n0 : ℕ) (h0 : n0 = num t0) (h1 : n0 + 1 = num t1) (h2 : n0 + 2 = num t2) (h3 : n0 + 3 = num t3) (h4 : n0 + 4 = num t4)
    (m : FVec F S16 .f32) (hm1 : m = mul (grp t1)) (hm2 : m = mul (grp t2)) (hm3 : m = mul (grp t3)) (hm4 : m = mul (grp t4))
    (x : FVec F S16 .f32) (hx : x = payP (mul (grp t0)) (rd2 g k t0)) :
    wr4_2 (stC mul g k.val n0) x m k t0 t1 t2 t3 = stC mul g k.val (n0 + 4)
      ∧ payP m (rd2 (stC mul g k.val n0) k t4) = payP (mul (grp t4)) (rd2 g k t4) := by
  constructor
  · unfold wr4_2
    rw [View.writes_cons, View.writes_cons, View.writes_cons, View.writes_cons, View.writes_nil]
    have e0 : (vw2.slice (Rk2 k t0)).write (Elt F) (stC mul g k.val n0) (payS x) Finset.univ = stC mul g k.val (n0 + 1) := by
      have s := store2 mul g k t0 (payS x) (fun i => by rw [payS_eq, hx, payP_apply]; rfl)
      rw [← h0] at s; exact s
    have e1 : (vw2.slice (Rk2 k t1)).write (Elt F) (stC mul g k.val (n0 + 1)) (payM m (rd2 (stC mul g k.val n0) k t1)) Finset.univ = stC mul g k.val (n0 + 2) := by
      have s := store2 mul g k t1 (payM m (rd2 (stC mul g k.val n0) k t1)) (fun i => by rw [payM_apply, rd2_stC mul g k n0 t1 (by omega), hm1])
      rw [← h1] at s; exact s
    have e2 : (vw2.slice (Rk2 k t2)).write (Elt F) (stC mul g k.val (n0 + 2)) (payM m (rd2 (stC mul g k.val n0) k t2)) Finset.univ = stC mul g k.val (n0 + 3) := by
      have s := store2 mul g k t2 (payM m (rd2 (stC mul g k.val n0) k t2)) (fun i => by rw [payM_apply, rd2_stC mul g k n0 t2 (by omega), hm2])
      rw [← h2] at s; exact s
    have e3 : (vw2.slice (Rk2 k t3)).write (Elt F) (stC mul g k.val (n0 + 3)) (payM m (rd2 (stC mul g k.val n0) k t3)) Finset.univ = stC mul g k.val (n0 + 4) := by
      have s := store2 mul g k t3 (payM m (rd2 (stC mul g k.val n0) k t3)) (fun i => by rw [payM_apply, rd2_stC mul g k n0 t3 (by omega), hm3])
      rw [← h3] at s; exact s
    show (vw2.slice (Rk2 k t3)).write (Elt F) ((vw2.slice (Rk2 k t2)).write (Elt F) ((vw2.slice (Rk2 k t1)).write (Elt F)
      ((vw2.slice (Rk2 k t0)).write (Elt F) (stC mul g k.val n0) (payS x) Finset.univ) _ Finset.univ) _ Finset.univ) _ Finset.univ = _
    rw [e0, e1, e2, e3]
  · funext i
    rw [payP_apply, payP_apply, rd2_stC mul g k n0 t4 (by omega), hm4]
    rfl

/-- The first part's step: three stores from the buffer as the trip found it. -/
theorem part_first2 (mul : ℕ → FVec F S16 .f32) (g : (⟨S28672, .f32⟩ : BufTy).Contents (Elt F)) (k : Fin k0_t3_loop.trips)
    (t0 t1 t2 t3 : Tr) (h0 : 0 = num t0) (h1 : 1 = num t1) (h2 : 2 = num t2) (h3 : 3 = num t3)
    (m : FVec F S16 .f32) (hm0 : m = mul (grp t0)) (hm1 : m = mul (grp t1)) (hm2 : m = mul (grp t2)) (hm3 : m = mul (grp t3)) :
    wr3_2 (stC mul g k.val 0) m k t0 t1 t2 = stC mul g k.val 3
      ∧ payP m (rd2 (stC mul g k.val 0) k t3) = payP (mul (grp t3)) (rd2 g k t3) := by
  constructor
  · unfold wr3_2
    rw [View.writes_cons, View.writes_cons, View.writes_cons, View.writes_nil]
    have e0 : (vw2.slice (Rk2 k t0)).write (Elt F) (stC mul g k.val 0) (payM m (rd2 (stC mul g k.val 0) k t0)) Finset.univ = stC mul g k.val (0 + 1) := by
      have s := store2 mul g k t0 (payM m (rd2 (stC mul g k.val 0) k t0)) (fun i => by rw [payM_apply, rd2_stC mul g k 0 t0 (by omega), hm0])
      rw [← h0] at s; exact s
    have e1 : (vw2.slice (Rk2 k t1)).write (Elt F) (stC mul g k.val (0 + 1)) (payM m (rd2 (stC mul g k.val 0) k t1)) Finset.univ = stC mul g k.val (1 + 1) := by
      have s := store2 mul g k t1 (payM m (rd2 (stC mul g k.val 0) k t1)) (fun i => by rw [payM_apply, rd2_stC mul g k 0 t1 (by omega), hm1])
      rw [← h1] at s; exact s
    have e2 : (vw2.slice (Rk2 k t2)).write (Elt F) (stC mul g k.val (1 + 1)) (payM m (rd2 (stC mul g k.val 0) k t2)) Finset.univ = stC mul g k.val (2 + 1) := by
      have s := store2 mul g k t2 (payM m (rd2 (stC mul g k.val 0) k t2)) (fun i => by rw [payM_apply, rd2_stC mul g k 0 t2 (by omega), hm2])
      rw [← h2] at s; exact s
    show (vw2.slice (Rk2 k t2)).write (Elt F) ((vw2.slice (Rk2 k t1)).write (Elt F)
      ((vw2.slice (Rk2 k t0)).write (Elt F) (stC mul g k.val 0) _ Finset.univ) _ Finset.univ) _ Finset.univ = _
    rw [e0, e1, e2]
  · funext i
    rw [payP_apply, payP_apply, rd2_stC mul g k 0 t3 (by omega), hm3]
    rfl

/-- The last store: the carried product for store 255. -/
theorem part_last2 (mul : ℕ → FVec F S16 .f32) (g : (⟨S28672, .f32⟩ : BufTy).Contents (Elt F)) (k : Fin k0_t3_loop.trips)
    (t0 : Tr) (h0 : 255 = num t0) (x : FVec F S16 .f32) (hx : x = payP (mul (grp t0)) (rd2 g k t0)) :
    vw2.writes (Elt F) (stC mul g k.val 255) [⟨Rk2 k t0, payS x⟩] = stC mul g k.val 256 := by
  show (vw2.slice (Rk2 k t0)).write (Elt F) (stC mul g k.val 255) (payS x) Finset.univ = stC mul g k.val 256
  have s := store2 mul g k t0 (payS x) (fun i => by rw [payS_eq, hx, payP_apply]; rfl)
  rw [← h0] at s; exact s

end Cert.Proof.KI

end
-- ==== Proof.TileInnerValP2.lean ====
/-
  Scratch buffer 2's in-place loop, part by part: each printed part of a trip is run once over ANY contents (its four
  stores and the product it carries on, as the three payload shapes), the parts are composed along the trip with the
  buffer kept in closed form by the number of stores done, and the loop goes by the blocks done.
  The table of parts below is a listing of the program's own parts in order (store numbers 4i − 5 … 4i − 2 for part i,
  the pending one 4i − 1); each entry has the same three-line proof.
-/
import proofs.«205805_g86552180949287_cont_9to1_m_41_25_alg».proof.Proof.TileInnerValT2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

theorem b2_part1 (d : Dev nD) (L : grid0.Coords) (m : FVec F S16 .f32) (a c : BitVec 32) (k : Fin k0_t3_loop.trips) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part66 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m a c k)
      (fun r => iprop(⌜r.2.1 = payP m (rd2 f k ((0 : Fin 4), (3 : Fin 8), (0 : Fin 8)))⌝ ∗ ((Memref.whole cc0_scratch2 : Memref sig .scVector .vmem S28672 .f32).view.loc (V d (cV L) (jV L)) ↦{fullShare} wr3_2 f m k ((0 : Fin 4), (0 : Fin 8), (0 : Fin 8)) ((0 : Fin 4), (1 : Fin 8), (0 : Fin 8)) ((0 : Fin 4), (2 : Fin 8), (0 : Fin 8))))) := by
  iintro Hs
  sl_exec
  sl_step
  isplitr; · ipureintro; rfl
  iexact Hs

theorem b2_part2 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part67 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (0 : Fin 8)))⌝ ∗ ((Memref.whole cc0_scratch2 : Memref sig .scVector .vmem S28672 .f32).view.loc (V d (cV L) (jV L)) ↦{fullShare} wr4_2 f x m k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8))))) := by
  iintro Hs
  sl_exec
  sl_step
  isplitr; · ipureintro; rfl
  iexact Hs

theorem b2_part3 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part68 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (1 : Fin 8)))⌝ ∗ ((Memref.whole cc0_scratch2 : Memref sig .scVector .vmem S28672 .f32).view.loc (V d (cV L) (jV L)) ↦{fullShare} wr4_2 f x m k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8))))) := by
  iintro Hs
  sl_exec
  sl_step
  isplitr; · ipureintro; rfl
  iexact Hs

theorem b2_part4 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part69 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (1 : Fin 8)))⌝ ∗ ((Memref.whole cc0_scratch2 : Memref sig .scVector .vmem S28672 .f32).view.loc (V d (cV L) (jV L)) ↦{fullShare} wr4_2 f x m k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8))))) := by
  iintro Hs
  sl_exec
  sl_step
  isplitr; · ipureintro; rfl
  iexact Hs

theorem b2_part5 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part70 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (2 : Fin 8)))⌝ ∗ ((Memref.whole cc0_scratch2 : Memref sig .scVector .vmem S28672 .f32).view.loc (V d (cV L) (jV L)) ↦{fullShare} wr4_2 f x m k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8))))) := by
  iintro Hs
  sl_exec
  sl_step
  isplitr; · ipureintro; rfl
  iexact Hs

theorem b2_part6 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part71 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (2 : Fin 8)))⌝ ∗ ((Memref.whole cc0_scratch2 : Memref sig .scVector .vmem S28672 .f32).view.loc (V d (cV L) (jV L)) ↦{fullShare} wr4_2 f x m k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8))))) := by
  iintro Hs
  sl_exec
  sl_step
  isplitr; · ipureintro; rfl
  iexact Hs

theorem b2_part7 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part72 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (3 : Fin 8)))⌝ ∗ ((Memref.whole cc0_scratch2 : Memref sig .scVector .vmem S28672 .f32).view.loc (V d (cV L) (jV L)) ↦{fullShare} wr4_2 f x m k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8))))) := by
  iintro Hs
  sl_exec
  sl_step
  isplitr; · ipureintro; rfl
  iexact Hs

theorem b2_part8 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part73 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (3 : Fin 8)))⌝ ∗ ((Memref.whole cc0_scratch2 : Memref sig .scVector .vmem S28672 .f32).view.loc (V d (cV L) (jV L)) ↦{fullShare} wr4_2 f x m k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8))))) := by
  iintro Hs
  sl_exec
  sl_step
  isplitr; · ipureintro; rfl
  iexact Hs

theorem b2_part9 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part74 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (4 : Fin 8)))⌝ ∗ ((Memref.whole cc0_scratch2 : Memref sig .scVector .vmem S28672 .f32).view.loc (V d (cV L) (jV L)) ↦{fullShare} wr4_2 f x m k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8))))) := by
  iintro Hs
  sl_exec
  sl_step
  isplitr; · ipureintro; rfl
  iexact Hs

theorem b2_part10 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part75 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (4 : Fin 8)))⌝ ∗ ((Memref.whole cc0_scratch2 : Memref sig .scVector .vmem S28672 .f32).view.loc (V d (cV L) (jV L)) ↦{fullShare} wr4_2 f x m k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8))))) := by
  iintro Hs
  sl_exec
  sl_step
  isplitr; · ipureintro; rfl
  iexact Hs

theorem b2_part11 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part76 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (5 : Fin 8)))⌝ ∗ ((Memref.whole cc0_scratch2 : Memref sig .scVector .vmem S28672 .f32).view.loc (V d (cV L) (jV L)) ↦{fullShare} wr4_2 f x m k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8))))) := by
  iintro Hs
  sl_exec
  sl_step
  isplitr; · ipureintro; rfl
  iexact Hs

theorem b2_part12 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part77 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (5 : Fin 8)))⌝ ∗ ((Memref.whole cc0_scratch2 : Memref sig .scVector .vmem S28672 .f32).view.loc (V d (cV L) (jV L)) ↦{fullShare} wr4_2 f x m k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8))))) := by
  iintro Hs
  sl_exec
  sl_step
  isplitr; · ipureintro; rfl
  iexact Hs

theorem b2_part13 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part78 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (6 : Fin 8)))⌝ ∗ ((Memref.whole cc0_scratch2 : Memref sig .scVector .vmem S28672 .f32).view.loc (V d (cV L) (jV L)) ↦{fullShare} wr4_2 f x m k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8))))) := by
  iintro Hs
  sl_exec
  sl_step
  isplitr; · ipureintro; rfl
  iexact Hs

theorem b2_part14 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part79 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (6 : Fin 8)))⌝ ∗ ((Memref.whole cc0_scratch2 : Memref sig .scVector .vmem S28672 .f32).view.loc (V d (cV L) (jV L)) ↦{fullShare} wr4_2 f x m k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8))))) := by
  iintro Hs
  sl_exec
  sl_step
  isplitr; · ipureintro; rfl
  iexact Hs

theorem b2_part15 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part80 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (7 : Fin 8)))⌝ ∗ ((Memref.whole cc0_scratch2 : Memref sig .scVector .vmem S28672 .f32).view.loc (V d (cV L) (jV L)) ↦{fullShare} wr4_2 f x m k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8))))) := by
  iintro Hs
  sl_exec
  sl_step
  isplitr; · ipureintro; rfl
  iexact Hs

theorem b2_part16 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part81 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (7 : Fin 8)))⌝ ∗ ((Memref.whole cc0_scratch2 : Memref sig .scVector .vmem S28672 .f32).view.loc (V d (cV L) (jV L)) ↦{fullShare} wr4_2 f x m k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8))))) := by
  iintro Hs
  sl_exec
  sl_step
  isplitr; · ipureintro; rfl
  iexact Hs

theorem b2_part17 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part82 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (0 : Fin 8)))⌝ ∗ ((Memref.whole cc0_scratch2 : Memref sig .scVector .vmem S28672 .f32).view.loc (V d (cV L) (jV L)) ↦{fullShare} wr4_2 f x m k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8))))) := by
  iintro Hs
  sl_exec
  sl_step
  isplitr; · ipureintro; rfl
  iexact Hs

theorem b2_part18 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part83 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (0 : Fin 8)))⌝ ∗ ((Memref.whole cc0_scratch2 : Memref sig .scVector .vmem S28672 .f32).view.loc (V d (cV L) (jV L)) ↦{fullShare} wr4_2 f x m k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8))))) := by
  iintro Hs
  sl_exec
  sl_step
  isplitr; · ipureintro; rfl
  iexact Hs

theorem b2_part19 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part84 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (1 : Fin 8)))⌝ ∗ ((Memref.whole cc0_scratch2 : Memref sig .scVector .vmem S28672 .f32).view.loc (V d (cV L) (jV L)) ↦{fullShare} wr4_2 f x m k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8))))) := by
  iintro Hs
  sl_exec
  sl_step
  isplitr; · ipureintro; rfl
  iexact Hs

theorem b2_part20 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part85 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (1 : Fin 8)))⌝ ∗ ((Memref.whole cc0_scratch2 : Memref sig .scVector .vmem S28672 .f32).view.loc (V d (cV L) (jV L)) ↦{fullShare} wr4_2 f x m k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8))))) := by
  iintro Hs
  sl_exec
  sl_step
  isplitr; · ipureintro; rfl
  iexact Hs

theorem b2_part21 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part86 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (2 : Fin 8)))⌝ ∗ ((Memref.whole cc0_scratch2 : Memref sig .scVector .vmem S28672 .f32).view.loc (V d (cV L) (jV L)) ↦{fullShare} wr4_2 f x m k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8))))) := by
  iintro Hs
  sl_exec
  sl_step
  isplitr; · ipureintro; rfl
  iexact Hs

theorem b2_part22 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part87 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (2 : Fin 8)))⌝ ∗ ((Memref.whole cc0_scratch2 : Memref sig .scVector .vmem S28672 .f32).view.loc (V d (cV L) (jV L)) ↦{fullShare} wr4_2 f x m k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8))))) := by
  iintro Hs
  sl_exec
  sl_step
  isplitr; · ipureintro; rfl
  iexact Hs

theorem b2_part23 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part88 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (3 : Fin 8)))⌝ ∗ ((Memref.whole cc0_scratch2 : Memref sig .scVector .vmem S28672 .f32).view.loc (V d (cV L) (jV L)) ↦{fullShare} wr4_2 f x m k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8))))) := by
  iintro Hs
  sl_exec
  sl_step
  isplitr; · ipureintro; rfl
  iexact Hs

theorem b2_part24 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part89 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (3 : Fin 8)))⌝ ∗ ((Memref.whole cc0_scratch2 : Memref sig .scVector .vmem S28672 .f32).view.loc (V d (cV L) (jV L)) ↦{fullShare} wr4_2 f x m k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8))))) := by
  iintro Hs
  sl_exec
  sl_step
  isplitr; · ipureintro; rfl
  iexact Hs

theorem b2_part25 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part90 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (4 : Fin 8)))⌝ ∗ ((Memref.whole cc0_scratch2 : Memref sig .scVector .vmem S28672 .f32).view.loc (V d (cV L) (jV L)) ↦{fullShare} wr4_2 f x m k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8))))) := by
  iintro Hs
  sl_exec
  sl_step
  isplitr; · ipureintro; rfl
  iexact Hs

theorem b2_part26 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part91 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (4 : Fin 8)))⌝ ∗ ((Memref.whole cc0_scratch2 : Memref sig .scVector .vmem S28672 .f32).view.loc (V d (cV L) (jV L)) ↦{fullShare} wr4_2 f x m k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8))))) := by
  iintro Hs
  sl_exec
  sl_step
  isplitr; · ipureintro; rfl
  iexact Hs

theorem b2_part27 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part92 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (5 : Fin 8)))⌝ ∗ ((Memref.whole cc0_scratch2 : Memref sig .scVector .vmem S28672 .f32).view.loc (V d (cV L) (jV L)) ↦{fullShare} wr4_2 f x m k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8))))) := by
  iintro Hs
  sl_exec
  sl_step
  isplitr; · ipureintro; rfl
  iexact Hs

theorem b2_part28 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part93 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (5 : Fin 8)))⌝ ∗ ((Memref.whole cc0_scratch2 : Memref sig .scVector .vmem S28672 .f32).view.loc (V d (cV L) (jV L)) ↦{fullShare} wr4_2 f x m k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8))))) := by
  iintro Hs
  sl_exec
  sl_step
  isplitr; · ipureintro; rfl
  iexact Hs

theorem b2_part29 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part94 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (6 : Fin 8)))⌝ ∗ ((Memref.whole cc0_scratch2 : Memref sig .scVector .vmem S28672 .f32).view.loc (V d (cV L) (jV L)) ↦{fullShare} wr4_2 f x m k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8))))) := by
  iintro Hs
  sl_exec
  sl_step
  isplitr; · ipureintro; rfl
  iexact Hs

theorem b2_part30 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part95 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (6 : Fin 8)))⌝ ∗ ((Memref.whole cc0_scratch2 : Memref sig .scVector .vmem S28672 .f32).view.loc (V d (cV L) (jV L)) ↦{fullShare} wr4_2 f x m k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8))))) := by
  iintro Hs
  sl_exec
  sl_step
  isplitr; · ipureintro; rfl
  iexact Hs

theorem b2_part31 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part96 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (7 : Fin 8)))⌝ ∗ ((Memref.whole cc0_scratch2 : Memref sig .scVector .vmem S28672 .f32).view.loc (V d (cV L) (jV L)) ↦{fullShare} wr4_2 f x m k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8))))) := by
  iintro Hs
  sl_exec
  sl_step
  isplitr; · ipureintro; rfl
  iexact Hs

theorem b2_part32 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part97 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (7 : Fin 8)))⌝ ∗ ((Memref.whole cc0_scratch2 : Memref sig .scVector .vmem S28672 .f32).view.loc (V d (cV L) (jV L)) ↦{fullShare} wr4_2 f x m k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8))))) := by
  iintro Hs
  sl_exec
  sl_step
  isplitr; · ipureintro; rfl
  iexact Hs

theorem b2_part33 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part98 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (0 : Fin 8)))⌝ ∗ ((Memref.whole cc0_scratch2 : Memref sig .scVector .vmem S28672 .f32).view.loc (V d (cV L) (jV L)) ↦{fullShare} wr4_2 f x m k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8))))) := by
  iintro Hs
  sl_exec
  sl_step
  isplitr; · ipureintro; rfl
  iexact Hs

theorem b2_part34 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part99 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (0 : Fin 8)))⌝ ∗ ((Memref.whole cc0_scratch2 : Memref sig .scVector .vmem S28672 .f32).view.loc (V d (cV L) (jV L)) ↦{fullShare} wr4_2 f x m k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8))))) := by
  iintro Hs
  sl_exec
  sl_step
  isplitr; · ipureintro; rfl
  iexact Hs

theorem b2_part35 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part100 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (1 : Fin 8)))⌝ ∗ ((Memref.whole cc0_scratch2 : Memref sig .scVector .vmem S28672 .f32).view.loc (V d (cV L) (jV L)) ↦{fullShare} wr4_2 f x m k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8))))) := by
  iintro Hs
  sl_exec
  sl_step
  isplitr; · ipureintro; rfl
  iexact Hs

theorem b2_part36 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part101 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (1 : Fin 8)))⌝ ∗ ((Memref.whole cc0_scratch2 : Memref sig .scVector .vmem S28672 .f32).view.loc (V d (cV L) (jV L)) ↦{fullShare} wr4_2 f x m k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8))))) := by
  iintro Hs
  sl_exec
  sl_step
  isplitr; · ipureintro; rfl
  iexact Hs

theorem b2_part37 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part102 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (2 : Fin 8)))⌝ ∗ ((Memref.whole cc0_scratch2 : Memref sig .scVector .vmem S28672 .f32).view.loc (V d (cV L) (jV L)) ↦{fullShare} wr4_2 f x m k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8))))) := by
  iintro Hs
  sl_exec
  sl_step
  isplitr; · ipureintro; rfl
  iexact Hs

theorem b2_part38 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part103 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (2 : Fin 8)))⌝ ∗ ((Memref.whole cc0_scratch2 : Memref sig .scVector .vmem S28672 .f32).view.loc (V d (cV L) (jV L)) ↦{fullShare} wr4_2 f x m k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8))))) := by
  iintro Hs
  sl_exec
  sl_step
  isplitr; · ipureintro; rfl
  iexact Hs

theorem b2_part39 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part104 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (3 : Fin 8)))⌝ ∗ ((Memref.whole cc0_scratch2 : Memref sig .scVector .vmem S28672 .f32).view.loc (V d (cV L) (jV L)) ↦{fullShare} wr4_2 f x m k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8))))) := by
  iintro Hs
  sl_exec
  sl_step
  isplitr; · ipureintro; rfl
  iexact Hs

theorem b2_part40 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part105 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (3 : Fin 8)))⌝ ∗ ((Memref.whole cc0_scratch2 : Memref sig .scVector .vmem S28672 .f32).view.loc (V d (cV L) (jV L)) ↦{fullShare} wr4_2 f x m k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8))))) := by
  iintro Hs
  sl_exec
  sl_step
  isplitr; · ipureintro; rfl
  iexact Hs

theorem b2_part41 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part106 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (4 : Fin 8)))⌝ ∗ ((Memref.whole cc0_scratch2 : Memref sig .scVector .vmem S28672 .f32).view.loc (V d (cV L) (jV L)) ↦{fullShare} wr4_2 f x m k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8))))) := by
  iintro Hs
  sl_exec
  sl_step
  isplitr; · ipureintro; rfl
  iexact Hs

theorem b2_part42 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part107 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (4 : Fin 8)))⌝ ∗ ((Memref.whole cc0_scratch2 : Memref sig .scVector .vmem S28672 .f32).view.loc (V d (cV L) (jV L)) ↦{fullShare} wr4_2 f x m k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8))))) := by
  iintro Hs
  sl_exec
  sl_step
  isplitr; · ipureintro; rfl
  iexact Hs

theorem b2_part43 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part108 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (5 : Fin 8)))⌝ ∗ ((Memref.whole cc0_scratch2 : Memref sig .scVector .vmem S28672 .f32).view.loc (V d (cV L) (jV L)) ↦{fullShare} wr4_2 f x m k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8))))) := by
  iintro Hs
  sl_exec
  sl_step
  isplitr; · ipureintro; rfl
  iexact Hs

theorem b2_part44 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part109 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (5 : Fin 8)))⌝ ∗ ((Memref.whole cc0_scratch2 : Memref sig .scVector .vmem S28672 .f32).view.loc (V d (cV L) (jV L)) ↦{fullShare} wr4_2 f x m k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8))))) := by
  iintro Hs
  sl_exec
  sl_step
  isplitr; · ipureintro; rfl
  iexact Hs

theorem b2_part45 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part110 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (6 : Fin 8)))⌝ ∗ ((Memref.whole cc0_scratch2 : Memref sig .scVector .vmem S28672 .f32).view.loc (V d (cV L) (jV L)) ↦{fullShare} wr4_2 f x m k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8))))) := by
  iintro Hs
  sl_exec
  sl_step
  isplitr; · ipureintro; rfl
  iexact Hs

theorem b2_part46 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part111 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (6 : Fin 8)))⌝ ∗ ((Memref.whole cc0_scratch2 : Memref sig .scVector .vmem S28672 .f32).view.loc (V d (cV L) (jV L)) ↦{fullShare} wr4_2 f x m k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8))))) := by
  iintro Hs
  sl_exec
  sl_step
  isplitr; · ipureintro; rfl
  iexact Hs

theorem b2_part47 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part112 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (7 : Fin 8)))⌝ ∗ ((Memref.whole cc0_scratch2 : Memref sig .scVector .vmem S28672 .f32).view.loc (V d (cV L) (jV L)) ↦{fullShare} wr4_2 f x m k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8))))) := by
  iintro Hs
  sl_exec
  sl_step
  isplitr; · ipureintro; rfl
  iexact Hs

theorem b2_part48 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part113 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (7 : Fin 8)))⌝ ∗ ((Memref.whole cc0_scratch2 : Memref sig .scVector .vmem S28672 .f32).view.loc (V d (cV L) (jV L)) ↦{fullShare} wr4_2 f x m k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8))))) := by
  iintro Hs
  sl_exec
  sl_step
  isplitr; · ipureintro; rfl
  iexact Hs

theorem b2_part49 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part114 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (0 : Fin 8)))⌝ ∗ ((Memref.whole cc0_scratch2 : Memref sig .scVector .vmem S28672 .f32).view.loc (V d (cV L) (jV L)) ↦{fullShare} wr4_2 f x m k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8))))) := by
  iintro Hs
  sl_exec
  sl_step
  isplitr; · ipureintro; rfl
  iexact Hs

theorem b2_part50 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part115 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (0 : Fin 8)))⌝ ∗ ((Memref.whole cc0_scratch2 : Memref sig .scVector .vmem S28672 .f32).view.loc (V d (cV L) (jV L)) ↦{fullShare} wr4_2 f x m k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8))))) := by
  iintro Hs
  sl_exec
  sl_step
  isplitr; · ipureintro; rfl
  iexact Hs

theorem b2_part51 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part116 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (1 : Fin 8)))⌝ ∗ ((Memref.whole cc0_scratch2 : Memref sig .scVector .vmem S28672 .f32).view.loc (V d (cV L) (jV L)) ↦{fullShare} wr4_2 f x m k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8))))) := by
  iintro Hs
  sl_exec
  sl_step
  isplitr; · ipureintro; rfl
  iexact Hs

theorem b2_part52 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part117 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (1 : Fin 8)))⌝ ∗ ((Memref.whole cc0_scratch2 : Memref sig .scVector .vmem S28672 .f32).view.loc (V d (cV L) (jV L)) ↦{fullShare} wr4_2 f x m k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8))))) := by
  iintro Hs
  sl_exec
  sl_step
  isplitr; · ipureintro; rfl
  iexact Hs

theorem b2_part53 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part118 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (2 : Fin 8)))⌝ ∗ ((Memref.whole cc0_scratch2 : Memref sig .scVector .vmem S28672 .f32).view.loc (V d (cV L) (jV L)) ↦{fullShare} wr4_2 f x m k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8))))) := by
  iintro Hs
  sl_exec
  sl_step
  isplitr; · ipureintro; rfl
  iexact Hs

theorem b2_part54 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part119 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (2 : Fin 8)))⌝ ∗ ((Memref.whole cc0_scratch2 : Memref sig .scVector .vmem S28672 .f32).view.loc (V d (cV L) (jV L)) ↦{fullShare} wr4_2 f x m k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8))))) := by
  iintro Hs
  sl_exec
  sl_step
  isplitr; · ipureintro; rfl
  iexact Hs

theorem b2_part55 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part120 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (3 : Fin 8)))⌝ ∗ ((Memref.whole cc0_scratch2 : Memref sig .scVector .vmem S28672 .f32).view.loc (V d (cV L) (jV L)) ↦{fullShare} wr4_2 f x m k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8))))) := by
  iintro Hs
  sl_exec
  sl_step
  isplitr; · ipureintro; rfl
  iexact Hs

theorem b2_part56 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part121 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (3 : Fin 8)))⌝ ∗ ((Memref.whole cc0_scratch2 : Memref sig .scVector .vmem S28672 .f32).view.loc (V d (cV L) (jV L)) ↦{fullShare} wr4_2 f x m k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8))))) := by
  iintro Hs
  sl_exec
  sl_step
  isplitr; · ipureintro; rfl
  iexact Hs

theorem b2_part57 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part122 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (4 : Fin 8)))⌝ ∗ ((Memref.whole cc0_scratch2 : Memref sig .scVector .vmem S28672 .f32).view.loc (V d (cV L) (jV L)) ↦{fullShare} wr4_2 f x m k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8))))) := by
  iintro Hs
  sl_exec
  sl_step
  isplitr; · ipureintro; rfl
  iexact Hs

theorem b2_part58 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part123 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (4 : Fin 8)))⌝ ∗ ((Memref.whole cc0_scratch2 : Memref sig .scVector .vmem S28672 .f32).view.loc (V d (cV L) (jV L)) ↦{fullShare} wr4_2 f x m k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8))))) := by
  iintro Hs
  sl_exec
  sl_step
  isplitr; · ipureintro; rfl
  iexact Hs

theorem b2_part59 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part124 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (5 : Fin 8)))⌝ ∗ ((Memref.whole cc0_scratch2 : Memref sig .scVector .vmem S28672 .f32).view.loc (V d (cV L) (jV L)) ↦{fullShare} wr4_2 f x m k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8))))) := by
  iintro Hs
  sl_exec
  sl_step
  isplitr; · ipureintro; rfl
  iexact Hs

theorem b2_part60 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part125 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (5 : Fin 8)))⌝ ∗ ((Memref.whole cc0_scratch2 : Memref sig .scVector .vmem S28672 .f32).view.loc (V d (cV L) (jV L)) ↦{fullShare} wr4_2 f x m k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8))))) := by
  iintro Hs
  sl_exec
  sl_step
  isplitr; · ipureintro; rfl
  iexact Hs

theorem b2_part61 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part126 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (6 : Fin 8)))⌝ ∗ ((Memref.whole cc0_scratch2 : Memref sig .scVector .vmem S28672 .f32).view.loc (V d (cV L) (jV L)) ↦{fullShare} wr4_2 f x m k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8))))) := by
  iintro Hs
  sl_exec
  sl_step
  isplitr; · ipureintro; rfl
  iexact Hs

theorem b2_part62 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part127 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (6 : Fin 8)))⌝ ∗ ((Memref.whole cc0_scratch2 : Memref sig .scVector .vmem S28672 .f32).view.loc (V d (cV L) (jV L)) ↦{fullShare} wr4_2 f x m k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8))))) := by
  iintro Hs
  sl_exec
  sl_step
  isplitr; · ipureintro; rfl
  iexact Hs

theorem b2_part63 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part128 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (7 : Fin 8)))⌝ ∗ ((Memref.whole cc0_scratch2 : Memref sig .scVector .vmem S28672 .f32).view.loc (V d (cV L) (jV L)) ↦{fullShare} wr4_2 f x m k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8))))) := by
  iintro Hs
  sl_exec
  sl_step
  isplitr; · ipureintro; rfl
  iexact Hs

theorem b2_part64 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part129 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (7 : Fin 8)))⌝ ∗ ((Memref.whole cc0_scratch2 : Memref sig .scVector .vmem S28672 .f32).view.loc (V d (cV L) (jV L)) ↦{fullShare} wr4_2 f x m k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8))))) := by
  iintro Hs
  sl_exec
  sl_step
  isplitr; · ipureintro; rfl
  iexact Hs

set_option maxHeartbeats 8000000 in
/-- The first sixty parts of a trip: from the buffer as the trip found it to the buffer after 239 stores. -/
theorem b2_wrap (d : Dev nD) (L : grid0.Coords) (v10 v17 v24 v31 v38 v45 v52 v59 v66 v73 v80 v87 v94 v101 v108 v115 v122 v129 v136 v143 v150 v157 v164 v171 v178 v185 v192 v199 v206 v213 v220 v227 : FVec F S16 .f32) (a c : BitVec 32) (k : Fin k0_t3_loop.trips) (g : Buf (Elt F) ((V d (cV L) (jV L)).loc cc0_scratch2)) :
    ((Memref.whole cc0_scratch2 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 0 : sProp 𝕄) ⊢ wp frame (wpE (defs₀ (F := F)) 𝒱₀ (V d (cV L) (jV L)) none) Set.univ (k0_part130 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v10 v17 v24 v31 v38 v45 v52 v59 v66 v73 v80 v87 v94 v101 v108 v115 v122 v129 v136 v143 v150 v157 v164 v171 v178 v185 v192 v199 v206 v213 a c k)
      (fun r => iprop(⌜r.2.1 = payP ((mulTab v10 v17 v24 v31 v38 v45 v52 v59 v66 v73 v80 v87 v94 v101 v108 v115 v122 v129 v136 v143 v150 v157 v164 v171 v178 v185 v192 v199 v206 v213 v220 v227) (grp ((3 : Fin 4), (7 : Fin 8), (5 : Fin 8)))) (rd2 g k ((3 : Fin 4), (7 : Fin 8), (5 : Fin 8)))⌝ ∗ ((Memref.whole cc0_scratch2 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 239))) := by
  rw [k0_part130_eq_skeleton]; unfold k0_part130_skel
  refine wp_stepV d L (b2_part1 d L _ _ _ _ _) fun r => ?_
  obtain ⟨w, x1, y1⟩ := r
  refine pure_pre fun hx1 => ?_
  have ps1 := part_first2 (mulTab v10 v17 v24 v31 v38 v45 v52 v59 v66 v73 v80 v87 v94 v101 v108 v115 v122 v129 v136 v143 v150 v157 v164 v171 v178 v185 v192 v199 v206 v213 v220 v227) g k ((0 : Fin 4), (0 : Fin 8), (0 : Fin 8)) ((0 : Fin 4), (1 : Fin 8), (0 : Fin 8)) ((0 : Fin 4), (2 : Fin 8), (0 : Fin 8)) ((0 : Fin 4), (3 : Fin 8), (0 : Fin 8)) rfl rfl rfl rfl v10 rfl rfl rfl rfl
  rw [ps1.1]
  replace hx1 := hx1.trans ps1.2
  clear ps1
  refine wp_stepV d L (b2_part2 d L _ _ _ _ _ _) fun r => ?_
  obtain ⟨x2, y2⟩ := r
  refine pure_pre fun hx2 => ?_
  have ps2 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8)) ((0 : Fin 4), (7 : Fin 8), (0 : Fin 8)) 3 rfl rfl rfl rfl rfl v10 rfl rfl rfl rfl x1 hx1
  rw [ps2.1]
  replace hx2 := hx2.trans ps2.2
  clear ps2 hx1
  refine wp_stepV d L (b2_part3 d L _ _ _ _ _ _) fun r => ?_
  obtain ⟨x3, y3⟩ := r
  refine pure_pre fun hx3 => ?_
  have ps3 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8)) ((0 : Fin 4), (3 : Fin 8), (1 : Fin 8)) 7 rfl rfl rfl rfl rfl v17 rfl rfl rfl rfl x2 hx2
  rw [ps3.1]
  replace hx3 := hx3.trans ps3.2
  clear ps3 hx2
  refine wp_stepV d L (b2_part4 d L _ _ _ _ _ _) fun r => ?_
  obtain ⟨x4, y4⟩ := r
  refine pure_pre fun hx4 => ?_
  have ps4 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8)) ((0 : Fin 4), (7 : Fin 8), (1 : Fin 8)) 11 rfl rfl rfl rfl rfl v17 rfl rfl rfl rfl x3 hx3
  rw [ps4.1]
  replace hx4 := hx4.trans ps4.2
  clear ps4 hx3
  refine wp_stepV d L (b2_part5 d L _ _ _ _ _ _) fun r => ?_
  obtain ⟨x5, y5⟩ := r
  refine pure_pre fun hx5 => ?_
  have ps5 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8)) ((0 : Fin 4), (3 : Fin 8), (2 : Fin 8)) 15 rfl rfl rfl rfl rfl v24 rfl rfl rfl rfl x4 hx4
  rw [ps5.1]
  replace hx5 := hx5.trans ps5.2
  clear ps5 hx4
  refine wp_stepV d L (b2_part6 d L _ _ _ _ _ _) fun r => ?_
  obtain ⟨x6, y6⟩ := r
  refine pure_pre fun hx6 => ?_
  have ps6 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8)) ((0 : Fin 4), (7 : Fin 8), (2 : Fin 8)) 19 rfl rfl rfl rfl rfl v24 rfl rfl rfl rfl x5 hx5
  rw [ps6.1]
  replace hx6 := hx6.trans ps6.2
  clear ps6 hx5
  refine wp_stepV d L (b2_part7 d L _ _ _ _ _ _) fun r => ?_
  obtain ⟨x7, y7⟩ := r
  refine pure_pre fun hx7 => ?_
  have ps7 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8)) ((0 : Fin 4), (3 : Fin 8), (3 : Fin 8)) 23 rfl rfl rfl rfl rfl v31 rfl rfl rfl rfl x6 hx6
  rw [ps7.1]
  replace hx7 := hx7.trans ps7.2
  clear ps7 hx6
  refine wp_stepV d L (b2_part8 d L _ _ _ _ _ _) fun r => ?_
  obtain ⟨x8, y8⟩ := r
  refine pure_pre fun hx8 => ?_
  have ps8 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8)) ((0 : Fin 4), (7 : Fin 8), (3 : Fin 8)) 27 rfl rfl rfl rfl rfl v31 rfl rfl rfl rfl x7 hx7
  rw [ps8.1]
  replace hx8 := hx8.trans ps8.2
  clear ps8 hx7
  refine wp_stepV d L (b2_part9 d L _ _ _ _ _ _) fun r => ?_
  obtain ⟨x9, y9⟩ := r
  refine pure_pre fun hx9 => ?_
  have ps9 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8)) ((0 : Fin 4), (3 : Fin 8), (4 : Fin 8)) 31 rfl rfl rfl rfl rfl v38 rfl rfl rfl rfl x8 hx8
  rw [ps9.1]
  replace hx9 := hx9.trans ps9.2
  clear ps9 hx8
  refine wp_stepV d L (b2_part10 d L _ _ _ _ _ _) fun r => ?_
  obtain ⟨x10, y10⟩ := r
  refine pure_pre fun hx10 => ?_
  have ps10 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8)) ((0 : Fin 4), (7 : Fin 8), (4 : Fin 8)) 35 rfl rfl rfl rfl rfl v38 rfl rfl rfl rfl x9 hx9
  rw [ps10.1]
  replace hx10 := hx10.trans ps10.2
  clear ps10 hx9
  refine wp_stepV d L (b2_part11 d L _ _ _ _ _ _) fun r => ?_
  obtain ⟨x11, y11⟩ := r
  refine pure_pre fun hx11 => ?_
  have ps11 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8)) ((0 : Fin 4), (3 : Fin 8), (5 : Fin 8)) 39 rfl rfl rfl rfl rfl v45 rfl rfl rfl rfl x10 hx10
  rw [ps11.1]
  replace hx11 := hx11.trans ps11.2
  clear ps11 hx10
  refine wp_stepV d L (b2_part12 d L _ _ _ _ _ _) fun r => ?_
  obtain ⟨x12, y12⟩ := r
  refine pure_pre fun hx12 => ?_
  have ps12 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8)) ((0 : Fin 4), (7 : Fin 8), (5 : Fin 8)) 43 rfl rfl rfl rfl rfl v45 rfl rfl rfl rfl x11 hx11
  rw [ps12.1]
  replace hx12 := hx12.trans ps12.2
  clear ps12 hx11
  refine wp_stepV d L (b2_part13 d L _ _ _ _ _ _) fun r => ?_
  obtain ⟨x13, y13⟩ := r
  refine pure_pre fun hx13 => ?_
  have ps13 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8)) ((0 : Fin 4), (3 : Fin 8), (6 : Fin 8)) 47 rfl rfl rfl rfl rfl v52 rfl rfl rfl rfl x12 hx12
  rw [ps13.1]
  replace hx13 := hx13.trans ps13.2
  clear ps13 hx12
  refine wp_stepV d L (b2_part14 d L _ _ _ _ _ _) fun r => ?_
  obtain ⟨x14, y14⟩ := r
  refine pure_pre fun hx14 => ?_
  have ps14 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8)) ((0 : Fin 4), (7 : Fin 8), (6 : Fin 8)) 51 rfl rfl rfl rfl rfl v52 rfl rfl rfl rfl x13 hx13
  rw [ps14.1]
  replace hx14 := hx14.trans ps14.2
  clear ps14 hx13
  refine wp_stepV d L (b2_part15 d L _ _ _ _ _ _) fun r => ?_
  obtain ⟨x15, y15⟩ := r
  refine pure_pre fun hx15 => ?_
  have ps15 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8)) ((0 : Fin 4), (3 : Fin 8), (7 : Fin 8)) 55 rfl rfl rfl rfl rfl v59 rfl rfl rfl rfl x14 hx14
  rw [ps15.1]
  replace hx15 := hx15.trans ps15.2
  clear ps15 hx14
  refine wp_stepV d L (b2_part16 d L _ _ _ _ _ _) fun r => ?_
  obtain ⟨x16, y16⟩ := r
  refine pure_pre fun hx16 => ?_
  have ps16 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8)) ((0 : Fin 4), (7 : Fin 8), (7 : Fin 8)) 59 rfl rfl rfl rfl rfl v59 rfl rfl rfl rfl x15 hx15
  rw [ps16.1]
  replace hx16 := hx16.trans ps16.2
  clear ps16 hx15
  refine wp_stepV d L (b2_part17 d L _ _ _ _ _ _) fun r => ?_
  obtain ⟨x17, y17⟩ := r
  refine pure_pre fun hx17 => ?_
  have ps17 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8)) ((1 : Fin 4), (3 : Fin 8), (0 : Fin 8)) 63 rfl rfl rfl rfl rfl v66 rfl rfl rfl rfl x16 hx16
  rw [ps17.1]
  replace hx17 := hx17.trans ps17.2
  clear ps17 hx16
  refine wp_stepV d L (b2_part18 d L _ _ _ _ _ _) fun r => ?_
  obtain ⟨x18, y18⟩ := r
  refine pure_pre fun hx18 => ?_
  have ps18 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8)) ((1 : Fin 4), (7 : Fin 8), (0 : Fin 8)) 67 rfl rfl rfl rfl rfl v66 rfl rfl rfl rfl x17 hx17
  rw [ps18.1]
  replace hx18 := hx18.trans ps18.2
  clear ps18 hx17
  refine wp_stepV d L (b2_part19 d L _ _ _ _ _ _) fun r => ?_
  obtain ⟨x19, y19⟩ := r
  refine pure_pre fun hx19 => ?_
  have ps19 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8)) ((1 : Fin 4), (3 : Fin 8), (1 : Fin 8)) 71 rfl rfl rfl rfl rfl v73 rfl rfl rfl rfl x18 hx18
  rw [ps19.1]
  replace hx19 := hx19.trans ps19.2
  clear ps19 hx18
  refine wp_stepV d L (b2_part20 d L _ _ _ _ _ _) fun r => ?_
  obtain ⟨x20, y20⟩ := r
  refine pure_pre fun hx20 => ?_
  have ps20 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8)) ((1 : Fin 4), (7 : Fin 8), (1 : Fin 8)) 75 rfl rfl rfl rfl rfl v73 rfl rfl rfl rfl x19 hx19
  rw [ps20.1]
  replace hx20 := hx20.trans ps20.2
  clear ps20 hx19
  refine wp_stepV d L (b2_part21 d L _ _ _ _ _ _) fun r => ?_
  obtain ⟨x21, y21⟩ := r
  refine pure_pre fun hx21 => ?_
  have ps21 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8)) ((1 : Fin 4), (3 : Fin 8), (2 : Fin 8)) 79 rfl rfl rfl rfl rfl v80 rfl rfl rfl rfl x20 hx20
  rw [ps21.1]
  replace hx21 := hx21.trans ps21.2
  clear ps21 hx20
  refine wp_stepV d L (b2_part22 d L _ _ _ _ _ _) fun r => ?_
  obtain ⟨x22, y22⟩ := r
  refine pure_pre fun hx22 => ?_
  have ps22 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8)) ((1 : Fin 4), (7 : Fin 8), (2 : Fin 8)) 83 rfl rfl rfl rfl rfl v80 rfl rfl rfl rfl x21 hx21
  rw [ps22.1]
  replace hx22 := hx22.trans ps22.2
  clear ps22 hx21
  refine wp_stepV d L (b2_part23 d L _ _ _ _ _ _) fun r => ?_
  obtain ⟨x23, y23⟩ := r
  refine pure_pre fun hx23 => ?_
  have ps23 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8)) ((1 : Fin 4), (3 : Fin 8), (3 : Fin 8)) 87 rfl rfl rfl rfl rfl v87 rfl rfl rfl rfl x22 hx22
  rw [ps23.1]
  replace hx23 := hx23.trans ps23.2
  clear ps23 hx22
  refine wp_stepV d L (b2_part24 d L _ _ _ _ _ _) fun r => ?_
  obtain ⟨x24, y24⟩ := r
  refine pure_pre fun hx24 => ?_
  have ps24 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8)) ((1 : Fin 4), (7 : Fin 8), (3 : Fin 8)) 91 rfl rfl rfl rfl rfl v87 rfl rfl rfl rfl x23 hx23
  rw [ps24.1]
  replace hx24 := hx24.trans ps24.2
  clear ps24 hx23
  refine wp_stepV d L (b2_part25 d L _ _ _ _ _ _) fun r => ?_
  obtain ⟨x25, y25⟩ := r
  refine pure_pre fun hx25 => ?_
  have ps25 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8)) ((1 : Fin 4), (3 : Fin 8), (4 : Fin 8)) 95 rfl rfl rfl rfl rfl v94 rfl rfl rfl rfl x24 hx24
  rw [ps25.1]
  replace hx25 := hx25.trans ps25.2
  clear ps25 hx24
  refine wp_stepV d L (b2_part26 d L _ _ _ _ _ _) fun r => ?_
  obtain ⟨x26, y26⟩ := r
  refine pure_pre fun hx26 => ?_
  have ps26 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8)) ((1 : Fin 4), (7 : Fin 8), (4 : Fin 8)) 99 rfl rfl rfl rfl rfl v94 rfl rfl rfl rfl x25 hx25
  rw [ps26.1]
  replace hx26 := hx26.trans ps26.2
  clear ps26 hx25
  refine wp_stepV d L (b2_part27 d L _ _ _ _ _ _) fun r => ?_
  obtain ⟨x27, y27⟩ := r
  refine pure_pre fun hx27 => ?_
  have ps27 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8)) ((1 : Fin 4), (3 : Fin 8), (5 : Fin 8)) 103 rfl rfl rfl rfl rfl v101 rfl rfl rfl rfl x26 hx26
  rw [ps27.1]
  replace hx27 := hx27.trans ps27.2
  clear ps27 hx26
  refine wp_stepV d L (b2_part28 d L _ _ _ _ _ _) fun r => ?_
  obtain ⟨x28, y28⟩ := r
  refine pure_pre fun hx28 => ?_
  have ps28 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8)) ((1 : Fin 4), (7 : Fin 8), (5 : Fin 8)) 107 rfl rfl rfl rfl rfl v101 rfl rfl rfl rfl x27 hx27
  rw [ps28.1]
  replace hx28 := hx28.trans ps28.2
  clear ps28 hx27
  refine wp_stepV d L (b2_part29 d L _ _ _ _ _ _) fun r => ?_
  obtain ⟨x29, y29⟩ := r
  refine pure_pre fun hx29 => ?_
  have ps29 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8)) ((1 : Fin 4), (3 : Fin 8), (6 : Fin 8)) 111 rfl rfl rfl rfl rfl v108 rfl rfl rfl rfl x28 hx28
  rw [ps29.1]
  replace hx29 := hx29.trans ps29.2
  clear ps29 hx28
  refine wp_stepV d L (b2_part30 d L _ _ _ _ _ _) fun r => ?_
  obtain ⟨x30, y30⟩ := r
  refine pure_pre fun hx30 => ?_
  have ps30 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8)) ((1 : Fin 4), (7 : Fin 8), (6 : Fin 8)) 115 rfl rfl rfl rfl rfl v108 rfl rfl rfl rfl x29 hx29
  rw [ps30.1]
  replace hx30 := hx30.trans ps30.2
  clear ps30 hx29
  refine wp_stepV d L (b2_part31 d L _ _ _ _ _ _) fun r => ?_
  obtain ⟨x31, y31⟩ := r
  refine pure_pre fun hx31 => ?_
  have ps31 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8)) ((1 : Fin 4), (3 : Fin 8), (7 : Fin 8)) 119 rfl rfl rfl rfl rfl v115 rfl rfl rfl rfl x30 hx30
  rw [ps31.1]
  replace hx31 := hx31.trans ps31.2
  clear ps31 hx30
  refine wp_stepV d L (b2_part32 d L _ _ _ _ _ _) fun r => ?_
  obtain ⟨x32, y32⟩ := r
  refine pure_pre fun hx32 => ?_
  have ps32 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8)) ((1 : Fin 4), (7 : Fin 8), (7 : Fin 8)) 123 rfl rfl rfl rfl rfl v115 rfl rfl rfl rfl x31 hx31
  rw [ps32.1]
  replace hx32 := hx32.trans ps32.2
  clear ps32 hx31
  refine wp_stepV d L (b2_part33 d L _ _ _ _ _ _) fun r => ?_
  obtain ⟨x33, y33⟩ := r
  refine pure_pre fun hx33 => ?_
  have ps33 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8)) ((2 : Fin 4), (3 : Fin 8), (0 : Fin 8)) 127 rfl rfl rfl rfl rfl v122 rfl rfl rfl rfl x32 hx32
  rw [ps33.1]
  replace hx33 := hx33.trans ps33.2
  clear ps33 hx32
  refine wp_stepV d L (b2_part34 d L _ _ _ _ _ _) fun r => ?_
  obtain ⟨x34, y34⟩ := r
  refine pure_pre fun hx34 => ?_
  have ps34 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8)) ((2 : Fin 4), (7 : Fin 8), (0 : Fin 8)) 131 rfl rfl rfl rfl rfl v122 rfl rfl rfl rfl x33 hx33
  rw [ps34.1]
  replace hx34 := hx34.trans ps34.2
  clear ps34 hx33
  refine wp_stepV d L (b2_part35 d L _ _ _ _ _ _) fun r => ?_
  obtain ⟨x35, y35⟩ := r
  refine pure_pre fun hx35 => ?_
  have ps35 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8)) ((2 : Fin 4), (3 : Fin 8), (1 : Fin 8)) 135 rfl rfl rfl rfl rfl v129 rfl rfl rfl rfl x34 hx34
  rw [ps35.1]
  replace hx35 := hx35.trans ps35.2
  clear ps35 hx34
  refine wp_stepV d L (b2_part36 d L _ _ _ _ _ _) fun r => ?_
  obtain ⟨x36, y36⟩ := r
  refine pure_pre fun hx36 => ?_
  have ps36 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8)) ((2 : Fin 4), (7 : Fin 8), (1 : Fin 8)) 139 rfl rfl rfl rfl rfl v129 rfl rfl rfl rfl x35 hx35
  rw [ps36.1]
  replace hx36 := hx36.trans ps36.2
  clear ps36 hx35
  refine wp_stepV d L (b2_part37 d L _ _ _ _ _ _) fun r => ?_
  obtain ⟨x37, y37⟩ := r
  refine pure_pre fun hx37 => ?_
  have ps37 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8)) ((2 : Fin 4), (3 : Fin 8), (2 : Fin 8)) 143 rfl rfl rfl rfl rfl v136 rfl rfl rfl rfl x36 hx36
  rw [ps37.1]
  replace hx37 := hx37.trans ps37.2
  clear ps37 hx36
  refine wp_stepV d L (b2_part38 d L _ _ _ _ _ _) fun r => ?_
  obtain ⟨x38, y38⟩ := r
  refine pure_pre fun hx38 => ?_
  have ps38 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8)) ((2 : Fin 4), (7 : Fin 8), (2 : Fin 8)) 147 rfl rfl rfl rfl rfl v136 rfl rfl rfl rfl x37 hx37
  rw [ps38.1]
  replace hx38 := hx38.trans ps38.2
  clear ps38 hx37
  refine wp_stepV d L (b2_part39 d L _ _ _ _ _ _) fun r => ?_
  obtain ⟨x39, y39⟩ := r
  refine pure_pre fun hx39 => ?_
  have ps39 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8)) ((2 : Fin 4), (3 : Fin 8), (3 : Fin 8)) 151 rfl rfl rfl rfl rfl v143 rfl rfl rfl rfl x38 hx38
  rw [ps39.1]
  replace hx39 := hx39.trans ps39.2
  clear ps39 hx38
  refine wp_stepV d L (b2_part40 d L _ _ _ _ _ _) fun r => ?_
  obtain ⟨x40, y40⟩ := r
  refine pure_pre fun hx40 => ?_
  have ps40 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8)) ((2 : Fin 4), (7 : Fin 8), (3 : Fin 8)) 155 rfl rfl rfl rfl rfl v143 rfl rfl rfl rfl x39 hx39
  rw [ps40.1]
  replace hx40 := hx40.trans ps40.2
  clear ps40 hx39
  refine wp_stepV d L (b2_part41 d L _ _ _ _ _ _) fun r => ?_
  obtain ⟨x41, y41⟩ := r
  refine pure_pre fun hx41 => ?_
  have ps41 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8)) ((2 : Fin 4), (3 : Fin 8), (4 : Fin 8)) 159 rfl rfl rfl rfl rfl v150 rfl rfl rfl rfl x40 hx40
  rw [ps41.1]
  replace hx41 := hx41.trans ps41.2
  clear ps41 hx40
  refine wp_stepV d L (b2_part42 d L _ _ _ _ _ _) fun r => ?_
  obtain ⟨x42, y42⟩ := r
  refine pure_pre fun hx42 => ?_
  have ps42 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8)) ((2 : Fin 4), (7 : Fin 8), (4 : Fin 8)) 163 rfl rfl rfl rfl rfl v150 rfl rfl rfl rfl x41 hx41
  rw [ps42.1]
  replace hx42 := hx42.trans ps42.2
  clear ps42 hx41
  refine wp_stepV d L (b2_part43 d L _ _ _ _ _ _) fun r => ?_
  obtain ⟨x43, y43⟩ := r
  refine pure_pre fun hx43 => ?_
  have ps43 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8)) ((2 : Fin 4), (3 : Fin 8), (5 : Fin 8)) 167 rfl rfl rfl rfl rfl v157 rfl rfl rfl rfl x42 hx42
  rw [ps43.1]
  replace hx43 := hx43.trans ps43.2
  clear ps43 hx42
  refine wp_stepV d L (b2_part44 d L _ _ _ _ _ _) fun r => ?_
  obtain ⟨x44, y44⟩ := r
  refine pure_pre fun hx44 => ?_
  have ps44 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8)) ((2 : Fin 4), (7 : Fin 8), (5 : Fin 8)) 171 rfl rfl rfl rfl rfl v157 rfl rfl rfl rfl x43 hx43
  rw [ps44.1]
  replace hx44 := hx44.trans ps44.2
  clear ps44 hx43
  refine wp_stepV d L (b2_part45 d L _ _ _ _ _ _) fun r => ?_
  obtain ⟨x45, y45⟩ := r
  refine pure_pre fun hx45 => ?_
  have ps45 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8)) ((2 : Fin 4), (3 : Fin 8), (6 : Fin 8)) 175 rfl rfl rfl rfl rfl v164 rfl rfl rfl rfl x44 hx44
  rw [ps45.1]
  replace hx45 := hx45.trans ps45.2
  clear ps45 hx44
  refine wp_stepV d L (b2_part46 d L _ _ _ _ _ _) fun r => ?_
  obtain ⟨x46, y46⟩ := r
  refine pure_pre fun hx46 => ?_
  have ps46 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8)) ((2 : Fin 4), (7 : Fin 8), (6 : Fin 8)) 179 rfl rfl rfl rfl rfl v164 rfl rfl rfl rfl x45 hx45
  rw [ps46.1]
  replace hx46 := hx46.trans ps46.2
  clear ps46 hx45
  refine wp_stepV d L (b2_part47 d L _ _ _ _ _ _) fun r => ?_
  obtain ⟨x47, y47⟩ := r
  refine pure_pre fun hx47 => ?_
  have ps47 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8)) ((2 : Fin 4), (3 : Fin 8), (7 : Fin 8)) 183 rfl rfl rfl rfl rfl v171 rfl rfl rfl rfl x46 hx46
  rw [ps47.1]
  replace hx47 := hx47.trans ps47.2
  clear ps47 hx46
  refine wp_stepV d L (b2_part48 d L _ _ _ _ _ _) fun r => ?_
  obtain ⟨x48, y48⟩ := r
  refine pure_pre fun hx48 => ?_
  have ps48 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8)) ((2 : Fin 4), (7 : Fin 8), (7 : Fin 8)) 187 rfl rfl rfl rfl rfl v171 rfl rfl rfl rfl x47 hx47
  rw [ps48.1]
  replace hx48 := hx48.trans ps48.2
  clear ps48 hx47
  refine wp_stepV d L (b2_part49 d L _ _ _ _ _ _) fun r => ?_
  obtain ⟨x49, y49⟩ := r
  refine pure_pre fun hx49 => ?_
  have ps49 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8)) ((3 : Fin 4), (3 : Fin 8), (0 : Fin 8)) 191 rfl rfl rfl rfl rfl v178 rfl rfl rfl rfl x48 hx48
  rw [ps49.1]
  replace hx49 := hx49.trans ps49.2
  clear ps49 hx48
  refine wp_stepV d L (b2_part50 d L _ _ _ _ _ _) fun r => ?_
  obtain ⟨x50, y50⟩ := r
  refine pure_pre fun hx50 => ?_
  have ps50 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8)) ((3 : Fin 4), (7 : Fin 8), (0 : Fin 8)) 195 rfl rfl rfl rfl rfl v178 rfl rfl rfl rfl x49 hx49
  rw [ps50.1]
  replace hx50 := hx50.trans ps50.2
  clear ps50 hx49
  refine wp_stepV d L (b2_part51 d L _ _ _ _ _ _) fun r => ?_
  obtain ⟨x51, y51⟩ := r
  refine pure_pre fun hx51 => ?_
  have ps51 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8)) ((3 : Fin 4), (3 : Fin 8), (1 : Fin 8)) 199 rfl rfl rfl rfl rfl v185 rfl rfl rfl rfl x50 hx50
  rw [ps51.1]
  replace hx51 := hx51.trans ps51.2
  clear ps51 hx50
  refine wp_stepV d L (b2_part52 d L _ _ _ _ _ _) fun r => ?_
  obtain ⟨x52, y52⟩ := r
  refine pure_pre fun hx52 => ?_
  have ps52 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8)) ((3 : Fin 4), (7 : Fin 8), (1 : Fin 8)) 203 rfl rfl rfl rfl rfl v185 rfl rfl rfl rfl x51 hx51
  rw [ps52.1]
  replace hx52 := hx52.trans ps52.2
  clear ps52 hx51
  refine wp_stepV d L (b2_part53 d L _ _ _ _ _ _) fun r => ?_
  obtain ⟨x53, y53⟩ := r
  refine pure_pre fun hx53 => ?_
  have ps53 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8)) ((3 : Fin 4), (3 : Fin 8), (2 : Fin 8)) 207 rfl rfl rfl rfl rfl v192 rfl rfl rfl rfl x52 hx52
  rw [ps53.1]
  replace hx53 := hx53.trans ps53.2
  clear ps53 hx52
  refine wp_stepV d L (b2_part54 d L _ _ _ _ _ _) fun r => ?_
  obtain ⟨x54, y54⟩ := r
  refine pure_pre fun hx54 => ?_
  have ps54 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8)) ((3 : Fin 4), (7 : Fin 8), (2 : Fin 8)) 211 rfl rfl rfl rfl rfl v192 rfl rfl rfl rfl x53 hx53
  rw [ps54.1]
  replace hx54 := hx54.trans ps54.2
  clear ps54 hx53
  refine wp_stepV d L (b2_part55 d L _ _ _ _ _ _) fun r => ?_
  obtain ⟨x55, y55⟩ := r
  refine pure_pre fun hx55 => ?_
  have ps55 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8)) ((3 : Fin 4), (3 : Fin 8), (3 : Fin 8)) 215 rfl rfl rfl rfl rfl v199 rfl rfl rfl rfl x54 hx54
  rw [ps55.1]
  replace hx55 := hx55.trans ps55.2
  clear ps55 hx54
  refine wp_stepV d L (b2_part56 d L _ _ _ _ _ _) fun r => ?_
  obtain ⟨x56, y56⟩ := r
  refine pure_pre fun hx56 => ?_
  have ps56 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8)) ((3 : Fin 4), (7 : Fin 8), (3 : Fin 8)) 219 rfl rfl rfl rfl rfl v199 rfl rfl rfl rfl x55 hx55
  rw [ps56.1]
  replace hx56 := hx56.trans ps56.2
  clear ps56 hx55
  refine wp_stepV d L (b2_part57 d L _ _ _ _ _ _) fun r => ?_
  obtain ⟨x57, y57⟩ := r
  refine pure_pre fun hx57 => ?_
  have ps57 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8)) ((3 : Fin 4), (3 : Fin 8), (4 : Fin 8)) 223 rfl rfl rfl rfl rfl v206 rfl rfl rfl rfl x56 hx56
  rw [ps57.1]
  replace hx57 := hx57.trans ps57.2
  clear ps57 hx56
  refine wp_stepV d L (b2_part58 d L _ _ _ _ _ _) fun r => ?_
  obtain ⟨x58, y58⟩ := r
  refine pure_pre fun hx58 => ?_
  have ps58 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8)) ((3 : Fin 4), (7 : Fin 8), (4 : Fin 8)) 227 rfl rfl rfl rfl rfl v206 rfl rfl rfl rfl x57 hx57
  rw [ps58.1]
  replace hx58 := hx58.trans ps58.2
  clear ps58 hx57
  refine wp_stepV d L (b2_part59 d L _ _ _ _ _ _) fun r => ?_
  obtain ⟨x59, y59⟩ := r
  refine pure_pre fun hx59 => ?_
  have ps59 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8)) ((3 : Fin 4), (3 : Fin 8), (5 : Fin 8)) 231 rfl rfl rfl rfl rfl v213 rfl rfl rfl rfl x58 hx58
  rw [ps59.1]
  replace hx59 := hx59.trans ps59.2
  clear ps59 hx58
  refine wp_stepV d L (b2_part60 d L _ _ _ _ _ _) fun r => ?_
  obtain ⟨x60, y60⟩ := r
  refine pure_pre fun hx60 => ?_
  have ps60 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8)) ((3 : Fin 4), (7 : Fin 8), (5 : Fin 8)) 235 rfl rfl rfl rfl rfl v213 rfl rfl rfl rfl x59 hx59
  rw [ps60.1]
  replace hx60 := hx60.trans ps60.2
  clear ps60 hx59
  iintro H
  first | rw [wp_pure] | rw [wp_ret]
  imodintro
  isplitr; · ipureintro; exact hx60
  iexact H

set_option maxHeartbeats 2000000 in
/-- ONE TRIP: block `k` multiplied in place. -/
theorem trip2 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (a c : BitVec 32) (t : Fin k0_t1_loop.trips) (g : Buf (Elt F) ((V d (cV L) (jV L)).loc cc0_scratch2)) (k : Fin k0_t3_loop.trips) (acc : Unit) :
    ((Memref.whole cc0_scratch2 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g k.val : sProp 𝕄) ⊢ wp frame (wpE (defs₀ (F := F)) 𝒱₀ (V d (cV L) (jV L)) none) Set.univ (k0_t3_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a c t k acc)
      (fun _ => ((Memref.whole cc0_scratch2 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g (k.val + 1) : sProp 𝕄)) := by
  rw [← stC_zero, ← stC_full]
  unfold k0_t3_body
  refine wp_stepV d L (b2_wrap d L v10 v17 v24 v31 v38 v45 v52 v59 v66 v73 v80 v87 v94 v101 v108 v115 v122 v129 v136 v143 v150 v157 v164 v171 v178 v185 v192 v199 v206 v213 v220 v227 _ _ k g) fun r => ?_
  obtain ⟨w, x60, y60⟩ := r
  refine pure_pre fun hx60 => ?_
  refine wp_stepV d L (b2_part61 d L _ _ _ _ _ _) fun r => ?_
  obtain ⟨x61, y61⟩ := r
  refine pure_pre fun hx61 => ?_
  have ps61 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8)) ((3 : Fin 4), (3 : Fin 8), (6 : Fin 8)) 239 rfl rfl rfl rfl rfl v220 rfl rfl rfl rfl x60 hx60
  rw [ps61.1]
  replace hx61 := hx61.trans ps61.2
  clear ps61 hx60
  refine wp_stepV d L (b2_part62 d L _ _ _ _ _ _) fun r => ?_
  obtain ⟨x62, y62⟩ := r
  refine pure_pre fun hx62 => ?_
  have ps62 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8)) ((3 : Fin 4), (7 : Fin 8), (6 : Fin 8)) 243 rfl rfl rfl rfl rfl v220 rfl rfl rfl rfl x61 hx61
  rw [ps62.1]
  replace hx62 := hx62.trans ps62.2
  clear ps62 hx61
  refine wp_stepV d L (b2_part63 d L _ _ _ _ _ _) fun r => ?_
  obtain ⟨x63, y63⟩ := r
  refine pure_pre fun hx63 => ?_
  have ps63 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8)) ((3 : Fin 4), (3 : Fin 8), (7 : Fin 8)) 247 rfl rfl rfl rfl rfl v227 rfl rfl rfl rfl x62 hx62
  rw [ps63.1]
  replace hx63 := hx63.trans ps63.2
  clear ps63 hx62
  refine wp_stepV d L (b2_part64 d L _ _ _ _ _ _) fun r => ?_
  obtain ⟨x64, y64⟩ := r
  refine pure_pre fun hx64 => ?_
  have ps64 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8)) ((3 : Fin 4), (7 : Fin 8), (7 : Fin 8)) 251 rfl rfl rfl rfl rfl v227 rfl rfl rfl rfl x63 hx63
  rw [ps64.1]
  replace hx64 := hx64.trans ps64.2
  clear ps64 hx63
  iintro Hs
  sl_exec
  sl_step
  rw [← part_last2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (7 : Fin 8)) rfl x64 hx64]
  iexact Hs

/-- THE LOOP: every block multiplied in place. -/
theorem inner2 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (a c : BitVec 32) (t : Fin k0_t1_loop.trips) (g : Buf (Elt F) ((V d (cV L) (jV L)).loc cc0_scratch2)) :
    ((Memref.whole cc0_scratch2 : Memref sig .scVector .vmem S28672 .f32).view.loc (V d (cV L) (jV L)) ↦{fullShare} g : sProp 𝕄) ⊢ wp frame (wpE (defs₀ (F := F)) 𝒱₀ (V d (cV L) (jV L)) none) Set.univ (Scf.Loop.for k0_t3_loop k0_t3_ok ⟨⟩ (k0_t3_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a c t))
      (fun _ => ((Memref.whole cc0_scratch2 : Memref sig .scVector .vmem S28672 .f32).view.loc (V d (cV L) (jV L)) ↦{fullShare} maskBuf (mulTab v10 v17 v24 v31 v38 v45 v52 v59 v66 v73 v80 v87 v94 v101 v108 v115 v122 v129 v136 v143 v150 v157 v164 v171 v178 v185 v192 v199 v206 v213 v220 v227) g : sProp 𝕄)) := by
  iintro Hs
  sl_for (fun (j : Nat) (_ : PUnit) => ((Memref.whole cc0_scratch2 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g j : sProp 𝕄)) $$ [Hs]
  case region => intro j acc; exact trip2 d L v3 v10 v17 v24 v31 v38 v45 v52 v59 v66 v73 v80 v87 v94 v101 v108 v115 v122 v129 v136 v143 v150 v157 v164 v171 v178 v185 v192 v199 v206 v213 v220 v227 a c t g j acc
  rw [maskBlocks_zero, show Scf.trips k0_t3_loop.lb k0_t3_loop.ub k0_t3_loop.st = 7 from rfl, maskBlocks_seven]
  isplitl [Hs]; · iexact Hs
  iintro %acc H
  iexact H

end Cert.Proof.KI

end
-- ==== Proof.TileInnerValT3.lean ====
/-
  Scratch buffer 3's in-place loop, by the stores: the rectangle of a store, what a load of it reads, a printed part's
  four stores over any contents, and the step from the buffer after n stores to the buffer after n + 4.
-/
import proofs.«205805_g86552180949287_cont_9to1_m_41_25_alg».proof.Proof.TileInnerVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

abbrev vw3 : View sig .scVector .vmem S28672 .f32 := (Memref.whole cc0_scratch3 : Memref sig .scVector .vmem S28672 .f32).view

/-- The sixteen words of a store of trip `k`, as the program slices them. -/
abbrev Rk3 (k : Fin k0_t4_loop.trips) (t : Tr) : Rect S28672 :=
  Rect.unit (k0_off5 k (BitVec.ofNat 32 (1024 * t.1.val)) (BitVec.ofNat 32 (128 * t.2.1.val)) (BitVec.ofNat 32 (16 * t.2.2.val))) S16.size
    (k0_off5_inb k t.1 t.2.1 t.2.2)

/-- What a load of them reads. -/
abbrev rd3 (f : (⟨S28672, .f32⟩ : BufTy).Contents (Elt F)) (k : Fin k0_t4_loop.trips) (t : Tr) : Vec F S16 .f32 :=
  View.readAt (Elt F) vw3 (Rk3 k t).toLoadRect f

/-- A printed part's four stores over contents `f`: the carried product, then three loaded sixteens times the multiplier. -/
def wr4_3 (f : (⟨S28672, .f32⟩ : BufTy).Contents (Elt F)) (x m : FVec F S16 .f32) (k : Fin k0_t4_loop.trips) (t0 t1 t2 t3 : Tr) :
    (⟨S28672, .f32⟩ : BufTy).Contents (Elt F) :=
  vw3.writes (Elt F) f [⟨Rk3 k t3, payM m (rd3 f k t3)⟩, ⟨Rk3 k t2, payM m (rd3 f k t2)⟩, ⟨Rk3 k t1, payM m (rd3 f k t1)⟩, ⟨Rk3 k t0, payS x⟩]

/-- The first part's three. -/
def wr3_3 (f : (⟨S28672, .f32⟩ : BufTy).Contents (Elt F)) (m : FVec F S16 .f32) (k : Fin k0_t4_loop.trips) (t0 t1 t2 : Tr) :
    (⟨S28672, .f32⟩ : BufTy).Contents (Elt F) :=
  vw3.writes (Elt F) f [⟨Rk3 k t2, payM m (rd3 f k t2)⟩, ⟨Rk3 k t1, payM m (rd3 f k t1)⟩, ⟨Rk3 k t0, payM m (rd3 f k t0)⟩]

theorem emb3 (k : Fin k0_t4_loop.trips) (t : Tr) (x : S16.Idx) : (((Rk3 k t).emb x) 0).val = offw k.val t + (x 0).val := by
  show (k0_off5 k _ _ _) 0 + 1 * (x 0).val = _
  rw [k0_off5_eq k t.1 t.2.1 t.2.2]
  show (4096 * k.val + 1024 * t.1.val + 128 * t.2.1.val + 16 * t.2.2.val) + 1 * (x 0).val = _
  unfold offw; omega

theorem mem3 (k : Fin k0_t4_loop.trips) (t : Tr) (p : S28672.Idx) :
    p ∈ (vw3.slice (Rk3 k t)).set ↔ (offw k.val t ≤ (p 0).val ∧ (p 0).val < offw k.val t + 16) := by
  show p ∈ ((View.whole cc0_scratch3).slice (Rk3 k t)).set ↔ _
  rw [View.set_slice_whole, Rect.mem_set_unit]
  have e : (k0_off5 k (BitVec.ofNat 32 (1024 * t.1.val)) (BitVec.ofNat 32 (128 * t.2.1.val)) (BitVec.ofNat 32 (16 * t.2.2.val))) 0 = offw k.val t := by
    rw [k0_off5_eq k t.1 t.2.1 t.2.2]; rfl
  constructor
  · intro h; have h0 := h 0; rw [e] at h0; exact h0
  · intro h a
    match a with
    | ⟨0, _⟩ =>
      show (k0_off5 k (BitVec.ofNat 32 (1024 * t.1.val)) (BitVec.ofNat 32 (128 * t.2.1.val)) (BitVec.ofNat 32 (16 * t.2.2.val))) 0 ≤ (p 0).val
        ∧ (p 0).val < (k0_off5 k (BitVec.ofNat 32 (1024 * t.1.val)) (BitVec.ofNat 32 (128 * t.2.1.val)) (BitVec.ofNat 32 (16 * t.2.2.val))) 0 + 16
      rw [e]; exact h

/-- A load of a sixteen not yet stored reads the buffer as the trip found it. -/
theorem rd3_stC (mul : ℕ → FVec F S16 .f32) (g : (⟨S28672, .f32⟩ : BufTy).Contents (Elt F)) (k : Fin k0_t4_loop.trips) (n : ℕ) (t : Tr)
    (hn : n ≤ num t) (x : S16.Idx) : rd3 (stC mul g k.val n) k t x = g ((Rk3 k t).emb x) := by
  show stC mul g k.val n ((Rk3 k t).emb x) = _
  have hx : (x 0).val < 16 := (x 0).isLt
  have he := emb3 k t x
  have := (in_iff k.val t (((Rk3 k t).emb x) 0).val).mp ⟨by omega, by omega⟩
  exact stC_of_ge mul g k.val n _ this.1 (by omega)

/-- THE STEP: the right product stored over the sixteen of store number `num t`. -/
theorem store3 (mul : ℕ → FVec F S16 .f32) (g : (⟨S28672, .f32⟩ : BufTy).Contents (Elt F)) (k : Fin k0_t4_loop.trips) (t : Tr) (v : FVec F S16 .f32)
    (hv : ∀ x : S16.Idx, v x = FloatOps.mulf (g ((Rk3 k t).emb x)) (mul (grp t) x)) :
    (vw3.slice (Rk3 k t)).write (Elt F) (stC mul g k.val (num t)) v Finset.univ = stC mul g k.val (num t + 1) := by
  refine stC_step mul g k.val t _ (fun p h1 h2 => ?_) (fun p hp => ?_)
  · have hm : p ∈ (vw3.slice (Rk3 k t)).set := (mem3 k t p).mpr ⟨h1, h2⟩
    obtain ⟨x, rfl⟩ := View.exists_emb_of_mem_set _ hm
    rw [View.write_emb_of_mem _ _ (Finset.mem_univ x), cast_eq, hv x]
    show _ = maskBuf mul g ((Rk3 k t).emb x)
    have h1' : offw k.val t ≤ (((Rk3 k t).emb x) 0).val := h1
    have h2' : (((Rk3 k t).emb x) 0).val < offw k.val t + 16 := h2
    obtain ⟨hg, hl⟩ := grp_of_in k.val t _ ⟨h1', h2'⟩
    unfold maskBuf
    rw [hg]
    congr 2
    funext a
    match a with
    | ⟨0, _⟩ => exact Fin.ext (by show (x 0).val = (((Rk3 k t).emb x) 0).val % 16; rw [hl, emb3]; omega)
  · rw [View.write_of_not_mem _ _ _ (by rw [View.setOn_univ]; exact fun hm => hp ((mem3 k t p).mp hm))]

/-- A PART'S STEP: from the buffer after `n0` stores, with the product for store `n0` carried, the part's four stores
    give the buffer after `n0 + 4`, and the product it carries on is the one for store `n0 + 4`. -/
theorem part_step3 (mul : ℕ → FVec F S16 .f32) (g : (⟨S28672, .f32⟩ : BufTy).Contents (Elt F)) (k : Fin k0_t4_loop.trips)
    (t0 t1 t2 t3 t4 : Tr) (n0 : ℕ) (h0 : n0 = num t0) (h1 : n0 + 1 = num t1) (h2 : n0 + 2 = num t2) (h3 : n0 + 3 = num t3) (h4 : n0 + 4 = num t4)
    (m : FVec F S16 .f32) (hm1 : m = mul (grp t1)) (hm2 : m = mul (grp t2)) (hm3 : m = mul (grp t3)) (hm4 : m = mul (grp t4))
    (x : FVec F S16 .f32) (hx : x = payP (mul (grp t0)) (rd3 g k t0)) :
    wr4_3 (stC mul g k.val n0) x m k t0 t1 t2 t3 = stC mul g k.val (n0 + 4)
      ∧ payP m (rd3 (stC mul g k.val n0) k t4) = payP (mul (grp t4)) (rd3 g k t4) := by
  constructor
  · unfold wr4_3
    rw [View.writes_cons, View.writes_cons, View.writes_cons, View.writes_cons, View.writes_nil]
    have e0 : (vw3.slice (Rk3 k t0)).write (Elt F) (stC mul g k.val n0) (payS x) Finset.univ = stC mul g k.val (n0 + 1) := by
      have s := store3 mul g k t0 (payS x) (fun i => by rw [payS_eq, hx, payP_apply]; rfl)
      rw [← h0] at s; exact s
    have e1 : (vw3.slice (Rk3 k t1)).write (Elt F) (stC mul g k.val (n0 + 1)) (payM m (rd3 (stC mul g k.val n0) k t1)) Finset.univ = stC mul g k.val (n0 + 2) := by
      have s := store3 mul g k t1 (payM m (rd3 (stC mul g k.val n0) k t1)) (fun i => by rw [payM_apply, rd3_stC mul g k n0 t1 (by omega), hm1])
      rw [← h1] at s; exact s
    have e2 : (vw3.slice (Rk3 k t2)).write (Elt F) (stC mul g k.val (n0 + 2)) (payM m (rd3 (stC mul g k.val n0) k t2)) Finset.univ = stC mul g k.val (n0 + 3) := by
      have s := store3 mul g k t2 (payM m (rd3 (stC mul g k.val n0) k t2)) (fun i => by rw [payM_apply, rd3_stC mul g k n0 t2 (by omega), hm2])
      rw [← h2] at s; exact s
    have e3 : (vw3.slice (Rk3 k t3)).write (Elt F) (stC mul g k.val (n0 + 3)) (payM m (rd3 (stC mul g k.val n0) k t3)) Finset.univ = stC mul g k.val (n0 + 4) := by
      have s := store3 mul g k t3 (payM m (rd3 (stC mul g k.val n0) k t3)) (fun i => by rw [payM_apply, rd3_stC mul g k n0 t3 (by omega), hm3])
      rw [← h3] at s; exact s
    show (vw3.slice (Rk3 k t3)).write (Elt F) ((vw3.slice (Rk3 k t2)).write (Elt F) ((vw3.slice (Rk3 k t1)).write (Elt F)
      ((vw3.slice (Rk3 k t0)).write (Elt F) (stC mul g k.val n0) (payS x) Finset.univ) _ Finset.univ) _ Finset.univ) _ Finset.univ = _
    rw [e0, e1, e2, e3]
  · funext i
    rw [payP_apply, payP_apply, rd3_stC mul g k n0 t4 (by omega), hm4]
    rfl

/-- The first part's step: three stores from the buffer as the trip found it. -/
theorem part_first3 (mul : ℕ → FVec F S16 .f32) (g : (⟨S28672, .f32⟩ : BufTy).Contents (Elt F)) (k : Fin k0_t4_loop.trips)
    (t0 t1 t2 t3 : Tr) (h0 : 0 = num t0) (h1 : 1 = num t1) (h2 : 2 = num t2) (h3 : 3 = num t3)
    (m : FVec F S16 .f32) (hm0 : m = mul (grp t0)) (hm1 : m = mul (grp t1)) (hm2 : m = mul (grp t2)) (hm3 : m = mul (grp t3)) :
    wr3_3 (stC mul g k.val 0) m k t0 t1 t2 = stC mul g k.val 3
      ∧ payP m (rd3 (stC mul g k.val 0) k t3) = payP (mul (grp t3)) (rd3 g k t3) := by
  constructor
  · unfold wr3_3
    rw [View.writes_cons, View.writes_cons, View.writes_cons, View.writes_nil]
    have e0 : (vw3.slice (Rk3 k t0)).write (Elt F) (stC mul g k.val 0) (payM m (rd3 (stC mul g k.val 0) k t0)) Finset.univ = stC mul g k.val (0 + 1) := by
      have s := store3 mul g k t0 (payM m (rd3 (stC mul g k.val 0) k t0)) (fun i => by rw [payM_apply, rd3_stC mul g k 0 t0 (by omega), hm0])
      rw [← h0] at s; exact s
    have e1 : (vw3.slice (Rk3 k t1)).write (Elt F) (stC mul g k.val (0 + 1)) (payM m (rd3 (stC mul g k.val 0) k t1)) Finset.univ = stC mul g k.val (1 + 1) := by
      have s := store3 mul g k t1 (payM m (rd3 (stC mul g k.val 0) k t1)) (fun i => by rw [payM_apply, rd3_stC mul g k 0 t1 (by omega), hm1])
      rw [← h1] at s; exact s
    have e2 : (vw3.slice (Rk3 k t2)).write (Elt F) (stC mul g k.val (1 + 1)) (payM m (rd3 (stC mul g k.val 0) k t2)) Finset.univ = stC mul g k.val (2 + 1) := by
      have s := store3 mul g k t2 (payM m (rd3 (stC mul g k.val 0) k t2)) (fun i => by rw [payM_apply, rd3_stC mul g k 0 t2 (by omega), hm2])
      rw [← h2] at s; exact s
    show (vw3.slice (Rk3 k t2)).write (Elt F) ((vw3.slice (Rk3 k t1)).write (Elt F)
      ((vw3.slice (Rk3 k t0)).write (Elt F) (stC mul g k.val 0) _ Finset.univ) _ Finset.univ) _ Finset.univ = _
    rw [e0, e1, e2]
  · funext i
    rw [payP_apply, payP_apply, rd3_stC mul g k 0 t3 (by omega), hm3]
    rfl

/-- The last store: the carried product for store 255. -/
theorem part_last3 (mul : ℕ → FVec F S16 .f32) (g : (⟨S28672, .f32⟩ : BufTy).Contents (Elt F)) (k : Fin k0_t4_loop.trips)
    (t0 : Tr) (h0 : 255 = num t0) (x : FVec F S16 .f32) (hx : x = payP (mul (grp t0)) (rd3 g k t0)) :
    vw3.writes (Elt F) (stC mul g k.val 255) [⟨Rk3 k t0, payS x⟩] = stC mul g k.val 256 := by
  show (vw3.slice (Rk3 k t0)).write (Elt F) (stC mul g k.val 255) (payS x) Finset.univ = stC mul g k.val 256
  have s := store3 mul g k t0 (payS x) (fun i => by rw [payS_eq, hx, payP_apply]; rfl)
  rw [← h0] at s; exact s

end Cert.Proof.KI

end
-- ==== Proof.TileInnerValP3.lean ====
/-
  Scratch buffer 3's in-place loop, part by part: each printed part of a trip is run once over ANY contents (its four
  stores and the product it carries on, as the three payload shapes), the parts are composed along the trip with the
  buffer kept in closed form by the number of stores done, and the loop goes by the blocks done.
  The table of parts below is a listing of the program's own parts in order (store numbers 4i − 5 … 4i − 2 for part i,
  the pending one 4i − 1); each entry has the same three-line proof.
-/
import proofs.«205805_g86552180949287_cont_9to1_m_41_25_alg».proof.Proof.TileInnerValT3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

theorem b3_part1 (d : Dev nD) (L : grid0.Coords) (m : FVec F S16 .f32) (a c : BitVec 32) (k : Fin k0_t4_loop.trips) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part131 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m a c k)
      (fun r => iprop(⌜r.2.1 = payP m (rd3 f k ((0 : Fin 4), (3 : Fin 8), (0 : Fin 8)))⌝ ∗ ((Memref.whole cc0_scratch3 : Memref sig .scVector .vmem S28672 .f32).view.loc (V d (cV L) (jV L)) ↦{fullShare} wr3_3 f m k ((0 : Fin 4), (0 : Fin 8), (0 : Fin 8)) ((0 : Fin 4), (1 : Fin 8), (0 : Fin 8)) ((0 : Fin 4), (2 : Fin 8), (0 : Fin 8))))) := by
  iintro Hs
  sl_exec
  sl_step
  isplitr; · ipureintro; rfl
  iexact Hs

theorem b3_part2 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part132 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (0 : Fin 8)))⌝ ∗ ((Memref.whole cc0_scratch3 : Memref sig .scVector .vmem S28672 .f32).view.loc (V d (cV L) (jV L)) ↦{fullShare} wr4_3 f x m k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8))))) := by
  iintro Hs
  sl_exec
  sl_step
  isplitr; · ipureintro; rfl
  iexact Hs

theorem b3_part3 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part133 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (1 : Fin 8)))⌝ ∗ ((Memref.whole cc0_scratch3 : Memref sig .scVector .vmem S28672 .f32).view.loc (V d (cV L) (jV L)) ↦{fullShare} wr4_3 f x m k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8))))) := by
  iintro Hs
  sl_exec
  sl_step
  isplitr; · ipureintro; rfl
  iexact Hs

theorem b3_part4 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part134 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (1 : Fin 8)))⌝ ∗ ((Memref.whole cc0_scratch3 : Memref sig .scVector .vmem S28672 .f32).view.loc (V d (cV L) (jV L)) ↦{fullShare} wr4_3 f x m k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8))))) := by
  iintro Hs
  sl_exec
  sl_step
  isplitr; · ipureintro; rfl
  iexact Hs

theorem b3_part5 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part135 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (2 : Fin 8)))⌝ ∗ ((Memref.whole cc0_scratch3 : Memref sig .scVector .vmem S28672 .f32).view.loc (V d (cV L) (jV L)) ↦{fullShare} wr4_3 f x m k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8))))) := by
  iintro Hs
  sl_exec
  sl_step
  isplitr; · ipureintro; rfl
  iexact Hs

theorem b3_part6 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part136 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (2 : Fin 8)))⌝ ∗ ((Memref.whole cc0_scratch3 : Memref sig .scVector .vmem S28672 .f32).view.loc (V d (cV L) (jV L)) ↦{fullShare} wr4_3 f x m k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8))))) := by
  iintro Hs
  sl_exec
  sl_step
  isplitr; · ipureintro; rfl
  iexact Hs

theorem b3_part7 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part137 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (3 : Fin 8)))⌝ ∗ ((Memref.whole cc0_scratch3 : Memref sig .scVector .vmem S28672 .f32).view.loc (V d (cV L) (jV L)) ↦{fullShare} wr4_3 f x m k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8))))) := by
  iintro Hs
  sl_exec
  sl_step
  isplitr; · ipureintro; rfl
  iexact Hs

theorem b3_part8 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part138 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (3 : Fin 8)))⌝ ∗ ((Memref.whole cc0_scratch3 : Memref sig .scVector .vmem S28672 .f32).view.loc (V d (cV L) (jV L)) ↦{fullShare} wr4_3 f x m k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8))))) := by
  iintro Hs
  sl_exec
  sl_step
  isplitr; · ipureintro; rfl
  iexact Hs

theorem b3_part9 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part139 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (4 : Fin 8)))⌝ ∗ ((Memref.whole cc0_scratch3 : Memref sig .scVector .vmem S28672 .f32).view.loc (V d (cV L) (jV L)) ↦{fullShare} wr4_3 f x m k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8))))) := by
  iintro Hs
  sl_exec
  sl_step
  isplitr; · ipureintro; rfl
  iexact Hs

theorem b3_part10 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part140 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (4 : Fin 8)))⌝ ∗ ((Memref.whole cc0_scratch3 : Memref sig .scVector .vmem S28672 .f32).view.loc (V d (cV L) (jV L)) ↦{fullShare} wr4_3 f x m k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8))))) := by
  iintro Hs
  sl_exec
  sl_step
  isplitr; · ipureintro; rfl
  iexact Hs

theorem b3_part11 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part141 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (5 : Fin 8)))⌝ ∗ ((Memref.whole cc0_scratch3 : Memref sig .scVector .vmem S28672 .f32).view.loc (V d (cV L) (jV L)) ↦{fullShare} wr4_3 f x m k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8))))) := by
  iintro Hs
  sl_exec
  sl_step
  isplitr; · ipureintro; rfl
  iexact Hs

theorem b3_part12 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part142 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (5 : Fin 8)))⌝ ∗ ((Memref.whole cc0_scratch3 : Memref sig .scVector .vmem S28672 .f32).view.loc (V d (cV L) (jV L)) ↦{fullShare} wr4_3 f x m k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8))))) := by
  iintro Hs
  sl_exec
  sl_step
  isplitr; · ipureintro; rfl
  iexact Hs

theorem b3_part13 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part143 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (6 : Fin 8)))⌝ ∗ ((Memref.whole cc0_scratch3 : Memref sig .scVector .vmem S28672 .f32).view.loc (V d (cV L) (jV L)) ↦{fullShare} wr4_3 f x m k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8))))) := by
  iintro Hs
  sl_exec
  sl_step
  isplitr; · ipureintro; rfl
  iexact Hs

theorem b3_part14 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part144 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (6 : Fin 8)))⌝ ∗ ((Memref.whole cc0_scratch3 : Memref sig .scVector .vmem S28672 .f32).view.loc (V d (cV L) (jV L)) ↦{fullShare} wr4_3 f x m k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8))))) := by
  iintro Hs
  sl_exec
  sl_step
  isplitr; · ipureintro; rfl
  iexact Hs

theorem b3_part15 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part145 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (7 : Fin 8)))⌝ ∗ ((Memref.whole cc0_scratch3 : Memref sig .scVector .vmem S28672 .f32).view.loc (V d (cV L) (jV L)) ↦{fullShare} wr4_3 f x m k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8))))) := by
  iintro Hs
  sl_exec
  sl_step
  isplitr; · ipureintro; rfl
  iexact Hs

theorem b3_part16 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part146 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (7 : Fin 8)))⌝ ∗ ((Memref.whole cc0_scratch3 : Memref sig .scVector .vmem S28672 .f32).view.loc (V d (cV L) (jV L)) ↦{fullShare} wr4_3 f x m k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8))))) := by
  iintro Hs
  sl_exec
  sl_step
  isplitr; · ipureintro; rfl
  iexact Hs

theorem b3_part17 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part147 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (0 : Fin 8)))⌝ ∗ ((Memref.whole cc0_scratch3 : Memref sig .scVector .vmem S28672 .f32).view.loc (V d (cV L) (jV L)) ↦{fullShare} wr4_3 f x m k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8))))) := by
  iintro Hs
  sl_exec
  sl_step
  isplitr; · ipureintro; rfl
  iexact Hs

theorem b3_part18 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part148 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (0 : Fin 8)))⌝ ∗ ((Memref.whole cc0_scratch3 : Memref sig .scVector .vmem S28672 .f32).view.loc (V d (cV L) (jV L)) ↦{fullShare} wr4_3 f x m k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8))))) := by
  iintro Hs
  sl_exec
  sl_step
  isplitr; · ipureintro; rfl
  iexact Hs

theorem b3_part19 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part149 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (1 : Fin 8)))⌝ ∗ ((Memref.whole cc0_scratch3 : Memref sig .scVector .vmem S28672 .f32).view.loc (V d (cV L) (jV L)) ↦{fullShare} wr4_3 f x m k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8))))) := by
  iintro Hs
  sl_exec
  sl_step
  isplitr; · ipureintro; rfl
  iexact Hs

theorem b3_part20 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part150 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (1 : Fin 8)))⌝ ∗ ((Memref.whole cc0_scratch3 : Memref sig .scVector .vmem S28672 .f32).view.loc (V d (cV L) (jV L)) ↦{fullShare} wr4_3 f x m k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8))))) := by
  iintro Hs
  sl_exec
  sl_step
  isplitr; · ipureintro; rfl
  iexact Hs

theorem b3_part21 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part151 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (2 : Fin 8)))⌝ ∗ ((Memref.whole cc0_scratch3 : Memref sig .scVector .vmem S28672 .f32).view.loc (V d (cV L) (jV L)) ↦{fullShare} wr4_3 f x m k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8))))) := by
  iintro Hs
  sl_exec
  sl_step
  isplitr; · ipureintro; rfl
  iexact Hs

theorem b3_part22 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part152 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (2 : Fin 8)))⌝ ∗ ((Memref.whole cc0_scratch3 : Memref sig .scVector .vmem S28672 .f32).view.loc (V d (cV L) (jV L)) ↦{fullShare} wr4_3 f x m k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8))))) := by
  iintro Hs
  sl_exec
  sl_step
  isplitr; · ipureintro; rfl
  iexact Hs

theorem b3_part23 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part153 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (3 : Fin 8)))⌝ ∗ ((Memref.whole cc0_scratch3 : Memref sig .scVector .vmem S28672 .f32).view.loc (V d (cV L) (jV L)) ↦{fullShare} wr4_3 f x m k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8))))) := by
  iintro Hs
  sl_exec
  sl_step
  isplitr; · ipureintro; rfl
  iexact Hs

theorem b3_part24 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part154 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (3 : Fin 8)))⌝ ∗ ((Memref.whole cc0_scratch3 : Memref sig .scVector .vmem S28672 .f32).view.loc (V d (cV L) (jV L)) ↦{fullShare} wr4_3 f x m k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8))))) := by
  iintro Hs
  sl_exec
  sl_step
  isplitr; · ipureintro; rfl
  iexact Hs

theorem b3_part25 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part155 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (4 : Fin 8)))⌝ ∗ ((Memref.whole cc0_scratch3 : Memref sig .scVector .vmem S28672 .f32).view.loc (V d (cV L) (jV L)) ↦{fullShare} wr4_3 f x m k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8))))) := by
  iintro Hs
  sl_exec
  sl_step
  isplitr; · ipureintro; rfl
  iexact Hs

theorem b3_part26 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part156 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (4 : Fin 8)))⌝ ∗ ((Memref.whole cc0_scratch3 : Memref sig .scVector .vmem S28672 .f32).view.loc (V d (cV L) (jV L)) ↦{fullShare} wr4_3 f x m k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8))))) := by
  iintro Hs
  sl_exec
  sl_step
  isplitr; · ipureintro; rfl
  iexact Hs

theorem b3_part27 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part157 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (5 : Fin 8)))⌝ ∗ ((Memref.whole cc0_scratch3 : Memref sig .scVector .vmem S28672 .f32).view.loc (V d (cV L) (jV L)) ↦{fullShare} wr4_3 f x m k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8))))) := by
  iintro Hs
  sl_exec
  sl_step
  isplitr; · ipureintro; rfl
  iexact Hs

theorem b3_part28 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part158 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (5 : Fin 8)))⌝ ∗ ((Memref.whole cc0_scratch3 : Memref sig .scVector .vmem S28672 .f32).view.loc (V d (cV L) (jV L)) ↦{fullShare} wr4_3 f x m k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8))))) := by
  iintro Hs
  sl_exec
  sl_step
  isplitr; · ipureintro; rfl
  iexact Hs

theorem b3_part29 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part159 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (6 : Fin 8)))⌝ ∗ ((Memref.whole cc0_scratch3 : Memref sig .scVector .vmem S28672 .f32).view.loc (V d (cV L) (jV L)) ↦{fullShare} wr4_3 f x m k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8))))) := by
  iintro Hs
  sl_exec
  sl_step
  isplitr; · ipureintro; rfl
  iexact Hs

theorem b3_part30 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part160 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (6 : Fin 8)))⌝ ∗ ((Memref.whole cc0_scratch3 : Memref sig .scVector .vmem S28672 .f32).view.loc (V d (cV L) (jV L)) ↦{fullShare} wr4_3 f x m k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8))))) := by
  iintro Hs
  sl_exec
  sl_step
  isplitr; · ipureintro; rfl
  iexact Hs

theorem b3_part31 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part161 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (7 : Fin 8)))⌝ ∗ ((Memref.whole cc0_scratch3 : Memref sig .scVector .vmem S28672 .f32).view.loc (V d (cV L) (jV L)) ↦{fullShare} wr4_3 f x m k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8))))) := by
  iintro Hs
  sl_exec
  sl_step
  isplitr; · ipureintro; rfl
  iexact Hs

theorem b3_part32 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part162 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (7 : Fin 8)))⌝ ∗ ((Memref.whole cc0_scratch3 : Memref sig .scVector .vmem S28672 .f32).view.loc (V d (cV L) (jV L)) ↦{fullShare} wr4_3 f x m k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8))))) := by
  iintro Hs
  sl_exec
  sl_step
  isplitr; · ipureintro; rfl
  iexact Hs

theorem b3_part33 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part163 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (0 : Fin 8)))⌝ ∗ ((Memref.whole cc0_scratch3 : Memref sig .scVector .vmem S28672 .f32).view.loc (V d (cV L) (jV L)) ↦{fullShare} wr4_3 f x m k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8))))) := by
  iintro Hs
  sl_exec
  sl_step
  isplitr; · ipureintro; rfl
  iexact Hs

theorem b3_part34 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part164 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (0 : Fin 8)))⌝ ∗ ((Memref.whole cc0_scratch3 : Memref sig .scVector .vmem S28672 .f32).view.loc (V d (cV L) (jV L)) ↦{fullShare} wr4_3 f x m k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8))))) := by
  iintro Hs
  sl_exec
  sl_step
  isplitr; · ipureintro; rfl
  iexact Hs

theorem b3_part35 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part165 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (1 : Fin 8)))⌝ ∗ ((Memref.whole cc0_scratch3 : Memref sig .scVector .vmem S28672 .f32).view.loc (V d (cV L) (jV L)) ↦{fullShare} wr4_3 f x m k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8))))) := by
  iintro Hs
  sl_exec
  sl_step
  isplitr; · ipureintro; rfl
  iexact Hs

theorem b3_part36 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part166 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (1 : Fin 8)))⌝ ∗ ((Memref.whole cc0_scratch3 : Memref sig .scVector .vmem S28672 .f32).view.loc (V d (cV L) (jV L)) ↦{fullShare} wr4_3 f x m k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8))))) := by
  iintro Hs
  sl_exec
  sl_step
  isplitr; · ipureintro; rfl
  iexact Hs

theorem b3_part37 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part167 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (2 : Fin 8)))⌝ ∗ ((Memref.whole cc0_scratch3 : Memref sig .scVector .vmem S28672 .f32).view.loc (V d (cV L) (jV L)) ↦{fullShare} wr4_3 f x m k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8))))) := by
  iintro Hs
  sl_exec
  sl_step
  isplitr; · ipureintro; rfl
  iexact Hs

theorem b3_part38 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part168 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (2 : Fin 8)))⌝ ∗ ((Memref.whole cc0_scratch3 : Memref sig .scVector .vmem S28672 .f32).view.loc (V d (cV L) (jV L)) ↦{fullShare} wr4_3 f x m k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8))))) := by
  iintro Hs
  sl_exec
  sl_step
  isplitr; · ipureintro; rfl
  iexact Hs

theorem b3_part39 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part169 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (3 : Fin 8)))⌝ ∗ ((Memref.whole cc0_scratch3 : Memref sig .scVector .vmem S28672 .f32).view.loc (V d (cV L) (jV L)) ↦{fullShare} wr4_3 f x m k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8))))) := by
  iintro Hs
  sl_exec
  sl_step
  isplitr; · ipureintro; rfl
  iexact Hs

theorem b3_part40 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part170 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (3 : Fin 8)))⌝ ∗ ((Memref.whole cc0_scratch3 : Memref sig .scVector .vmem S28672 .f32).view.loc (V d (cV L) (jV L)) ↦{fullShare} wr4_3 f x m k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8))))) := by
  iintro Hs
  sl_exec
  sl_step
  isplitr; · ipureintro; rfl
  iexact Hs

theorem b3_part41 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part171 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (4 : Fin 8)))⌝ ∗ ((Memref.whole cc0_scratch3 : Memref sig .scVector .vmem S28672 .f32).view.loc (V d (cV L) (jV L)) ↦{fullShare} wr4_3 f x m k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8))))) := by
  iintro Hs
  sl_exec
  sl_step
  isplitr; · ipureintro; rfl
  iexact Hs

theorem b3_part42 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part172 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (4 : Fin 8)))⌝ ∗ ((Memref.whole cc0_scratch3 : Memref sig .scVector .vmem S28672 .f32).view.loc (V d (cV L) (jV L)) ↦{fullShare} wr4_3 f x m k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8))))) := by
  iintro Hs
  sl_exec
  sl_step
  isplitr; · ipureintro; rfl
  iexact Hs

theorem b3_part43 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part173 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (5 : Fin 8)))⌝ ∗ ((Memref.whole cc0_scratch3 : Memref sig .scVector .vmem S28672 .f32).view.loc (V d (cV L) (jV L)) ↦{fullShare} wr4_3 f x m k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8))))) := by
  iintro Hs
  sl_exec
  sl_step
  isplitr; · ipureintro; rfl
  iexact Hs

theorem b3_part44 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part174 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (5 : Fin 8)))⌝ ∗ ((Memref.whole cc0_scratch3 : Memref sig .scVector .vmem S28672 .f32).view.loc (V d (cV L) (jV L)) ↦{fullShare} wr4_3 f x m k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8))))) := by
  iintro Hs
  sl_exec
  sl_step
  isplitr; · ipureintro; rfl
  iexact Hs

theorem b3_part45 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part175 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (6 : Fin 8)))⌝ ∗ ((Memref.whole cc0_scratch3 : Memref sig .scVector .vmem S28672 .f32).view.loc (V d (cV L) (jV L)) ↦{fullShare} wr4_3 f x m k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8))))) := by
  iintro Hs
  sl_exec
  sl_step
  isplitr; · ipureintro; rfl
  iexact Hs

theorem b3_part46 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part176 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (6 : Fin 8)))⌝ ∗ ((Memref.whole cc0_scratch3 : Memref sig .scVector .vmem S28672 .f32).view.loc (V d (cV L) (jV L)) ↦{fullShare} wr4_3 f x m k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8))))) := by
  iintro Hs
  sl_exec
  sl_step
  isplitr; · ipureintro; rfl
  iexact Hs

theorem b3_part47 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part177 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (7 : Fin 8)))⌝ ∗ ((Memref.whole cc0_scratch3 : Memref sig .scVector .vmem S28672 .f32).view.loc (V d (cV L) (jV L)) ↦{fullShare} wr4_3 f x m k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8))))) := by
  iintro Hs
  sl_exec
  sl_step
  isplitr; · ipureintro; rfl
  iexact Hs

theorem b3_part48 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part178 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (7 : Fin 8)))⌝ ∗ ((Memref.whole cc0_scratch3 : Memref sig .scVector .vmem S28672 .f32).view.loc (V d (cV L) (jV L)) ↦{fullShare} wr4_3 f x m k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8))))) := by
  iintro Hs
  sl_exec
  sl_step
  isplitr; · ipureintro; rfl
  iexact Hs

theorem b3_part49 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part179 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (0 : Fin 8)))⌝ ∗ ((Memref.whole cc0_scratch3 : Memref sig .scVector .vmem S28672 .f32).view.loc (V d (cV L) (jV L)) ↦{fullShare} wr4_3 f x m k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8))))) := by
  iintro Hs
  sl_exec
  sl_step
  isplitr; · ipureintro; rfl
  iexact Hs

theorem b3_part50 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part180 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (0 : Fin 8)))⌝ ∗ ((Memref.whole cc0_scratch3 : Memref sig .scVector .vmem S28672 .f32).view.loc (V d (cV L) (jV L)) ↦{fullShare} wr4_3 f x m k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8))))) := by
  iintro Hs
  sl_exec
  sl_step
  isplitr; · ipureintro; rfl
  iexact Hs

theorem b3_part51 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part181 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (1 : Fin 8)))⌝ ∗ ((Memref.whole cc0_scratch3 : Memref sig .scVector .vmem S28672 .f32).view.loc (V d (cV L) (jV L)) ↦{fullShare} wr4_3 f x m k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8))))) := by
  iintro Hs
  sl_exec
  sl_step
  isplitr; · ipureintro; rfl
  iexact Hs

theorem b3_part52 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part182 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (1 : Fin 8)))⌝ ∗ ((Memref.whole cc0_scratch3 : Memref sig .scVector .vmem S28672 .f32).view.loc (V d (cV L) (jV L)) ↦{fullShare} wr4_3 f x m k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8))))) := by
  iintro Hs
  sl_exec
  sl_step
  isplitr; · ipureintro; rfl
  iexact Hs

theorem b3_part53 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part183 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (2 : Fin 8)))⌝ ∗ ((Memref.whole cc0_scratch3 : Memref sig .scVector .vmem S28672 .f32).view.loc (V d (cV L) (jV L)) ↦{fullShare} wr4_3 f x m k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8))))) := by
  iintro Hs
  sl_exec
  sl_step
  isplitr; · ipureintro; rfl
  iexact Hs

theorem b3_part54 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part184 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (2 : Fin 8)))⌝ ∗ ((Memref.whole cc0_scratch3 : Memref sig .scVector .vmem S28672 .f32).view.loc (V d (cV L) (jV L)) ↦{fullShare} wr4_3 f x m k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8))))) := by
  iintro Hs
  sl_exec
  sl_step
  isplitr; · ipureintro; rfl
  iexact Hs

theorem b3_part55 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part185 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (3 : Fin 8)))⌝ ∗ ((Memref.whole cc0_scratch3 : Memref sig .scVector .vmem S28672 .f32).view.loc (V d (cV L) (jV L)) ↦{fullShare} wr4_3 f x m k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8))))) := by
  iintro Hs
  sl_exec
  sl_step
  isplitr; · ipureintro; rfl
  iexact Hs

theorem b3_part56 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part186 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (3 : Fin 8)))⌝ ∗ ((Memref.whole cc0_scratch3 : Memref sig .scVector .vmem S28672 .f32).view.loc (V d (cV L) (jV L)) ↦{fullShare} wr4_3 f x m k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8))))) := by
  iintro Hs
  sl_exec
  sl_step
  isplitr; · ipureintro; rfl
  iexact Hs

theorem b3_part57 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part187 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (4 : Fin 8)))⌝ ∗ ((Memref.whole cc0_scratch3 : Memref sig .scVector .vmem S28672 .f32).view.loc (V d (cV L) (jV L)) ↦{fullShare} wr4_3 f x m k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8))))) := by
  iintro Hs
  sl_exec
  sl_step
  isplitr; · ipureintro; rfl
  iexact Hs

theorem b3_part58 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part188 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (4 : Fin 8)))⌝ ∗ ((Memref.whole cc0_scratch3 : Memref sig .scVector .vmem S28672 .f32).view.loc (V d (cV L) (jV L)) ↦{fullShare} wr4_3 f x m k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8))))) := by
  iintro Hs
  sl_exec
  sl_step
  isplitr; · ipureintro; rfl
  iexact Hs

theorem b3_part59 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part189 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (5 : Fin 8)))⌝ ∗ ((Memref.whole cc0_scratch3 : Memref sig .scVector .vmem S28672 .f32).view.loc (V d (cV L) (jV L)) ↦{fullShare} wr4_3 f x m k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8))))) := by
  iintro Hs
  sl_exec
  sl_step
  isplitr; · ipureintro; rfl
  iexact Hs

theorem b3_part60 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part190 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (5 : Fin 8)))⌝ ∗ ((Memref.whole cc0_scratch3 : Memref sig .scVector .vmem S28672 .f32).view.loc (V d (cV L) (jV L)) ↦{fullShare} wr4_3 f x m k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8))))) := by
  iintro Hs
  sl_exec
  sl_step
  isplitr; · ipureintro; rfl
  iexact Hs

theorem b3_part61 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part191 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (6 : Fin 8)))⌝ ∗ ((Memref.whole cc0_scratch3 : Memref sig .scVector .vmem S28672 .f32).view.loc (V d (cV L) (jV L)) ↦{fullShare} wr4_3 f x m k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8))))) := by
  iintro Hs
  sl_exec
  sl_step
  isplitr; · ipureintro; rfl
  iexact Hs

theorem b3_part62 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part192 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (6 : Fin 8)))⌝ ∗ ((Memref.whole cc0_scratch3 : Memref sig .scVector .vmem S28672 .f32).view.loc (V d (cV L) (jV L)) ↦{fullShare} wr4_3 f x m k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8))))) := by
  iintro Hs
  sl_exec
  sl_step
  isplitr; · ipureintro; rfl
  iexact Hs

theorem b3_part63 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part193 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (7 : Fin 8)))⌝ ∗ ((Memref.whole cc0_scratch3 : Memref sig .scVector .vmem S28672 .f32).view.loc (V d (cV L) (jV L)) ↦{fullShare} wr4_3 f x m k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8))))) := by
  iintro Hs
  sl_exec
  sl_step
  isplitr; · ipureintro; rfl
  iexact Hs

theorem b3_part64 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part194 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (7 : Fin 8)))⌝ ∗ ((Memref.whole cc0_scratch3 : Memref sig .scVector .vmem S28672 .f32).view.loc (V d (cV L) (jV L)) ↦{fullShare} wr4_3 f x m k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8))))) := by
  iintro Hs
  sl_exec
  sl_step
  isplitr; · ipureintro; rfl
  iexact Hs

set_option maxHeartbeats 8000000 in
/-- The first sixty parts of a trip: from the buffer as the trip found it to the buffer after 239 stores. -/
theorem b3_wrap (d : Dev nD) (L : grid0.Coords) (v10 v17 v24 v31 v38 v45 v52 v59 v66 v73 v80 v87 v94 v101 v108 v115 v122 v129 v136 v143 v150 v157 v164 v171 v178 v185 v192 v199 v206 v213 v220 v227 : FVec F S16 .f32) (a c : BitVec 32) (k : Fin k0_t4_loop.trips) (g : Buf (Elt F) ((V d (cV L) (jV L)).loc cc0_scratch3)) :
    ((Memref.whole cc0_scratch3 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 0 : sProp 𝕄) ⊢ wp frame (wpE (defs₀ (F := F)) 𝒱₀ (V d (cV L) (jV L)) none) Set.univ (k0_part195 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v10 v17 v24 v31 v38 v45 v52 v59 v66 v73 v80 v87 v94 v101 v108 v115 v122 v129 v136 v143 v150 v157 v164 v171 v178 v185 v192 v199 v206 v213 a c k)
      (fun r => iprop(⌜r.2.1 = payP ((mulTab v10 v17 v24 v31 v38 v45 v52 v59 v66 v73 v80 v87 v94 v101 v108 v115 v122 v129 v136 v143 v150 v157 v164 v171 v178 v185 v192 v199 v206 v213 v220 v227) (grp ((3 : Fin 4), (7 : Fin 8), (5 : Fin 8)))) (rd3 g k ((3 : Fin 4), (7 : Fin 8), (5 : Fin 8)))⌝ ∗ ((Memref.whole cc0_scratch3 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 239))) := by
  rw [k0_part195_eq_skeleton]; unfold k0_part195_skel
  refine wp_stepV d L (b3_part1 d L _ _ _ _ _) fun r => ?_
  obtain ⟨w, x1, y1⟩ := r
  refine pure_pre fun hx1 => ?_
  have ps1 := part_first3 (mulTab v10 v17 v24 v31 v38 v45 v52 v59 v66 v73 v80 v87 v94 v101 v108 v115 v122 v129 v136 v143 v150 v157 v164 v171 v178 v185 v192 v199 v206 v213 v220 v227) g k ((0 : Fin 4), (0 : Fin 8), (0 : Fin 8)) ((0 : Fin 4), (1 : Fin 8), (0 : Fin 8)) ((0 : Fin 4), (2 : Fin 8), (0 : Fin 8)) ((0 : Fin 4), (3 : Fin 8), (0 : Fin 8)) rfl rfl rfl rfl v10 rfl rfl rfl rfl
  rw [ps1.1]
  replace hx1 := hx1.trans ps1.2
  clear ps1
  refine wp_stepV d L (b3_part2 d L _ _ _ _ _ _) fun r => ?_
  obtain ⟨x2, y2⟩ := r
  refine pure_pre fun hx2 => ?_
  have ps2 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8)) ((0 : Fin 4), (7 : Fin 8), (0 : Fin 8)) 3 rfl rfl rfl rfl rfl v10 rfl rfl rfl rfl x1 hx1
  rw [ps2.1]
  replace hx2 := hx2.trans ps2.2
  clear ps2 hx1
  refine wp_stepV d L (b3_part3 d L _ _ _ _ _ _) fun r => ?_
  obtain ⟨x3, y3⟩ := r
  refine pure_pre fun hx3 => ?_
  have ps3 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8)) ((0 : Fin 4), (3 : Fin 8), (1 : Fin 8)) 7 rfl rfl rfl rfl rfl v17 rfl rfl rfl rfl x2 hx2
  rw [ps3.1]
  replace hx3 := hx3.trans ps3.2
  clear ps3 hx2
  refine wp_stepV d L (b3_part4 d L _ _ _ _ _ _) fun r => ?_
  obtain ⟨x4, y4⟩ := r
  refine pure_pre fun hx4 => ?_
  have ps4 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8)) ((0 : Fin 4), (7 : Fin 8), (1 : Fin 8)) 11 rfl rfl rfl rfl rfl v17 rfl rfl rfl rfl x3 hx3
  rw [ps4.1]
  replace hx4 := hx4.trans ps4.2
  clear ps4 hx3
  refine wp_stepV d L (b3_part5 d L _ _ _ _ _ _) fun r => ?_
  obtain ⟨x5, y5⟩ := r
  refine pure_pre fun hx5 => ?_
  have ps5 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8)) ((0 : Fin 4), (3 : Fin 8), (2 : Fin 8)) 15 rfl rfl rfl rfl rfl v24 rfl rfl rfl rfl x4 hx4
  rw [ps5.1]
  replace hx5 := hx5.trans ps5.2
  clear ps5 hx4
  refine wp_stepV d L (b3_part6 d L _ _ _ _ _ _) fun r => ?_
  obtain ⟨x6, y6⟩ := r
  refine pure_pre fun hx6 => ?_
  have ps6 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8)) ((0 : Fin 4), (7 : Fin 8), (2 : Fin 8)) 19 rfl rfl rfl rfl rfl v24 rfl rfl rfl rfl x5 hx5
  rw [ps6.1]
  replace hx6 := hx6.trans ps6.2
  clear ps6 hx5
  refine wp_stepV d L (b3_part7 d L _ _ _ _ _ _) fun r => ?_
  obtain ⟨x7, y7⟩ := r
  refine pure_pre fun hx7 => ?_
  have ps7 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8)) ((0 : Fin 4), (3 : Fin 8), (3 : Fin 8)) 23 rfl rfl rfl rfl rfl v31 rfl rfl rfl rfl x6 hx6
  rw [ps7.1]
  replace hx7 := hx7.trans ps7.2
  clear ps7 hx6
  refine wp_stepV d L (b3_part8 d L _ _ _ _ _ _) fun r => ?_
  obtain ⟨x8, y8⟩ := r
  refine pure_pre fun hx8 => ?_
  have ps8 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8)) ((0 : Fin 4), (7 : Fin 8), (3 : Fin 8)) 27 rfl rfl rfl rfl rfl v31 rfl rfl rfl rfl x7 hx7
  rw [ps8.1]
  replace hx8 := hx8.trans ps8.2
  clear ps8 hx7
  refine wp_stepV d L (b3_part9 d L _ _ _ _ _ _) fun r => ?_
  obtain ⟨x9, y9⟩ := r
  refine pure_pre fun hx9 => ?_
  have ps9 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8)) ((0 : Fin 4), (3 : Fin 8), (4 : Fin 8)) 31 rfl rfl rfl rfl rfl v38 rfl rfl rfl rfl x8 hx8
  rw [ps9.1]
  replace hx9 := hx9.trans ps9.2
  clear ps9 hx8
  refine wp_stepV d L (b3_part10 d L _ _ _ _ _ _) fun r => ?_
  obtain ⟨x10, y10⟩ := r
  refine pure_pre fun hx10 => ?_
  have ps10 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8)) ((0 : Fin 4), (7 : Fin 8), (4 : Fin 8)) 35 rfl rfl rfl rfl rfl v38 rfl rfl rfl rfl x9 hx9
  rw [ps10.1]
  replace hx10 := hx10.trans ps10.2
  clear ps10 hx9
  refine wp_stepV d L (b3_part11 d L _ _ _ _ _ _) fun r => ?_
  obtain ⟨x11, y11⟩ := r
  refine pure_pre fun hx11 => ?_
  have ps11 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8)) ((0 : Fin 4), (3 : Fin 8), (5 : Fin 8)) 39 rfl rfl rfl rfl rfl v45 rfl rfl rfl rfl x10 hx10
  rw [ps11.1]
  replace hx11 := hx11.trans ps11.2
  clear ps11 hx10
  refine wp_stepV d L (b3_part12 d L _ _ _ _ _ _) fun r => ?_
  obtain ⟨x12, y12⟩ := r
  refine pure_pre fun hx12 => ?_
  have ps12 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8)) ((0 : Fin 4), (7 : Fin 8), (5 : Fin 8)) 43 rfl rfl rfl rfl rfl v45 rfl rfl rfl rfl x11 hx11
  rw [ps12.1]
  replace hx12 := hx12.trans ps12.2
  clear ps12 hx11
  refine wp_stepV d L (b3_part13 d L _ _ _ _ _ _) fun r => ?_
  obtain ⟨x13, y13⟩ := r
  refine pure_pre fun hx13 => ?_
  have ps13 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8)) ((0 : Fin 4), (3 : Fin 8), (6 : Fin 8)) 47 rfl rfl rfl rfl rfl v52 rfl rfl rfl rfl x12 hx12
  rw [ps13.1]
  replace hx13 := hx13.trans ps13.2
  clear ps13 hx12
  refine wp_stepV d L (b3_part14 d L _ _ _ _ _ _) fun r => ?_
  obtain ⟨x14, y14⟩ := r
  refine pure_pre fun hx14 => ?_
  have ps14 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8)) ((0 : Fin 4), (7 : Fin 8), (6 : Fin 8)) 51 rfl rfl rfl rfl rfl v52 rfl rfl rfl rfl x13 hx13
  rw [ps14.1]
  replace hx14 := hx14.trans ps14.2
  clear ps14 hx13
  refine wp_stepV d L (b3_part15 d L _ _ _ _ _ _) fun r => ?_
  obtain ⟨x15, y15⟩ := r
  refine pure_pre fun hx15 => ?_
  have ps15 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8)) ((0 : Fin 4), (3 : Fin 8), (7 : Fin 8)) 55 rfl rfl rfl rfl rfl v59 rfl rfl rfl rfl x14 hx14
  rw [ps15.1]
  replace hx15 := hx15.trans ps15.2
  clear ps15 hx14
  refine wp_stepV d L (b3_part16 d L _ _ _ _ _ _) fun r => ?_
  obtain ⟨x16, y16⟩ := r
  refine pure_pre fun hx16 => ?_
  have ps16 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8)) ((0 : Fin 4), (7 : Fin 8), (7 : Fin 8)) 59 rfl rfl rfl rfl rfl v59 rfl rfl rfl rfl x15 hx15
  rw [ps16.1]
  replace hx16 := hx16.trans ps16.2
  clear ps16 hx15
  refine wp_stepV d L (b3_part17 d L _ _ _ _ _ _) fun r => ?_
  obtain ⟨x17, y17⟩ := r
  refine pure_pre fun hx17 => ?_
  have ps17 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8)) ((1 : Fin 4), (3 : Fin 8), (0 : Fin 8)) 63 rfl rfl rfl rfl rfl v66 rfl rfl rfl rfl x16 hx16
  rw [ps17.1]
  replace hx17 := hx17.trans ps17.2
  clear ps17 hx16
  refine wp_stepV d L (b3_part18 d L _ _ _ _ _ _) fun r => ?_
  obtain ⟨x18, y18⟩ := r
  refine pure_pre fun hx18 => ?_
  have ps18 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8)) ((1 : Fin 4), (7 : Fin 8), (0 : Fin 8)) 67 rfl rfl rfl rfl rfl v66 rfl rfl rfl rfl x17 hx17
  rw [ps18.1]
  replace hx18 := hx18.trans ps18.2
  clear ps18 hx17
  refine wp_stepV d L (b3_part19 d L _ _ _ _ _ _) fun r => ?_
  obtain ⟨x19, y19⟩ := r
  refine pure_pre fun hx19 => ?_
  have ps19 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8)) ((1 : Fin 4), (3 : Fin 8), (1 : Fin 8)) 71 rfl rfl rfl rfl rfl v73 rfl rfl rfl rfl x18 hx18
  rw [ps19.1]
  replace hx19 := hx19.trans ps19.2
  clear ps19 hx18
  refine wp_stepV d L (b3_part20 d L _ _ _ _ _ _) fun r => ?_
  obtain ⟨x20, y20⟩ := r
  refine pure_pre fun hx20 => ?_
  have ps20 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8)) ((1 : Fin 4), (7 : Fin 8), (1 : Fin 8)) 75 rfl rfl rfl rfl rfl v73 rfl rfl rfl rfl x19 hx19
  rw [ps20.1]
  replace hx20 := hx20.trans ps20.2
  clear ps20 hx19
  refine wp_stepV d L (b3_part21 d L _ _ _ _ _ _) fun r => ?_
  obtain ⟨x21, y21⟩ := r
  refine pure_pre fun hx21 => ?_
  have ps21 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8)) ((1 : Fin 4), (3 : Fin 8), (2 : Fin 8)) 79 rfl rfl rfl rfl rfl v80 rfl rfl rfl rfl x20 hx20
  rw [ps21.1]
  replace hx21 := hx21.trans ps21.2
  clear ps21 hx20
  refine wp_stepV d L (b3_part22 d L _ _ _ _ _ _) fun r => ?_
  obtain ⟨x22, y22⟩ := r
  refine pure_pre fun hx22 => ?_
  have ps22 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8)) ((1 : Fin 4), (7 : Fin 8), (2 : Fin 8)) 83 rfl rfl rfl rfl rfl v80 rfl rfl rfl rfl x21 hx21
  rw [ps22.1]
  replace hx22 := hx22.trans ps22.2
  clear ps22 hx21
  refine wp_stepV d L (b3_part23 d L _ _ _ _ _ _) fun r => ?_
  obtain ⟨x23, y23⟩ := r
  refine pure_pre fun hx23 => ?_
  have ps23 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8)) ((1 : Fin 4), (3 : Fin 8), (3 : Fin 8)) 87 rfl rfl rfl rfl rfl v87 rfl rfl rfl rfl x22 hx22
  rw [ps23.1]
  replace hx23 := hx23.trans ps23.2
  clear ps23 hx22
  refine wp_stepV d L (b3_part24 d L _ _ _ _ _ _) fun r => ?_
  obtain ⟨x24, y24⟩ := r
  refine pure_pre fun hx24 => ?_
  have ps24 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8)) ((1 : Fin 4), (7 : Fin 8), (3 : Fin 8)) 91 rfl rfl rfl rfl rfl v87 rfl rfl rfl rfl x23 hx23
  rw [ps24.1]
  replace hx24 := hx24.trans ps24.2
  clear ps24 hx23
  refine wp_stepV d L (b3_part25 d L _ _ _ _ _ _) fun r => ?_
  obtain ⟨x25, y25⟩ := r
  refine pure_pre fun hx25 => ?_
  have ps25 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8)) ((1 : Fin 4), (3 : Fin 8), (4 : Fin 8)) 95 rfl rfl rfl rfl rfl v94 rfl rfl rfl rfl x24 hx24
  rw [ps25.1]
  replace hx25 := hx25.trans ps25.2
  clear ps25 hx24
  refine wp_stepV d L (b3_part26 d L _ _ _ _ _ _) fun r => ?_
  obtain ⟨x26, y26⟩ := r
  refine pure_pre fun hx26 => ?_
  have ps26 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8)) ((1 : Fin 4), (7 : Fin 8), (4 : Fin 8)) 99 rfl rfl rfl rfl rfl v94 rfl rfl rfl rfl x25 hx25
  rw [ps26.1]
  replace hx26 := hx26.trans ps26.2
  clear ps26 hx25
  refine wp_stepV d L (b3_part27 d L _ _ _ _ _ _) fun r => ?_
  obtain ⟨x27, y27⟩ := r
  refine pure_pre fun hx27 => ?_
  have ps27 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8)) ((1 : Fin 4), (3 : Fin 8), (5 : Fin 8)) 103 rfl rfl rfl rfl rfl v101 rfl rfl rfl rfl x26 hx26
  rw [ps27.1]
  replace hx27 := hx27.trans ps27.2
  clear ps27 hx26
  refine wp_stepV d L (b3_part28 d L _ _ _ _ _ _) fun r => ?_
  obtain ⟨x28, y28⟩ := r
  refine pure_pre fun hx28 => ?_
  have ps28 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8)) ((1 : Fin 4), (7 : Fin 8), (5 : Fin 8)) 107 rfl rfl rfl rfl rfl v101 rfl rfl rfl rfl x27 hx27
  rw [ps28.1]
  replace hx28 := hx28.trans ps28.2
  clear ps28 hx27
  refine wp_stepV d L (b3_part29 d L _ _ _ _ _ _) fun r => ?_
  obtain ⟨x29, y29⟩ := r
  refine pure_pre fun hx29 => ?_
  have ps29 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8)) ((1 : Fin 4), (3 : Fin 8), (6 : Fin 8)) 111 rfl rfl rfl rfl rfl v108 rfl rfl rfl rfl x28 hx28
  rw [ps29.1]
  replace hx29 := hx29.trans ps29.2
  clear ps29 hx28
  refine wp_stepV d L (b3_part30 d L _ _ _ _ _ _) fun r => ?_
  obtain ⟨x30, y30⟩ := r
  refine pure_pre fun hx30 => ?_
  have ps30 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8)) ((1 : Fin 4), (7 : Fin 8), (6 : Fin 8)) 115 rfl rfl rfl rfl rfl v108 rfl rfl rfl rfl x29 hx29
  rw [ps30.1]
  replace hx30 := hx30.trans ps30.2
  clear ps30 hx29
  refine wp_stepV d L (b3_part31 d L _ _ _ _ _ _) fun r => ?_
  obtain ⟨x31, y31⟩ := r
  refine pure_pre fun hx31 => ?_
  have ps31 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8)) ((1 : Fin 4), (3 : Fin 8), (7 : Fin 8)) 119 rfl rfl rfl rfl rfl v115 rfl rfl rfl rfl x30 hx30
  rw [ps31.1]
  replace hx31 := hx31.trans ps31.2
  clear ps31 hx30
  refine wp_stepV d L (b3_part32 d L _ _ _ _ _ _) fun r => ?_
  obtain ⟨x32, y32⟩ := r
  refine pure_pre fun hx32 => ?_
  have ps32 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8)) ((1 : Fin 4), (7 : Fin 8), (7 : Fin 8)) 123 rfl rfl rfl rfl rfl v115 rfl rfl rfl rfl x31 hx31
  rw [ps32.1]
  replace hx32 := hx32.trans ps32.2
  clear ps32 hx31
  refine wp_stepV d L (b3_part33 d L _ _ _ _ _ _) fun r => ?_
  obtain ⟨x33, y33⟩ := r
  refine pure_pre fun hx33 => ?_
  have ps33 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8)) ((2 : Fin 4), (3 : Fin 8), (0 : Fin 8)) 127 rfl rfl rfl rfl rfl v122 rfl rfl rfl rfl x32 hx32
  rw [ps33.1]
  replace hx33 := hx33.trans ps33.2
  clear ps33 hx32
  refine wp_stepV d L (b3_part34 d L _ _ _ _ _ _) fun r => ?_
  obtain ⟨x34, y34⟩ := r
  refine pure_pre fun hx34 => ?_
  have ps34 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8)) ((2 : Fin 4), (7 : Fin 8), (0 : Fin 8)) 131 rfl rfl rfl rfl rfl v122 rfl rfl rfl rfl x33 hx33
  rw [ps34.1]
  replace hx34 := hx34.trans ps34.2
  clear ps34 hx33
  refine wp_stepV d L (b3_part35 d L _ _ _ _ _ _) fun r => ?_
  obtain ⟨x35, y35⟩ := r
  refine pure_pre fun hx35 => ?_
  have ps35 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8)) ((2 : Fin 4), (3 : Fin 8), (1 : Fin 8)) 135 rfl rfl rfl rfl rfl v129 rfl rfl rfl rfl x34 hx34
  rw [ps35.1]
  replace hx35 := hx35.trans ps35.2
  clear ps35 hx34
  refine wp_stepV d L (b3_part36 d L _ _ _ _ _ _) fun r => ?_
  obtain ⟨x36, y36⟩ := r
  refine pure_pre fun hx36 => ?_
  have ps36 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8)) ((2 : Fin 4), (7 : Fin 8), (1 : Fin 8)) 139 rfl rfl rfl rfl rfl v129 rfl rfl rfl rfl x35 hx35
  rw [ps36.1]
  replace hx36 := hx36.trans ps36.2
  clear ps36 hx35
  refine wp_stepV d L (b3_part37 d L _ _ _ _ _ _) fun r => ?_
  obtain ⟨x37, y37⟩ := r
  refine pure_pre fun hx37 => ?_
  have ps37 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8)) ((2 : Fin 4), (3 : Fin 8), (2 : Fin 8)) 143 rfl rfl rfl rfl rfl v136 rfl rfl rfl rfl x36 hx36
  rw [ps37.1]
  replace hx37 := hx37.trans ps37.2
  clear ps37 hx36
  refine wp_stepV d L (b3_part38 d L _ _ _ _ _ _) fun r => ?_
  obtain ⟨x38, y38⟩ := r
  refine pure_pre fun hx38 => ?_
  have ps38 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8)) ((2 : Fin 4), (7 : Fin 8), (2 : Fin 8)) 147 rfl rfl rfl rfl rfl v136 rfl rfl rfl rfl x37 hx37
  rw [ps38.1]
  replace hx38 := hx38.trans ps38.2
  clear ps38 hx37
  refine wp_stepV d L (b3_part39 d L _ _ _ _ _ _) fun r => ?_
  obtain ⟨x39, y39⟩ := r
  refine pure_pre fun hx39 => ?_
  have ps39 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8)) ((2 : Fin 4), (3 : Fin 8), (3 : Fin 8)) 151 rfl rfl rfl rfl rfl v143 rfl rfl rfl rfl x38 hx38
  rw [ps39.1]
  replace hx39 := hx39.trans ps39.2
  clear ps39 hx38
  refine wp_stepV d L (b3_part40 d L _ _ _ _ _ _) fun r => ?_
  obtain ⟨x40, y40⟩ := r
  refine pure_pre fun hx40 => ?_
  have ps40 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8)) ((2 : Fin 4), (7 : Fin 8), (3 : Fin 8)) 155 rfl rfl rfl rfl rfl v143 rfl rfl rfl rfl x39 hx39
  rw [ps40.1]
  replace hx40 := hx40.trans ps40.2
  clear ps40 hx39
  refine wp_stepV d L (b3_part41 d L _ _ _ _ _ _) fun r => ?_
  obtain ⟨x41, y41⟩ := r
  refine pure_pre fun hx41 => ?_
  have ps41 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8)) ((2 : Fin 4), (3 : Fin 8), (4 : Fin 8)) 159 rfl rfl rfl rfl rfl v150 rfl rfl rfl rfl x40 hx40
  rw [ps41.1]
  replace hx41 := hx41.trans ps41.2
  clear ps41 hx40
  refine wp_stepV d L (b3_part42 d L _ _ _ _ _ _) fun r => ?_
  obtain ⟨x42, y42⟩ := r
  refine pure_pre fun hx42 => ?_
  have ps42 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8)) ((2 : Fin 4), (7 : Fin 8), (4 : Fin 8)) 163 rfl rfl rfl rfl rfl v150 rfl rfl rfl rfl x41 hx41
  rw [ps42.1]
  replace hx42 := hx42.trans ps42.2
  clear ps42 hx41
  refine wp_stepV d L (b3_part43 d L _ _ _ _ _ _) fun r => ?_
  obtain ⟨x43, y43⟩ := r
  refine pure_pre fun hx43 => ?_
  have ps43 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8)) ((2 : Fin 4), (3 : Fin 8), (5 : Fin 8)) 167 rfl rfl rfl rfl rfl v157 rfl rfl rfl rfl x42 hx42
  rw [ps43.1]
  replace hx43 := hx43.trans ps43.2
  clear ps43 hx42
  refine wp_stepV d L (b3_part44 d L _ _ _ _ _ _) fun r => ?_
  obtain ⟨x44, y44⟩ := r
  refine pure_pre fun hx44 => ?_
  have ps44 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8)) ((2 : Fin 4), (7 : Fin 8), (5 : Fin 8)) 171 rfl rfl rfl rfl rfl v157 rfl rfl rfl rfl x43 hx43
  rw [ps44.1]
  replace hx44 := hx44.trans ps44.2
  clear ps44 hx43
  refine wp_stepV d L (b3_part45 d L _ _ _ _ _ _) fun r => ?_
  obtain ⟨x45, y45⟩ := r
  refine pure_pre fun hx45 => ?_
  have ps45 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8)) ((2 : Fin 4), (3 : Fin 8), (6 : Fin 8)) 175 rfl rfl rfl rfl rfl v164 rfl rfl rfl rfl x44 hx44
  rw [ps45.1]
  replace hx45 := hx45.trans ps45.2
  clear ps45 hx44
  refine wp_stepV d L (b3_part46 d L _ _ _ _ _ _) fun r => ?_
  obtain ⟨x46, y46⟩ := r
  refine pure_pre fun hx46 => ?_
  have ps46 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8)) ((2 : Fin 4), (7 : Fin 8), (6 : Fin 8)) 179 rfl rfl rfl rfl rfl v164 rfl rfl rfl rfl x45 hx45
  rw [ps46.1]
  replace hx46 := hx46.trans ps46.2
  clear ps46 hx45
  refine wp_stepV d L (b3_part47 d L _ _ _ _ _ _) fun r => ?_
  obtain ⟨x47, y47⟩ := r
  refine pure_pre fun hx47 => ?_
  have ps47 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8)) ((2 : Fin 4), (3 : Fin 8), (7 : Fin 8)) 183 rfl rfl rfl rfl rfl v171 rfl rfl rfl rfl x46 hx46
  rw [ps47.1]
  replace hx47 := hx47.trans ps47.2
  clear ps47 hx46
  refine wp_stepV d L (b3_part48 d L _ _ _ _ _ _) fun r => ?_
  obtain ⟨x48, y48⟩ := r
  refine pure_pre fun hx48 => ?_
  have ps48 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8)) ((2 : Fin 4), (7 : Fin 8), (7 : Fin 8)) 187 rfl rfl rfl rfl rfl v171 rfl rfl rfl rfl x47 hx47
  rw [ps48.1]
  replace hx48 := hx48.trans ps48.2
  clear ps48 hx47
  refine wp_stepV d L (b3_part49 d L _ _ _ _ _ _) fun r => ?_
  obtain ⟨x49, y49⟩ := r
  refine pure_pre fun hx49 => ?_
  have ps49 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8)) ((3 : Fin 4), (3 : Fin 8), (0 : Fin 8)) 191 rfl rfl rfl rfl rfl v178 rfl rfl rfl rfl x48 hx48
  rw [ps49.1]
  replace hx49 := hx49.trans ps49.2
  clear ps49 hx48
  refine wp_stepV d L (b3_part50 d L _ _ _ _ _ _) fun r => ?_
  obtain ⟨x50, y50⟩ := r
  refine pure_pre fun hx50 => ?_
  have ps50 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8)) ((3 : Fin 4), (7 : Fin 8), (0 : Fin 8)) 195 rfl rfl rfl rfl rfl v178 rfl rfl rfl rfl x49 hx49
  rw [ps50.1]
  replace hx50 := hx50.trans ps50.2
  clear ps50 hx49
  refine wp_stepV d L (b3_part51 d L _ _ _ _ _ _) fun r => ?_
  obtain ⟨x51, y51⟩ := r
  refine pure_pre fun hx51 => ?_
  have ps51 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8)) ((3 : Fin 4), (3 : Fin 8), (1 : Fin 8)) 199 rfl rfl rfl rfl rfl v185 rfl rfl rfl rfl x50 hx50
  rw [ps51.1]
  replace hx51 := hx51.trans ps51.2
  clear ps51 hx50
  refine wp_stepV d L (b3_part52 d L _ _ _ _ _ _) fun r => ?_
  obtain ⟨x52, y52⟩ := r
  refine pure_pre fun hx52 => ?_
  have ps52 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8)) ((3 : Fin 4), (7 : Fin 8), (1 : Fin 8)) 203 rfl rfl rfl rfl rfl v185 rfl rfl rfl rfl x51 hx51
  rw [ps52.1]
  replace hx52 := hx52.trans ps52.2
  clear ps52 hx51
  refine wp_stepV d L (b3_part53 d L _ _ _ _ _ _) fun r => ?_
  obtain ⟨x53, y53⟩ := r
  refine pure_pre fun hx53 => ?_
  have ps53 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8)) ((3 : Fin 4), (3 : Fin 8), (2 : Fin 8)) 207 rfl rfl rfl rfl rfl v192 rfl rfl rfl rfl x52 hx52
  rw [ps53.1]
  replace hx53 := hx53.trans ps53.2
  clear ps53 hx52
  refine wp_stepV d L (b3_part54 d L _ _ _ _ _ _) fun r => ?_
  obtain ⟨x54, y54⟩ := r
  refine pure_pre fun hx54 => ?_
  have ps54 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8)) ((3 : Fin 4), (7 : Fin 8), (2 : Fin 8)) 211 rfl rfl rfl rfl rfl v192 rfl rfl rfl rfl x53 hx53
  rw [ps54.1]
  replace hx54 := hx54.trans ps54.2
  clear ps54 hx53
  refine wp_stepV d L (b3_part55 d L _ _ _ _ _ _) fun r => ?_
  obtain ⟨x55, y55⟩ := r
  refine pure_pre fun hx55 => ?_
  have ps55 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8)) ((3 : Fin 4), (3 : Fin 8), (3 : Fin 8)) 215 rfl rfl rfl rfl rfl v199 rfl rfl rfl rfl x54 hx54
  rw [ps55.1]
  replace hx55 := hx55.trans ps55.2
  clear ps55 hx54
  refine wp_stepV d L (b3_part56 d L _ _ _ _ _ _) fun r => ?_
  obtain ⟨x56, y56⟩ := r
  refine pure_pre fun hx56 => ?_
  have ps56 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8)) ((3 : Fin 4), (7 : Fin 8), (3 : Fin 8)) 219 rfl rfl rfl rfl rfl v199 rfl rfl rfl rfl x55 hx55
  rw [ps56.1]
  replace hx56 := hx56.trans ps56.2
  clear ps56 hx55
  refine wp_stepV d L (b3_part57 d L _ _ _ _ _ _) fun r => ?_
  obtain ⟨x57, y57⟩ := r
  refine pure_pre fun hx57 => ?_
  have ps57 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8)) ((3 : Fin 4), (3 : Fin 8), (4 : Fin 8)) 223 rfl rfl rfl rfl rfl v206 rfl rfl rfl rfl x56 hx56
  rw [ps57.1]
  replace hx57 := hx57.trans ps57.2
  clear ps57 hx56
  refine wp_stepV d L (b3_part58 d L _ _ _ _ _ _) fun r => ?_
  obtain ⟨x58, y58⟩ := r
  refine pure_pre fun hx58 => ?_
  have ps58 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8)) ((3 : Fin 4), (7 : Fin 8), (4 : Fin 8)) 227 rfl rfl rfl rfl rfl v206 rfl rfl rfl rfl x57 hx57
  rw [ps58.1]
  replace hx58 := hx58.trans ps58.2
  clear ps58 hx57
  refine wp_stepV d L (b3_part59 d L _ _ _ _ _ _) fun r => ?_
  obtain ⟨x59, y59⟩ := r
  refine pure_pre fun hx59 => ?_
  have ps59 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8)) ((3 : Fin 4), (3 : Fin 8), (5 : Fin 8)) 231 rfl rfl rfl rfl rfl v213 rfl rfl rfl rfl x58 hx58
  rw [ps59.1]
  replace hx59 := hx59.trans ps59.2
  clear ps59 hx58
  refine wp_stepV d L (b3_part60 d L _ _ _ _ _ _) fun r => ?_
  obtain ⟨x60, y60⟩ := r
  refine pure_pre fun hx60 => ?_
  have ps60 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8)) ((3 : Fin 4), (7 : Fin 8), (5 : Fin 8)) 235 rfl rfl rfl rfl rfl v213 rfl rfl rfl rfl x59 hx59
  rw [ps60.1]
  replace hx60 := hx60.trans ps60.2
  clear ps60 hx59
  iintro H
  first | rw [wp_pure] | rw [wp_ret]
  imodintro
  isplitr; · ipureintro; exact hx60
  iexact H

set_option maxHeartbeats 2000000 in
/-- ONE TRIP: block `k` multiplied in place. -/
theorem trip3 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (t : Fin k0_t1_loop.trips) (a c e : BitVec 32) (g : Buf (Elt F) ((V d (cV L) (jV L)).loc cc0_scratch3)) (k : Fin k0_t4_loop.trips) (acc : Unit) :
    ((Memref.whole cc0_scratch3 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g k.val : sProp 𝕄) ⊢ wp frame (wpE (defs₀ (F := F)) 𝒱₀ (V d (cV L) (jV L)) none) Set.univ (k0_t4_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 t a c e k acc)
      (fun _ => ((Memref.whole cc0_scratch3 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g (k.val + 1) : sProp 𝕄)) := by
  rw [← stC_zero, ← stC_full]
  unfold k0_t4_body
  refine wp_stepV d L (b3_wrap d L v10 v17 v24 v31 v38 v45 v52 v59 v66 v73 v80 v87 v94 v101 v108 v115 v122 v129 v136 v143 v150 v157 v164 v171 v178 v185 v192 v199 v206 v213 v220 v227 _ _ k g) fun r => ?_
  obtain ⟨w, x60, y60⟩ := r
  refine pure_pre fun hx60 => ?_
  refine wp_stepV d L (b3_part61 d L _ _ _ _ _ _) fun r => ?_
  obtain ⟨x61, y61⟩ := r
  refine pure_pre fun hx61 => ?_
  have ps61 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8)) ((3 : Fin 4), (3 : Fin 8), (6 : Fin 8)) 239 rfl rfl rfl rfl rfl v220 rfl rfl rfl rfl x60 hx60
  rw [ps61.1]
  replace hx61 := hx61.trans ps61.2
  clear ps61 hx60
  refine wp_stepV d L (b3_part62 d L _ _ _ _ _ _) fun r => ?_
  obtain ⟨x62, y62⟩ := r
  refine pure_pre fun hx62 => ?_
  have ps62 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8)) ((3 : Fin 4), (7 : Fin 8), (6 : Fin 8)) 243 rfl rfl rfl rfl rfl v220 rfl rfl rfl rfl x61 hx61
  rw [ps62.1]
  replace hx62 := hx62.trans ps62.2
  clear ps62 hx61
  refine wp_stepV d L (b3_part63 d L _ _ _ _ _ _) fun r => ?_
  obtain ⟨x63, y63⟩ := r
  refine pure_pre fun hx63 => ?_
  have ps63 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8)) ((3 : Fin 4), (3 : Fin 8), (7 : Fin 8)) 247 rfl rfl rfl rfl rfl v227 rfl rfl rfl rfl x62 hx62
  rw [ps63.1]
  replace hx63 := hx63.trans ps63.2
  clear ps63 hx62
  refine wp_stepV d L (b3_part64 d L _ _ _ _ _ _) fun r => ?_
  obtain ⟨x64, y64⟩ := r
  refine pure_pre fun hx64 => ?_
  have ps64 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8)) ((3 : Fin 4), (7 : Fin 8), (7 : Fin 8)) 251 rfl rfl rfl rfl rfl v227 rfl rfl rfl rfl x63 hx63
  rw [ps64.1]
  replace hx64 := hx64.trans ps64.2
  clear ps64 hx63
  iintro Hs
  sl_exec
  sl_step
  rw [← part_last3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (7 : Fin 8)) rfl x64 hx64]
  iexact Hs

/-- THE LOOP: every block multiplied in place. -/
theorem inner3 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (t : Fin k0_t1_loop.trips) (a c e : BitVec 32) (g : Buf (Elt F) ((V d (cV L) (jV L)).loc cc0_scratch3)) :
    ((Memref.whole cc0_scratch3 : Memref sig .scVector .vmem S28672 .f32).view.loc (V d (cV L) (jV L)) ↦{fullShare} g : sProp 𝕄) ⊢ wp frame (wpE (defs₀ (F := F)) 𝒱₀ (V d (cV L) (jV L)) none) Set.univ (Scf.Loop.for k0_t4_loop k0_t4_ok ⟨⟩ (k0_t4_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 t a c e))
      (fun _ => ((Memref.whole cc0_scratch3 : Memref sig .scVector .vmem S28672 .f32).view.loc (V d (cV L) (jV L)) ↦{fullShare} maskBuf (mulTab v10 v17 v24 v31 v38 v45 v52 v59 v66 v73 v80 v87 v94 v101 v108 v115 v122 v129 v136 v143 v150 v157 v164 v171 v178 v185 v192 v199 v206 v213 v220 v227) g : sProp 𝕄)) := by
  iintro Hs
  sl_for (fun (j : Nat) (_ : PUnit) => ((Memref.whole cc0_scratch3 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g j : sProp 𝕄)) $$ [Hs]
  case region => intro j acc; exact trip3 d L v3 v10 v17 v24 v31 v38 v45 v52 v59 v66 v73 v80 v87 v94 v101 v108 v115 v122 v129 v136 v143 v150 v157 v164 v171 v178 v185 v192 v199 v206 v213 v220 v227 t a c e g j acc
  rw [maskBlocks_zero, show Scf.trips k0_t4_loop.lb k0_t4_loop.ub k0_t4_loop.st = 7 from rfl, maskBlocks_seven]
  isplitl [Hs]; · iexact Hs
  iintro %acc H
  iexact H

end Cert.Proof.KI

end
-- ==== Proof.Tile.lean ====
/-
  One vector subcore's task. The tile copies the 512 random numbers into its scratch, forms the 32 multiplier groups
  (1 where a number is at least the threshold, 0 elsewhere), and streams its 42 chunks of the flat input through three
  buffers: a chunk is fetched, every word multiplied by its frame's multiplier in place, and written to the same chunk
  of the flat output. Each buffer has one semaphore for its fetches and one for its write-outs, so at most one copy is
  outstanding on a semaphore, and a buffer is touched only between the wait for its fetch and the start of its
  write-out. The outer loop's invariant carries the three fetches in flight with what they deliver and the chunks
  already written at the masked input; each in-place loop multiplies its buffer block by block.
-/
import proofs.«205805_g86552180949287_cont_9to1_m_41_25_alg».proof.Proof.TileMain
import proofs.«205805_g86552180949287_cont_9to1_m_41_25_alg».proof.Proof.TileInnerValP1
import proofs.«205805_g86552180949287_cont_9to1_m_41_25_alg».proof.Proof.TileInnerValP2
import proofs.«205805_g86552180949287_cont_9to1_m_41_25_alg».proof.Proof.TileInnerValP3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task on vector subcore `(L 0, L 1)` of device `d`: from its hand at the start to its hand at the end. -/
theorem tile_body (d : Dev nD) (L : grid0.Coords) (hF : (K (F := F)).Facts)
    (fl : Buf (Elt F) (fltLoc d)) (rd : Buf (Elt F) (rndLoc d)) (o0 : Buf (Elt F) (outLoc d))
    (O : CellTallies nD τ sig (HIx 1)) (W : Waits sig (HIx 1)) (hO : ∀ g, O g none = 0) :
    iprop(levAts (K (F := F)).L (K (F := F)).lev ∗ emp ∗ tileGo d (cC L) (sC L) fl rd o0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L (Memref.whole main_v3_scv) (Memref.isWhole_whole _) (Memref.whole main_arg1_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9 cc0_scoped0)
          fun _ => iprop(tileTd d (cC L) (sC L) fl rd ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body_of_inner d L hF fl rd o0 O W hO (inner1 d L) (inner2 d L) (inner3 d L)

end Cert.Proof.KI

end
-- ==== Proof.Spec.lean ====
/-
  What @main computes, as a chain of valuations of the TensorCore's arrays: the four re-layouts before the SparseCore
  call (transpose to [3,224,224,512], split, swap the two middle axes, flatten), the call's effect on the flat output
  (its second half becomes the masked input, its first half stays), the four operations after it (unflatten, swap
  back, merge, copy into the pipelined call's output buffer), the pipelined call's effect (the blocks it visits —
  channel-rows c·224 + h below 336 — become input times the converted comparison, the rest stays), and the final
  transpose. The result array's contents `RES` is the last valuation at the result.
-/
import proofs.«205805_g86552180949287_cont_9to1_m_41_25_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held after)

variable {F : FTy → Type} [FloatOps F]

local notation "𝕄" => MT nD τ sig (HIx 1) (Elt F) ℕ UU ℕ

/-! ## The host operations of @main, in order -/

abbrev op0 : HloOp τ sig (Elt F) := StableHlo.unary main_arg0 main_v0 ((transpose S3x224x224x512 [1, 2, 3, 0] · Facts₀.transposes_S512x3x224x224_S3x224x224x512_1_2_3_0) : (⟨S512x3x224x224, .f32⟩ : BufTy).Contents (Elt F) → (⟨S3x224x224x512, .f32⟩ : BufTy).Contents (Elt F))
abbrev op1 : HloOp τ sig (Elt F) := StableHlo.reshape main_v0 main_v1 rfl Facts₀.shapeCasts_S3x224x224x512_S3x224x28x8x4x128
abbrev op2 : HloOp τ sig (Elt F) := StableHlo.unary main_v1 main_v2 ((transpose S3x224x28x4x8x128 [0, 1, 2, 4, 3, 5] · Facts₀.transposes_S3x224x28x8x4x128_S3x224x28x4x8x128_0_1_2_4_3_5) : (⟨S3x224x28x8x4x128, .f32⟩ : BufTy).Contents (Elt F) → (⟨S3x224x28x4x8x128, .f32⟩ : BufTy).Contents (Elt F))
abbrev op3 : HloOp τ sig (Elt F) := StableHlo.reshape main_v2 main_v3 rfl Facts₀.shapeCasts_S3x224x28x4x8x128_S77070336
abbrev op5 : HloOp τ sig (Elt F) := StableHlo.reshape main_v4 main_v5 rfl Facts₀.shapeCasts_S77070336_S3x224x28x4x8x128
abbrev op6 : HloOp τ sig (Elt F) := StableHlo.unary main_v5 main_v6 ((transpose S3x224x28x8x4x128 [0, 1, 2, 4, 3, 5] · Facts₀.transposes_S3x224x28x4x8x128_S3x224x28x8x4x128_0_1_2_4_3_5) : (⟨S3x224x28x4x8x128, .f32⟩ : BufTy).Contents (Elt F) → (⟨S3x224x28x8x4x128, .f32⟩ : BufTy).Contents (Elt F))
abbrev op7 : HloOp τ sig (Elt F) := StableHlo.reshape main_v6 main_v7 rfl Facts₀.shapeCasts_S3x224x28x8x4x128_S3x224x224x512
abbrev op8 : HloOp τ sig (Elt F) := StableHlo.unary main_v7 main_v8 id
abbrev op9 : HloOp τ sig (Elt F) := StableHlo.unary main_v8 main_v9 ((transpose S512x3x224x224 [3, 0, 1, 2] · Facts₀.transposes_S3x224x224x512_S512x3x224x224_3_0_1_2) : (⟨S3x224x224x512, .f32⟩ : BufTy).Contents (Elt F) → (⟨S512x3x224x224, .f32⟩ : BufTy).Contents (Elt F))

abbrev opsPre : List (HloOp τ sig (Elt F)) := [op0, op1, op2, op3]
abbrev opsMid : List (HloOp τ sig (Elt F)) := [op5, op6, op7, op8]

/-! ## The TensorCore's arrays by name -/

abbrev rImg : DevRef τ sig := Proc.devRef .tc (main_arg0 : Ref sig .tc)
abbrev rRnd : DevRef τ sig := Proc.devRef .tc (main_arg1 : Ref sig .tc)
abbrev rX : DevRef τ sig := Proc.devRef .tc (main_v0 : Ref sig .tc)
abbrev rFlt : DevRef τ sig := Proc.devRef .tc (main_v3 : Ref sig .tc)
abbrev rOut : DevRef τ sig := Proc.devRef .tc (main_v4 : Ref sig .tc)
abbrev rY : DevRef τ sig := Proc.devRef .tc (main_v7 : Ref sig .tc)
abbrev rFull : DevRef τ sig := Proc.devRef .tc (main_v8 : Ref sig .tc)
abbrev rRes : DevRef τ sig := Proc.devRef .tc (main_v9 : Ref sig .tc)

/-! ## The chain of valuations -/

variable (m : (ℓ : Loc nD τ sig) → Buf (Elt F) ℓ)

/-- The launch valuation of device `d`. -/
def V0 (d : Dev nD) : Valuation τ sig (Elt F) := fun b => m (d, b)
/-- After the four re-layouts: the flat input is in place. -/
def VA (d : Dev nD) : Valuation τ sig (Elt F) := after opsPre (V0 m d)

/-- The flat input, the random numbers and the flat output's contents as the SparseCore call finds them. -/
def flOf (d : Dev nD) : Buf (Elt F) (fltLoc d) := VA m d rFlt
def rdOf (d : Dev nD) : Buf (Elt F) (rndLoc d) := m (rndLoc d)
def o0Of (d : Dev nD) : Buf (Elt F) (outLoc d) := m (outLoc d)

/-- The flat output after the call: the second half (words from 38535168 on) masked input, the first half untouched. -/
def v4Final (d : Dev nD) : Buf (Elt F) (outLoc d) :=
  fun j => if (j 0).val < 38535168 then o0Of m d j else (scOut (flOf m d) (rdOf m d) : Buf (Elt F) (outLoc d)) j

def VB (d : Dev nD) : Valuation τ sig (Elt F) := Function.update (VA m d) rOut (v4Final m d)
/-- After the four operations between the two calls. -/
def VC (d : Dev nD) : Valuation τ sig (Elt F) := after opsMid (VB m d)

/-- A random number to its multiplier as the pipelined call's body spells it: the comparison's bit zero-extended to a
    word and converted to a float. -/
def keepCvt (v : FVec F S512 .f32) : FVec F S512 .f32 :=
  sitofp .f32 (extui 32 (cmpf .oge v (broadcast S512 (Scalar.ofBits .f32 0x3DCCCCCD#32))) Facts₀.natLt_1_32)

/-- The pipelined call's output array after it: entry (c, h, w, n) with 224·c + h below 336 (the 21 blocks of 16 rows
    it visits) is the transposed input times frame n's multiplier; every other entry is what the buffer held. -/
def tcOut (d : Dev nD) : (⟨S3x224x224x512, .f32⟩ : BufTy).Contents (Elt F) :=
  fun j => if 224 * (j 0).val + (j 1).val < 336
    then FloatOps.mulf ((VC m d rX : (⟨S3x224x224x512, .f32⟩ : BufTy).Contents (Elt F)) j)
      (keepCvt (m (rndLoc d) : (⟨S512, .f32⟩ : BufTy).Contents (Elt F)) (ValueIdx.ix1 (j 3)))
    else (VC m d rFull : (⟨S3x224x224x512, .f32⟩ : BufTy).Contents (Elt F)) j

def VD (d : Dev nD) : Valuation τ sig (Elt F) := Function.update (VC m d) rFull (tcOut m d)
def VE (d : Dev nD) : Valuation τ sig (Elt F) := after [op9] (VD m d)

/-- The result array's final contents. -/
def RES (d : Dev nD) : Buf (Elt F) (resLoc d) := VE m d rRes

/-- What @main leaves the claim: the two arguments at their launch contents, the result at `RES`. -/
abbrev FIN (d : Dev nD) : sProp 𝕄 :=
  iprop((imgLoc d ↦{fullShare} m (imgLoc d)) ∗ (rndLoc d ↦{fullShare} m (rndLoc d)) ∗ resLoc d ↦{fullShare} RES m d)

/-- The launch payload at this memory. -/
abbrev PM : (K (F := F)).Pay (nD := nD) (Val := Elt F) (Name := ℕ) (U := UU) := P (flOf m) (rdOf m) (o0Of m)

end Cert.Proof.KI

end
-- ==== Proof.Regroup.lean ====
/-
  The flat arrays between the TensorCore's whole view and the tiles' hands. Before the SparseCore call the flat input
  and the random numbers are cut into 32 read shares (and a remainder the TensorCore keeps), and the flat output into
  its first half (kept) and the 32 × 42 chunks of the second half; after the call the shares rejoin and the chunks,
  each at the masked input, rejoin the first half into the whole array at `v4Final`. Chunk k holds the words
  28672·k … 28672·k + 28671; the chunks below 1344 are the words below 38535168.
-/
import proofs.«205805_g86552180949287_cont_9to1_m_41_25_alg».proof.Proof.Spec
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## Chunks, by their words -/

theorem mem_chunkSet (k : Fin 2688) (j : S77070336.Idx) :
    j ∈ chunkSet k ↔ 28672 * k.val ≤ (j 0).val ∧ (j 0).val < 28672 * k.val + 28672 := by
  unfold chunkSet chunk Rect.part Rect.block
  rw [Rect.mem_set_unit]
  constructor
  · intro h
    have h0 := h 0
    simp [Shape.partIx, Shape.partSize] at h0
    omega
  · intro h a
    obtain rfl : a = 0 := Subsingleton.elim _ _
    simp [Shape.partIx, Shape.partSize]
    omega

theorem chunks_disjoint : ∀ i ∈ (Finset.univ : Finset (Fin 2688)), ∀ j ∈ (Finset.univ : Finset (Fin 2688)), i ≠ j → Disjoint (chunkSet i) (chunkSet j) :=
  fun _ _ _ _ h => Rect.part_disjoint hdivC h
theorem chunks_cover : (Finset.univ : Finset (Fin 2688)).biUnion chunkSet = Finset.univ := Rect.biUnion_part hdivC

omit [FloatOps F] in
/-- The flat output whole is its 2688 chunks. -/
theorem out_chunks (d : Dev nD) (f : Buf (Elt F) (outLoc d)) :
    (outLoc d ↦{fullShare} f : sProp 𝕄) = bigSep Finset.univ fun k : Fin 2688 => outLoc d ↦[chunkSet k]{fullShare} f := by
  rw [← pointsTo_biUnion Finset.univ (ℓ := outLoc d) chunkSet chunks_disjoint, chunks_cover]; try rfl

/-! ## The two ways of counting: chunks by half and tile, workers by SparseCore and subcore -/

def eChunk : (Fin 1344 ⊕ (Fin 2 × Fin 16 × Fin 42)) ≃ Fin 2688 where
  toFun := fun x => match x with
    | .inl k => ⟨k.val, by omega⟩
    | .inr (c, s, i) => tileChunk c s i
  invFun := fun k => if h : k.val < 1344 then .inl ⟨k.val, h⟩ else
    .inr (⟨((k.val - 1344) / 42) % 2, by omega⟩, ⟨((k.val - 1344) / 42) / 2, by omega⟩, ⟨(k.val - 1344) % 42, by omega⟩)
  left_inv := by
    intro x
    rcases x with k | ⟨c, s, i⟩
    · simp only [k.isLt, ↓reduceDIte]
    · have hc := c.isLt; have hs := s.isLt; have hi := i.isLt
      have hge : ¬ (tileChunk c s i).val < 1344 := by unfold tileChunk; simp only; omega
      simp only [hge, ↓reduceDIte]
      unfold tileChunk
      simp only [Sum.inr.injEq, Prod.mk.injEq]
      refine ⟨Fin.ext ?_, Fin.ext ?_, Fin.ext ?_⟩ <;> simp only <;> omega
  right_inv := by
    intro k
    by_cases h : k.val < 1344
    · simp only [h, ↓reduceDIte]
    · simp only [h, ↓reduceDIte]
      unfold tileChunk
      apply Fin.ext
      simp only
      have := k.isLt
      omega

theorem eChunk_inl (k : Fin 1344) : (eChunk (.inl k)).val = k.val := rfl
theorem eChunk_inr (c : Fin 2) (s : Fin 16) (i : Fin 42) : eChunk (.inr (c, s, i)) = tileChunk c s i := rfl

def eWork : (Fin 2 × Fin 16) ≃ Fin 32 where
  toFun := fun x => widx x.1 x.2
  invFun := fun w => (⟨w.val % 2, by omega⟩, ⟨w.val / 2, by omega⟩)
  left_inv := by
    intro ⟨c, s⟩
    have hc := c.isLt; have hs := s.isLt
    unfold widx
    simp only [Prod.mk.injEq]
    refine ⟨Fin.ext ?_, Fin.ext ?_⟩ <;> simp only <;> omega
  right_inv := by
    intro w
    unfold widx
    apply Fin.ext
    simp only
    omega

omit [FloatOps F] in
/-- A family over the 2688 chunks, counted as the first half and then by SparseCore, subcore and position. -/
theorem bigSep_chunks (Φ : Fin 2688 → sProp 𝕄) :
    bigSep Finset.univ Φ = iprop((bigSep Finset.univ fun k : Fin 1344 => Φ (eChunk (.inl k)))
      ∗ bigSep Finset.univ fun c : Fin 2 => bigSep Finset.univ fun s : Fin 16 => bigSep Finset.univ fun i : Fin 42 => Φ (tileChunk c s i)) := by
  rw [bigSep_univ_equiv eChunk Φ, bigSep_univ_sum, bigSep_univ_prod]
  congr 1
  exact bigSep_congr fun c _ => bigSep_univ_prod _

omit [FloatOps F] in
/-- A family over the 32 workers, counted by SparseCore and subcore. -/
theorem bigSep_workers (Ψ : Fin 32 → sProp 𝕄) :
    bigSep Finset.univ Ψ = bigSep Finset.univ fun c : Fin 2 => bigSep Finset.univ fun s : Fin 16 => Ψ (widx c s) := by
  rw [bigSep_univ_equiv eWork Ψ, bigSep_univ_prod]; rfl

/-! ## The first half -/

/-- The first half of the flat output: the 1344 chunks the SparseCore call never touches. -/
abbrev firstHalf : Finset S77070336.Idx := (Finset.univ : Finset (Fin 1344)).biUnion fun k => chunkSet (eChunk (.inl k))

theorem first_disjoint : ∀ i ∈ (Finset.univ : Finset (Fin 1344)), ∀ j ∈ (Finset.univ : Finset (Fin 1344)), i ≠ j →
    Disjoint (chunkSet (eChunk (.inl i))) (chunkSet (eChunk (.inl j))) :=
  fun i _ j _ h => Rect.part_disjoint hdivC fun e => h (Fin.ext (by have := congrArg Fin.val e; simpa [eChunk_inl] using this))

omit [FloatOps F] in
theorem first_chunks (d : Dev nD) (f : Buf (Elt F) (outLoc d)) :
    (outLoc d ↦[firstHalf]{fullShare} f : sProp 𝕄) = bigSep Finset.univ fun k : Fin 1344 => outLoc d ↦[chunkSet (eChunk (.inl k))]{fullShare} f :=
  pointsTo_biUnion Finset.univ (ℓ := outLoc d) (fun k : Fin 1344 => chunkSet (eChunk (.inl k))) first_disjoint

theorem mem_firstHalf (j : S77070336.Idx) (h : j ∈ firstHalf) : (j 0).val < 38535168 := by
  obtain ⟨k, -, hk⟩ := Finset.mem_biUnion.mp h
  have := (mem_chunkSet _ j).mp hk
  rw [eChunk_inl] at this
  have := k.isLt
  omega

theorem mem_tileChunk (c : Fin 2) (s : Fin 16) (i : Fin 42) (j : S77070336.Idx) (h : j ∈ chunkSet (tileChunk c s i)) : ¬ (j 0).val < 38535168 := by
  have := (mem_chunkSet _ j).mp h
  unfold tileChunk at this
  simp only at this
  omega

/-- What the TensorCore keeps of the three flat arrays while the call runs. -/
def scKept (d : Dev nD) : sProp 𝕄 :=
  iprop((fltLoc d ↦{Transfers.shareDrop fullShare 32} flOf m d) ∗ (rndLoc d ↦{Transfers.shareDrop fullShare 32} rdOf m d)
    ∗ outLoc d ↦[firstHalf]{fullShare} o0Of m d)

/-! ## A SparseCore's share, spelt out -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_all (d : Dev nD) :
    (bigSep Finset.univ fun c : Fin ((K (F := F)).nCore 0) => (PM m).st 0 d c)
      = iprop((bigSep Finset.univ fun w : Fin 32 => fltLoc d ↦{Transfers.shareTok fullShare 32 w} flOf m d)
          ∗ (bigSep Finset.univ fun w : Fin 32 => rndLoc d ↦{Transfers.shareTok fullShare 32 w} rdOf m d)
          ∗ bigSep Finset.univ fun c : Fin 2 => bigSep Finset.univ fun s : Fin 16 => bigSep Finset.univ fun i : Fin 42 =>
              outLoc d ↦[chunkSet (tileChunk c s i)]{fullShare} o0Of m d) := by
  rw [bigSep_workers (F := F) (fun w => fltLoc d ↦{Transfers.shareTok fullShare 32 w} flOf m d),
    bigSep_workers (F := F) (fun w => rndLoc d ↦{Transfers.shareTok fullShare 32 w} rdOf m d)]
  rw [show (fun c : Fin ((K (F := F)).nCore 0) => (PM m).st 0 d c)
      = fun c => (fun c' : Fin 2 => bigSep Finset.univ fun s : Fin 16 => tileGo d c' s (flOf m d) (rdOf m d) (o0Of m d)) (Fin.cast nCore_zero c) from rfl,
    bigSep_cores (F := F) (fun c' : Fin 2 => bigSep Finset.univ fun s : Fin 16 => tileGo d c' s (flOf m d) (rdOf m d) (o0Of m d))]
  unfold tileGo
  simp only [bigSep_sep']

theorem dn_all (d : Dev nD) :
    (bigSep Finset.univ fun c : Fin ((K (F := F)).nCore 0) => (PM m).dn 0 d c)
      = iprop((bigSep Finset.univ fun w : Fin 32 => fltLoc d ↦{Transfers.shareTok fullShare 32 w} flOf m d)
          ∗ (bigSep Finset.univ fun w : Fin 32 => rndLoc d ↦{Transfers.shareTok fullShare 32 w} rdOf m d)
          ∗ bigSep Finset.univ fun c : Fin 2 => bigSep Finset.univ fun s : Fin 16 => bigSep Finset.univ fun i : Fin 42 =>
              outLoc d ↦[chunkSet (tileChunk c s i)]{fullShare} (scOut (flOf m d) (rdOf m d) : Buf (Elt F) (outLoc d))) := by
  rw [bigSep_workers (F := F) (fun w => fltLoc d ↦{Transfers.shareTok fullShare 32 w} flOf m d),
    bigSep_workers (F := F) (fun w => rndLoc d ↦{Transfers.shareTok fullShare 32 w} rdOf m d)]
  rw [show (fun c : Fin ((K (F := F)).nCore 0) => (PM m).dn 0 d c)
      = fun c => (fun c' : Fin 2 => bigSep Finset.univ fun s : Fin 16 => tileTd d c' s (flOf m d) (rdOf m d)) (Fin.cast nCore_zero c) from rfl,
    bigSep_cores (F := F) (fun c' : Fin 2 => bigSep Finset.univ fun s : Fin 16 => tileTd d c' s (flOf m d) (rdOf m d))]
  unfold tileTd
  simp only [bigSep_sep']

/-! ## Before and after the call -/

/-- Before the call: the three arrays whole are what the two SparseCores take and what the TensorCore keeps. -/
theorem sc_split (d : Dev nD) :
    iprop((fltLoc d ↦{fullShare} flOf m d) ∗ (rndLoc d ↦{fullShare} rdOf m d) ∗ outLoc d ↦{fullShare} o0Of m d)
      ⊢ iprop((bigSep Finset.univ fun c : Fin ((K (F := F)).nCore 0) => (PM m).st 0 d c) ∗ scKept m d) := by
  rw [st_all, out_chunks, bigSep_chunks (F := F) (fun k => outLoc d ↦[chunkSet k]{fullShare} o0Of m d)]
  unfold scKept
  rw [first_chunks]
  iintro ⟨Hf, Hr, Ho1, Ho2⟩
  ihave Hf' := (Transfers.pointsTo_toks_split (ℓ := fltLoc d) (S := Finset.univ) (f := flOf m d) fullShare 32) $$ Hf
  ihave Hr' := (Transfers.pointsTo_toks_split (ℓ := rndLoc d) (S := Finset.univ) (f := rdOf m d) fullShare 32) $$ Hr
  icases Hf' with ⟨Hfd, Hft⟩
  icases Hr' with ⟨Hrd, Hrt⟩
  isplitl [Hft Hrt Ho2]
  · isplitl [Hft]; · iexact Hft
    isplitl [Hrt]; · iexact Hrt
    iexact Ho2
  · isplitl [Hfd]; · iexact Hfd
    isplitl [Hrd]; · iexact Hrd
    iexact Ho1

/-- After the call: what the SparseCores give back and what was kept are the three arrays whole, the output at `v4Final`. -/
theorem sc_join (d : Dev nD) :
    iprop((bigSep Finset.univ fun c : Fin ((K (F := F)).nCore 0) => (PM m).dn 0 d c) ∗ scKept m d)
      ⊢ iprop((fltLoc d ↦{fullShare} flOf m d) ∗ (rndLoc d ↦{fullShare} rdOf m d) ∗ outLoc d ↦{fullShare} v4Final m d) := by
  rw [dn_all, out_chunks, bigSep_chunks (F := F) (fun k => outLoc d ↦[chunkSet k]{fullShare} v4Final m d)]
  unfold scKept
  rw [← first_chunks,
    show (outLoc d ↦[firstHalf]{fullShare} v4Final m d : sProp 𝕄) = outLoc d ↦[firstHalf]{fullShare} o0Of m d from
      pointsTo_congr fun j hj => by unfold v4Final; rw [if_pos (mem_firstHalf j hj)],
    show (bigSep Finset.univ fun c : Fin 2 => bigSep Finset.univ fun s : Fin 16 => bigSep Finset.univ fun i : Fin 42 =>
          (outLoc d ↦[chunkSet (tileChunk c s i)]{fullShare} v4Final m d : sProp 𝕄))
        = bigSep Finset.univ fun c : Fin 2 => bigSep Finset.univ fun s : Fin 16 => bigSep Finset.univ fun i : Fin 42 =>
          outLoc d ↦[chunkSet (tileChunk c s i)]{fullShare} (scOut (flOf m d) (rdOf m d) : Buf (Elt F) (outLoc d)) from
      bigSep_congr fun c _ => bigSep_congr fun s _ => bigSep_congr fun i _ =>
        pointsTo_congr fun j hj => by unfold v4Final; rw [if_neg (mem_tileChunk c s i j hj)]]
  iintro ⟨⟨Hft, Hrt, Ho2⟩, Hfd, Hrd, Ho1⟩
  isplitl [Hfd Hft]
  · iapply (Transfers.pointsTo_toks_join (ℓ := fltLoc d) (S := Finset.univ) (f := flOf m d) fullShare 32)
    isplitl [Hfd] <;> iassumption
  isplitl [Hrd Hrt]
  · iapply (Transfers.pointsTo_toks_join (ℓ := rndLoc d) (S := Finset.univ) (f := rdOf m d) fullShare 32)
    isplitl [Hrd] <;> iassumption
  isplitl [Ho1] <;> iassumption

end Cert.Proof.KI

end
-- ==== Proof.MainDat.lean ====
/-
  The pipelined TensorCore call's proof data. The body at a grid point reads the staged random numbers and the staged
  block of the transposed input and stores their product — the block times the converted comparison along the last
  axis — over the whole output staging buffer. The two input windows hold their array's block at every point; the
  output window is written back at every point, and what it writes back is the point's block of ONE whole-array
  function, `tcOut`.
-/
import proofs.«205805_g86552180949287_cont_9to1_m_41_25_alg».proof.Proof.Regroup
import proofs.«205805_g86552180949287_cont_9to1_m_41_25_alg».proof.Proof.Gen.KernelIdeal.Launch
import proofs.«205805_g86552180949287_cont_9to1_m_41_25_alg».proof.Proof.Gen.KernelIdeal.Points
import Idealize.ShloMosaic.Lib.Pipeline.Regions
import Idealize.ShloMosaic.Lib.Pipeline.Frame
import Idealize.ShloMosaic.Lib.Pipeline.FrameBody
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic
open Idealize.ShloMosaic.TcCoe
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

theorem hz1 : (![0] : Fin 1 → Nat) = fun _ => 0 := funext fun a => by fin_cases a <;> rfl
theorem hz4 : (![0, 0, 0, 0] : Fin 4 → Nat) = fun _ => 0 := funext fun a => by fin_cases a <;> rfl

/-! ## The body's triple -/

set_option maxHeartbeats 1000000 in
/-- The kernel body on whole staging memrefs, the inputs' at read contents `x0`, `x1` and the output's at anything, runs to
    the continuation holding the inputs' as they were and the output's at the product `k1_pay1 x0 x1`. -/
theorem sound_kernel (c : Dev nD) (i : grid1.Coords)
    (M0 : Memref sig .tc .vmem S512 .f32) (h0 : M0.IsWhole) (M1 : Memref sig .tc .vmem S1x16x224x512 .f32) (h1 : M1.IsWhole)
    (M2 : Memref sig .tc .vmem S1x16x224x512 .f32) (h2 : M2.IsWhole)
    (x0 : Vec F S512 .f32) (x1 : Vec F S1x16x224x512 .f32) (Kc : PUnit → sProp 𝕄) :
    iprop(owns (c : Thread nD τ) M0 fullShare x0 ∗ owns (c : Thread nD τ) M1 fullShare x1 ∗ (∃ d, owns (c : Thread nD τ) M2 fullShare d)
        ∗ (iprop(owns (c : Thread nD τ) M0 fullShare x0 ∗ owns (c : Thread nD τ) M1 fullShare x1 ∗ owns (c : Thread nD τ) M2 fullShare (k1_pay1 x0 x1)) -∗ Kc ⟨⟩))
      ⊢ wp frame (wpE (defs₀ (F := F)) Variants.none (c : Thread nD τ) none) Set.univ
          (cc1__tc_body i M0 h0 (Memref.whole main_v7) (Memref.isWhole_whole _) M1 h1 M2 h2) Kc := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz4 inb_S1x16x224x512_S1x16x224x512_0_0_0_0 y⟩), View.canon_unit_zero hz4]
  show k1_pay1 (View.ld (View.read (Elt F) M0.view f0) (Rect.unit ![0] S512.size inb_S512_S512_0))
      (View.ld (View.read (Elt F) M1.view f1) (Rect.unit ![0, 0, 0, 0] S1x16x224x512.size inb_S1x16x224x512_S1x16x224x512_0_0_0_0)) = _
  rw [View.ld_unit_zero hz1, View.ld_unit_zero hz4]

/-! ## Which arrays each stretch of host operations leaves alone -/

theorem pre_nw (b : Ref sig .tc) (hb : b ≠ main_v0 ∧ b ≠ main_v1 ∧ b ≠ main_v2 ∧ b ≠ main_v3) :
    ∀ op ∈ ([op0, op1, op2, op3] : List (HloOp τ sig (Elt F))), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem mid_nw (b : Ref sig .tc) (hb : b ≠ main_v5 ∧ b ≠ main_v6 ∧ b ≠ main_v7 ∧ b ≠ main_v8) :
    ∀ op ∈ ([op5, op6, op7, op8] : List (HloOp τ sig (Elt F))), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem VA_of (d : Dev nD) (b : Ref sig .tc) (hb : b ≠ main_v0 ∧ b ≠ main_v1 ∧ b ≠ main_v2 ∧ b ≠ main_v3) :
    VA m d (Proc.devRef .tc b) = m (d, Proc.devRef .tc b) :=
  StableHlo.after_of_forall_not_mem (b := Proc.devRef .tc b) _ (V0 m d) (pre_nw b hb)

theorem VC_of (d : Dev nD) (b : Ref sig .tc) (hb : b ≠ main_v5 ∧ b ≠ main_v6 ∧ b ≠ main_v7 ∧ b ≠ main_v8) :
    VC m d (Proc.devRef .tc b) = VB m d (Proc.devRef .tc b) :=
  StableHlo.after_of_forall_not_mem (b := Proc.devRef .tc b) _ (VB m d) (mid_nw b hb)

theorem VA_rRnd (d : Dev nD) : VA m d rRnd = rdOf m d := VA_of m d main_arg1 (by decide)
theorem VA_rOut (d : Dev nD) : VA m d rOut = o0Of m d := VA_of m d main_v4 (by decide)

theorem op9_nw (W : Valuation τ sig (Elt F)) (b : Ref sig .tc) (hb : b ≠ main_v9) :
    (op9 (F := F)).result W (Proc.devRef .tc b) = W (Proc.devRef .tc b) :=
  HloOp.result_of_not_mem _ _ (by rw [StableHlo.unary_writes, Finset.mem_singleton]; exact StableHlo.devRef_ne_of_ne hb)

theorem VE_rImg (d : Dev nD) : VE m d rImg = m (imgLoc d) := by
  unfold VE
  rw [StableHlo.after_cons, StableHlo.after_nil, op9_nw _ main_arg0 (by decide)]
  unfold VD
  rw [Function.update_of_ne (show rImg ≠ rFull by decide), VC_of m d main_arg0 (by decide)]
  unfold VB
  rw [Function.update_of_ne (show rImg ≠ rOut by decide), VA_of m d main_arg0 (by decide)]

theorem VE_rRnd (d : Dev nD) : VE m d rRnd = m (rndLoc d) := by
  unfold VE
  rw [StableHlo.after_cons, StableHlo.after_nil, op9_nw _ main_arg1 (by decide)]
  unfold VD
  rw [Function.update_of_ne (show rRnd ≠ rFull by decide), VC_of m d main_arg1 (by decide)]
  unfold VB
  rw [Function.update_of_ne (show rRnd ≠ rOut by decide), VA_of m d main_arg1 (by decide)]

theorem VC_rRnd (d : Dev nD) : VC m d rRnd = m (rndLoc d) := by
  rw [VC_of m d main_arg1 (by decide)]
  unfold VB
  rw [Function.update_of_ne (show rRnd ≠ rOut by decide), VA_of m d main_arg1 (by decide)]

/-! ## The proof data -/

/-- The TensorCore's arrays as the call finds them, by reference. -/
abbrev VCr (c : Dev nD) (b : Ref sig .tc) : Buf (Elt F) ((c : Thread nD τ).loc b) := VC m c (Proc.devRef .tc b)

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (VCr m c (Pipeline.arrRef spec1 w))

/-- The output window's block at point `t` of the array the call ends at. -/
def oblk (c : Dev nD) (t : Fin cfg1.N) : ((cfg1.win 2).xblock (cfg1.grid.coords t)).Idx → Elt F (cfg1.win 2).elt :=
  ((cfg1.win 2).blk t).view.read (Elt F) (tcOut m c)

/-- The proof data on core `c`: the arrays as the call finds them; after the body each input's buffer at its block and
    the output's at its block of `tcOut`; the invariant the scoped buffers no window stages; nothing owed; the recorded
    pairs within the levels the launch's handshakes allow after the SparseCore call. -/
def dats (_ : Fin 1) (c : Dev nD) : Dat τ (Elt F) (HIx 1) ℕ UU ℕ cfg1 c where
  A w := VCr m c (Pipeline.arrRef spec1 w)
  after w t := match w with
    | ⟨0, _⟩ => iblk m c 0 t
    | ⟨1, _⟩ => iblk m c 1 t
    | ⟨2, _⟩ => oblk m c t
  Φ _ := (Pipeline.scopedRest (Ix := HIx 1) (Name := ℕ) (U := UU) (Lvl := ℕ) (Val := Elt F) spec1 c : sProp 𝕄)
  q _ := fullShare
  owed _ := 0
  recorded _ := {p | (K (F := F)).lev ((c : Thread nD τ), p.1) p.2 ≤ 8}

theorem A_eq (c : Dev nD) (w : Fin cfg1.W) : (dats m 0 c).A w = VCr m c (Pipeline.arrRef spec1 w) := by dsimp only [dats]
theorem after_0 (c : Dev nD) (t : Fin cfg1.N) : (dats m 0 c).after 0 t = iblk m c 0 t := by dsimp only [dats]
theorem after_1 (c : Dev nD) (t : Fin cfg1.N) : (dats m 0 c).after 1 t = iblk m c 1 t := by dsimp only [dats]
theorem after_2 (c : Dev nD) (t : Fin cfg1.N) : (dats m 0 c).after 2 t = oblk m c t := by dsimp only [dats]

/-- Each input's current staging buffer holds its block at every point, fetched there or not. -/
theorem before_0 (c : Dev nD) (t : Fin cfg1.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- The block indices of the three windows at a point: the random numbers whole; the input and the output at channel-row
    block `(t / 14, t % 14)`. -/
theorem idx0 : ∀ t : Fin grid1.N, win1_0.index t 0 = 0 := by decide +kernel
theorem idx1 : ∀ t : Fin grid1.N, win1_1.index t 0 = t.val / 14 ∧ win1_1.index t 1 = t.val % 14 ∧ win1_1.index t 2 = 0 ∧ win1_1.index t 3 = 0 := by decide +kernel
theorem idx2 : ∀ t : Fin grid1.N, win1_2.index t 0 = t.val / 14 ∧ win1_2.index t 1 = t.val % 14 ∧ win1_2.index t 2 = 0 ∧ win1_2.index t 3 = 0 := by decide +kernel

/-- The staged random numbers are the random numbers. -/
theorem rnd_blk (c : Dev nD) (t : Fin cfg1.N) :
    (((cfg1.win 0).blk t).view.read (Elt F) (VCr m c (Pipeline.arrRef spec1 0)) : S512.Idx → Elt F .f32) = (m (rndLoc c) : S512.Idx → Elt F .f32) := by
  funext z
  rw [View.read_apply, cast_eq]
  show VC m c rRnd _ = _
  rw [VC_rRnd]
  refine congrArg _ (funext fun a => Fin.ext ?_)
  match a with
  | ⟨0, _⟩ => show win1_0.index t 0 * 512 + 1 * (z 0).val = (z 0).val; rw [idx0 t]; omega

/-- Where an element of the output's block at point `t` sits in the array. -/
theorem blockEmb2 (t : Fin cfg1.N) (j : S1x16x224x512.Idx) :
    ((((cfg1.win 2).blk t).view.emb j 0).val = t.val / 14 ∧ (((cfg1.win 2).blk t).view.emb j 1).val = 16 * (t.val % 14) + (j 1).val)
      ∧ (((cfg1.win 2).blk t).view.emb j 2).val = (j 2).val ∧ (((cfg1.win 2).blk t).view.emb j 3).val = (j 3).val := by
  obtain ⟨e0, e1, e2, e3⟩ := idx2 t
  have h0 : (j 0).val < 1 := (j 0).isLt
  refine ⟨⟨?_, ?_⟩, ?_, ?_⟩
  · show win1_2.index t 0 * 1 + 1 * (j 0).val = _; rw [e0]; omega
  · show win1_2.index t 1 * 16 + 1 * (j 1).val = _; rw [e1]; omega
  · show win1_2.index t 2 * 224 + 1 * (j 2).val = _; rw [e2]; omega
  · show win1_2.index t 3 * 512 + 1 * (j 3).val = _; rw [e3]; omega

/-- The input's block and the output's block at a point are the same elements of their arrays. -/
theorem emb1_eq (t : Fin cfg1.N) (j : S1x16x224x512.Idx) : ((cfg1.win 1).blk t).view.emb j = ((cfg1.win 2).blk t).view.emb j := by
  obtain ⟨e0, e1, e2, e3⟩ := idx1 t
  obtain ⟨f0, f1, f2, f3⟩ := idx2 t
  funext a; apply Fin.ext
  match a with
  | ⟨0, _⟩ => show win1_1.index t 0 * 1 + 1 * (j 0).val = win1_2.index t 0 * 1 + 1 * (j 0).val; rw [e0, f0]
  | ⟨1, _⟩ => show win1_1.index t 1 * 16 + 1 * (j 1).val = win1_2.index t 1 * 16 + 1 * (j 1).val; rw [e1, f1]
  | ⟨2, _⟩ => show win1_1.index t 2 * 224 + 1 * (j 2).val = win1_2.index t 2 * 224 + 1 * (j 2).val; rw [e2, f2]
  | ⟨3, _⟩ => show win1_1.index t 3 * 512 + 1 * (j 3).val = win1_2.index t 3 * 512 + 1 * (j 3).val; rw [e3, f3]

/-- THE VALUE OF A POINT: the product of the two staged blocks is the point's block of `tcOut`. -/
theorem pay_eq (c : Dev nD) (t : Fin cfg1.N) : k1_pay1 (iblk m c 0 t) (iblk m c 1 t) = oblk m c t := by
  funext j
  unfold k1_pay1 oblk iblk
  rw [View.read_apply, cast_eq, rnd_blk, shapeCast_self]
  obtain ⟨⟨h0, h1⟩, h2, h3⟩ := blockEmb2 t j
  have hN : t.val < 21 := by have := t.isLt; have e : cfg1.N = 21 := N_1; omega
  have hj1 : (j 1).val < 16 := (j 1).isLt
  unfold tcOut
  rw [if_pos (by rw [h0, h1]; omega)]
  show FloatOps.mulf _ _ = FloatOps.mulf _ _
  congr 1
  · rw [broadcastTo_apply (s := S1x1x1x512) _ _ j (ValueIdx.ix4 (0 : Fin 1) (0 : Fin 1) (0 : Fin 1) (j 3 : Fin 512))
        (fun a => by match a with | ⟨0, _⟩ => rfl | ⟨1, _⟩ => rfl | ⟨2, _⟩ => rfl | ⟨3, _⟩ => rfl),
      shapeCast_apply (s := S512) _ _ _ (ValueIdx.ix1 (j 3 : Fin 512)) (by rw [Shape.rowMajor_val_one, Shape.rowMajor_val_four]; simp)]
    unfold keepCvt
    refine congrArg _ (funext fun a => Fin.ext ?_)
    match a with
    | ⟨0, _⟩ => exact h3.symm

/-! ## The output array after the call -/

/-- An index of the output array is in point `t`'s block iff each coordinate is in the block's range on its axis. -/
theorem mem_blk2 (t : Fin cfg1.N) (i : S3x224x224x512.Idx) :
    i ∈ ((cfg1.win 2).blk t).view.set ↔ ∀ a : Fin 4, win1_2.index t a * S1x16x224x512.size a ≤ (i a).val
      ∧ (i a).val < win1_2.index t a * S1x16x224x512.size a + S1x16x224x512.size a := by
  show i ∈ ((View.whole main_v8).slice (win1_2.rect t)).set ↔ _
  rw [View.set_slice_whole, Rect.mem_set_unit]
  exact Iff.rfl

/-- The 21 blocks cover the entries whose channel-row `224·c + h` is below 336. -/
theorem cover2 (i : S3x224x224x512.Idx) (hi : 224 * (i 0).val + (i 1).val < 336) :
    ∃ t : Fin cfg1.N, (cfg1.win 2).flush t = true ∧ i ∈ ((cfg1.win 2).blk t).view.set := by
  have hlt : (224 * (i 0).val + (i 1).val) / 16 < cfg1.N := by rw [show cfg1.N = 21 from N_1]; omega
  refine ⟨⟨_, hlt⟩, flush1_2 _, ?_⟩
  rw [mem_blk2]
  obtain ⟨e0, e1, e2, e3⟩ := idx2 ⟨_, hlt⟩
  have h0 : (i 0).val < 3 := (i 0).isLt
  have h1 : (i 1).val < 224 := (i 1).isLt
  have h2 : (i 2).val < 224 := (i 2).isLt
  have h3 : (i 3).val < 512 := (i 3).isLt
  intro a
  match a with
  | ⟨0, _⟩ => show win1_2.index _ 0 * 1 ≤ (i 0).val ∧ (i 0).val < win1_2.index _ 0 * 1 + 1; rw [e0]; dsimp only; omega
  | ⟨1, _⟩ => show win1_2.index _ 1 * 16 ≤ (i 1).val ∧ (i 1).val < win1_2.index _ 1 * 16 + 16; rw [e1]; dsimp only; omega
  | ⟨2, _⟩ => show win1_2.index _ 2 * 224 ≤ (i 2).val ∧ (i 2).val < win1_2.index _ 2 * 224 + 224; rw [e2]; omega
  | ⟨3, _⟩ => show win1_2.index _ 3 * 512 ≤ (i 3).val ∧ (i 3).val < win1_2.index _ 3 * 512 + 512; rw [e3]; omega

/-- The output array ends at `tcOut`: on the covered entries what the points wrote back, elsewhere what it held. -/
theorem final2 (c : Dev nD) : (dats m 0 c).arrAt 2 cfg1.N = tcOut m c := by
  funext i
  rw [(dats m 0 c).arrAt_eq_piecewise 2 (tcOut m c) (fun t _ => by
    show (cfg1.win 2).cut _ ((dats m 0 c).after 2 t) = _; rw [after_2]; rfl) i]
  split
  · rfl
  · rename_i h
    rw [A_eq]
    unfold tcOut
    rw [if_neg (fun hi => h (cover2 i hi))]

/-- The body at any point. -/
theorem sound_body (c : Dev nD) (t : Fin cfg1.N) :
    iprop((dats m 0 c).Φ t.castSucc ∗ (dats m 0 c).owesAt none t.castSucc
        ∗ (∃ d, owns (c : Thread nD τ) (st1_0 t) fullShare ((dats m 0 c).before 0 t d))
        ∗ (∃ d, owns (c : Thread nD τ) (st1_1 t) fullShare ((dats m 0 c).before 1 t d))
        ∗ (∃ d, owns (c : Thread nD τ) (st1_2 t) fullShare ((dats m 0 c).before 2 t d)))
      ⊢ wp frame (wpE (defs₀ (F := F)) Variants.none (c : Thread nD τ) none) Set.univ (bodyAt1 t) (fun _ =>
          iprop((dats m 0 c).Φ t.succ ∗ (dats m 0 c).owesAt none t.succ
            ∗ owns (c : Thread nD τ) (st1_0 t) fullShare ((dats m 0 c).after 0 t)
            ∗ owns (c : Thread nD τ) (st1_1 t) fullShare ((dats m 0 c).after 1 t)
            ∗ owns (c : Thread nD τ) (st1_2 t) fullShare ((dats m 0 c).after 2 t))) := by
  unfold bodyAt1
  simp only [before_0, before_1]
  rw [show (dats m 0 c).Φ t.succ = (dats m 0 c).Φ t.castSucc from rfl,
    show (dats m 0 c).owesAt none t.succ = (dats m 0 c).owesAt none t.castSucc from rfl, after_0, after_1, after_2, ← pay_eq]
  iintro ⟨HΦ, Ho, ⟨%d0, H0⟩, ⟨%d1, H1⟩, ⟨%d2, H2⟩⟩
  iapply (sound_kernel c (grid1.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats m 0 c) (defs₀ (F := F)) Variants.none none Set.univ := fun t => by
  rw [bigSep_W1, bigSep_W1]
  exact sound_body m c t

end Cert.Proof.KI

end
-- ==== Proof.MainCall.lean ====
/-
  The pipelined TensorCore call of @main as one step: its part of the launch element (the staging cells' rounds and
  the duty tokens of its transfers), what each device's TensorCore is dealt of it, and the call's effect on the
  TensorCore's arrays: the output array goes from its contents at entry to `tcOut`, every other array stays. The call is
  a kernel region of the pipeline library: its arrays are taken out of the TensorCore's unscoped buffers at entry and
  put back at exit, the TensorCore's debt (none after the SparseCore call) and the bound on its recorded waits ride
  through.
-/
import proofs.«205805_g86552180949287_cont_9to1_m_41_25_alg».proof.Proof.MainDat
import Idealize.ShloMosaic.Lib.Pipeline.RegionsLoop

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic
open Idealize.ShloMosaic.TcCoe
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-- The set of the TensorCore's arrays the host operations run within: all its unscoped buffers. -/
abbrev SU : Finset (DevRef τ sig) := Pipeline.ucRefs τ sig

/-- The pipelined call's part of the launch element: its staging cells' rounds and tokens. -/
def uK : UK := initOf (Pipeline.cells (nD := nD) (τ := τ) cfgs cellOf_inj) (Pipeline.launchToks (nD := nD) (τ := τ) cfgs cellOf_inj)

/-- What the launch element deals device `d`'s TensorCore for the pipelined call. -/
def tcG (d : Dev nD) : sProp 𝕄 := iprop(Pipeline.cellsGhost cfgs (ER (F := F)) 0 d ∗ Pipeline.toksInit cfgs (ER (F := F)) 0 d)

/-- The pipelined call's part of the launch element funds every device's share. -/
theorem fundTc : (BI.own (ER (F := F) uK) : sProp 𝕄) ⊢ iprop(|==> bigSep Finset.univ fun d : Dev nD => tcG (F := F) d) := by
  unfold uK tcG
  refine (Pipeline.fund_ghost cfgs (ER (F := F)) cellOf_inj).trans ?_
  refine bupd_mono ?_
  rw [← bigSep_sep']
  refine bigSep_mono fun d _ => ?_
  rw [show (Finset.univ : Finset (Fin 1)) = {0} from rfl, bigSep_singleton, bigSep_singleton]
  exact BI.Entails.refl _

/-! ## The call as a kernel region -/

/-- No prefetched table. -/
abbrev adm : (p : Fin 1) → (pcfgs (F := F) p).Adm := fun p => (cfgs p).toPCfg_adm

/-- What rides beside the arrays: the TensorCore owing nothing (the one SparseCore call is behind it), its recorded waits
    within the levels of that call. -/
abbrev Rw (c : Dev nD) : sProp 𝕄 :=
  iprop(∃ W, ⌜(K (F := F)).WBelow (SparseCore.T c) W 8⌝ ∗ owes (SparseCore.T c) (0 : CellTallies nD τ sig (HIx 1)) W)

/-- The arrays after the call, by reference. -/
abbrev VDr (c : Dev nD) (b : Ref sig .tc) : Buf (Elt F) ((c : Thread nD τ).loc b) := VD m c (Proc.devRef .tc b)

/-- The pipeline's arrays end where `VD` has them: the two inputs as found, the output at `tcOut`. -/
theorem arrAt_VD (c : Dev nD) : ∀ w, (dats m 0 c).arrAt w cfg1.N = VDr m c (Pipeline.arrRef spec1 w)
  | ⟨0, _⟩ => by
    show (dats m 0 c).arrAt 0 cfg1.N = VDr m c (Pipeline.arrRef spec1 0)
    rw [(dats m 0 c).arrAt_in 0 rfl _, A_eq]
    show VC m c rRnd = VD m c rRnd
    unfold VD; rw [Function.update_of_ne (show rRnd ≠ rFull by decide)]
  | ⟨1, _⟩ => by
    show (dats m 0 c).arrAt 1 cfg1.N = VDr m c (Pipeline.arrRef spec1 1)
    rw [(dats m 0 c).arrAt_in 1 rfl _, A_eq]
    show VC m c rX = VD m c rX
    unfold VD; rw [Function.update_of_ne (show rX ≠ rFull by decide)]
  | ⟨2, _⟩ => by
    show (dats m 0 c).arrAt 2 cfg1.N = VDr m c (Pipeline.arrRef spec1 2)
    rw [final2]
    show tcOut m c = VD m c rFull
    unfold VD; rw [Function.update_self]

/-- Every other array is where it was. -/
theorem VD_rest (c : Dev nD) (b : Ref sig .tc) (hb : b ∉ Finset.univ.image (Pipeline.arrRef spec1)) : VDr m c b = VCr m c b := by
  show VD m c (Proc.devRef .tc b) = VC m c (Proc.devRef .tc b)
  unfold VD
  rw [Function.update_of_ne]
  intro e
  exact hb (Finset.mem_image.mpr ⟨2, Finset.mem_univ _, (Proc.devRef_injective _ e).symm⟩)

/-- The kernel has no semaphore of its own. -/
theorem ownSemFacts : Pipeline.OwnSemFacts spec1 (Fin.elim0 : Fin 0 → SemLoc sig) := by decide

set_option backward.isDefEq.respectTransparency.types false in
/-- THE REGION: the pipeline's decided layout, no semaphore of the kernel's own, the body obligation; entered from the arrays at
    `VC`, left with them at `VD`. -/
def reg : Pipeline.RegionSeg (pcfgs (F := F)) adm (dats m) none defs₀ 𝒱₀ (K (F := F)).L (K (F := F)).lev 0 where
  win := launch1.win.to₀
  block_pos := launch1.block_pos
  stage_whole := launch1.stage_whole
  K := Fin 0
  osem := Fin.elim0
  ho := ownSemFacts
  hbody c := (body_obligation m c).loose
  hwaits := Pipeline.hwaits_of_owed_zero _ _ _ _ _ _ 0 fun _ _ => rfl
  pre c := iprop(held (SparseCore.T c) SU (VC m c) ∗ Rw c)
  post c := iprop(held (SparseCore.T c) SU (VD m c) ∗ Rw c)
  X _ := iprop(emp)
  Y _ := iprop(emp)
  Z c := (Pipeline.unscopedRest (Ix := HIx 1) (Name := ℕ) (U := UU) (Lvl := ℕ) spec1 c (VCr m c) : sProp 𝕄)
  hentry c := by
    rw [show (held (SparseCore.T c) SU (VC m c) : sProp 𝕄) = unscopedBufs c (VCr m c) from (Pipeline.unscopedBufs_held c _).symm]
    have hsplit := Pipeline.arrays_of_unscopedBufs (pcfgs (F := F)) adm (dats m) launch1.win launch1.arr_whole c
      ((dats m 0 c).share_full fun _ => rfl) (VCr m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr; · iempintro
    iexact Hrest
  hin c := by
    rw [show (dats m 0 c).Φ 0 = (Pipeline.scopedRest (Ix := HIx 1) (Name := ℕ) (U := UU) (Lvl := ℕ) (Val := Elt F) spec1 c : sProp 𝕄) from rfl]
    iintro ⟨-, -, Hr⟩
    iexact Hr
  hout c := by
    rw [show (dats m 0 c).Φ (Fin.last cfg1.N) = (Pipeline.scopedRest (Ix := HIx 1) (Name := ℕ) (U := UU) (Lvl := ℕ) (Val := Elt F) spec1 c : sProp 𝕄) from rfl]
    iintro Hr
    isplitr; · iempintro
    isplitr; · unfold Pipeline.ownSems0; rw [show (Finset.univ : Finset (Fin 0)) = ∅ from rfl, BI.bigSep_empty]; iempintro
    iexact Hr
  hexit c := by
    iintro ⟨Ha, HO, -, HZ⟩
    imodintro
    isplitr [HO]
    · rw [show (held (SparseCore.T c) SU (VD m c) : sProp 𝕄) = unscopedBufs c (VDr m c) from (Pipeline.unscopedBufs_held c _).symm]
      iapply (Pipeline.unscopedBufs_of_arrays (pcfgs (F := F)) adm launch1.win launch1.arr_whole c (dats m)
        ((dats m 0 c).share_full fun _ => rfl) (VCr m c) (VDr m c) _ (arrAt_VD m c) (VD_rest m c))
      isplitl [Ha]; · iexact Ha
      iexact HZ
    · unfold Pipeline.Dat.owesAt Pipeline.owesWithin
      icases HO with ⟨%W, %hW, HO⟩; iexists W; isplitr
      · ipureintro
        intro p hp
        rcases hW (Finset.mem_coe.mpr hp) with h | ⟨w, s, rfl⟩
        · exact h
        · exact Nat.zero_le _
      iexact HO

theorem reg_pre (c : Dev nD) : (reg m).pre c = iprop(held (SparseCore.T c) SU (VC m c) ∗ Rw (F := F) c) := rfl
theorem reg_post (c : Dev nD) : (reg m).post c = iprop(held (SparseCore.T c) SU (VD m c) ∗ Rw (F := F) c) := rfl

/-- After its one SparseCore call the TensorCore owes no start signal. -/
theorem Otc_one (d : Dev nD) : (K (F := F)).Otc d 1 = 0 := by
  unfold SparseCore.Cfg.Otc
  simp

/-- The TensorCore's handshake state after the call, with its debt taken out and put back. -/
theorem tcSt_open (d : Dev nD) : (K (F := F)).tcSt EH d 1 ⊢ iprop(Rw (F := F) d ∗ (Rw (F := F) d -∗ (K (F := F)).tcSt EH d 1)) := by
  unfold SparseCore.Cfg.tcSt
  rw [Otc_one]
  iintro ⟨HO, Hrest⟩
  isplitl [HO]; · iexact HO
  iintro HO
  isplitl [HO]; · iexact HO
  iexact Hrest

set_option backward.isDefEq.respectTransparency.types false in
/-- The pipelined call, as a step of @main: from the arrays at `VC` to the arrays at `VD`. -/
theorem tc_call (κ : GSem nD τ sig → ℕ) (d : Dev nD) (Φ : PUnit → sProp 𝕄) :
    iprop((K (F := F)).ctx EH (PM m) κ ∗ (K (F := F)).tcSt EH d 1 ∗ boundary (SparseCore.T d) ∗ held (SparseCore.T d) SU (VC m d) ∗ tcG d
        ∗ (iprop((K (F := F)).tcSt EH d 1 ∗ boundary (SparseCore.T d) ∗ held (SparseCore.T d) SU (VD m d)) -∗ Φ ⟨⟩))
      ⊢ wp frame (wpE ((K (F := F)).defs (D (F := F))) 𝒱 (SparseCore.T d) none) Set.univ
          (Prog.lift (.customCall (SparseCore.inner (Pipeline.entry 0)) ())) Φ := by
  iintro ⟨#Hctx, Hst, Hb, Hheld, HG, Hk⟩
  ihave Hst' := (tcSt_open d) $$ Hst
  icases Hst' with ⟨HO, Hback⟩
  ihave Hlev := (SparseCore.Cfg.ctx_levAts κ) $$ Hctx
  rw [show (Prog.lift (.customCall (SparseCore.inner (Pipeline.entry 0)) ()) : Prog (TpuEff nD τ sig (Elt F) (SparseCore.Sig (ΛP (F := F)) 1) (SparseCore.T d).2) PUnit)
      = SparseCore.liftProg (Prog.lift (.customCall (Pipeline.entry 0) ())) from rfl]
  iapply ((K (F := F)).wp_liftProg (D (F := F)) 𝒱 (SparseCore.T d) Set.univ none _ Φ)
  have hw := Pipeline.RegionSeg.wp (pcfgs (F := F)) adm (dats m) none cellOf_inj (ER (F := F)) defs₀ 𝒱₀ (K (F := F)).L (K (F := F)).lev (reg m) d none
    (fun _ h => nomatch h) (fun _ => .ret ⟨⟩) Φ
  rw [reg_pre, reg_post] at hw
  iapply hw
  isplitl [Hk Hback]
  · iintro ⟨Hb, Hheld, HO⟩
    rw [wp_ret]; imodintro
    iapply Hk
    isplitl [Hback HO]; · iapply Hback; iexact HO
    isplitl [Hb]; · iexact Hb
    iexact Hheld
  isplitl [Hb]; · iexact Hb
  isplitl [Hheld HO]
  · isplitl [Hheld]; · iexact Hheld
    iexact HO
  isplitr; · iexact Hlev
  unfold tcG
  iexact HG

end Cert.Proof.KI

end
-- ==== Proof.Main.lean ====
/-
  @main on a device's TensorCore: the four re-layouts of the input, the SparseCore call (the three flat arrays handed
  to the two SparseCores and taken back), the four operations between the calls, the pipelined TensorCore call
  (21 grid points; the random numbers staged whole once, the transposed input and the output staged block by block
  through two buffers each), and the final transpose. The arguments end unchanged and the result at `RES`.
-/
import proofs.«205805_g86552180949287_cont_9to1_m_41_25_alg».proof.Proof.MainCall

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays the SparseCore call and the claim name, out of all the TensorCore's arrays -/

theorem mem_SU (b : Ref sig .tc) (h : (Proc.devRef (τ := τ) .tc b).isScoped = false) : Proc.devRef .tc b ∈ SU :=
  Finset.mem_filter.mpr ⟨StableHlo.devRef_mem_tcRefs b, by rw [h]; exact Bool.false_ne_true⟩

abbrev T3 : Finset (DevRef τ sig) := {rFlt, rRnd, rOut}
abbrev T3' : Finset (DevRef τ sig) := {rImg, rRnd, rRes}

theorem T3_sub : T3 ⊆ SU := by
  intro b hb
  simp only [Finset.mem_insert, Finset.mem_singleton] at hb
  rcases hb with rfl | rfl | rfl <;> exact mem_SU _ (by decide)
theorem T3'_sub : T3' ⊆ SU := by
  intro b hb
  simp only [Finset.mem_insert, Finset.mem_singleton] at hb
  rcases hb with rfl | rfl | rfl <;> exact mem_SU _ (by decide)

/-- Before the SparseCore call: the three flat arrays it concerns, and the rest. -/
theorem held_VA (d : Dev nD) :
    (held (SparseCore.T d) SU (VA m d) : sProp 𝕄)
      = iprop(((fltLoc d ↦{fullShare} flOf m d) ∗ (rndLoc d ↦{fullShare} rdOf m d) ∗ outLoc d ↦{fullShare} o0Of m d)
          ∗ held (SparseCore.T d) (SU \ T3) (VA m d)) := by
  rw [StableHlo.held_sub_split (SparseCore.T d) T3_sub (VA m d)]
  congr 1
  unfold held T3
  rw [SparseCore.bigSep_insert' (by decide), SparseCore.bigSep_insert' (by decide), bigSep_singleton, VA_rRnd, VA_rOut]
  rfl

/-- After it: the same with the flat output at `v4Final`, which is the valuation `VB`. -/
theorem held_VB (d : Dev nD) :
    (held (SparseCore.T d) SU (VB m d) : sProp 𝕄)
      = iprop(((fltLoc d ↦{fullShare} flOf m d) ∗ (rndLoc d ↦{fullShare} rdOf m d) ∗ outLoc d ↦{fullShare} v4Final m d)
          ∗ held (SparseCore.T d) (SU \ T3) (VA m d)) := by
  rw [StableHlo.held_sub_split (SparseCore.T d) T3_sub (VB m d)]
  congr 1
  · unfold held T3
    rw [SparseCore.bigSep_insert' (by decide), SparseCore.bigSep_insert' (by decide), bigSep_singleton]
    unfold VB
    rw [Function.update_of_ne (show rFlt ≠ rOut by decide), Function.update_of_ne (show rRnd ≠ rOut by decide), Function.update_self, VA_rRnd]
    rfl

/-- At the end: the two arguments and the result, and the rest. -/
theorem held_VE (d : Dev nD) :
    (held (SparseCore.T d) SU (VE m d) : sProp 𝕄)
      = iprop(((imgLoc d ↦{fullShare} m (imgLoc d)) ∗ (rndLoc d ↦{fullShare} m (rndLoc d)) ∗ resLoc d ↦{fullShare} RES m d)
          ∗ held (SparseCore.T d) (SU \ T3') (VE m d)) := by
  rw [StableHlo.held_sub_split (SparseCore.T d) T3'_sub (VE m d)]
  congr 1
  unfold held T3'
  rw [SparseCore.bigSep_insert' (by decide), SparseCore.bigSep_insert' (by decide), bigSep_singleton, VE_rImg, VE_rRnd]
  rfl

/-! ## Each host operation stays within the unscoped arrays -/

theorem sub0 : (op0 (F := F)).bufs ⊆ SU := Pipeline.sub_ucRefs _ (StableHlo.unary_bufs_sub ..)
theorem sub1 : (op1 (F := F)).bufs ⊆ SU := Pipeline.sub_ucRefs _ (StableHlo.reshape_bufs_sub ..)
theorem sub2 : (op2 (F := F)).bufs ⊆ SU := Pipeline.sub_ucRefs _ (StableHlo.unary_bufs_sub ..)
theorem sub3 : (op3 (F := F)).bufs ⊆ SU := Pipeline.sub_ucRefs _ (StableHlo.reshape_bufs_sub ..)
theorem sub5 : (op5 (F := F)).bufs ⊆ SU := Pipeline.sub_ucRefs _ (StableHlo.reshape_bufs_sub ..)
theorem sub6 : (op6 (F := F)).bufs ⊆ SU := Pipeline.sub_ucRefs _ (StableHlo.unary_bufs_sub ..)
theorem sub7 : (op7 (F := F)).bufs ⊆ SU := Pipeline.sub_ucRefs _ (StableHlo.reshape_bufs_sub ..)
theorem sub8 : (op8 (F := F)).bufs ⊆ SU := Pipeline.sub_ucRefs _ (StableHlo.unary_bufs_sub ..)
theorem sub9 : (op9 (F := F)).bufs ⊆ SU := Pipeline.sub_ucRefs _ (StableHlo.unary_bufs_sub ..)

/-- The valuations of `Spec` are the operations' results in turn. -/
theorem heldA_eq (d : Dev nD) : (held (SparseCore.T d) SU (op3.result (op2.result (op1.result (op0.result (V0 m d))))) : sProp 𝕄) = held (SparseCore.T d) SU (VA m d) := rfl
theorem heldC_eq (d : Dev nD) : (held (SparseCore.T d) SU (op8.result (op7.result (op6.result (op5.result (VB m d))))) : sProp 𝕄) = held (SparseCore.T d) SU (VC m d) := rfl
theorem heldE_eq (d : Dev nD) : (held (SparseCore.T d) SU (op9.result (VD m d)) : sProp 𝕄) = held (SparseCore.T d) SU (VE m d) := rfl

/-- @main on device `d`'s TensorCore. -/
theorem hmain (κ : GSem nD τ sig → ℕ) (d : Dev nD) :
    iprop((K (F := F)).ctx EH (PM m) κ ∗ (K (F := F)).tcSt EH d 0 ∗ (K (F := F)).tcRes m ρ d ∗ tcG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SU (V0 m d) from
    Pipeline.unscopedBufs_held d (V0 m d)]
  simp only [main, wp_bind, wp_pure]
  iintro ⟨#Hctx, Hst, ⟨Hb, Hheld, -, -⟩, HG⟩
  -- the four re-layouts of the input
  iapply (wp_hlo_within 𝒱 (SparseCore.T d) none Set.univ (op := op0) (S := SU) sub0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := SU) sub1 (V := op0.result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := SU) sub2 (V := op1.result (op0.result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := SU) sub3 (V := op2.result (op1.result (op0.result (V0 m d))))) $$ [Hb Hheld]
  · isplitl [Hb]; · iexact Hb
    iexact Hheld
  iintro ⟨Hb, Hheld⟩
  rw [wp_ret]; imodintro
  -- the SparseCore call: the three flat arrays to the two SparseCores and back
  ihave Hheld := (Entails.of_eq (heldA_eq m d)) $$ Hheld
  ihave Hh := (Entails.of_eq (held_VA m d)) $$ Hheld
  icases Hh with ⟨H3, Hrest⟩
  ihave Hs := (sc_split m d) $$ H3
  icases Hs with ⟨Hgo, Hkept⟩
  iapply ((K (F := F)).wp_run (D (F := F)) 𝒱 (EH := EH) (P := PM m) κ d 0) $$ [Hst Hgo Hb Hrest Hkept HG]
  isplitr; · iexact Hctx
  isplitl [Hst]; · iexact Hst
  isplitl [Hgo]; · iexact Hgo
  iintro ⟨Hst, Hdn⟩
  ihave H3 := (sc_join m d) $$ [Hdn Hkept]
  · isplitl [Hdn]; · iexact Hdn
    iexact Hkept
  ihave Hheld := (Entails.of_eq (held_VB m d).symm) $$ [H3 Hrest]
  · isplitl [H3]; · iexact H3
    iexact Hrest
  -- the four operations between the calls
  iapply (wp_hlo_within 𝒱 (SparseCore.T d) none Set.univ (op := op5) (S := SU) sub5 (V := VB m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := SU) sub6 (V := op5.result (VB m d))) $$ [Hb Hheld]
  · isplitl [Hb]; · iexact Hb
    iexact Hheld
  iintro ⟨Hb, Hheld⟩
  rw [wp_ret]; imodintro
  iapply (wp_hlo_within 𝒱 (SparseCore.T d) none Set.univ (op := op7) (S := SU) sub7 (V := op6.result (op5.result (VB m d)))) $$ [Hb Hheld]
  · isplitl [Hb]; · iexact Hb
    iexact Hheld
  iintro ⟨Hb, Hheld⟩
  rw [wp_ret]; imodintro
  iapply (wp_hlo_within 𝒱 (SparseCore.T d) none Set.univ (op := op8) (S := SU) sub8 (V := op7.result (op6.result (op5.result (VB m d))))) $$ [Hb Hheld]
  · isplitl [Hb]; · iexact Hb
    iexact Hheld
  iintro ⟨Hb, Hheld⟩
  rw [wp_ret]; imodintro
  -- the pipelined call
  ihave Hheld := (Entails.of_eq (heldC_eq m d)) $$ Hheld
  iapply (tc_call m κ d) $$ [Hst Hb Hheld HG]
  isplitr; · iexact Hctx
  isplitl [Hst]; · iexact Hst
  isplitl [Hb]; · iexact Hb
  isplitl [Hheld]; · iexact Hheld
  isplitl [HG]; · iexact HG
  iintro ⟨Hst, Hb, Hheld⟩
  -- the final transpose
  iapply (wp_hlo_within 𝒱 (SparseCore.T d) none Set.univ (op := op9) (S := SU) sub9 (V := VD m d)) $$ [Hb Hheld]
  · isplitl [Hb]; · iexact Hb
    iexact Hheld
  iintro ⟨Hb, Hheld⟩
  ihave Hheld := (Entails.of_eq (heldE_eq m d)) $$ Hheld
  ihave Hh := (Entails.of_eq (held_VE m d)) $$ Hheld
  icases Hh with ⟨HF, -⟩
  rw [wp_ret]; imodintro; imodintro
  isplitl [Hst]; · iexact Hst
  iexact HF

end Cert.Proof.KI

end
-- ==== Proof.Launch.lean ====
/-
  The launch: every weakly fair execution of the device's 35 threads (the TensorCore's @main, two sequencers, 32 vector
  subcores) from a memory with zero semaphores terminates with the two arguments unchanged and the result at `RES`.
  Each vector subcore's task is the tile's body; a SparseCore's share of the call is its sixteen tiles' hands, so it
  splits into them as it stands; the launch element is the handshakes' rounds, the pipelined call's staging cells and a
  unit for the local transfers' counters; @main's final assertion reads the three arrays off the final memory.
-/
import proofs.«205805_g86552180949287_cont_9to1_m_41_25_alg».proof.Proof.Tile
import proofs.«205805_g86552180949287_cont_9to1_m_41_25_alg».proof.Proof.Main

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          (Memref.whole main_v3_scv) (Memref.isWhole_whole _) (Memref.whole main_arg1_scv) (Memref.isWhole_whole _)
          (Memref.whole main_v4_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (PM m) v₀ 0 := by
  intro d c i O W hO _ _
  simp only [show (PM m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (flOf m d) (rdOf m d) (o0Of m d) O W hO).trans (wp_mono frame _ _ fun _ => obl_post)

/-! ## A SparseCore's share is its tiles' hands -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem PM_st (d : Dev nD) (c : Fin ((K (F := F)).nCore 0)) :
    (PM m).st 0 d c = bigSep Finset.univ fun s : Fin 16 => tileGo d (Fin.cast nCore_zero c) s (flOf m d) (rdOf m d) (o0Of m d) := rfl
theorem PM_dn (d : Dev nD) (c : Fin ((K (F := F)).nCore 0)) :
    (PM m).dn 0 d c = bigSep Finset.univ fun s : Fin 16 => tileTd d (Fin.cast nCore_zero c) s (flOf m d) (rdOf m d) := rfl
theorem PM_go (d : Dev nD) (c : Fin ((K (F := F)).nCore 0)) :
    (fun i : Fin ((K (F := F)).nSub 0) => (PM m).go 0 d c i)
      = fun i => (fun s : Fin 16 => tileGo d (Fin.cast nCore_zero c) s (flOf m d) (rdOf m d) (o0Of m d)) (Fin.cast nSub_zero i) := rfl
theorem PM_td (d : Dev nD) (c : Fin ((K (F := F)).nCore 0)) :
    (fun i : Fin ((K (F := F)).nSub 0) => (PM m).td 0 d c i)
      = fun i => (fun s : Fin 16 => tileTd d (Fin.cast nCore_zero c) s (flOf m d) (rdOf m d)) (Fin.cast nSub_zero i) := rfl

omit [FloatOps F] in
theorem split_id (A B : sProp 𝕄) : A ⊢ |={Set.univ}=> iprop(A ∗ (B -∗ B)) := by
  iintro H; imodintro
  isplitl [H]; · iexact H
  iintro H; iexact H

theorem vecSplit : (K (F := F)).VecSplit' (PM m) 0 := by
  intro d c
  rw [PM_st, PM_dn, PM_go, PM_td, bigSep_tasks (F := F) (fun s => tileGo d (Fin.cast nCore_zero c) s (flOf m d) (rdOf m d) (o0Of m d)),
    bigSep_tasks (F := F) (fun s => tileTd d (Fin.cast nCore_zero c) s (flOf m d) (rdOf m d))]
  exact split_id _ _

/-! ## The launch element -/

def u₀ : UU := (initOf (K (F := F)).hsCells (K (F := F)).hsToks, (uK, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => tcG (F := F) d)
        ∗ bigSep Finset.univ fun thr : Thread nD τ => bigSep Finset.univ fun q : Fin 1 => (PM m).x q thr) := by
  unfold u₀
  iintro Hu
  ihave H := (ownU_pair _ _) $$ Hu
  icases H with ⟨HH, HR⟩
  ihave HR' := (own_pair_emb (embR : Emb (UK × Counters) 𝕄) (uK) (1 : Counters)) $$ HR
  icases HR' with ⟨HK, -⟩
  ihave HK' := (Entails.of_eq (show (BI.own (((Emb.inl : Emb UK (UK × Counters)).trans (embR : Emb (UK × Counters) 𝕄)) uK) : sProp 𝕄) = BI.own (ER uK) from rfl)) $$ HK
  imod (fundTc (F := F)) $$ HK' with HG
  imodintro
  isplitl [HH]; · iexact HH
  isplitl [HG]; · iexact HG
  rw [show (bigSep Finset.univ fun thr : Thread nD τ => bigSep Finset.univ fun q : Fin 1 => (PM m).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-! ## The final memory -/

def fq (d : Dev nD) (s' : Phys nD τ sig (Elt F)) : Prop :=
  s'.mem.mem (imgLoc d) = m (imgLoc d) ∧ s'.mem.mem (rndLoc d) = m (rndLoc d) ∧ s'.mem.mem (resLoc d) = RES m d

theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := imgLoc d) (I := Finset.univ) (q := fullShare) (f := m (imgLoc d)))) $$ [HSI Hi]
  · isplitl [HSI] <;> iassumption
  icases H with ⟨%h1, HSI, -⟩
  ihave H := (persistent_entails_right (SI_pointsTo_agree (st := s') (ℓ := rndLoc d) (I := Finset.univ) (q := fullShare) (f := m (rndLoc d)))) $$ [HSI Hx]
  · isplitl [HSI] <;> iassumption
  icases H with ⟨%h2, HSI, -⟩
  ihave H := (SI_pointsTo_agree (st := s') (ℓ := resLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (resLoc c) = RES m c ∧ r.2.mem (imgLoc c) = m (imgLoc c) ∧ r.2.mem (rndLoc c) = m (rndLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PM m) facts v₀
    (fun q hq => match q with | 0 => nomatch hq)
    (fun q _ => match q with | 0 => tileObl m facts)
    (fun q _ => match q with | 0 => SparseCore.Cfg.VecSplit.of_plain (vecSplit m))
    m ρ main (fun d => tcG (F := F) d) (FIN m) (u₀ (F := F)) (sep_elim_left.trans (hu₀ m)) (hmain m ρ) (fq m) (hfin m) (QC m)
    (fun _ h c => ⟨(h c).2.2, (h c).1, (h c).2.1⟩)

end Cert.Proof.KI

end
-- ==== Proof.CommonB.lean ====
/-
  The shared vocabulary of the proof about the kernel program as printed: the program as the SparseCore launch
  theorem sees it, the ghost state (launch handshakes, the pipelined call's staging cells, local-transfer counters),
  the arrays as locations of a device, the partition of the flat array of 77070336 words into 2688 chunks of 28672
  (chunks 1344 … 2687 are the SparseCore half; tile (c, s) owns the 42 chunks from 1344 + 42·(2s + c)), the keep
  mask in the two spellings the program uses, and what the launch hands each vector subcore and takes back.
-/
import proofs.«205805_g86552180949287_cont_9to1_m_41_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«205805_g86552180949287_cont_9to1_m_41_25_alg».proof.Proof.Gen.Kernel
import proofs.«205805_g86552180949287_cont_9to1_m_41_25_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the pipelined call's staging cells, the local transfers' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EH : Emb UH (MT nD τ sig (HIx 1) (Elt F) ℕ UU ℕ) := embL
def ER : Emb UK (MT nD τ sig (HIx 1) (Elt F) ℕ UU ℕ) :=
  (Emb.inl : Emb UK (UK × Counters)).trans (embR : Emb (UK × Counters) (MT nD τ sig (HIx 1) (Elt F) ℕ UU ℕ))
instance ER_landsIn : (ER : Emb UK 𝕄).LandsIn (upEmb : UEmb _ 𝕄) := by unfold ER; infer_instance

/-! ## The arrays, as locations of device `d` -/

abbrev imgLoc (d : Dev nD) : Loc nD τ sig := (SparseCore.T d).loc main_arg0
abbrev rndLoc (d : Dev nD) : Loc nD τ sig := (SparseCore.T d).loc main_arg1
/-- The flat re-laid input the SparseCore call reads, and the flat array it writes. -/
abbrev fltLoc (d : Dev nD) : Loc nD τ sig := (SparseCore.T d).loc main_v3
abbrev outLoc (d : Dev nD) : Loc nD τ sig := (SparseCore.T d).loc main_v4
abbrev resLoc (d : Dev nD) : Loc nD τ sig := (SparseCore.T d).loc main_v9

/-! ## The chunks of the flat array -/

theorem hdivC : 2688 ∣ S77070336.size 0 := ⟨28672, rfl⟩
/-- Chunk `k`: words `28672·k … 28672·k + 28671` of the flat array. -/
abbrev chunk (k : Fin 2688) : Rect S77070336 := Rect.part (s := S77070336) (a₀ := 0) hdivC k
abbrev chunkSet (k : Fin 2688) : Finset S77070336.Idx := (chunk k).set

/-- Vector subcore `s` of SparseCore `c` is worker `2s + c`; its `i`-th chunk. -/
def tileChunk (c : Fin 2) (s : Fin 16) (i : Fin 42) : Fin 2688 := ⟨1344 + 42 * (2 * s.val + c.val) + i.val, by omega⟩

/-! ## The keep mask, in the two spellings of the program -/

section Mask
variable [FloatOps F]

/-- A group of sixteen random numbers to its multiplier, as the SparseCore body spells it: `1` where the number is at
    least the threshold word, `0` elsewhere, by a select between two broadcast constants. -/
def keepSel (v : FVec F S16 .f32) : FVec F S16 .f32 :=
  select (cmpf .oge v (broadcast S16 (Scalar.ofBits .f32 0x3DCCCCCD#32)))
    (broadcast S16 (Scalar.ofBits .f32 0x3F800000#32)) (broadcast S16 (Scalar.ofBits .f32 0x00000000#32))

/-- Position `p` of the flat array belongs to frame `128·((p / 1024) mod 4) + p mod 128`: lane `p mod 16` of group
    `8·((p / 1024) mod 4) + (p mod 128) / 16` of the random numbers. -/
def grpOf (p : ℕ) : ℕ := 8 * ((p / 1024) % 4) + (p % 128) / 16
theorem grpOf_lt (p : ℕ) : 16 * grpOf p + 16 ≤ 512 := by unfold grpOf; omega

/-- The sixteen random numbers of group `g`. -/
def rndGrp (rd : (⟨S512, .f32⟩ : BufTy).Contents (Elt F)) (g : ℕ) (hg : 16 * g + 16 ≤ 512) : FVec F S16 .f32 :=
  fun l => rd (ValueIdx.ix1 (⟨16 * g + (l 0).val, by have h16 : (l 0).val < 16 := (l 0).isLt; omega⟩ : Fin 512))

/-- What the SparseCore half holds after the call, as one function of the flat index: the input word times its
    frame's multiplier. -/
def scOut (fl : (⟨S77070336, .f32⟩ : BufTy).Contents (Elt F)) (rd : (⟨S512, .f32⟩ : BufTy).Contents (Elt F)) :
    (⟨S77070336, .f32⟩ : BufTy).Contents (Elt F) :=
  fun j => FloatOps.mulf (fl j) (keepSel (rndGrp rd (grpOf (j 0).val) (grpOf_lt _)) (ValueIdx.ix1 (⟨(j 0).val % 16, Nat.mod_lt _ (by decide)⟩ : Fin 16)))

end Mask

/-! ## What the launch hands a vector subcore and takes back -/

section Pay
variable [FloatOps F]

/-- Worker number `2s + c` of vector subcore `s` of SparseCore `c`, as an index of the 32 read shares. -/
def widx (c : Fin 2) (s : Fin 16) : Fin 32 := ⟨2 * s.val + c.val, by omega⟩

/-- A tile's hand at its start: a read share of the flat input and of the random numbers (nobody writes them during the
    call), and its own 42 chunks of the flat output, whole, at the contents `o0` the call found there. -/
def tileGo (d : Dev nD) (c : Fin 2) (s : Fin 16) (fl : Buf (Elt F) (fltLoc d)) (rd : Buf (Elt F) (rndLoc d)) (o0 : Buf (Elt F) (outLoc d)) : sProp 𝕄 :=
  iprop((fltLoc d ↦{Transfers.shareTok fullShare 32 (widx c s)} fl) ∗ (rndLoc d ↦{Transfers.shareTok fullShare 32 (widx c s)} rd)
    ∗ bigSep Finset.univ fun i : Fin 42 => outLoc d ↦[chunkSet (tileChunk c s i)]{fullShare} o0)

/-- A tile's hand at its end: the same read shares, and its 42 chunks at the masked input (`scOut`). -/
def tileTd (d : Dev nD) (c : Fin 2) (s : Fin 16) (fl : Buf (Elt F) (fltLoc d)) (rd : Buf (Elt F) (rndLoc d)) : sProp 𝕄 :=
  iprop((fltLoc d ↦{Transfers.shareTok fullShare 32 (widx c s)} fl) ∗ (rndLoc d ↦{Transfers.shareTok fullShare 32 (widx c s)} rd)
    ∗ bigSep Finset.univ fun i : Fin 42 => outLoc d ↦[chunkSet (tileChunk c s i)]{fullShare} (scOut fl rd : Buf (Elt F) (outLoc d)))

variable (fl : (d : Dev nD) → Buf (Elt F) (fltLoc d)) (rd : (d : Dev nD) → Buf (Elt F) (rndLoc d)) (o0 : (d : Dev nD) → Buf (Elt F) (outLoc d))

/-- The one call: a SparseCore takes its sixteen tiles' hands and gives them back; nothing else is carried. -/
def P : (K (F := F)).Pay (nD := nD) (Val := Elt F) (Name := ℕ) (U := UU) where
  st := fun q d c => match q with | 0 => bigSep Finset.univ fun s : Fin 16 => tileGo d (Fin.cast nCore_zero c) s (fl d) (rd d) (o0 d)
  dn := fun q d c => match q with | 0 => bigSep Finset.univ fun s : Fin 16 => tileTd d (Fin.cast nCore_zero c) s (fl d) (rd d)
  go := fun q d c i => match q with | 0 => tileGo d (Fin.cast nCore_zero c) (Fin.cast nSub_zero i) (fl d) (rd d) (o0 d)
  td := fun q d c i => match q with | 0 => tileTd d (Fin.cast nCore_zero c) (Fin.cast nSub_zero i) (fl d) (rd d)
  x := fun _ _ => iprop(emp)

instance P_storable : (P (F := F) fl rd o0).IsStorable where
  st q d c := match q with | 0 => by unfold P tileGo; infer_instance
  dn q d c := match q with | 0 => by unfold P tileTd; infer_instance
  go q d c i := match q with | 0 => by unfold P tileGo; infer_instance
  td q d c i := match q with | 0 => by unfold P tileTd; infer_instance

end Pay

end Cert.Proof.KB

end
-- ==== Proof.TileBaseB.lean ====
/-
  The resources of one vector subcore's task: its four scratch buffers and seven semaphores taken out of what a
  subcore owns, the arrays as the subcore's memrefs address them, and the chunk a slice of the flat array names.
-/
import proofs.«205805_g86552180949287_cont_9to1_m_41_25_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The SparseCore and the vector subcore of a grid point, as the machine's and as the partition's indices. -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cC (L : grid0.Coords) : Fin 2 := Fin.cast bound_zero (L 0)
abbrev sC (L : grid0.Coords) : Fin 16 := Fin.cast bound_one (L 1)

section Res

variable (d : Dev nD) (L : grid0.Coords)

/-- The semaphore cell of one of the task's DMA semaphores. -/
abbrev cellOf (sm : DmaSems sig S_) : GSem nD τ sig := (V d (cV L) (jV L), .dma sm.sem)

/-- The task's seven cells: the scoped one of the first copy, three for the fetches, three for the write-outs. -/
def tileCells : Finset (GSem nD τ sig) :=
  {cellOf d L cc0_scoped0, cellOf d L cc0_scratch4, cellOf d L cc0_scratch5, cellOf d L cc0_scratch6,
    cellOf d L cc0_scratch7, cellOf d L cc0_scratch8, cellOf d L cc0_scratch9}

omit [FloatOps F] in
theorem tileCells_sub : tileCells d L ⊆ ownCells (V d (cV L) (jV L)) := by
  intro g hg
  unfold tileCells at hg
  simp only [Finset.mem_insert, Finset.mem_singleton] at hg
  rcases hg with rfl | rfl | rfl | rfl | rfl | rfl | rfl <;> exact mem_ownCells.mpr ⟨rfl, show (SemLoc.dma _ : SemLoc sig).isScoped .scVector = true by decide⟩

omit [FloatOps F] in
theorem ownSems0_V :
    (ownSems0 (V d (cV L) (jV L)) : sProp 𝕄)
      = iprop((semVal (cellOf d L cc0_scoped0) 0 ∗ semVal (cellOf d L cc0_scratch4) 0 ∗ semVal (cellOf d L cc0_scratch5) 0
          ∗ semVal (cellOf d L cc0_scratch6) 0 ∗ semVal (cellOf d L cc0_scratch7) 0 ∗ semVal (cellOf d L cc0_scratch8) 0
          ∗ semVal (cellOf d L cc0_scratch9) 0)
          ∗ bigSep (ownCells (V d (cV L) (jV L)) \ tileCells d L) fun g => semVal g 0) := by
  unfold SparseCore.Cfg.ownSems0
  rw [SparseCore.bigSep_sdiff_split' (tileCells_sub d L)]
  unfold tileCells
  rw [SparseCore.bigSep_insert' (by simp only [Finset.mem_insert, Finset.mem_singleton, Prod.mk.injEq, true_and]; decide),
    SparseCore.bigSep_insert' (by simp only [Finset.mem_insert, Finset.mem_singleton, Prod.mk.injEq, true_and]; decide),
    SparseCore.bigSep_insert' (by simp only [Finset.mem_insert, Finset.mem_singleton, Prod.mk.injEq, true_and]; decide),
    SparseCore.bigSep_insert' (by simp only [Finset.mem_insert, Finset.mem_singleton, Prod.mk.injEq, true_and]; decide),
    SparseCore.bigSep_insert' (by simp only [Finset.mem_insert, Finset.mem_singleton, Prod.mk.injEq, true_and]; decide),
    SparseCore.bigSep_insert' (by simp only [Finset.mem_singleton, Prod.mk.injEq, true_and]; decide), bigSep_singleton]

/-- The task's four scratch buffers, as references of the subcore. -/

def tileRefs : Finset (DevRef τ sig) :=
  {(Proc.scVector (cV L) (jV L)).devRef cc0_scratch0, (Proc.scVector (cV L) (jV L)).devRef cc0_scratch1,
    (Proc.scVector (cV L) (jV L)).devRef cc0_scratch2, (Proc.scVector (cV L) (jV L)).devRef cc0_scratch3}

omit [FloatOps F] in
theorem tileRefs_sub : tileRefs L ⊆ ownRefs (τ := τ) (.scVector (cV L) (jV L)) := by
  intro g hg
  unfold tileRefs at hg
  simp only [Finset.mem_insert, Finset.mem_singleton] at hg
  rcases hg with rfl | rfl | rfl | rfl <;> exact SparseCore.Cfg.mem_ownRefs_of_owner (p := Proc.scVector (cV L) (jV L)) rfl

omit [FloatOps F] in
theorem devRef_ne {a b : Ref sig .scVector} (h : a ≠ b) :
    (Proc.scVector (cV L) (jV L)).devRef a ≠ (Proc.scVector (cV L) (jV L)).devRef b :=
  fun e => h (Proc.devRef_injective _ e)

omit [FloatOps F] in
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f))
          ∗ bigSep (ownRefs (τ := τ) (.scVector (cV L) (jV L)) \ tileRefs L) fun b => iprop(∃ f, ((d, b) : Loc nD τ sig) ↦{fullShare} f)) := by
  unfold SparseCore.Cfg.ownBufs
  refine (SparseCore.bigSep_sdiff_split' (tileRefs_sub L)).trans ?_
  unfold tileRefs
  rw [SparseCore.bigSep_insert' (by
      simp only [Finset.mem_insert, Finset.mem_singleton, not_or]
      exact ⟨devRef_ne L (by decide), devRef_ne L (by decide), devRef_ne L (by decide)⟩),
    SparseCore.bigSep_insert' (by
      simp only [Finset.mem_insert, Finset.mem_singleton, not_or]
      exact ⟨devRef_ne L (by decide), devRef_ne L (by decide)⟩),
    SparseCore.bigSep_insert' (by
      simp only [Finset.mem_singleton]
      exact devRef_ne L (by decide)), bigSep_singleton]

end Res

section Chunks

variable (d : Dev nD) (L : grid0.Coords)

/-- The chunk number, among the tile's 42, that write-out `r` of trip `t` goes to. -/
def chunkIx (t : Fin k0_t1_loop.trips) (r : Fin 3) : Fin 42 :=
  ⟨3 * t.val + r.val, by have h : t.val < 14 := t.isLt; have := r.isLt; omega⟩

/-- The rectangle the program slices the flat arrays at for chunk `r` of trip `t`. -/
abbrev oRect (t : Fin k0_t1_loop.trips) (r : Fin 3) : Rect S77070336 :=
  Rect.unit (s := S77070336) (k0_off2 L t (BitVec.ofNat 32 r.val)) S28672.size (k0_off2_inb L t r)

omit [FloatOps F] in
/-- That rectangle is chunk `1344 + 42·(2s + c) + 3t + r` of the partition into 2688. -/
theorem oRect_eq (t : Fin k0_t1_loop.trips) (r : Fin 3) : oRect L t r = chunk (tileChunk (cC L) (sC L) (chunkIx t r)) := by
  unfold oRect chunk Rect.part Rect.block
  congr 1 <;> funext a
  · rw [k0_off2_eq]
    match a with
    | 0 =>
      simp [Shape.partIx, Shape.partSize, tileChunk, chunkIx]
      omega
  · match a with
    | 0 => simp [Shape.partSize]

/-- The slice of the flat output the program writes chunk `r` of trip `t` to. -/
abbrev oSl (t : Fin k0_t1_loop.trips) (r : Fin 3) : Memref sig .scVector .hbm S28672 .f32 :=
  (Memref.whole main_v4_scv : Memref sig .scVector .hbm S77070336 .f32).slice (oRect L t r) (fun _ => rfl)

omit [FloatOps F] in
theorem set_oSl (t : Fin k0_t1_loop.trips) (r : Fin 3) : (oSl L t r).view.set = chunkSet (tileChunk (cC L) (sC L) (chunkIx t r)) := by
  show ((View.whole main_v4_scv).slice (oRect L t r)).set = _
  rw [View.set_slice_whole, oRect_eq]

omit [FloatOps F] in
/-- A chunk of the flat output as the write-out's destination memref addresses it. -/
theorem pts_oSl (t : Fin k0_t1_loop.trips) (r : Fin 3) (f : Buf (Elt F) (outLoc d)) :
    ((oSl L t r).view.loc (V d (cV L) (jV L)) ↦[(oSl L t r).view.set]{fullShare} f : sProp 𝕄)
      = outLoc d ↦[chunkSet (tileChunk (cC L) (sC L) (chunkIx t r))]{fullShare} f := by
  rw [set_oSl]

end Chunks

end Cert.Proof.KB

end
-- ==== Proof.TileInvB.lean ====
/-
  What the outer loop of a vector subcore's task keeps between trips, and the bookkeeping it rests on: the arrays and
  scratch buffers as the subcore's memrefs address them, a buffer's fetch outstanding or at rest, the three chunks a trip
  writes taken out of the family of 42, and the trip's conditions decided by the trip number.
-/
import proofs.«205805_g86552180949287_cont_9to1_m_41_25_alg».proof.Proof.TileBaseB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem pts_fl (d : Dev nD) (L : grid0.Coords) (q : PosShare TreeShare) (f : Buf (Elt F) (fltLoc d)) :
    ((Memref.whole main_v3_scv : Memref sig .scVector .hbm S77070336 .f32).view.loc (V d (cV L) (jV L)) ↦{q} f : sProp 𝕄) = fltLoc d ↦{q} f := by
  first | rfl | simp only [Memref.view_whole, View.set_whole]
omit [FloatOps F] in
theorem pts_rd (d : Dev nD) (L : grid0.Coords) (q : PosShare TreeShare) (f : Buf (Elt F) (rndLoc d)) :
    ((Memref.whole main_arg1_scv : Memref sig .scVector .hbm S512 .f32).view.loc (V d (cV L) (jV L)) ↦{q} f : sProp 𝕄) = rndLoc d ↦{q} f := by
  first | rfl | simp only [Memref.view_whole, View.set_whole]
omit [FloatOps F] in
theorem pts_s0 (d : Dev nD) (L : grid0.Coords) (f : Buf (Elt F) ((V d (cV L) (jV L)).loc cc0_scratch0)) :
    ((Memref.whole cc0_scratch0 : Memref sig .scVector .vmem S512 .f32).view.loc (V d (cV L) (jV L)) ↦{fullShare} f : sProp 𝕄) = (V d (cV L) (jV L)).loc cc0_scratch0 ↦{fullShare} f := rfl
omit [FloatOps F] in
theorem pts_s1 (d : Dev nD) (L : grid0.Coords) (f : Buf (Elt F) ((V d (cV L) (jV L)).loc cc0_scratch1)) :
    ((Memref.whole cc0_scratch1 : Memref sig .scVector .vmem S28672 .f32).view.loc (V d (cV L) (jV L)) ↦{fullShare} f : sProp 𝕄) = (V d (cV L) (jV L)).loc cc0_scratch1 ↦{fullShare} f := rfl
omit [FloatOps F] in
theorem pts_s2 (d : Dev nD) (L : grid0.Coords) (f : Buf (Elt F) ((V d (cV L) (jV L)).loc cc0_scratch2)) :
    ((Memref.whole cc0_scratch2 : Memref sig .scVector .vmem S28672 .f32).view.loc (V d (cV L) (jV L)) ↦{fullShare} f : sProp 𝕄) = (V d (cV L) (jV L)).loc cc0_scratch2 ↦{fullShare} f := rfl
omit [FloatOps F] in
theorem pts_s3 (d : Dev nD) (L : grid0.Coords) (f : Buf (Elt F) ((V d (cV L) (jV L)).loc cc0_scratch3)) :
    ((Memref.whole cc0_scratch3 : Memref sig .scVector .vmem S28672 .f32).view.loc (V d (cV L) (jV L)) ↦{fullShare} f : sProp 𝕄) = (V d (cV L) (jV L)).loc cc0_scratch3 ↦{fullShare} f := rfl

/-- Buffer 1's fetch is outstanding: its flight delivers the buffer at some contents and the lent elements of the read
    token; the token's other elements are held beside it. -/
def fetching0 (d : Dev nD) (L : grid0.Coords) (fl : Buf (Elt F) (fltLoc d)) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch1)),
    Transfers.Flight countersEmb (V d (cV L) (jV L)) (SemLoc.dma cc0_scratch4.sem) default 917504
        iprop(((Memref.whole cc0_scratch1 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 0)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 0)} fl))

/-- Buffer 1 at rest: whole at some contents, its fetch cell at zero, its read token whole. -/
def idle0 (d : Dev nD) (L : grid0.Coords) (fl : Buf (Elt F) (fltLoc d)) : sProp 𝕄 :=
  iprop((∃ g : Buf (Elt F) ((V d (cV L) (jV L)).loc cc0_scratch1), (Memref.whole cc0_scratch1 : Memref sig .scVector .vmem S28672 .f32).view.loc (V d (cV L) (jV L)) ↦{fullShare} g)
    ∗ semVal ((V d (cV L) (jV L)), SemLoc.dma cc0_scratch4.sem) 0 ∗ ((Memref.whole main_v3_scv : Memref sig .scVector .hbm S77070336 .f32).view.loc (V d (cV L) (jV L)) ↦{(Transfers.shareTok (Transfers.shareTok fullShare 32 (widx (cC L) (sC L))) 3 0)} fl))

/-- Buffer 2's fetch is outstanding: its flight delivers the buffer at some contents and the lent elements of the read
    token; the token's other elements are held beside it. -/
def fetching1 (d : Dev nD) (L : grid0.Coords) (fl : Buf (Elt F) (fltLoc d)) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch2)),
    Transfers.Flight countersEmb (V d (cV L) (jV L)) (SemLoc.dma cc0_scratch5.sem) default 917504
        iprop(((Memref.whole cc0_scratch2 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 1)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 1)} fl))

/-- Buffer 2 at rest: whole at some contents, its fetch cell at zero, its read token whole. -/
def idle1 (d : Dev nD) (L : grid0.Coords) (fl : Buf (Elt F) (fltLoc d)) : sProp 𝕄 :=
  iprop((∃ g : Buf (Elt F) ((V d (cV L) (jV L)).loc cc0_scratch2), (Memref.whole cc0_scratch2 : Memref sig .scVector .vmem S28672 .f32).view.loc (V d (cV L) (jV L)) ↦{fullShare} g)
    ∗ semVal ((V d (cV L) (jV L)), SemLoc.dma cc0_scratch5.sem) 0 ∗ ((Memref.whole main_v3_scv : Memref sig .scVector .hbm S77070336 .f32).view.loc (V d (cV L) (jV L)) ↦{(Transfers.shareTok (Transfers.shareTok fullShare 32 (widx (cC L) (sC L))) 3 1)} fl))

/-- Buffer 3's fetch is outstanding: its flight delivers the buffer at some contents and the lent elements of the read
    token; the token's other elements are held beside it. -/
def fetching2 (d : Dev nD) (L : grid0.Coords) (fl : Buf (Elt F) (fltLoc d)) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch3)),
    Transfers.Flight countersEmb (V d (cV L) (jV L)) (SemLoc.dma cc0_scratch6.sem) default 917504
        iprop(((Memref.whole cc0_scratch3 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 2)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 2)} fl))

/-- Buffer 3 at rest: whole at some contents, its fetch cell at zero, its read token whole. -/
def idle2 (d : Dev nD) (L : grid0.Coords) (fl : Buf (Elt F) (fltLoc d)) : sProp 𝕄 :=
  iprop((∃ g : Buf (Elt F) ((V d (cV L) (jV L)).loc cc0_scratch3), (Memref.whole cc0_scratch3 : Memref sig .scVector .vmem S28672 .f32).view.loc (V d (cV L) (jV L)) ↦{fullShare} g)
    ∗ semVal ((V d (cV L) (jV L)), SemLoc.dma cc0_scratch6.sem) 0 ∗ ((Memref.whole main_v3_scv : Memref sig .scVector .hbm S77070336 .f32).view.loc (V d (cV L) (jV L)) ↦{(Transfers.shareTok (Transfers.shareTok fullShare 32 (widx (cC L) (sC L))) 3 2)} fl))

/-- Before trip `k` of the outer loop: the three fetches of chunks `3k, 3k+1, 3k+2` are outstanding (after the last trip:
    nothing is), no write-out is, and every one of the tile's 42 chunks of the output is held whole at some contents. -/
def inv (d : Dev nD) (L : grid0.Coords) (fl : Buf (Elt F) (fltLoc d)) (O : CellTallies nD τ sig (HIx 1)) (W : Waits sig (HIx 1))
    (k : Nat) (_ : PUnit) : sProp 𝕄 :=
  iprop(Transfers.MayWaits (V d (cV L) (jV L)) (none : HIx 1) O
    ∗ (if k < 14 then iprop(fetching0 d L fl ∗ fetching1 d L fl ∗ fetching2 d L fl) else iprop(idle0 d L fl ∗ idle1 d L fl ∗ idle2 d L fl))
    ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0
    ∗ (bigSep Finset.univ fun i : Fin 42 => iprop(∃ f : Buf (Elt F) (outLoc d), outLoc d ↦[chunkSet (tileChunk (cC L) (sC L) i)]{fullShare} f))
    ∗ ∃ W', ⌜∀ p ∈ W', p ∈ W ∨ p.2 = none⌝ ∗ owes (V d (cV L) (jV L)) O W')

omit [FloatOps F] in
theorem chunkIx_ne (t : Fin k0_t1_loop.trips) {r r' : Fin 3} (h : r ≠ r') : chunkIx t r ≠ chunkIx t r' :=
  fun e => h (Fin.ext (by have := congrArg Fin.val e; simp only [chunkIx] at this; omega))

omit [FloatOps F] in
/-- Three members of a family over the 42 chunks, and the rest. -/
theorem out_take (Φ : Fin 42 → sProp 𝕄) {i0 i1 i2 : Fin 42} (h01 : i0 ≠ i1) (h02 : i0 ≠ i2) (h12 : i1 ≠ i2) :
    bigSep Finset.univ Φ = iprop(Φ i0 ∗ Φ i1 ∗ Φ i2 ∗ bigSep (((Finset.univ.erase i0).erase i1).erase i2) Φ) := by
  rw [SparseCore.bigSep_erase' (Finset.mem_univ i0),
    SparseCore.bigSep_erase' (Finset.mem_erase.mpr ⟨h01.symm, Finset.mem_univ i1⟩),
    SparseCore.bigSep_erase' (Finset.mem_erase.mpr ⟨h12.symm, Finset.mem_erase.mpr ⟨h02.symm, Finset.mem_univ i2⟩⟩)]

omit [FloatOps F] in
/-- Chunk `0` of trip `t` as the program's write-out names its destination. -/
theorem pts_oSl0 (d : Dev nD) (L : grid0.Coords) (t : Fin k0_t1_loop.trips) (f : Buf (Elt F) (outLoc d)) :
    (((Memref.whole main_v4_scv : Memref sig .scVector .hbm S77070336 .f32).slice (Rect.unit (s := S77070336) (k0_off2 L t 0#32) S28672.size (k0_off2_inb L t 0)) (fun _ => rfl)).view.loc (V d (cV L) (jV L)) ↦[((Memref.whole main_v4_scv : Memref sig .scVector .hbm S77070336 .f32).slice (Rect.unit (s := S77070336) (k0_off2 L t 0#32) S28672.size (k0_off2_inb L t 0)) (fun _ => rfl)).view.set]{fullShare} f : sProp 𝕄)
      = outLoc d ↦[chunkSet (tileChunk (cC L) (sC L) (chunkIx t 0))]{fullShare} f := pts_oSl d L t 0 f

omit [FloatOps F] in
/-- Chunk `1` of trip `t` as the program's write-out names its destination. -/
theorem pts_oSl1 (d : Dev nD) (L : grid0.Coords) (t : Fin k0_t1_loop.trips) (f : Buf (Elt F) (outLoc d)) :
    (((Memref.whole main_v4_scv : Memref sig .scVector .hbm S77070336 .f32).slice (Rect.unit (s := S77070336) (k0_off2 L t 1#32) S28672.size (k0_off2_inb L t 1)) (fun _ => rfl)).view.loc (V d (cV L) (jV L)) ↦[((Memref.whole main_v4_scv : Memref sig .scVector .hbm S77070336 .f32).slice (Rect.unit (s := S77070336) (k0_off2 L t 1#32) S28672.size (k0_off2_inb L t 1)) (fun _ => rfl)).view.set]{fullShare} f : sProp 𝕄)
      = outLoc d ↦[chunkSet (tileChunk (cC L) (sC L) (chunkIx t 1))]{fullShare} f := pts_oSl d L t 1 f

omit [FloatOps F] in
/-- Chunk `2` of trip `t` as the program's write-out names its destination. -/
theorem pts_oSl2 (d : Dev nD) (L : grid0.Coords) (t : Fin k0_t1_loop.trips) (f : Buf (Elt F) (outLoc d)) :
    (((Memref.whole main_v4_scv : Memref sig .scVector .hbm S77070336 .f32).slice (Rect.unit (s := S77070336) (k0_off2 L t 2#32) S28672.size (k0_off2_inb L t 2)) (fun _ => rfl)).view.loc (V d (cV L) (jV L)) ↦[((Memref.whole main_v4_scv : Memref sig .scVector .hbm S77070336 .f32).slice (Rect.unit (s := S77070336) (k0_off2 L t 2#32) S28672.size (k0_off2_inb L t 2)) (fun _ => rfl)).view.set]{fullShare} f : sProp 𝕄)
      = outLoc d ↦[chunkSet (tileChunk (cC L) (sC L) (chunkIx t 2))]{fullShare} f := pts_oSl d L t 2 f

theorem cond1_pos : ∀ k : Fin k0_t1_loop.trips, k.val + 1 < 14 → k0_cond1 k = 1#1 := by decide
theorem cond1_neg : ∀ k : Fin k0_t1_loop.trips, ¬ k.val + 1 < 14 → ¬ k0_cond1 k = 1#1 := by decide

theorem cond2_pos : ∀ k : Fin k0_t1_loop.trips, k.val + 1 < 14 → k0_cond2 k = 1#1 := by decide
theorem cond2_neg : ∀ k : Fin k0_t1_loop.trips, ¬ k.val + 1 < 14 → ¬ k0_cond2 k = 1#1 := by decide

theorem cond3_pos : ∀ k : Fin k0_t1_loop.trips, k.val + 1 < 14 → k0_cond3 k = 1#1 := by decide
theorem cond3_neg : ∀ k : Fin k0_t1_loop.trips, ¬ k.val + 1 < 14 → ¬ k0_cond3 k = 1#1 := by decide

omit [FloatOps F] in
theorem toks3 {ℓ : Loc nD τ sig} (q : PosShare TreeShare) (f : Buf (Elt F) ℓ) :
    (bigSep Finset.univ fun i : Fin 3 => (ℓ ↦{Transfers.shareTok q 3 i} f : sProp 𝕄))
      = iprop((ℓ ↦{Transfers.shareTok q 3 0} f) ∗ (ℓ ↦{Transfers.shareTok q 3 1} f) ∗ (ℓ ↦{Transfers.shareTok q 3 2} f)) := by
  rw [show (Finset.univ : Finset (Fin 3)) = {0, 1, 2} by decide, SparseCore.bigSep_insert' (by decide), SparseCore.bigSep_insert' (by decide), bigSep_singleton]

omit [FloatOps F] in
theorem out_weaken1 (d : Dev nD) (L : grid0.Coords) (o0 : Buf (Elt F) (outLoc d)) (i : Fin 42) :
    (outLoc d ↦[chunkSet (tileChunk (cC L) (sC L) i)]{fullShare} o0 : sProp 𝕄)
      ⊢ iprop(∃ f : Buf (Elt F) (outLoc d), outLoc d ↦[chunkSet (tileChunk (cC L) (sC L) i)]{fullShare} f) := by
  iintro H; iexists _; iexact H

omit [FloatOps F] in
/-- A chunk held at known contents is held at some contents. -/
theorem out_weaken (d : Dev nD) (L : grid0.Coords) (o0 : Buf (Elt F) (outLoc d)) :
    (bigSep Finset.univ fun i : Fin 42 => (outLoc d ↦[chunkSet (tileChunk (cC L) (sC L) i)]{fullShare} o0 : sProp 𝕄))
      ⊢ bigSep Finset.univ fun i : Fin 42 => iprop(∃ f : Buf (Elt F) (outLoc d), outLoc d ↦[chunkSet (tileChunk (cC L) (sC L) i)]{fullShare} f) :=
  bigSep_mono fun i _ => out_weaken1 d L o0 i

end Cert.Proof.KB

end
-- ==== Proof.TileMaskB.lean ====
/-
  A 28672-word buffer with its words multiplied by their frames' multipliers. Word p belongs to multiplier group
  8·((p / 1024) mod 4) + (p mod 128) / 16 and takes that group's lane p mod 16. `maskBlocks … kk` has only the blocks
  (of 4096 words) below kk multiplied: it is the buffer after kk trips of the in-place loop.
-/
import proofs.«205805_g86552180949287_cont_9to1_m_41_25_alg».proof.Proof.CommonB

noncomputable section

namespace Cert.Proof.KB

open Cert.Kernel Cert.Kernel.Gen
open Idealize.ShloMosaic

variable {F : FTy → Type} [FloatOps F]

/-- A buffer of 28672 words with every word multiplied by its frame's multiplier: word `p` by lane `p mod 16` of
    multiplier group `grpOf p`. -/
def maskBuf (mul : ℕ → FVec F S16 .f32) (g : (⟨S28672, .f32⟩ : BufTy).Contents (Elt F)) : (⟨S28672, .f32⟩ : BufTy).Contents (Elt F) :=
  fun p => FloatOps.mulf (g p) (mul (grpOf (p 0).val) (ValueIdx.ix1 (⟨(p 0).val % 16, Nat.mod_lt _ (by decide)⟩ : Fin 16)))

/-- The buffer with the blocks below `kk` multiplied and the others as they were. -/
def maskBlocks (mul : ℕ → FVec F S16 .f32) (g : (⟨S28672, .f32⟩ : BufTy).Contents (Elt F)) (kk : ℕ) : (⟨S28672, .f32⟩ : BufTy).Contents (Elt F) :=
  fun p => if (p 0).val / 4096 < kk then maskBuf mul g p else g p

theorem maskBlocks_zero (mul : ℕ → FVec F S16 .f32) (g : (⟨S28672, .f32⟩ : BufTy).Contents (Elt F)) : maskBlocks mul g 0 = g := by
  funext p; unfold maskBlocks; rw [if_neg (Nat.not_lt_zero _)]

theorem maskBlocks_seven (mul : ℕ → FVec F S16 .f32) (g : (⟨S28672, .f32⟩ : BufTy).Contents (Elt F)) : maskBlocks mul g 7 = maskBuf mul g := by
  funext p; unfold maskBlocks
  have h : (p 0).val < 28672 := (p 0).isLt
  rw [if_pos (by omega)]

end Cert.Proof.KB

end
-- ==== Proof.TileInnerValB.lean ====
/-
  The in-place loops over a 28672-word scratch buffer, word by word. One trip at block k makes 256 stores of sixteen
  words; store number n = 64·tn + 8·lg + sub (tn < 4, lg < 8, sub < 8) goes to words 4096·k + 1024·tn + 128·sub + 16·lg …
  and multiplies them by multiplier group 8·tn + lg. `stC … k n` is the buffer after the first n stores of trip k: the
  blocks below k and the first n sixteens of block k multiplied, the rest as it was. A store of the right product at the
  right place takes `stC … n` to `stC … (n + 1)`; that is all the arithmetic there is.
-/
import proofs.«205805_g86552180949287_cont_9to1_m_41_25_alg».proof.Proof.TileBaseB
import proofs.«205805_g86552180949287_cont_9to1_m_41_25_alg».proof.Proof.TileMaskB
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

/-- A store's place in a trip: (tn, sub, lg). -/
abbrev Tr : Type := Fin 4 × Fin 8 × Fin 8
/-- Its number in program order, its multiplier group, its first word in block `k`. -/
def num (t : Tr) : ℕ := 64 * t.1.val + 8 * t.2.2.val + t.2.1.val
def grp (t : Tr) : ℕ := 8 * t.1.val + t.2.2.val
def offw (k : ℕ) (t : Tr) : ℕ := 4096 * k + 1024 * t.1.val + 128 * t.2.1.val + 16 * t.2.2.val
/-- The number of the store that covers word `p` (in its block). -/
def sno (p : ℕ) : ℕ := 64 * ((p % 4096) / 1024) + 8 * ((p % 128) / 16) + (p % 1024) / 128

theorem in_iff (k : ℕ) (t : Tr) (p : ℕ) : (offw k t ≤ p ∧ p < offw k t + 16) ↔ (p / 4096 = k ∧ sno p = num t) := by
  obtain ⟨a, b, c⟩ := t
  have ha := a.isLt; have hb := b.isLt; have hc := c.isLt
  unfold offw sno num
  dsimp only
  constructor
  · intro h; omega
  · rintro ⟨h1, h2⟩
    have ea : (p % 4096) / 1024 = a.val := by omega
    have ec : (p % 128) / 16 = c.val := by omega
    have eb : (p % 1024) / 128 = b.val := by omega
    omega

theorem grp_of_in (k : ℕ) (t : Tr) (p : ℕ) (h : offw k t ≤ p ∧ p < offw k t + 16) : grpOf p = grp t ∧ p % 16 = p - offw k t := by
  obtain ⟨a, b, c⟩ := t
  have ha := a.isLt; have hb := b.isLt; have hc := c.isLt
  unfold offw at h
  unfold grpOf grp offw
  dsimp only at h ⊢
  omega

/-! ## The three payload shapes of the printed parts -/

/-- A loaded sixteen times a multiplier, as stored; a carried product, as stored; a loaded sixteen times a multiplier, as
    carried to the next part. -/
def payM (m : FVec F S16 .f32) (v : Vec F S16 .f32) : FVec F S16 .f32 :=
  shapeCast S16 (mulf (shapeCast S16 v shapeCasts_S16_S16) m) shapeCasts_S16_S16
def payS (x : FVec F S16 .f32) : FVec F S16 .f32 := shapeCast S16 x shapeCasts_S16_S16
def payP (m : FVec F S16 .f32) (v : Vec F S16 .f32) : FVec F S16 .f32 := mulf (shapeCast S16 v shapeCasts_S16_S16) m

theorem payM_apply (m : FVec F S16 .f32) (v : Vec F S16 .f32) (x : S16.Idx) : payM m v x = FloatOps.mulf (v x) (m x) := by
  unfold payM; rw [shapeCast_self, shapeCast_self]; rfl
theorem payS_eq (x : FVec F S16 .f32) : payS x = x := shapeCast_self _ _
theorem payP_apply (m : FVec F S16 .f32) (v : Vec F S16 .f32) (x : S16.Idx) : payP m v x = FloatOps.mulf (v x) (m x) := by
  unfold payP; rw [shapeCast_self]; rfl

/-! ## The buffer after n stores of trip k -/

def stC (mul : ℕ → FVec F S16 .f32) (g : (⟨S28672, .f32⟩ : BufTy).Contents (Elt F)) (k n : ℕ) : (⟨S28672, .f32⟩ : BufTy).Contents (Elt F) :=
  fun p => if (p 0).val / 4096 < k ∨ ((p 0).val / 4096 = k ∧ sno (p 0).val < n) then maskBuf mul g p else g p

theorem stC_zero (mul : ℕ → FVec F S16 .f32) (g : (⟨S28672, .f32⟩ : BufTy).Contents (Elt F)) (k : ℕ) : stC mul g k 0 = maskBlocks mul g k := by
  funext p; unfold stC maskBlocks
  exact if_congr ⟨fun h => h.elim id fun h => absurd h.2 (Nat.not_lt_zero _), Or.inl⟩ rfl rfl

theorem stC_full (mul : ℕ → FVec F S16 .f32) (g : (⟨S28672, .f32⟩ : BufTy).Contents (Elt F)) (k : ℕ) : stC mul g k 256 = maskBlocks mul g (k + 1) := by
  funext p; unfold stC maskBlocks
  refine if_congr ⟨fun h => ?_, fun h => ?_⟩ rfl rfl
  · rcases h with h | ⟨h, -⟩ <;> omega
  · have : sno (p 0).val < 256 := by unfold sno; omega
    by_cases hk : (p 0).val / 4096 < k
    · exact Or.inl hk
    · exact Or.inr ⟨by omega, this⟩

/-- A word no pending store covers reads as it was: a sixteen whose store number is not below `n`. -/
theorem stC_of_ge (mul : ℕ → FVec F S16 .f32) (g : (⟨S28672, .f32⟩ : BufTy).Contents (Elt F)) (k n : ℕ) (p : S28672.Idx)
    (hk : (p 0).val / 4096 = k) (hn : n ≤ sno (p 0).val) : stC mul g k n p = g p := by
  unfold stC; rw [if_neg]; omega

/-- A store of the right product over the sixteen of store number `n`: the step. -/
theorem stC_step (mul : ℕ → FVec F S16 .f32) (g : (⟨S28672, .f32⟩ : BufTy).Contents (Elt F)) (k : ℕ) (t : Tr)
    (f' : (⟨S28672, .f32⟩ : BufTy).Contents (Elt F))
    (hin : ∀ p : S28672.Idx, offw k t ≤ (p 0).val → (p 0).val < offw k t + 16 → f' p = maskBuf mul g p)
    (hout : ∀ p : S28672.Idx, ¬(offw k t ≤ (p 0).val ∧ (p 0).val < offw k t + 16) → f' p = stC mul g k (num t) p) :
    f' = stC mul g k (num t + 1) := by
  funext p
  by_cases hp : offw k t ≤ (p 0).val ∧ (p 0).val < offw k t + 16
  · rw [hin p hp.1 hp.2]
    have := (in_iff k t _).mp hp
    unfold stC; rw [if_pos (Or.inr ⟨this.1, by omega⟩)]
  · rw [hout p hp]
    have := mt (in_iff k t _).mpr hp
    unfold stC
    refine if_congr ⟨fun h => ?_, fun h => ?_⟩ rfl rfl
    · rcases h with h | ⟨h, h'⟩
      · exact Or.inl h
      · exact Or.inr ⟨h, by omega⟩
    · rcases h with h | ⟨h, h'⟩
      · exact Or.inl h
      · exact Or.inr ⟨h, by omega⟩

/-! ## The multipliers by group number; sequencing with the assertion changing -/

/-- The thirty-two multipliers as a table by group number. -/
def mulTab (v10 v17 v24 v31 v38 v45 v52 v59 v66 v73 v80 v87 v94 v101 v108 v115 v122 v129 v136 v143 v150 v157 v164 v171 v178 v185 v192 v199 v206 v213 v220 v227 : FVec F S16 .f32) : ℕ → FVec F S16 .f32
  | 0 => v10
  | 1 => v17
  | 2 => v24
  | 3 => v31
  | 4 => v38
  | 5 => v45
  | 6 => v52
  | 7 => v59
  | 8 => v66
  | 9 => v73
  | 10 => v80
  | 11 => v87
  | 12 => v94
  | 13 => v101
  | 14 => v108
  | 15 => v115
  | 16 => v122
  | 17 => v129
  | 18 => v136
  | 19 => v143
  | 20 => v150
  | 21 => v157
  | 22 => v164
  | 23 => v171
  | 24 => v178
  | 25 => v185
  | 26 => v192
  | 27 => v199
  | 28 => v206
  | 29 => v213
  | 30 => v220
  | _ => v227

/-- A call, then a continuation from what the call leaves. -/
theorem wp_stepV (d : Dev nD) (L : grid0.Coords) {α β : Type} {P : sProp 𝕄} {R : α → sProp 𝕄}
    {m : Prog (TpuEff nD τ sig (Elt F) Λ₀ (.scVector (cV L) (jV L))) α} {k : α → Prog (TpuEff nD τ sig (Elt F) Λ₀ (.scVector (cV L) (jV L))) β} {Q : β → sProp 𝕄}
    (hm : P ⊢ wp frame (wpE (defs₀ (F := F)) 𝒱₀ (V d (cV L) (jV L)) none) Set.univ m R)
    (hk : ∀ a, R a ⊢ wp frame (wpE (defs₀ (F := F)) 𝒱₀ (V d (cV L) (jV L)) none) Set.univ (k a) Q) :
    P ⊢ wp frame (wpE (defs₀ (F := F)) 𝒱₀ (V d (cV L) (jV L)) none) Set.univ (m >>= k) Q := by
  rw [wp_bind]; exact hm.trans (wp_mono _ _ _ fun a => hk a)

/-- A pure fact beside an assertion is a hypothesis. -/
theorem pure_pre {φ : Prop} {P Q : sProp 𝕄} (h : φ → (P ⊢ Q)) : iprop(⌜φ⌝ ∗ P) ⊢ Q := by
  iintro ⟨%hφ, HP⟩
  iapply (h hφ)
  iexact HP

end Cert.Proof.KB

end
-- ==== Proof.TileValB.lean ====
/-
  The values of a vector subcore's task: a chunk of the flat input as a buffer's contents, the table of the 32 multiplier
  groups, what a fetch lands, what a write-out of a masked chunk leaves on its chunk of the flat output, and what each
  multiplier group is: the keep mask of its group of random numbers.
-/
import proofs.«205805_g86552180949287_cont_9to1_m_41_25_alg».proof.Proof.TileBaseB
import proofs.«205805_g86552180949287_cont_9to1_m_41_25_alg».proof.Proof.TileMaskB
import proofs.«205805_g86552180949287_cont_9to1_m_41_25_alg».proof.Proof.TileInnerValB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Chunk `n` of the flat array as the contents of a buffer of 28672 words. -/
def chunkOf (fl : (⟨S77070336, .f32⟩ : BufTy).Contents (Elt F)) (n : ℕ) : (⟨S28672, .f32⟩ : BufTy).Contents (Elt F) :=
  fun p => if h : 28672 * n + (p 0).val < 77070336 then fl (ValueIdx.ix1 (⟨28672 * n + (p 0).val, h⟩ : Fin 77070336))
    else fl (ValueIdx.ix1 (⟨0, by decide⟩ : Fin 77070336))

/-- Number, among the 2688 chunks of the flat array, of the tile's `m`-th chunk. -/
def cn (L : grid0.Coords) (m : ℕ) : ℕ := 1344 + 42 * (2 * (sC L).val + (cC L).val) + m

omit [FloatOps F] in
theorem cn_chunkIx (L : grid0.Coords) (t : Fin k0_t1_loop.trips) (r : Fin 3) :
    (tileChunk (cC L) (sC L) (chunkIx t r)).val = cn L (3 * t.val + r.val) := rfl

omit [FloatOps F] in
/-- What a fetch of the 28672 words at offset `28672·n` of the flat input lands in scratch buffer 1. -/
theorem fetch_val1 (d : Dev nD) (L : grid0.Coords) (fl : Buf (Elt F) (fltLoc d)) (f : Buf (Elt F) ((V d (cV L) (jV L)).loc cc0_scratch1))
    (off : Fin 1 → ℕ) (inb : ∀ a, off a + S28672.size a ≤ S77070336.size a) (n : ℕ) (hoff : off 0 = 28672 * n) :
    View.write (Elt F) (Memref.whole cc0_scratch1 : Memref sig .scVector .vmem S28672 .f32).view f
        (ReadAs.same.apply (View.read (Elt F) ((Memref.whole main_v3_scv : Memref sig .scVector .hbm S77070336 .f32).slice (Rect.unit (s := S77070336) off S28672.size inb) (fun _ => rfl)).view fl)) Finset.univ
      = chunkOf fl n := by
  refine (View.write_whole_univ (Val := Elt F) cc0_scratch1 f _).trans ?_
  rw [ReadAs.apply_same]
  funext p
  refine (View.read_apply _ _).trans ((cast_eq _ _).trans ?_)
  unfold chunkOf
  have hp : (p 0).val < 28672 := (p 0).isLt
  have hi := inb 0
  have hb : 28672 * n + (p 0).val < 77070336 := by
    have h1 : S28672.size 0 = 28672 := rfl
    have h2 : S77070336.size 0 = 77070336 := rfl
    omega
  rw [dif_pos hb]
  congr 1
  funext a
  match a with
  | 0 =>
    apply Fin.ext
    show ((Rect.unit (s := S77070336) off S28672.size inb).emb p 0 : ℕ) = 28672 * n + (p 0).val
    rw [Rect.emb_apply]
    show off 0 + 1 * (p 0).val = _
    omega

omit [FloatOps F] in
/-- What a fetch of the 28672 words at offset `28672·n` of the flat input lands in scratch buffer 2. -/
theorem fetch_val2 (d : Dev nD) (L : grid0.Coords) (fl : Buf (Elt F) (fltLoc d)) (f : Buf (Elt F) ((V d (cV L) (jV L)).loc cc0_scratch2))
    (off : Fin 1 → ℕ) (inb : ∀ a, off a + S28672.size a ≤ S77070336.size a) (n : ℕ) (hoff : off 0 = 28672 * n) :
    View.write (Elt F) (Memref.whole cc0_scratch2 : Memref sig .scVector .vmem S28672 .f32).view f
        (ReadAs.same.apply (View.read (Elt F) ((Memref.whole main_v3_scv : Memref sig .scVector .hbm S77070336 .f32).slice (Rect.unit (s := S77070336) off S28672.size inb) (fun _ => rfl)).view fl)) Finset.univ
      = chunkOf fl n := by
  refine (View.write_whole_univ (Val := Elt F) cc0_scratch2 f _).trans ?_
  rw [ReadAs.apply_same]
  funext p
  refine (View.read_apply _ _).trans ((cast_eq _ _).trans ?_)
  unfold chunkOf
  have hp : (p 0).val < 28672 := (p 0).isLt
  have hi := inb 0
  have hb : 28672 * n + (p 0).val < 77070336 := by
    have h1 : S28672.size 0 = 28672 := rfl
    have h2 : S77070336.size 0 = 77070336 := rfl
    omega
  rw [dif_pos hb]
  congr 1
  funext a
  match a with
  | 0 =>
    apply Fin.ext
    show ((Rect.unit (s := S77070336) off S28672.size inb).emb p 0 : ℕ) = 28672 * n + (p 0).val
    rw [Rect.emb_apply]
    show off 0 + 1 * (p 0).val = _
    omega

omit [FloatOps F] in
/-- What a fetch of the 28672 words at offset `28672·n` of the flat input lands in scratch buffer 3. -/
theorem fetch_val3 (d : Dev nD) (L : grid0.Coords) (fl : Buf (Elt F) (fltLoc d)) (f : Buf (Elt F) ((V d (cV L) (jV L)).loc cc0_scratch3))
    (off : Fin 1 → ℕ) (inb : ∀ a, off a + S28672.size a ≤ S77070336.size a) (n : ℕ) (hoff : off 0 = 28672 * n) :
    View.write (Elt F) (Memref.whole cc0_scratch3 : Memref sig .scVector .vmem S28672 .f32).view f
        (ReadAs.same.apply (View.read (Elt F) ((Memref.whole main_v3_scv : Memref sig .scVector .hbm S77070336 .f32).slice (Rect.unit (s := S77070336) off S28672.size inb) (fun _ => rfl)).view fl)) Finset.univ
      = chunkOf fl n := by
  refine (View.write_whole_univ (Val := Elt F) cc0_scratch3 f _).trans ?_
  rw [ReadAs.apply_same]
  funext p
  refine (View.read_apply _ _).trans ((cast_eq _ _).trans ?_)
  unfold chunkOf
  have hp : (p 0).val < 28672 := (p 0).isLt
  have hi := inb 0
  have hb : 28672 * n + (p 0).val < 77070336 := by
    have h1 : S28672.size 0 = 28672 := rfl
    have h2 : S77070336.size 0 = 77070336 := rfl
    omega
  rw [dif_pos hb]
  congr 1
  funext a
  match a with
  | 0 =>
    apply Fin.ext
    show ((Rect.unit (s := S77070336) off S28672.size inb).emb p 0 : ℕ) = 28672 * n + (p 0).val
    rw [Rect.emb_apply]
    show off 0 + 1 * (p 0).val = _
    omega

omit [FloatOps F] in
theorem rndGrp_congr (rd : (⟨S512, .f32⟩ : BufTy).Contents (Elt F)) {g g' : ℕ} (h : g = g') (hg : 16 * g + 16 ≤ 512) (hg' : 16 * g' + 16 ≤ 512) :
    rndGrp rd g hg = rndGrp rd g' hg' := by subst h; rfl

omit [FloatOps F] in
theorem off2_val (L : grid0.Coords) (t : Fin k0_t1_loop.trips) (r : Fin 3) :
    k0_off2 L t (BitVec.ofNat 32 r.val) 0 = 28672 * (tileChunk (cC L) (sC L) (chunkIx t r)).val := by
  rw [k0_off2_eq]
  simp [tileChunk, chunkIx]
  omega

/-- What a write-out of a masked chunk leaves on its chunk of the flat output: the masked input. -/
theorem wout_val (d : Dev nD) (L : grid0.Coords) (fl : Buf (Elt F) (fltLoc d)) (rd : Buf (Elt F) (rndLoc d))
    (t : Fin k0_t1_loop.trips) (r : Fin 3) (o : Buf (Elt F) (outLoc d)) (mul : ℕ → FVec F S16 .f32)
    (hmul : ∀ g (hg : 16 * g + 16 ≤ 512), mul g = keepSel (rndGrp rd g hg))
    (X : S28672.Idx → Elt F .f32) (hX : X = maskBuf mul (chunkOf fl (tileChunk (cC L) (sC L) (chunkIx t r)).val)) :
    (outLoc d ↦[chunkSet (tileChunk (cC L) (sC L) (chunkIx t r))]{fullShare}
        ((oSl L t r).view.writes (Elt F) o [⟨Rect.whole _, X⟩]) : sProp 𝕄)
      = outLoc d ↦[chunkSet (tileChunk (cC L) (sC L) (chunkIx t r))]{fullShare} (scOut fl rd : Buf (Elt F) (outLoc d)) := by
  refine pointsTo_congr fun i hi => ?_
  rw [← set_oSl L t r] at hi
  simp only [View.set, Finset.mem_map, Finset.mem_univ, true_and] at hi
  obtain ⟨y, rfl⟩ := hi
  have key : ((oSl L t r).view.writes (Elt F) o [⟨Rect.whole S28672, X⟩]) ((oSl L t r).view.emb y) = X y := by
    have h1 := View.read_writes_cons_emb (oSl L t r).view o (Rect.whole S28672) X [] y
    rw [Rect.emb_whole_apply] at h1
    exact ((View.read_apply _ _).trans (cast_eq _ _)).symm.trans h1
  refine key.trans ?_
  subst hX
  have hy : (y 0).val < 28672 := (y 0).isLt
  have hN : (tileChunk (cC L) (sC L) (chunkIx t r)).val < 2688 := (tileChunk (cC L) (sC L) (chunkIx t r)).isLt
  have hj : ((((View.whole main_v4_scv).slice (oRect L t r)).emb y) 0 : ℕ) = 28672 * (tileChunk (cC L) (sC L) (chunkIx t r)).val + (y 0).val := by
    show ((oRect L t r).emb y 0 : ℕ) = _
    rw [Rect.emb_apply]
    show k0_off2 L t (BitVec.ofNat 32 r.val) 0 + 1 * (y 0).val = _
    rw [off2_val]; omega
  generalize (tileChunk (cC L) (sC L) (chunkIx t r)).val = N at hN hj ⊢
  have hb : 28672 * N + (y 0).val < 77070336 := by omega
  have ej : ((View.whole main_v4_scv).slice (oRect L t r)).emb y = ValueIdx.ix1 (⟨28672 * N + (y 0).val, hb⟩ : Fin 77070336) := by
    funext a
    match a with
    | 0 => exact Fin.ext hj
  rw [ej]
  unfold maskBuf chunkOf scOut
  rw [dif_pos hb, hmul (grpOf (y 0).val) (grpOf_lt _)]
  have eg : grpOf (28672 * N + (y 0).val) = grpOf (y 0).val := by unfold grpOf; omega
  have el : (28672 * N + (y 0).val) % 16 = (y 0).val % 16 := by omega
  show _ = FloatOps.mulf _ (keepSel (rndGrp rd (grpOf (28672 * N + (y 0).val)) (grpOf_lt _)) (ValueIdx.ix1 (⟨(28672 * N + (y 0).val) % 16, Nat.mod_lt _ (by decide)⟩ : Fin 16)))
  simp only [el]
  rw [rndGrp_congr rd eg (grpOf_lt _) (grpOf_lt _)]

omit [FloatOps F] in
/-- A load of 16 lanes at word `16·g` of the scratch copy of the random numbers reads their group `g`. -/
theorem load_grp (d : Dev nD) (L : grid0.Coords) (rd : Buf (Elt F) (rndLoc d)) (f0 : Buf (Elt F) ((V d (cV L) (jV L)).loc cc0_scratch0))
    (g : ℕ) (hg : 16 * g + 16 ≤ 512) (inb : ∀ a, (![16 * g] : Fin 1 → ℕ) a + S16.size a ≤ S512.size a) :
    View.readAt (Elt F) (Memref.whole cc0_scratch0 : Memref sig .scVector .vmem S512 .f32).view (Rect.unit (s := S512) ![16 * g] S16.size inb).toLoadRect
        (View.write (Elt F) (Memref.whole cc0_scratch0 : Memref sig .scVector .vmem S512 .f32).view f0 (ReadAs.same.apply (View.read (Elt F) (Memref.whole main_arg1_scv : Memref sig .scVector .hbm S512 .f32).view rd)) Finset.univ)
      = rndGrp rd g hg := by
  have e1 : View.write (Elt F) (Memref.whole cc0_scratch0 : Memref sig .scVector .vmem S512 .f32).view f0 (ReadAs.same.apply (View.read (Elt F) (Memref.whole main_arg1_scv : Memref sig .scVector .hbm S512 .f32).view rd)) Finset.univ = rd := by
    refine (View.write_whole_univ (Val := Elt F) cc0_scratch0 f0 _).trans ?_
    rw [ReadAs.apply_same]
    exact View.read_whole _ _
  rw [e1]
  funext l
  rw [View.readAt_apply]
  refine (congrFun (View.read_whole (Val := Elt F) cc0_scratch0 rd) _).trans ?_
  unfold rndGrp
  congr 1
  funext a
  match a with
  | 0 =>
    apply Fin.ext
    show 16 * g + 1 * (l 0).val = 16 * g + (l 0).val
    omega

omit [FloatOps F] in
theorem shapeCast_same {s : Shape} {α : Type} (v : s.Idx → α) (h : s.ShapeCasts s) : shapeCast s v h = v :=
  funext fun i => congrArg v (Shape.reshapeEquiv_self _ i)

/-- A multiplier as the body forms it from a loaded group: the keep mask of that group. -/
theorem mul_case (d : Dev nD) (L : grid0.Coords) (rd : Buf (Elt F) (rndLoc d)) (f0 : Buf (Elt F) ((V d (cV L) (jV L)).loc cc0_scratch0))
    (g : ℕ) (hg : 16 * g + 16 ≤ 512) (inb : ∀ a, (![16 * g] : Fin 1 → ℕ) a + S16.size a ≤ S512.size a) :
    keepSel (shapeCast S16 (View.readAt (Elt F) (Memref.whole cc0_scratch0 : Memref sig .scVector .vmem S512 .f32).view (Rect.unit (s := S512) ![16 * g] S16.size inb).toLoadRect
        (View.write (Elt F) (Memref.whole cc0_scratch0 : Memref sig .scVector .vmem S512 .f32).view f0 (ReadAs.same.apply (View.read (Elt F) (Memref.whole main_arg1_scv : Memref sig .scVector .hbm S512 .f32).view rd)) Finset.univ)) shapeCasts_S16_S16)
      = keepSel (rndGrp rd g hg) := by
  exact congrArg keepSel ((shapeCast_same (s := S16) _ shapeCasts_S16_S16).trans (load_grp d L rd f0 g hg inb))

end Cert.Proof.KB

end
-- ==== Proof.TileInvVB.lean ====
/-
  What the outer loop of a vector subcore's task keeps between trips, with the values: what each outstanding fetch
  lands, which of the tile's chunks hold the masked input already, and what the three loops over a buffer's blocks
  are required to do.
-/
import proofs.«205805_g86552180949287_cont_9to1_m_41_25_alg».proof.Proof.TileInvB
import proofs.«205805_g86552180949287_cont_9to1_m_41_25_alg».proof.Proof.TileValB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Buffer 1's fetch of the tile's chunk `m` is outstanding: its flight delivers the buffer at that chunk of the flat
    input and the lent elements of the read token; the token's other elements are held beside it. -/
def fetchingV0 (d : Dev nD) (L : grid0.Coords) (fl : Buf (Elt F) (fltLoc d)) (m : ℕ) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch1)),
    (Transfers.Flight countersEmb (V d (cV L) (jV L)) (SemLoc.dma cc0_scratch4.sem) default 917504
        iprop(((Memref.whole cc0_scratch1 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 0)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 0)} fl))
    ∗ ⌜g = chunkOf fl (cn L m)⌝)

/-- Buffer 2's fetch of the tile's chunk `m` is outstanding: its flight delivers the buffer at that chunk of the flat
    input and the lent elements of the read token; the token's other elements are held beside it. -/
def fetchingV1 (d : Dev nD) (L : grid0.Coords) (fl : Buf (Elt F) (fltLoc d)) (m : ℕ) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch2)),
    (Transfers.Flight countersEmb (V d (cV L) (jV L)) (SemLoc.dma cc0_scratch5.sem) default 917504
        iprop(((Memref.whole cc0_scratch2 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 1)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 1)} fl))
    ∗ ⌜g = chunkOf fl (cn L m)⌝)

/-- Buffer 3's fetch of the tile's chunk `m` is outstanding: its flight delivers the buffer at that chunk of the flat
    input and the lent elements of the read token; the token's other elements are held beside it. -/
def fetchingV2 (d : Dev nD) (L : grid0.Coords) (fl : Buf (Elt F) (fltLoc d)) (m : ℕ) : sProp 𝕄 :=
  iprop(∃ (A : Finset (Idx ((Memref.whole main_v3_scv : Memref sig .scVector .hbm S77070336 .f32).view.loc (V d (cV L) (jV L))))) (g : Buf (Elt F) ((V d (cV L) (jV L)).loc cc0_scratch3)),
    (Transfers.Flight countersEmb (V d (cV L) (jV L)) (SemLoc.dma cc0_scratch6.sem) default 917504
        iprop(((Memref.whole cc0_scratch3 : Memref sig .scVector .vmem S28672 .f32).view.loc (V d (cV L) (jV L)) ↦{fullShare} g) ∗ ((Memref.whole main_v3_scv : Memref sig .scVector .hbm S77070336 .f32).view.loc (V d (cV L) (jV L)) ↦[A]{(Transfers.shareTok (Transfers.shareTok fullShare 32 (widx (cC L) (sC L))) 3 2)} fl))
      ∗ ((Memref.whole main_v3_scv : Memref sig .scVector .hbm S77070336 .f32).view.loc (V d (cV L) (jV L)) ↦[Finset.univ \ A]{(Transfers.shareTok (Transfers.shareTok fullShare 32 (widx (cC L) (sC L))) 3 2)} fl))
    ∗ ⌜g = chunkOf fl (cn L m)⌝)

/-- Before trip `k` of the outer loop: the fetches of the tile's chunks `3k, 3k+1, 3k+2` are outstanding (after the last
    trip: nothing is), no write-out is, and the tile's chunks below `3k` of the output hold the masked input, the others
    what the call found there. -/
def invV (d : Dev nD) (L : grid0.Coords) (fl : Buf (Elt F) (fltLoc d)) (rd : Buf (Elt F) (rndLoc d)) (o0 : Buf (Elt F) (outLoc d))
    (O : CellTallies nD τ sig (HIx 1)) (W : Waits sig (HIx 1)) (k : Nat) (_ : PUnit) : sProp 𝕄 :=
  iprop(Transfers.MayWaits (V d (cV L) (jV L)) (none : HIx 1) O
    ∗ (if k < 14 then iprop(fetchingV0 d L fl (3 * k + 0) ∗ fetchingV1 d L fl (3 * k + 1) ∗ fetchingV2 d L fl (3 * k + 2))
        else iprop(idle0 d L fl ∗ idle1 d L fl ∗ idle2 d L fl))
    ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0
    ∗ (bigSep Finset.univ (fun i : Fin 42 => (outLoc d ↦[chunkSet (tileChunk (cC L) (sC L) i)]{fullShare} (if i.val < 3 * k then (scOut fl rd : Buf (Elt F) (outLoc d)) else o0) : sProp 𝕄)))
    ∗ ∃ W', ⌜∀ p ∈ W', p ∈ W ∨ p.2 = none⌝ ∗ owes (V d (cV L) (jV L)) O W')

/-- What the loop over the seven blocks of scratch buffer 1 is required to do: leave the buffer with every word
    multiplied by its frame's multiplier. -/
def InnerSpec2 (d : Dev nD) (L : grid0.Coords) : Prop :=
  ∀ (v3 : BitVec 32) (v10 v17 v24 v31 v38 v45 v52 v59 v66 v73 v80 v87 v94 v101 v108 v115 v122 v129 v136 v143 v150 v157 v164 v171 v178 v185 v192 v199 v206 v213 v220 v227 : FVec F S16 .f32) (a b : BitVec 32) (t : Fin k0_t1_loop.trips) (g : Buf (Elt F) ((V d (cV L) (jV L)).loc cc0_scratch1)),
    ((Memref.whole cc0_scratch1 : Memref sig .scVector .vmem S28672 .f32).view.loc (V d (cV L) (jV L)) ↦{fullShare} g : sProp 𝕄)
      ⊢ wp frame (wpE (defs₀ (F := F)) 𝒱₀ (V d (cV L) (jV L)) none) Set.univ (Scf.Loop.for k0_t2_loop k0_t2_ok ⟨⟩ (k0_t2_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a b t))
          (fun _ => ((Memref.whole cc0_scratch1 : Memref sig .scVector .vmem S28672 .f32).view.loc (V d (cV L) (jV L)) ↦{fullShare} (maskBuf (mulTab v10 v17 v24 v31 v38 v45 v52 v59 v66 v73 v80 v87 v94 v101 v108 v115 v122 v129 v136 v143 v150 v157 v164 v171 v178 v185 v192 v199 v206 v213 v220 v227) g : Buf (Elt F) ((V d (cV L) (jV L)).loc cc0_scratch1)) : sProp 𝕄))

/-- What the loop over the seven blocks of scratch buffer 2 is required to do: leave the buffer with every word
    multiplied by its frame's multiplier. -/
def InnerSpec3 (d : Dev nD) (L : grid0.Coords) : Prop :=
  ∀ (v3 : BitVec 32) (v10 v17 v24 v31 v38 v45 v52 v59 v66 v73 v80 v87 v94 v101 v108 v115 v122 v129 v136 v143 v150 v157 v164 v171 v178 v185 v192 v199 v206 v213 v220 v227 : FVec F S16 .f32) (a b : BitVec 32) (t : Fin k0_t1_loop.trips) (g : Buf (Elt F) ((V d (cV L) (jV L)).loc cc0_scratch2)),
    ((Memref.whole cc0_scratch2 : Memref sig .scVector .vmem S28672 .f32).view.loc (V d (cV L) (jV L)) ↦{fullShare} g : sProp 𝕄)
      ⊢ wp frame (wpE (defs₀ (F := F)) 𝒱₀ (V d (cV L) (jV L)) none) Set.univ (Scf.Loop.for k0_t3_loop k0_t3_ok ⟨⟩ (k0_t3_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a b t))
          (fun _ => ((Memref.whole cc0_scratch2 : Memref sig .scVector .vmem S28672 .f32).view.loc (V d (cV L) (jV L)) ↦{fullShare} (maskBuf (mulTab v10 v17 v24 v31 v38 v45 v52 v59 v66 v73 v80 v87 v94 v101 v108 v115 v122 v129 v136 v143 v150 v157 v164 v171 v178 v185 v192 v199 v206 v213 v220 v227) g : Buf (Elt F) ((V d (cV L) (jV L)).loc cc0_scratch2)) : sProp 𝕄))

/-- What the loop over the seven blocks of scratch buffer 3 is required to do: leave the buffer with every word
    multiplied by its frame's multiplier. -/
def InnerSpec4 (d : Dev nD) (L : grid0.Coords) : Prop :=
  ∀ (v3 : BitVec 32) (v10 v17 v24 v31 v38 v45 v52 v59 v66 v73 v80 v87 v94 v101 v108 v115 v122 v129 v136 v143 v150 v157 v164 v171 v178 v185 v192 v199 v206 v213 v220 v227 : FVec F S16 .f32) (t : Fin k0_t1_loop.trips) (a b c : BitVec 32) (g : Buf (Elt F) ((V d (cV L) (jV L)).loc cc0_scratch3)),
    ((Memref.whole cc0_scratch3 : Memref sig .scVector .vmem S28672 .f32).view.loc (V d (cV L) (jV L)) ↦{fullShare} g : sProp 𝕄)
      ⊢ wp frame (wpE (defs₀ (F := F)) 𝒱₀ (V d (cV L) (jV L)) none) Set.univ (Scf.Loop.for k0_t4_loop k0_t4_ok ⟨⟩ (k0_t4_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 t a b c))
          (fun _ => ((Memref.whole cc0_scratch3 : Memref sig .scVector .vmem S28672 .f32).view.loc (V d (cV L) (jV L)) ↦{fullShare} (maskBuf (mulTab v10 v17 v24 v31 v38 v45 v52 v59 v66 v73 v80 v87 v94 v101 v108 v115 v122 v129 v136 v143 v150 v157 v164 v171 v178 v185 v192 v199 v206 v213 v220 v227) g : Buf (Elt F) ((V d (cV L) (jV L)).loc cc0_scratch3)) : sProp 𝕄))

omit [FloatOps F] in
theorem off1_val (L : grid0.Coords) (r : Fin 3) : k0_off1 L (BitVec.ofNat 32 (28672 * r.val)) 0 = 28672 * cn L r.val := by
  rw [k0_off1_eq]
  simp [cn]
  omega

omit [FloatOps F] in
theorem off6_val (L : grid0.Coords) (t : Fin k0_t1_loop.trips) : k0_off6 L t 0 = 28672 * cn L (3 * (t.val + 1) + 0) := by
  rw [k0_off6_eq]
  simp [cn]
  omega

omit [FloatOps F] in
theorem off7_val (L : grid0.Coords) (t : Fin k0_t1_loop.trips) : k0_off7 L t 0 = 28672 * cn L (3 * (t.val + 1) + 1) := by
  rw [k0_off7_eq]
  simp [cn]
  omega

omit [FloatOps F] in
theorem off8_val (L : grid0.Coords) (t : Fin k0_t1_loop.trips) : k0_off8 L t 0 = 28672 * cn L (3 * (t.val + 1) + 2) := by
  rw [k0_off8_eq]
  simp [cn]
  omega

/-- The chunks a trip does not write are held at the same contents before and after it. -/
theorem rest_congr (d : Dev nD) (L : grid0.Coords) (fl : Buf (Elt F) (fltLoc d)) (rd : Buf (Elt F) (rndLoc d)) (o0 : Buf (Elt F) (outLoc d))
    (k : Fin k0_t1_loop.trips) :
    bigSep (((Finset.univ.erase (chunkIx k 0)).erase (chunkIx k 1)).erase (chunkIx k 2)) (fun i : Fin 42 => (outLoc d ↦[chunkSet (tileChunk (cC L) (sC L) i)]{fullShare} (if i.val < 3 * k.val then (scOut fl rd : Buf (Elt F) (outLoc d)) else o0) : sProp 𝕄))
      = bigSep (((Finset.univ.erase (chunkIx k 0)).erase (chunkIx k 1)).erase (chunkIx k 2)) (fun i : Fin 42 => (outLoc d ↦[chunkSet (tileChunk (cC L) (sC L) i)]{fullShare} (if i.val < 3 * (k.val + 1) then (scOut fl rd : Buf (Elt F) (outLoc d)) else o0) : sProp 𝕄)) := by
  refine bigSep_congr fun i hi => ?_
  have h2 : i ≠ chunkIx k 2 := (Finset.mem_erase.mp hi).1
  have h1 : i ≠ chunkIx k 1 := (Finset.mem_erase.mp (Finset.mem_erase.mp hi).2).1
  have h0 : i ≠ chunkIx k 0 := (Finset.mem_erase.mp (Finset.mem_erase.mp (Finset.mem_erase.mp hi).2).2).1
  have n0 : i.val ≠ 3 * k.val + 0 := fun e => h0 (Fin.ext e)
  have n1 : i.val ≠ 3 * k.val + 1 := fun e => h1 (Fin.ext e)
  have n2 : i.val ≠ 3 * k.val + 2 := fun e => h2 (Fin.ext e)
  by_cases h : i.val < 3 * k.val
  · rw [if_pos h, if_pos (by omega)]
  · rw [if_neg h, if_neg (by omega)]

/-- Before the first trip no chunk is written. -/
theorem fam_zero (d : Dev nD) (L : grid0.Coords) (fl : Buf (Elt F) (fltLoc d)) (rd : Buf (Elt F) (rndLoc d)) (o0 : Buf (Elt F) (outLoc d)) :
    (bigSep Finset.univ fun i : Fin 42 => (outLoc d ↦[chunkSet (tileChunk (cC L) (sC L) i)]{fullShare} o0 : sProp 𝕄))
      = bigSep Finset.univ (fun i : Fin 42 => (outLoc d ↦[chunkSet (tileChunk (cC L) (sC L) i)]{fullShare} (if i.val < 3 * 0 then (scOut fl rd : Buf (Elt F) (outLoc d)) else o0) : sProp 𝕄)) :=
  bigSep_congr fun i _ => by rw [if_neg (by omega)]

/-- After the last trip every chunk is. -/
theorem fam_last (d : Dev nD) (L : grid0.Coords) (fl : Buf (Elt F) (fltLoc d)) (rd : Buf (Elt F) (rndLoc d)) (o0 : Buf (Elt F) (outLoc d)) :
    bigSep Finset.univ (fun i : Fin 42 => (outLoc d ↦[chunkSet (tileChunk (cC L) (sC L) i)]{fullShare} (if i.val < 3 * 14 then (scOut fl rd : Buf (Elt F) (outLoc d)) else o0) : sProp 𝕄))
      = bigSep Finset.univ fun i : Fin 42 => (outLoc d ↦[chunkSet (tileChunk (cC L) (sC L) i)]{fullShare} (scOut fl rd : Buf (Elt F) (outLoc d)) : sProp 𝕄) :=
  bigSep_congr fun i _ => by rw [if_pos (by have := i.isLt; omega)]

omit [FloatOps F] in
/-- What a write-out reads off a whole scratch buffer is the buffer's contents. -/
theorem read_same (b : Ref sig .scVector) (g : BufTy.Contents (Elt F) b.ty) :
    ReadAs.same.apply (View.read (Elt F) (Memref.whole b).view g) = g := by
  rw [ReadAs.apply_same]; exact View.read_whole _ _

end Cert.Proof.KB

end
-- ==== Proof.TileTripVB.lean ====
/-
  One trip of the outer loop of a vector subcore's task, with the values: the fetched chunks go through the loops over
  their blocks and are written out as the masked input, the next three chunks are fetched, and the invariant holds at
  the next trip.
-/
import proofs.«205805_g86552180949287_cont_9to1_m_41_25_alg».proof.Proof.TileInvVB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 2000000 in
theorem outer_tripV_pos (d : Dev nD) (L : grid0.Coords) (fl : Buf (Elt F) (fltLoc d)) (rd : Buf (Elt F) (rndLoc d)) (o0 : Buf (Elt F) (outLoc d))
    (O : CellTallies nD τ sig (HIx 1)) (W : Waits sig (HIx 1))
    (h2 : InnerSpec2 (F := F) d L) (h3 : InnerSpec3 (F := F) d L) (h4 : InnerSpec4 (F := F) d L)
    (v3 : BitVec 32) (v10 v17 v24 v31 v38 v45 v52 v59 v66 v73 v80 v87 v94 v101 v108 v115 v122 v129 v136 v143 v150 v157 v164 v171 v178 v185 v192 v199 v206 v213 v220 : FVec F S16 .f32) (v224 : IVec S16 1) (cst_93 cst_94 : F .f32)
    (hmul : ∀ g (hg : 16 * g + 16 ≤ 512), (mulTab v10 v17 v24 v31 v38 v45 v52 v59 v66 v73 v80 v87 v94 v101 v108 v115 v122 v129 v136 v143 v150 v157 v164 v171 v178 v185 v192 v199 v206 v213 v220 (k0_pay1 v224 cst_93 cst_94)) g = keepSel (rndGrp rd g hg))
    (k : Fin k0_t1_loop.trips) (acc : Unit) (hk1 : k.val + 1 < 14) :
    invV d L fl rd o0 O W k.val acc ⊢ wp frame (wpE (defs₀ (F := F)) 𝒱₀ (V d (cV L) (jV L)) none) Set.univ
      (k0_t1_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v224 cst_93 cst_94 k acc) (invV d L fl rd o0 O W (k.val + 1)) := by
  have hk : k.val < 14 := k.isLt
  unfold invV k0_t1_body
  rw [if_pos hk]
  unfold fetchingV0 fetchingV1 fetchingV2
  iintro ⟨#Hmw, ⟨⟨%A0, %g1, ⟨Hc4, Hfa⟩, %hg1⟩, ⟨%A1, %g2, ⟨Hc5, Hfb⟩, %hg2⟩, ⟨%A2, %g3, ⟨Hc6, Hfc⟩, %hg3⟩⟩, Hc7, Hc8, Hc9, Hout, %W', %hW', HO⟩
  ihave Hout' := (Entails.of_eq (out_take _ (chunkIx_ne k (r := 0) (r' := 1) (by decide)) (chunkIx_ne k (r := 0) (r' := 2) (by decide)) (chunkIx_ne k (r := 1) (r' := 2) (by decide)))) $$ Hout
  icases Hout' with ⟨Ho1, Ho2, Ho3, Hrest⟩
  ihave Ho1' := (Entails.of_eq (pts_oSl0 (F := F) d L k _).symm) $$ Ho1
  ihave Ho2' := (Entails.of_eq (pts_oSl1 (F := F) d L k _).symm) $$ Ho2
  ihave Ho3' := (Entails.of_eq (pts_oSl2 (F := F) d L k _).symm) $$ Ho3
  have h1 := cond1_pos k hk1
  have h2' := cond2_pos k hk1
  have h3' := cond3_pos k hk1
  sl_exec
  rw [wp_bind]
  iapply (wp_wand_r frame (wpE (defs₀ (F := F)) 𝒱₀ (V d (cV L) (jV L)) none) Set.univ)
  isplitl [Hc4_dst]
  · iapply (h2 _ _ _ _ _ _ _ _ _ _ _ _ _ _ _ _ _ _ _ _ _ _ _ _ _ _ _ _ _ _ _ _ _ _ _ _ g1); iexact Hc4_dst
  iintro %_ Hs1
  sl_exec
  rw [wp_bind]
  iapply (wp_wand_r frame (wpE (defs₀ (F := F)) 𝒱₀ (V d (cV L) (jV L)) none) Set.univ)
  isplitl [Hc5_dst]
  · iapply (h3 _ _ _ _ _ _ _ _ _ _ _ _ _ _ _ _ _ _ _ _ _ _ _ _ _ _ _ _ _ _ _ _ _ _ _ _ g2); iexact Hc5_dst
  iintro %_ Hs2
  sl_exec
  rw [wp_bind]
  iapply (wp_wand_r frame (wpE (defs₀ (F := F)) 𝒱₀ (V d (cV L) (jV L)) none) Set.univ)
  isplitl [Hc6_dst]
  · iapply (h4 _ _ _ _ _ _ _ _ _ _ _ _ _ _ _ _ _ _ _ _ _ _ _ _ _ _ _ _ _ _ _ _ _ _ _ _ _ g3); iexact Hc6_dst
  iintro %_ Hs3
  sl_exec
  sl_step
  rw [if_pos hk1]
  isplitr; · iexact Hmw
  isplitl [Hc4 Hfa Hc5 Hfb Hc6 Hfc]
  · isplitl [Hc4 Hfa]
    · iexists _, _; isplitl [Hc4 Hfa]
      · isplitl [Hc4]; · iexact Hc4
        iexact Hfa
      · ipureintro; exact fetch_val1 d L fl _ (k0_off6 L k) _ _ (off6_val L k)
    isplitl [Hc5 Hfb]
    · iexists _, _; isplitl [Hc5 Hfb]
      · isplitl [Hc5]; · iexact Hc5
        iexact Hfb
      · ipureintro; exact fetch_val2 d L fl _ (k0_off7 L k) _ _ (off7_val L k)
    · iexists _, _; isplitl [Hc6 Hfc]
      · isplitl [Hc6]; · iexact Hc6
        iexact Hfc
      · ipureintro; exact fetch_val3 d L fl _ (k0_off8 L k) _ _ (off8_val L k)
  isplitl [Hc7]; · iexact Hc7
  isplitl [Hc8]; · iexact Hc8
  isplitl [Hc9]; · iexact Hc9
  isplitl [Hrest Ho1' Ho2' Ho3']
  · rw [out_take _ (chunkIx_ne k (r := 0) (r' := 1) (by decide)) (chunkIx_ne k (r := 0) (r' := 2) (by decide)) (chunkIx_ne k (r := 1) (r' := 2) (by decide))]
    isplitl [Ho1']
    · rw [if_pos (show (chunkIx k 0).val < 3 * (k.val + 1) by simp only [chunkIx]; omega)]
      iapply (Entails.of_eq ((pts_oSl0 (F := F) d L k _).trans (wout_val d L fl rd k 0 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch1 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g1)).trans (by rw [hg1, cn_chunkIx]; rfl)))))
      iexact Ho1'
    isplitl [Ho2']
    · rw [if_pos (show (chunkIx k 1).val < 3 * (k.val + 1) by simp only [chunkIx]; omega)]
      iapply (Entails.of_eq ((pts_oSl1 (F := F) d L k _).trans (wout_val d L fl rd k 1 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch2 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g2)).trans (by rw [hg2, cn_chunkIx]; rfl)))))
      iexact Ho2'
    isplitl [Ho3']
    · rw [if_pos (show (chunkIx k 2).val < 3 * (k.val + 1) by simp only [chunkIx]; omega)]
      iapply (Entails.of_eq ((pts_oSl2 (F := F) d L k _).trans (wout_val d L fl rd k 2 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch3 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g3)).trans (by rw [hg3, cn_chunkIx]; rfl)))))
      iexact Ho3'
    rw [← rest_congr d L fl rd o0 k]
    iexact Hrest
  iexists _
  isplitr
  swap
  · iexact HO
  · ipureintro; intro p hp
    simp only [Finset.mem_insert] at hp
    rcases hp with rfl | rfl | rfl | rfl | rfl | rfl | hp <;> first | exact .inr rfl | exact hW' p hp

set_option maxHeartbeats 2000000 in
theorem outer_tripV_neg (d : Dev nD) (L : grid0.Coords) (fl : Buf (Elt F) (fltLoc d)) (rd : Buf (Elt F) (rndLoc d)) (o0 : Buf (Elt F) (outLoc d))
    (O : CellTallies nD τ sig (HIx 1)) (W : Waits sig (HIx 1))
    (h2 : InnerSpec2 (F := F) d L) (h3 : InnerSpec3 (F := F) d L) (h4 : InnerSpec4 (F := F) d L)
    (v3 : BitVec 32) (v10 v17 v24 v31 v38 v45 v52 v59 v66 v73 v80 v87 v94 v101 v108 v115 v122 v129 v136 v143 v150 v157 v164 v171 v178 v185 v192 v199 v206 v213 v220 : FVec F S16 .f32) (v224 : IVec S16 1) (cst_93 cst_94 : F .f32)
    (hmul : ∀ g (hg : 16 * g + 16 ≤ 512), (mulTab v10 v17 v24 v31 v38 v45 v52 v59 v66 v73 v80 v87 v94 v101 v108 v115 v122 v129 v136 v143 v150 v157 v164 v171 v178 v185 v192 v199 v206 v213 v220 (k0_pay1 v224 cst_93 cst_94)) g = keepSel (rndGrp rd g hg))
    (k : Fin k0_t1_loop.trips) (acc : Unit) (hk1 : ¬ k.val + 1 < 14) :
    invV d L fl rd o0 O W k.val acc ⊢ wp frame (wpE (defs₀ (F := F)) 𝒱₀ (V d (cV L) (jV L)) none) Set.univ
      (k0_t1_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v224 cst_93 cst_94 k acc) (invV d L fl rd o0 O W (k.val + 1)) := by
  have hk : k.val < 14 := k.isLt
  unfold invV k0_t1_body
  rw [if_pos hk]
  unfold fetchingV0 fetchingV1 fetchingV2
  iintro ⟨#Hmw, ⟨⟨%A0, %g1, ⟨Hc4, Hfa⟩, %hg1⟩, ⟨%A1, %g2, ⟨Hc5, Hfb⟩, %hg2⟩, ⟨%A2, %g3, ⟨Hc6, Hfc⟩, %hg3⟩⟩, Hc7, Hc8, Hc9, Hout, %W', %hW', HO⟩
  ihave Hout' := (Entails.of_eq (out_take _ (chunkIx_ne k (r := 0) (r' := 1) (by decide)) (chunkIx_ne k (r := 0) (r' := 2) (by decide)) (chunkIx_ne k (r := 1) (r' := 2) (by decide)))) $$ Hout
  icases Hout' with ⟨Ho1, Ho2, Ho3, Hrest⟩
  ihave Ho1' := (Entails.of_eq (pts_oSl0 (F := F) d L k _).symm) $$ Ho1
  ihave Ho2' := (Entails.of_eq (pts_oSl1 (F := F) d L k _).symm) $$ Ho2
  ihave Ho3' := (Entails.of_eq (pts_oSl2 (F := F) d L k _).symm) $$ Ho3
  have h1 := cond1_neg k hk1
  have h2' := cond2_neg k hk1
  have h3' := cond3_neg k hk1
  sl_exec
  rw [wp_bind]
  iapply (wp_wand_r frame (wpE (defs₀ (F := F)) 𝒱₀ (V d (cV L) (jV L)) none) Set.univ)
  isplitl [Hc4_dst]
  · iapply (h2 _ _ _ _ _ _ _ _ _ _ _ _ _ _ _ _ _ _ _ _ _ _ _ _ _ _ _ _ _ _ _ _ _ _ _ _ g1); iexact Hc4_dst
  iintro %_ Hs1
  sl_exec
  rw [wp_bind]
  iapply (wp_wand_r frame (wpE (defs₀ (F := F)) 𝒱₀ (V d (cV L) (jV L)) none) Set.univ)
  isplitl [Hc5_dst]
  · iapply (h3 _ _ _ _ _ _ _ _ _ _ _ _ _ _ _ _ _ _ _ _ _ _ _ _ _ _ _ _ _ _ _ _ _ _ _ _ g2); iexact Hc5_dst
  iintro %_ Hs2
  sl_exec
  rw [wp_bind]
  iapply (wp_wand_r frame (wpE (defs₀ (F := F)) 𝒱₀ (V d (cV L) (jV L)) none) Set.univ)
  isplitl [Hc6_dst]
  · iapply (h4 _ _ _ _ _ _ _ _ _ _ _ _ _ _ _ _ _ _ _ _ _ _ _ _ _ _ _ _ _ _ _ _ _ _ _ _ _ g3); iexact Hc6_dst
  iintro %_ Hs3
  sl_exec
  sl_step
  rw [if_neg hk1]
  unfold idle0 idle1 idle2
  isplitr; · iexact Hmw
  isplitl [Hs1 Hc4 Hfa Hs2 Hc5 Hfb Hs3 Hc6 Hfc]
  · isplitl [Hs1 Hc4 Hfa]
    · isplitl [Hs1]; · iexists _; iexact Hs1
      isplitl [Hc4]; · iexact Hc4
      iexact Hfa
    isplitl [Hs2 Hc5 Hfb]
    · isplitl [Hs2]; · iexists _; iexact Hs2
      isplitl [Hc5]; · iexact Hc5
      iexact Hfb
    · isplitl [Hs3]; · iexists _; iexact Hs3
      isplitl [Hc6]; · iexact Hc6
      iexact Hfc
  isplitl [Hc7]; · iexact Hc7
  isplitl [Hc8]; · iexact Hc8
  isplitl [Hc9]; · iexact Hc9
  isplitl [Hrest Ho1' Ho2' Ho3']
  · rw [out_take _ (chunkIx_ne k (r := 0) (r' := 1) (by decide)) (chunkIx_ne k (r := 0) (r' := 2) (by decide)) (chunkIx_ne k (r := 1) (r' := 2) (by decide))]
    isplitl [Ho1']
    · rw [if_pos (show (chunkIx k 0).val < 3 * (k.val + 1) by simp only [chunkIx]; omega)]
      iapply (Entails.of_eq ((pts_oSl0 (F := F) d L k _).trans (wout_val d L fl rd k 0 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch1 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g1)).trans (by rw [hg1, cn_chunkIx]; rfl)))))
      iexact Ho1'
    isplitl [Ho2']
    · rw [if_pos (show (chunkIx k 1).val < 3 * (k.val + 1) by simp only [chunkIx]; omega)]
      iapply (Entails.of_eq ((pts_oSl1 (F := F) d L k _).trans (wout_val d L fl rd k 1 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch2 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g2)).trans (by rw [hg2, cn_chunkIx]; rfl)))))
      iexact Ho2'
    isplitl [Ho3']
    · rw [if_pos (show (chunkIx k 2).val < 3 * (k.val + 1) by simp only [chunkIx]; omega)]
      iapply (Entails.of_eq ((pts_oSl2 (F := F) d L k _).trans (wout_val d L fl rd k 2 _ (mulTab v10 v17 v24 v31 v38 v45 v52 v59 v66 v73 v80 v87 v94 v101 v108 v115 v122 v129 v136 v143 v150 v157 v164 v171 v178 v185 v192 v199 v206 v213 v220 (k0_pay1 v224 cst_93 cst_94)) hmul _
        ((read_same cc0_scratch3 (maskBuf (mulTab v10 v17 v24 v31 v38 v45 v52 v59 v66 v73 v80 v87 v94 v101 v108 v115 v122 v129 v136 v143 v150 v157 v164 v171 v178 v185 v192 v199 v206 v213 v220 (k0_pay1 v224 cst_93 cst_94)) g3)).trans (by rw [hg3, cn_chunkIx]; rfl)))))
      iexact Ho3'
    rw [← rest_congr d L fl rd o0 k]
    iexact Hrest
  iexists _
  isplitr
  swap
  · iexact HO
  · ipureintro; intro p hp
    simp only [Finset.mem_insert] at hp
    rcases hp with rfl | rfl | rfl | rfl | rfl | rfl | hp <;> first | exact .inr rfl | exact hW' p hp

theorem outer_tripV (d : Dev nD) (L : grid0.Coords) (fl : Buf (Elt F) (fltLoc d)) (rd : Buf (Elt F) (rndLoc d)) (o0 : Buf (Elt F) (outLoc d))
    (O : CellTallies nD τ sig (HIx 1)) (W : Waits sig (HIx 1))
    (h2 : InnerSpec2 (F := F) d L) (h3 : InnerSpec3 (F := F) d L) (h4 : InnerSpec4 (F := F) d L)
    (v3 : BitVec 32) (v10 v17 v24 v31 v38 v45 v52 v59 v66 v73 v80 v87 v94 v101 v108 v115 v122 v129 v136 v143 v150 v157 v164 v171 v178 v185 v192 v199 v206 v213 v220 : FVec F S16 .f32) (v224 : IVec S16 1) (cst_93 cst_94 : F .f32)
    (hmul : ∀ g (hg : 16 * g + 16 ≤ 512), (mulTab v10 v17 v24 v31 v38 v45 v52 v59 v66 v73 v80 v87 v94 v101 v108 v115 v122 v129 v136 v143 v150 v157 v164 v171 v178 v185 v192 v199 v206 v213 v220 (k0_pay1 v224 cst_93 cst_94)) g = keepSel (rndGrp rd g hg))
    (k : Fin k0_t1_loop.trips) (acc : Unit) :
    invV d L fl rd o0 O W k.val acc ⊢ wp frame (wpE (defs₀ (F := F)) 𝒱₀ (V d (cV L) (jV L)) none) Set.univ
      (k0_t1_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v224 cst_93 cst_94 k acc) (invV d L fl rd o0 O W (k.val + 1)) := by
  by_cases hk1 : k.val + 1 < 14
  · exact outer_tripV_pos d L fl rd o0 O W h2 h3 h4 _ _ _ _ _ _ _ _ _ _ _ _ _ _ _ _ _ _ _ _ _ _ _ _ _ _ _ _ _ _ _ _ _ _ _ hmul k acc hk1
  · exact outer_tripV_neg d L fl rd o0 O W h2 h3 h4 _ _ _ _ _ _ _ _ _ _ _ _ _ _ _ _ _ _ _ _ _ _ _ _ _ _ _ _ _ _ _ _ _ _ _ hmul k acc hk1

end Cert.Proof.KB

end
-- ==== Proof.TileMainB.lean ====
/-
  One vector subcore's task, from what the three loops over a buffer's blocks are required to do: the copy of the random
  numbers and the 32 multiplier groups (each the keep mask of its group), the first three fetches, the outer loop by its
  invariant, and the hand given back with every one of the tile's 42 chunks at the masked input.
-/
import proofs.«205805_g86552180949287_cont_9to1_m_41_25_alg».proof.Proof.TileTripVB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 1000000 in
/-- The task on vector subcore `(L 0, L 1)` of device `d`, given the three inner loops' effect on their buffers. -/
theorem tile_body_of_inner (d : Dev nD) (L : grid0.Coords) (hF : (K (F := F)).Facts)
    (fl : Buf (Elt F) (fltLoc d)) (rd : Buf (Elt F) (rndLoc d)) (o0 : Buf (Elt F) (outLoc d))
    (O : CellTallies nD τ sig (HIx 1)) (W : Waits sig (HIx 1)) (hO : ∀ g, O g none = 0)
    (h2 : InnerSpec2 (F := F) d L) (h3 : InnerSpec3 (F := F) d L) (h4 : InnerSpec4 (F := F) d L) :
    iprop(levAts (K (F := F)).L (K (F := F)).lev ∗ emp ∗ tileGo d (cC L) (sC L) fl rd o0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0)
          fun _ => iprop(tileTd d (cC L) (sC L) fl rd ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Hfl, Hrd, Hout⟩, ⟨⟨⟨%f0, Hs0⟩, ⟨%f1, Hs1⟩, ⟨%f2, Hs2⟩, ⟨%f3, Hs3⟩⟩, Hbufs⟩, ⟨⟨Hc0, Hc4, Hc5, Hc6, Hc7, Hc8, Hc9⟩, Hsems⟩, HO⟩
  ihave Hmw := ((K (F := F)).mayWaits_none (thr := (V d (cV L) (jV L))) hO) $$ Hlv
  ihave Hsp := (Transfers.pointsTo_toks_split (Transfers.shareTok fullShare 32 (widx (cC L) (sC L))) 3) $$ Hfl
  icases Hsp with ⟨Hfr, Htoks⟩
  ihave Htoks' := (Entails.of_eq (toks3 (F := F) _ _)) $$ Htoks
  icases Htoks' with ⟨Hfa, Hfb, Hfc⟩
  ihave Hfa' := (Entails.of_eq (pts_fl (F := F) d L _ _).symm) $$ Hfa
  ihave Hfb' := (Entails.of_eq (pts_fl (F := F) d L _ _).symm) $$ Hfb
  ihave Hfc' := (Entails.of_eq (pts_fl (F := F) d L _ _).symm) $$ Hfc
  ihave Hrd' := (Entails.of_eq (pts_rd (F := F) d L _ _).symm) $$ Hrd
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  sl_exec
  sl_for (invV d L fl rd o0 O W) $$ [Hmw Hc4 Hfa' Hc5 Hfb' Hc6 Hfc' Hc7 Hc8 Hc9 Hout HO]
  case region =>
    intro k acc
    exact outer_tripV d L fl rd o0 O W h2 h3 h4 _ _ _ _ _ _ _ _ _ _ _ _ _ _ _ _ _ _ _ _ _ _ _ _ _ _ _ _ _ _ _ _ _ _ _
      (by
        intro g hg
        have hg32 : g < 32 := by omega
        interval_cases g <;> exact mul_case d L rd f0 _ hg _) k acc
  · unfold invV
    rw [if_pos (by decide : (0 : ℕ) < 14)]
    unfold fetchingV0 fetchingV1 fetchingV2
    isplitl [Hmw]; · iexact Hmw
    isplitl [Hc4 Hfa' Hc5 Hfb' Hc6 Hfc']
    · isplitl [Hc4 Hfa']
      · iexists _, _; isplitl [Hc4 Hfa']
        · isplitl [Hc4]; · iexact Hc4
          iexact Hfa'
        · ipureintro; exact fetch_val1 d L fl _ (k0_off1 L 0#32) _ _ (off1_val L 0)
      isplitl [Hc5 Hfb']
      · iexists _, _; isplitl [Hc5 Hfb']
        · isplitl [Hc5]; · iexact Hc5
          iexact Hfb'
        · ipureintro; exact fetch_val2 d L fl _ (k0_off1 L 28672#32) _ _ (off1_val L 1)
      · iexists _, _; isplitl [Hc6 Hfc']
        · isplitl [Hc6]; · iexact Hc6
          iexact Hfc'
        · ipureintro; exact fetch_val3 d L fl _ (k0_off1 L 57344#32) _ _ (off1_val L 2)
    isplitl [Hc7]; · iexact Hc7
    isplitl [Hc8]; · iexact Hc8
    isplitl [Hc9]; · iexact Hc9
    isplitl [Hout]
    · iapply (Entails.of_eq (fam_zero (F := F) d L fl rd o0)); iexact Hout
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %_ HI
  unfold invV
  rw [if_neg (by decide : ¬ (k0_t1_loop.trips : ℕ) < 14)]
  unfold idle0 idle1 idle2
  icases HI with ⟨-, ⟨⟨⟨%g1, Hs1⟩, Hc4, Hfa⟩, ⟨⟨%g2, Hs2⟩, Hc5, Hfb⟩, ⟨⟨%g3, Hs3⟩, Hc6, Hfc⟩⟩, Hc7, Hc8, Hc9, Hout, %W', %hW', HO⟩
  sl_exec
  sl_step
  isplitl [Hfr Hfa Hfb Hfc Hrd' Hout]
  · isplitl [Hfr Hfa Hfb Hfc]
    · iapply (Transfers.pointsTo_toks_join (Transfers.shareTok fullShare 32 (widx (cC L) (sC L))) 3)
      isplitl [Hfr]; · iexact Hfr
      rw [toks3]
      isplitl [Hfa]; · iapply (Entails.of_eq (pts_fl (F := F) d L _ _)); iexact Hfa
      isplitl [Hfb]; · iapply (Entails.of_eq (pts_fl (F := F) d L _ _)); iexact Hfb
      iapply (Entails.of_eq (pts_fl (F := F) d L _ _)); iexact Hfc
    isplitl [Hrd']; · iapply (Entails.of_eq (pts_rd (F := F) d L _ _)); iexact Hrd'
    iapply (Entails.of_eq (fam_last (F := F) d L fl rd o0)); iexact Hout
  isplitl [Hs0' Hs1 Hs2 Hs3 Hbufs]
  · isplitl [Hs0' Hs1 Hs2 Hs3]
    · isplitl [Hs0']; · iexists _; iexact Hs0'
      isplitl [Hs1]; · iexists _; iexact Hs1
      isplitl [Hs2]; · iexists _; iexact Hs2
      iexists _; iexact Hs3
    iexact Hbufs
  isplitl [Hc0 Hc4 Hc5 Hc6 Hc7 Hc8 Hc9 Hsems]
  · isplitl [Hc0 Hc4 Hc5 Hc6 Hc7 Hc8 Hc9]
    · isplitl [Hc0]; · iexact Hc0
      isplitl [Hc4]; · iexact Hc4
      isplitl [Hc5]; · iexact Hc5
      isplitl [Hc6]; · iexact Hc6
      isplitl [Hc7]; · iexact Hc7
      isplitl [Hc8]; · iexact Hc8
      iexact Hc9
    iexact Hsems
  iexists W'; isplitr
  · ipureintro; exact hW'
  · iexact HO

end Cert.Proof.KB

end
-- ==== Proof.TileInnerValT1B.lean ====
/-
  Scratch buffer 1's in-place loop, by the stores: the rectangle of a store, what a load of it reads, a printed part's
  four stores over any contents, and the step from the buffer after n stores to the buffer after n + 4.
-/
import proofs.«205805_g86552180949287_cont_9to1_m_41_25_alg».proof.Proof.TileInnerValB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

abbrev vw1 : View sig .scVector .vmem S28672 .f32 := (Memref.whole cc0_scratch1 : Memref sig .scVector .vmem S28672 .f32).view

/-- The sixteen words of a store of trip `k`, as the program slices them. -/
abbrev Rk1 (k : Fin k0_t2_loop.trips) (t : Tr) : Rect S28672 :=
  Rect.unit (k0_off3 k (BitVec.ofNat 32 (1024 * t.1.val)) (BitVec.ofNat 32 (128 * t.2.1.val)) (BitVec.ofNat 32 (16 * t.2.2.val))) S16.size
    (k0_off3_inb k t.1 t.2.1 t.2.2)

/-- What a load of them reads. -/
abbrev rd1 (f : (⟨S28672, .f32⟩ : BufTy).Contents (Elt F)) (k : Fin k0_t2_loop.trips) (t : Tr) : Vec F S16 .f32 :=
  View.readAt (Elt F) vw1 (Rk1 k t).toLoadRect f

/-- A printed part's four stores over contents `f`: the carried product, then three loaded sixteens times the multiplier. -/
def wr4_1 (f : (⟨S28672, .f32⟩ : BufTy).Contents (Elt F)) (x m : FVec F S16 .f32) (k : Fin k0_t2_loop.trips) (t0 t1 t2 t3 : Tr) :
    (⟨S28672, .f32⟩ : BufTy).Contents (Elt F) :=
  vw1.writes (Elt F) f [⟨Rk1 k t3, payM m (rd1 f k t3)⟩, ⟨Rk1 k t2, payM m (rd1 f k t2)⟩, ⟨Rk1 k t1, payM m (rd1 f k t1)⟩, ⟨Rk1 k t0, payS x⟩]

/-- The first part's three. -/
def wr3_1 (f : (⟨S28672, .f32⟩ : BufTy).Contents (Elt F)) (m : FVec F S16 .f32) (k : Fin k0_t2_loop.trips) (t0 t1 t2 : Tr) :
    (⟨S28672, .f32⟩ : BufTy).Contents (Elt F) :=
  vw1.writes (Elt F) f [⟨Rk1 k t2, payM m (rd1 f k t2)⟩, ⟨Rk1 k t1, payM m (rd1 f k t1)⟩, ⟨Rk1 k t0, payM m (rd1 f k t0)⟩]

theorem emb1 (k : Fin k0_t2_loop.trips) (t : Tr) (x : S16.Idx) : (((Rk1 k t).emb x) 0).val = offw k.val t + (x 0).val := by
  show (k0_off3 k _ _ _) 0 + 1 * (x 0).val = _
  rw [k0_off3_eq k t.1 t.2.1 t.2.2]
  show (4096 * k.val + 1024 * t.1.val + 128 * t.2.1.val + 16 * t.2.2.val) + 1 * (x 0).val = _
  unfold offw; omega

theorem mem1 (k : Fin k0_t2_loop.trips) (t : Tr) (p : S28672.Idx) :
    p ∈ (vw1.slice (Rk1 k t)).set ↔ (offw k.val t ≤ (p 0).val ∧ (p 0).val < offw k.val t + 16) := by
  show p ∈ ((View.whole cc0_scratch1).slice (Rk1 k t)).set ↔ _
  rw [View.set_slice_whole, Rect.mem_set_unit]
  have e : (k0_off3 k (BitVec.ofNat 32 (1024 * t.1.val)) (BitVec.ofNat 32 (128 * t.2.1.val)) (BitVec.ofNat 32 (16 * t.2.2.val))) 0 = offw k.val t := by
    rw [k0_off3_eq k t.1 t.2.1 t.2.2]; rfl
  constructor
  · intro h; have h0 := h 0; rw [e] at h0; exact h0
  · intro h a
    match a with
    | ⟨0, _⟩ =>
      show (k0_off3 k (BitVec.ofNat 32 (1024 * t.1.val)) (BitVec.ofNat 32 (128 * t.2.1.val)) (BitVec.ofNat 32 (16 * t.2.2.val))) 0 ≤ (p 0).val
        ∧ (p 0).val < (k0_off3 k (BitVec.ofNat 32 (1024 * t.1.val)) (BitVec.ofNat 32 (128 * t.2.1.val)) (BitVec.ofNat 32 (16 * t.2.2.val))) 0 + 16
      rw [e]; exact h

/-- A load of a sixteen not yet stored reads the buffer as the trip found it. -/
theorem rd1_stC (mul : ℕ → FVec F S16 .f32) (g : (⟨S28672, .f32⟩ : BufTy).Contents (Elt F)) (k : Fin k0_t2_loop.trips) (n : ℕ) (t : Tr)
    (hn : n ≤ num t) (x : S16.Idx) : rd1 (stC mul g k.val n) k t x = g ((Rk1 k t).emb x) := by
  show stC mul g k.val n ((Rk1 k t).emb x) = _
  have hx : (x 0).val < 16 := (x 0).isLt
  have he := emb1 k t x
  have := (in_iff k.val t (((Rk1 k t).emb x) 0).val).mp ⟨by omega, by omega⟩
  exact stC_of_ge mul g k.val n _ this.1 (by omega)

/-- THE STEP: the right product stored over the sixteen of store number `num t`. -/
theorem store1 (mul : ℕ → FVec F S16 .f32) (g : (⟨S28672, .f32⟩ : BufTy).Contents (Elt F)) (k : Fin k0_t2_loop.trips) (t : Tr) (v : FVec F S16 .f32)
    (hv : ∀ x : S16.Idx, v x = FloatOps.mulf (g ((Rk1 k t).emb x)) (mul (grp t) x)) :
    (vw1.slice (Rk1 k t)).write (Elt F) (stC mul g k.val (num t)) v Finset.univ = stC mul g k.val (num t + 1) := by
  refine stC_step mul g k.val t _ (fun p h1 h2 => ?_) (fun p hp => ?_)
  · have hm : p ∈ (vw1.slice (Rk1 k t)).set := (mem1 k t p).mpr ⟨h1, h2⟩
    obtain ⟨x, rfl⟩ := View.exists_emb_of_mem_set _ hm
    rw [View.write_emb_of_mem _ _ (Finset.mem_univ x), cast_eq, hv x]
    show _ = maskBuf mul g ((Rk1 k t).emb x)
    have h1' : offw k.val t ≤ (((Rk1 k t).emb x) 0).val := h1
    have h2' : (((Rk1 k t).emb x) 0).val < offw k.val t + 16 := h2
    obtain ⟨hg, hl⟩ := grp_of_in k.val t _ ⟨h1', h2'⟩
    unfold maskBuf
    rw [hg]
    congr 2
    funext a
    match a with
    | ⟨0, _⟩ => exact Fin.ext (by show (x 0).val = (((Rk1 k t).emb x) 0).val % 16; rw [hl, emb1]; omega)
  · rw [View.write_of_not_mem _ _ _ (by rw [View.setOn_univ]; exact fun hm => hp ((mem1 k t p).mp hm))]

/-- A PART'S STEP: from the buffer after `n0` stores, with the product for store `n0` carried, the part's four stores
    give the buffer after `n0 + 4`, and the product it carries on is the one for store `n0 + 4`. -/
theorem part_step1 (mul : ℕ → FVec F S16 .f32) (g : (⟨S28672, .f32⟩ : BufTy).Contents (Elt F)) (k : Fin k0_t2_loop.trips)
    (t0 t1 t2 t3 t4 : Tr) (n0 : ℕ) (h0 : n0 = num t0) (h1 : n0 + 1 = num t1) (h2 : n0 + 2 = num t2) (h3 : n0 + 3 = num t3) (h4 : n0 + 4 = num t4)
    (m : FVec F S16 .f32) (hm1 : m = mul (grp t1)) (hm2 : m = mul (grp t2)) (hm3 : m = mul (grp t3)) (hm4 : m = mul (grp t4))
    (x : FVec F S16 .f32) (hx : x = payP (mul (grp t0)) (rd1 g k t0)) :
    wr4_1 (stC mul g k.val n0) x m k t0 t1 t2 t3 = stC mul g k.val (n0 + 4)
      ∧ payP m (rd1 (stC mul g k.val n0) k t4) = payP (mul (grp t4)) (rd1 g k t4) := by
  constructor
  · unfold wr4_1
    rw [View.writes_cons, View.writes_cons, View.writes_cons, View.writes_cons, View.writes_nil]
    have e0 : (vw1.slice (Rk1 k t0)).write (Elt F) (stC mul g k.val n0) (payS x) Finset.univ = stC mul g k.val (n0 + 1) := by
      have s := store1 mul g k t0 (payS x) (fun i => by rw [payS_eq, hx, payP_apply]; rfl)
      rw [← h0] at s; exact s
    have e1 : (vw1.slice (Rk1 k t1)).write (Elt F) (stC mul g k.val (n0 + 1)) (payM m (rd1 (stC mul g k.val n0) k t1)) Finset.univ = stC mul g k.val (n0 + 2) := by
      have s := store1 mul g k t1 (payM m (rd1 (stC mul g k.val n0) k t1)) (fun i => by rw [payM_apply, rd1_stC mul g k n0 t1 (by omega), hm1])
      rw [← h1] at s; exact s
    have e2 : (vw1.slice (Rk1 k t2)).write (Elt F) (stC mul g k.val (n0 + 2)) (payM m (rd1 (stC mul g k.val n0) k t2)) Finset.univ = stC mul g k.val (n0 + 3) := by
      have s := store1 mul g k t2 (payM m (rd1 (stC mul g k.val n0) k t2)) (fun i => by rw [payM_apply, rd1_stC mul g k n0 t2 (by omega), hm2])
      rw [← h2] at s; exact s
    have e3 : (vw1.slice (Rk1 k t3)).write (Elt F) (stC mul g k.val (n0 + 3)) (payM m (rd1 (stC mul g k.val n0) k t3)) Finset.univ = stC mul g k.val (n0 + 4) := by
      have s := store1 mul g k t3 (payM m (rd1 (stC mul g k.val n0) k t3)) (fun i => by rw [payM_apply, rd1_stC mul g k n0 t3 (by omega), hm3])
      rw [← h3] at s; exact s
    show (vw1.slice (Rk1 k t3)).write (Elt F) ((vw1.slice (Rk1 k t2)).write (Elt F) ((vw1.slice (Rk1 k t1)).write (Elt F)
      ((vw1.slice (Rk1 k t0)).write (Elt F) (stC mul g k.val n0) (payS x) Finset.univ) _ Finset.univ) _ Finset.univ) _ Finset.univ = _
    rw [e0, e1, e2, e3]
  · funext i
    rw [payP_apply, payP_apply, rd1_stC mul g k n0 t4 (by omega), hm4]
    rfl

/-- The first part's step: three stores from the buffer as the trip found it. -/
theorem part_first1 (mul : ℕ → FVec F S16 .f32) (g : (⟨S28672, .f32⟩ : BufTy).Contents (Elt F)) (k : Fin k0_t2_loop.trips)
    (t0 t1 t2 t3 : Tr) (h0 : 0 = num t0) (h1 : 1 = num t1) (h2 : 2 = num t2) (h3 : 3 = num t3)
    (m : FVec F S16 .f32) (hm0 : m = mul (grp t0)) (hm1 : m = mul (grp t1)) (hm2 : m = mul (grp t2)) (hm3 : m = mul (grp t3)) :
    wr3_1 (stC mul g k.val 0) m k t0 t1 t2 = stC mul g k.val 3
      ∧ payP m (rd1 (stC mul g k.val 0) k t3) = payP (mul (grp t3)) (rd1 g k t3) := by
  constructor
  · unfold wr3_1
    rw [View.writes_cons, View.writes_cons, View.writes_cons, View.writes_nil]
    have e0 : (vw1.slice (Rk1 k t0)).write (Elt F) (stC mul g k.val 0) (payM m (rd1 (stC mul g k.val 0) k t0)) Finset.univ = stC mul g k.val (0 + 1) := by
      have s := store1 mul g k t0 (payM m (rd1 (stC mul g k.val 0) k t0)) (fun i => by rw [payM_apply, rd1_stC mul g k 0 t0 (by omega), hm0])
      rw [← h0] at s; exact s
    have e1 : (vw1.slice (Rk1 k t1)).write (Elt F) (stC mul g k.val (0 + 1)) (payM m (rd1 (stC mul g k.val 0) k t1)) Finset.univ = stC mul g k.val (1 + 1) := by
      have s := store1 mul g k t1 (payM m (rd1 (stC mul g k.val 0) k t1)) (fun i => by rw [payM_apply, rd1_stC mul g k 0 t1 (by omega), hm1])
      rw [← h1] at s; exact s
    have e2 : (vw1.slice (Rk1 k t2)).write (Elt F) (stC mul g k.val (1 + 1)) (payM m (rd1 (stC mul g k.val 0) k t2)) Finset.univ = stC mul g k.val (2 + 1) := by
      have s := store1 mul g k t2 (payM m (rd1 (stC mul g k.val 0) k t2)) (fun i => by rw [payM_apply, rd1_stC mul g k 0 t2 (by omega), hm2])
      rw [← h2] at s; exact s
    show (vw1.slice (Rk1 k t2)).write (Elt F) ((vw1.slice (Rk1 k t1)).write (Elt F)
      ((vw1.slice (Rk1 k t0)).write (Elt F) (stC mul g k.val 0) _ Finset.univ) _ Finset.univ) _ Finset.univ = _
    rw [e0, e1, e2]
  · funext i
    rw [payP_apply, payP_apply, rd1_stC mul g k 0 t3 (by omega), hm3]
    rfl

/-- The last store: the carried product for store 255. -/
theorem part_last1 (mul : ℕ → FVec F S16 .f32) (g : (⟨S28672, .f32⟩ : BufTy).Contents (Elt F)) (k : Fin k0_t2_loop.trips)
    (t0 : Tr) (h0 : 255 = num t0) (x : FVec F S16 .f32) (hx : x = payP (mul (grp t0)) (rd1 g k t0)) :
    vw1.writes (Elt F) (stC mul g k.val 255) [⟨Rk1 k t0, payS x⟩] = stC mul g k.val 256 := by
  show (vw1.slice (Rk1 k t0)).write (Elt F) (stC mul g k.val 255) (payS x) Finset.univ = stC mul g k.val 256
  have s := store1 mul g k t0 (payS x) (fun i => by rw [payS_eq, hx, payP_apply]; rfl)
  rw [← h0] at s; exact s

end Cert.Proof.KB

end
-- ==== Proof.TileInnerValP1B.lean ====
/-
  Scratch buffer 1's in-place loop, part by part: each printed part of a trip is run once over ANY contents (its four
  stores and the product it carries on, as the three payload shapes), the parts are composed along the trip with the
  buffer kept in closed form by the number of stores done, and the loop goes by the blocks done.
  The table of parts below is a listing of the program's own parts in order (store numbers 4i − 5 … 4i − 2 for part i,
  the pending one 4i − 1); each entry has the same three-line proof.
-/
import proofs.«205805_g86552180949287_cont_9to1_m_41_25_alg».proof.Proof.TileInnerValT1B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

theorem b1_part1 (d : Dev nD) (L : grid0.Coords) (m : FVec F S16 .f32) (a c : BitVec 32) (k : Fin k0_t2_loop.trips) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part1 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m a c k)
      (fun r => iprop(⌜r.2.1 = payP m (rd1 f k ((0 : Fin 4), (3 : Fin 8), (0 : Fin 8)))⌝ ∗ ((Memref.whole cc0_scratch1 : Memref sig .scVector .vmem S28672 .f32).view.loc (V d (cV L) (jV L)) ↦{fullShare} wr3_1 f m k ((0 : Fin 4), (0 : Fin 8), (0 : Fin 8)) ((0 : Fin 4), (1 : Fin 8), (0 : Fin 8)) ((0 : Fin 4), (2 : Fin 8), (0 : Fin 8))))) := by
  iintro Hs
  sl_exec
  sl_step
  isplitr; · ipureintro; rfl
  iexact Hs

theorem b1_part2 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part2 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (0 : Fin 8)))⌝ ∗ ((Memref.whole cc0_scratch1 : Memref sig .scVector .vmem S28672 .f32).view.loc (V d (cV L) (jV L)) ↦{fullShare} wr4_1 f x m k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8))))) := by
  iintro Hs
  sl_exec
  sl_step
  isplitr; · ipureintro; rfl
  iexact Hs

theorem b1_part3 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part3 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (1 : Fin 8)))⌝ ∗ ((Memref.whole cc0_scratch1 : Memref sig .scVector .vmem S28672 .f32).view.loc (V d (cV L) (jV L)) ↦{fullShare} wr4_1 f x m k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8))))) := by
  iintro Hs
  sl_exec
  sl_step
  isplitr; · ipureintro; rfl
  iexact Hs

theorem b1_part4 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part4 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (1 : Fin 8)))⌝ ∗ ((Memref.whole cc0_scratch1 : Memref sig .scVector .vmem S28672 .f32).view.loc (V d (cV L) (jV L)) ↦{fullShare} wr4_1 f x m k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8))))) := by
  iintro Hs
  sl_exec
  sl_step
  isplitr; · ipureintro; rfl
  iexact Hs

theorem b1_part5 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part5 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (2 : Fin 8)))⌝ ∗ ((Memref.whole cc0_scratch1 : Memref sig .scVector .vmem S28672 .f32).view.loc (V d (cV L) (jV L)) ↦{fullShare} wr4_1 f x m k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8))))) := by
  iintro Hs
  sl_exec
  sl_step
  isplitr; · ipureintro; rfl
  iexact Hs

theorem b1_part6 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part6 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (2 : Fin 8)))⌝ ∗ ((Memref.whole cc0_scratch1 : Memref sig .scVector .vmem S28672 .f32).view.loc (V d (cV L) (jV L)) ↦{fullShare} wr4_1 f x m k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8))))) := by
  iintro Hs
  sl_exec
  sl_step
  isplitr; · ipureintro; rfl
  iexact Hs

theorem b1_part7 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part7 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (3 : Fin 8)))⌝ ∗ ((Memref.whole cc0_scratch1 : Memref sig .scVector .vmem S28672 .f32).view.loc (V d (cV L) (jV L)) ↦{fullShare} wr4_1 f x m k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8))))) := by
  iintro Hs
  sl_exec
  sl_step
  isplitr; · ipureintro; rfl
  iexact Hs

theorem b1_part8 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part8 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (3 : Fin 8)))⌝ ∗ ((Memref.whole cc0_scratch1 : Memref sig .scVector .vmem S28672 .f32).view.loc (V d (cV L) (jV L)) ↦{fullShare} wr4_1 f x m k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8))))) := by
  iintro Hs
  sl_exec
  sl_step
  isplitr; · ipureintro; rfl
  iexact Hs

theorem b1_part9 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part9 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (4 : Fin 8)))⌝ ∗ ((Memref.whole cc0_scratch1 : Memref sig .scVector .vmem S28672 .f32).view.loc (V d (cV L) (jV L)) ↦{fullShare} wr4_1 f x m k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8))))) := by
  iintro Hs
  sl_exec
  sl_step
  isplitr; · ipureintro; rfl
  iexact Hs

theorem b1_part10 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part10 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (4 : Fin 8)))⌝ ∗ ((Memref.whole cc0_scratch1 : Memref sig .scVector .vmem S28672 .f32).view.loc (V d (cV L) (jV L)) ↦{fullShare} wr4_1 f x m k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8))))) := by
  iintro Hs
  sl_exec
  sl_step
  isplitr; · ipureintro; rfl
  iexact Hs

theorem b1_part11 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part11 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (5 : Fin 8)))⌝ ∗ ((Memref.whole cc0_scratch1 : Memref sig .scVector .vmem S28672 .f32).view.loc (V d (cV L) (jV L)) ↦{fullShare} wr4_1 f x m k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8))))) := by
  iintro Hs
  sl_exec
  sl_step
  isplitr; · ipureintro; rfl
  iexact Hs

theorem b1_part12 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part12 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (5 : Fin 8)))⌝ ∗ ((Memref.whole cc0_scratch1 : Memref sig .scVector .vmem S28672 .f32).view.loc (V d (cV L) (jV L)) ↦{fullShare} wr4_1 f x m k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8))))) := by
  iintro Hs
  sl_exec
  sl_step
  isplitr; · ipureintro; rfl
  iexact Hs

theorem b1_part13 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part13 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (6 : Fin 8)))⌝ ∗ ((Memref.whole cc0_scratch1 : Memref sig .scVector .vmem S28672 .f32).view.loc (V d (cV L) (jV L)) ↦{fullShare} wr4_1 f x m k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8))))) := by
  iintro Hs
  sl_exec
  sl_step
  isplitr; · ipureintro; rfl
  iexact Hs

theorem b1_part14 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part14 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (6 : Fin 8)))⌝ ∗ ((Memref.whole cc0_scratch1 : Memref sig .scVector .vmem S28672 .f32).view.loc (V d (cV L) (jV L)) ↦{fullShare} wr4_1 f x m k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8))))) := by
  iintro Hs
  sl_exec
  sl_step
  isplitr; · ipureintro; rfl
  iexact Hs

theorem b1_part15 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part15 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (3 : Fin 8), (7 : Fin 8)))⌝ ∗ ((Memref.whole cc0_scratch1 : Memref sig .scVector .vmem S28672 .f32).view.loc (V d (cV L) (jV L)) ↦{fullShare} wr4_1 f x m k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8))))) := by
  iintro Hs
  sl_exec
  sl_step
  isplitr; · ipureintro; rfl
  iexact Hs

theorem b1_part16 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part16 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((0 : Fin 4), (7 : Fin 8), (7 : Fin 8)))⌝ ∗ ((Memref.whole cc0_scratch1 : Memref sig .scVector .vmem S28672 .f32).view.loc (V d (cV L) (jV L)) ↦{fullShare} wr4_1 f x m k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8))))) := by
  iintro Hs
  sl_exec
  sl_step
  isplitr; · ipureintro; rfl
  iexact Hs

theorem b1_part17 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part17 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (0 : Fin 8)))⌝ ∗ ((Memref.whole cc0_scratch1 : Memref sig .scVector .vmem S28672 .f32).view.loc (V d (cV L) (jV L)) ↦{fullShare} wr4_1 f x m k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8))))) := by
  iintro Hs
  sl_exec
  sl_step
  isplitr; · ipureintro; rfl
  iexact Hs

theorem b1_part18 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part18 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (0 : Fin 8)))⌝ ∗ ((Memref.whole cc0_scratch1 : Memref sig .scVector .vmem S28672 .f32).view.loc (V d (cV L) (jV L)) ↦{fullShare} wr4_1 f x m k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8))))) := by
  iintro Hs
  sl_exec
  sl_step
  isplitr; · ipureintro; rfl
  iexact Hs

theorem b1_part19 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part19 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (1 : Fin 8)))⌝ ∗ ((Memref.whole cc0_scratch1 : Memref sig .scVector .vmem S28672 .f32).view.loc (V d (cV L) (jV L)) ↦{fullShare} wr4_1 f x m k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8))))) := by
  iintro Hs
  sl_exec
  sl_step
  isplitr; · ipureintro; rfl
  iexact Hs

theorem b1_part20 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part20 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (1 : Fin 8)))⌝ ∗ ((Memref.whole cc0_scratch1 : Memref sig .scVector .vmem S28672 .f32).view.loc (V d (cV L) (jV L)) ↦{fullShare} wr4_1 f x m k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8))))) := by
  iintro Hs
  sl_exec
  sl_step
  isplitr; · ipureintro; rfl
  iexact Hs

theorem b1_part21 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part21 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (2 : Fin 8)))⌝ ∗ ((Memref.whole cc0_scratch1 : Memref sig .scVector .vmem S28672 .f32).view.loc (V d (cV L) (jV L)) ↦{fullShare} wr4_1 f x m k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8))))) := by
  iintro Hs
  sl_exec
  sl_step
  isplitr; · ipureintro; rfl
  iexact Hs

theorem b1_part22 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part22 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (2 : Fin 8)))⌝ ∗ ((Memref.whole cc0_scratch1 : Memref sig .scVector .vmem S28672 .f32).view.loc (V d (cV L) (jV L)) ↦{fullShare} wr4_1 f x m k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8))))) := by
  iintro Hs
  sl_exec
  sl_step
  isplitr; · ipureintro; rfl
  iexact Hs

theorem b1_part23 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part23 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (3 : Fin 8)))⌝ ∗ ((Memref.whole cc0_scratch1 : Memref sig .scVector .vmem S28672 .f32).view.loc (V d (cV L) (jV L)) ↦{fullShare} wr4_1 f x m k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8))))) := by
  iintro Hs
  sl_exec
  sl_step
  isplitr; · ipureintro; rfl
  iexact Hs

theorem b1_part24 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part24 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (3 : Fin 8)))⌝ ∗ ((Memref.whole cc0_scratch1 : Memref sig .scVector .vmem S28672 .f32).view.loc (V d (cV L) (jV L)) ↦{fullShare} wr4_1 f x m k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8))))) := by
  iintro Hs
  sl_exec
  sl_step
  isplitr; · ipureintro; rfl
  iexact Hs

theorem b1_part25 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part25 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (4 : Fin 8)))⌝ ∗ ((Memref.whole cc0_scratch1 : Memref sig .scVector .vmem S28672 .f32).view.loc (V d (cV L) (jV L)) ↦{fullShare} wr4_1 f x m k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8))))) := by
  iintro Hs
  sl_exec
  sl_step
  isplitr; · ipureintro; rfl
  iexact Hs

theorem b1_part26 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part26 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (4 : Fin 8)))⌝ ∗ ((Memref.whole cc0_scratch1 : Memref sig .scVector .vmem S28672 .f32).view.loc (V d (cV L) (jV L)) ↦{fullShare} wr4_1 f x m k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8))))) := by
  iintro Hs
  sl_exec
  sl_step
  isplitr; · ipureintro; rfl
  iexact Hs

theorem b1_part27 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part27 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (5 : Fin 8)))⌝ ∗ ((Memref.whole cc0_scratch1 : Memref sig .scVector .vmem S28672 .f32).view.loc (V d (cV L) (jV L)) ↦{fullShare} wr4_1 f x m k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8))))) := by
  iintro Hs
  sl_exec
  sl_step
  isplitr; · ipureintro; rfl
  iexact Hs

theorem b1_part28 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part28 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (5 : Fin 8)))⌝ ∗ ((Memref.whole cc0_scratch1 : Memref sig .scVector .vmem S28672 .f32).view.loc (V d (cV L) (jV L)) ↦{fullShare} wr4_1 f x m k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8))))) := by
  iintro Hs
  sl_exec
  sl_step
  isplitr; · ipureintro; rfl
  iexact Hs

theorem b1_part29 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part29 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (6 : Fin 8)))⌝ ∗ ((Memref.whole cc0_scratch1 : Memref sig .scVector .vmem S28672 .f32).view.loc (V d (cV L) (jV L)) ↦{fullShare} wr4_1 f x m k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8))))) := by
  iintro Hs
  sl_exec
  sl_step
  isplitr; · ipureintro; rfl
  iexact Hs

theorem b1_part30 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part30 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (6 : Fin 8)))⌝ ∗ ((Memref.whole cc0_scratch1 : Memref sig .scVector .vmem S28672 .f32).view.loc (V d (cV L) (jV L)) ↦{fullShare} wr4_1 f x m k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8))))) := by
  iintro Hs
  sl_exec
  sl_step
  isplitr; · ipureintro; rfl
  iexact Hs

theorem b1_part31 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part31 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (3 : Fin 8), (7 : Fin 8)))⌝ ∗ ((Memref.whole cc0_scratch1 : Memref sig .scVector .vmem S28672 .f32).view.loc (V d (cV L) (jV L)) ↦{fullShare} wr4_1 f x m k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8))))) := by
  iintro Hs
  sl_exec
  sl_step
  isplitr; · ipureintro; rfl
  iexact Hs

theorem b1_part32 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part32 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((1 : Fin 4), (7 : Fin 8), (7 : Fin 8)))⌝ ∗ ((Memref.whole cc0_scratch1 : Memref sig .scVector .vmem S28672 .f32).view.loc (V d (cV L) (jV L)) ↦{fullShare} wr4_1 f x m k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8))))) := by
  iintro Hs
  sl_exec
  sl_step
  isplitr; · ipureintro; rfl
  iexact Hs

theorem b1_part33 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part33 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (0 : Fin 8)))⌝ ∗ ((Memref.whole cc0_scratch1 : Memref sig .scVector .vmem S28672 .f32).view.loc (V d (cV L) (jV L)) ↦{fullShare} wr4_1 f x m k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8))))) := by
  iintro Hs
  sl_exec
  sl_step
  isplitr; · ipureintro; rfl
  iexact Hs

theorem b1_part34 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part34 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (0 : Fin 8)))⌝ ∗ ((Memref.whole cc0_scratch1 : Memref sig .scVector .vmem S28672 .f32).view.loc (V d (cV L) (jV L)) ↦{fullShare} wr4_1 f x m k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8))))) := by
  iintro Hs
  sl_exec
  sl_step
  isplitr; · ipureintro; rfl
  iexact Hs

theorem b1_part35 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part35 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (1 : Fin 8)))⌝ ∗ ((Memref.whole cc0_scratch1 : Memref sig .scVector .vmem S28672 .f32).view.loc (V d (cV L) (jV L)) ↦{fullShare} wr4_1 f x m k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8))))) := by
  iintro Hs
  sl_exec
  sl_step
  isplitr; · ipureintro; rfl
  iexact Hs

theorem b1_part36 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part36 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (1 : Fin 8)))⌝ ∗ ((Memref.whole cc0_scratch1 : Memref sig .scVector .vmem S28672 .f32).view.loc (V d (cV L) (jV L)) ↦{fullShare} wr4_1 f x m k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8))))) := by
  iintro Hs
  sl_exec
  sl_step
  isplitr; · ipureintro; rfl
  iexact Hs

theorem b1_part37 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part37 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (2 : Fin 8)))⌝ ∗ ((Memref.whole cc0_scratch1 : Memref sig .scVector .vmem S28672 .f32).view.loc (V d (cV L) (jV L)) ↦{fullShare} wr4_1 f x m k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8))))) := by
  iintro Hs
  sl_exec
  sl_step
  isplitr; · ipureintro; rfl
  iexact Hs

theorem b1_part38 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part38 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (2 : Fin 8)))⌝ ∗ ((Memref.whole cc0_scratch1 : Memref sig .scVector .vmem S28672 .f32).view.loc (V d (cV L) (jV L)) ↦{fullShare} wr4_1 f x m k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8))))) := by
  iintro Hs
  sl_exec
  sl_step
  isplitr; · ipureintro; rfl
  iexact Hs

theorem b1_part39 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part39 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (3 : Fin 8)))⌝ ∗ ((Memref.whole cc0_scratch1 : Memref sig .scVector .vmem S28672 .f32).view.loc (V d (cV L) (jV L)) ↦{fullShare} wr4_1 f x m k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8))))) := by
  iintro Hs
  sl_exec
  sl_step
  isplitr; · ipureintro; rfl
  iexact Hs

theorem b1_part40 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part40 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (3 : Fin 8)))⌝ ∗ ((Memref.whole cc0_scratch1 : Memref sig .scVector .vmem S28672 .f32).view.loc (V d (cV L) (jV L)) ↦{fullShare} wr4_1 f x m k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8))))) := by
  iintro Hs
  sl_exec
  sl_step
  isplitr; · ipureintro; rfl
  iexact Hs

theorem b1_part41 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part41 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (4 : Fin 8)))⌝ ∗ ((Memref.whole cc0_scratch1 : Memref sig .scVector .vmem S28672 .f32).view.loc (V d (cV L) (jV L)) ↦{fullShare} wr4_1 f x m k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8))))) := by
  iintro Hs
  sl_exec
  sl_step
  isplitr; · ipureintro; rfl
  iexact Hs

theorem b1_part42 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part42 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (4 : Fin 8)))⌝ ∗ ((Memref.whole cc0_scratch1 : Memref sig .scVector .vmem S28672 .f32).view.loc (V d (cV L) (jV L)) ↦{fullShare} wr4_1 f x m k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8))))) := by
  iintro Hs
  sl_exec
  sl_step
  isplitr; · ipureintro; rfl
  iexact Hs

theorem b1_part43 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part43 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (5 : Fin 8)))⌝ ∗ ((Memref.whole cc0_scratch1 : Memref sig .scVector .vmem S28672 .f32).view.loc (V d (cV L) (jV L)) ↦{fullShare} wr4_1 f x m k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8))))) := by
  iintro Hs
  sl_exec
  sl_step
  isplitr; · ipureintro; rfl
  iexact Hs

theorem b1_part44 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part44 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (5 : Fin 8)))⌝ ∗ ((Memref.whole cc0_scratch1 : Memref sig .scVector .vmem S28672 .f32).view.loc (V d (cV L) (jV L)) ↦{fullShare} wr4_1 f x m k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8))))) := by
  iintro Hs
  sl_exec
  sl_step
  isplitr; · ipureintro; rfl
  iexact Hs

theorem b1_part45 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part45 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (6 : Fin 8)))⌝ ∗ ((Memref.whole cc0_scratch1 : Memref sig .scVector .vmem S28672 .f32).view.loc (V d (cV L) (jV L)) ↦{fullShare} wr4_1 f x m k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8))))) := by
  iintro Hs
  sl_exec
  sl_step
  isplitr; · ipureintro; rfl
  iexact Hs

theorem b1_part46 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part46 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (6 : Fin 8)))⌝ ∗ ((Memref.whole cc0_scratch1 : Memref sig .scVector .vmem S28672 .f32).view.loc (V d (cV L) (jV L)) ↦{fullShare} wr4_1 f x m k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8))))) := by
  iintro Hs
  sl_exec
  sl_step
  isplitr; · ipureintro; rfl
  iexact Hs

theorem b1_part47 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part47 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (3 : Fin 8), (7 : Fin 8)))⌝ ∗ ((Memref.whole cc0_scratch1 : Memref sig .scVector .vmem S28672 .f32).view.loc (V d (cV L) (jV L)) ↦{fullShare} wr4_1 f x m k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8))))) := by
  iintro Hs
  sl_exec
  sl_step
  isplitr; · ipureintro; rfl
  iexact Hs

theorem b1_part48 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part48 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((2 : Fin 4), (7 : Fin 8), (7 : Fin 8)))⌝ ∗ ((Memref.whole cc0_scratch1 : Memref sig .scVector .vmem S28672 .f32).view.loc (V d (cV L) (jV L)) ↦{fullShare} wr4_1 f x m k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8))))) := by
  iintro Hs
  sl_exec
  sl_step
  isplitr; · ipureintro; rfl
  iexact Hs

theorem b1_part49 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part49 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (0 : Fin 8)))⌝ ∗ ((Memref.whole cc0_scratch1 : Memref sig .scVector .vmem S28672 .f32).view.loc (V d (cV L) (jV L)) ↦{fullShare} wr4_1 f x m k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8))))) := by
  iintro Hs
  sl_exec
  sl_step
  isplitr; · ipureintro; rfl
  iexact Hs

theorem b1_part50 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part50 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (0 : Fin 8)))⌝ ∗ ((Memref.whole cc0_scratch1 : Memref sig .scVector .vmem S28672 .f32).view.loc (V d (cV L) (jV L)) ↦{fullShare} wr4_1 f x m k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8))))) := by
  iintro Hs
  sl_exec
  sl_step
  isplitr; · ipureintro; rfl
  iexact Hs

theorem b1_part51 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part51 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (1 : Fin 8)))⌝ ∗ ((Memref.whole cc0_scratch1 : Memref sig .scVector .vmem S28672 .f32).view.loc (V d (cV L) (jV L)) ↦{fullShare} wr4_1 f x m k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8))))) := by
  iintro Hs
  sl_exec
  sl_step
  isplitr; · ipureintro; rfl
  iexact Hs

theorem b1_part52 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part52 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (1 : Fin 8)))⌝ ∗ ((Memref.whole cc0_scratch1 : Memref sig .scVector .vmem S28672 .f32).view.loc (V d (cV L) (jV L)) ↦{fullShare} wr4_1 f x m k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8))))) := by
  iintro Hs
  sl_exec
  sl_step
  isplitr; · ipureintro; rfl
  iexact Hs

theorem b1_part53 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part53 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (2 : Fin 8)))⌝ ∗ ((Memref.whole cc0_scratch1 : Memref sig .scVector .vmem S28672 .f32).view.loc (V d (cV L) (jV L)) ↦{fullShare} wr4_1 f x m k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8))))) := by
  iintro Hs
  sl_exec
  sl_step
  isplitr; · ipureintro; rfl
  iexact Hs

theorem b1_part54 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part54 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (2 : Fin 8)))⌝ ∗ ((Memref.whole cc0_scratch1 : Memref sig .scVector .vmem S28672 .f32).view.loc (V d (cV L) (jV L)) ↦{fullShare} wr4_1 f x m k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8))))) := by
  iintro Hs
  sl_exec
  sl_step
  isplitr; · ipureintro; rfl
  iexact Hs

theorem b1_part55 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part55 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (3 : Fin 8)))⌝ ∗ ((Memref.whole cc0_scratch1 : Memref sig .scVector .vmem S28672 .f32).view.loc (V d (cV L) (jV L)) ↦{fullShare} wr4_1 f x m k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8))))) := by
  iintro Hs
  sl_exec
  sl_step
  isplitr; · ipureintro; rfl
  iexact Hs

theorem b1_part56 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part56 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (3 : Fin 8)))⌝ ∗ ((Memref.whole cc0_scratch1 : Memref sig .scVector .vmem S28672 .f32).view.loc (V d (cV L) (jV L)) ↦{fullShare} wr4_1 f x m k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8))))) := by
  iintro Hs
  sl_exec
  sl_step
  isplitr; · ipureintro; rfl
  iexact Hs

theorem b1_part57 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part57 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (4 : Fin 8)))⌝ ∗ ((Memref.whole cc0_scratch1 : Memref sig .scVector .vmem S28672 .f32).view.loc (V d (cV L) (jV L)) ↦{fullShare} wr4_1 f x m k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8))))) := by
  iintro Hs
  sl_exec
  sl_step
  isplitr; · ipureintro; rfl
  iexact Hs

theorem b1_part58 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part58 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (4 : Fin 8)))⌝ ∗ ((Memref.whole cc0_scratch1 : Memref sig .scVector .vmem S28672 .f32).view.loc (V d (cV L) (jV L)) ↦{fullShare} wr4_1 f x m k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8))))) := by
  iintro Hs
  sl_exec
  sl_step
  isplitr; · ipureintro; rfl
  iexact Hs

theorem b1_part59 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part59 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (5 : Fin 8)))⌝ ∗ ((Memref.whole cc0_scratch1 : Memref sig .scVector .vmem S28672 .f32).view.loc (V d (cV L) (jV L)) ↦{fullShare} wr4_1 f x m k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8))))) := by
  iintro Hs
  sl_exec
  sl_step
  isplitr; · ipureintro; rfl
  iexact Hs

theorem b1_part60 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part60 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (5 : Fin 8)))⌝ ∗ ((Memref.whole cc0_scratch1 : Memref sig .scVector .vmem S28672 .f32).view.loc (V d (cV L) (jV L)) ↦{fullShare} wr4_1 f x m k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8))))) := by
  iintro Hs
  sl_exec
  sl_step
  isplitr; · ipureintro; rfl
  iexact Hs

theorem b1_part61 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part61 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (6 : Fin 8)))⌝ ∗ ((Memref.whole cc0_scratch1 : Memref sig .scVector .vmem S28672 .f32).view.loc (V d (cV L) (jV L)) ↦{fullShare} wr4_1 f x m k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8))))) := by
  iintro Hs
  sl_exec
  sl_step
  isplitr; · ipureintro; rfl
  iexact Hs

theorem b1_part62 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part62 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (6 : Fin 8)))⌝ ∗ ((Memref.whole cc0_scratch1 : Memref sig .scVector .vmem S28672 .f32).view.loc (V d (cV L) (jV L)) ↦{fullShare} wr4_1 f x m k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8))))) := by
  iintro Hs
  sl_exec
  sl_step
  isplitr; · ipureintro; rfl
  iexact Hs

theorem b1_part63 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part63 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (3 : Fin 8), (7 : Fin 8)))⌝ ∗ ((Memref.whole cc0_scratch1 : Memref sig .scVector .vmem S28672 .f32).view.loc (V d (cV L) (jV L)) ↦{fullShare} wr4_1 f x m k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8))))) := by
  iintro Hs
  sl_exec
  sl_step
  isplitr; · ipureintro; rfl
  iexact Hs

theorem b1_part64 (d : Dev nD) (L : grid0.Coords) (m : FVec F S16 .f32) (k : Fin k0_t2_loop.trips) (w : BitVec 32) (x : FVec F S16 .f32) (y : Vec F S16 .f32) (f : Buf (Elt F) ((V d (cV L) (jV L)).loc cc0_scratch1)) :
    ((Memref.whole cc0_scratch1 : Memref sig .scVector .vmem S28672 .f32).view.loc (V d (cV L) (jV L)) ↦{fullShare} f : sProp 𝕄) ⊢ wp frame (wpE (defs₀ (F := F)) 𝒱₀ (V d (cV L) (jV L)) none) Set.univ (k0_part64 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd1 f k ((3 : Fin 4), (7 : Fin 8), (7 : Fin 8)))⌝ ∗ ((Memref.whole cc0_scratch1 : Memref sig .scVector .vmem S28672 .f32).view.loc (V d (cV L) (jV L)) ↦{fullShare} wr4_1 f x m k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8))))) := by
  iintro Hs
  sl_exec
  sl_step
  isplitr; · ipureintro; rfl
  iexact Hs

set_option maxHeartbeats 8000000 in
/-- The first sixty parts of a trip: from the buffer as the trip found it to the buffer after 239 stores. -/
theorem b1_wrap (d : Dev nD) (L : grid0.Coords) (v10 v17 v24 v31 v38 v45 v52 v59 v66 v73 v80 v87 v94 v101 v108 v115 v122 v129 v136 v143 v150 v157 v164 v171 v178 v185 v192 v199 v206 v213 v220 v227 : FVec F S16 .f32) (a c : BitVec 32) (k : Fin k0_t2_loop.trips) (g : Buf (Elt F) ((V d (cV L) (jV L)).loc cc0_scratch1)) :
    ((Memref.whole cc0_scratch1 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 0 : sProp 𝕄) ⊢ wp frame (wpE (defs₀ (F := F)) 𝒱₀ (V d (cV L) (jV L)) none) Set.univ (k0_part65 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v10 v17 v24 v31 v38 v45 v52 v59 v66 v73 v80 v87 v94 v101 v108 v115 v122 v129 v136 v143 v150 v157 v164 v171 v178 v185 v192 v199 v206 v213 a c k)
      (fun r => iprop(⌜r.2.1 = payP ((mulTab v10 v17 v24 v31 v38 v45 v52 v59 v66 v73 v80 v87 v94 v101 v108 v115 v122 v129 v136 v143 v150 v157 v164 v171 v178 v185 v192 v199 v206 v213 v220 v227) (grp ((3 : Fin 4), (7 : Fin 8), (5 : Fin 8)))) (rd1 g k ((3 : Fin 4), (7 : Fin 8), (5 : Fin 8)))⌝ ∗ ((Memref.whole cc0_scratch1 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 239))) := by
  rw [k0_part65_eq_skeleton]; unfold k0_part65_skel
  refine wp_stepV d L (b1_part1 d L _ _ _ _ _) fun r => ?_
  obtain ⟨w, x1, y1⟩ := r
  refine pure_pre fun hx1 => ?_
  have ps1 := part_first1 (mulTab v10 v17 v24 v31 v38 v45 v52 v59 v66 v73 v80 v87 v94 v101 v108 v115 v122 v129 v136 v143 v150 v157 v164 v171 v178 v185 v192 v199 v206 v213 v220 v227) g k ((0 : Fin 4), (0 : Fin 8), (0 : Fin 8)) ((0 : Fin 4), (1 : Fin 8), (0 : Fin 8)) ((0 : Fin 4), (2 : Fin 8), (0 : Fin 8)) ((0 : Fin 4), (3 : Fin 8), (0 : Fin 8)) rfl rfl rfl rfl v10 rfl rfl rfl rfl
  rw [ps1.1]
  replace hx1 := hx1.trans ps1.2
  clear ps1
  refine wp_stepV d L (b1_part2 d L _ _ _ _ _ _) fun r => ?_
  obtain ⟨x2, y2⟩ := r
  refine pure_pre fun hx2 => ?_
  have ps2 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8)) ((0 : Fin 4), (7 : Fin 8), (0 : Fin 8)) 3 rfl rfl rfl rfl rfl v10 rfl rfl rfl rfl x1 hx1
  rw [ps2.1]
  replace hx2 := hx2.trans ps2.2
  clear ps2 hx1
  refine wp_stepV d L (b1_part3 d L _ _ _ _ _ _) fun r => ?_
  obtain ⟨x3, y3⟩ := r
  refine pure_pre fun hx3 => ?_
  have ps3 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8)) ((0 : Fin 4), (3 : Fin 8), (1 : Fin 8)) 7 rfl rfl rfl rfl rfl v17 rfl rfl rfl rfl x2 hx2
  rw [ps3.1]
  replace hx3 := hx3.trans ps3.2
  clear ps3 hx2
  refine wp_stepV d L (b1_part4 d L _ _ _ _ _ _) fun r => ?_
  obtain ⟨x4, y4⟩ := r
  refine pure_pre fun hx4 => ?_
  have ps4 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8)) ((0 : Fin 4), (7 : Fin 8), (1 : Fin 8)) 11 rfl rfl rfl rfl rfl v17 rfl rfl rfl rfl x3 hx3
  rw [ps4.1]
  replace hx4 := hx4.trans ps4.2
  clear ps4 hx3
  refine wp_stepV d L (b1_part5 d L _ _ _ _ _ _) fun r => ?_
  obtain ⟨x5, y5⟩ := r
  refine pure_pre fun hx5 => ?_
  have ps5 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8)) ((0 : Fin 4), (3 : Fin 8), (2 : Fin 8)) 15 rfl rfl rfl rfl rfl v24 rfl rfl rfl rfl x4 hx4
  rw [ps5.1]
  replace hx5 := hx5.trans ps5.2
  clear ps5 hx4
  refine wp_stepV d L (b1_part6 d L _ _ _ _ _ _) fun r => ?_
  obtain ⟨x6, y6⟩ := r
  refine pure_pre fun hx6 => ?_
  have ps6 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8)) ((0 : Fin 4), (7 : Fin 8), (2 : Fin 8)) 19 rfl rfl rfl rfl rfl v24 rfl rfl rfl rfl x5 hx5
  rw [ps6.1]
  replace hx6 := hx6.trans ps6.2
  clear ps6 hx5
  refine wp_stepV d L (b1_part7 d L _ _ _ _ _ _) fun r => ?_
  obtain ⟨x7, y7⟩ := r
  refine pure_pre fun hx7 => ?_
  have ps7 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8)) ((0 : Fin 4), (3 : Fin 8), (3 : Fin 8)) 23 rfl rfl rfl rfl rfl v31 rfl rfl rfl rfl x6 hx6
  rw [ps7.1]
  replace hx7 := hx7.trans ps7.2
  clear ps7 hx6
  refine wp_stepV d L (b1_part8 d L _ _ _ _ _ _) fun r => ?_
  obtain ⟨x8, y8⟩ := r
  refine pure_pre fun hx8 => ?_
  have ps8 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8)) ((0 : Fin 4), (7 : Fin 8), (3 : Fin 8)) 27 rfl rfl rfl rfl rfl v31 rfl rfl rfl rfl x7 hx7
  rw [ps8.1]
  replace hx8 := hx8.trans ps8.2
  clear ps8 hx7
  refine wp_stepV d L (b1_part9 d L _ _ _ _ _ _) fun r => ?_
  obtain ⟨x9, y9⟩ := r
  refine pure_pre fun hx9 => ?_
  have ps9 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8)) ((0 : Fin 4), (3 : Fin 8), (4 : Fin 8)) 31 rfl rfl rfl rfl rfl v38 rfl rfl rfl rfl x8 hx8
  rw [ps9.1]
  replace hx9 := hx9.trans ps9.2
  clear ps9 hx8
  refine wp_stepV d L (b1_part10 d L _ _ _ _ _ _) fun r => ?_
  obtain ⟨x10, y10⟩ := r
  refine pure_pre fun hx10 => ?_
  have ps10 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8)) ((0 : Fin 4), (7 : Fin 8), (4 : Fin 8)) 35 rfl rfl rfl rfl rfl v38 rfl rfl rfl rfl x9 hx9
  rw [ps10.1]
  replace hx10 := hx10.trans ps10.2
  clear ps10 hx9
  refine wp_stepV d L (b1_part11 d L _ _ _ _ _ _) fun r => ?_
  obtain ⟨x11, y11⟩ := r
  refine pure_pre fun hx11 => ?_
  have ps11 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8)) ((0 : Fin 4), (3 : Fin 8), (5 : Fin 8)) 39 rfl rfl rfl rfl rfl v45 rfl rfl rfl rfl x10 hx10
  rw [ps11.1]
  replace hx11 := hx11.trans ps11.2
  clear ps11 hx10
  refine wp_stepV d L (b1_part12 d L _ _ _ _ _ _) fun r => ?_
  obtain ⟨x12, y12⟩ := r
  refine pure_pre fun hx12 => ?_
  have ps12 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8)) ((0 : Fin 4), (7 : Fin 8), (5 : Fin 8)) 43 rfl rfl rfl rfl rfl v45 rfl rfl rfl rfl x11 hx11
  rw [ps12.1]
  replace hx12 := hx12.trans ps12.2
  clear ps12 hx11
  refine wp_stepV d L (b1_part13 d L _ _ _ _ _ _) fun r => ?_
  obtain ⟨x13, y13⟩ := r
  refine pure_pre fun hx13 => ?_
  have ps13 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8)) ((0 : Fin 4), (3 : Fin 8), (6 : Fin 8)) 47 rfl rfl rfl rfl rfl v52 rfl rfl rfl rfl x12 hx12
  rw [ps13.1]
  replace hx13 := hx13.trans ps13.2
  clear ps13 hx12
  refine wp_stepV d L (b1_part14 d L _ _ _ _ _ _) fun r => ?_
  obtain ⟨x14, y14⟩ := r
  refine pure_pre fun hx14 => ?_
  have ps14 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8)) ((0 : Fin 4), (7 : Fin 8), (6 : Fin 8)) 51 rfl rfl rfl rfl rfl v52 rfl rfl rfl rfl x13 hx13
  rw [ps14.1]
  replace hx14 := hx14.trans ps14.2
  clear ps14 hx13
  refine wp_stepV d L (b1_part15 d L _ _ _ _ _ _) fun r => ?_
  obtain ⟨x15, y15⟩ := r
  refine pure_pre fun hx15 => ?_
  have ps15 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8)) ((0 : Fin 4), (3 : Fin 8), (7 : Fin 8)) 55 rfl rfl rfl rfl rfl v59 rfl rfl rfl rfl x14 hx14
  rw [ps15.1]
  replace hx15 := hx15.trans ps15.2
  clear ps15 hx14
  refine wp_stepV d L (b1_part16 d L _ _ _ _ _ _) fun r => ?_
  obtain ⟨x16, y16⟩ := r
  refine pure_pre fun hx16 => ?_
  have ps16 := part_step1 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8)) ((0 : Fin 4), (7 : Fin 8), (7 : Fin 8)) 59 rfl rfl rfl rfl rfl v59 rfl rfl rfl rfl x15 hx15
  rw [ps16.1]
  replace hx16 := hx16.trans ps16.2
  clear ps16 hx15
  refine wp_stepV d L (b1_part17 d L _ _ _ _ _ _) fun r => ?_
  obtain ⟨x17, y17⟩ := r
  refine pure_pre fun hx17 => ?_
  have ps17 := part_step1 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8)) ((1 : Fin 4), (3 : Fin 8), (0 : Fin 8)) 63 rfl rfl rfl rfl rfl v66 rfl rfl rfl rfl x16 hx16
  rw [ps17.1]
  replace hx17 := hx17.trans ps17.2
  clear ps17 hx16
  refine wp_stepV d L (b1_part18 d L _ _ _ _ _ _) fun r => ?_
  obtain ⟨x18, y18⟩ := r
  refine pure_pre fun hx18 => ?_
  have ps18 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8)) ((1 : Fin 4), (7 : Fin 8), (0 : Fin 8)) 67 rfl rfl rfl rfl rfl v66 rfl rfl rfl rfl x17 hx17
  rw [ps18.1]
  replace hx18 := hx18.trans ps18.2
  clear ps18 hx17
  refine wp_stepV d L (b1_part19 d L _ _ _ _ _ _) fun r => ?_
  obtain ⟨x19, y19⟩ := r
  refine pure_pre fun hx19 => ?_
  have ps19 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8)) ((1 : Fin 4), (3 : Fin 8), (1 : Fin 8)) 71 rfl rfl rfl rfl rfl v73 rfl rfl rfl rfl x18 hx18
  rw [ps19.1]
  replace hx19 := hx19.trans ps19.2
  clear ps19 hx18
  refine wp_stepV d L (b1_part20 d L _ _ _ _ _ _) fun r => ?_
  obtain ⟨x20, y20⟩ := r
  refine pure_pre fun hx20 => ?_
  have ps20 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8)) ((1 : Fin 4), (7 : Fin 8), (1 : Fin 8)) 75 rfl rfl rfl rfl rfl v73 rfl rfl rfl rfl x19 hx19
  rw [ps20.1]
  replace hx20 := hx20.trans ps20.2
  clear ps20 hx19
  refine wp_stepV d L (b1_part21 d L _ _ _ _ _ _) fun r => ?_
  obtain ⟨x21, y21⟩ := r
  refine pure_pre fun hx21 => ?_
  have ps21 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8)) ((1 : Fin 4), (3 : Fin 8), (2 : Fin 8)) 79 rfl rfl rfl rfl rfl v80 rfl rfl rfl rfl x20 hx20
  rw [ps21.1]
  replace hx21 := hx21.trans ps21.2
  clear ps21 hx20
  refine wp_stepV d L (b1_part22 d L _ _ _ _ _ _) fun r => ?_
  obtain ⟨x22, y22⟩ := r
  refine pure_pre fun hx22 => ?_
  have ps22 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8)) ((1 : Fin 4), (7 : Fin 8), (2 : Fin 8)) 83 rfl rfl rfl rfl rfl v80 rfl rfl rfl rfl x21 hx21
  rw [ps22.1]
  replace hx22 := hx22.trans ps22.2
  clear ps22 hx21
  refine wp_stepV d L (b1_part23 d L _ _ _ _ _ _) fun r => ?_
  obtain ⟨x23, y23⟩ := r
  refine pure_pre fun hx23 => ?_
  have ps23 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8)) ((1 : Fin 4), (3 : Fin 8), (3 : Fin 8)) 87 rfl rfl rfl rfl rfl v87 rfl rfl rfl rfl x22 hx22
  rw [ps23.1]
  replace hx23 := hx23.trans ps23.2
  clear ps23 hx22
  refine wp_stepV d L (b1_part24 d L _ _ _ _ _ _) fun r => ?_
  obtain ⟨x24, y24⟩ := r
  refine pure_pre fun hx24 => ?_
  have ps24 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8)) ((1 : Fin 4), (7 : Fin 8), (3 : Fin 8)) 91 rfl rfl rfl rfl rfl v87 rfl rfl rfl rfl x23 hx23
  rw [ps24.1]
  replace hx24 := hx24.trans ps24.2
  clear ps24 hx23
  refine wp_stepV d L (b1_part25 d L _ _ _ _ _ _) fun r => ?_
  obtain ⟨x25, y25⟩ := r
  refine pure_pre fun hx25 => ?_
  have ps25 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8)) ((1 : Fin 4), (3 : Fin 8), (4 : Fin 8)) 95 rfl rfl rfl rfl rfl v94 rfl rfl rfl rfl x24 hx24
  rw [ps25.1]
  replace hx25 := hx25.trans ps25.2
  clear ps25 hx24
  refine wp_stepV d L (b1_part26 d L _ _ _ _ _ _) fun r => ?_
  obtain ⟨x26, y26⟩ := r
  refine pure_pre fun hx26 => ?_
  have ps26 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8)) ((1 : Fin 4), (7 : Fin 8), (4 : Fin 8)) 99 rfl rfl rfl rfl rfl v94 rfl rfl rfl rfl x25 hx25
  rw [ps26.1]
  replace hx26 := hx26.trans ps26.2
  clear ps26 hx25
  refine wp_stepV d L (b1_part27 d L _ _ _ _ _ _) fun r => ?_
  obtain ⟨x27, y27⟩ := r
  refine pure_pre fun hx27 => ?_
  have ps27 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8)) ((1 : Fin 4), (3 : Fin 8), (5 : Fin 8)) 103 rfl rfl rfl rfl rfl v101 rfl rfl rfl rfl x26 hx26
  rw [ps27.1]
  replace hx27 := hx27.trans ps27.2
  clear ps27 hx26
  refine wp_stepV d L (b1_part28 d L _ _ _ _ _ _) fun r => ?_
  obtain ⟨x28, y28⟩ := r
  refine pure_pre fun hx28 => ?_
  have ps28 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8)) ((1 : Fin 4), (7 : Fin 8), (5 : Fin 8)) 107 rfl rfl rfl rfl rfl v101 rfl rfl rfl rfl x27 hx27
  rw [ps28.1]
  replace hx28 := hx28.trans ps28.2
  clear ps28 hx27
  refine wp_stepV d L (b1_part29 d L _ _ _ _ _ _) fun r => ?_
  obtain ⟨x29, y29⟩ := r
  refine pure_pre fun hx29 => ?_
  have ps29 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8)) ((1 : Fin 4), (3 : Fin 8), (6 : Fin 8)) 111 rfl rfl rfl rfl rfl v108 rfl rfl rfl rfl x28 hx28
  rw [ps29.1]
  replace hx29 := hx29.trans ps29.2
  clear ps29 hx28
  refine wp_stepV d L (b1_part30 d L _ _ _ _ _ _) fun r => ?_
  obtain ⟨x30, y30⟩ := r
  refine pure_pre fun hx30 => ?_
  have ps30 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8)) ((1 : Fin 4), (7 : Fin 8), (6 : Fin 8)) 115 rfl rfl rfl rfl rfl v108 rfl rfl rfl rfl x29 hx29
  rw [ps30.1]
  replace hx30 := hx30.trans ps30.2
  clear ps30 hx29
  refine wp_stepV d L (b1_part31 d L _ _ _ _ _ _) fun r => ?_
  obtain ⟨x31, y31⟩ := r
  refine pure_pre fun hx31 => ?_
  have ps31 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8)) ((1 : Fin 4), (3 : Fin 8), (7 : Fin 8)) 119 rfl rfl rfl rfl rfl v115 rfl rfl rfl rfl x30 hx30
  rw [ps31.1]
  replace hx31 := hx31.trans ps31.2
  clear ps31 hx30
  refine wp_stepV d L (b1_part32 d L _ _ _ _ _ _) fun r => ?_
  obtain ⟨x32, y32⟩ := r
  refine pure_pre fun hx32 => ?_
  have ps32 := part_step1 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8)) ((1 : Fin 4), (7 : Fin 8), (7 : Fin 8)) 123 rfl rfl rfl rfl rfl v115 rfl rfl rfl rfl x31 hx31
  rw [ps32.1]
  replace hx32 := hx32.trans ps32.2
  clear ps32 hx31
  refine wp_stepV d L (b1_part33 d L _ _ _ _ _ _) fun r => ?_
  obtain ⟨x33, y33⟩ := r
  refine pure_pre fun hx33 => ?_
  have ps33 := part_step1 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8)) ((2 : Fin 4), (3 : Fin 8), (0 : Fin 8)) 127 rfl rfl rfl rfl rfl v122 rfl rfl rfl rfl x32 hx32
  rw [ps33.1]
  replace hx33 := hx33.trans ps33.2
  clear ps33 hx32
  refine wp_stepV d L (b1_part34 d L _ _ _ _ _ _) fun r => ?_
  obtain ⟨x34, y34⟩ := r
  refine pure_pre fun hx34 => ?_
  have ps34 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8)) ((2 : Fin 4), (7 : Fin 8), (0 : Fin 8)) 131 rfl rfl rfl rfl rfl v122 rfl rfl rfl rfl x33 hx33
  rw [ps34.1]
  replace hx34 := hx34.trans ps34.2
  clear ps34 hx33
  refine wp_stepV d L (b1_part35 d L _ _ _ _ _ _) fun r => ?_
  obtain ⟨x35, y35⟩ := r
  refine pure_pre fun hx35 => ?_
  have ps35 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8)) ((2 : Fin 4), (3 : Fin 8), (1 : Fin 8)) 135 rfl rfl rfl rfl rfl v129 rfl rfl rfl rfl x34 hx34
  rw [ps35.1]
  replace hx35 := hx35.trans ps35.2
  clear ps35 hx34
  refine wp_stepV d L (b1_part36 d L _ _ _ _ _ _) fun r => ?_
  obtain ⟨x36, y36⟩ := r
  refine pure_pre fun hx36 => ?_
  have ps36 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8)) ((2 : Fin 4), (7 : Fin 8), (1 : Fin 8)) 139 rfl rfl rfl rfl rfl v129 rfl rfl rfl rfl x35 hx35
  rw [ps36.1]
  replace hx36 := hx36.trans ps36.2
  clear ps36 hx35
  refine wp_stepV d L (b1_part37 d L _ _ _ _ _ _) fun r => ?_
  obtain ⟨x37, y37⟩ := r
  refine pure_pre fun hx37 => ?_
  have ps37 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8)) ((2 : Fin 4), (3 : Fin 8), (2 : Fin 8)) 143 rfl rfl rfl rfl rfl v136 rfl rfl rfl rfl x36 hx36
  rw [ps37.1]
  replace hx37 := hx37.trans ps37.2
  clear ps37 hx36
  refine wp_stepV d L (b1_part38 d L _ _ _ _ _ _) fun r => ?_
  obtain ⟨x38, y38⟩ := r
  refine pure_pre fun hx38 => ?_
  have ps38 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8)) ((2 : Fin 4), (7 : Fin 8), (2 : Fin 8)) 147 rfl rfl rfl rfl rfl v136 rfl rfl rfl rfl x37 hx37
  rw [ps38.1]
  replace hx38 := hx38.trans ps38.2
  clear ps38 hx37
  refine wp_stepV d L (b1_part39 d L _ _ _ _ _ _) fun r => ?_
  obtain ⟨x39, y39⟩ := r
  refine pure_pre fun hx39 => ?_
  have ps39 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8)) ((2 : Fin 4), (3 : Fin 8), (3 : Fin 8)) 151 rfl rfl rfl rfl rfl v143 rfl rfl rfl rfl x38 hx38
  rw [ps39.1]
  replace hx39 := hx39.trans ps39.2
  clear ps39 hx38
  refine wp_stepV d L (b1_part40 d L _ _ _ _ _ _) fun r => ?_
  obtain ⟨x40, y40⟩ := r
  refine pure_pre fun hx40 => ?_
  have ps40 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8)) ((2 : Fin 4), (7 : Fin 8), (3 : Fin 8)) 155 rfl rfl rfl rfl rfl v143 rfl rfl rfl rfl x39 hx39
  rw [ps40.1]
  replace hx40 := hx40.trans ps40.2
  clear ps40 hx39
  refine wp_stepV d L (b1_part41 d L _ _ _ _ _ _) fun r => ?_
  obtain ⟨x41, y41⟩ := r
  refine pure_pre fun hx41 => ?_
  have ps41 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8)) ((2 : Fin 4), (3 : Fin 8), (4 : Fin 8)) 159 rfl rfl rfl rfl rfl v150 rfl rfl rfl rfl x40 hx40
  rw [ps41.1]
  replace hx41 := hx41.trans ps41.2
  clear ps41 hx40
  refine wp_stepV d L (b1_part42 d L _ _ _ _ _ _) fun r => ?_
  obtain ⟨x42, y42⟩ := r
  refine pure_pre fun hx42 => ?_
  have ps42 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8)) ((2 : Fin 4), (7 : Fin 8), (4 : Fin 8)) 163 rfl rfl rfl rfl rfl v150 rfl rfl rfl rfl x41 hx41
  rw [ps42.1]
  replace hx42 := hx42.trans ps42.2
  clear ps42 hx41
  refine wp_stepV d L (b1_part43 d L _ _ _ _ _ _) fun r => ?_
  obtain ⟨x43, y43⟩ := r
  refine pure_pre fun hx43 => ?_
  have ps43 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8)) ((2 : Fin 4), (3 : Fin 8), (5 : Fin 8)) 167 rfl rfl rfl rfl rfl v157 rfl rfl rfl rfl x42 hx42
  rw [ps43.1]
  replace hx43 := hx43.trans ps43.2
  clear ps43 hx42
  refine wp_stepV d L (b1_part44 d L _ _ _ _ _ _) fun r => ?_
  obtain ⟨x44, y44⟩ := r
  refine pure_pre fun hx44 => ?_
  have ps44 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8)) ((2 : Fin 4), (7 : Fin 8), (5 : Fin 8)) 171 rfl rfl rfl rfl rfl v157 rfl rfl rfl rfl x43 hx43
  rw [ps44.1]
  replace hx44 := hx44.trans ps44.2
  clear ps44 hx43
  refine wp_stepV d L (b1_part45 d L _ _ _ _ _ _) fun r => ?_
  obtain ⟨x45, y45⟩ := r
  refine pure_pre fun hx45 => ?_
  have ps45 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8)) ((2 : Fin 4), (3 : Fin 8), (6 : Fin 8)) 175 rfl rfl rfl rfl rfl v164 rfl rfl rfl rfl x44 hx44
  rw [ps45.1]
  replace hx45 := hx45.trans ps45.2
  clear ps45 hx44
  refine wp_stepV d L (b1_part46 d L _ _ _ _ _ _) fun r => ?_
  obtain ⟨x46, y46⟩ := r
  refine pure_pre fun hx46 => ?_
  have ps46 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8)) ((2 : Fin 4), (7 : Fin 8), (6 : Fin 8)) 179 rfl rfl rfl rfl rfl v164 rfl rfl rfl rfl x45 hx45
  rw [ps46.1]
  replace hx46 := hx46.trans ps46.2
  clear ps46 hx45
  refine wp_stepV d L (b1_part47 d L _ _ _ _ _ _) fun r => ?_
  obtain ⟨x47, y47⟩ := r
  refine pure_pre fun hx47 => ?_
  have ps47 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8)) ((2 : Fin 4), (3 : Fin 8), (7 : Fin 8)) 183 rfl rfl rfl rfl rfl v171 rfl rfl rfl rfl x46 hx46
  rw [ps47.1]
  replace hx47 := hx47.trans ps47.2
  clear ps47 hx46
  refine wp_stepV d L (b1_part48 d L _ _ _ _ _ _) fun r => ?_
  obtain ⟨x48, y48⟩ := r
  refine pure_pre fun hx48 => ?_
  have ps48 := part_step1 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8)) ((2 : Fin 4), (7 : Fin 8), (7 : Fin 8)) 187 rfl rfl rfl rfl rfl v171 rfl rfl rfl rfl x47 hx47
  rw [ps48.1]
  replace hx48 := hx48.trans ps48.2
  clear ps48 hx47
  refine wp_stepV d L (b1_part49 d L _ _ _ _ _ _) fun r => ?_
  obtain ⟨x49, y49⟩ := r
  refine pure_pre fun hx49 => ?_
  have ps49 := part_step1 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8)) ((3 : Fin 4), (3 : Fin 8), (0 : Fin 8)) 191 rfl rfl rfl rfl rfl v178 rfl rfl rfl rfl x48 hx48
  rw [ps49.1]
  replace hx49 := hx49.trans ps49.2
  clear ps49 hx48
  refine wp_stepV d L (b1_part50 d L _ _ _ _ _ _) fun r => ?_
  obtain ⟨x50, y50⟩ := r
  refine pure_pre fun hx50 => ?_
  have ps50 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8)) ((3 : Fin 4), (7 : Fin 8), (0 : Fin 8)) 195 rfl rfl rfl rfl rfl v178 rfl rfl rfl rfl x49 hx49
  rw [ps50.1]
  replace hx50 := hx50.trans ps50.2
  clear ps50 hx49
  refine wp_stepV d L (b1_part51 d L _ _ _ _ _ _) fun r => ?_
  obtain ⟨x51, y51⟩ := r
  refine pure_pre fun hx51 => ?_
  have ps51 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8)) ((3 : Fin 4), (3 : Fin 8), (1 : Fin 8)) 199 rfl rfl rfl rfl rfl v185 rfl rfl rfl rfl x50 hx50
  rw [ps51.1]
  replace hx51 := hx51.trans ps51.2
  clear ps51 hx50
  refine wp_stepV d L (b1_part52 d L _ _ _ _ _ _) fun r => ?_
  obtain ⟨x52, y52⟩ := r
  refine pure_pre fun hx52 => ?_
  have ps52 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8)) ((3 : Fin 4), (7 : Fin 8), (1 : Fin 8)) 203 rfl rfl rfl rfl rfl v185 rfl rfl rfl rfl x51 hx51
  rw [ps52.1]
  replace hx52 := hx52.trans ps52.2
  clear ps52 hx51
  refine wp_stepV d L (b1_part53 d L _ _ _ _ _ _) fun r => ?_
  obtain ⟨x53, y53⟩ := r
  refine pure_pre fun hx53 => ?_
  have ps53 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8)) ((3 : Fin 4), (3 : Fin 8), (2 : Fin 8)) 207 rfl rfl rfl rfl rfl v192 rfl rfl rfl rfl x52 hx52
  rw [ps53.1]
  replace hx53 := hx53.trans ps53.2
  clear ps53 hx52
  refine wp_stepV d L (b1_part54 d L _ _ _ _ _ _) fun r => ?_
  obtain ⟨x54, y54⟩ := r
  refine pure_pre fun hx54 => ?_
  have ps54 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8)) ((3 : Fin 4), (7 : Fin 8), (2 : Fin 8)) 211 rfl rfl rfl rfl rfl v192 rfl rfl rfl rfl x53 hx53
  rw [ps54.1]
  replace hx54 := hx54.trans ps54.2
  clear ps54 hx53
  refine wp_stepV d L (b1_part55 d L _ _ _ _ _ _) fun r => ?_
  obtain ⟨x55, y55⟩ := r
  refine pure_pre fun hx55 => ?_
  have ps55 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8)) ((3 : Fin 4), (3 : Fin 8), (3 : Fin 8)) 215 rfl rfl rfl rfl rfl v199 rfl rfl rfl rfl x54 hx54
  rw [ps55.1]
  replace hx55 := hx55.trans ps55.2
  clear ps55 hx54
  refine wp_stepV d L (b1_part56 d L _ _ _ _ _ _) fun r => ?_
  obtain ⟨x56, y56⟩ := r
  refine pure_pre fun hx56 => ?_
  have ps56 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8)) ((3 : Fin 4), (7 : Fin 8), (3 : Fin 8)) 219 rfl rfl rfl rfl rfl v199 rfl rfl rfl rfl x55 hx55
  rw [ps56.1]
  replace hx56 := hx56.trans ps56.2
  clear ps56 hx55
  refine wp_stepV d L (b1_part57 d L _ _ _ _ _ _) fun r => ?_
  obtain ⟨x57, y57⟩ := r
  refine pure_pre fun hx57 => ?_
  have ps57 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8)) ((3 : Fin 4), (3 : Fin 8), (4 : Fin 8)) 223 rfl rfl rfl rfl rfl v206 rfl rfl rfl rfl x56 hx56
  rw [ps57.1]
  replace hx57 := hx57.trans ps57.2
  clear ps57 hx56
  refine wp_stepV d L (b1_part58 d L _ _ _ _ _ _) fun r => ?_
  obtain ⟨x58, y58⟩ := r
  refine pure_pre fun hx58 => ?_
  have ps58 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8)) ((3 : Fin 4), (7 : Fin 8), (4 : Fin 8)) 227 rfl rfl rfl rfl rfl v206 rfl rfl rfl rfl x57 hx57
  rw [ps58.1]
  replace hx58 := hx58.trans ps58.2
  clear ps58 hx57
  refine wp_stepV d L (b1_part59 d L _ _ _ _ _ _) fun r => ?_
  obtain ⟨x59, y59⟩ := r
  refine pure_pre fun hx59 => ?_
  have ps59 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8)) ((3 : Fin 4), (3 : Fin 8), (5 : Fin 8)) 231 rfl rfl rfl rfl rfl v213 rfl rfl rfl rfl x58 hx58
  rw [ps59.1]
  replace hx59 := hx59.trans ps59.2
  clear ps59 hx58
  refine wp_stepV d L (b1_part60 d L _ _ _ _ _ _) fun r => ?_
  obtain ⟨x60, y60⟩ := r
  refine pure_pre fun hx60 => ?_
  have ps60 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8)) ((3 : Fin 4), (7 : Fin 8), (5 : Fin 8)) 235 rfl rfl rfl rfl rfl v213 rfl rfl rfl rfl x59 hx59
  rw [ps60.1]
  replace hx60 := hx60.trans ps60.2
  clear ps60 hx59
  iintro H
  first | rw [wp_pure] | rw [wp_ret]
  imodintro
  isplitr; · ipureintro; exact hx60
  iexact H

set_option maxHeartbeats 2000000 in
/-- ONE TRIP: block `k` multiplied in place. -/
theorem trip1 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (a c : BitVec 32) (t : Fin k0_t1_loop.trips) (g : Buf (Elt F) ((V d (cV L) (jV L)).loc cc0_scratch1)) (k : Fin k0_t2_loop.trips) (acc : Unit) :
    ((Memref.whole cc0_scratch1 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g k.val : sProp 𝕄) ⊢ wp frame (wpE (defs₀ (F := F)) 𝒱₀ (V d (cV L) (jV L)) none) Set.univ (k0_t2_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a c t k acc)
      (fun _ => ((Memref.whole cc0_scratch1 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g (k.val + 1) : sProp 𝕄)) := by
  rw [← stC_zero, ← stC_full]
  unfold k0_t2_body
  refine wp_stepV d L (b1_wrap d L v10 v17 v24 v31 v38 v45 v52 v59 v66 v73 v80 v87 v94 v101 v108 v115 v122 v129 v136 v143 v150 v157 v164 v171 v178 v185 v192 v199 v206 v213 v220 v227 _ _ k g) fun r => ?_
  obtain ⟨w, x60, y60⟩ := r
  refine pure_pre fun hx60 => ?_
  refine wp_stepV d L (b1_part61 d L _ _ _ _ _ _) fun r => ?_
  obtain ⟨x61, y61⟩ := r
  refine pure_pre fun hx61 => ?_
  have ps61 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8)) ((3 : Fin 4), (3 : Fin 8), (6 : Fin 8)) 239 rfl rfl rfl rfl rfl v220 rfl rfl rfl rfl x60 hx60
  rw [ps61.1]
  replace hx61 := hx61.trans ps61.2
  clear ps61 hx60
  refine wp_stepV d L (b1_part62 d L _ _ _ _ _ _) fun r => ?_
  obtain ⟨x62, y62⟩ := r
  refine pure_pre fun hx62 => ?_
  have ps62 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8)) ((3 : Fin 4), (7 : Fin 8), (6 : Fin 8)) 243 rfl rfl rfl rfl rfl v220 rfl rfl rfl rfl x61 hx61
  rw [ps62.1]
  replace hx62 := hx62.trans ps62.2
  clear ps62 hx61
  refine wp_stepV d L (b1_part63 d L _ _ _ _ _ _) fun r => ?_
  obtain ⟨x63, y63⟩ := r
  refine pure_pre fun hx63 => ?_
  have ps63 := part_step1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8)) ((3 : Fin 4), (3 : Fin 8), (7 : Fin 8)) 247 rfl rfl rfl rfl rfl v227 rfl rfl rfl rfl x62 hx62
  rw [ps63.1]
  replace hx63 := hx63.trans ps63.2
  clear ps63 hx62
  refine wp_stepV d L (b1_part64 d L _ _ _ _ _ _) fun r => ?_
  obtain ⟨x64, y64⟩ := r
  refine pure_pre fun hx64 => ?_
  have ps64 := part_step1 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8)) ((3 : Fin 4), (7 : Fin 8), (7 : Fin 8)) 251 rfl rfl rfl rfl rfl v227 rfl rfl rfl rfl x63 hx63
  rw [ps64.1]
  replace hx64 := hx64.trans ps64.2
  clear ps64 hx63
  iintro Hs
  sl_exec
  sl_step
  rw [← part_last1 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (7 : Fin 8)) rfl x64 hx64]
  iexact Hs

/-- THE LOOP: every block multiplied in place. -/
theorem inner1 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (a c : BitVec 32) (t : Fin k0_t1_loop.trips) (g : Buf (Elt F) ((V d (cV L) (jV L)).loc cc0_scratch1)) :
    ((Memref.whole cc0_scratch1 : Memref sig .scVector .vmem S28672 .f32).view.loc (V d (cV L) (jV L)) ↦{fullShare} g : sProp 𝕄) ⊢ wp frame (wpE (defs₀ (F := F)) 𝒱₀ (V d (cV L) (jV L)) none) Set.univ (Scf.Loop.for k0_t2_loop k0_t2_ok ⟨⟩ (k0_t2_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a c t))
      (fun _ => ((Memref.whole cc0_scratch1 : Memref sig .scVector .vmem S28672 .f32).view.loc (V d (cV L) (jV L)) ↦{fullShare} maskBuf (mulTab v10 v17 v24 v31 v38 v45 v52 v59 v66 v73 v80 v87 v94 v101 v108 v115 v122 v129 v136 v143 v150 v157 v164 v171 v178 v185 v192 v199 v206 v213 v220 v227) g : sProp 𝕄)) := by
  iintro Hs
  sl_for (fun (j : Nat) (_ : PUnit) => ((Memref.whole cc0_scratch1 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g j : sProp 𝕄)) $$ [Hs]
  case region => intro j acc; exact trip1 d L v3 v10 v17 v24 v31 v38 v45 v52 v59 v66 v73 v80 v87 v94 v101 v108 v115 v122 v129 v136 v143 v150 v157 v164 v171 v178 v185 v192 v199 v206 v213 v220 v227 a c t g j acc
  rw [maskBlocks_zero, show Scf.trips k0_t2_loop.lb k0_t2_loop.ub k0_t2_loop.st = 7 from rfl, maskBlocks_seven]
  isplitl [Hs]; · iexact Hs
  iintro %acc H
  iexact H

end Cert.Proof.KB

end
-- ==== Proof.TileInnerValT2B.lean ====
/-
  Scratch buffer 2's in-place loop, by the stores: the rectangle of a store, what a load of it reads, a printed part's
  four stores over any contents, and the step from the buffer after n stores to the buffer after n + 4.
-/
import proofs.«205805_g86552180949287_cont_9to1_m_41_25_alg».proof.Proof.TileInnerValB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

abbrev vw2 : View sig .scVector .vmem S28672 .f32 := (Memref.whole cc0_scratch2 : Memref sig .scVector .vmem S28672 .f32).view

/-- The sixteen words of a store of trip `k`, as the program slices them. -/
abbrev Rk2 (k : Fin k0_t3_loop.trips) (t : Tr) : Rect S28672 :=
  Rect.unit (k0_off4 k (BitVec.ofNat 32 (1024 * t.1.val)) (BitVec.ofNat 32 (128 * t.2.1.val)) (BitVec.ofNat 32 (16 * t.2.2.val))) S16.size
    (k0_off4_inb k t.1 t.2.1 t.2.2)

/-- What a load of them reads. -/
abbrev rd2 (f : (⟨S28672, .f32⟩ : BufTy).Contents (Elt F)) (k : Fin k0_t3_loop.trips) (t : Tr) : Vec F S16 .f32 :=
  View.readAt (Elt F) vw2 (Rk2 k t).toLoadRect f

/-- A printed part's four stores over contents `f`: the carried product, then three loaded sixteens times the multiplier. -/
def wr4_2 (f : (⟨S28672, .f32⟩ : BufTy).Contents (Elt F)) (x m : FVec F S16 .f32) (k : Fin k0_t3_loop.trips) (t0 t1 t2 t3 : Tr) :
    (⟨S28672, .f32⟩ : BufTy).Contents (Elt F) :=
  vw2.writes (Elt F) f [⟨Rk2 k t3, payM m (rd2 f k t3)⟩, ⟨Rk2 k t2, payM m (rd2 f k t2)⟩, ⟨Rk2 k t1, payM m (rd2 f k t1)⟩, ⟨Rk2 k t0, payS x⟩]

/-- The first part's three. -/
def wr3_2 (f : (⟨S28672, .f32⟩ : BufTy).Contents (Elt F)) (m : FVec F S16 .f32) (k : Fin k0_t3_loop.trips) (t0 t1 t2 : Tr) :
    (⟨S28672, .f32⟩ : BufTy).Contents (Elt F) :=
  vw2.writes (Elt F) f [⟨Rk2 k t2, payM m (rd2 f k t2)⟩, ⟨Rk2 k t1, payM m (rd2 f k t1)⟩, ⟨Rk2 k t0, payM m (rd2 f k t0)⟩]

theorem emb2 (k : Fin k0_t3_loop.trips) (t : Tr) (x : S16.Idx) : (((Rk2 k t).emb x) 0).val = offw k.val t + (x 0).val := by
  show (k0_off4 k _ _ _) 0 + 1 * (x 0).val = _
  rw [k0_off4_eq k t.1 t.2.1 t.2.2]
  show (4096 * k.val + 1024 * t.1.val + 128 * t.2.1.val + 16 * t.2.2.val) + 1 * (x 0).val = _
  unfold offw; omega

theorem mem2 (k : Fin k0_t3_loop.trips) (t : Tr) (p : S28672.Idx) :
    p ∈ (vw2.slice (Rk2 k t)).set ↔ (offw k.val t ≤ (p 0).val ∧ (p 0).val < offw k.val t + 16) := by
  show p ∈ ((View.whole cc0_scratch2).slice (Rk2 k t)).set ↔ _
  rw [View.set_slice_whole, Rect.mem_set_unit]
  have e : (k0_off4 k (BitVec.ofNat 32 (1024 * t.1.val)) (BitVec.ofNat 32 (128 * t.2.1.val)) (BitVec.ofNat 32 (16 * t.2.2.val))) 0 = offw k.val t := by
    rw [k0_off4_eq k t.1 t.2.1 t.2.2]; rfl
  constructor
  · intro h; have h0 := h 0; rw [e] at h0; exact h0
  · intro h a
    match a with
    | ⟨0, _⟩ =>
      show (k0_off4 k (BitVec.ofNat 32 (1024 * t.1.val)) (BitVec.ofNat 32 (128 * t.2.1.val)) (BitVec.ofNat 32 (16 * t.2.2.val))) 0 ≤ (p 0).val
        ∧ (p 0).val < (k0_off4 k (BitVec.ofNat 32 (1024 * t.1.val)) (BitVec.ofNat 32 (128 * t.2.1.val)) (BitVec.ofNat 32 (16 * t.2.2.val))) 0 + 16
      rw [e]; exact h

/-- A load of a sixteen not yet stored reads the buffer as the trip found it. -/
theorem rd2_stC (mul : ℕ → FVec F S16 .f32) (g : (⟨S28672, .f32⟩ : BufTy).Contents (Elt F)) (k : Fin k0_t3_loop.trips) (n : ℕ) (t : Tr)
    (hn : n ≤ num t) (x : S16.Idx) : rd2 (stC mul g k.val n) k t x = g ((Rk2 k t).emb x) := by
  show stC mul g k.val n ((Rk2 k t).emb x) = _
  have hx : (x 0).val < 16 := (x 0).isLt
  have he := emb2 k t x
  have := (in_iff k.val t (((Rk2 k t).emb x) 0).val).mp ⟨by omega, by omega⟩
  exact stC_of_ge mul g k.val n _ this.1 (by omega)

/-- THE STEP: the right product stored over the sixteen of store number `num t`. -/
theorem store2 (mul : ℕ → FVec F S16 .f32) (g : (⟨S28672, .f32⟩ : BufTy).Contents (Elt F)) (k : Fin k0_t3_loop.trips) (t : Tr) (v : FVec F S16 .f32)
    (hv : ∀ x : S16.Idx, v x = FloatOps.mulf (g ((Rk2 k t).emb x)) (mul (grp t) x)) :
    (vw2.slice (Rk2 k t)).write (Elt F) (stC mul g k.val (num t)) v Finset.univ = stC mul g k.val (num t + 1) := by
  refine stC_step mul g k.val t _ (fun p h1 h2 => ?_) (fun p hp => ?_)
  · have hm : p ∈ (vw2.slice (Rk2 k t)).set := (mem2 k t p).mpr ⟨h1, h2⟩
    obtain ⟨x, rfl⟩ := View.exists_emb_of_mem_set _ hm
    rw [View.write_emb_of_mem _ _ (Finset.mem_univ x), cast_eq, hv x]
    show _ = maskBuf mul g ((Rk2 k t).emb x)
    have h1' : offw k.val t ≤ (((Rk2 k t).emb x) 0).val := h1
    have h2' : (((Rk2 k t).emb x) 0).val < offw k.val t + 16 := h2
    obtain ⟨hg, hl⟩ := grp_of_in k.val t _ ⟨h1', h2'⟩
    unfold maskBuf
    rw [hg]
    congr 2
    funext a
    match a with
    | ⟨0, _⟩ => exact Fin.ext (by show (x 0).val = (((Rk2 k t).emb x) 0).val % 16; rw [hl, emb2]; omega)
  · rw [View.write_of_not_mem _ _ _ (by rw [View.setOn_univ]; exact fun hm => hp ((mem2 k t p).mp hm))]

/-- A PART'S STEP: from the buffer after `n0` stores, with the product for store `n0` carried, the part's four stores
    give the buffer after `n0 + 4`, and the product it carries on is the one for store `n0 + 4`. -/
theorem part_step2 (mul : ℕ → FVec F S16 .f32) (g : (⟨S28672, .f32⟩ : BufTy).Contents (Elt F)) (k : Fin k0_t3_loop.trips)
    (t0 t1 t2 t3 t4 : Tr) (n0 : ℕ) (h0 : n0 = num t0) (h1 : n0 + 1 = num t1) (h2 : n0 + 2 = num t2) (h3 : n0 + 3 = num t3) (h4 : n0 + 4 = num t4)
    (m : FVec F S16 .f32) (hm1 : m = mul (grp t1)) (hm2 : m = mul (grp t2)) (hm3 : m = mul (grp t3)) (hm4 : m = mul (grp t4))
    (x : FVec F S16 .f32) (hx : x = payP (mul (grp t0)) (rd2 g k t0)) :
    wr4_2 (stC mul g k.val n0) x m k t0 t1 t2 t3 = stC mul g k.val (n0 + 4)
      ∧ payP m (rd2 (stC mul g k.val n0) k t4) = payP (mul (grp t4)) (rd2 g k t4) := by
  constructor
  · unfold wr4_2
    rw [View.writes_cons, View.writes_cons, View.writes_cons, View.writes_cons, View.writes_nil]
    have e0 : (vw2.slice (Rk2 k t0)).write (Elt F) (stC mul g k.val n0) (payS x) Finset.univ = stC mul g k.val (n0 + 1) := by
      have s := store2 mul g k t0 (payS x) (fun i => by rw [payS_eq, hx, payP_apply]; rfl)
      rw [← h0] at s; exact s
    have e1 : (vw2.slice (Rk2 k t1)).write (Elt F) (stC mul g k.val (n0 + 1)) (payM m (rd2 (stC mul g k.val n0) k t1)) Finset.univ = stC mul g k.val (n0 + 2) := by
      have s := store2 mul g k t1 (payM m (rd2 (stC mul g k.val n0) k t1)) (fun i => by rw [payM_apply, rd2_stC mul g k n0 t1 (by omega), hm1])
      rw [← h1] at s; exact s
    have e2 : (vw2.slice (Rk2 k t2)).write (Elt F) (stC mul g k.val (n0 + 2)) (payM m (rd2 (stC mul g k.val n0) k t2)) Finset.univ = stC mul g k.val (n0 + 3) := by
      have s := store2 mul g k t2 (payM m (rd2 (stC mul g k.val n0) k t2)) (fun i => by rw [payM_apply, rd2_stC mul g k n0 t2 (by omega), hm2])
      rw [← h2] at s; exact s
    have e3 : (vw2.slice (Rk2 k t3)).write (Elt F) (stC mul g k.val (n0 + 3)) (payM m (rd2 (stC mul g k.val n0) k t3)) Finset.univ = stC mul g k.val (n0 + 4) := by
      have s := store2 mul g k t3 (payM m (rd2 (stC mul g k.val n0) k t3)) (fun i => by rw [payM_apply, rd2_stC mul g k n0 t3 (by omega), hm3])
      rw [← h3] at s; exact s
    show (vw2.slice (Rk2 k t3)).write (Elt F) ((vw2.slice (Rk2 k t2)).write (Elt F) ((vw2.slice (Rk2 k t1)).write (Elt F)
      ((vw2.slice (Rk2 k t0)).write (Elt F) (stC mul g k.val n0) (payS x) Finset.univ) _ Finset.univ) _ Finset.univ) _ Finset.univ = _
    rw [e0, e1, e2, e3]
  · funext i
    rw [payP_apply, payP_apply, rd2_stC mul g k n0 t4 (by omega), hm4]
    rfl

/-- The first part's step: three stores from the buffer as the trip found it. -/
theorem part_first2 (mul : ℕ → FVec F S16 .f32) (g : (⟨S28672, .f32⟩ : BufTy).Contents (Elt F)) (k : Fin k0_t3_loop.trips)
    (t0 t1 t2 t3 : Tr) (h0 : 0 = num t0) (h1 : 1 = num t1) (h2 : 2 = num t2) (h3 : 3 = num t3)
    (m : FVec F S16 .f32) (hm0 : m = mul (grp t0)) (hm1 : m = mul (grp t1)) (hm2 : m = mul (grp t2)) (hm3 : m = mul (grp t3)) :
    wr3_2 (stC mul g k.val 0) m k t0 t1 t2 = stC mul g k.val 3
      ∧ payP m (rd2 (stC mul g k.val 0) k t3) = payP (mul (grp t3)) (rd2 g k t3) := by
  constructor
  · unfold wr3_2
    rw [View.writes_cons, View.writes_cons, View.writes_cons, View.writes_nil]
    have e0 : (vw2.slice (Rk2 k t0)).write (Elt F) (stC mul g k.val 0) (payM m (rd2 (stC mul g k.val 0) k t0)) Finset.univ = stC mul g k.val (0 + 1) := by
      have s := store2 mul g k t0 (payM m (rd2 (stC mul g k.val 0) k t0)) (fun i => by rw [payM_apply, rd2_stC mul g k 0 t0 (by omega), hm0])
      rw [← h0] at s; exact s
    have e1 : (vw2.slice (Rk2 k t1)).write (Elt F) (stC mul g k.val (0 + 1)) (payM m (rd2 (stC mul g k.val 0) k t1)) Finset.univ = stC mul g k.val (1 + 1) := by
      have s := store2 mul g k t1 (payM m (rd2 (stC mul g k.val 0) k t1)) (fun i => by rw [payM_apply, rd2_stC mul g k 0 t1 (by omega), hm1])
      rw [← h1] at s; exact s
    have e2 : (vw2.slice (Rk2 k t2)).write (Elt F) (stC mul g k.val (1 + 1)) (payM m (rd2 (stC mul g k.val 0) k t2)) Finset.univ = stC mul g k.val (2 + 1) := by
      have s := store2 mul g k t2 (payM m (rd2 (stC mul g k.val 0) k t2)) (fun i => by rw [payM_apply, rd2_stC mul g k 0 t2 (by omega), hm2])
      rw [← h2] at s; exact s
    show (vw2.slice (Rk2 k t2)).write (Elt F) ((vw2.slice (Rk2 k t1)).write (Elt F)
      ((vw2.slice (Rk2 k t0)).write (Elt F) (stC mul g k.val 0) _ Finset.univ) _ Finset.univ) _ Finset.univ = _
    rw [e0, e1, e2]
  · funext i
    rw [payP_apply, payP_apply, rd2_stC mul g k 0 t3 (by omega), hm3]
    rfl

/-- The last store: the carried product for store 255. -/
theorem part_last2 (mul : ℕ → FVec F S16 .f32) (g : (⟨S28672, .f32⟩ : BufTy).Contents (Elt F)) (k : Fin k0_t3_loop.trips)
    (t0 : Tr) (h0 : 255 = num t0) (x : FVec F S16 .f32) (hx : x = payP (mul (grp t0)) (rd2 g k t0)) :
    vw2.writes (Elt F) (stC mul g k.val 255) [⟨Rk2 k t0, payS x⟩] = stC mul g k.val 256 := by
  show (vw2.slice (Rk2 k t0)).write (Elt F) (stC mul g k.val 255) (payS x) Finset.univ = stC mul g k.val 256
  have s := store2 mul g k t0 (payS x) (fun i => by rw [payS_eq, hx, payP_apply]; rfl)
  rw [← h0] at s; exact s

end Cert.Proof.KB

end
-- ==== Proof.TileInnerValP2B.lean ====
/-
  Scratch buffer 2's in-place loop, part by part: each printed part of a trip is run once over ANY contents (its four
  stores and the product it carries on, as the three payload shapes), the parts are composed along the trip with the
  buffer kept in closed form by the number of stores done, and the loop goes by the blocks done.
  The table of parts below is a listing of the program's own parts in order (store numbers 4i − 5 … 4i − 2 for part i,
  the pending one 4i − 1); each entry has the same three-line proof.
-/
import proofs.«205805_g86552180949287_cont_9to1_m_41_25_alg».proof.Proof.TileInnerValT2B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

theorem b2_part1 (d : Dev nD) (L : grid0.Coords) (m : FVec F S16 .f32) (a c : BitVec 32) (k : Fin k0_t3_loop.trips) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part66 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m a c k)
      (fun r => iprop(⌜r.2.1 = payP m (rd2 f k ((0 : Fin 4), (3 : Fin 8), (0 : Fin 8)))⌝ ∗ ((Memref.whole cc0_scratch2 : Memref sig .scVector .vmem S28672 .f32).view.loc (V d (cV L) (jV L)) ↦{fullShare} wr3_2 f m k ((0 : Fin 4), (0 : Fin 8), (0 : Fin 8)) ((0 : Fin 4), (1 : Fin 8), (0 : Fin 8)) ((0 : Fin 4), (2 : Fin 8), (0 : Fin 8))))) := by
  iintro Hs
  sl_exec
  sl_step
  isplitr; · ipureintro; rfl
  iexact Hs

theorem b2_part2 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part67 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (0 : Fin 8)))⌝ ∗ ((Memref.whole cc0_scratch2 : Memref sig .scVector .vmem S28672 .f32).view.loc (V d (cV L) (jV L)) ↦{fullShare} wr4_2 f x m k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8))))) := by
  iintro Hs
  sl_exec
  sl_step
  isplitr; · ipureintro; rfl
  iexact Hs

theorem b2_part3 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part68 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (1 : Fin 8)))⌝ ∗ ((Memref.whole cc0_scratch2 : Memref sig .scVector .vmem S28672 .f32).view.loc (V d (cV L) (jV L)) ↦{fullShare} wr4_2 f x m k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8))))) := by
  iintro Hs
  sl_exec
  sl_step
  isplitr; · ipureintro; rfl
  iexact Hs

theorem b2_part4 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part69 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (1 : Fin 8)))⌝ ∗ ((Memref.whole cc0_scratch2 : Memref sig .scVector .vmem S28672 .f32).view.loc (V d (cV L) (jV L)) ↦{fullShare} wr4_2 f x m k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8))))) := by
  iintro Hs
  sl_exec
  sl_step
  isplitr; · ipureintro; rfl
  iexact Hs

theorem b2_part5 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part70 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (2 : Fin 8)))⌝ ∗ ((Memref.whole cc0_scratch2 : Memref sig .scVector .vmem S28672 .f32).view.loc (V d (cV L) (jV L)) ↦{fullShare} wr4_2 f x m k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8))))) := by
  iintro Hs
  sl_exec
  sl_step
  isplitr; · ipureintro; rfl
  iexact Hs

theorem b2_part6 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part71 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (2 : Fin 8)))⌝ ∗ ((Memref.whole cc0_scratch2 : Memref sig .scVector .vmem S28672 .f32).view.loc (V d (cV L) (jV L)) ↦{fullShare} wr4_2 f x m k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8))))) := by
  iintro Hs
  sl_exec
  sl_step
  isplitr; · ipureintro; rfl
  iexact Hs

theorem b2_part7 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part72 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (3 : Fin 8)))⌝ ∗ ((Memref.whole cc0_scratch2 : Memref sig .scVector .vmem S28672 .f32).view.loc (V d (cV L) (jV L)) ↦{fullShare} wr4_2 f x m k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8))))) := by
  iintro Hs
  sl_exec
  sl_step
  isplitr; · ipureintro; rfl
  iexact Hs

theorem b2_part8 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part73 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (3 : Fin 8)))⌝ ∗ ((Memref.whole cc0_scratch2 : Memref sig .scVector .vmem S28672 .f32).view.loc (V d (cV L) (jV L)) ↦{fullShare} wr4_2 f x m k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8))))) := by
  iintro Hs
  sl_exec
  sl_step
  isplitr; · ipureintro; rfl
  iexact Hs

theorem b2_part9 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part74 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (4 : Fin 8)))⌝ ∗ ((Memref.whole cc0_scratch2 : Memref sig .scVector .vmem S28672 .f32).view.loc (V d (cV L) (jV L)) ↦{fullShare} wr4_2 f x m k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8))))) := by
  iintro Hs
  sl_exec
  sl_step
  isplitr; · ipureintro; rfl
  iexact Hs

theorem b2_part10 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part75 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (4 : Fin 8)))⌝ ∗ ((Memref.whole cc0_scratch2 : Memref sig .scVector .vmem S28672 .f32).view.loc (V d (cV L) (jV L)) ↦{fullShare} wr4_2 f x m k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8))))) := by
  iintro Hs
  sl_exec
  sl_step
  isplitr; · ipureintro; rfl
  iexact Hs

theorem b2_part11 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part76 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (5 : Fin 8)))⌝ ∗ ((Memref.whole cc0_scratch2 : Memref sig .scVector .vmem S28672 .f32).view.loc (V d (cV L) (jV L)) ↦{fullShare} wr4_2 f x m k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8))))) := by
  iintro Hs
  sl_exec
  sl_step
  isplitr; · ipureintro; rfl
  iexact Hs

theorem b2_part12 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part77 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (5 : Fin 8)))⌝ ∗ ((Memref.whole cc0_scratch2 : Memref sig .scVector .vmem S28672 .f32).view.loc (V d (cV L) (jV L)) ↦{fullShare} wr4_2 f x m k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8))))) := by
  iintro Hs
  sl_exec
  sl_step
  isplitr; · ipureintro; rfl
  iexact Hs

theorem b2_part13 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part78 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (6 : Fin 8)))⌝ ∗ ((Memref.whole cc0_scratch2 : Memref sig .scVector .vmem S28672 .f32).view.loc (V d (cV L) (jV L)) ↦{fullShare} wr4_2 f x m k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8))))) := by
  iintro Hs
  sl_exec
  sl_step
  isplitr; · ipureintro; rfl
  iexact Hs

theorem b2_part14 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part79 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (6 : Fin 8)))⌝ ∗ ((Memref.whole cc0_scratch2 : Memref sig .scVector .vmem S28672 .f32).view.loc (V d (cV L) (jV L)) ↦{fullShare} wr4_2 f x m k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8))))) := by
  iintro Hs
  sl_exec
  sl_step
  isplitr; · ipureintro; rfl
  iexact Hs

theorem b2_part15 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part80 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (3 : Fin 8), (7 : Fin 8)))⌝ ∗ ((Memref.whole cc0_scratch2 : Memref sig .scVector .vmem S28672 .f32).view.loc (V d (cV L) (jV L)) ↦{fullShare} wr4_2 f x m k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8))))) := by
  iintro Hs
  sl_exec
  sl_step
  isplitr; · ipureintro; rfl
  iexact Hs

theorem b2_part16 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part81 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((0 : Fin 4), (7 : Fin 8), (7 : Fin 8)))⌝ ∗ ((Memref.whole cc0_scratch2 : Memref sig .scVector .vmem S28672 .f32).view.loc (V d (cV L) (jV L)) ↦{fullShare} wr4_2 f x m k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8))))) := by
  iintro Hs
  sl_exec
  sl_step
  isplitr; · ipureintro; rfl
  iexact Hs

theorem b2_part17 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part82 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (0 : Fin 8)))⌝ ∗ ((Memref.whole cc0_scratch2 : Memref sig .scVector .vmem S28672 .f32).view.loc (V d (cV L) (jV L)) ↦{fullShare} wr4_2 f x m k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8))))) := by
  iintro Hs
  sl_exec
  sl_step
  isplitr; · ipureintro; rfl
  iexact Hs

theorem b2_part18 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part83 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (0 : Fin 8)))⌝ ∗ ((Memref.whole cc0_scratch2 : Memref sig .scVector .vmem S28672 .f32).view.loc (V d (cV L) (jV L)) ↦{fullShare} wr4_2 f x m k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8))))) := by
  iintro Hs
  sl_exec
  sl_step
  isplitr; · ipureintro; rfl
  iexact Hs

theorem b2_part19 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part84 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (1 : Fin 8)))⌝ ∗ ((Memref.whole cc0_scratch2 : Memref sig .scVector .vmem S28672 .f32).view.loc (V d (cV L) (jV L)) ↦{fullShare} wr4_2 f x m k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8))))) := by
  iintro Hs
  sl_exec
  sl_step
  isplitr; · ipureintro; rfl
  iexact Hs

theorem b2_part20 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part85 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (1 : Fin 8)))⌝ ∗ ((Memref.whole cc0_scratch2 : Memref sig .scVector .vmem S28672 .f32).view.loc (V d (cV L) (jV L)) ↦{fullShare} wr4_2 f x m k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8))))) := by
  iintro Hs
  sl_exec
  sl_step
  isplitr; · ipureintro; rfl
  iexact Hs

theorem b2_part21 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part86 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (2 : Fin 8)))⌝ ∗ ((Memref.whole cc0_scratch2 : Memref sig .scVector .vmem S28672 .f32).view.loc (V d (cV L) (jV L)) ↦{fullShare} wr4_2 f x m k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8))))) := by
  iintro Hs
  sl_exec
  sl_step
  isplitr; · ipureintro; rfl
  iexact Hs

theorem b2_part22 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part87 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (2 : Fin 8)))⌝ ∗ ((Memref.whole cc0_scratch2 : Memref sig .scVector .vmem S28672 .f32).view.loc (V d (cV L) (jV L)) ↦{fullShare} wr4_2 f x m k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8))))) := by
  iintro Hs
  sl_exec
  sl_step
  isplitr; · ipureintro; rfl
  iexact Hs

theorem b2_part23 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part88 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (3 : Fin 8)))⌝ ∗ ((Memref.whole cc0_scratch2 : Memref sig .scVector .vmem S28672 .f32).view.loc (V d (cV L) (jV L)) ↦{fullShare} wr4_2 f x m k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8))))) := by
  iintro Hs
  sl_exec
  sl_step
  isplitr; · ipureintro; rfl
  iexact Hs

theorem b2_part24 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part89 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (3 : Fin 8)))⌝ ∗ ((Memref.whole cc0_scratch2 : Memref sig .scVector .vmem S28672 .f32).view.loc (V d (cV L) (jV L)) ↦{fullShare} wr4_2 f x m k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8))))) := by
  iintro Hs
  sl_exec
  sl_step
  isplitr; · ipureintro; rfl
  iexact Hs

theorem b2_part25 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part90 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (4 : Fin 8)))⌝ ∗ ((Memref.whole cc0_scratch2 : Memref sig .scVector .vmem S28672 .f32).view.loc (V d (cV L) (jV L)) ↦{fullShare} wr4_2 f x m k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8))))) := by
  iintro Hs
  sl_exec
  sl_step
  isplitr; · ipureintro; rfl
  iexact Hs

theorem b2_part26 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part91 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (4 : Fin 8)))⌝ ∗ ((Memref.whole cc0_scratch2 : Memref sig .scVector .vmem S28672 .f32).view.loc (V d (cV L) (jV L)) ↦{fullShare} wr4_2 f x m k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8))))) := by
  iintro Hs
  sl_exec
  sl_step
  isplitr; · ipureintro; rfl
  iexact Hs

theorem b2_part27 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part92 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (5 : Fin 8)))⌝ ∗ ((Memref.whole cc0_scratch2 : Memref sig .scVector .vmem S28672 .f32).view.loc (V d (cV L) (jV L)) ↦{fullShare} wr4_2 f x m k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8))))) := by
  iintro Hs
  sl_exec
  sl_step
  isplitr; · ipureintro; rfl
  iexact Hs

theorem b2_part28 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part93 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (5 : Fin 8)))⌝ ∗ ((Memref.whole cc0_scratch2 : Memref sig .scVector .vmem S28672 .f32).view.loc (V d (cV L) (jV L)) ↦{fullShare} wr4_2 f x m k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8))))) := by
  iintro Hs
  sl_exec
  sl_step
  isplitr; · ipureintro; rfl
  iexact Hs

theorem b2_part29 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part94 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (6 : Fin 8)))⌝ ∗ ((Memref.whole cc0_scratch2 : Memref sig .scVector .vmem S28672 .f32).view.loc (V d (cV L) (jV L)) ↦{fullShare} wr4_2 f x m k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8))))) := by
  iintro Hs
  sl_exec
  sl_step
  isplitr; · ipureintro; rfl
  iexact Hs

theorem b2_part30 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part95 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (6 : Fin 8)))⌝ ∗ ((Memref.whole cc0_scratch2 : Memref sig .scVector .vmem S28672 .f32).view.loc (V d (cV L) (jV L)) ↦{fullShare} wr4_2 f x m k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8))))) := by
  iintro Hs
  sl_exec
  sl_step
  isplitr; · ipureintro; rfl
  iexact Hs

theorem b2_part31 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part96 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (3 : Fin 8), (7 : Fin 8)))⌝ ∗ ((Memref.whole cc0_scratch2 : Memref sig .scVector .vmem S28672 .f32).view.loc (V d (cV L) (jV L)) ↦{fullShare} wr4_2 f x m k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8))))) := by
  iintro Hs
  sl_exec
  sl_step
  isplitr; · ipureintro; rfl
  iexact Hs

theorem b2_part32 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part97 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((1 : Fin 4), (7 : Fin 8), (7 : Fin 8)))⌝ ∗ ((Memref.whole cc0_scratch2 : Memref sig .scVector .vmem S28672 .f32).view.loc (V d (cV L) (jV L)) ↦{fullShare} wr4_2 f x m k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8))))) := by
  iintro Hs
  sl_exec
  sl_step
  isplitr; · ipureintro; rfl
  iexact Hs

theorem b2_part33 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part98 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (0 : Fin 8)))⌝ ∗ ((Memref.whole cc0_scratch2 : Memref sig .scVector .vmem S28672 .f32).view.loc (V d (cV L) (jV L)) ↦{fullShare} wr4_2 f x m k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8))))) := by
  iintro Hs
  sl_exec
  sl_step
  isplitr; · ipureintro; rfl
  iexact Hs

theorem b2_part34 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part99 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (0 : Fin 8)))⌝ ∗ ((Memref.whole cc0_scratch2 : Memref sig .scVector .vmem S28672 .f32).view.loc (V d (cV L) (jV L)) ↦{fullShare} wr4_2 f x m k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8))))) := by
  iintro Hs
  sl_exec
  sl_step
  isplitr; · ipureintro; rfl
  iexact Hs

theorem b2_part35 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part100 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (1 : Fin 8)))⌝ ∗ ((Memref.whole cc0_scratch2 : Memref sig .scVector .vmem S28672 .f32).view.loc (V d (cV L) (jV L)) ↦{fullShare} wr4_2 f x m k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8))))) := by
  iintro Hs
  sl_exec
  sl_step
  isplitr; · ipureintro; rfl
  iexact Hs

theorem b2_part36 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part101 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (1 : Fin 8)))⌝ ∗ ((Memref.whole cc0_scratch2 : Memref sig .scVector .vmem S28672 .f32).view.loc (V d (cV L) (jV L)) ↦{fullShare} wr4_2 f x m k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8))))) := by
  iintro Hs
  sl_exec
  sl_step
  isplitr; · ipureintro; rfl
  iexact Hs

theorem b2_part37 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part102 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (2 : Fin 8)))⌝ ∗ ((Memref.whole cc0_scratch2 : Memref sig .scVector .vmem S28672 .f32).view.loc (V d (cV L) (jV L)) ↦{fullShare} wr4_2 f x m k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8))))) := by
  iintro Hs
  sl_exec
  sl_step
  isplitr; · ipureintro; rfl
  iexact Hs

theorem b2_part38 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part103 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (2 : Fin 8)))⌝ ∗ ((Memref.whole cc0_scratch2 : Memref sig .scVector .vmem S28672 .f32).view.loc (V d (cV L) (jV L)) ↦{fullShare} wr4_2 f x m k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8))))) := by
  iintro Hs
  sl_exec
  sl_step
  isplitr; · ipureintro; rfl
  iexact Hs

theorem b2_part39 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part104 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (3 : Fin 8)))⌝ ∗ ((Memref.whole cc0_scratch2 : Memref sig .scVector .vmem S28672 .f32).view.loc (V d (cV L) (jV L)) ↦{fullShare} wr4_2 f x m k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8))))) := by
  iintro Hs
  sl_exec
  sl_step
  isplitr; · ipureintro; rfl
  iexact Hs

theorem b2_part40 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part105 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (3 : Fin 8)))⌝ ∗ ((Memref.whole cc0_scratch2 : Memref sig .scVector .vmem S28672 .f32).view.loc (V d (cV L) (jV L)) ↦{fullShare} wr4_2 f x m k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8))))) := by
  iintro Hs
  sl_exec
  sl_step
  isplitr; · ipureintro; rfl
  iexact Hs

theorem b2_part41 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part106 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (4 : Fin 8)))⌝ ∗ ((Memref.whole cc0_scratch2 : Memref sig .scVector .vmem S28672 .f32).view.loc (V d (cV L) (jV L)) ↦{fullShare} wr4_2 f x m k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8))))) := by
  iintro Hs
  sl_exec
  sl_step
  isplitr; · ipureintro; rfl
  iexact Hs

theorem b2_part42 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part107 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (4 : Fin 8)))⌝ ∗ ((Memref.whole cc0_scratch2 : Memref sig .scVector .vmem S28672 .f32).view.loc (V d (cV L) (jV L)) ↦{fullShare} wr4_2 f x m k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8))))) := by
  iintro Hs
  sl_exec
  sl_step
  isplitr; · ipureintro; rfl
  iexact Hs

theorem b2_part43 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part108 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (5 : Fin 8)))⌝ ∗ ((Memref.whole cc0_scratch2 : Memref sig .scVector .vmem S28672 .f32).view.loc (V d (cV L) (jV L)) ↦{fullShare} wr4_2 f x m k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8))))) := by
  iintro Hs
  sl_exec
  sl_step
  isplitr; · ipureintro; rfl
  iexact Hs

theorem b2_part44 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part109 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (5 : Fin 8)))⌝ ∗ ((Memref.whole cc0_scratch2 : Memref sig .scVector .vmem S28672 .f32).view.loc (V d (cV L) (jV L)) ↦{fullShare} wr4_2 f x m k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8))))) := by
  iintro Hs
  sl_exec
  sl_step
  isplitr; · ipureintro; rfl
  iexact Hs

theorem b2_part45 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part110 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (6 : Fin 8)))⌝ ∗ ((Memref.whole cc0_scratch2 : Memref sig .scVector .vmem S28672 .f32).view.loc (V d (cV L) (jV L)) ↦{fullShare} wr4_2 f x m k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8))))) := by
  iintro Hs
  sl_exec
  sl_step
  isplitr; · ipureintro; rfl
  iexact Hs

theorem b2_part46 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part111 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (6 : Fin 8)))⌝ ∗ ((Memref.whole cc0_scratch2 : Memref sig .scVector .vmem S28672 .f32).view.loc (V d (cV L) (jV L)) ↦{fullShare} wr4_2 f x m k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8))))) := by
  iintro Hs
  sl_exec
  sl_step
  isplitr; · ipureintro; rfl
  iexact Hs

theorem b2_part47 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part112 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (3 : Fin 8), (7 : Fin 8)))⌝ ∗ ((Memref.whole cc0_scratch2 : Memref sig .scVector .vmem S28672 .f32).view.loc (V d (cV L) (jV L)) ↦{fullShare} wr4_2 f x m k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8))))) := by
  iintro Hs
  sl_exec
  sl_step
  isplitr; · ipureintro; rfl
  iexact Hs

theorem b2_part48 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part113 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((2 : Fin 4), (7 : Fin 8), (7 : Fin 8)))⌝ ∗ ((Memref.whole cc0_scratch2 : Memref sig .scVector .vmem S28672 .f32).view.loc (V d (cV L) (jV L)) ↦{fullShare} wr4_2 f x m k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8))))) := by
  iintro Hs
  sl_exec
  sl_step
  isplitr; · ipureintro; rfl
  iexact Hs

theorem b2_part49 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part114 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (0 : Fin 8)))⌝ ∗ ((Memref.whole cc0_scratch2 : Memref sig .scVector .vmem S28672 .f32).view.loc (V d (cV L) (jV L)) ↦{fullShare} wr4_2 f x m k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8))))) := by
  iintro Hs
  sl_exec
  sl_step
  isplitr; · ipureintro; rfl
  iexact Hs

theorem b2_part50 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part115 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (0 : Fin 8)))⌝ ∗ ((Memref.whole cc0_scratch2 : Memref sig .scVector .vmem S28672 .f32).view.loc (V d (cV L) (jV L)) ↦{fullShare} wr4_2 f x m k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8))))) := by
  iintro Hs
  sl_exec
  sl_step
  isplitr; · ipureintro; rfl
  iexact Hs

theorem b2_part51 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part116 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (1 : Fin 8)))⌝ ∗ ((Memref.whole cc0_scratch2 : Memref sig .scVector .vmem S28672 .f32).view.loc (V d (cV L) (jV L)) ↦{fullShare} wr4_2 f x m k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8))))) := by
  iintro Hs
  sl_exec
  sl_step
  isplitr; · ipureintro; rfl
  iexact Hs

theorem b2_part52 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part117 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (1 : Fin 8)))⌝ ∗ ((Memref.whole cc0_scratch2 : Memref sig .scVector .vmem S28672 .f32).view.loc (V d (cV L) (jV L)) ↦{fullShare} wr4_2 f x m k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8))))) := by
  iintro Hs
  sl_exec
  sl_step
  isplitr; · ipureintro; rfl
  iexact Hs

theorem b2_part53 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part118 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (2 : Fin 8)))⌝ ∗ ((Memref.whole cc0_scratch2 : Memref sig .scVector .vmem S28672 .f32).view.loc (V d (cV L) (jV L)) ↦{fullShare} wr4_2 f x m k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8))))) := by
  iintro Hs
  sl_exec
  sl_step
  isplitr; · ipureintro; rfl
  iexact Hs

theorem b2_part54 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part119 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (2 : Fin 8)))⌝ ∗ ((Memref.whole cc0_scratch2 : Memref sig .scVector .vmem S28672 .f32).view.loc (V d (cV L) (jV L)) ↦{fullShare} wr4_2 f x m k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8))))) := by
  iintro Hs
  sl_exec
  sl_step
  isplitr; · ipureintro; rfl
  iexact Hs

theorem b2_part55 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part120 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (3 : Fin 8)))⌝ ∗ ((Memref.whole cc0_scratch2 : Memref sig .scVector .vmem S28672 .f32).view.loc (V d (cV L) (jV L)) ↦{fullShare} wr4_2 f x m k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8))))) := by
  iintro Hs
  sl_exec
  sl_step
  isplitr; · ipureintro; rfl
  iexact Hs

theorem b2_part56 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part121 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (3 : Fin 8)))⌝ ∗ ((Memref.whole cc0_scratch2 : Memref sig .scVector .vmem S28672 .f32).view.loc (V d (cV L) (jV L)) ↦{fullShare} wr4_2 f x m k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8))))) := by
  iintro Hs
  sl_exec
  sl_step
  isplitr; · ipureintro; rfl
  iexact Hs

theorem b2_part57 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part122 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (4 : Fin 8)))⌝ ∗ ((Memref.whole cc0_scratch2 : Memref sig .scVector .vmem S28672 .f32).view.loc (V d (cV L) (jV L)) ↦{fullShare} wr4_2 f x m k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8))))) := by
  iintro Hs
  sl_exec
  sl_step
  isplitr; · ipureintro; rfl
  iexact Hs

theorem b2_part58 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part123 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (4 : Fin 8)))⌝ ∗ ((Memref.whole cc0_scratch2 : Memref sig .scVector .vmem S28672 .f32).view.loc (V d (cV L) (jV L)) ↦{fullShare} wr4_2 f x m k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8))))) := by
  iintro Hs
  sl_exec
  sl_step
  isplitr; · ipureintro; rfl
  iexact Hs

theorem b2_part59 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part124 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (5 : Fin 8)))⌝ ∗ ((Memref.whole cc0_scratch2 : Memref sig .scVector .vmem S28672 .f32).view.loc (V d (cV L) (jV L)) ↦{fullShare} wr4_2 f x m k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8))))) := by
  iintro Hs
  sl_exec
  sl_step
  isplitr; · ipureintro; rfl
  iexact Hs

theorem b2_part60 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part125 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (5 : Fin 8)))⌝ ∗ ((Memref.whole cc0_scratch2 : Memref sig .scVector .vmem S28672 .f32).view.loc (V d (cV L) (jV L)) ↦{fullShare} wr4_2 f x m k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8))))) := by
  iintro Hs
  sl_exec
  sl_step
  isplitr; · ipureintro; rfl
  iexact Hs

theorem b2_part61 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part126 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (6 : Fin 8)))⌝ ∗ ((Memref.whole cc0_scratch2 : Memref sig .scVector .vmem S28672 .f32).view.loc (V d (cV L) (jV L)) ↦{fullShare} wr4_2 f x m k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8))))) := by
  iintro Hs
  sl_exec
  sl_step
  isplitr; · ipureintro; rfl
  iexact Hs

theorem b2_part62 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part127 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (6 : Fin 8)))⌝ ∗ ((Memref.whole cc0_scratch2 : Memref sig .scVector .vmem S28672 .f32).view.loc (V d (cV L) (jV L)) ↦{fullShare} wr4_2 f x m k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8))))) := by
  iintro Hs
  sl_exec
  sl_step
  isplitr; · ipureintro; rfl
  iexact Hs

theorem b2_part63 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part128 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (3 : Fin 8), (7 : Fin 8)))⌝ ∗ ((Memref.whole cc0_scratch2 : Memref sig .scVector .vmem S28672 .f32).view.loc (V d (cV L) (jV L)) ↦{fullShare} wr4_2 f x m k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8))))) := by
  iintro Hs
  sl_exec
  sl_step
  isplitr; · ipureintro; rfl
  iexact Hs

theorem b2_part64 (d : Dev nD) (L : grid0.Coords) (m : FVec F S16 .f32) (k : Fin k0_t3_loop.trips) (w : BitVec 32) (x : FVec F S16 .f32) (y : Vec F S16 .f32) (f : Buf (Elt F) ((V d (cV L) (jV L)).loc cc0_scratch2)) :
    ((Memref.whole cc0_scratch2 : Memref sig .scVector .vmem S28672 .f32).view.loc (V d (cV L) (jV L)) ↦{fullShare} f : sProp 𝕄) ⊢ wp frame (wpE (defs₀ (F := F)) 𝒱₀ (V d (cV L) (jV L)) none) Set.univ (k0_part129 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd2 f k ((3 : Fin 4), (7 : Fin 8), (7 : Fin 8)))⌝ ∗ ((Memref.whole cc0_scratch2 : Memref sig .scVector .vmem S28672 .f32).view.loc (V d (cV L) (jV L)) ↦{fullShare} wr4_2 f x m k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8))))) := by
  iintro Hs
  sl_exec
  sl_step
  isplitr; · ipureintro; rfl
  iexact Hs

set_option maxHeartbeats 8000000 in
/-- The first sixty parts of a trip: from the buffer as the trip found it to the buffer after 239 stores. -/
theorem b2_wrap (d : Dev nD) (L : grid0.Coords) (v10 v17 v24 v31 v38 v45 v52 v59 v66 v73 v80 v87 v94 v101 v108 v115 v122 v129 v136 v143 v150 v157 v164 v171 v178 v185 v192 v199 v206 v213 v220 v227 : FVec F S16 .f32) (a c : BitVec 32) (k : Fin k0_t3_loop.trips) (g : Buf (Elt F) ((V d (cV L) (jV L)).loc cc0_scratch2)) :
    ((Memref.whole cc0_scratch2 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 0 : sProp 𝕄) ⊢ wp frame (wpE (defs₀ (F := F)) 𝒱₀ (V d (cV L) (jV L)) none) Set.univ (k0_part130 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v10 v17 v24 v31 v38 v45 v52 v59 v66 v73 v80 v87 v94 v101 v108 v115 v122 v129 v136 v143 v150 v157 v164 v171 v178 v185 v192 v199 v206 v213 a c k)
      (fun r => iprop(⌜r.2.1 = payP ((mulTab v10 v17 v24 v31 v38 v45 v52 v59 v66 v73 v80 v87 v94 v101 v108 v115 v122 v129 v136 v143 v150 v157 v164 v171 v178 v185 v192 v199 v206 v213 v220 v227) (grp ((3 : Fin 4), (7 : Fin 8), (5 : Fin 8)))) (rd2 g k ((3 : Fin 4), (7 : Fin 8), (5 : Fin 8)))⌝ ∗ ((Memref.whole cc0_scratch2 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 239))) := by
  rw [k0_part130_eq_skeleton]; unfold k0_part130_skel
  refine wp_stepV d L (b2_part1 d L _ _ _ _ _) fun r => ?_
  obtain ⟨w, x1, y1⟩ := r
  refine pure_pre fun hx1 => ?_
  have ps1 := part_first2 (mulTab v10 v17 v24 v31 v38 v45 v52 v59 v66 v73 v80 v87 v94 v101 v108 v115 v122 v129 v136 v143 v150 v157 v164 v171 v178 v185 v192 v199 v206 v213 v220 v227) g k ((0 : Fin 4), (0 : Fin 8), (0 : Fin 8)) ((0 : Fin 4), (1 : Fin 8), (0 : Fin 8)) ((0 : Fin 4), (2 : Fin 8), (0 : Fin 8)) ((0 : Fin 4), (3 : Fin 8), (0 : Fin 8)) rfl rfl rfl rfl v10 rfl rfl rfl rfl
  rw [ps1.1]
  replace hx1 := hx1.trans ps1.2
  clear ps1
  refine wp_stepV d L (b2_part2 d L _ _ _ _ _ _) fun r => ?_
  obtain ⟨x2, y2⟩ := r
  refine pure_pre fun hx2 => ?_
  have ps2 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8)) ((0 : Fin 4), (7 : Fin 8), (0 : Fin 8)) 3 rfl rfl rfl rfl rfl v10 rfl rfl rfl rfl x1 hx1
  rw [ps2.1]
  replace hx2 := hx2.trans ps2.2
  clear ps2 hx1
  refine wp_stepV d L (b2_part3 d L _ _ _ _ _ _) fun r => ?_
  obtain ⟨x3, y3⟩ := r
  refine pure_pre fun hx3 => ?_
  have ps3 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8)) ((0 : Fin 4), (3 : Fin 8), (1 : Fin 8)) 7 rfl rfl rfl rfl rfl v17 rfl rfl rfl rfl x2 hx2
  rw [ps3.1]
  replace hx3 := hx3.trans ps3.2
  clear ps3 hx2
  refine wp_stepV d L (b2_part4 d L _ _ _ _ _ _) fun r => ?_
  obtain ⟨x4, y4⟩ := r
  refine pure_pre fun hx4 => ?_
  have ps4 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8)) ((0 : Fin 4), (7 : Fin 8), (1 : Fin 8)) 11 rfl rfl rfl rfl rfl v17 rfl rfl rfl rfl x3 hx3
  rw [ps4.1]
  replace hx4 := hx4.trans ps4.2
  clear ps4 hx3
  refine wp_stepV d L (b2_part5 d L _ _ _ _ _ _) fun r => ?_
  obtain ⟨x5, y5⟩ := r
  refine pure_pre fun hx5 => ?_
  have ps5 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8)) ((0 : Fin 4), (3 : Fin 8), (2 : Fin 8)) 15 rfl rfl rfl rfl rfl v24 rfl rfl rfl rfl x4 hx4
  rw [ps5.1]
  replace hx5 := hx5.trans ps5.2
  clear ps5 hx4
  refine wp_stepV d L (b2_part6 d L _ _ _ _ _ _) fun r => ?_
  obtain ⟨x6, y6⟩ := r
  refine pure_pre fun hx6 => ?_
  have ps6 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8)) ((0 : Fin 4), (7 : Fin 8), (2 : Fin 8)) 19 rfl rfl rfl rfl rfl v24 rfl rfl rfl rfl x5 hx5
  rw [ps6.1]
  replace hx6 := hx6.trans ps6.2
  clear ps6 hx5
  refine wp_stepV d L (b2_part7 d L _ _ _ _ _ _) fun r => ?_
  obtain ⟨x7, y7⟩ := r
  refine pure_pre fun hx7 => ?_
  have ps7 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8)) ((0 : Fin 4), (3 : Fin 8), (3 : Fin 8)) 23 rfl rfl rfl rfl rfl v31 rfl rfl rfl rfl x6 hx6
  rw [ps7.1]
  replace hx7 := hx7.trans ps7.2
  clear ps7 hx6
  refine wp_stepV d L (b2_part8 d L _ _ _ _ _ _) fun r => ?_
  obtain ⟨x8, y8⟩ := r
  refine pure_pre fun hx8 => ?_
  have ps8 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8)) ((0 : Fin 4), (7 : Fin 8), (3 : Fin 8)) 27 rfl rfl rfl rfl rfl v31 rfl rfl rfl rfl x7 hx7
  rw [ps8.1]
  replace hx8 := hx8.trans ps8.2
  clear ps8 hx7
  refine wp_stepV d L (b2_part9 d L _ _ _ _ _ _) fun r => ?_
  obtain ⟨x9, y9⟩ := r
  refine pure_pre fun hx9 => ?_
  have ps9 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8)) ((0 : Fin 4), (3 : Fin 8), (4 : Fin 8)) 31 rfl rfl rfl rfl rfl v38 rfl rfl rfl rfl x8 hx8
  rw [ps9.1]
  replace hx9 := hx9.trans ps9.2
  clear ps9 hx8
  refine wp_stepV d L (b2_part10 d L _ _ _ _ _ _) fun r => ?_
  obtain ⟨x10, y10⟩ := r
  refine pure_pre fun hx10 => ?_
  have ps10 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8)) ((0 : Fin 4), (7 : Fin 8), (4 : Fin 8)) 35 rfl rfl rfl rfl rfl v38 rfl rfl rfl rfl x9 hx9
  rw [ps10.1]
  replace hx10 := hx10.trans ps10.2
  clear ps10 hx9
  refine wp_stepV d L (b2_part11 d L _ _ _ _ _ _) fun r => ?_
  obtain ⟨x11, y11⟩ := r
  refine pure_pre fun hx11 => ?_
  have ps11 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8)) ((0 : Fin 4), (3 : Fin 8), (5 : Fin 8)) 39 rfl rfl rfl rfl rfl v45 rfl rfl rfl rfl x10 hx10
  rw [ps11.1]
  replace hx11 := hx11.trans ps11.2
  clear ps11 hx10
  refine wp_stepV d L (b2_part12 d L _ _ _ _ _ _) fun r => ?_
  obtain ⟨x12, y12⟩ := r
  refine pure_pre fun hx12 => ?_
  have ps12 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8)) ((0 : Fin 4), (7 : Fin 8), (5 : Fin 8)) 43 rfl rfl rfl rfl rfl v45 rfl rfl rfl rfl x11 hx11
  rw [ps12.1]
  replace hx12 := hx12.trans ps12.2
  clear ps12 hx11
  refine wp_stepV d L (b2_part13 d L _ _ _ _ _ _) fun r => ?_
  obtain ⟨x13, y13⟩ := r
  refine pure_pre fun hx13 => ?_
  have ps13 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8)) ((0 : Fin 4), (3 : Fin 8), (6 : Fin 8)) 47 rfl rfl rfl rfl rfl v52 rfl rfl rfl rfl x12 hx12
  rw [ps13.1]
  replace hx13 := hx13.trans ps13.2
  clear ps13 hx12
  refine wp_stepV d L (b2_part14 d L _ _ _ _ _ _) fun r => ?_
  obtain ⟨x14, y14⟩ := r
  refine pure_pre fun hx14 => ?_
  have ps14 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8)) ((0 : Fin 4), (7 : Fin 8), (6 : Fin 8)) 51 rfl rfl rfl rfl rfl v52 rfl rfl rfl rfl x13 hx13
  rw [ps14.1]
  replace hx14 := hx14.trans ps14.2
  clear ps14 hx13
  refine wp_stepV d L (b2_part15 d L _ _ _ _ _ _) fun r => ?_
  obtain ⟨x15, y15⟩ := r
  refine pure_pre fun hx15 => ?_
  have ps15 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8)) ((0 : Fin 4), (3 : Fin 8), (7 : Fin 8)) 55 rfl rfl rfl rfl rfl v59 rfl rfl rfl rfl x14 hx14
  rw [ps15.1]
  replace hx15 := hx15.trans ps15.2
  clear ps15 hx14
  refine wp_stepV d L (b2_part16 d L _ _ _ _ _ _) fun r => ?_
  obtain ⟨x16, y16⟩ := r
  refine pure_pre fun hx16 => ?_
  have ps16 := part_step2 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8)) ((0 : Fin 4), (7 : Fin 8), (7 : Fin 8)) 59 rfl rfl rfl rfl rfl v59 rfl rfl rfl rfl x15 hx15
  rw [ps16.1]
  replace hx16 := hx16.trans ps16.2
  clear ps16 hx15
  refine wp_stepV d L (b2_part17 d L _ _ _ _ _ _) fun r => ?_
  obtain ⟨x17, y17⟩ := r
  refine pure_pre fun hx17 => ?_
  have ps17 := part_step2 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8)) ((1 : Fin 4), (3 : Fin 8), (0 : Fin 8)) 63 rfl rfl rfl rfl rfl v66 rfl rfl rfl rfl x16 hx16
  rw [ps17.1]
  replace hx17 := hx17.trans ps17.2
  clear ps17 hx16
  refine wp_stepV d L (b2_part18 d L _ _ _ _ _ _) fun r => ?_
  obtain ⟨x18, y18⟩ := r
  refine pure_pre fun hx18 => ?_
  have ps18 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8)) ((1 : Fin 4), (7 : Fin 8), (0 : Fin 8)) 67 rfl rfl rfl rfl rfl v66 rfl rfl rfl rfl x17 hx17
  rw [ps18.1]
  replace hx18 := hx18.trans ps18.2
  clear ps18 hx17
  refine wp_stepV d L (b2_part19 d L _ _ _ _ _ _) fun r => ?_
  obtain ⟨x19, y19⟩ := r
  refine pure_pre fun hx19 => ?_
  have ps19 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8)) ((1 : Fin 4), (3 : Fin 8), (1 : Fin 8)) 71 rfl rfl rfl rfl rfl v73 rfl rfl rfl rfl x18 hx18
  rw [ps19.1]
  replace hx19 := hx19.trans ps19.2
  clear ps19 hx18
  refine wp_stepV d L (b2_part20 d L _ _ _ _ _ _) fun r => ?_
  obtain ⟨x20, y20⟩ := r
  refine pure_pre fun hx20 => ?_
  have ps20 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8)) ((1 : Fin 4), (7 : Fin 8), (1 : Fin 8)) 75 rfl rfl rfl rfl rfl v73 rfl rfl rfl rfl x19 hx19
  rw [ps20.1]
  replace hx20 := hx20.trans ps20.2
  clear ps20 hx19
  refine wp_stepV d L (b2_part21 d L _ _ _ _ _ _) fun r => ?_
  obtain ⟨x21, y21⟩ := r
  refine pure_pre fun hx21 => ?_
  have ps21 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8)) ((1 : Fin 4), (3 : Fin 8), (2 : Fin 8)) 79 rfl rfl rfl rfl rfl v80 rfl rfl rfl rfl x20 hx20
  rw [ps21.1]
  replace hx21 := hx21.trans ps21.2
  clear ps21 hx20
  refine wp_stepV d L (b2_part22 d L _ _ _ _ _ _) fun r => ?_
  obtain ⟨x22, y22⟩ := r
  refine pure_pre fun hx22 => ?_
  have ps22 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8)) ((1 : Fin 4), (7 : Fin 8), (2 : Fin 8)) 83 rfl rfl rfl rfl rfl v80 rfl rfl rfl rfl x21 hx21
  rw [ps22.1]
  replace hx22 := hx22.trans ps22.2
  clear ps22 hx21
  refine wp_stepV d L (b2_part23 d L _ _ _ _ _ _) fun r => ?_
  obtain ⟨x23, y23⟩ := r
  refine pure_pre fun hx23 => ?_
  have ps23 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8)) ((1 : Fin 4), (3 : Fin 8), (3 : Fin 8)) 87 rfl rfl rfl rfl rfl v87 rfl rfl rfl rfl x22 hx22
  rw [ps23.1]
  replace hx23 := hx23.trans ps23.2
  clear ps23 hx22
  refine wp_stepV d L (b2_part24 d L _ _ _ _ _ _) fun r => ?_
  obtain ⟨x24, y24⟩ := r
  refine pure_pre fun hx24 => ?_
  have ps24 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8)) ((1 : Fin 4), (7 : Fin 8), (3 : Fin 8)) 91 rfl rfl rfl rfl rfl v87 rfl rfl rfl rfl x23 hx23
  rw [ps24.1]
  replace hx24 := hx24.trans ps24.2
  clear ps24 hx23
  refine wp_stepV d L (b2_part25 d L _ _ _ _ _ _) fun r => ?_
  obtain ⟨x25, y25⟩ := r
  refine pure_pre fun hx25 => ?_
  have ps25 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8)) ((1 : Fin 4), (3 : Fin 8), (4 : Fin 8)) 95 rfl rfl rfl rfl rfl v94 rfl rfl rfl rfl x24 hx24
  rw [ps25.1]
  replace hx25 := hx25.trans ps25.2
  clear ps25 hx24
  refine wp_stepV d L (b2_part26 d L _ _ _ _ _ _) fun r => ?_
  obtain ⟨x26, y26⟩ := r
  refine pure_pre fun hx26 => ?_
  have ps26 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8)) ((1 : Fin 4), (7 : Fin 8), (4 : Fin 8)) 99 rfl rfl rfl rfl rfl v94 rfl rfl rfl rfl x25 hx25
  rw [ps26.1]
  replace hx26 := hx26.trans ps26.2
  clear ps26 hx25
  refine wp_stepV d L (b2_part27 d L _ _ _ _ _ _) fun r => ?_
  obtain ⟨x27, y27⟩ := r
  refine pure_pre fun hx27 => ?_
  have ps27 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8)) ((1 : Fin 4), (3 : Fin 8), (5 : Fin 8)) 103 rfl rfl rfl rfl rfl v101 rfl rfl rfl rfl x26 hx26
  rw [ps27.1]
  replace hx27 := hx27.trans ps27.2
  clear ps27 hx26
  refine wp_stepV d L (b2_part28 d L _ _ _ _ _ _) fun r => ?_
  obtain ⟨x28, y28⟩ := r
  refine pure_pre fun hx28 => ?_
  have ps28 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8)) ((1 : Fin 4), (7 : Fin 8), (5 : Fin 8)) 107 rfl rfl rfl rfl rfl v101 rfl rfl rfl rfl x27 hx27
  rw [ps28.1]
  replace hx28 := hx28.trans ps28.2
  clear ps28 hx27
  refine wp_stepV d L (b2_part29 d L _ _ _ _ _ _) fun r => ?_
  obtain ⟨x29, y29⟩ := r
  refine pure_pre fun hx29 => ?_
  have ps29 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8)) ((1 : Fin 4), (3 : Fin 8), (6 : Fin 8)) 111 rfl rfl rfl rfl rfl v108 rfl rfl rfl rfl x28 hx28
  rw [ps29.1]
  replace hx29 := hx29.trans ps29.2
  clear ps29 hx28
  refine wp_stepV d L (b2_part30 d L _ _ _ _ _ _) fun r => ?_
  obtain ⟨x30, y30⟩ := r
  refine pure_pre fun hx30 => ?_
  have ps30 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8)) ((1 : Fin 4), (7 : Fin 8), (6 : Fin 8)) 115 rfl rfl rfl rfl rfl v108 rfl rfl rfl rfl x29 hx29
  rw [ps30.1]
  replace hx30 := hx30.trans ps30.2
  clear ps30 hx29
  refine wp_stepV d L (b2_part31 d L _ _ _ _ _ _) fun r => ?_
  obtain ⟨x31, y31⟩ := r
  refine pure_pre fun hx31 => ?_
  have ps31 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8)) ((1 : Fin 4), (3 : Fin 8), (7 : Fin 8)) 119 rfl rfl rfl rfl rfl v115 rfl rfl rfl rfl x30 hx30
  rw [ps31.1]
  replace hx31 := hx31.trans ps31.2
  clear ps31 hx30
  refine wp_stepV d L (b2_part32 d L _ _ _ _ _ _) fun r => ?_
  obtain ⟨x32, y32⟩ := r
  refine pure_pre fun hx32 => ?_
  have ps32 := part_step2 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8)) ((1 : Fin 4), (7 : Fin 8), (7 : Fin 8)) 123 rfl rfl rfl rfl rfl v115 rfl rfl rfl rfl x31 hx31
  rw [ps32.1]
  replace hx32 := hx32.trans ps32.2
  clear ps32 hx31
  refine wp_stepV d L (b2_part33 d L _ _ _ _ _ _) fun r => ?_
  obtain ⟨x33, y33⟩ := r
  refine pure_pre fun hx33 => ?_
  have ps33 := part_step2 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8)) ((2 : Fin 4), (3 : Fin 8), (0 : Fin 8)) 127 rfl rfl rfl rfl rfl v122 rfl rfl rfl rfl x32 hx32
  rw [ps33.1]
  replace hx33 := hx33.trans ps33.2
  clear ps33 hx32
  refine wp_stepV d L (b2_part34 d L _ _ _ _ _ _) fun r => ?_
  obtain ⟨x34, y34⟩ := r
  refine pure_pre fun hx34 => ?_
  have ps34 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8)) ((2 : Fin 4), (7 : Fin 8), (0 : Fin 8)) 131 rfl rfl rfl rfl rfl v122 rfl rfl rfl rfl x33 hx33
  rw [ps34.1]
  replace hx34 := hx34.trans ps34.2
  clear ps34 hx33
  refine wp_stepV d L (b2_part35 d L _ _ _ _ _ _) fun r => ?_
  obtain ⟨x35, y35⟩ := r
  refine pure_pre fun hx35 => ?_
  have ps35 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8)) ((2 : Fin 4), (3 : Fin 8), (1 : Fin 8)) 135 rfl rfl rfl rfl rfl v129 rfl rfl rfl rfl x34 hx34
  rw [ps35.1]
  replace hx35 := hx35.trans ps35.2
  clear ps35 hx34
  refine wp_stepV d L (b2_part36 d L _ _ _ _ _ _) fun r => ?_
  obtain ⟨x36, y36⟩ := r
  refine pure_pre fun hx36 => ?_
  have ps36 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8)) ((2 : Fin 4), (7 : Fin 8), (1 : Fin 8)) 139 rfl rfl rfl rfl rfl v129 rfl rfl rfl rfl x35 hx35
  rw [ps36.1]
  replace hx36 := hx36.trans ps36.2
  clear ps36 hx35
  refine wp_stepV d L (b2_part37 d L _ _ _ _ _ _) fun r => ?_
  obtain ⟨x37, y37⟩ := r
  refine pure_pre fun hx37 => ?_
  have ps37 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8)) ((2 : Fin 4), (3 : Fin 8), (2 : Fin 8)) 143 rfl rfl rfl rfl rfl v136 rfl rfl rfl rfl x36 hx36
  rw [ps37.1]
  replace hx37 := hx37.trans ps37.2
  clear ps37 hx36
  refine wp_stepV d L (b2_part38 d L _ _ _ _ _ _) fun r => ?_
  obtain ⟨x38, y38⟩ := r
  refine pure_pre fun hx38 => ?_
  have ps38 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8)) ((2 : Fin 4), (7 : Fin 8), (2 : Fin 8)) 147 rfl rfl rfl rfl rfl v136 rfl rfl rfl rfl x37 hx37
  rw [ps38.1]
  replace hx38 := hx38.trans ps38.2
  clear ps38 hx37
  refine wp_stepV d L (b2_part39 d L _ _ _ _ _ _) fun r => ?_
  obtain ⟨x39, y39⟩ := r
  refine pure_pre fun hx39 => ?_
  have ps39 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8)) ((2 : Fin 4), (3 : Fin 8), (3 : Fin 8)) 151 rfl rfl rfl rfl rfl v143 rfl rfl rfl rfl x38 hx38
  rw [ps39.1]
  replace hx39 := hx39.trans ps39.2
  clear ps39 hx38
  refine wp_stepV d L (b2_part40 d L _ _ _ _ _ _) fun r => ?_
  obtain ⟨x40, y40⟩ := r
  refine pure_pre fun hx40 => ?_
  have ps40 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8)) ((2 : Fin 4), (7 : Fin 8), (3 : Fin 8)) 155 rfl rfl rfl rfl rfl v143 rfl rfl rfl rfl x39 hx39
  rw [ps40.1]
  replace hx40 := hx40.trans ps40.2
  clear ps40 hx39
  refine wp_stepV d L (b2_part41 d L _ _ _ _ _ _) fun r => ?_
  obtain ⟨x41, y41⟩ := r
  refine pure_pre fun hx41 => ?_
  have ps41 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8)) ((2 : Fin 4), (3 : Fin 8), (4 : Fin 8)) 159 rfl rfl rfl rfl rfl v150 rfl rfl rfl rfl x40 hx40
  rw [ps41.1]
  replace hx41 := hx41.trans ps41.2
  clear ps41 hx40
  refine wp_stepV d L (b2_part42 d L _ _ _ _ _ _) fun r => ?_
  obtain ⟨x42, y42⟩ := r
  refine pure_pre fun hx42 => ?_
  have ps42 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8)) ((2 : Fin 4), (7 : Fin 8), (4 : Fin 8)) 163 rfl rfl rfl rfl rfl v150 rfl rfl rfl rfl x41 hx41
  rw [ps42.1]
  replace hx42 := hx42.trans ps42.2
  clear ps42 hx41
  refine wp_stepV d L (b2_part43 d L _ _ _ _ _ _) fun r => ?_
  obtain ⟨x43, y43⟩ := r
  refine pure_pre fun hx43 => ?_
  have ps43 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8)) ((2 : Fin 4), (3 : Fin 8), (5 : Fin 8)) 167 rfl rfl rfl rfl rfl v157 rfl rfl rfl rfl x42 hx42
  rw [ps43.1]
  replace hx43 := hx43.trans ps43.2
  clear ps43 hx42
  refine wp_stepV d L (b2_part44 d L _ _ _ _ _ _) fun r => ?_
  obtain ⟨x44, y44⟩ := r
  refine pure_pre fun hx44 => ?_
  have ps44 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8)) ((2 : Fin 4), (7 : Fin 8), (5 : Fin 8)) 171 rfl rfl rfl rfl rfl v157 rfl rfl rfl rfl x43 hx43
  rw [ps44.1]
  replace hx44 := hx44.trans ps44.2
  clear ps44 hx43
  refine wp_stepV d L (b2_part45 d L _ _ _ _ _ _) fun r => ?_
  obtain ⟨x45, y45⟩ := r
  refine pure_pre fun hx45 => ?_
  have ps45 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8)) ((2 : Fin 4), (3 : Fin 8), (6 : Fin 8)) 175 rfl rfl rfl rfl rfl v164 rfl rfl rfl rfl x44 hx44
  rw [ps45.1]
  replace hx45 := hx45.trans ps45.2
  clear ps45 hx44
  refine wp_stepV d L (b2_part46 d L _ _ _ _ _ _) fun r => ?_
  obtain ⟨x46, y46⟩ := r
  refine pure_pre fun hx46 => ?_
  have ps46 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8)) ((2 : Fin 4), (7 : Fin 8), (6 : Fin 8)) 179 rfl rfl rfl rfl rfl v164 rfl rfl rfl rfl x45 hx45
  rw [ps46.1]
  replace hx46 := hx46.trans ps46.2
  clear ps46 hx45
  refine wp_stepV d L (b2_part47 d L _ _ _ _ _ _) fun r => ?_
  obtain ⟨x47, y47⟩ := r
  refine pure_pre fun hx47 => ?_
  have ps47 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8)) ((2 : Fin 4), (3 : Fin 8), (7 : Fin 8)) 183 rfl rfl rfl rfl rfl v171 rfl rfl rfl rfl x46 hx46
  rw [ps47.1]
  replace hx47 := hx47.trans ps47.2
  clear ps47 hx46
  refine wp_stepV d L (b2_part48 d L _ _ _ _ _ _) fun r => ?_
  obtain ⟨x48, y48⟩ := r
  refine pure_pre fun hx48 => ?_
  have ps48 := part_step2 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8)) ((2 : Fin 4), (7 : Fin 8), (7 : Fin 8)) 187 rfl rfl rfl rfl rfl v171 rfl rfl rfl rfl x47 hx47
  rw [ps48.1]
  replace hx48 := hx48.trans ps48.2
  clear ps48 hx47
  refine wp_stepV d L (b2_part49 d L _ _ _ _ _ _) fun r => ?_
  obtain ⟨x49, y49⟩ := r
  refine pure_pre fun hx49 => ?_
  have ps49 := part_step2 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8)) ((3 : Fin 4), (3 : Fin 8), (0 : Fin 8)) 191 rfl rfl rfl rfl rfl v178 rfl rfl rfl rfl x48 hx48
  rw [ps49.1]
  replace hx49 := hx49.trans ps49.2
  clear ps49 hx48
  refine wp_stepV d L (b2_part50 d L _ _ _ _ _ _) fun r => ?_
  obtain ⟨x50, y50⟩ := r
  refine pure_pre fun hx50 => ?_
  have ps50 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8)) ((3 : Fin 4), (7 : Fin 8), (0 : Fin 8)) 195 rfl rfl rfl rfl rfl v178 rfl rfl rfl rfl x49 hx49
  rw [ps50.1]
  replace hx50 := hx50.trans ps50.2
  clear ps50 hx49
  refine wp_stepV d L (b2_part51 d L _ _ _ _ _ _) fun r => ?_
  obtain ⟨x51, y51⟩ := r
  refine pure_pre fun hx51 => ?_
  have ps51 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8)) ((3 : Fin 4), (3 : Fin 8), (1 : Fin 8)) 199 rfl rfl rfl rfl rfl v185 rfl rfl rfl rfl x50 hx50
  rw [ps51.1]
  replace hx51 := hx51.trans ps51.2
  clear ps51 hx50
  refine wp_stepV d L (b2_part52 d L _ _ _ _ _ _) fun r => ?_
  obtain ⟨x52, y52⟩ := r
  refine pure_pre fun hx52 => ?_
  have ps52 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8)) ((3 : Fin 4), (7 : Fin 8), (1 : Fin 8)) 203 rfl rfl rfl rfl rfl v185 rfl rfl rfl rfl x51 hx51
  rw [ps52.1]
  replace hx52 := hx52.trans ps52.2
  clear ps52 hx51
  refine wp_stepV d L (b2_part53 d L _ _ _ _ _ _) fun r => ?_
  obtain ⟨x53, y53⟩ := r
  refine pure_pre fun hx53 => ?_
  have ps53 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8)) ((3 : Fin 4), (3 : Fin 8), (2 : Fin 8)) 207 rfl rfl rfl rfl rfl v192 rfl rfl rfl rfl x52 hx52
  rw [ps53.1]
  replace hx53 := hx53.trans ps53.2
  clear ps53 hx52
  refine wp_stepV d L (b2_part54 d L _ _ _ _ _ _) fun r => ?_
  obtain ⟨x54, y54⟩ := r
  refine pure_pre fun hx54 => ?_
  have ps54 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8)) ((3 : Fin 4), (7 : Fin 8), (2 : Fin 8)) 211 rfl rfl rfl rfl rfl v192 rfl rfl rfl rfl x53 hx53
  rw [ps54.1]
  replace hx54 := hx54.trans ps54.2
  clear ps54 hx53
  refine wp_stepV d L (b2_part55 d L _ _ _ _ _ _) fun r => ?_
  obtain ⟨x55, y55⟩ := r
  refine pure_pre fun hx55 => ?_
  have ps55 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8)) ((3 : Fin 4), (3 : Fin 8), (3 : Fin 8)) 215 rfl rfl rfl rfl rfl v199 rfl rfl rfl rfl x54 hx54
  rw [ps55.1]
  replace hx55 := hx55.trans ps55.2
  clear ps55 hx54
  refine wp_stepV d L (b2_part56 d L _ _ _ _ _ _) fun r => ?_
  obtain ⟨x56, y56⟩ := r
  refine pure_pre fun hx56 => ?_
  have ps56 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8)) ((3 : Fin 4), (7 : Fin 8), (3 : Fin 8)) 219 rfl rfl rfl rfl rfl v199 rfl rfl rfl rfl x55 hx55
  rw [ps56.1]
  replace hx56 := hx56.trans ps56.2
  clear ps56 hx55
  refine wp_stepV d L (b2_part57 d L _ _ _ _ _ _) fun r => ?_
  obtain ⟨x57, y57⟩ := r
  refine pure_pre fun hx57 => ?_
  have ps57 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8)) ((3 : Fin 4), (3 : Fin 8), (4 : Fin 8)) 223 rfl rfl rfl rfl rfl v206 rfl rfl rfl rfl x56 hx56
  rw [ps57.1]
  replace hx57 := hx57.trans ps57.2
  clear ps57 hx56
  refine wp_stepV d L (b2_part58 d L _ _ _ _ _ _) fun r => ?_
  obtain ⟨x58, y58⟩ := r
  refine pure_pre fun hx58 => ?_
  have ps58 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8)) ((3 : Fin 4), (7 : Fin 8), (4 : Fin 8)) 227 rfl rfl rfl rfl rfl v206 rfl rfl rfl rfl x57 hx57
  rw [ps58.1]
  replace hx58 := hx58.trans ps58.2
  clear ps58 hx57
  refine wp_stepV d L (b2_part59 d L _ _ _ _ _ _) fun r => ?_
  obtain ⟨x59, y59⟩ := r
  refine pure_pre fun hx59 => ?_
  have ps59 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8)) ((3 : Fin 4), (3 : Fin 8), (5 : Fin 8)) 231 rfl rfl rfl rfl rfl v213 rfl rfl rfl rfl x58 hx58
  rw [ps59.1]
  replace hx59 := hx59.trans ps59.2
  clear ps59 hx58
  refine wp_stepV d L (b2_part60 d L _ _ _ _ _ _) fun r => ?_
  obtain ⟨x60, y60⟩ := r
  refine pure_pre fun hx60 => ?_
  have ps60 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8)) ((3 : Fin 4), (7 : Fin 8), (5 : Fin 8)) 235 rfl rfl rfl rfl rfl v213 rfl rfl rfl rfl x59 hx59
  rw [ps60.1]
  replace hx60 := hx60.trans ps60.2
  clear ps60 hx59
  iintro H
  first | rw [wp_pure] | rw [wp_ret]
  imodintro
  isplitr; · ipureintro; exact hx60
  iexact H

set_option maxHeartbeats 2000000 in
/-- ONE TRIP: block `k` multiplied in place. -/
theorem trip2 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (a c : BitVec 32) (t : Fin k0_t1_loop.trips) (g : Buf (Elt F) ((V d (cV L) (jV L)).loc cc0_scratch2)) (k : Fin k0_t3_loop.trips) (acc : Unit) :
    ((Memref.whole cc0_scratch2 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g k.val : sProp 𝕄) ⊢ wp frame (wpE (defs₀ (F := F)) 𝒱₀ (V d (cV L) (jV L)) none) Set.univ (k0_t3_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a c t k acc)
      (fun _ => ((Memref.whole cc0_scratch2 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g (k.val + 1) : sProp 𝕄)) := by
  rw [← stC_zero, ← stC_full]
  unfold k0_t3_body
  refine wp_stepV d L (b2_wrap d L v10 v17 v24 v31 v38 v45 v52 v59 v66 v73 v80 v87 v94 v101 v108 v115 v122 v129 v136 v143 v150 v157 v164 v171 v178 v185 v192 v199 v206 v213 v220 v227 _ _ k g) fun r => ?_
  obtain ⟨w, x60, y60⟩ := r
  refine pure_pre fun hx60 => ?_
  refine wp_stepV d L (b2_part61 d L _ _ _ _ _ _) fun r => ?_
  obtain ⟨x61, y61⟩ := r
  refine pure_pre fun hx61 => ?_
  have ps61 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8)) ((3 : Fin 4), (3 : Fin 8), (6 : Fin 8)) 239 rfl rfl rfl rfl rfl v220 rfl rfl rfl rfl x60 hx60
  rw [ps61.1]
  replace hx61 := hx61.trans ps61.2
  clear ps61 hx60
  refine wp_stepV d L (b2_part62 d L _ _ _ _ _ _) fun r => ?_
  obtain ⟨x62, y62⟩ := r
  refine pure_pre fun hx62 => ?_
  have ps62 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8)) ((3 : Fin 4), (7 : Fin 8), (6 : Fin 8)) 243 rfl rfl rfl rfl rfl v220 rfl rfl rfl rfl x61 hx61
  rw [ps62.1]
  replace hx62 := hx62.trans ps62.2
  clear ps62 hx61
  refine wp_stepV d L (b2_part63 d L _ _ _ _ _ _) fun r => ?_
  obtain ⟨x63, y63⟩ := r
  refine pure_pre fun hx63 => ?_
  have ps63 := part_step2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8)) ((3 : Fin 4), (3 : Fin 8), (7 : Fin 8)) 247 rfl rfl rfl rfl rfl v227 rfl rfl rfl rfl x62 hx62
  rw [ps63.1]
  replace hx63 := hx63.trans ps63.2
  clear ps63 hx62
  refine wp_stepV d L (b2_part64 d L _ _ _ _ _ _) fun r => ?_
  obtain ⟨x64, y64⟩ := r
  refine pure_pre fun hx64 => ?_
  have ps64 := part_step2 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8)) ((3 : Fin 4), (7 : Fin 8), (7 : Fin 8)) 251 rfl rfl rfl rfl rfl v227 rfl rfl rfl rfl x63 hx63
  rw [ps64.1]
  replace hx64 := hx64.trans ps64.2
  clear ps64 hx63
  iintro Hs
  sl_exec
  sl_step
  rw [← part_last2 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (7 : Fin 8)) rfl x64 hx64]
  iexact Hs

/-- THE LOOP: every block multiplied in place. -/
theorem inner2 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (a c : BitVec 32) (t : Fin k0_t1_loop.trips) (g : Buf (Elt F) ((V d (cV L) (jV L)).loc cc0_scratch2)) :
    ((Memref.whole cc0_scratch2 : Memref sig .scVector .vmem S28672 .f32).view.loc (V d (cV L) (jV L)) ↦{fullShare} g : sProp 𝕄) ⊢ wp frame (wpE (defs₀ (F := F)) 𝒱₀ (V d (cV L) (jV L)) none) Set.univ (Scf.Loop.for k0_t3_loop k0_t3_ok ⟨⟩ (k0_t3_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 a c t))
      (fun _ => ((Memref.whole cc0_scratch2 : Memref sig .scVector .vmem S28672 .f32).view.loc (V d (cV L) (jV L)) ↦{fullShare} maskBuf (mulTab v10 v17 v24 v31 v38 v45 v52 v59 v66 v73 v80 v87 v94 v101 v108 v115 v122 v129 v136 v143 v150 v157 v164 v171 v178 v185 v192 v199 v206 v213 v220 v227) g : sProp 𝕄)) := by
  iintro Hs
  sl_for (fun (j : Nat) (_ : PUnit) => ((Memref.whole cc0_scratch2 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g j : sProp 𝕄)) $$ [Hs]
  case region => intro j acc; exact trip2 d L v3 v10 v17 v24 v31 v38 v45 v52 v59 v66 v73 v80 v87 v94 v101 v108 v115 v122 v129 v136 v143 v150 v157 v164 v171 v178 v185 v192 v199 v206 v213 v220 v227 a c t g j acc
  rw [maskBlocks_zero, show Scf.trips k0_t3_loop.lb k0_t3_loop.ub k0_t3_loop.st = 7 from rfl, maskBlocks_seven]
  isplitl [Hs]; · iexact Hs
  iintro %acc H
  iexact H

end Cert.Proof.KB

end
-- ==== Proof.TileInnerValT3B.lean ====
/-
  Scratch buffer 3's in-place loop, by the stores: the rectangle of a store, what a load of it reads, a printed part's
  four stores over any contents, and the step from the buffer after n stores to the buffer after n + 4.
-/
import proofs.«205805_g86552180949287_cont_9to1_m_41_25_alg».proof.Proof.TileInnerValB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

abbrev vw3 : View sig .scVector .vmem S28672 .f32 := (Memref.whole cc0_scratch3 : Memref sig .scVector .vmem S28672 .f32).view

/-- The sixteen words of a store of trip `k`, as the program slices them. -/
abbrev Rk3 (k : Fin k0_t4_loop.trips) (t : Tr) : Rect S28672 :=
  Rect.unit (k0_off5 k (BitVec.ofNat 32 (1024 * t.1.val)) (BitVec.ofNat 32 (128 * t.2.1.val)) (BitVec.ofNat 32 (16 * t.2.2.val))) S16.size
    (k0_off5_inb k t.1 t.2.1 t.2.2)

/-- What a load of them reads. -/
abbrev rd3 (f : (⟨S28672, .f32⟩ : BufTy).Contents (Elt F)) (k : Fin k0_t4_loop.trips) (t : Tr) : Vec F S16 .f32 :=
  View.readAt (Elt F) vw3 (Rk3 k t).toLoadRect f

/-- A printed part's four stores over contents `f`: the carried product, then three loaded sixteens times the multiplier. -/
def wr4_3 (f : (⟨S28672, .f32⟩ : BufTy).Contents (Elt F)) (x m : FVec F S16 .f32) (k : Fin k0_t4_loop.trips) (t0 t1 t2 t3 : Tr) :
    (⟨S28672, .f32⟩ : BufTy).Contents (Elt F) :=
  vw3.writes (Elt F) f [⟨Rk3 k t3, payM m (rd3 f k t3)⟩, ⟨Rk3 k t2, payM m (rd3 f k t2)⟩, ⟨Rk3 k t1, payM m (rd3 f k t1)⟩, ⟨Rk3 k t0, payS x⟩]

/-- The first part's three. -/
def wr3_3 (f : (⟨S28672, .f32⟩ : BufTy).Contents (Elt F)) (m : FVec F S16 .f32) (k : Fin k0_t4_loop.trips) (t0 t1 t2 : Tr) :
    (⟨S28672, .f32⟩ : BufTy).Contents (Elt F) :=
  vw3.writes (Elt F) f [⟨Rk3 k t2, payM m (rd3 f k t2)⟩, ⟨Rk3 k t1, payM m (rd3 f k t1)⟩, ⟨Rk3 k t0, payM m (rd3 f k t0)⟩]

theorem emb3 (k : Fin k0_t4_loop.trips) (t : Tr) (x : S16.Idx) : (((Rk3 k t).emb x) 0).val = offw k.val t + (x 0).val := by
  show (k0_off5 k _ _ _) 0 + 1 * (x 0).val = _
  rw [k0_off5_eq k t.1 t.2.1 t.2.2]
  show (4096 * k.val + 1024 * t.1.val + 128 * t.2.1.val + 16 * t.2.2.val) + 1 * (x 0).val = _
  unfold offw; omega

theorem mem3 (k : Fin k0_t4_loop.trips) (t : Tr) (p : S28672.Idx) :
    p ∈ (vw3.slice (Rk3 k t)).set ↔ (offw k.val t ≤ (p 0).val ∧ (p 0).val < offw k.val t + 16) := by
  show p ∈ ((View.whole cc0_scratch3).slice (Rk3 k t)).set ↔ _
  rw [View.set_slice_whole, Rect.mem_set_unit]
  have e : (k0_off5 k (BitVec.ofNat 32 (1024 * t.1.val)) (BitVec.ofNat 32 (128 * t.2.1.val)) (BitVec.ofNat 32 (16 * t.2.2.val))) 0 = offw k.val t := by
    rw [k0_off5_eq k t.1 t.2.1 t.2.2]; rfl
  constructor
  · intro h; have h0 := h 0; rw [e] at h0; exact h0
  · intro h a
    match a with
    | ⟨0, _⟩ =>
      show (k0_off5 k (BitVec.ofNat 32 (1024 * t.1.val)) (BitVec.ofNat 32 (128 * t.2.1.val)) (BitVec.ofNat 32 (16 * t.2.2.val))) 0 ≤ (p 0).val
        ∧ (p 0).val < (k0_off5 k (BitVec.ofNat 32 (1024 * t.1.val)) (BitVec.ofNat 32 (128 * t.2.1.val)) (BitVec.ofNat 32 (16 * t.2.2.val))) 0 + 16
      rw [e]; exact h

/-- A load of a sixteen not yet stored reads the buffer as the trip found it. -/
theorem rd3_stC (mul : ℕ → FVec F S16 .f32) (g : (⟨S28672, .f32⟩ : BufTy).Contents (Elt F)) (k : Fin k0_t4_loop.trips) (n : ℕ) (t : Tr)
    (hn : n ≤ num t) (x : S16.Idx) : rd3 (stC mul g k.val n) k t x = g ((Rk3 k t).emb x) := by
  show stC mul g k.val n ((Rk3 k t).emb x) = _
  have hx : (x 0).val < 16 := (x 0).isLt
  have he := emb3 k t x
  have := (in_iff k.val t (((Rk3 k t).emb x) 0).val).mp ⟨by omega, by omega⟩
  exact stC_of_ge mul g k.val n _ this.1 (by omega)

/-- THE STEP: the right product stored over the sixteen of store number `num t`. -/
theorem store3 (mul : ℕ → FVec F S16 .f32) (g : (⟨S28672, .f32⟩ : BufTy).Contents (Elt F)) (k : Fin k0_t4_loop.trips) (t : Tr) (v : FVec F S16 .f32)
    (hv : ∀ x : S16.Idx, v x = FloatOps.mulf (g ((Rk3 k t).emb x)) (mul (grp t) x)) :
    (vw3.slice (Rk3 k t)).write (Elt F) (stC mul g k.val (num t)) v Finset.univ = stC mul g k.val (num t + 1) := by
  refine stC_step mul g k.val t _ (fun p h1 h2 => ?_) (fun p hp => ?_)
  · have hm : p ∈ (vw3.slice (Rk3 k t)).set := (mem3 k t p).mpr ⟨h1, h2⟩
    obtain ⟨x, rfl⟩ := View.exists_emb_of_mem_set _ hm
    rw [View.write_emb_of_mem _ _ (Finset.mem_univ x), cast_eq, hv x]
    show _ = maskBuf mul g ((Rk3 k t).emb x)
    have h1' : offw k.val t ≤ (((Rk3 k t).emb x) 0).val := h1
    have h2' : (((Rk3 k t).emb x) 0).val < offw k.val t + 16 := h2
    obtain ⟨hg, hl⟩ := grp_of_in k.val t _ ⟨h1', h2'⟩
    unfold maskBuf
    rw [hg]
    congr 2
    funext a
    match a with
    | ⟨0, _⟩ => exact Fin.ext (by show (x 0).val = (((Rk3 k t).emb x) 0).val % 16; rw [hl, emb3]; omega)
  · rw [View.write_of_not_mem _ _ _ (by rw [View.setOn_univ]; exact fun hm => hp ((mem3 k t p).mp hm))]

/-- A PART'S STEP: from the buffer after `n0` stores, with the product for store `n0` carried, the part's four stores
    give the buffer after `n0 + 4`, and the product it carries on is the one for store `n0 + 4`. -/
theorem part_step3 (mul : ℕ → FVec F S16 .f32) (g : (⟨S28672, .f32⟩ : BufTy).Contents (Elt F)) (k : Fin k0_t4_loop.trips)
    (t0 t1 t2 t3 t4 : Tr) (n0 : ℕ) (h0 : n0 = num t0) (h1 : n0 + 1 = num t1) (h2 : n0 + 2 = num t2) (h3 : n0 + 3 = num t3) (h4 : n0 + 4 = num t4)
    (m : FVec F S16 .f32) (hm1 : m = mul (grp t1)) (hm2 : m = mul (grp t2)) (hm3 : m = mul (grp t3)) (hm4 : m = mul (grp t4))
    (x : FVec F S16 .f32) (hx : x = payP (mul (grp t0)) (rd3 g k t0)) :
    wr4_3 (stC mul g k.val n0) x m k t0 t1 t2 t3 = stC mul g k.val (n0 + 4)
      ∧ payP m (rd3 (stC mul g k.val n0) k t4) = payP (mul (grp t4)) (rd3 g k t4) := by
  constructor
  · unfold wr4_3
    rw [View.writes_cons, View.writes_cons, View.writes_cons, View.writes_cons, View.writes_nil]
    have e0 : (vw3.slice (Rk3 k t0)).write (Elt F) (stC mul g k.val n0) (payS x) Finset.univ = stC mul g k.val (n0 + 1) := by
      have s := store3 mul g k t0 (payS x) (fun i => by rw [payS_eq, hx, payP_apply]; rfl)
      rw [← h0] at s; exact s
    have e1 : (vw3.slice (Rk3 k t1)).write (Elt F) (stC mul g k.val (n0 + 1)) (payM m (rd3 (stC mul g k.val n0) k t1)) Finset.univ = stC mul g k.val (n0 + 2) := by
      have s := store3 mul g k t1 (payM m (rd3 (stC mul g k.val n0) k t1)) (fun i => by rw [payM_apply, rd3_stC mul g k n0 t1 (by omega), hm1])
      rw [← h1] at s; exact s
    have e2 : (vw3.slice (Rk3 k t2)).write (Elt F) (stC mul g k.val (n0 + 2)) (payM m (rd3 (stC mul g k.val n0) k t2)) Finset.univ = stC mul g k.val (n0 + 3) := by
      have s := store3 mul g k t2 (payM m (rd3 (stC mul g k.val n0) k t2)) (fun i => by rw [payM_apply, rd3_stC mul g k n0 t2 (by omega), hm2])
      rw [← h2] at s; exact s
    have e3 : (vw3.slice (Rk3 k t3)).write (Elt F) (stC mul g k.val (n0 + 3)) (payM m (rd3 (stC mul g k.val n0) k t3)) Finset.univ = stC mul g k.val (n0 + 4) := by
      have s := store3 mul g k t3 (payM m (rd3 (stC mul g k.val n0) k t3)) (fun i => by rw [payM_apply, rd3_stC mul g k n0 t3 (by omega), hm3])
      rw [← h3] at s; exact s
    show (vw3.slice (Rk3 k t3)).write (Elt F) ((vw3.slice (Rk3 k t2)).write (Elt F) ((vw3.slice (Rk3 k t1)).write (Elt F)
      ((vw3.slice (Rk3 k t0)).write (Elt F) (stC mul g k.val n0) (payS x) Finset.univ) _ Finset.univ) _ Finset.univ) _ Finset.univ = _
    rw [e0, e1, e2, e3]
  · funext i
    rw [payP_apply, payP_apply, rd3_stC mul g k n0 t4 (by omega), hm4]
    rfl

/-- The first part's step: three stores from the buffer as the trip found it. -/
theorem part_first3 (mul : ℕ → FVec F S16 .f32) (g : (⟨S28672, .f32⟩ : BufTy).Contents (Elt F)) (k : Fin k0_t4_loop.trips)
    (t0 t1 t2 t3 : Tr) (h0 : 0 = num t0) (h1 : 1 = num t1) (h2 : 2 = num t2) (h3 : 3 = num t3)
    (m : FVec F S16 .f32) (hm0 : m = mul (grp t0)) (hm1 : m = mul (grp t1)) (hm2 : m = mul (grp t2)) (hm3 : m = mul (grp t3)) :
    wr3_3 (stC mul g k.val 0) m k t0 t1 t2 = stC mul g k.val 3
      ∧ payP m (rd3 (stC mul g k.val 0) k t3) = payP (mul (grp t3)) (rd3 g k t3) := by
  constructor
  · unfold wr3_3
    rw [View.writes_cons, View.writes_cons, View.writes_cons, View.writes_nil]
    have e0 : (vw3.slice (Rk3 k t0)).write (Elt F) (stC mul g k.val 0) (payM m (rd3 (stC mul g k.val 0) k t0)) Finset.univ = stC mul g k.val (0 + 1) := by
      have s := store3 mul g k t0 (payM m (rd3 (stC mul g k.val 0) k t0)) (fun i => by rw [payM_apply, rd3_stC mul g k 0 t0 (by omega), hm0])
      rw [← h0] at s; exact s
    have e1 : (vw3.slice (Rk3 k t1)).write (Elt F) (stC mul g k.val (0 + 1)) (payM m (rd3 (stC mul g k.val 0) k t1)) Finset.univ = stC mul g k.val (1 + 1) := by
      have s := store3 mul g k t1 (payM m (rd3 (stC mul g k.val 0) k t1)) (fun i => by rw [payM_apply, rd3_stC mul g k 0 t1 (by omega), hm1])
      rw [← h1] at s; exact s
    have e2 : (vw3.slice (Rk3 k t2)).write (Elt F) (stC mul g k.val (1 + 1)) (payM m (rd3 (stC mul g k.val 0) k t2)) Finset.univ = stC mul g k.val (2 + 1) := by
      have s := store3 mul g k t2 (payM m (rd3 (stC mul g k.val 0) k t2)) (fun i => by rw [payM_apply, rd3_stC mul g k 0 t2 (by omega), hm2])
      rw [← h2] at s; exact s
    show (vw3.slice (Rk3 k t2)).write (Elt F) ((vw3.slice (Rk3 k t1)).write (Elt F)
      ((vw3.slice (Rk3 k t0)).write (Elt F) (stC mul g k.val 0) _ Finset.univ) _ Finset.univ) _ Finset.univ = _
    rw [e0, e1, e2]
  · funext i
    rw [payP_apply, payP_apply, rd3_stC mul g k 0 t3 (by omega), hm3]
    rfl

/-- The last store: the carried product for store 255. -/
theorem part_last3 (mul : ℕ → FVec F S16 .f32) (g : (⟨S28672, .f32⟩ : BufTy).Contents (Elt F)) (k : Fin k0_t4_loop.trips)
    (t0 : Tr) (h0 : 255 = num t0) (x : FVec F S16 .f32) (hx : x = payP (mul (grp t0)) (rd3 g k t0)) :
    vw3.writes (Elt F) (stC mul g k.val 255) [⟨Rk3 k t0, payS x⟩] = stC mul g k.val 256 := by
  show (vw3.slice (Rk3 k t0)).write (Elt F) (stC mul g k.val 255) (payS x) Finset.univ = stC mul g k.val 256
  have s := store3 mul g k t0 (payS x) (fun i => by rw [payS_eq, hx, payP_apply]; rfl)
  rw [← h0] at s; exact s

end Cert.Proof.KB

end
-- ==== Proof.TileInnerValP3B.lean ====
/-
  Scratch buffer 3's in-place loop, part by part: each printed part of a trip is run once over ANY contents (its four
  stores and the product it carries on, as the three payload shapes), the parts are composed along the trip with the
  buffer kept in closed form by the number of stores done, and the loop goes by the blocks done.
  The table of parts below is a listing of the program's own parts in order (store numbers 4i − 5 … 4i − 2 for part i,
  the pending one 4i − 1); each entry has the same three-line proof.
-/
import proofs.«205805_g86552180949287_cont_9to1_m_41_25_alg».proof.Proof.TileInnerValT3B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

theorem b3_part1 (d : Dev nD) (L : grid0.Coords) (m : FVec F S16 .f32) (a c : BitVec 32) (k : Fin k0_t4_loop.trips) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part131 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m a c k)
      (fun r => iprop(⌜r.2.1 = payP m (rd3 f k ((0 : Fin 4), (3 : Fin 8), (0 : Fin 8)))⌝ ∗ ((Memref.whole cc0_scratch3 : Memref sig .scVector .vmem S28672 .f32).view.loc (V d (cV L) (jV L)) ↦{fullShare} wr3_3 f m k ((0 : Fin 4), (0 : Fin 8), (0 : Fin 8)) ((0 : Fin 4), (1 : Fin 8), (0 : Fin 8)) ((0 : Fin 4), (2 : Fin 8), (0 : Fin 8))))) := by
  iintro Hs
  sl_exec
  sl_step
  isplitr; · ipureintro; rfl
  iexact Hs

theorem b3_part2 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part132 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (0 : Fin 8)))⌝ ∗ ((Memref.whole cc0_scratch3 : Memref sig .scVector .vmem S28672 .f32).view.loc (V d (cV L) (jV L)) ↦{fullShare} wr4_3 f x m k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8))))) := by
  iintro Hs
  sl_exec
  sl_step
  isplitr; · ipureintro; rfl
  iexact Hs

theorem b3_part3 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part133 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (1 : Fin 8)))⌝ ∗ ((Memref.whole cc0_scratch3 : Memref sig .scVector .vmem S28672 .f32).view.loc (V d (cV L) (jV L)) ↦{fullShare} wr4_3 f x m k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8))))) := by
  iintro Hs
  sl_exec
  sl_step
  isplitr; · ipureintro; rfl
  iexact Hs

theorem b3_part4 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part134 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (1 : Fin 8)))⌝ ∗ ((Memref.whole cc0_scratch3 : Memref sig .scVector .vmem S28672 .f32).view.loc (V d (cV L) (jV L)) ↦{fullShare} wr4_3 f x m k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8))))) := by
  iintro Hs
  sl_exec
  sl_step
  isplitr; · ipureintro; rfl
  iexact Hs

theorem b3_part5 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part135 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (2 : Fin 8)))⌝ ∗ ((Memref.whole cc0_scratch3 : Memref sig .scVector .vmem S28672 .f32).view.loc (V d (cV L) (jV L)) ↦{fullShare} wr4_3 f x m k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8))))) := by
  iintro Hs
  sl_exec
  sl_step
  isplitr; · ipureintro; rfl
  iexact Hs

theorem b3_part6 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part136 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (2 : Fin 8)))⌝ ∗ ((Memref.whole cc0_scratch3 : Memref sig .scVector .vmem S28672 .f32).view.loc (V d (cV L) (jV L)) ↦{fullShare} wr4_3 f x m k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8))))) := by
  iintro Hs
  sl_exec
  sl_step
  isplitr; · ipureintro; rfl
  iexact Hs

theorem b3_part7 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part137 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (3 : Fin 8)))⌝ ∗ ((Memref.whole cc0_scratch3 : Memref sig .scVector .vmem S28672 .f32).view.loc (V d (cV L) (jV L)) ↦{fullShare} wr4_3 f x m k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8))))) := by
  iintro Hs
  sl_exec
  sl_step
  isplitr; · ipureintro; rfl
  iexact Hs

theorem b3_part8 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part138 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (3 : Fin 8)))⌝ ∗ ((Memref.whole cc0_scratch3 : Memref sig .scVector .vmem S28672 .f32).view.loc (V d (cV L) (jV L)) ↦{fullShare} wr4_3 f x m k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8))))) := by
  iintro Hs
  sl_exec
  sl_step
  isplitr; · ipureintro; rfl
  iexact Hs

theorem b3_part9 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part139 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (4 : Fin 8)))⌝ ∗ ((Memref.whole cc0_scratch3 : Memref sig .scVector .vmem S28672 .f32).view.loc (V d (cV L) (jV L)) ↦{fullShare} wr4_3 f x m k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8))))) := by
  iintro Hs
  sl_exec
  sl_step
  isplitr; · ipureintro; rfl
  iexact Hs

theorem b3_part10 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part140 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (4 : Fin 8)))⌝ ∗ ((Memref.whole cc0_scratch3 : Memref sig .scVector .vmem S28672 .f32).view.loc (V d (cV L) (jV L)) ↦{fullShare} wr4_3 f x m k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8))))) := by
  iintro Hs
  sl_exec
  sl_step
  isplitr; · ipureintro; rfl
  iexact Hs

theorem b3_part11 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part141 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (5 : Fin 8)))⌝ ∗ ((Memref.whole cc0_scratch3 : Memref sig .scVector .vmem S28672 .f32).view.loc (V d (cV L) (jV L)) ↦{fullShare} wr4_3 f x m k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8))))) := by
  iintro Hs
  sl_exec
  sl_step
  isplitr; · ipureintro; rfl
  iexact Hs

theorem b3_part12 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part142 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (5 : Fin 8)))⌝ ∗ ((Memref.whole cc0_scratch3 : Memref sig .scVector .vmem S28672 .f32).view.loc (V d (cV L) (jV L)) ↦{fullShare} wr4_3 f x m k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8))))) := by
  iintro Hs
  sl_exec
  sl_step
  isplitr; · ipureintro; rfl
  iexact Hs

theorem b3_part13 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part143 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (6 : Fin 8)))⌝ ∗ ((Memref.whole cc0_scratch3 : Memref sig .scVector .vmem S28672 .f32).view.loc (V d (cV L) (jV L)) ↦{fullShare} wr4_3 f x m k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8))))) := by
  iintro Hs
  sl_exec
  sl_step
  isplitr; · ipureintro; rfl
  iexact Hs

theorem b3_part14 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part144 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (6 : Fin 8)))⌝ ∗ ((Memref.whole cc0_scratch3 : Memref sig .scVector .vmem S28672 .f32).view.loc (V d (cV L) (jV L)) ↦{fullShare} wr4_3 f x m k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8))))) := by
  iintro Hs
  sl_exec
  sl_step
  isplitr; · ipureintro; rfl
  iexact Hs

theorem b3_part15 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part145 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (3 : Fin 8), (7 : Fin 8)))⌝ ∗ ((Memref.whole cc0_scratch3 : Memref sig .scVector .vmem S28672 .f32).view.loc (V d (cV L) (jV L)) ↦{fullShare} wr4_3 f x m k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8))))) := by
  iintro Hs
  sl_exec
  sl_step
  isplitr; · ipureintro; rfl
  iexact Hs

theorem b3_part16 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part146 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((0 : Fin 4), (7 : Fin 8), (7 : Fin 8)))⌝ ∗ ((Memref.whole cc0_scratch3 : Memref sig .scVector .vmem S28672 .f32).view.loc (V d (cV L) (jV L)) ↦{fullShare} wr4_3 f x m k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8))))) := by
  iintro Hs
  sl_exec
  sl_step
  isplitr; · ipureintro; rfl
  iexact Hs

theorem b3_part17 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part147 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (0 : Fin 8)))⌝ ∗ ((Memref.whole cc0_scratch3 : Memref sig .scVector .vmem S28672 .f32).view.loc (V d (cV L) (jV L)) ↦{fullShare} wr4_3 f x m k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8))))) := by
  iintro Hs
  sl_exec
  sl_step
  isplitr; · ipureintro; rfl
  iexact Hs

theorem b3_part18 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part148 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (0 : Fin 8)))⌝ ∗ ((Memref.whole cc0_scratch3 : Memref sig .scVector .vmem S28672 .f32).view.loc (V d (cV L) (jV L)) ↦{fullShare} wr4_3 f x m k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8))))) := by
  iintro Hs
  sl_exec
  sl_step
  isplitr; · ipureintro; rfl
  iexact Hs

theorem b3_part19 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part149 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (1 : Fin 8)))⌝ ∗ ((Memref.whole cc0_scratch3 : Memref sig .scVector .vmem S28672 .f32).view.loc (V d (cV L) (jV L)) ↦{fullShare} wr4_3 f x m k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8))))) := by
  iintro Hs
  sl_exec
  sl_step
  isplitr; · ipureintro; rfl
  iexact Hs

theorem b3_part20 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part150 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (1 : Fin 8)))⌝ ∗ ((Memref.whole cc0_scratch3 : Memref sig .scVector .vmem S28672 .f32).view.loc (V d (cV L) (jV L)) ↦{fullShare} wr4_3 f x m k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8))))) := by
  iintro Hs
  sl_exec
  sl_step
  isplitr; · ipureintro; rfl
  iexact Hs

theorem b3_part21 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part151 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (2 : Fin 8)))⌝ ∗ ((Memref.whole cc0_scratch3 : Memref sig .scVector .vmem S28672 .f32).view.loc (V d (cV L) (jV L)) ↦{fullShare} wr4_3 f x m k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8))))) := by
  iintro Hs
  sl_exec
  sl_step
  isplitr; · ipureintro; rfl
  iexact Hs

theorem b3_part22 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part152 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (2 : Fin 8)))⌝ ∗ ((Memref.whole cc0_scratch3 : Memref sig .scVector .vmem S28672 .f32).view.loc (V d (cV L) (jV L)) ↦{fullShare} wr4_3 f x m k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8))))) := by
  iintro Hs
  sl_exec
  sl_step
  isplitr; · ipureintro; rfl
  iexact Hs

theorem b3_part23 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part153 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (3 : Fin 8)))⌝ ∗ ((Memref.whole cc0_scratch3 : Memref sig .scVector .vmem S28672 .f32).view.loc (V d (cV L) (jV L)) ↦{fullShare} wr4_3 f x m k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8))))) := by
  iintro Hs
  sl_exec
  sl_step
  isplitr; · ipureintro; rfl
  iexact Hs

theorem b3_part24 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part154 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (3 : Fin 8)))⌝ ∗ ((Memref.whole cc0_scratch3 : Memref sig .scVector .vmem S28672 .f32).view.loc (V d (cV L) (jV L)) ↦{fullShare} wr4_3 f x m k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8))))) := by
  iintro Hs
  sl_exec
  sl_step
  isplitr; · ipureintro; rfl
  iexact Hs

theorem b3_part25 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part155 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (4 : Fin 8)))⌝ ∗ ((Memref.whole cc0_scratch3 : Memref sig .scVector .vmem S28672 .f32).view.loc (V d (cV L) (jV L)) ↦{fullShare} wr4_3 f x m k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8))))) := by
  iintro Hs
  sl_exec
  sl_step
  isplitr; · ipureintro; rfl
  iexact Hs

theorem b3_part26 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part156 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (4 : Fin 8)))⌝ ∗ ((Memref.whole cc0_scratch3 : Memref sig .scVector .vmem S28672 .f32).view.loc (V d (cV L) (jV L)) ↦{fullShare} wr4_3 f x m k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8))))) := by
  iintro Hs
  sl_exec
  sl_step
  isplitr; · ipureintro; rfl
  iexact Hs

theorem b3_part27 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part157 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (5 : Fin 8)))⌝ ∗ ((Memref.whole cc0_scratch3 : Memref sig .scVector .vmem S28672 .f32).view.loc (V d (cV L) (jV L)) ↦{fullShare} wr4_3 f x m k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8))))) := by
  iintro Hs
  sl_exec
  sl_step
  isplitr; · ipureintro; rfl
  iexact Hs

theorem b3_part28 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part158 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (5 : Fin 8)))⌝ ∗ ((Memref.whole cc0_scratch3 : Memref sig .scVector .vmem S28672 .f32).view.loc (V d (cV L) (jV L)) ↦{fullShare} wr4_3 f x m k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8))))) := by
  iintro Hs
  sl_exec
  sl_step
  isplitr; · ipureintro; rfl
  iexact Hs

theorem b3_part29 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part159 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (6 : Fin 8)))⌝ ∗ ((Memref.whole cc0_scratch3 : Memref sig .scVector .vmem S28672 .f32).view.loc (V d (cV L) (jV L)) ↦{fullShare} wr4_3 f x m k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8))))) := by
  iintro Hs
  sl_exec
  sl_step
  isplitr; · ipureintro; rfl
  iexact Hs

theorem b3_part30 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part160 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (6 : Fin 8)))⌝ ∗ ((Memref.whole cc0_scratch3 : Memref sig .scVector .vmem S28672 .f32).view.loc (V d (cV L) (jV L)) ↦{fullShare} wr4_3 f x m k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8))))) := by
  iintro Hs
  sl_exec
  sl_step
  isplitr; · ipureintro; rfl
  iexact Hs

theorem b3_part31 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part161 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (3 : Fin 8), (7 : Fin 8)))⌝ ∗ ((Memref.whole cc0_scratch3 : Memref sig .scVector .vmem S28672 .f32).view.loc (V d (cV L) (jV L)) ↦{fullShare} wr4_3 f x m k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8))))) := by
  iintro Hs
  sl_exec
  sl_step
  isplitr; · ipureintro; rfl
  iexact Hs

theorem b3_part32 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part162 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((1 : Fin 4), (7 : Fin 8), (7 : Fin 8)))⌝ ∗ ((Memref.whole cc0_scratch3 : Memref sig .scVector .vmem S28672 .f32).view.loc (V d (cV L) (jV L)) ↦{fullShare} wr4_3 f x m k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8))))) := by
  iintro Hs
  sl_exec
  sl_step
  isplitr; · ipureintro; rfl
  iexact Hs

theorem b3_part33 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part163 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (0 : Fin 8)))⌝ ∗ ((Memref.whole cc0_scratch3 : Memref sig .scVector .vmem S28672 .f32).view.loc (V d (cV L) (jV L)) ↦{fullShare} wr4_3 f x m k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8))))) := by
  iintro Hs
  sl_exec
  sl_step
  isplitr; · ipureintro; rfl
  iexact Hs

theorem b3_part34 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part164 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (0 : Fin 8)))⌝ ∗ ((Memref.whole cc0_scratch3 : Memref sig .scVector .vmem S28672 .f32).view.loc (V d (cV L) (jV L)) ↦{fullShare} wr4_3 f x m k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8))))) := by
  iintro Hs
  sl_exec
  sl_step
  isplitr; · ipureintro; rfl
  iexact Hs

theorem b3_part35 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part165 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (1 : Fin 8)))⌝ ∗ ((Memref.whole cc0_scratch3 : Memref sig .scVector .vmem S28672 .f32).view.loc (V d (cV L) (jV L)) ↦{fullShare} wr4_3 f x m k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8))))) := by
  iintro Hs
  sl_exec
  sl_step
  isplitr; · ipureintro; rfl
  iexact Hs

theorem b3_part36 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part166 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (1 : Fin 8)))⌝ ∗ ((Memref.whole cc0_scratch3 : Memref sig .scVector .vmem S28672 .f32).view.loc (V d (cV L) (jV L)) ↦{fullShare} wr4_3 f x m k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8))))) := by
  iintro Hs
  sl_exec
  sl_step
  isplitr; · ipureintro; rfl
  iexact Hs

theorem b3_part37 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part167 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (2 : Fin 8)))⌝ ∗ ((Memref.whole cc0_scratch3 : Memref sig .scVector .vmem S28672 .f32).view.loc (V d (cV L) (jV L)) ↦{fullShare} wr4_3 f x m k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8))))) := by
  iintro Hs
  sl_exec
  sl_step
  isplitr; · ipureintro; rfl
  iexact Hs

theorem b3_part38 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part168 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (2 : Fin 8)))⌝ ∗ ((Memref.whole cc0_scratch3 : Memref sig .scVector .vmem S28672 .f32).view.loc (V d (cV L) (jV L)) ↦{fullShare} wr4_3 f x m k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8))))) := by
  iintro Hs
  sl_exec
  sl_step
  isplitr; · ipureintro; rfl
  iexact Hs

theorem b3_part39 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part169 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (3 : Fin 8)))⌝ ∗ ((Memref.whole cc0_scratch3 : Memref sig .scVector .vmem S28672 .f32).view.loc (V d (cV L) (jV L)) ↦{fullShare} wr4_3 f x m k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8))))) := by
  iintro Hs
  sl_exec
  sl_step
  isplitr; · ipureintro; rfl
  iexact Hs

theorem b3_part40 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part170 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (3 : Fin 8)))⌝ ∗ ((Memref.whole cc0_scratch3 : Memref sig .scVector .vmem S28672 .f32).view.loc (V d (cV L) (jV L)) ↦{fullShare} wr4_3 f x m k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8))))) := by
  iintro Hs
  sl_exec
  sl_step
  isplitr; · ipureintro; rfl
  iexact Hs

theorem b3_part41 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part171 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (4 : Fin 8)))⌝ ∗ ((Memref.whole cc0_scratch3 : Memref sig .scVector .vmem S28672 .f32).view.loc (V d (cV L) (jV L)) ↦{fullShare} wr4_3 f x m k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8))))) := by
  iintro Hs
  sl_exec
  sl_step
  isplitr; · ipureintro; rfl
  iexact Hs

theorem b3_part42 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part172 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (4 : Fin 8)))⌝ ∗ ((Memref.whole cc0_scratch3 : Memref sig .scVector .vmem S28672 .f32).view.loc (V d (cV L) (jV L)) ↦{fullShare} wr4_3 f x m k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8))))) := by
  iintro Hs
  sl_exec
  sl_step
  isplitr; · ipureintro; rfl
  iexact Hs

theorem b3_part43 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part173 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (5 : Fin 8)))⌝ ∗ ((Memref.whole cc0_scratch3 : Memref sig .scVector .vmem S28672 .f32).view.loc (V d (cV L) (jV L)) ↦{fullShare} wr4_3 f x m k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8))))) := by
  iintro Hs
  sl_exec
  sl_step
  isplitr; · ipureintro; rfl
  iexact Hs

theorem b3_part44 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part174 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (5 : Fin 8)))⌝ ∗ ((Memref.whole cc0_scratch3 : Memref sig .scVector .vmem S28672 .f32).view.loc (V d (cV L) (jV L)) ↦{fullShare} wr4_3 f x m k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8))))) := by
  iintro Hs
  sl_exec
  sl_step
  isplitr; · ipureintro; rfl
  iexact Hs

theorem b3_part45 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part175 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (6 : Fin 8)))⌝ ∗ ((Memref.whole cc0_scratch3 : Memref sig .scVector .vmem S28672 .f32).view.loc (V d (cV L) (jV L)) ↦{fullShare} wr4_3 f x m k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8))))) := by
  iintro Hs
  sl_exec
  sl_step
  isplitr; · ipureintro; rfl
  iexact Hs

theorem b3_part46 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part176 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (6 : Fin 8)))⌝ ∗ ((Memref.whole cc0_scratch3 : Memref sig .scVector .vmem S28672 .f32).view.loc (V d (cV L) (jV L)) ↦{fullShare} wr4_3 f x m k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8))))) := by
  iintro Hs
  sl_exec
  sl_step
  isplitr; · ipureintro; rfl
  iexact Hs

theorem b3_part47 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part177 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (3 : Fin 8), (7 : Fin 8)))⌝ ∗ ((Memref.whole cc0_scratch3 : Memref sig .scVector .vmem S28672 .f32).view.loc (V d (cV L) (jV L)) ↦{fullShare} wr4_3 f x m k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8))))) := by
  iintro Hs
  sl_exec
  sl_step
  isplitr; · ipureintro; rfl
  iexact Hs

theorem b3_part48 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part178 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((2 : Fin 4), (7 : Fin 8), (7 : Fin 8)))⌝ ∗ ((Memref.whole cc0_scratch3 : Memref sig .scVector .vmem S28672 .f32).view.loc (V d (cV L) (jV L)) ↦{fullShare} wr4_3 f x m k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8))))) := by
  iintro Hs
  sl_exec
  sl_step
  isplitr; · ipureintro; rfl
  iexact Hs

theorem b3_part49 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part179 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (0 : Fin 8)))⌝ ∗ ((Memref.whole cc0_scratch3 : Memref sig .scVector .vmem S28672 .f32).view.loc (V d (cV L) (jV L)) ↦{fullShare} wr4_3 f x m k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8))))) := by
  iintro Hs
  sl_exec
  sl_step
  isplitr; · ipureintro; rfl
  iexact Hs

theorem b3_part50 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part180 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (0 : Fin 8)))⌝ ∗ ((Memref.whole cc0_scratch3 : Memref sig .scVector .vmem S28672 .f32).view.loc (V d (cV L) (jV L)) ↦{fullShare} wr4_3 f x m k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8))))) := by
  iintro Hs
  sl_exec
  sl_step
  isplitr; · ipureintro; rfl
  iexact Hs

theorem b3_part51 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part181 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (1 : Fin 8)))⌝ ∗ ((Memref.whole cc0_scratch3 : Memref sig .scVector .vmem S28672 .f32).view.loc (V d (cV L) (jV L)) ↦{fullShare} wr4_3 f x m k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8))))) := by
  iintro Hs
  sl_exec
  sl_step
  isplitr; · ipureintro; rfl
  iexact Hs

theorem b3_part52 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part182 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (1 : Fin 8)))⌝ ∗ ((Memref.whole cc0_scratch3 : Memref sig .scVector .vmem S28672 .f32).view.loc (V d (cV L) (jV L)) ↦{fullShare} wr4_3 f x m k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8))))) := by
  iintro Hs
  sl_exec
  sl_step
  isplitr; · ipureintro; rfl
  iexact Hs

theorem b3_part53 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part183 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (2 : Fin 8)))⌝ ∗ ((Memref.whole cc0_scratch3 : Memref sig .scVector .vmem S28672 .f32).view.loc (V d (cV L) (jV L)) ↦{fullShare} wr4_3 f x m k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8))))) := by
  iintro Hs
  sl_exec
  sl_step
  isplitr; · ipureintro; rfl
  iexact Hs

theorem b3_part54 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part184 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (2 : Fin 8)))⌝ ∗ ((Memref.whole cc0_scratch3 : Memref sig .scVector .vmem S28672 .f32).view.loc (V d (cV L) (jV L)) ↦{fullShare} wr4_3 f x m k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8))))) := by
  iintro Hs
  sl_exec
  sl_step
  isplitr; · ipureintro; rfl
  iexact Hs

theorem b3_part55 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part185 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (3 : Fin 8)))⌝ ∗ ((Memref.whole cc0_scratch3 : Memref sig .scVector .vmem S28672 .f32).view.loc (V d (cV L) (jV L)) ↦{fullShare} wr4_3 f x m k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8))))) := by
  iintro Hs
  sl_exec
  sl_step
  isplitr; · ipureintro; rfl
  iexact Hs

theorem b3_part56 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part186 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (3 : Fin 8)))⌝ ∗ ((Memref.whole cc0_scratch3 : Memref sig .scVector .vmem S28672 .f32).view.loc (V d (cV L) (jV L)) ↦{fullShare} wr4_3 f x m k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8))))) := by
  iintro Hs
  sl_exec
  sl_step
  isplitr; · ipureintro; rfl
  iexact Hs

theorem b3_part57 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part187 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (4 : Fin 8)))⌝ ∗ ((Memref.whole cc0_scratch3 : Memref sig .scVector .vmem S28672 .f32).view.loc (V d (cV L) (jV L)) ↦{fullShare} wr4_3 f x m k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8))))) := by
  iintro Hs
  sl_exec
  sl_step
  isplitr; · ipureintro; rfl
  iexact Hs

theorem b3_part58 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part188 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (4 : Fin 8)))⌝ ∗ ((Memref.whole cc0_scratch3 : Memref sig .scVector .vmem S28672 .f32).view.loc (V d (cV L) (jV L)) ↦{fullShare} wr4_3 f x m k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8))))) := by
  iintro Hs
  sl_exec
  sl_step
  isplitr; · ipureintro; rfl
  iexact Hs

theorem b3_part59 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part189 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (5 : Fin 8)))⌝ ∗ ((Memref.whole cc0_scratch3 : Memref sig .scVector .vmem S28672 .f32).view.loc (V d (cV L) (jV L)) ↦{fullShare} wr4_3 f x m k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8))))) := by
  iintro Hs
  sl_exec
  sl_step
  isplitr; · ipureintro; rfl
  iexact Hs

theorem b3_part60 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part190 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (5 : Fin 8)))⌝ ∗ ((Memref.whole cc0_scratch3 : Memref sig .scVector .vmem S28672 .f32).view.loc (V d (cV L) (jV L)) ↦{fullShare} wr4_3 f x m k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8))))) := by
  iintro Hs
  sl_exec
  sl_step
  isplitr; · ipureintro; rfl
  iexact Hs

theorem b3_part61 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part191 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (6 : Fin 8)))⌝ ∗ ((Memref.whole cc0_scratch3 : Memref sig .scVector .vmem S28672 .f32).view.loc (V d (cV L) (jV L)) ↦{fullShare} wr4_3 f x m k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8))))) := by
  iintro Hs
  sl_exec
  sl_step
  isplitr; · ipureintro; rfl
  iexact Hs

theorem b3_part62 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part192 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (6 : Fin 8)))⌝ ∗ ((Memref.whole cc0_scratch3 : Memref sig .scVector .vmem S28672 .f32).view.loc (V d (cV L) (jV L)) ↦{fullShare} wr4_3 f x m k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8))))) := by
  iintro Hs
  sl_exec
  sl_step
  isplitr; · ipureintro; rfl
  iexact Hs

theorem b3_part63 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part193 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (3 : Fin 8), (7 : Fin 8)))⌝ ∗ ((Memref.whole cc0_scratch3 : Memref sig .scVector .vmem S28672 .f32).view.loc (V d (cV L) (jV L)) ↦{fullShare} wr4_3 f x m k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8))))) := by
  iintro Hs
  sl_exec
  sl_step
  isplitr; · ipureintro; rfl
  iexact Hs

theorem b3_part64 (d : Dev nD) (L : grid0.Coords) (m : FVec F S16 .f32) (k : Fin k0_t4_loop.trips) (w : BitVec 32) (x : FVec F S16 .f32) (y : Vec F S16 .f32) (f : Buf (Elt F) ((V d (cV L) (jV L)).loc cc0_scratch3)) :
    ((Memref.whole cc0_scratch3 : Memref sig .scVector .vmem S28672 .f32).view.loc (V d (cV L) (jV L)) ↦{fullShare} f : sProp 𝕄) ⊢ wp frame (wpE (defs₀ (F := F)) 𝒱₀ (V d (cV L) (jV L)) none) Set.univ (k0_part194 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 m k w x y)
      (fun r => iprop(⌜r.1 = payP m (rd3 f k ((3 : Fin 4), (7 : Fin 8), (7 : Fin 8)))⌝ ∗ ((Memref.whole cc0_scratch3 : Memref sig .scVector .vmem S28672 .f32).view.loc (V d (cV L) (jV L)) ↦{fullShare} wr4_3 f x m k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8))))) := by
  iintro Hs
  sl_exec
  sl_step
  isplitr; · ipureintro; rfl
  iexact Hs

set_option maxHeartbeats 8000000 in
/-- The first sixty parts of a trip: from the buffer as the trip found it to the buffer after 239 stores. -/
theorem b3_wrap (d : Dev nD) (L : grid0.Coords) (v10 v17 v24 v31 v38 v45 v52 v59 v66 v73 v80 v87 v94 v101 v108 v115 v122 v129 v136 v143 v150 v157 v164 v171 v178 v185 v192 v199 v206 v213 v220 v227 : FVec F S16 .f32) (a c : BitVec 32) (k : Fin k0_t4_loop.trips) (g : Buf (Elt F) ((V d (cV L) (jV L)).loc cc0_scratch3)) :
    ((Memref.whole cc0_scratch3 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 0 : sProp 𝕄) ⊢ wp frame (wpE (defs₀ (F := F)) 𝒱₀ (V d (cV L) (jV L)) none) Set.univ (k0_part195 L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v10 v17 v24 v31 v38 v45 v52 v59 v66 v73 v80 v87 v94 v101 v108 v115 v122 v129 v136 v143 v150 v157 v164 v171 v178 v185 v192 v199 v206 v213 a c k)
      (fun r => iprop(⌜r.2.1 = payP ((mulTab v10 v17 v24 v31 v38 v45 v52 v59 v66 v73 v80 v87 v94 v101 v108 v115 v122 v129 v136 v143 v150 v157 v164 v171 v178 v185 v192 v199 v206 v213 v220 v227) (grp ((3 : Fin 4), (7 : Fin 8), (5 : Fin 8)))) (rd3 g k ((3 : Fin 4), (7 : Fin 8), (5 : Fin 8)))⌝ ∗ ((Memref.whole cc0_scratch3 : Memref sig .scVector .vmem S28672 .f32).view.loc (V d (cV L) (jV L)) ↦{fullShare} stC (mulTab v10 v17 v24 v31 v38 v45 v52 v59 v66 v73 v80 v87 v94 v101 v108 v115 v122 v129 v136 v143 v150 v157 v164 v171 v178 v185 v192 v199 v206 v213 v220 v227) g k.val 239))) := by
  rw [k0_part195_eq_skeleton]; unfold k0_part195_skel
  refine wp_stepV d L (b3_part1 d L _ _ _ _ _) fun r => ?_
  obtain ⟨w, x1, y1⟩ := r
  refine pure_pre fun hx1 => ?_
  have ps1 := part_first3 (mulTab v10 v17 v24 v31 v38 v45 v52 v59 v66 v73 v80 v87 v94 v101 v108 v115 v122 v129 v136 v143 v150 v157 v164 v171 v178 v185 v192 v199 v206 v213 v220 v227) g k ((0 : Fin 4), (0 : Fin 8), (0 : Fin 8)) ((0 : Fin 4), (1 : Fin 8), (0 : Fin 8)) ((0 : Fin 4), (2 : Fin 8), (0 : Fin 8)) ((0 : Fin 4), (3 : Fin 8), (0 : Fin 8)) rfl rfl rfl rfl v10 rfl rfl rfl rfl
  rw [ps1.1]
  replace hx1 := hx1.trans ps1.2
  clear ps1
  refine wp_stepV d L (b3_part2 d L _ _ _ _ _ _) fun r => ?_
  obtain ⟨x2, y2⟩ := r
  refine pure_pre fun hx2 => ?_
  have ps2 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (0 : Fin 8)) ((0 : Fin 4), (4 : Fin 8), (0 : Fin 8)) ((0 : Fin 4), (5 : Fin 8), (0 : Fin 8)) ((0 : Fin 4), (6 : Fin 8), (0 : Fin 8)) ((0 : Fin 4), (7 : Fin 8), (0 : Fin 8)) 3 rfl rfl rfl rfl rfl v10 rfl rfl rfl rfl x1 hx1
  rw [ps2.1]
  replace hx2 := hx2.trans ps2.2
  clear ps2 hx1
  refine wp_stepV d L (b3_part3 d L _ _ _ _ _ _) fun r => ?_
  obtain ⟨x3, y3⟩ := r
  refine pure_pre fun hx3 => ?_
  have ps3 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (0 : Fin 8)) ((0 : Fin 4), (0 : Fin 8), (1 : Fin 8)) ((0 : Fin 4), (1 : Fin 8), (1 : Fin 8)) ((0 : Fin 4), (2 : Fin 8), (1 : Fin 8)) ((0 : Fin 4), (3 : Fin 8), (1 : Fin 8)) 7 rfl rfl rfl rfl rfl v17 rfl rfl rfl rfl x2 hx2
  rw [ps3.1]
  replace hx3 := hx3.trans ps3.2
  clear ps3 hx2
  refine wp_stepV d L (b3_part4 d L _ _ _ _ _ _) fun r => ?_
  obtain ⟨x4, y4⟩ := r
  refine pure_pre fun hx4 => ?_
  have ps4 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (1 : Fin 8)) ((0 : Fin 4), (4 : Fin 8), (1 : Fin 8)) ((0 : Fin 4), (5 : Fin 8), (1 : Fin 8)) ((0 : Fin 4), (6 : Fin 8), (1 : Fin 8)) ((0 : Fin 4), (7 : Fin 8), (1 : Fin 8)) 11 rfl rfl rfl rfl rfl v17 rfl rfl rfl rfl x3 hx3
  rw [ps4.1]
  replace hx4 := hx4.trans ps4.2
  clear ps4 hx3
  refine wp_stepV d L (b3_part5 d L _ _ _ _ _ _) fun r => ?_
  obtain ⟨x5, y5⟩ := r
  refine pure_pre fun hx5 => ?_
  have ps5 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (1 : Fin 8)) ((0 : Fin 4), (0 : Fin 8), (2 : Fin 8)) ((0 : Fin 4), (1 : Fin 8), (2 : Fin 8)) ((0 : Fin 4), (2 : Fin 8), (2 : Fin 8)) ((0 : Fin 4), (3 : Fin 8), (2 : Fin 8)) 15 rfl rfl rfl rfl rfl v24 rfl rfl rfl rfl x4 hx4
  rw [ps5.1]
  replace hx5 := hx5.trans ps5.2
  clear ps5 hx4
  refine wp_stepV d L (b3_part6 d L _ _ _ _ _ _) fun r => ?_
  obtain ⟨x6, y6⟩ := r
  refine pure_pre fun hx6 => ?_
  have ps6 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (2 : Fin 8)) ((0 : Fin 4), (4 : Fin 8), (2 : Fin 8)) ((0 : Fin 4), (5 : Fin 8), (2 : Fin 8)) ((0 : Fin 4), (6 : Fin 8), (2 : Fin 8)) ((0 : Fin 4), (7 : Fin 8), (2 : Fin 8)) 19 rfl rfl rfl rfl rfl v24 rfl rfl rfl rfl x5 hx5
  rw [ps6.1]
  replace hx6 := hx6.trans ps6.2
  clear ps6 hx5
  refine wp_stepV d L (b3_part7 d L _ _ _ _ _ _) fun r => ?_
  obtain ⟨x7, y7⟩ := r
  refine pure_pre fun hx7 => ?_
  have ps7 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (2 : Fin 8)) ((0 : Fin 4), (0 : Fin 8), (3 : Fin 8)) ((0 : Fin 4), (1 : Fin 8), (3 : Fin 8)) ((0 : Fin 4), (2 : Fin 8), (3 : Fin 8)) ((0 : Fin 4), (3 : Fin 8), (3 : Fin 8)) 23 rfl rfl rfl rfl rfl v31 rfl rfl rfl rfl x6 hx6
  rw [ps7.1]
  replace hx7 := hx7.trans ps7.2
  clear ps7 hx6
  refine wp_stepV d L (b3_part8 d L _ _ _ _ _ _) fun r => ?_
  obtain ⟨x8, y8⟩ := r
  refine pure_pre fun hx8 => ?_
  have ps8 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (3 : Fin 8)) ((0 : Fin 4), (4 : Fin 8), (3 : Fin 8)) ((0 : Fin 4), (5 : Fin 8), (3 : Fin 8)) ((0 : Fin 4), (6 : Fin 8), (3 : Fin 8)) ((0 : Fin 4), (7 : Fin 8), (3 : Fin 8)) 27 rfl rfl rfl rfl rfl v31 rfl rfl rfl rfl x7 hx7
  rw [ps8.1]
  replace hx8 := hx8.trans ps8.2
  clear ps8 hx7
  refine wp_stepV d L (b3_part9 d L _ _ _ _ _ _) fun r => ?_
  obtain ⟨x9, y9⟩ := r
  refine pure_pre fun hx9 => ?_
  have ps9 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (3 : Fin 8)) ((0 : Fin 4), (0 : Fin 8), (4 : Fin 8)) ((0 : Fin 4), (1 : Fin 8), (4 : Fin 8)) ((0 : Fin 4), (2 : Fin 8), (4 : Fin 8)) ((0 : Fin 4), (3 : Fin 8), (4 : Fin 8)) 31 rfl rfl rfl rfl rfl v38 rfl rfl rfl rfl x8 hx8
  rw [ps9.1]
  replace hx9 := hx9.trans ps9.2
  clear ps9 hx8
  refine wp_stepV d L (b3_part10 d L _ _ _ _ _ _) fun r => ?_
  obtain ⟨x10, y10⟩ := r
  refine pure_pre fun hx10 => ?_
  have ps10 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (4 : Fin 8)) ((0 : Fin 4), (4 : Fin 8), (4 : Fin 8)) ((0 : Fin 4), (5 : Fin 8), (4 : Fin 8)) ((0 : Fin 4), (6 : Fin 8), (4 : Fin 8)) ((0 : Fin 4), (7 : Fin 8), (4 : Fin 8)) 35 rfl rfl rfl rfl rfl v38 rfl rfl rfl rfl x9 hx9
  rw [ps10.1]
  replace hx10 := hx10.trans ps10.2
  clear ps10 hx9
  refine wp_stepV d L (b3_part11 d L _ _ _ _ _ _) fun r => ?_
  obtain ⟨x11, y11⟩ := r
  refine pure_pre fun hx11 => ?_
  have ps11 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (4 : Fin 8)) ((0 : Fin 4), (0 : Fin 8), (5 : Fin 8)) ((0 : Fin 4), (1 : Fin 8), (5 : Fin 8)) ((0 : Fin 4), (2 : Fin 8), (5 : Fin 8)) ((0 : Fin 4), (3 : Fin 8), (5 : Fin 8)) 39 rfl rfl rfl rfl rfl v45 rfl rfl rfl rfl x10 hx10
  rw [ps11.1]
  replace hx11 := hx11.trans ps11.2
  clear ps11 hx10
  refine wp_stepV d L (b3_part12 d L _ _ _ _ _ _) fun r => ?_
  obtain ⟨x12, y12⟩ := r
  refine pure_pre fun hx12 => ?_
  have ps12 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (5 : Fin 8)) ((0 : Fin 4), (4 : Fin 8), (5 : Fin 8)) ((0 : Fin 4), (5 : Fin 8), (5 : Fin 8)) ((0 : Fin 4), (6 : Fin 8), (5 : Fin 8)) ((0 : Fin 4), (7 : Fin 8), (5 : Fin 8)) 43 rfl rfl rfl rfl rfl v45 rfl rfl rfl rfl x11 hx11
  rw [ps12.1]
  replace hx12 := hx12.trans ps12.2
  clear ps12 hx11
  refine wp_stepV d L (b3_part13 d L _ _ _ _ _ _) fun r => ?_
  obtain ⟨x13, y13⟩ := r
  refine pure_pre fun hx13 => ?_
  have ps13 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (5 : Fin 8)) ((0 : Fin 4), (0 : Fin 8), (6 : Fin 8)) ((0 : Fin 4), (1 : Fin 8), (6 : Fin 8)) ((0 : Fin 4), (2 : Fin 8), (6 : Fin 8)) ((0 : Fin 4), (3 : Fin 8), (6 : Fin 8)) 47 rfl rfl rfl rfl rfl v52 rfl rfl rfl rfl x12 hx12
  rw [ps13.1]
  replace hx13 := hx13.trans ps13.2
  clear ps13 hx12
  refine wp_stepV d L (b3_part14 d L _ _ _ _ _ _) fun r => ?_
  obtain ⟨x14, y14⟩ := r
  refine pure_pre fun hx14 => ?_
  have ps14 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (6 : Fin 8)) ((0 : Fin 4), (4 : Fin 8), (6 : Fin 8)) ((0 : Fin 4), (5 : Fin 8), (6 : Fin 8)) ((0 : Fin 4), (6 : Fin 8), (6 : Fin 8)) ((0 : Fin 4), (7 : Fin 8), (6 : Fin 8)) 51 rfl rfl rfl rfl rfl v52 rfl rfl rfl rfl x13 hx13
  rw [ps14.1]
  replace hx14 := hx14.trans ps14.2
  clear ps14 hx13
  refine wp_stepV d L (b3_part15 d L _ _ _ _ _ _) fun r => ?_
  obtain ⟨x15, y15⟩ := r
  refine pure_pre fun hx15 => ?_
  have ps15 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (6 : Fin 8)) ((0 : Fin 4), (0 : Fin 8), (7 : Fin 8)) ((0 : Fin 4), (1 : Fin 8), (7 : Fin 8)) ((0 : Fin 4), (2 : Fin 8), (7 : Fin 8)) ((0 : Fin 4), (3 : Fin 8), (7 : Fin 8)) 55 rfl rfl rfl rfl rfl v59 rfl rfl rfl rfl x14 hx14
  rw [ps15.1]
  replace hx15 := hx15.trans ps15.2
  clear ps15 hx14
  refine wp_stepV d L (b3_part16 d L _ _ _ _ _ _) fun r => ?_
  obtain ⟨x16, y16⟩ := r
  refine pure_pre fun hx16 => ?_
  have ps16 := part_step3 (mulTab v10 v17 v24 v31 v38 v45 v52 v59 v66 v73 v80 v87 v94 v101 v108 v115 v122 v129 v136 v143 v150 v157 v164 v171 v178 v185 v192 v199 v206 v213 v220 v227) g k ((0 : Fin 4), (3 : Fin 8), (7 : Fin 8)) ((0 : Fin 4), (4 : Fin 8), (7 : Fin 8)) ((0 : Fin 4), (5 : Fin 8), (7 : Fin 8)) ((0 : Fin 4), (6 : Fin 8), (7 : Fin 8)) ((0 : Fin 4), (7 : Fin 8), (7 : Fin 8)) 59 rfl rfl rfl rfl rfl v59 rfl rfl rfl rfl x15 hx15
  rw [ps16.1]
  replace hx16 := hx16.trans ps16.2
  clear ps16 hx15
  refine wp_stepV d L (b3_part17 d L _ _ _ _ _ _) fun r => ?_
  obtain ⟨x17, y17⟩ := r
  refine pure_pre fun hx17 => ?_
  have ps17 := part_step3 (mulTab v10 v17 v24 v31 v38 v45 v52 v59 v66 v73 v80 v87 v94 v101 v108 v115 v122 v129 v136 v143 v150 v157 v164 v171 v178 v185 v192 v199 v206 v213 v220 v227) g k ((0 : Fin 4), (7 : Fin 8), (7 : Fin 8)) ((1 : Fin 4), (0 : Fin 8), (0 : Fin 8)) ((1 : Fin 4), (1 : Fin 8), (0 : Fin 8)) ((1 : Fin 4), (2 : Fin 8), (0 : Fin 8)) ((1 : Fin 4), (3 : Fin 8), (0 : Fin 8)) 63 rfl rfl rfl rfl rfl v66 rfl rfl rfl rfl x16 hx16
  rw [ps17.1]
  replace hx17 := hx17.trans ps17.2
  clear ps17 hx16
  refine wp_stepV d L (b3_part18 d L _ _ _ _ _ _) fun r => ?_
  obtain ⟨x18, y18⟩ := r
  refine pure_pre fun hx18 => ?_
  have ps18 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (0 : Fin 8)) ((1 : Fin 4), (4 : Fin 8), (0 : Fin 8)) ((1 : Fin 4), (5 : Fin 8), (0 : Fin 8)) ((1 : Fin 4), (6 : Fin 8), (0 : Fin 8)) ((1 : Fin 4), (7 : Fin 8), (0 : Fin 8)) 67 rfl rfl rfl rfl rfl v66 rfl rfl rfl rfl x17 hx17
  rw [ps18.1]
  replace hx18 := hx18.trans ps18.2
  clear ps18 hx17
  refine wp_stepV d L (b3_part19 d L _ _ _ _ _ _) fun r => ?_
  obtain ⟨x19, y19⟩ := r
  refine pure_pre fun hx19 => ?_
  have ps19 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (0 : Fin 8)) ((1 : Fin 4), (0 : Fin 8), (1 : Fin 8)) ((1 : Fin 4), (1 : Fin 8), (1 : Fin 8)) ((1 : Fin 4), (2 : Fin 8), (1 : Fin 8)) ((1 : Fin 4), (3 : Fin 8), (1 : Fin 8)) 71 rfl rfl rfl rfl rfl v73 rfl rfl rfl rfl x18 hx18
  rw [ps19.1]
  replace hx19 := hx19.trans ps19.2
  clear ps19 hx18
  refine wp_stepV d L (b3_part20 d L _ _ _ _ _ _) fun r => ?_
  obtain ⟨x20, y20⟩ := r
  refine pure_pre fun hx20 => ?_
  have ps20 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (1 : Fin 8)) ((1 : Fin 4), (4 : Fin 8), (1 : Fin 8)) ((1 : Fin 4), (5 : Fin 8), (1 : Fin 8)) ((1 : Fin 4), (6 : Fin 8), (1 : Fin 8)) ((1 : Fin 4), (7 : Fin 8), (1 : Fin 8)) 75 rfl rfl rfl rfl rfl v73 rfl rfl rfl rfl x19 hx19
  rw [ps20.1]
  replace hx20 := hx20.trans ps20.2
  clear ps20 hx19
  refine wp_stepV d L (b3_part21 d L _ _ _ _ _ _) fun r => ?_
  obtain ⟨x21, y21⟩ := r
  refine pure_pre fun hx21 => ?_
  have ps21 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (1 : Fin 8)) ((1 : Fin 4), (0 : Fin 8), (2 : Fin 8)) ((1 : Fin 4), (1 : Fin 8), (2 : Fin 8)) ((1 : Fin 4), (2 : Fin 8), (2 : Fin 8)) ((1 : Fin 4), (3 : Fin 8), (2 : Fin 8)) 79 rfl rfl rfl rfl rfl v80 rfl rfl rfl rfl x20 hx20
  rw [ps21.1]
  replace hx21 := hx21.trans ps21.2
  clear ps21 hx20
  refine wp_stepV d L (b3_part22 d L _ _ _ _ _ _) fun r => ?_
  obtain ⟨x22, y22⟩ := r
  refine pure_pre fun hx22 => ?_
  have ps22 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (2 : Fin 8)) ((1 : Fin 4), (4 : Fin 8), (2 : Fin 8)) ((1 : Fin 4), (5 : Fin 8), (2 : Fin 8)) ((1 : Fin 4), (6 : Fin 8), (2 : Fin 8)) ((1 : Fin 4), (7 : Fin 8), (2 : Fin 8)) 83 rfl rfl rfl rfl rfl v80 rfl rfl rfl rfl x21 hx21
  rw [ps22.1]
  replace hx22 := hx22.trans ps22.2
  clear ps22 hx21
  refine wp_stepV d L (b3_part23 d L _ _ _ _ _ _) fun r => ?_
  obtain ⟨x23, y23⟩ := r
  refine pure_pre fun hx23 => ?_
  have ps23 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (2 : Fin 8)) ((1 : Fin 4), (0 : Fin 8), (3 : Fin 8)) ((1 : Fin 4), (1 : Fin 8), (3 : Fin 8)) ((1 : Fin 4), (2 : Fin 8), (3 : Fin 8)) ((1 : Fin 4), (3 : Fin 8), (3 : Fin 8)) 87 rfl rfl rfl rfl rfl v87 rfl rfl rfl rfl x22 hx22
  rw [ps23.1]
  replace hx23 := hx23.trans ps23.2
  clear ps23 hx22
  refine wp_stepV d L (b3_part24 d L _ _ _ _ _ _) fun r => ?_
  obtain ⟨x24, y24⟩ := r
  refine pure_pre fun hx24 => ?_
  have ps24 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (3 : Fin 8)) ((1 : Fin 4), (4 : Fin 8), (3 : Fin 8)) ((1 : Fin 4), (5 : Fin 8), (3 : Fin 8)) ((1 : Fin 4), (6 : Fin 8), (3 : Fin 8)) ((1 : Fin 4), (7 : Fin 8), (3 : Fin 8)) 91 rfl rfl rfl rfl rfl v87 rfl rfl rfl rfl x23 hx23
  rw [ps24.1]
  replace hx24 := hx24.trans ps24.2
  clear ps24 hx23
  refine wp_stepV d L (b3_part25 d L _ _ _ _ _ _) fun r => ?_
  obtain ⟨x25, y25⟩ := r
  refine pure_pre fun hx25 => ?_
  have ps25 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (3 : Fin 8)) ((1 : Fin 4), (0 : Fin 8), (4 : Fin 8)) ((1 : Fin 4), (1 : Fin 8), (4 : Fin 8)) ((1 : Fin 4), (2 : Fin 8), (4 : Fin 8)) ((1 : Fin 4), (3 : Fin 8), (4 : Fin 8)) 95 rfl rfl rfl rfl rfl v94 rfl rfl rfl rfl x24 hx24
  rw [ps25.1]
  replace hx25 := hx25.trans ps25.2
  clear ps25 hx24
  refine wp_stepV d L (b3_part26 d L _ _ _ _ _ _) fun r => ?_
  obtain ⟨x26, y26⟩ := r
  refine pure_pre fun hx26 => ?_
  have ps26 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (4 : Fin 8)) ((1 : Fin 4), (4 : Fin 8), (4 : Fin 8)) ((1 : Fin 4), (5 : Fin 8), (4 : Fin 8)) ((1 : Fin 4), (6 : Fin 8), (4 : Fin 8)) ((1 : Fin 4), (7 : Fin 8), (4 : Fin 8)) 99 rfl rfl rfl rfl rfl v94 rfl rfl rfl rfl x25 hx25
  rw [ps26.1]
  replace hx26 := hx26.trans ps26.2
  clear ps26 hx25
  refine wp_stepV d L (b3_part27 d L _ _ _ _ _ _) fun r => ?_
  obtain ⟨x27, y27⟩ := r
  refine pure_pre fun hx27 => ?_
  have ps27 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (4 : Fin 8)) ((1 : Fin 4), (0 : Fin 8), (5 : Fin 8)) ((1 : Fin 4), (1 : Fin 8), (5 : Fin 8)) ((1 : Fin 4), (2 : Fin 8), (5 : Fin 8)) ((1 : Fin 4), (3 : Fin 8), (5 : Fin 8)) 103 rfl rfl rfl rfl rfl v101 rfl rfl rfl rfl x26 hx26
  rw [ps27.1]
  replace hx27 := hx27.trans ps27.2
  clear ps27 hx26
  refine wp_stepV d L (b3_part28 d L _ _ _ _ _ _) fun r => ?_
  obtain ⟨x28, y28⟩ := r
  refine pure_pre fun hx28 => ?_
  have ps28 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (5 : Fin 8)) ((1 : Fin 4), (4 : Fin 8), (5 : Fin 8)) ((1 : Fin 4), (5 : Fin 8), (5 : Fin 8)) ((1 : Fin 4), (6 : Fin 8), (5 : Fin 8)) ((1 : Fin 4), (7 : Fin 8), (5 : Fin 8)) 107 rfl rfl rfl rfl rfl v101 rfl rfl rfl rfl x27 hx27
  rw [ps28.1]
  replace hx28 := hx28.trans ps28.2
  clear ps28 hx27
  refine wp_stepV d L (b3_part29 d L _ _ _ _ _ _) fun r => ?_
  obtain ⟨x29, y29⟩ := r
  refine pure_pre fun hx29 => ?_
  have ps29 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (5 : Fin 8)) ((1 : Fin 4), (0 : Fin 8), (6 : Fin 8)) ((1 : Fin 4), (1 : Fin 8), (6 : Fin 8)) ((1 : Fin 4), (2 : Fin 8), (6 : Fin 8)) ((1 : Fin 4), (3 : Fin 8), (6 : Fin 8)) 111 rfl rfl rfl rfl rfl v108 rfl rfl rfl rfl x28 hx28
  rw [ps29.1]
  replace hx29 := hx29.trans ps29.2
  clear ps29 hx28
  refine wp_stepV d L (b3_part30 d L _ _ _ _ _ _) fun r => ?_
  obtain ⟨x30, y30⟩ := r
  refine pure_pre fun hx30 => ?_
  have ps30 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (6 : Fin 8)) ((1 : Fin 4), (4 : Fin 8), (6 : Fin 8)) ((1 : Fin 4), (5 : Fin 8), (6 : Fin 8)) ((1 : Fin 4), (6 : Fin 8), (6 : Fin 8)) ((1 : Fin 4), (7 : Fin 8), (6 : Fin 8)) 115 rfl rfl rfl rfl rfl v108 rfl rfl rfl rfl x29 hx29
  rw [ps30.1]
  replace hx30 := hx30.trans ps30.2
  clear ps30 hx29
  refine wp_stepV d L (b3_part31 d L _ _ _ _ _ _) fun r => ?_
  obtain ⟨x31, y31⟩ := r
  refine pure_pre fun hx31 => ?_
  have ps31 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (6 : Fin 8)) ((1 : Fin 4), (0 : Fin 8), (7 : Fin 8)) ((1 : Fin 4), (1 : Fin 8), (7 : Fin 8)) ((1 : Fin 4), (2 : Fin 8), (7 : Fin 8)) ((1 : Fin 4), (3 : Fin 8), (7 : Fin 8)) 119 rfl rfl rfl rfl rfl v115 rfl rfl rfl rfl x30 hx30
  rw [ps31.1]
  replace hx31 := hx31.trans ps31.2
  clear ps31 hx30
  refine wp_stepV d L (b3_part32 d L _ _ _ _ _ _) fun r => ?_
  obtain ⟨x32, y32⟩ := r
  refine pure_pre fun hx32 => ?_
  have ps32 := part_step3 (mulTab v10 v17 v24 v31 v38 v45 v52 v59 v66 v73 v80 v87 v94 v101 v108 v115 v122 v129 v136 v143 v150 v157 v164 v171 v178 v185 v192 v199 v206 v213 v220 v227) g k ((1 : Fin 4), (3 : Fin 8), (7 : Fin 8)) ((1 : Fin 4), (4 : Fin 8), (7 : Fin 8)) ((1 : Fin 4), (5 : Fin 8), (7 : Fin 8)) ((1 : Fin 4), (6 : Fin 8), (7 : Fin 8)) ((1 : Fin 4), (7 : Fin 8), (7 : Fin 8)) 123 rfl rfl rfl rfl rfl v115 rfl rfl rfl rfl x31 hx31
  rw [ps32.1]
  replace hx32 := hx32.trans ps32.2
  clear ps32 hx31
  refine wp_stepV d L (b3_part33 d L _ _ _ _ _ _) fun r => ?_
  obtain ⟨x33, y33⟩ := r
  refine pure_pre fun hx33 => ?_
  have ps33 := part_step3 (mulTab v10 v17 v24 v31 v38 v45 v52 v59 v66 v73 v80 v87 v94 v101 v108 v115 v122 v129 v136 v143 v150 v157 v164 v171 v178 v185 v192 v199 v206 v213 v220 v227) g k ((1 : Fin 4), (7 : Fin 8), (7 : Fin 8)) ((2 : Fin 4), (0 : Fin 8), (0 : Fin 8)) ((2 : Fin 4), (1 : Fin 8), (0 : Fin 8)) ((2 : Fin 4), (2 : Fin 8), (0 : Fin 8)) ((2 : Fin 4), (3 : Fin 8), (0 : Fin 8)) 127 rfl rfl rfl rfl rfl v122 rfl rfl rfl rfl x32 hx32
  rw [ps33.1]
  replace hx33 := hx33.trans ps33.2
  clear ps33 hx32
  refine wp_stepV d L (b3_part34 d L _ _ _ _ _ _) fun r => ?_
  obtain ⟨x34, y34⟩ := r
  refine pure_pre fun hx34 => ?_
  have ps34 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (0 : Fin 8)) ((2 : Fin 4), (4 : Fin 8), (0 : Fin 8)) ((2 : Fin 4), (5 : Fin 8), (0 : Fin 8)) ((2 : Fin 4), (6 : Fin 8), (0 : Fin 8)) ((2 : Fin 4), (7 : Fin 8), (0 : Fin 8)) 131 rfl rfl rfl rfl rfl v122 rfl rfl rfl rfl x33 hx33
  rw [ps34.1]
  replace hx34 := hx34.trans ps34.2
  clear ps34 hx33
  refine wp_stepV d L (b3_part35 d L _ _ _ _ _ _) fun r => ?_
  obtain ⟨x35, y35⟩ := r
  refine pure_pre fun hx35 => ?_
  have ps35 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (0 : Fin 8)) ((2 : Fin 4), (0 : Fin 8), (1 : Fin 8)) ((2 : Fin 4), (1 : Fin 8), (1 : Fin 8)) ((2 : Fin 4), (2 : Fin 8), (1 : Fin 8)) ((2 : Fin 4), (3 : Fin 8), (1 : Fin 8)) 135 rfl rfl rfl rfl rfl v129 rfl rfl rfl rfl x34 hx34
  rw [ps35.1]
  replace hx35 := hx35.trans ps35.2
  clear ps35 hx34
  refine wp_stepV d L (b3_part36 d L _ _ _ _ _ _) fun r => ?_
  obtain ⟨x36, y36⟩ := r
  refine pure_pre fun hx36 => ?_
  have ps36 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (1 : Fin 8)) ((2 : Fin 4), (4 : Fin 8), (1 : Fin 8)) ((2 : Fin 4), (5 : Fin 8), (1 : Fin 8)) ((2 : Fin 4), (6 : Fin 8), (1 : Fin 8)) ((2 : Fin 4), (7 : Fin 8), (1 : Fin 8)) 139 rfl rfl rfl rfl rfl v129 rfl rfl rfl rfl x35 hx35
  rw [ps36.1]
  replace hx36 := hx36.trans ps36.2
  clear ps36 hx35
  refine wp_stepV d L (b3_part37 d L _ _ _ _ _ _) fun r => ?_
  obtain ⟨x37, y37⟩ := r
  refine pure_pre fun hx37 => ?_
  have ps37 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (1 : Fin 8)) ((2 : Fin 4), (0 : Fin 8), (2 : Fin 8)) ((2 : Fin 4), (1 : Fin 8), (2 : Fin 8)) ((2 : Fin 4), (2 : Fin 8), (2 : Fin 8)) ((2 : Fin 4), (3 : Fin 8), (2 : Fin 8)) 143 rfl rfl rfl rfl rfl v136 rfl rfl rfl rfl x36 hx36
  rw [ps37.1]
  replace hx37 := hx37.trans ps37.2
  clear ps37 hx36
  refine wp_stepV d L (b3_part38 d L _ _ _ _ _ _) fun r => ?_
  obtain ⟨x38, y38⟩ := r
  refine pure_pre fun hx38 => ?_
  have ps38 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (2 : Fin 8)) ((2 : Fin 4), (4 : Fin 8), (2 : Fin 8)) ((2 : Fin 4), (5 : Fin 8), (2 : Fin 8)) ((2 : Fin 4), (6 : Fin 8), (2 : Fin 8)) ((2 : Fin 4), (7 : Fin 8), (2 : Fin 8)) 147 rfl rfl rfl rfl rfl v136 rfl rfl rfl rfl x37 hx37
  rw [ps38.1]
  replace hx38 := hx38.trans ps38.2
  clear ps38 hx37
  refine wp_stepV d L (b3_part39 d L _ _ _ _ _ _) fun r => ?_
  obtain ⟨x39, y39⟩ := r
  refine pure_pre fun hx39 => ?_
  have ps39 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (2 : Fin 8)) ((2 : Fin 4), (0 : Fin 8), (3 : Fin 8)) ((2 : Fin 4), (1 : Fin 8), (3 : Fin 8)) ((2 : Fin 4), (2 : Fin 8), (3 : Fin 8)) ((2 : Fin 4), (3 : Fin 8), (3 : Fin 8)) 151 rfl rfl rfl rfl rfl v143 rfl rfl rfl rfl x38 hx38
  rw [ps39.1]
  replace hx39 := hx39.trans ps39.2
  clear ps39 hx38
  refine wp_stepV d L (b3_part40 d L _ _ _ _ _ _) fun r => ?_
  obtain ⟨x40, y40⟩ := r
  refine pure_pre fun hx40 => ?_
  have ps40 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (3 : Fin 8)) ((2 : Fin 4), (4 : Fin 8), (3 : Fin 8)) ((2 : Fin 4), (5 : Fin 8), (3 : Fin 8)) ((2 : Fin 4), (6 : Fin 8), (3 : Fin 8)) ((2 : Fin 4), (7 : Fin 8), (3 : Fin 8)) 155 rfl rfl rfl rfl rfl v143 rfl rfl rfl rfl x39 hx39
  rw [ps40.1]
  replace hx40 := hx40.trans ps40.2
  clear ps40 hx39
  refine wp_stepV d L (b3_part41 d L _ _ _ _ _ _) fun r => ?_
  obtain ⟨x41, y41⟩ := r
  refine pure_pre fun hx41 => ?_
  have ps41 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (3 : Fin 8)) ((2 : Fin 4), (0 : Fin 8), (4 : Fin 8)) ((2 : Fin 4), (1 : Fin 8), (4 : Fin 8)) ((2 : Fin 4), (2 : Fin 8), (4 : Fin 8)) ((2 : Fin 4), (3 : Fin 8), (4 : Fin 8)) 159 rfl rfl rfl rfl rfl v150 rfl rfl rfl rfl x40 hx40
  rw [ps41.1]
  replace hx41 := hx41.trans ps41.2
  clear ps41 hx40
  refine wp_stepV d L (b3_part42 d L _ _ _ _ _ _) fun r => ?_
  obtain ⟨x42, y42⟩ := r
  refine pure_pre fun hx42 => ?_
  have ps42 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (4 : Fin 8)) ((2 : Fin 4), (4 : Fin 8), (4 : Fin 8)) ((2 : Fin 4), (5 : Fin 8), (4 : Fin 8)) ((2 : Fin 4), (6 : Fin 8), (4 : Fin 8)) ((2 : Fin 4), (7 : Fin 8), (4 : Fin 8)) 163 rfl rfl rfl rfl rfl v150 rfl rfl rfl rfl x41 hx41
  rw [ps42.1]
  replace hx42 := hx42.trans ps42.2
  clear ps42 hx41
  refine wp_stepV d L (b3_part43 d L _ _ _ _ _ _) fun r => ?_
  obtain ⟨x43, y43⟩ := r
  refine pure_pre fun hx43 => ?_
  have ps43 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (4 : Fin 8)) ((2 : Fin 4), (0 : Fin 8), (5 : Fin 8)) ((2 : Fin 4), (1 : Fin 8), (5 : Fin 8)) ((2 : Fin 4), (2 : Fin 8), (5 : Fin 8)) ((2 : Fin 4), (3 : Fin 8), (5 : Fin 8)) 167 rfl rfl rfl rfl rfl v157 rfl rfl rfl rfl x42 hx42
  rw [ps43.1]
  replace hx43 := hx43.trans ps43.2
  clear ps43 hx42
  refine wp_stepV d L (b3_part44 d L _ _ _ _ _ _) fun r => ?_
  obtain ⟨x44, y44⟩ := r
  refine pure_pre fun hx44 => ?_
  have ps44 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (5 : Fin 8)) ((2 : Fin 4), (4 : Fin 8), (5 : Fin 8)) ((2 : Fin 4), (5 : Fin 8), (5 : Fin 8)) ((2 : Fin 4), (6 : Fin 8), (5 : Fin 8)) ((2 : Fin 4), (7 : Fin 8), (5 : Fin 8)) 171 rfl rfl rfl rfl rfl v157 rfl rfl rfl rfl x43 hx43
  rw [ps44.1]
  replace hx44 := hx44.trans ps44.2
  clear ps44 hx43
  refine wp_stepV d L (b3_part45 d L _ _ _ _ _ _) fun r => ?_
  obtain ⟨x45, y45⟩ := r
  refine pure_pre fun hx45 => ?_
  have ps45 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (5 : Fin 8)) ((2 : Fin 4), (0 : Fin 8), (6 : Fin 8)) ((2 : Fin 4), (1 : Fin 8), (6 : Fin 8)) ((2 : Fin 4), (2 : Fin 8), (6 : Fin 8)) ((2 : Fin 4), (3 : Fin 8), (6 : Fin 8)) 175 rfl rfl rfl rfl rfl v164 rfl rfl rfl rfl x44 hx44
  rw [ps45.1]
  replace hx45 := hx45.trans ps45.2
  clear ps45 hx44
  refine wp_stepV d L (b3_part46 d L _ _ _ _ _ _) fun r => ?_
  obtain ⟨x46, y46⟩ := r
  refine pure_pre fun hx46 => ?_
  have ps46 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (6 : Fin 8)) ((2 : Fin 4), (4 : Fin 8), (6 : Fin 8)) ((2 : Fin 4), (5 : Fin 8), (6 : Fin 8)) ((2 : Fin 4), (6 : Fin 8), (6 : Fin 8)) ((2 : Fin 4), (7 : Fin 8), (6 : Fin 8)) 179 rfl rfl rfl rfl rfl v164 rfl rfl rfl rfl x45 hx45
  rw [ps46.1]
  replace hx46 := hx46.trans ps46.2
  clear ps46 hx45
  refine wp_stepV d L (b3_part47 d L _ _ _ _ _ _) fun r => ?_
  obtain ⟨x47, y47⟩ := r
  refine pure_pre fun hx47 => ?_
  have ps47 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (6 : Fin 8)) ((2 : Fin 4), (0 : Fin 8), (7 : Fin 8)) ((2 : Fin 4), (1 : Fin 8), (7 : Fin 8)) ((2 : Fin 4), (2 : Fin 8), (7 : Fin 8)) ((2 : Fin 4), (3 : Fin 8), (7 : Fin 8)) 183 rfl rfl rfl rfl rfl v171 rfl rfl rfl rfl x46 hx46
  rw [ps47.1]
  replace hx47 := hx47.trans ps47.2
  clear ps47 hx46
  refine wp_stepV d L (b3_part48 d L _ _ _ _ _ _) fun r => ?_
  obtain ⟨x48, y48⟩ := r
  refine pure_pre fun hx48 => ?_
  have ps48 := part_step3 (mulTab v10 v17 v24 v31 v38 v45 v52 v59 v66 v73 v80 v87 v94 v101 v108 v115 v122 v129 v136 v143 v150 v157 v164 v171 v178 v185 v192 v199 v206 v213 v220 v227) g k ((2 : Fin 4), (3 : Fin 8), (7 : Fin 8)) ((2 : Fin 4), (4 : Fin 8), (7 : Fin 8)) ((2 : Fin 4), (5 : Fin 8), (7 : Fin 8)) ((2 : Fin 4), (6 : Fin 8), (7 : Fin 8)) ((2 : Fin 4), (7 : Fin 8), (7 : Fin 8)) 187 rfl rfl rfl rfl rfl v171 rfl rfl rfl rfl x47 hx47
  rw [ps48.1]
  replace hx48 := hx48.trans ps48.2
  clear ps48 hx47
  refine wp_stepV d L (b3_part49 d L _ _ _ _ _ _) fun r => ?_
  obtain ⟨x49, y49⟩ := r
  refine pure_pre fun hx49 => ?_
  have ps49 := part_step3 (mulTab v10 v17 v24 v31 v38 v45 v52 v59 v66 v73 v80 v87 v94 v101 v108 v115 v122 v129 v136 v143 v150 v157 v164 v171 v178 v185 v192 v199 v206 v213 v220 v227) g k ((2 : Fin 4), (7 : Fin 8), (7 : Fin 8)) ((3 : Fin 4), (0 : Fin 8), (0 : Fin 8)) ((3 : Fin 4), (1 : Fin 8), (0 : Fin 8)) ((3 : Fin 4), (2 : Fin 8), (0 : Fin 8)) ((3 : Fin 4), (3 : Fin 8), (0 : Fin 8)) 191 rfl rfl rfl rfl rfl v178 rfl rfl rfl rfl x48 hx48
  rw [ps49.1]
  replace hx49 := hx49.trans ps49.2
  clear ps49 hx48
  refine wp_stepV d L (b3_part50 d L _ _ _ _ _ _) fun r => ?_
  obtain ⟨x50, y50⟩ := r
  refine pure_pre fun hx50 => ?_
  have ps50 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (0 : Fin 8)) ((3 : Fin 4), (4 : Fin 8), (0 : Fin 8)) ((3 : Fin 4), (5 : Fin 8), (0 : Fin 8)) ((3 : Fin 4), (6 : Fin 8), (0 : Fin 8)) ((3 : Fin 4), (7 : Fin 8), (0 : Fin 8)) 195 rfl rfl rfl rfl rfl v178 rfl rfl rfl rfl x49 hx49
  rw [ps50.1]
  replace hx50 := hx50.trans ps50.2
  clear ps50 hx49
  refine wp_stepV d L (b3_part51 d L _ _ _ _ _ _) fun r => ?_
  obtain ⟨x51, y51⟩ := r
  refine pure_pre fun hx51 => ?_
  have ps51 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (0 : Fin 8)) ((3 : Fin 4), (0 : Fin 8), (1 : Fin 8)) ((3 : Fin 4), (1 : Fin 8), (1 : Fin 8)) ((3 : Fin 4), (2 : Fin 8), (1 : Fin 8)) ((3 : Fin 4), (3 : Fin 8), (1 : Fin 8)) 199 rfl rfl rfl rfl rfl v185 rfl rfl rfl rfl x50 hx50
  rw [ps51.1]
  replace hx51 := hx51.trans ps51.2
  clear ps51 hx50
  refine wp_stepV d L (b3_part52 d L _ _ _ _ _ _) fun r => ?_
  obtain ⟨x52, y52⟩ := r
  refine pure_pre fun hx52 => ?_
  have ps52 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (1 : Fin 8)) ((3 : Fin 4), (4 : Fin 8), (1 : Fin 8)) ((3 : Fin 4), (5 : Fin 8), (1 : Fin 8)) ((3 : Fin 4), (6 : Fin 8), (1 : Fin 8)) ((3 : Fin 4), (7 : Fin 8), (1 : Fin 8)) 203 rfl rfl rfl rfl rfl v185 rfl rfl rfl rfl x51 hx51
  rw [ps52.1]
  replace hx52 := hx52.trans ps52.2
  clear ps52 hx51
  refine wp_stepV d L (b3_part53 d L _ _ _ _ _ _) fun r => ?_
  obtain ⟨x53, y53⟩ := r
  refine pure_pre fun hx53 => ?_
  have ps53 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (1 : Fin 8)) ((3 : Fin 4), (0 : Fin 8), (2 : Fin 8)) ((3 : Fin 4), (1 : Fin 8), (2 : Fin 8)) ((3 : Fin 4), (2 : Fin 8), (2 : Fin 8)) ((3 : Fin 4), (3 : Fin 8), (2 : Fin 8)) 207 rfl rfl rfl rfl rfl v192 rfl rfl rfl rfl x52 hx52
  rw [ps53.1]
  replace hx53 := hx53.trans ps53.2
  clear ps53 hx52
  refine wp_stepV d L (b3_part54 d L _ _ _ _ _ _) fun r => ?_
  obtain ⟨x54, y54⟩ := r
  refine pure_pre fun hx54 => ?_
  have ps54 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (2 : Fin 8)) ((3 : Fin 4), (4 : Fin 8), (2 : Fin 8)) ((3 : Fin 4), (5 : Fin 8), (2 : Fin 8)) ((3 : Fin 4), (6 : Fin 8), (2 : Fin 8)) ((3 : Fin 4), (7 : Fin 8), (2 : Fin 8)) 211 rfl rfl rfl rfl rfl v192 rfl rfl rfl rfl x53 hx53
  rw [ps54.1]
  replace hx54 := hx54.trans ps54.2
  clear ps54 hx53
  refine wp_stepV d L (b3_part55 d L _ _ _ _ _ _) fun r => ?_
  obtain ⟨x55, y55⟩ := r
  refine pure_pre fun hx55 => ?_
  have ps55 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (2 : Fin 8)) ((3 : Fin 4), (0 : Fin 8), (3 : Fin 8)) ((3 : Fin 4), (1 : Fin 8), (3 : Fin 8)) ((3 : Fin 4), (2 : Fin 8), (3 : Fin 8)) ((3 : Fin 4), (3 : Fin 8), (3 : Fin 8)) 215 rfl rfl rfl rfl rfl v199 rfl rfl rfl rfl x54 hx54
  rw [ps55.1]
  replace hx55 := hx55.trans ps55.2
  clear ps55 hx54
  refine wp_stepV d L (b3_part56 d L _ _ _ _ _ _) fun r => ?_
  obtain ⟨x56, y56⟩ := r
  refine pure_pre fun hx56 => ?_
  have ps56 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (3 : Fin 8)) ((3 : Fin 4), (4 : Fin 8), (3 : Fin 8)) ((3 : Fin 4), (5 : Fin 8), (3 : Fin 8)) ((3 : Fin 4), (6 : Fin 8), (3 : Fin 8)) ((3 : Fin 4), (7 : Fin 8), (3 : Fin 8)) 219 rfl rfl rfl rfl rfl v199 rfl rfl rfl rfl x55 hx55
  rw [ps56.1]
  replace hx56 := hx56.trans ps56.2
  clear ps56 hx55
  refine wp_stepV d L (b3_part57 d L _ _ _ _ _ _) fun r => ?_
  obtain ⟨x57, y57⟩ := r
  refine pure_pre fun hx57 => ?_
  have ps57 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (3 : Fin 8)) ((3 : Fin 4), (0 : Fin 8), (4 : Fin 8)) ((3 : Fin 4), (1 : Fin 8), (4 : Fin 8)) ((3 : Fin 4), (2 : Fin 8), (4 : Fin 8)) ((3 : Fin 4), (3 : Fin 8), (4 : Fin 8)) 223 rfl rfl rfl rfl rfl v206 rfl rfl rfl rfl x56 hx56
  rw [ps57.1]
  replace hx57 := hx57.trans ps57.2
  clear ps57 hx56
  refine wp_stepV d L (b3_part58 d L _ _ _ _ _ _) fun r => ?_
  obtain ⟨x58, y58⟩ := r
  refine pure_pre fun hx58 => ?_
  have ps58 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (4 : Fin 8)) ((3 : Fin 4), (4 : Fin 8), (4 : Fin 8)) ((3 : Fin 4), (5 : Fin 8), (4 : Fin 8)) ((3 : Fin 4), (6 : Fin 8), (4 : Fin 8)) ((3 : Fin 4), (7 : Fin 8), (4 : Fin 8)) 227 rfl rfl rfl rfl rfl v206 rfl rfl rfl rfl x57 hx57
  rw [ps58.1]
  replace hx58 := hx58.trans ps58.2
  clear ps58 hx57
  refine wp_stepV d L (b3_part59 d L _ _ _ _ _ _) fun r => ?_
  obtain ⟨x59, y59⟩ := r
  refine pure_pre fun hx59 => ?_
  have ps59 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (4 : Fin 8)) ((3 : Fin 4), (0 : Fin 8), (5 : Fin 8)) ((3 : Fin 4), (1 : Fin 8), (5 : Fin 8)) ((3 : Fin 4), (2 : Fin 8), (5 : Fin 8)) ((3 : Fin 4), (3 : Fin 8), (5 : Fin 8)) 231 rfl rfl rfl rfl rfl v213 rfl rfl rfl rfl x58 hx58
  rw [ps59.1]
  replace hx59 := hx59.trans ps59.2
  clear ps59 hx58
  refine wp_stepV d L (b3_part60 d L _ _ _ _ _ _) fun r => ?_
  obtain ⟨x60, y60⟩ := r
  refine pure_pre fun hx60 => ?_
  have ps60 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (5 : Fin 8)) ((3 : Fin 4), (4 : Fin 8), (5 : Fin 8)) ((3 : Fin 4), (5 : Fin 8), (5 : Fin 8)) ((3 : Fin 4), (6 : Fin 8), (5 : Fin 8)) ((3 : Fin 4), (7 : Fin 8), (5 : Fin 8)) 235 rfl rfl rfl rfl rfl v213 rfl rfl rfl rfl x59 hx59
  rw [ps60.1]
  replace hx60 := hx60.trans ps60.2
  clear ps60 hx59
  iintro H
  first | rw [wp_pure] | rw [wp_ret]
  imodintro
  isplitr; · ipureintro; exact hx60
  iexact H

set_option maxHeartbeats 2000000 in
/-- ONE TRIP: block `k` multiplied in place. -/
theorem trip3 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (t : Fin k0_t1_loop.trips) (a c e : BitVec 32) (g : Buf (Elt F) ((V d (cV L) (jV L)).loc cc0_scratch3)) (k : Fin k0_t4_loop.trips) (acc : Unit) :
    ((Memref.whole cc0_scratch3 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g k.val : sProp 𝕄) ⊢ wp frame (wpE (defs₀ (F := F)) 𝒱₀ (V d (cV L) (jV L)) none) Set.univ (k0_t4_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 t a c e k acc)
      (fun _ => ((Memref.whole cc0_scratch3 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g (k.val + 1) : sProp 𝕄)) := by
  rw [← stC_zero, ← stC_full]
  unfold k0_t4_body
  refine wp_stepV d L (b3_wrap d L v10 v17 v24 v31 v38 v45 v52 v59 v66 v73 v80 v87 v94 v101 v108 v115 v122 v129 v136 v143 v150 v157 v164 v171 v178 v185 v192 v199 v206 v213 v220 v227 _ _ k g) fun r => ?_
  obtain ⟨w, x60, y60⟩ := r
  refine pure_pre fun hx60 => ?_
  refine wp_stepV d L (b3_part61 d L _ _ _ _ _ _) fun r => ?_
  obtain ⟨x61, y61⟩ := r
  refine pure_pre fun hx61 => ?_
  have ps61 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (5 : Fin 8)) ((3 : Fin 4), (0 : Fin 8), (6 : Fin 8)) ((3 : Fin 4), (1 : Fin 8), (6 : Fin 8)) ((3 : Fin 4), (2 : Fin 8), (6 : Fin 8)) ((3 : Fin 4), (3 : Fin 8), (6 : Fin 8)) 239 rfl rfl rfl rfl rfl v220 rfl rfl rfl rfl x60 hx60
  rw [ps61.1]
  replace hx61 := hx61.trans ps61.2
  clear ps61 hx60
  refine wp_stepV d L (b3_part62 d L _ _ _ _ _ _) fun r => ?_
  obtain ⟨x62, y62⟩ := r
  refine pure_pre fun hx62 => ?_
  have ps62 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (6 : Fin 8)) ((3 : Fin 4), (4 : Fin 8), (6 : Fin 8)) ((3 : Fin 4), (5 : Fin 8), (6 : Fin 8)) ((3 : Fin 4), (6 : Fin 8), (6 : Fin 8)) ((3 : Fin 4), (7 : Fin 8), (6 : Fin 8)) 243 rfl rfl rfl rfl rfl v220 rfl rfl rfl rfl x61 hx61
  rw [ps62.1]
  replace hx62 := hx62.trans ps62.2
  clear ps62 hx61
  refine wp_stepV d L (b3_part63 d L _ _ _ _ _ _) fun r => ?_
  obtain ⟨x63, y63⟩ := r
  refine pure_pre fun hx63 => ?_
  have ps63 := part_step3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (6 : Fin 8)) ((3 : Fin 4), (0 : Fin 8), (7 : Fin 8)) ((3 : Fin 4), (1 : Fin 8), (7 : Fin 8)) ((3 : Fin 4), (2 : Fin 8), (7 : Fin 8)) ((3 : Fin 4), (3 : Fin 8), (7 : Fin 8)) 247 rfl rfl rfl rfl rfl v227 rfl rfl rfl rfl x62 hx62
  rw [ps63.1]
  replace hx63 := hx63.trans ps63.2
  clear ps63 hx62
  refine wp_stepV d L (b3_part64 d L _ _ _ _ _ _) fun r => ?_
  obtain ⟨x64, y64⟩ := r
  refine pure_pre fun hx64 => ?_
  have ps64 := part_step3 (mulTab v10 v17 v24 v31 v38 v45 v52 v59 v66 v73 v80 v87 v94 v101 v108 v115 v122 v129 v136 v143 v150 v157 v164 v171 v178 v185 v192 v199 v206 v213 v220 v227) g k ((3 : Fin 4), (3 : Fin 8), (7 : Fin 8)) ((3 : Fin 4), (4 : Fin 8), (7 : Fin 8)) ((3 : Fin 4), (5 : Fin 8), (7 : Fin 8)) ((3 : Fin 4), (6 : Fin 8), (7 : Fin 8)) ((3 : Fin 4), (7 : Fin 8), (7 : Fin 8)) 251 rfl rfl rfl rfl rfl v227 rfl rfl rfl rfl x63 hx63
  rw [ps64.1]
  replace hx64 := hx64.trans ps64.2
  clear ps64 hx63
  iintro Hs
  sl_exec
  sl_step
  rw [← part_last3 (mulTab v10 v17 v24 v31 v38 v45 v52 v59 v66 v73 v80 v87 v94 v101 v108 v115 v122 v129 v136 v143 v150 v157 v164 v171 v178 v185 v192 v199 v206 v213 v220 v227) g k ((3 : Fin 4), (7 : Fin 8), (7 : Fin 8)) rfl x64 hx64]
  iexact Hs

/-- THE LOOP: every block multiplied in place. -/
theorem inner3 (d : Dev nD) (L : grid0.Coords) (v3 : BitVec 32) (v10 v17 v24 v31 v38 v45 v52 v59 v66 v73 v80 v87 v94 v101 v108 v115 v122 v129 v136 v143 v150 v157 v164 v171 v178 v185 v192 v199 v206 v213 v220 v227 : FVec F S16 .f32) (t : Fin k0_t1_loop.trips) (a c e : BitVec 32) (g : Buf (Elt F) ((V d (cV L) (jV L)).loc cc0_scratch3)) :
    ((Memref.whole cc0_scratch3 : Memref sig .scVector .vmem S28672 .f32).view.loc (V d (cV L) (jV L)) ↦{fullShare} g : sProp 𝕄) ⊢ wp frame (wpE (defs₀ (F := F)) 𝒱₀ (V d (cV L) (jV L)) none) Set.univ (Scf.Loop.for k0_t4_loop k0_t4_ok ⟨⟩ (k0_t4_body L (Memref.whole main_v3_scv) (Memref.isWhole_whole _) (Memref.whole main_arg1_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scoped0 v3 v10 v17 v24 v31 v38 v45 v52 v59 v66 v73 v80 v87 v94 v101 v108 v115 v122 v129 v136 v143 v150 v157 v164 v171 v178 v185 v192 v199 v206 v213 v220 v227 t a c e))
      (fun _ => ((Memref.whole cc0_scratch3 : Memref sig .scVector .vmem S28672 .f32).view.loc (V d (cV L) (jV L)) ↦{fullShare} maskBuf (mulTab v10 v17 v24 v31 v38 v45 v52 v59 v66 v73 v80 v87 v94 v101 v108 v115 v122 v129 v136 v143 v150 v157 v164 v171 v178 v185 v192 v199 v206 v213 v220 v227) g : sProp 𝕄)) := by
  iintro Hs
  sl_for (fun (j : Nat) (_ : PUnit) => ((Memref.whole cc0_scratch3 : Memref sig .scVector .vmem S28672 .f32).view.loc (V d (cV L) (jV L)) ↦{fullShare} maskBlocks (mulTab v10 v17 v24 v31 v38 v45 v52 v59 v66 v73 v80 v87 v94 v101 v108 v115 v122 v129 v136 v143 v150 v157 v164 v171 v178 v185 v192 v199 v206 v213 v220 v227) g j : sProp 𝕄)) $$ [Hs]
  case region => intro j acc; exact trip3 d L v3 v10 v17 v24 v31 v38 v45 v52 v59 v66 v73 v80 v87 v94 v101 v108 v115 v122 v129 v136 v143 v150 v157 v164 v171 v178 v185 v192 v199 v206 v213 v220 v227 t a c e g j acc
  rw [maskBlocks_zero, show Scf.trips k0_t4_loop.lb k0_t4_loop.ub k0_t4_loop.st = 7 from rfl, maskBlocks_seven]
  isplitl [Hs]; · iexact Hs
  iintro %acc H
  iexact H

end Cert.Proof.KB

end
-- ==== Proof.TileB.lean ====
/-
  One vector subcore's task. The tile copies the 512 random numbers into its scratch, forms the 32 multiplier groups
  (1 where a number is at least the threshold, 0 elsewhere), and streams its 42 chunks of the flat input through three
  buffers: a chunk is fetched, every word multiplied by its frame's multiplier in place, and written to the same chunk
  of the flat output. Each buffer has one semaphore for its fetches and one for its write-outs, so at most one copy is
  outstanding on a semaphore, and a buffer is touched only between the wait for its fetch and the start of its
  write-out. The outer loop's invariant carries the three fetches in flight with what they deliver and the chunks
  already written at the masked input; each in-place loop multiplies its buffer block by block.
-/
import proofs.«205805_g86552180949287_cont_9to1_m_41_25_alg».proof.Proof.TileMainB
import proofs.«205805_g86552180949287_cont_9to1_m_41_25_alg».proof.Proof.TileInnerValP1B
import proofs.«205805_g86552180949287_cont_9to1_m_41_25_alg».proof.Proof.TileInnerValP2B
import proofs.«205805_g86552180949287_cont_9to1_m_41_25_alg».proof.Proof.TileInnerValP3B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task on vector subcore `(L 0, L 1)` of device `d`: from its hand at the start to its hand at the end. -/
theorem tile_body (d : Dev nD) (L : grid0.Coords) (hF : (K (F := F)).Facts)
    (fl : Buf (Elt F) (fltLoc d)) (rd : Buf (Elt F) (rndLoc d)) (o0 : Buf (Elt F) (outLoc d))
    (O : CellTallies nD τ sig (HIx 1)) (W : Waits sig (HIx 1)) (hO : ∀ g, O g none = 0) :
    iprop(levAts (K (F := F)).L (K (F := F)).lev ∗ emp ∗ tileGo d (cC L) (sC L) fl rd o0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L (Memref.whole main_v3_scv) (Memref.isWhole_whole _) (Memref.whole main_arg1_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9 cc0_scoped0)
          fun _ => iprop(tileTd d (cC L) (sC L) fl rd ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body_of_inner d L hF fl rd o0 O W hO (inner1 d L) (inner2 d L) (inner3 d L)

end Cert.Proof.KB

end
-- ==== Proof.SpecB.lean ====
/-
  What @main computes, as a chain of valuations of the TensorCore's arrays: the four re-layouts before the SparseCore
  call (transpose to [3,224,224,512], split, swap the two middle axes, flatten), the call's effect on the flat output
  (its second half becomes the masked input, its first half stays), the four operations after it (unflatten, swap
  back, merge, copy into the pipelined call's output buffer), the pipelined call's effect (the blocks it visits —
  channel-rows c·224 + h below 336 — become input times the converted comparison, the rest stays), and the final
  transpose. The result array's contents `RES` is the last valuation at the result.
-/
import proofs.«205805_g86552180949287_cont_9to1_m_41_25_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held after)

variable {F : FTy → Type} [FloatOps F]

local notation "𝕄" => MT nD τ sig (HIx 1) (Elt F) ℕ UU ℕ

/-! ## The host operations of @main, in order -/

abbrev op0 : HloOp τ sig (Elt F) := StableHlo.unary main_arg0 main_v0 ((transpose S3x224x224x512 [1, 2, 3, 0] · Facts₀.transposes_S512x3x224x224_S3x224x224x512_1_2_3_0) : (⟨S512x3x224x224, .f32⟩ : BufTy).Contents (Elt F) → (⟨S3x224x224x512, .f32⟩ : BufTy).Contents (Elt F))
abbrev op1 : HloOp τ sig (Elt F) := StableHlo.reshape main_v0 main_v1 rfl Facts₀.shapeCasts_S3x224x224x512_S3x224x28x8x4x128
abbrev op2 : HloOp τ sig (Elt F) := StableHlo.unary main_v1 main_v2 ((transpose S3x224x28x4x8x128 [0, 1, 2, 4, 3, 5] · Facts₀.transposes_S3x224x28x8x4x128_S3x224x28x4x8x128_0_1_2_4_3_5) : (⟨S3x224x28x8x4x128, .f32⟩ : BufTy).Contents (Elt F) → (⟨S3x224x28x4x8x128, .f32⟩ : BufTy).Contents (Elt F))
abbrev op3 : HloOp τ sig (Elt F) := StableHlo.reshape main_v2 main_v3 rfl Facts₀.shapeCasts_S3x224x28x4x8x128_S77070336
abbrev op5 : HloOp τ sig (Elt F) := StableHlo.reshape main_v4 main_v5 rfl Facts₀.shapeCasts_S77070336_S3x224x28x4x8x128
abbrev op6 : HloOp τ sig (Elt F) := StableHlo.unary main_v5 main_v6 ((transpose S3x224x28x8x4x128 [0, 1, 2, 4, 3, 5] · Facts₀.transposes_S3x224x28x4x8x128_S3x224x28x8x4x128_0_1_2_4_3_5) : (⟨S3x224x28x4x8x128, .f32⟩ : BufTy).Contents (Elt F) → (⟨S3x224x28x8x4x128, .f32⟩ : BufTy).Contents (Elt F))
abbrev op7 : HloOp τ sig (Elt F) := StableHlo.reshape main_v6 main_v7 rfl Facts₀.shapeCasts_S3x224x28x8x4x128_S3x224x224x512
abbrev op8 : HloOp τ sig (Elt F) := StableHlo.unary main_v7 main_v8 id
abbrev op9 : HloOp τ sig (Elt F) := StableHlo.unary main_v8 main_v9 ((transpose S512x3x224x224 [3, 0, 1, 2] · Facts₀.transposes_S3x224x224x512_S512x3x224x224_3_0_1_2) : (⟨S3x224x224x512, .f32⟩ : BufTy).Contents (Elt F) → (⟨S512x3x224x224, .f32⟩ : BufTy).Contents (Elt F))

abbrev opsPre : List (HloOp τ sig (Elt F)) := [op0, op1, op2, op3]
abbrev opsMid : List (HloOp τ sig (Elt F)) := [op5, op6, op7, op8]

/-! ## The TensorCore's arrays by name -/

abbrev rImg : DevRef τ sig := Proc.devRef .tc (main_arg0 : Ref sig .tc)
abbrev rRnd : DevRef τ sig := Proc.devRef .tc (main_arg1 : Ref sig .tc)
abbrev rX : DevRef τ sig := Proc.devRef .tc (main_v0 : Ref sig .tc)
abbrev rFlt : DevRef τ sig := Proc.devRef .tc (main_v3 : Ref sig .tc)
abbrev rOut : DevRef τ sig := Proc.devRef .tc (main_v4 : Ref sig .tc)
abbrev rY : DevRef τ sig := Proc.devRef .tc (main_v7 : Ref sig .tc)
abbrev rFull : DevRef τ sig := Proc.devRef .tc (main_v8 : Ref sig .tc)
abbrev rRes : DevRef τ sig := Proc.devRef .tc (main_v9 : Ref sig .tc)

/-! ## The chain of valuations -/

variable (m : (ℓ : Loc nD τ sig) → Buf (Elt F) ℓ)

/-- The launch valuation of device `d`. -/
def V0 (d : Dev nD) : Valuation τ sig (Elt F) := fun b => m (d, b)
/-- After the four re-layouts: the flat input is in place. -/
def VA (d : Dev nD) : Valuation τ sig (Elt F) := after opsPre (V0 m d)

/-- The flat input, the random numbers and the flat output's contents as the SparseCore call finds them. -/
def flOf (d : Dev nD) : Buf (Elt F) (fltLoc d) := VA m d rFlt
def rdOf (d : Dev nD) : Buf (Elt F) (rndLoc d) := m (rndLoc d)
def o0Of (d : Dev nD) : Buf (Elt F) (outLoc d) := m (outLoc d)

/-- The flat output after the call: the second half (words from 38535168 on) masked input, the first half untouched. -/
def v4Final (d : Dev nD) : Buf (Elt F) (outLoc d) :=
  fun j => if (j 0).val < 38535168 then o0Of m d j else (scOut (flOf m d) (rdOf m d) : Buf (Elt F) (outLoc d)) j

def VB (d : Dev nD) : Valuation τ sig (Elt F) := Function.update (VA m d) rOut (v4Final m d)
/-- After the four operations between the two calls. -/
def VC (d : Dev nD) : Valuation τ sig (Elt F) := after opsMid (VB m d)

/-- A random number to its multiplier as the pipelined call's body spells it: the comparison's bit zero-extended to a
    word and converted to a float. -/
def keepCvt (v : FVec F S512 .f32) : FVec F S512 .f32 :=
  sitofp .f32 (extui 32 (cmpf .oge v (broadcast S512 (Scalar.ofBits .f32 0x3DCCCCCD#32))) Facts₀.natLt_1_32)

/-- The pipelined call's output array after it: entry (c, h, w, n) with 224·c + h below 336 (the 21 blocks of 16 rows
    it visits) is the transposed input times frame n's multiplier; every other entry is what the buffer held. -/
def tcOut (d : Dev nD) : (⟨S3x224x224x512, .f32⟩ : BufTy).Contents (Elt F) :=
  fun j => if 224 * (j 0).val + (j 1).val < 336
    then FloatOps.mulf ((VC m d rX : (⟨S3x224x224x512, .f32⟩ : BufTy).Contents (Elt F)) j)
      (keepCvt (m (rndLoc d) : (⟨S512, .f32⟩ : BufTy).Contents (Elt F)) (ValueIdx.ix1 (j 3)))
    else (VC m d rFull : (⟨S3x224x224x512, .f32⟩ : BufTy).Contents (Elt F)) j

def VD (d : Dev nD) : Valuation τ sig (Elt F) := Function.update (VC m d) rFull (tcOut m d)
def VE (d : Dev nD) : Valuation τ sig (Elt F) := after [op9] (VD m d)

/-- The result array's final contents. -/
def RES (d : Dev nD) : Buf (Elt F) (resLoc d) := VE m d rRes

/-- What @main leaves the claim: the two arguments at their launch contents, the result at `RES`. -/
abbrev FIN (d : Dev nD) : sProp 𝕄 :=
  iprop((imgLoc d ↦{fullShare} m (imgLoc d)) ∗ (rndLoc d ↦{fullShare} m (rndLoc d)) ∗ resLoc d ↦{fullShare} RES m d)

/-- The launch payload at this memory. -/
abbrev PM : (K (F := F)).Pay (nD := nD) (Val := Elt F) (Name := ℕ) (U := UU) := P (flOf m) (rdOf m) (o0Of m)

end Cert.Proof.KB

end
-- ==== Proof.RegroupB.lean ====
/-
  The flat arrays between the TensorCore's whole view and the tiles' hands. Before the SparseCore call the flat input
  and the random numbers are cut into 32 read shares (and a remainder the TensorCore keeps), and the flat output into
  its first half (kept) and the 32 × 42 chunks of the second half; after the call the shares rejoin and the chunks,
  each at the masked input, rejoin the first half into the whole array at `v4Final`. Chunk k holds the words
  28672·k … 28672·k + 28671; the chunks below 1344 are the words below 38535168.
-/
import proofs.«205805_g86552180949287_cont_9to1_m_41_25_alg».proof.Proof.SpecB
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## Chunks, by their words -/

theorem mem_chunkSet (k : Fin 2688) (j : S77070336.Idx) :
    j ∈ chunkSet k ↔ 28672 * k.val ≤ (j 0).val ∧ (j 0).val < 28672 * k.val + 28672 := by
  unfold chunkSet chunk Rect.part Rect.block
  rw [Rect.mem_set_unit]
  constructor
  · intro h
    have h0 := h 0
    simp [Shape.partIx, Shape.partSize] at h0
    omega
  · intro h a
    obtain rfl : a = 0 := Subsingleton.elim _ _
    simp [Shape.partIx, Shape.partSize]
    omega

theorem chunks_disjoint : ∀ i ∈ (Finset.univ : Finset (Fin 2688)), ∀ j ∈ (Finset.univ : Finset (Fin 2688)), i ≠ j → Disjoint (chunkSet i) (chunkSet j) :=
  fun _ _ _ _ h => Rect.part_disjoint hdivC h
theorem chunks_cover : (Finset.univ : Finset (Fin 2688)).biUnion chunkSet = Finset.univ := Rect.biUnion_part hdivC

omit [FloatOps F] in
/-- The flat output whole is its 2688 chunks. -/
theorem out_chunks (d : Dev nD) (f : Buf (Elt F) (outLoc d)) :
    (outLoc d ↦{fullShare} f : sProp 𝕄) = bigSep Finset.univ fun k : Fin 2688 => outLoc d ↦[chunkSet k]{fullShare} f := by
  rw [← pointsTo_biUnion Finset.univ (ℓ := outLoc d) chunkSet chunks_disjoint, chunks_cover]; try rfl

/-! ## The two ways of counting: chunks by half and tile, workers by SparseCore and subcore -/

def eChunk : (Fin 1344 ⊕ (Fin 2 × Fin 16 × Fin 42)) ≃ Fin 2688 where
  toFun := fun x => match x with
    | .inl k => ⟨k.val, by omega⟩
    | .inr (c, s, i) => tileChunk c s i
  invFun := fun k => if h : k.val < 1344 then .inl ⟨k.val, h⟩ else
    .inr (⟨((k.val - 1344) / 42) % 2, by omega⟩, ⟨((k.val - 1344) / 42) / 2, by omega⟩, ⟨(k.val - 1344) % 42, by omega⟩)
  left_inv := by
    intro x
    rcases x with k | ⟨c, s, i⟩
    · simp only [k.isLt, ↓reduceDIte]
    · have hc := c.isLt; have hs := s.isLt; have hi := i.isLt
      have hge : ¬ (tileChunk c s i).val < 1344 := by unfold tileChunk; simp only; omega
      simp only [hge, ↓reduceDIte]
      unfold tileChunk
      simp only [Sum.inr.injEq, Prod.mk.injEq]
      refine ⟨Fin.ext ?_, Fin.ext ?_, Fin.ext ?_⟩ <;> simp only <;> omega
  right_inv := by
    intro k
    by_cases h : k.val < 1344
    · simp only [h, ↓reduceDIte]
    · simp only [h, ↓reduceDIte]
      unfold tileChunk
      apply Fin.ext
      simp only
      have := k.isLt
      omega

theorem eChunk_inl (k : Fin 1344) : (eChunk (.inl k)).val = k.val := rfl
theorem eChunk_inr (c : Fin 2) (s : Fin 16) (i : Fin 42) : eChunk (.inr (c, s, i)) = tileChunk c s i := rfl

def eWork : (Fin 2 × Fin 16) ≃ Fin 32 where
  toFun := fun x => widx x.1 x.2
  invFun := fun w => (⟨w.val % 2, by omega⟩, ⟨w.val / 2, by omega⟩)
  left_inv := by
    intro ⟨c, s⟩
    have hc := c.isLt; have hs := s.isLt
    unfold widx
    simp only [Prod.mk.injEq]
    refine ⟨Fin.ext ?_, Fin.ext ?_⟩ <;> simp only <;> omega
  right_inv := by
    intro w
    unfold widx
    apply Fin.ext
    simp only
    omega

omit [FloatOps F] in
/-- A family over the 2688 chunks, counted as the first half and then by SparseCore, subcore and position. -/
theorem bigSep_chunks (Φ : Fin 2688 → sProp 𝕄) :
    bigSep Finset.univ Φ = iprop((bigSep Finset.univ fun k : Fin 1344 => Φ (eChunk (.inl k)))
      ∗ bigSep Finset.univ fun c : Fin 2 => bigSep Finset.univ fun s : Fin 16 => bigSep Finset.univ fun i : Fin 42 => Φ (tileChunk c s i)) := by
  rw [bigSep_univ_equiv eChunk Φ, bigSep_univ_sum, bigSep_univ_prod]
  congr 1
  exact bigSep_congr fun c _ => bigSep_univ_prod _

omit [FloatOps F] in
/-- A family over the 32 workers, counted by SparseCore and subcore. -/
theorem bigSep_workers (Ψ : Fin 32 → sProp 𝕄) :
    bigSep Finset.univ Ψ = bigSep Finset.univ fun c : Fin 2 => bigSep Finset.univ fun s : Fin 16 => Ψ (widx c s) := by
  rw [bigSep_univ_equiv eWork Ψ, bigSep_univ_prod]; rfl

/-! ## The first half -/

/-- The first half of the flat output: the 1344 chunks the SparseCore call never touches. -/
abbrev firstHalf : Finset S77070336.Idx := (Finset.univ : Finset (Fin 1344)).biUnion fun k => chunkSet (eChunk (.inl k))

theorem first_disjoint : ∀ i ∈ (Finset.univ : Finset (Fin 1344)), ∀ j ∈ (Finset.univ : Finset (Fin 1344)), i ≠ j →
    Disjoint (chunkSet (eChunk (.inl i))) (chunkSet (eChunk (.inl j))) :=
  fun i _ j _ h => Rect.part_disjoint hdivC fun e => h (Fin.ext (by have := congrArg Fin.val e; simpa [eChunk_inl] using this))

omit [FloatOps F] in
theorem first_chunks (d : Dev nD) (f : Buf (Elt F) (outLoc d)) :
    (outLoc d ↦[firstHalf]{fullShare} f : sProp 𝕄) = bigSep Finset.univ fun k : Fin 1344 => outLoc d ↦[chunkSet (eChunk (.inl k))]{fullShare} f :=
  pointsTo_biUnion Finset.univ (ℓ := outLoc d) (fun k : Fin 1344 => chunkSet (eChunk (.inl k))) first_disjoint

theorem mem_firstHalf (j : S77070336.Idx) (h : j ∈ firstHalf) : (j 0).val < 38535168 := by
  obtain ⟨k, -, hk⟩ := Finset.mem_biUnion.mp h
  have := (mem_chunkSet _ j).mp hk
  rw [eChunk_inl] at this
  have := k.isLt
  omega

theorem mem_tileChunk (c : Fin 2) (s : Fin 16) (i : Fin 42) (j : S77070336.Idx) (h : j ∈ chunkSet (tileChunk c s i)) : ¬ (j 0).val < 38535168 := by
  have := (mem_chunkSet _ j).mp h
  unfold tileChunk at this
  simp only at this
  omega

/-- What the TensorCore keeps of the three flat arrays while the call runs. -/
def scKept (d : Dev nD) : sProp 𝕄 :=
  iprop((fltLoc d ↦{Transfers.shareDrop fullShare 32} flOf m d) ∗ (rndLoc d ↦{Transfers.shareDrop fullShare 32} rdOf m d)
    ∗ outLoc d ↦[firstHalf]{fullShare} o0Of m d)

/-! ## A SparseCore's share, spelt out -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_all (d : Dev nD) :
    (bigSep Finset.univ fun c : Fin ((K (F := F)).nCore 0) => (PM m).st 0 d c)
      = iprop((bigSep Finset.univ fun w : Fin 32 => fltLoc d ↦{Transfers.shareTok fullShare 32 w} flOf m d)
          ∗ (bigSep Finset.univ fun w : Fin 32 => rndLoc d ↦{Transfers.shareTok fullShare 32 w} rdOf m d)
          ∗ bigSep Finset.univ fun c : Fin 2 => bigSep Finset.univ fun s : Fin 16 => bigSep Finset.univ fun i : Fin 42 =>
              outLoc d ↦[chunkSet (tileChunk c s i)]{fullShare} o0Of m d) := by
  rw [bigSep_workers (F := F) (fun w => fltLoc d ↦{Transfers.shareTok fullShare 32 w} flOf m d),
    bigSep_workers (F := F) (fun w => rndLoc d ↦{Transfers.shareTok fullShare 32 w} rdOf m d)]
  rw [show (fun c : Fin ((K (F := F)).nCore 0) => (PM m).st 0 d c)
      = fun c => (fun c' : Fin 2 => bigSep Finset.univ fun s : Fin 16 => tileGo d c' s (flOf m d) (rdOf m d) (o0Of m d)) (Fin.cast nCore_zero c) from rfl,
    bigSep_cores (F := F) (fun c' : Fin 2 => bigSep Finset.univ fun s : Fin 16 => tileGo d c' s (flOf m d) (rdOf m d) (o0Of m d))]
  unfold tileGo
  simp only [bigSep_sep']

theorem dn_all (d : Dev nD) :
    (bigSep Finset.univ fun c : Fin ((K (F := F)).nCore 0) => (PM m).dn 0 d c)
      = iprop((bigSep Finset.univ fun w : Fin 32 => fltLoc d ↦{Transfers.shareTok fullShare 32 w} flOf m d)
          ∗ (bigSep Finset.univ fun w : Fin 32 => rndLoc d ↦{Transfers.shareTok fullShare 32 w} rdOf m d)
          ∗ bigSep Finset.univ fun c : Fin 2 => bigSep Finset.univ fun s : Fin 16 => bigSep Finset.univ fun i : Fin 42 =>
              outLoc d ↦[chunkSet (tileChunk c s i)]{fullShare} (scOut (flOf m d) (rdOf m d) : Buf (Elt F) (outLoc d))) := by
  rw [bigSep_workers (F := F) (fun w => fltLoc d ↦{Transfers.shareTok fullShare 32 w} flOf m d),
    bigSep_workers (F := F) (fun w => rndLoc d ↦{Transfers.shareTok fullShare 32 w} rdOf m d)]
  rw [show (fun c : Fin ((K (F := F)).nCore 0) => (PM m).dn 0 d c)
      = fun c => (fun c' : Fin 2 => bigSep Finset.univ fun s : Fin 16 => tileTd d c' s (flOf m d) (rdOf m d)) (Fin.cast nCore_zero c) from rfl,
    bigSep_cores (F := F) (fun c' : Fin 2 => bigSep Finset.univ fun s : Fin 16 => tileTd d c' s (flOf m d) (rdOf m d))]
  unfold tileTd
  simp only [bigSep_sep']

/-! ## Before and after the call -/

/-- Before the call: the three arrays whole are what the two SparseCores take and what the TensorCore keeps. -/
theorem sc_split (d : Dev nD) :
    iprop((fltLoc d ↦{fullShare} flOf m d) ∗ (rndLoc d ↦{fullShare} rdOf m d) ∗ outLoc d ↦{fullShare} o0Of m d)
      ⊢ iprop((bigSep Finset.univ fun c : Fin ((K (F := F)).nCore 0) => (PM m).st 0 d c) ∗ scKept m d) := by
  rw [st_all, out_chunks, bigSep_chunks (F := F) (fun k => outLoc d ↦[chunkSet k]{fullShare} o0Of m d)]
  unfold scKept
  rw [first_chunks]
  iintro ⟨Hf, Hr, Ho1, Ho2⟩
  ihave Hf' := (Transfers.pointsTo_toks_split (ℓ := fltLoc d) (S := Finset.univ) (f := flOf m d) fullShare 32) $$ Hf
  ihave Hr' := (Transfers.pointsTo_toks_split (ℓ := rndLoc d) (S := Finset.univ) (f := rdOf m d) fullShare 32) $$ Hr
  icases Hf' with ⟨Hfd, Hft⟩
  icases Hr' with ⟨Hrd, Hrt⟩
  isplitl [Hft Hrt Ho2]
  · isplitl [Hft]; · iexact Hft
    isplitl [Hrt]; · iexact Hrt
    iexact Ho2
  · isplitl [Hfd]; · iexact Hfd
    isplitl [Hrd]; · iexact Hrd
    iexact Ho1

/-- After the call: what the SparseCores give back and what was kept are the three arrays whole, the output at `v4Final`. -/
theorem sc_join (d : Dev nD) :
    iprop((bigSep Finset.univ fun c : Fin ((K (F := F)).nCore 0) => (PM m).dn 0 d c) ∗ scKept m d)
      ⊢ iprop((fltLoc d ↦{fullShare} flOf m d) ∗ (rndLoc d ↦{fullShare} rdOf m d) ∗ outLoc d ↦{fullShare} v4Final m d) := by
  rw [dn_all, out_chunks, bigSep_chunks (F := F) (fun k => outLoc d ↦[chunkSet k]{fullShare} v4Final m d)]
  unfold scKept
  rw [← first_chunks,
    show (outLoc d ↦[firstHalf]{fullShare} v4Final m d : sProp 𝕄) = outLoc d ↦[firstHalf]{fullShare} o0Of m d from
      pointsTo_congr fun j hj => by unfold v4Final; rw [if_pos (mem_firstHalf j hj)],
    show (bigSep Finset.univ fun c : Fin 2 => bigSep Finset.univ fun s : Fin 16 => bigSep Finset.univ fun i : Fin 42 =>
          (outLoc d ↦[chunkSet (tileChunk c s i)]{fullShare} v4Final m d : sProp 𝕄))
        = bigSep Finset.univ fun c : Fin 2 => bigSep Finset.univ fun s : Fin 16 => bigSep Finset.univ fun i : Fin 42 =>
          outLoc d ↦[chunkSet (tileChunk c s i)]{fullShare} (scOut (flOf m d) (rdOf m d) : Buf (Elt F) (outLoc d)) from
      bigSep_congr fun c _ => bigSep_congr fun s _ => bigSep_congr fun i _ =>
        pointsTo_congr fun j hj => by unfold v4Final; rw [if_neg (mem_tileChunk c s i j hj)]]
  iintro ⟨⟨Hft, Hrt, Ho2⟩, Hfd, Hrd, Ho1⟩
  isplitl [Hfd Hft]
  · iapply (Transfers.pointsTo_toks_join (ℓ := fltLoc d) (S := Finset.univ) (f := flOf m d) fullShare 32)
    isplitl [Hfd] <;> iassumption
  isplitl [Hrd Hrt]
  · iapply (Transfers.pointsTo_toks_join (ℓ := rndLoc d) (S := Finset.univ) (f := rdOf m d) fullShare 32)
    isplitl [Hrd] <;> iassumption
  isplitl [Ho1] <;> iassumption

end Cert.Proof.KB

end
-- ==== Proof.MainDatB.lean ====
/-
  The pipelined TensorCore call's proof data. The body at a grid point reads the staged random numbers and the staged
  block of the transposed input and stores their product — the block times the converted comparison along the last
  axis — over the whole output staging buffer. The two input windows hold their array's block at every point; the
  output window is written back at every point, and what it writes back is the point's block of ONE whole-array
  function, `tcOut`.
-/
import proofs.«205805_g86552180949287_cont_9to1_m_41_25_alg».proof.Proof.RegroupB
import proofs.«205805_g86552180949287_cont_9to1_m_41_25_alg».proof.Proof.Gen.Kernel.Launch
import proofs.«205805_g86552180949287_cont_9to1_m_41_25_alg».proof.Proof.Gen.Kernel.Points
import Idealize.ShloMosaic.Lib.Pipeline.Regions
import Idealize.ShloMosaic.Lib.Pipeline.Frame
import Idealize.ShloMosaic.Lib.Pipeline.FrameBody
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic
open Idealize.ShloMosaic.TcCoe
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

theorem hz1 : (![0] : Fin 1 → Nat) = fun _ => 0 := funext fun a => by fin_cases a <;> rfl
theorem hz4 : (![0, 0, 0, 0] : Fin 4 → Nat) = fun _ => 0 := funext fun a => by fin_cases a <;> rfl

/-! ## The body's triple -/

set_option maxHeartbeats 1000000 in
/-- The kernel body on whole staging memrefs, the inputs' at read contents `x0`, `x1` and the output's at anything, runs to
    the continuation holding the inputs' as they were and the output's at the product `k1_pay1 x0 x1`. -/
theorem sound_kernel (c : Dev nD) (i : grid1.Coords)
    (M0 : Memref sig .tc .vmem S512 .f32) (h0 : M0.IsWhole) (M1 : Memref sig .tc .vmem S1x16x224x512 .f32) (h1 : M1.IsWhole)
    (M2 : Memref sig .tc .vmem S1x16x224x512 .f32) (h2 : M2.IsWhole)
    (x0 : Vec F S512 .f32) (x1 : Vec F S1x16x224x512 .f32) (Kc : PUnit → sProp 𝕄) :
    iprop(owns (c : Thread nD τ) M0 fullShare x0 ∗ owns (c : Thread nD τ) M1 fullShare x1 ∗ (∃ d, owns (c : Thread nD τ) M2 fullShare d)
        ∗ (iprop(owns (c : Thread nD τ) M0 fullShare x0 ∗ owns (c : Thread nD τ) M1 fullShare x1 ∗ owns (c : Thread nD τ) M2 fullShare (k1_pay1 x0 x1)) -∗ Kc ⟨⟩))
      ⊢ wp frame (wpE (defs₀ (F := F)) Variants.none (c : Thread nD τ) none) Set.univ
          (cc1__tc_body i M0 h0 (Memref.whole main_v7) (Memref.isWhole_whole _) M1 h1 M2 h2) Kc := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz4 inb_S1x16x224x512_S1x16x224x512_0_0_0_0 y⟩), View.canon_unit_zero hz4]
  show k1_pay1 (View.ld (View.read (Elt F) M0.view f0) (Rect.unit ![0] S512.size inb_S512_S512_0))
      (View.ld (View.read (Elt F) M1.view f1) (Rect.unit ![0, 0, 0, 0] S1x16x224x512.size inb_S1x16x224x512_S1x16x224x512_0_0_0_0)) = _
  rw [View.ld_unit_zero hz1, View.ld_unit_zero hz4]

/-! ## Which arrays each stretch of host operations leaves alone -/

theorem pre_nw (b : Ref sig .tc) (hb : b ≠ main_v0 ∧ b ≠ main_v1 ∧ b ≠ main_v2 ∧ b ≠ main_v3) :
    ∀ op ∈ ([op0, op1, op2, op3] : List (HloOp τ sig (Elt F))), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem mid_nw (b : Ref sig .tc) (hb : b ≠ main_v5 ∧ b ≠ main_v6 ∧ b ≠ main_v7 ∧ b ≠ main_v8) :
    ∀ op ∈ ([op5, op6, op7, op8] : List (HloOp τ sig (Elt F))), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem VA_of (d : Dev nD) (b : Ref sig .tc) (hb : b ≠ main_v0 ∧ b ≠ main_v1 ∧ b ≠ main_v2 ∧ b ≠ main_v3) :
    VA m d (Proc.devRef .tc b) = m (d, Proc.devRef .tc b) :=
  StableHlo.after_of_forall_not_mem (b := Proc.devRef .tc b) _ (V0 m d) (pre_nw b hb)

theorem VC_of (d : Dev nD) (b : Ref sig .tc) (hb : b ≠ main_v5 ∧ b ≠ main_v6 ∧ b ≠ main_v7 ∧ b ≠ main_v8) :
    VC m d (Proc.devRef .tc b) = VB m d (Proc.devRef .tc b) :=
  StableHlo.after_of_forall_not_mem (b := Proc.devRef .tc b) _ (VB m d) (mid_nw b hb)

theorem VA_rRnd (d : Dev nD) : VA m d rRnd = rdOf m d := VA_of m d main_arg1 (by decide)
theorem VA_rOut (d : Dev nD) : VA m d rOut = o0Of m d := VA_of m d main_v4 (by decide)

theorem op9_nw (W : Valuation τ sig (Elt F)) (b : Ref sig .tc) (hb : b ≠ main_v9) :
    (op9 (F := F)).result W (Proc.devRef .tc b) = W (Proc.devRef .tc b) :=
  HloOp.result_of_not_mem _ _ (by rw [StableHlo.unary_writes, Finset.mem_singleton]; exact StableHlo.devRef_ne_of_ne hb)

theorem VE_rImg (d : Dev nD) : VE m d rImg = m (imgLoc d) := by
  unfold VE
  rw [StableHlo.after_cons, StableHlo.after_nil, op9_nw _ main_arg0 (by decide)]
  unfold VD
  rw [Function.update_of_ne (show rImg ≠ rFull by decide), VC_of m d main_arg0 (by decide)]
  unfold VB
  rw [Function.update_of_ne (show rImg ≠ rOut by decide), VA_of m d main_arg0 (by decide)]

theorem VE_rRnd (d : Dev nD) : VE m d rRnd = m (rndLoc d) := by
  unfold VE
  rw [StableHlo.after_cons, StableHlo.after_nil, op9_nw _ main_arg1 (by decide)]
  unfold VD
  rw [Function.update_of_ne (show rRnd ≠ rFull by decide), VC_of m d main_arg1 (by decide)]
  unfold VB
  rw [Function.update_of_ne (show rRnd ≠ rOut by decide), VA_of m d main_arg1 (by decide)]

theorem VC_rRnd (d : Dev nD) : VC m d rRnd = m (rndLoc d) := by
  rw [VC_of m d main_arg1 (by decide)]
  unfold VB
  rw [Function.update_of_ne (show rRnd ≠ rOut by decide), VA_of m d main_arg1 (by decide)]

/-! ## The proof data -/

/-- The TensorCore's arrays as the call finds them, by reference. -/
abbrev VCr (c : Dev nD) (b : Ref sig .tc) : Buf (Elt F) ((c : Thread nD τ).loc b) := VC m c (Proc.devRef .tc b)

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (VCr m c (Pipeline.arrRef spec1 w))

/-- The output window's block at point `t` of the array the call ends at. -/
def oblk (c : Dev nD) (t : Fin cfg1.N) : ((cfg1.win 2).xblock (cfg1.grid.coords t)).Idx → Elt F (cfg1.win 2).elt :=
  ((cfg1.win 2).blk t).view.read (Elt F) (tcOut m c)

/-- The proof data on core `c`: the arrays as the call finds them; after the body each input's buffer at its block and
    the output's at its block of `tcOut`; the invariant the scoped buffers no window stages; nothing owed; the recorded
    pairs within the levels the launch's handshakes allow after the SparseCore call. -/
def dats (_ : Fin 1) (c : Dev nD) : Dat τ (Elt F) (HIx 1) ℕ UU ℕ cfg1 c where
  A w := VCr m c (Pipeline.arrRef spec1 w)
  after w t := match w with
    | ⟨0, _⟩ => iblk m c 0 t
    | ⟨1, _⟩ => iblk m c 1 t
    | ⟨2, _⟩ => oblk m c t
  Φ _ := (Pipeline.scopedRest (Ix := HIx 1) (Name := ℕ) (U := UU) (Lvl := ℕ) (Val := Elt F) spec1 c : sProp 𝕄)
  q _ := fullShare
  owed _ := 0
  recorded _ := {p | (K (F := F)).lev ((c : Thread nD τ), p.1) p.2 ≤ 8}

theorem A_eq (c : Dev nD) (w : Fin cfg1.W) : (dats m 0 c).A w = VCr m c (Pipeline.arrRef spec1 w) := by dsimp only [dats]
theorem after_0 (c : Dev nD) (t : Fin cfg1.N) : (dats m 0 c).after 0 t = iblk m c 0 t := by dsimp only [dats]
theorem after_1 (c : Dev nD) (t : Fin cfg1.N) : (dats m 0 c).after 1 t = iblk m c 1 t := by dsimp only [dats]
theorem after_2 (c : Dev nD) (t : Fin cfg1.N) : (dats m 0 c).after 2 t = oblk m c t := by dsimp only [dats]

/-- Each input's current staging buffer holds its block at every point, fetched there or not. -/
theorem before_0 (c : Dev nD) (t : Fin cfg1.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- The block indices of the three windows at a point: the random numbers whole; the input and the output at channel-row
    block `(t / 14, t % 14)`. -/
theorem idx0 : ∀ t : Fin grid1.N, win1_0.index t 0 = 0 := by decide +kernel
theorem idx1 : ∀ t : Fin grid1.N, win1_1.index t 0 = t.val / 14 ∧ win1_1.index t 1 = t.val % 14 ∧ win1_1.index t 2 = 0 ∧ win1_1.index t 3 = 0 := by decide +kernel
theorem idx2 : ∀ t : Fin grid1.N, win1_2.index t 0 = t.val / 14 ∧ win1_2.index t 1 = t.val % 14 ∧ win1_2.index t 2 = 0 ∧ win1_2.index t 3 = 0 := by decide +kernel

/-- The staged random numbers are the random numbers. -/
theorem rnd_blk (c : Dev nD) (t : Fin cfg1.N) :
    (((cfg1.win 0).blk t).view.read (Elt F) (VCr m c (Pipeline.arrRef spec1 0)) : S512.Idx → Elt F .f32) = (m (rndLoc c) : S512.Idx → Elt F .f32) := by
  funext z
  rw [View.read_apply, cast_eq]
  show VC m c rRnd _ = _
  rw [VC_rRnd]
  refine congrArg _ (funext fun a => Fin.ext ?_)
  match a with
  | ⟨0, _⟩ => show win1_0.index t 0 * 512 + 1 * (z 0).val = (z 0).val; rw [idx0 t]; omega

/-- Where an element of the output's block at point `t` sits in the array. -/
theorem blockEmb2 (t : Fin cfg1.N) (j : S1x16x224x512.Idx) :
    ((((cfg1.win 2).blk t).view.emb j 0).val = t.val / 14 ∧ (((cfg1.win 2).blk t).view.emb j 1).val = 16 * (t.val % 14) + (j 1).val)
      ∧ (((cfg1.win 2).blk t).view.emb j 2).val = (j 2).val ∧ (((cfg1.win 2).blk t).view.emb j 3).val = (j 3).val := by
  obtain ⟨e0, e1, e2, e3⟩ := idx2 t
  have h0 : (j 0).val < 1 := (j 0).isLt
  refine ⟨⟨?_, ?_⟩, ?_, ?_⟩
  · show win1_2.index t 0 * 1 + 1 * (j 0).val = _; rw [e0]; omega
  · show win1_2.index t 1 * 16 + 1 * (j 1).val = _; rw [e1]; omega
  · show win1_2.index t 2 * 224 + 1 * (j 2).val = _; rw [e2]; omega
  · show win1_2.index t 3 * 512 + 1 * (j 3).val = _; rw [e3]; omega

/-- The input's block and the output's block at a point are the same elements of their arrays. -/
theorem emb1_eq (t : Fin cfg1.N) (j : S1x16x224x512.Idx) : ((cfg1.win 1).blk t).view.emb j = ((cfg1.win 2).blk t).view.emb j := by
  obtain ⟨e0, e1, e2, e3⟩ := idx1 t
  obtain ⟨f0, f1, f2, f3⟩ := idx2 t
  funext a; apply Fin.ext
  match a with
  | ⟨0, _⟩ => show win1_1.index t 0 * 1 + 1 * (j 0).val = win1_2.index t 0 * 1 + 1 * (j 0).val; rw [e0, f0]
  | ⟨1, _⟩ => show win1_1.index t 1 * 16 + 1 * (j 1).val = win1_2.index t 1 * 16 + 1 * (j 1).val; rw [e1, f1]
  | ⟨2, _⟩ => show win1_1.index t 2 * 224 + 1 * (j 2).val = win1_2.index t 2 * 224 + 1 * (j 2).val; rw [e2, f2]
  | ⟨3, _⟩ => show win1_1.index t 3 * 512 + 1 * (j 3).val = win1_2.index t 3 * 512 + 1 * (j 3).val; rw [e3, f3]

/-- THE VALUE OF A POINT: the product of the two staged blocks is the point's block of `tcOut`. -/
theorem pay_eq (c : Dev nD) (t : Fin cfg1.N) : k1_pay1 (iblk m c 0 t) (iblk m c 1 t) = oblk m c t := by
  funext j
  unfold k1_pay1 oblk iblk
  rw [View.read_apply, cast_eq, rnd_blk, shapeCast_self]
  obtain ⟨⟨h0, h1⟩, h2, h3⟩ := blockEmb2 t j
  have hN : t.val < 21 := by have := t.isLt; have e : cfg1.N = 21 := N_1; omega
  have hj1 : (j 1).val < 16 := (j 1).isLt
  unfold tcOut
  rw [if_pos (by rw [h0, h1]; omega)]
  show FloatOps.mulf _ _ = FloatOps.mulf _ _
  congr 1
  · rw [broadcastTo_apply (s := S1x1x1x512) _ _ j (ValueIdx.ix4 (0 : Fin 1) (0 : Fin 1) (0 : Fin 1) (j 3 : Fin 512))
        (fun a => by match a with | ⟨0, _⟩ => rfl | ⟨1, _⟩ => rfl | ⟨2, _⟩ => rfl | ⟨3, _⟩ => rfl),
      shapeCast_apply (s := S512) _ _ _ (ValueIdx.ix1 (j 3 : Fin 512)) (by rw [Shape.rowMajor_val_one, Shape.rowMajor_val_four]; simp)]
    unfold keepCvt
    refine congrArg _ (funext fun a => Fin.ext ?_)
    match a with
    | ⟨0, _⟩ => exact h3.symm

/-! ## The output array after the call -/

/-- An index of the output array is in point `t`'s block iff each coordinate is in the block's range on its axis. -/
theorem mem_blk2 (t : Fin cfg1.N) (i : S3x224x224x512.Idx) :
    i ∈ ((cfg1.win 2).blk t).view.set ↔ ∀ a : Fin 4, win1_2.index t a * S1x16x224x512.size a ≤ (i a).val
      ∧ (i a).val < win1_2.index t a * S1x16x224x512.size a + S1x16x224x512.size a := by
  show i ∈ ((View.whole main_v8).slice (win1_2.rect t)).set ↔ _
  rw [View.set_slice_whole, Rect.mem_set_unit]
  exact Iff.rfl

/-- The 21 blocks cover the entries whose channel-row `224·c + h` is below 336. -/
theorem cover2 (i : S3x224x224x512.Idx) (hi : 224 * (i 0).val + (i 1).val < 336) :
    ∃ t : Fin cfg1.N, (cfg1.win 2).flush t = true ∧ i ∈ ((cfg1.win 2).blk t).view.set := by
  have hlt : (224 * (i 0).val + (i 1).val) / 16 < cfg1.N := by rw [show cfg1.N = 21 from N_1]; omega
  refine ⟨⟨_, hlt⟩, flush1_2 _, ?_⟩
  rw [mem_blk2]
  obtain ⟨e0, e1, e2, e3⟩ := idx2 ⟨_, hlt⟩
  have h0 : (i 0).val < 3 := (i 0).isLt
  have h1 : (i 1).val < 224 := (i 1).isLt
  have h2 : (i 2).val < 224 := (i 2).isLt
  have h3 : (i 3).val < 512 := (i 3).isLt
  intro a
  match a with
  | ⟨0, _⟩ => show win1_2.index _ 0 * 1 ≤ (i 0).val ∧ (i 0).val < win1_2.index _ 0 * 1 + 1; rw [e0]; dsimp only; omega
  | ⟨1, _⟩ => show win1_2.index _ 1 * 16 ≤ (i 1).val ∧ (i 1).val < win1_2.index _ 1 * 16 + 16; rw [e1]; dsimp only; omega
  | ⟨2, _⟩ => show win1_2.index _ 2 * 224 ≤ (i 2).val ∧ (i 2).val < win1_2.index _ 2 * 224 + 224; rw [e2]; omega
  | ⟨3, _⟩ => show win1_2.index _ 3 * 512 ≤ (i 3).val ∧ (i 3).val < win1_2.index _ 3 * 512 + 512; rw [e3]; omega

/-- The output array ends at `tcOut`: on the covered entries what the points wrote back, elsewhere what it held. -/
theorem final2 (c : Dev nD) : (dats m 0 c).arrAt 2 cfg1.N = tcOut m c := by
  funext i
  rw [(dats m 0 c).arrAt_eq_piecewise 2 (tcOut m c) (fun t _ => by
    show (cfg1.win 2).cut _ ((dats m 0 c).after 2 t) = _; rw [after_2]; rfl) i]
  split
  · rfl
  · rename_i h
    rw [A_eq]
    unfold tcOut
    rw [if_neg (fun hi => h (cover2 i hi))]

/-- The body at any point. -/
theorem sound_body (c : Dev nD) (t : Fin cfg1.N) :
    iprop((dats m 0 c).Φ t.castSucc ∗ (dats m 0 c).owesAt none t.castSucc
        ∗ (∃ d, owns (c : Thread nD τ) (st1_0 t) fullShare ((dats m 0 c).before 0 t d))
        ∗ (∃ d, owns (c : Thread nD τ) (st1_1 t) fullShare ((dats m 0 c).before 1 t d))
        ∗ (∃ d, owns (c : Thread nD τ) (st1_2 t) fullShare ((dats m 0 c).before 2 t d)))
      ⊢ wp frame (wpE (defs₀ (F := F)) Variants.none (c : Thread nD τ) none) Set.univ (bodyAt1 t) (fun _ =>
          iprop((dats m 0 c).Φ t.succ ∗ (dats m 0 c).owesAt none t.succ
            ∗ owns (c : Thread nD τ) (st1_0 t) fullShare ((dats m 0 c).after 0 t)
            ∗ owns (c : Thread nD τ) (st1_1 t) fullShare ((dats m 0 c).after 1 t)
            ∗ owns (c : Thread nD τ) (st1_2 t) fullShare ((dats m 0 c).after 2 t))) := by
  unfold bodyAt1
  simp only [before_0, before_1]
  rw [show (dats m 0 c).Φ t.succ = (dats m 0 c).Φ t.castSucc from rfl,
    show (dats m 0 c).owesAt none t.succ = (dats m 0 c).owesAt none t.castSucc from rfl, after_0, after_1, after_2, ← pay_eq]
  iintro ⟨HΦ, Ho, ⟨%d0, H0⟩, ⟨%d1, H1⟩, ⟨%d2, H2⟩⟩
  iapply (sound_kernel c (grid1.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats m 0 c) (defs₀ (F := F)) Variants.none none Set.univ := fun t => by
  rw [bigSep_W1, bigSep_W1]
  exact sound_body m c t

end Cert.Proof.KB

end
-- ==== Proof.MainCallB.lean ====
/-
  The pipelined TensorCore call of @main as one step: its part of the launch element (the staging cells' rounds and
  the duty tokens of its transfers), what each device's TensorCore is dealt of it, and the call's effect on the
  TensorCore's arrays: the output array goes from its contents at entry to `tcOut`, every other array stays. The call is
  a kernel region of the pipeline library: its arrays are taken out of the TensorCore's unscoped buffers at entry and
  put back at exit, the TensorCore's debt (none after the SparseCore call) and the bound on its recorded waits ride
  through.
-/
import proofs.«205805_g86552180949287_cont_9to1_m_41_25_alg».proof.Proof.MainDatB
import Idealize.ShloMosaic.Lib.Pipeline.RegionsLoop

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic
open Idealize.ShloMosaic.TcCoe
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-- The set of the TensorCore's arrays the host operations run within: all its unscoped buffers. -/
abbrev SU : Finset (DevRef τ sig) := Pipeline.ucRefs τ sig

/-- The pipelined call's part of the launch element: its staging cells' rounds and tokens. -/
def uK : UK := initOf (Pipeline.cells (nD := nD) (τ := τ) cfgs cellOf_inj) (Pipeline.launchToks (nD := nD) (τ := τ) cfgs cellOf_inj)

/-- What the launch element deals device `d`'s TensorCore for the pipelined call. -/
def tcG (d : Dev nD) : sProp 𝕄 := iprop(Pipeline.cellsGhost cfgs (ER (F := F)) 0 d ∗ Pipeline.toksInit cfgs (ER (F := F)) 0 d)

/-- The pipelined call's part of the launch element funds every device's share. -/
theorem fundTc : (BI.own (ER (F := F) uK) : sProp 𝕄) ⊢ iprop(|==> bigSep Finset.univ fun d : Dev nD => tcG (F := F) d) := by
  unfold uK tcG
  refine (Pipeline.fund_ghost cfgs (ER (F := F)) cellOf_inj).trans ?_
  refine bupd_mono ?_
  rw [← bigSep_sep']
  refine bigSep_mono fun d _ => ?_
  rw [show (Finset.univ : Finset (Fin 1)) = {0} from rfl, bigSep_singleton, bigSep_singleton]
  exact BI.Entails.refl _

/-! ## The call as a kernel region -/

/-- No prefetched table. -/
abbrev adm : (p : Fin 1) → (pcfgs (F := F) p).Adm := fun p => (cfgs p).toPCfg_adm

/-- What rides beside the arrays: the TensorCore owing nothing (the one SparseCore call is behind it), its recorded waits
    within the levels of that call. -/
abbrev Rw (c : Dev nD) : sProp 𝕄 :=
  iprop(∃ W, ⌜(K (F := F)).WBelow (SparseCore.T c) W 8⌝ ∗ owes (SparseCore.T c) (0 : CellTallies nD τ sig (HIx 1)) W)

/-- The arrays after the call, by reference. -/
abbrev VDr (c : Dev nD) (b : Ref sig .tc) : Buf (Elt F) ((c : Thread nD τ).loc b) := VD m c (Proc.devRef .tc b)

/-- The pipeline's arrays end where `VD` has them: the two inputs as found, the output at `tcOut`. -/
theorem arrAt_VD (c : Dev nD) : ∀ w, (dats m 0 c).arrAt w cfg1.N = VDr m c (Pipeline.arrRef spec1 w)
  | ⟨0, _⟩ => by
    show (dats m 0 c).arrAt 0 cfg1.N = VDr m c (Pipeline.arrRef spec1 0)
    rw [(dats m 0 c).arrAt_in 0 rfl _, A_eq]
    show VC m c rRnd = VD m c rRnd
    unfold VD; rw [Function.update_of_ne (show rRnd ≠ rFull by decide)]
  | ⟨1, _⟩ => by
    show (dats m 0 c).arrAt 1 cfg1.N = VDr m c (Pipeline.arrRef spec1 1)
    rw [(dats m 0 c).arrAt_in 1 rfl _, A_eq]
    show VC m c rX = VD m c rX
    unfold VD; rw [Function.update_of_ne (show rX ≠ rFull by decide)]
  | ⟨2, _⟩ => by
    show (dats m 0 c).arrAt 2 cfg1.N = VDr m c (Pipeline.arrRef spec1 2)
    rw [final2]
    show tcOut m c = VD m c rFull
    unfold VD; rw [Function.update_self]

/-- Every other array is where it was. -/
theorem VD_rest (c : Dev nD) (b : Ref sig .tc) (hb : b ∉ Finset.univ.image (Pipeline.arrRef spec1)) : VDr m c b = VCr m c b := by
  show VD m c (Proc.devRef .tc b) = VC m c (Proc.devRef .tc b)
  unfold VD
  rw [Function.update_of_ne]
  intro e
  exact hb (Finset.mem_image.mpr ⟨2, Finset.mem_univ _, (Proc.devRef_injective _ e).symm⟩)

/-- The kernel has no semaphore of its own. -/
theorem ownSemFacts : Pipeline.OwnSemFacts spec1 (Fin.elim0 : Fin 0 → SemLoc sig) := by decide

set_option backward.isDefEq.respectTransparency.types false in
/-- THE REGION: the pipeline's decided layout, no semaphore of the kernel's own, the body obligation; entered from the arrays at
    `VC`, left with them at `VD`. -/
def reg : Pipeline.RegionSeg (pcfgs (F := F)) adm (dats m) none defs₀ 𝒱₀ (K (F := F)).L (K (F := F)).lev 0 where
  win := launch1.win.to₀
  block_pos := launch1.block_pos
  stage_whole := launch1.stage_whole
  K := Fin 0
  osem := Fin.elim0
  ho := ownSemFacts
  hbody c := (body_obligation m c).loose
  hwaits := Pipeline.hwaits_of_owed_zero _ _ _ _ _ _ 0 fun _ _ => rfl
  pre c := iprop(held (SparseCore.T c) SU (VC m c) ∗ Rw c)
  post c := iprop(held (SparseCore.T c) SU (VD m c) ∗ Rw c)
  X _ := iprop(emp)
  Y _ := iprop(emp)
  Z c := (Pipeline.unscopedRest (Ix := HIx 1) (Name := ℕ) (U := UU) (Lvl := ℕ) spec1 c (VCr m c) : sProp 𝕄)
  hentry c := by
    rw [show (held (SparseCore.T c) SU (VC m c) : sProp 𝕄) = unscopedBufs c (VCr m c) from (Pipeline.unscopedBufs_held c _).symm]
    have hsplit := Pipeline.arrays_of_unscopedBufs (pcfgs (F := F)) adm (dats m) launch1.win launch1.arr_whole c
      ((dats m 0 c).share_full fun _ => rfl) (VCr m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr; · iempintro
    iexact Hrest
  hin c := by
    rw [show (dats m 0 c).Φ 0 = (Pipeline.scopedRest (Ix := HIx 1) (Name := ℕ) (U := UU) (Lvl := ℕ) (Val := Elt F) spec1 c : sProp 𝕄) from rfl]
    iintro ⟨-, -, Hr⟩
    iexact Hr
  hout c := by
    rw [show (dats m 0 c).Φ (Fin.last cfg1.N) = (Pipeline.scopedRest (Ix := HIx 1) (Name := ℕ) (U := UU) (Lvl := ℕ) (Val := Elt F) spec1 c : sProp 𝕄) from rfl]
    iintro Hr
    isplitr; · iempintro
    isplitr; · unfold Pipeline.ownSems0; rw [show (Finset.univ : Finset (Fin 0)) = ∅ from rfl, BI.bigSep_empty]; iempintro
    iexact Hr
  hexit c := by
    iintro ⟨Ha, HO, -, HZ⟩
    imodintro
    isplitr [HO]
    · rw [show (held (SparseCore.T c) SU (VD m c) : sProp 𝕄) = unscopedBufs c (VDr m c) from (Pipeline.unscopedBufs_held c _).symm]
      iapply (Pipeline.unscopedBufs_of_arrays (pcfgs (F := F)) adm launch1.win launch1.arr_whole c (dats m)
        ((dats m 0 c).share_full fun _ => rfl) (VCr m c) (VDr m c) _ (arrAt_VD m c) (VD_rest m c))
      isplitl [Ha]; · iexact Ha
      iexact HZ
    · unfold Pipeline.Dat.owesAt Pipeline.owesWithin
      icases HO with ⟨%W, %hW, HO⟩; iexists W; isplitr
      · ipureintro
        intro p hp
        rcases hW (Finset.mem_coe.mpr hp) with h | ⟨w, s, rfl⟩
        · exact h
        · exact Nat.zero_le _
      iexact HO

theorem reg_pre (c : Dev nD) : (reg m).pre c = iprop(held (SparseCore.T c) SU (VC m c) ∗ Rw (F := F) c) := rfl
theorem reg_post (c : Dev nD) : (reg m).post c = iprop(held (SparseCore.T c) SU (VD m c) ∗ Rw (F := F) c) := rfl

/-- After its one SparseCore call the TensorCore owes no start signal. -/
theorem Otc_one (d : Dev nD) : (K (F := F)).Otc d 1 = 0 := by
  unfold SparseCore.Cfg.Otc
  simp

/-- The TensorCore's handshake state after the call, with its debt taken out and put back. -/
theorem tcSt_open (d : Dev nD) : (K (F := F)).tcSt EH d 1 ⊢ iprop(Rw (F := F) d ∗ (Rw (F := F) d -∗ (K (F := F)).tcSt EH d 1)) := by
  unfold SparseCore.Cfg.tcSt
  rw [Otc_one]
  iintro ⟨HO, Hrest⟩
  isplitl [HO]; · iexact HO
  iintro HO
  isplitl [HO]; · iexact HO
  iexact Hrest

set_option backward.isDefEq.respectTransparency.types false in
/-- The pipelined call, as a step of @main: from the arrays at `VC` to the arrays at `VD`. -/
theorem tc_call (κ : GSem nD τ sig → ℕ) (d : Dev nD) (Φ : PUnit → sProp 𝕄) :
    iprop((K (F := F)).ctx EH (PM m) κ ∗ (K (F := F)).tcSt EH d 1 ∗ boundary (SparseCore.T d) ∗ held (SparseCore.T d) SU (VC m d) ∗ tcG d
        ∗ (iprop((K (F := F)).tcSt EH d 1 ∗ boundary (SparseCore.T d) ∗ held (SparseCore.T d) SU (VD m d)) -∗ Φ ⟨⟩))
      ⊢ wp frame (wpE ((K (F := F)).defs (D (F := F))) 𝒱 (SparseCore.T d) none) Set.univ
          (Prog.lift (.customCall (SparseCore.inner (Pipeline.entry 0)) ())) Φ := by
  iintro ⟨#Hctx, Hst, Hb, Hheld, HG, Hk⟩
  ihave Hst' := (tcSt_open d) $$ Hst
  icases Hst' with ⟨HO, Hback⟩
  ihave Hlev := (SparseCore.Cfg.ctx_levAts κ) $$ Hctx
  rw [show (Prog.lift (.customCall (SparseCore.inner (Pipeline.entry 0)) ()) : Prog (TpuEff nD τ sig (Elt F) (SparseCore.Sig (ΛP (F := F)) 1) (SparseCore.T d).2) PUnit)
      = SparseCore.liftProg (Prog.lift (.customCall (Pipeline.entry 0) ())) from rfl]
  iapply ((K (F := F)).wp_liftProg (D (F := F)) 𝒱 (SparseCore.T d) Set.univ none _ Φ)
  have hw := Pipeline.RegionSeg.wp (pcfgs (F := F)) adm (dats m) none cellOf_inj (ER (F := F)) defs₀ 𝒱₀ (K (F := F)).L (K (F := F)).lev (reg m) d none
    (fun _ h => nomatch h) (fun _ => .ret ⟨⟩) Φ
  rw [reg_pre, reg_post] at hw
  iapply hw
  isplitl [Hk Hback]
  · iintro ⟨Hb, Hheld, HO⟩
    rw [wp_ret]; imodintro
    iapply Hk
    isplitl [Hback HO]; · iapply Hback; iexact HO
    isplitl [Hb]; · iexact Hb
    iexact Hheld
  isplitl [Hb]; · iexact Hb
  isplitl [Hheld HO]
  · isplitl [Hheld]; · iexact Hheld
    iexact HO
  isplitr; · iexact Hlev
  unfold tcG
  iexact HG

end Cert.Proof.KB

end
-- ==== Proof.MainB.lean ====
/-
  @main on a device's TensorCore: the four re-layouts of the input, the SparseCore call (the three flat arrays handed
  to the two SparseCores and taken back), the four operations between the calls, the pipelined TensorCore call
  (21 grid points; the random numbers staged whole once, the transposed input and the output staged block by block
  through two buffers each), and the final transpose. The arguments end unchanged and the result at `RES`.
-/
import proofs.«205805_g86552180949287_cont_9to1_m_41_25_alg».proof.Proof.MainCallB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays the SparseCore call and the claim name, out of all the TensorCore's arrays -/

theorem mem_SU (b : Ref sig .tc) (h : (Proc.devRef (τ := τ) .tc b).isScoped = false) : Proc.devRef .tc b ∈ SU :=
  Finset.mem_filter.mpr ⟨StableHlo.devRef_mem_tcRefs b, by rw [h]; exact Bool.false_ne_true⟩

abbrev T3 : Finset (DevRef τ sig) := {rFlt, rRnd, rOut}
abbrev T3' : Finset (DevRef τ sig) := {rImg, rRnd, rRes}

theorem T3_sub : T3 ⊆ SU := by
  intro b hb
  simp only [Finset.mem_insert, Finset.mem_singleton] at hb
  rcases hb with rfl | rfl | rfl <;> exact mem_SU _ (by decide)
theorem T3'_sub : T3' ⊆ SU := by
  intro b hb
  simp only [Finset.mem_insert, Finset.mem_singleton] at hb
  rcases hb with rfl | rfl | rfl <;> exact mem_SU _ (by decide)

/-- Before the SparseCore call: the three flat arrays it concerns, and the rest. -/
theorem held_VA (d : Dev nD) :
    (held (SparseCore.T d) SU (VA m d) : sProp 𝕄)
      = iprop(((fltLoc d ↦{fullShare} flOf m d) ∗ (rndLoc d ↦{fullShare} rdOf m d) ∗ outLoc d ↦{fullShare} o0Of m d)
          ∗ held (SparseCore.T d) (SU \ T3) (VA m d)) := by
  rw [StableHlo.held_sub_split (SparseCore.T d) T3_sub (VA m d)]
  congr 1
  unfold held T3
  rw [SparseCore.bigSep_insert' (by decide), SparseCore.bigSep_insert' (by decide), bigSep_singleton, VA_rRnd, VA_rOut]
  rfl

/-- After it: the same with the flat output at `v4Final`, which is the valuation `VB`. -/
theorem held_VB (d : Dev nD) :
    (held (SparseCore.T d) SU (VB m d) : sProp 𝕄)
      = iprop(((fltLoc d ↦{fullShare} flOf m d) ∗ (rndLoc d ↦{fullShare} rdOf m d) ∗ outLoc d ↦{fullShare} v4Final m d)
          ∗ held (SparseCore.T d) (SU \ T3) (VA m d)) := by
  rw [StableHlo.held_sub_split (SparseCore.T d) T3_sub (VB m d)]
  congr 1
  · unfold held T3
    rw [SparseCore.bigSep_insert' (by decide), SparseCore.bigSep_insert' (by decide), bigSep_singleton]
    unfold VB
    rw [Function.update_of_ne (show rFlt ≠ rOut by decide), Function.update_of_ne (show rRnd ≠ rOut by decide), Function.update_self, VA_rRnd]
    rfl

/-- At the end: the two arguments and the result, and the rest. -/
theorem held_VE (d : Dev nD) :
    (held (SparseCore.T d) SU (VE m d) : sProp 𝕄)
      = iprop(((imgLoc d ↦{fullShare} m (imgLoc d)) ∗ (rndLoc d ↦{fullShare} m (rndLoc d)) ∗ resLoc d ↦{fullShare} RES m d)
          ∗ held (SparseCore.T d) (SU \ T3') (VE m d)) := by
  rw [StableHlo.held_sub_split (SparseCore.T d) T3'_sub (VE m d)]
  congr 1
  unfold held T3'
  rw [SparseCore.bigSep_insert' (by decide), SparseCore.bigSep_insert' (by decide), bigSep_singleton, VE_rImg, VE_rRnd]
  rfl

/-! ## Each host operation stays within the unscoped arrays -/

theorem sub0 : (op0 (F := F)).bufs ⊆ SU := Pipeline.sub_ucRefs _ (StableHlo.unary_bufs_sub ..)
theorem sub1 : (op1 (F := F)).bufs ⊆ SU := Pipeline.sub_ucRefs _ (StableHlo.reshape_bufs_sub ..)
theorem sub2 : (op2 (F := F)).bufs ⊆ SU := Pipeline.sub_ucRefs _ (StableHlo.unary_bufs_sub ..)
theorem sub3 : (op3 (F := F)).bufs ⊆ SU := Pipeline.sub_ucRefs _ (StableHlo.reshape_bufs_sub ..)
theorem sub5 : (op5 (F := F)).bufs ⊆ SU := Pipeline.sub_ucRefs _ (StableHlo.reshape_bufs_sub ..)
theorem sub6 : (op6 (F := F)).bufs ⊆ SU := Pipeline.sub_ucRefs _ (StableHlo.unary_bufs_sub ..)
theorem sub7 : (op7 (F := F)).bufs ⊆ SU := Pipeline.sub_ucRefs _ (StableHlo.reshape_bufs_sub ..)
theorem sub8 : (op8 (F := F)).bufs ⊆ SU := Pipeline.sub_ucRefs _ (StableHlo.unary_bufs_sub ..)
theorem sub9 : (op9 (F := F)).bufs ⊆ SU := Pipeline.sub_ucRefs _ (StableHlo.unary_bufs_sub ..)

/-- The valuations of `Spec` are the operations' results in turn. -/
theorem heldA_eq (d : Dev nD) : (held (SparseCore.T d) SU (op3.result (op2.result (op1.result (op0.result (V0 m d))))) : sProp 𝕄) = held (SparseCore.T d) SU (VA m d) := rfl
theorem heldC_eq (d : Dev nD) : (held (SparseCore.T d) SU (op8.result (op7.result (op6.result (op5.result (VB m d))))) : sProp 𝕄) = held (SparseCore.T d) SU (VC m d) := rfl
theorem heldE_eq (d : Dev nD) : (held (SparseCore.T d) SU (op9.result (VD m d)) : sProp 𝕄) = held (SparseCore.T d) SU (VE m d) := rfl

/-- @main on device `d`'s TensorCore. -/
theorem hmain (κ : GSem nD τ sig → ℕ) (d : Dev nD) :
    iprop((K (F := F)).ctx EH (PM m) κ ∗ (K (F := F)).tcSt EH d 0 ∗ (K (F := F)).tcRes m ρ d ∗ tcG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) SU (V0 m d) from
    Pipeline.unscopedBufs_held d (V0 m d)]
  simp only [main, wp_bind, wp_pure]
  iintro ⟨#Hctx, Hst, ⟨Hb, Hheld, -, -⟩, HG⟩
  -- the four re-layouts of the input
  iapply (wp_hlo_within 𝒱 (SparseCore.T d) none Set.univ (op := op0) (S := SU) sub0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := SU) sub1 (V := op0.result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := SU) sub2 (V := op1.result (op0.result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := SU) sub3 (V := op2.result (op1.result (op0.result (V0 m d))))) $$ [Hb Hheld]
  · isplitl [Hb]; · iexact Hb
    iexact Hheld
  iintro ⟨Hb, Hheld⟩
  rw [wp_ret]; imodintro
  -- the SparseCore call: the three flat arrays to the two SparseCores and back
  ihave Hheld := (Entails.of_eq (heldA_eq m d)) $$ Hheld
  ihave Hh := (Entails.of_eq (held_VA m d)) $$ Hheld
  icases Hh with ⟨H3, Hrest⟩
  ihave Hs := (sc_split m d) $$ H3
  icases Hs with ⟨Hgo, Hkept⟩
  iapply ((K (F := F)).wp_run (D (F := F)) 𝒱 (EH := EH) (P := PM m) κ d 0) $$ [Hst Hgo Hb Hrest Hkept HG]
  isplitr; · iexact Hctx
  isplitl [Hst]; · iexact Hst
  isplitl [Hgo]; · iexact Hgo
  iintro ⟨Hst, Hdn⟩
  ihave H3 := (sc_join m d) $$ [Hdn Hkept]
  · isplitl [Hdn]; · iexact Hdn
    iexact Hkept
  ihave Hheld := (Entails.of_eq (held_VB m d).symm) $$ [H3 Hrest]
  · isplitl [H3]; · iexact H3
    iexact Hrest
  -- the four operations between the calls
  iapply (wp_hlo_within 𝒱 (SparseCore.T d) none Set.univ (op := op5) (S := SU) sub5 (V := VB m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := SU) sub6 (V := op5.result (VB m d))) $$ [Hb Hheld]
  · isplitl [Hb]; · iexact Hb
    iexact Hheld
  iintro ⟨Hb, Hheld⟩
  rw [wp_ret]; imodintro
  iapply (wp_hlo_within 𝒱 (SparseCore.T d) none Set.univ (op := op7) (S := SU) sub7 (V := op6.result (op5.result (VB m d)))) $$ [Hb Hheld]
  · isplitl [Hb]; · iexact Hb
    iexact Hheld
  iintro ⟨Hb, Hheld⟩
  rw [wp_ret]; imodintro
  iapply (wp_hlo_within 𝒱 (SparseCore.T d) none Set.univ (op := op8) (S := SU) sub8 (V := op7.result (op6.result (op5.result (VB m d))))) $$ [Hb Hheld]
  · isplitl [Hb]; · iexact Hb
    iexact Hheld
  iintro ⟨Hb, Hheld⟩
  rw [wp_ret]; imodintro
  -- the pipelined call
  ihave Hheld := (Entails.of_eq (heldC_eq m d)) $$ Hheld
  iapply (tc_call m κ d) $$ [Hst Hb Hheld HG]
  isplitr; · iexact Hctx
  isplitl [Hst]; · iexact Hst
  isplitl [Hb]; · iexact Hb
  isplitl [Hheld]; · iexact Hheld
  isplitl [HG]; · iexact HG
  iintro ⟨Hst, Hb, Hheld⟩
  -- the final transpose
  iapply (wp_hlo_within 𝒱 (SparseCore.T d) none Set.univ (op := op9) (S := SU) sub9 (V := VD m d)) $$ [Hb Hheld]
  · isplitl [Hb]; · iexact Hb
    iexact Hheld
  iintro ⟨Hb, Hheld⟩
  ihave Hheld := (Entails.of_eq (heldE_eq m d)) $$ Hheld
  ihave Hh := (Entails.of_eq (held_VE m d)) $$ Hheld
  icases Hh with ⟨HF, -⟩
  rw [wp_ret]; imodintro; imodintro
  isplitl [Hst]; · iexact Hst
  iexact HF

end Cert.Proof.KB

end
-- ==== Proof.LaunchB.lean ====
/-
  The launch: every weakly fair execution of the device's 35 threads (the TensorCore's @main, two sequencers, 32 vector
  subcores) from a memory with zero semaphores terminates with the two arguments unchanged and the result at `RES`.
  Each vector subcore's task is the tile's body; a SparseCore's share of the call is its sixteen tiles' hands, so it
  splits into them as it stands; the launch element is the handshakes' rounds, the pipelined call's staging cells and a
  unit for the local transfers' counters; @main's final assertion reads the three arrays off the final memory.
-/
import proofs.«205805_g86552180949287_cont_9to1_m_41_25_alg».proof.Proof.TileB
import proofs.«205805_g86552180949287_cont_9to1_m_41_25_alg».proof.Proof.MainB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within after)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          (Memref.whole main_v3_scv) (Memref.isWhole_whole _) (Memref.whole main_arg1_scv) (Memref.isWhole_whole _)
          (Memref.whole main_v4_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (PM m) v₀ 0 := by
  intro d c i O W hO _ _
  simp only [show (PM m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (flOf m d) (rdOf m d) (o0Of m d) O W hO).trans (wp_mono frame _ _ fun _ => obl_post)

/-! ## A SparseCore's share is its tiles' hands -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem PM_st (d : Dev nD) (c : Fin ((K (F := F)).nCore 0)) :
    (PM m).st 0 d c = bigSep Finset.univ fun s : Fin 16 => tileGo d (Fin.cast nCore_zero c) s (flOf m d) (rdOf m d) (o0Of m d) := rfl
theorem PM_dn (d : Dev nD) (c : Fin ((K (F := F)).nCore 0)) :
    (PM m).dn 0 d c = bigSep Finset.univ fun s : Fin 16 => tileTd d (Fin.cast nCore_zero c) s (flOf m d) (rdOf m d) := rfl
theorem PM_go (d : Dev nD) (c : Fin ((K (F := F)).nCore 0)) :
    (fun i : Fin ((K (F := F)).nSub 0) => (PM m).go 0 d c i)
      = fun i => (fun s : Fin 16 => tileGo d (Fin.cast nCore_zero c) s (flOf m d) (rdOf m d) (o0Of m d)) (Fin.cast nSub_zero i) := rfl
theorem PM_td (d : Dev nD) (c : Fin ((K (F := F)).nCore 0)) :
    (fun i : Fin ((K (F := F)).nSub 0) => (PM m).td 0 d c i)
      = fun i => (fun s : Fin 16 => tileTd d (Fin.cast nCore_zero c) s (flOf m d) (rdOf m d)) (Fin.cast nSub_zero i) := rfl

omit [FloatOps F] in
theorem split_id (A B : sProp 𝕄) : A ⊢ |={Set.univ}=> iprop(A ∗ (B -∗ B)) := by
  iintro H; imodintro
  isplitl [H]; · iexact H
  iintro H; iexact H

theorem vecSplit : (K (F := F)).VecSplit' (PM m) 0 := by
  intro d c
  rw [PM_st, PM_dn, PM_go, PM_td, bigSep_tasks (F := F) (fun s => tileGo d (Fin.cast nCore_zero c) s (flOf m d) (rdOf m d) (o0Of m d)),
    bigSep_tasks (F := F) (fun s => tileTd d (Fin.cast nCore_zero c) s (flOf m d) (rdOf m d))]
  exact split_id _ _

/-! ## The launch element -/

def u₀ : UU := (initOf (K (F := F)).hsCells (K (F := F)).hsToks, (uK, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => tcG (F := F) d)
        ∗ bigSep Finset.univ fun thr : Thread nD τ => bigSep Finset.univ fun q : Fin 1 => (PM m).x q thr) := by
  unfold u₀
  iintro Hu
  ihave H := (ownU_pair _ _) $$ Hu
  icases H with ⟨HH, HR⟩
  ihave HR' := (own_pair_emb (embR : Emb (UK × Counters) 𝕄) (uK) (1 : Counters)) $$ HR
  icases HR' with ⟨HK, -⟩
  ihave HK' := (Entails.of_eq (show (BI.own (((Emb.inl : Emb UK (UK × Counters)).trans (embR : Emb (UK × Counters) 𝕄)) uK) : sProp 𝕄) = BI.own (ER uK) from rfl)) $$ HK
  imod (fundTc (F := F)) $$ HK' with HG
  imodintro
  isplitl [HH]; · iexact HH
  isplitl [HG]; · iexact HG
  rw [show (bigSep Finset.univ fun thr : Thread nD τ => bigSep Finset.univ fun q : Fin 1 => (PM m).x q thr) = (iprop(emp) : sProp 𝕄) from by
    show (bigSep Finset.univ fun _ : Thread nD τ => bigSep Finset.univ fun _ : Fin 1 => (iprop(emp) : sProp 𝕄)) = _
    rw [bigSep_congr fun _ _ => bigSep_emp' _, bigSep_emp']]
  iempintro

/-! ## The final memory -/

def fq (d : Dev nD) (s' : Phys nD τ sig (Elt F)) : Prop :=
  s'.mem.mem (imgLoc d) = m (imgLoc d) ∧ s'.mem.mem (rndLoc d) = m (rndLoc d) ∧ s'.mem.mem (resLoc d) = RES m d

theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := imgLoc d) (I := Finset.univ) (q := fullShare) (f := m (imgLoc d)))) $$ [HSI Hi]
  · isplitl [HSI] <;> iassumption
  icases H with ⟨%h1, HSI, -⟩
  ihave H := (persistent_entails_right (SI_pointsTo_agree (st := s') (ℓ := rndLoc d) (I := Finset.univ) (q := fullShare) (f := m (rndLoc d)))) $$ [HSI Hx]
  · isplitl [HSI] <;> iassumption
  icases H with ⟨%h2, HSI, -⟩
  ihave H := (SI_pointsTo_agree (st := s') (ℓ := resLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (resLoc c) = RES m c ∧ r.2.mem (imgLoc c) = m (imgLoc c) ∧ r.2.mem (rndLoc c) = m (rndLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PM m) facts v₀
    (fun q hq => match q with | 0 => nomatch hq)
    (fun q _ => match q with | 0 => tileObl m facts)
    (fun q _ => match q with | 0 => SparseCore.Cfg.VecSplit.of_plain (vecSplit m))
    m ρ main (fun d => tcG (F := F) d) (FIN m) (u₀ (F := F)) (sep_elim_left.trans (hu₀ m)) (hmain m ρ) (fq m) (hfin m) (QC m)
    (fun _ h c => ⟨(h c).2.2, (h c).1, (h c).2.1⟩)

end Cert.Proof.KB

end
-- ==== Proof.ValueChain.lean ====
/-
  The chain of valuations read at the arrays the value needs: the result array is the transpose of the pipelined
  call's output array; the transposed input is still the transpose of the input when the pipelined call runs (no
  later operation writes it); the pipelined call's output buffer, before the call, is the flat output carried back to
  [3, 224, 224, 512]; the flat input is the input carried forward to the flat arrangement.
-/
import proofs.«205805_g86552180949287_cont_9to1_m_41_25_alg».proof.Proof.Spec

noncomputable section

namespace Cert.Proof.KI

open Cert.KernelIdeal Cert.KernelIdeal.Gen

open Idealize.ShloMosaic
open Idealize.ShloMosaic.SparseCore (S V T)
open Idealize.SL.Sem
open Idealize.ShloMosaic.StableHlo

variable {F : FTy → Type} [FloatOps F]
variable (m : (ℓ : Loc nD τ sig) → Buf (Elt F) ℓ) (d : Dev nD)

/-- The result array is the transpose of the pipelined call's output array. -/
theorem RES_eq :
    (RES m d : (⟨S512x3x224x224, .f32⟩ : BufTy).Contents (Elt F))
      = transpose S512x3x224x224 [3, 0, 1, 2] (tcOut m d) Facts₀.transposes_S3x224x224x512_S512x3x224x224_3_0_1_2 := by
  unfold RES VE
  after_results
  unfold VD
  rw [Function.update_self]

/-- The transposed input, as the pipelined call reads it, is the transpose of the input. -/
theorem VC_rX :
    (VC m d rX : (⟨S3x224x224x512, .f32⟩ : BufTy).Contents (Elt F))
      = transpose S3x224x224x512 [1, 2, 3, 0] (m (imgLoc d) : (⟨S512x3x224x224, .f32⟩ : BufTy).Contents (Elt F))
          Facts₀.transposes_S512x3x224x224_S3x224x224x512_1_2_3_0 := by
  unfold VC
  after_results
  unfold VB
  rw [Function.update_of_ne (devRef_ne_of_ne (by decide))]
  unfold VA V0
  after_results

/-- The flat input is the input transposed, split, swapped and flattened. -/
theorem flOf_eq :
    (flOf m d : (⟨S77070336, .f32⟩ : BufTy).Contents (Elt F))
      = shapeCast S77070336
          (transpose S3x224x28x4x8x128 [0, 1, 2, 4, 3, 5]
            (shapeCast S3x224x28x8x4x128
              (transpose S3x224x224x512 [1, 2, 3, 0] (m (imgLoc d) : (⟨S512x3x224x224, .f32⟩ : BufTy).Contents (Elt F))
                Facts₀.transposes_S512x3x224x224_S3x224x224x512_1_2_3_0)
              Facts₀.shapeCasts_S3x224x224x512_S3x224x28x8x4x128)
            Facts₀.transposes_S3x224x28x8x4x128_S3x224x28x4x8x128_0_1_2_4_3_5)
          Facts₀.shapeCasts_S3x224x28x4x8x128_S77070336 := by
  unfold flOf VA V0
  after_results
  rfl

/-- The pipelined call's output buffer, as the call finds it, is the flat output unflattened, swapped back and merged. -/
theorem VC_rFull :
    (VC m d rFull : (⟨S3x224x224x512, .f32⟩ : BufTy).Contents (Elt F))
      = shapeCast S3x224x224x512
          (transpose S3x224x28x8x4x128 [0, 1, 2, 4, 3, 5]
            (shapeCast S3x224x28x4x8x128 (v4Final m d : (⟨S77070336, .f32⟩ : BufTy).Contents (Elt F))
              Facts₀.shapeCasts_S77070336_S3x224x28x4x8x128)
            Facts₀.transposes_S3x224x28x4x8x128_S3x224x28x8x4x128_0_1_2_4_3_5)
          Facts₀.shapeCasts_S3x224x28x8x4x128_S3x224x224x512 := by
  unfold VC
  after_results
  unfold VB
  rw [Function.update_self]
  rfl

end Cert.Proof.KI

end
-- ==== Proof.ValueArith.lean ====
/-
  Index arithmetic of the two re-layouts, over the natural numbers. Entry (c, h, w, n) of the [3, 224, 224, 512]
  arrangement sits, after the two minor axes are split (w = 8·(w / 8) + w mod 8, n = 128·(n / 128) + n mod 128) and the
  two middle pieces swapped, at word `flatWord c h w n` of the flat array. The facts: the word is inside the array; it
  lies in the second half exactly when the channel-row 224·c + h is at least 336; its group of sixteen frames and its
  lane in the group give back the frame n; and the row-major positions of the intermediate arrangements agree.
-/

namespace Cert.Proof.KI

/-- The flat word of entry (c, h, w, n). -/
def flatWord (c h w n : Nat) : Nat :=
  ((((224 * c + h) * 28 + w / 8) * 4 + n / 128) * 8 + w % 8) * 128 + n % 128

theorem flatWord_lt {c h w n : Nat} (hc : c < 3) (hh : h < 224) (hw : w < 224) (hn : n < 512) :
    flatWord c h w n < 77070336 := by
  unfold flatWord; omega

/-- A channel-row at or past 336 puts the word in the second half. -/
theorem flatWord_ge {c h w n : Nat} (hh : h < 224) (hw : w < 224) (hn : n < 512) (hrow : ¬ 224 * c + h < 336) :
    ¬ flatWord c h w n < 38535168 := by
  unfold flatWord; omega

/-- The word's group of sixteen frames (8·((J / 1024) mod 4) + (J mod 128) / 16) and lane (J mod 16) name frame n. -/
theorem flatWord_frame {c h w n : Nat} (hw : w < 224) (hn : n < 512) :
    16 * (8 * ((flatWord c h w n / 1024) % 4) + (flatWord c h w n % 128) / 16) + flatWord c h w n % 16 = n := by
  unfold flatWord; omega

/-- The split arrangement [3, 224, 28, 8, 4, 128] read in row-major order is the arrangement [3, 224, 224, 512]. -/
theorem split_pos {c h w n : Nat} (hw : w < 224) (hn : n < 512) :
    ((((c * 224 + h) * 28 + w / 8) * 8 + w % 8) * 4 + n / 128) * 128 + n % 128 = ((c * 224 + h) * 224 + w) * 512 + n := by
  omega

/-- The swapped arrangement [3, 224, 28, 4, 8, 128] read in row-major order is the flat word. -/
theorem swap_pos (c h w n : Nat) :
    ((((c * 224 + h) * 28 + w / 8) * 4 + n / 128) * 8 + w % 8) * 128 + n % 128 = flatWord c h w n := by
  unfold flatWord; omega

end Cert.Proof.KI
-- ==== Proof.ValueRelayout.lean ====
/-
  The two re-layouts read at an index. Before the SparseCore call the input [512, 3, 224, 224] is transposed to
  [3, 224, 224, 512], its two minor axes are split ([3, 224, 28, 8, 4, 128]), the two middle pieces swapped
  ([3, 224, 28, 4, 8, 128]) and the result flattened; after the call the flat array goes the same road backwards. Each
  operation reads its operand at one index; the chain of the four forward operations read at the flat word of
  (c, h, w, n) is the input at (n, c, h, w), and the chain of the three backward operations read at (c, h, w, n) is
  the flat array at that word.
-/
import proofs.«205805_g86552180949287_cont_9to1_m_41_25_alg».proof.Proof.ValueArith
import Idealize.ShloMosaic.Lib.Pipeline.Value
import Idealize.ShloMosaic.Lib.ValueIdxRank6

noncomputable section

namespace Cert.Proof.KI

open Idealize.ShloMosaic Idealize.ShloMosaic.ValueIdx

abbrev ShI : Shape := ⟨4, ![512, 3, 224, 224]⟩
abbrev ShX : Shape := ⟨4, ![3, 224, 224, 512]⟩
abbrev ShA : Shape := ⟨6, ![3, 224, 28, 8, 4, 128]⟩
abbrev ShB : Shape := ⟨6, ![3, 224, 28, 4, 8, 128]⟩
abbrev ShF : Shape := ⟨1, ![77070336]⟩

/-- The split index of (c, h, w, n): w and n cut into (w / 8, w mod 8) and (n / 128, n mod 128). -/
abbrev splitIx (c : Fin 3) (h : Fin 224) (w : Fin 224) (n : Fin 512) : ShA.Idx :=
  ix6 c h (⟨w.val / 8, by have := w.isLt; omega⟩ : Fin 28) (⟨w.val % 8, by omega⟩ : Fin 8)
    (⟨n.val / 128, by have := n.isLt; omega⟩ : Fin 4) (⟨n.val % 128, by omega⟩ : Fin 128)

/-- The same with the two middle pieces swapped. -/
abbrev swapIx (c : Fin 3) (h : Fin 224) (w : Fin 224) (n : Fin 512) : ShB.Idx :=
  ix6 c h (⟨w.val / 8, by have := w.isLt; omega⟩ : Fin 28) (⟨n.val / 128, by have := n.isLt; omega⟩ : Fin 4)
    (⟨w.val % 8, by omega⟩ : Fin 8) (⟨n.val % 128, by omega⟩ : Fin 128)

theorem split_rowMajor (c : Fin 3) (h : Fin 224) (w : Fin 224) (n : Fin 512) :
    (ShA.rowMajor (splitIx c h w n)).val = (ShX.rowMajor (ix4 c h w n)).val := by
  rw [Shape.rowMajor_val_six, Shape.rowMajor_val_four]
  show ((((c.val * 224 + h.val) * 28 + w.val / 8) * 8 + w.val % 8) * 4 + n.val / 128) * 128 + n.val % 128
    = ((c.val * 224 + h.val) * 224 + w.val) * 512 + n.val
  exact split_pos w.isLt n.isLt

theorem swap_rowMajor (c : Fin 3) (h : Fin 224) (w : Fin 224) (n : Fin 512) (j : ShF.Idx)
    (hj : (j 0).val = flatWord c.val h.val w.val n.val) :
    (ShB.rowMajor (swapIx c h w n)).val = (ShF.rowMajor j).val := by
  rw [Shape.rowMajor_val_six, Shape.rowMajor_val_one, hj]
  show ((((c.val * 224 + h.val) * 28 + w.val / 8) * 4 + n.val / 128) * 8 + w.val % 8) * 128 + n.val % 128 = _
  exact swap_pos c.val h.val w.val n.val

/-- The flat input at the flat word of (c, h, w, n) is the input at (n, c, h, w). -/
theorem flat_read {α : Type} (x : ShI.Idx → α)
    (hT1 : ShI.Transposes [1, 2, 3, 0] ShX) (hC1 : ShX.ShapeCasts ShA)
    (hT2 : ShA.Transposes [0, 1, 2, 4, 3, 5] ShB) (hC2 : ShB.ShapeCasts ShF)
    (c : Fin 3) (h : Fin 224) (w : Fin 224) (n : Fin 512) (j : ShF.Idx)
    (hj : (j 0).val = flatWord c.val h.val w.val n.val) :
    shapeCast ShF (transpose ShB [0, 1, 2, 4, 3, 5] (shapeCast ShA (transpose ShX [1, 2, 3, 0] x hT1) hC1) hT2) hC2 j
      = x (ix4 n c h w) := by
  refine (shapeCast_apply _ hC2 j (swapIx c h w n) (swap_rowMajor c h w n j hj)).trans ?_
  refine (transpose_apply _ _ hT2 (swapIx c h w n) (splitIx c h w n) (fun b => ?_)).trans ?_
  · match b with
    | ⟨0, _⟩ => rfl
    | ⟨1, _⟩ => rfl
    | ⟨2, _⟩ => rfl
    | ⟨3, _⟩ => rfl
    | ⟨4, _⟩ => rfl
    | ⟨5, _⟩ => rfl
  refine (shapeCast_apply _ hC1 (splitIx c h w n) (ix4 c h w n) (split_rowMajor c h w n).symm).trans ?_
  refine transpose_apply _ _ hT1 (ix4 c h w n) (ix4 n c h w) (fun b => ?_)
  match b with
  | ⟨0, _⟩ => rfl
  | ⟨1, _⟩ => rfl
  | ⟨2, _⟩ => rfl
  | ⟨3, _⟩ => rfl

/-- The flat output carried back to [3, 224, 224, 512], read at (c, h, w, n), is the flat output at the flat word. -/
theorem full_read {α : Type} (y : ShF.Idx → α)
    (hC3 : ShF.ShapeCasts ShB) (hT3 : ShB.Transposes [0, 1, 2, 4, 3, 5] ShA) (hC4 : ShA.ShapeCasts ShX)
    (c : Fin 3) (h : Fin 224) (w : Fin 224) (n : Fin 512) (j : ShF.Idx)
    (hj : (j 0).val = flatWord c.val h.val w.val n.val) :
    shapeCast ShX (transpose ShA [0, 1, 2, 4, 3, 5] (shapeCast ShB y hC3) hT3) hC4 (ix4 c h w n) = y j := by
  refine (shapeCast_apply _ hC4 (ix4 c h w n) (splitIx c h w n) (split_rowMajor c h w n)).trans ?_
  refine (transpose_apply _ _ hT3 (splitIx c h w n) (swapIx c h w n) (fun b => ?_)).trans ?_
  · match b with
    | ⟨0, _⟩ => rfl
    | ⟨1, _⟩ => rfl
    | ⟨2, _⟩ => rfl
    | ⟨3, _⟩ => rfl
    | ⟨4, _⟩ => rfl
    | ⟨5, _⟩ => rfl
  exact shapeCast_apply _ hC3 (swapIx c h w n) j (swap_rowMajor c h w n j hj).symm

end Cert.Proof.KI

end
-- ==== Proof.ValueMul.lean ====
/-
  The multiplier at the exact instance. A comparison of extended reals is the linear order's, so of `r < t` and
  `t ≤ r` exactly one holds: the bit of "at least the threshold" is 1 where the bit of "below the threshold" is 0 and
  the other way round. The multiplier built from the first bit — converted to a float, or selected between the words of
  one and zero — is therefore 1 or 0, and an entry times it is the entry or zero: the select the reference makes on the
  second bit.
-/
import Idealize.ShloMosaic.PureOps.Ideal.Laws
import Idealize.ShloMosaic.Lib.IdealHost
import Idealize.ShloMosaic.Lib.ValueIdx

noncomputable section

namespace Cert.Proof.KI

open Idealize.ShloMosaic

/-- The two comparison bits of a number against the threshold are complementary. -/
theorem oge_of_olt (r t : Ideal .f32) (h : r < t) :
    FloatOps.cmpf .olt r t = 1#1 ∧ FloatOps.cmpf .oge r t = 0#1 := by
  constructor
  · show BitVec.ofBool (decide (r < t)) = 1#1
    rw [decide_eq_true h]; rfl
  · show BitVec.ofBool (decide (t ≤ r)) = 0#1
    rw [decide_eq_false (not_le.mpr h)]; rfl

theorem oge_of_not_olt (r t : Ideal .f32) (h : ¬ r < t) :
    FloatOps.cmpf .olt r t = 0#1 ∧ FloatOps.cmpf .oge r t = 1#1 := by
  constructor
  · show BitVec.ofBool (decide (r < t)) = 0#1
    rw [decide_eq_false h]; rfl
  · show BitVec.ofBool (decide (t ≤ r)) = 1#1
    rw [decide_eq_true (not_lt.mp h)]; rfl

/-- An entry times the converted bit of "at least the threshold" is the select on the bit of "below the threshold". -/
theorem mul_cvt (x r t : Ideal .f32) :
    FloatOps.mulf x (FloatOps.sitofp .f32 ((FloatOps.cmpf .oge r t).setWidth 32))
      = Scalar.select (FloatOps.cmpf .olt r t) (FloatOps.ofBits .f32 0x00000000#32) x := by
  by_cases h : r < t
  · obtain ⟨h1, h2⟩ := oge_of_olt r t h
    rw [h1, h2, ValueIdx.select_one]
    show x * (((((0#1 : BitVec 1).setWidth 32).toInt : ℝ)) : EReal) = Ideal.ofBits .f32 0x00000000#32
    rw [Ideal.ofBits_zero_f32]
    simp
  · obtain ⟨h1, h2⟩ := oge_of_not_olt r t h
    rw [h1, h2, ValueIdx.select_zero]
    show x * (((((1#1 : BitVec 1).setWidth 32).toInt : ℝ)) : EReal) = x
    simp

/-- An entry times the multiplier selected by the bit of "at least the threshold" between the words of one and zero is
    the same select. -/
theorem mul_sel (x r t : Ideal .f32) :
    FloatOps.mulf x (Scalar.select (FloatOps.cmpf .oge r t) (FloatOps.ofBits .f32 0x3F800000#32) (FloatOps.ofBits .f32 0x00000000#32))
      = Scalar.select (FloatOps.cmpf .olt r t) (FloatOps.ofBits .f32 0x00000000#32) x := by
  by_cases h : r < t
  · obtain ⟨h1, h2⟩ := oge_of_olt r t h
    rw [h1, h2, ValueIdx.select_one, ValueIdx.select_zero]
    show x * Ideal.ofBits .f32 0x00000000#32 = Ideal.ofBits .f32 0x00000000#32
    rw [Ideal.ofBits_zero_f32, mul_zero]
  · obtain ⟨h1, h2⟩ := oge_of_not_olt r t h
    rw [h1, h2, ValueIdx.select_one, ValueIdx.select_zero]
    show x * Ideal.ofBits .f32 0x3F800000#32 = x
    rw [Ideal.ofBits_one_f32, mul_one]

end Cert.Proof.KI

end
-- ==== Proof.Value.lean ====
/-
  The value: at the exact instance the result array `RES` is the reference's `where(rand < threshold, 0, img)`.
  Entry (n, c, h, w) of the result is entry (c, h, w, n) of the pipelined call's output array. Where 224·c + h < 336
  that is img(n, c, h, w) times the converted comparison of rand(n); elsewhere it is word
  J = ((((224·c + h)·28 + w / 8)·4 + n / 128)·8 + w mod 8)·128 + n mod 128 of the flat output, which lies in the second
  half (J ≥ 336·114688), where the SparseCore call left flat-input word J — again img(n, c, h, w), the re-layouts being
  inverse to each other — times the selected multiplier of group 8·(n / 128) + (n mod 128) / 16, lane n mod 16, that is of
  rand(n). On the extended reals exactly one of rand(n) < t and t ≤ rand(n) holds, the multiplier is 0 or 1, and an
  entry times it is 0 or the entry (the extended reals' product has x·0 = 0 and x·1 = x for every x).
-/
import proofs.«205805_g86552180949287_cont_9to1_m_41_25_alg».proof.Proof.ValueChain
import proofs.«205805_g86552180949287_cont_9to1_m_41_25_alg».proof.Proof.ValueRelayout
import proofs.«205805_g86552180949287_cont_9to1_m_41_25_alg».proof.Proof.ValueMul
import proofs.«205805_g86552180949287_cont_9to1_m_41_25_alg».proof.Proof.Gen.ReferenceIdeal.Read
import proofs.«205805_g86552180949287_cont_9to1_m_41_25_alg».proof.Proof.Gen.Pre_finite_inputs
import Idealize.ShloMosaic.Lib.ValueIdx
import Idealize.ShloMosaic.Lib.Pipeline.Value

noncomputable section

namespace Cert.Proof.KI

open Cert.KernelIdeal Cert.KernelIdeal.Gen
open Idealize.ShloMosaic
open Idealize.ShloMosaic.SparseCore (S V T)
open Idealize.SL.Sem
open Idealize.ShloMosaic.ValueIdx

/-! ## The two multipliers and the SparseCore half read at an index (any float instance) -/

section AnyInstance
variable {F : FTy → Type} [FloatOps F]

/-- The converted multiplier of frame `l`. -/
theorem keepCvt_apply (v : FVec F S512 .f32) (l : S512.Idx) :
    keepCvt v l = FloatOps.sitofp .f32 ((FloatOps.cmpf .oge (v l) (Scalar.ofBits .f32 0x3DCCCCCD#32)).setWidth 32) := rfl

/-- The selected multiplier of lane `l`. -/
theorem keepSel_apply (v : FVec F S16 .f32) (l : S16.Idx) :
    keepSel v l = Scalar.select (FloatOps.cmpf .oge (v l) (Scalar.ofBits .f32 0x3DCCCCCD#32))
      (Scalar.ofBits .f32 0x3F800000#32) (Scalar.ofBits .f32 0x00000000#32) := rfl

/-- The SparseCore half at a word whose group and lane name frame `n`: the input word times frame `n`'s selected
    multiplier. -/
theorem scOut_apply (fl : (⟨S77070336, .f32⟩ : BufTy).Contents (Elt F)) (rd : (⟨S512, .f32⟩ : BufTy).Contents (Elt F))
    (j : S77070336.Idx) (n : Fin 512) (hn : 16 * grpOf (j 0).val + (j 0).val % 16 = n.val) :
    scOut fl rd j = FloatOps.mulf (fl j) (Scalar.select (FloatOps.cmpf .oge (rd (ix1 n)) (Scalar.ofBits .f32 0x3DCCCCCD#32))
      (Scalar.ofBits .f32 0x3F800000#32) (Scalar.ofBits .f32 0x00000000#32)) := by
  unfold scOut
  rw [keepSel_apply]
  unfold rndGrp
  show FloatOps.mulf (fl j) (Scalar.select (FloatOps.cmpf .oge
      (rd (ix1 (⟨16 * grpOf (j 0).val + (j 0).val % 16, _⟩ : Fin 512))) _) _ _) = _
  rw [show (⟨16 * grpOf (j 0).val + (j 0).val % 16, _⟩ : Fin 512) = n from Fin.ext hn]

end AnyInstance

/-! ## The reference's stage at an index -/

/-- The reference's entry from a random number and an input entry: zero where the number is below the threshold. -/
abbrev refAt (r x : Ideal .f32) : Ideal .f32 :=
  Scalar.select (FloatOps.cmpf (F := Ideal) .olt r (FloatOps.ofBits (F := Ideal) .f32 0x3DCCCCCD#32))
    (FloatOps.ofBits (F := Ideal) .f32 0x00000000#32) x

/-- The reference at (n, c, h, w): zero where rand(n) is below the threshold, the input entry elsewhere. -/
theorem ref_apply (img : (⟨Cert.ReferenceIdeal.S512x3x224x224, .f32⟩ : BufTy).Contents (Elt Ideal))
    (rd : (⟨Cert.ReferenceIdeal.S512, .f32⟩ : BufTy).Contents (Elt Ideal)) (n : Fin 512) (c : Fin 3) (h : Fin 224) (w : Fin 224) :
    Cert.ReferenceIdeal.Read.val_main_v4 (F := Ideal) img rd (ix4 n c h w)
      = refAt (rd (ix1 n)) (img (ix4 n c h w)) := by
  have e : Cert.ReferenceIdeal.Read.idx_main_v2 (Cert.ReferenceIdeal.Read.idx_main_call0_v0 (ix4 n c h w)) = ix1 n := by
    funext a; match a with | ⟨0, _⟩ => rfl
  rw [Cert.ReferenceIdeal.Read.val_main_v4_apply, Cert.ReferenceIdeal.Read.val_main_call0_v0_apply,
    Cert.ReferenceIdeal.Read.val_main_v2_apply, Cert.ReferenceIdeal.Read.val_main_v1_apply,
    Cert.ReferenceIdeal.Read.val_main_v0_apply, Cert.ReferenceIdeal.Read.val_main_cst_apply,
    Cert.ReferenceIdeal.Read.val_main_v3_apply, Cert.ReferenceIdeal.Read.val_main_cst_0_apply, e]

/-! ## The pipelined call's output array at an index -/

/-- Entry (c, h, w, n) of the output array is the reference's entry (n, c, h, w). -/
theorem out_apply (m : (ℓ : Loc nD τ sig) → Buf (Elt Ideal) ℓ) (d : Dev nD) (n : Fin 512) (c : Fin 3) (h : Fin 224) (w : Fin 224) :
    (tcOut (F := Ideal) m d : (⟨S3x224x224x512, .f32⟩ : BufTy).Contents (Elt Ideal)) (ix4 c h w n)
      = refAt ((m (rndLoc d) : (⟨S512, .f32⟩ : BufTy).Contents (Elt Ideal)) (ix1 n))
          ((m (imgLoc d) : (⟨S512x3x224x224, .f32⟩ : BufTy).Contents (Elt Ideal)) (ix4 n c h w)) := by
  unfold tcOut
  show (if 224 * c.val + h.val < 336 then _ else _) = _
  by_cases hrow : 224 * c.val + h.val < 336
  · rw [if_pos hrow, keepCvt_apply]
    have e1 : (VC (F := Ideal) m d rX : (⟨S3x224x224x512, .f32⟩ : BufTy).Contents (Elt Ideal)) (ix4 c h w n)
        = (m (imgLoc d) : (⟨S512x3x224x224, .f32⟩ : BufTy).Contents (Elt Ideal)) (ix4 n c h w) := by
      rw [VC_rX]
      refine transpose_apply _ _ _ (ix4 c h w n) (ix4 n c h w) (fun b => ?_)
      match b with
      | ⟨0, _⟩ => rfl
      | ⟨1, _⟩ => rfl
      | ⟨2, _⟩ => rfl
      | ⟨3, _⟩ => rfl
    rw [e1]
    exact mul_cvt _ _ _
  · rw [if_neg hrow, VC_rFull]
    have hJ : flatWord c.val h.val w.val n.val < 77070336 := flatWord_lt c.isLt h.isLt w.isLt n.isLt
    refine (full_read _ _ _ _ c h w n (ix1 (⟨flatWord c.val h.val w.val n.val, hJ⟩ : Fin 77070336)) rfl).trans ?_
    unfold v4Final
    show (if flatWord c.val h.val w.val n.val < 38535168 then _ else _) = _
    rw [if_neg (flatWord_ge h.isLt w.isLt n.isLt hrow)]
    rw [scOut_apply _ _ _ n (by
      show 16 * grpOf (flatWord c.val h.val w.val n.val) + flatWord c.val h.val w.val n.val % 16 = n.val
      unfold grpOf
      exact flatWord_frame w.isLt n.isLt)]
    have e2 : (flOf (F := Ideal) m d : (⟨S77070336, .f32⟩ : BufTy).Contents (Elt Ideal)) (ix1 (⟨flatWord c.val h.val w.val n.val, hJ⟩ : Fin 77070336))
        = (m (imgLoc d) : (⟨S512x3x224x224, .f32⟩ : BufTy).Contents (Elt Ideal)) (ix4 n c h w) := by
      rw [flOf_eq]
      exact flat_read _ _ _ _ _ c h w n _ rfl
    rw [e2]
    exact mul_sel _ _ _

/-- Under the precondition (every input word finite), the result array's final contents are the reference's stage of
    the two arguments. -/
theorem res_eq (m : (ℓ : Loc nD τ sig) → Buf (Elt Ideal) ℓ) (hpre : Cert.Pre_KernelIdeal (hPre_finite_inputs := Cert.Pre_finite_inputs.Gen.facts) m) (d : Dev nD) :
    (RES (F := Ideal) m d : (⟨S512x3x224x224, .f32⟩ : BufTy).Contents (Elt Ideal))
      = Cert.ReferenceIdeal.Read.val_main_v4 (F := Ideal) (m (imgLoc d)) (m (rndLoc d)) := by
  funext i
  obtain ⟨n, c, h, w, rfl⟩ : ∃ (n : Fin 512) (c : Fin 3) (h : Fin 224) (w : Fin 224), i = ix4 n c h w :=
    ⟨i 0, i 1, i 2, i 3, eq_ix4 i⟩
  rw [ref_apply, RES_eq]
  refine (transpose_apply _ _ _ (ix4 n c h w) (ix4 c h w n) (fun b => ?_)).trans (out_apply m d n c h w)
  match b with
  | ⟨0, _⟩ => rfl
  | ⟨1, _⟩ => rfl
  | ⟨2, _⟩ => rfl
  | ⟨3, _⟩ => rfl

end Cert.Proof.KI

end
-- ==== Proof.Claims.lean ====
/-
  The five claims. Both kernel programs run from any memory with zero semaphores to a final memory with the arguments
  unchanged and the result at `RES` (the launch); the two frames drop the result. The reference's frame is its run with
  the result dropped. The idealization rewrote nothing, so there is nothing to preserve. For the value, the idealized
  kernel ends with the result at `RES` and the reference at its stage of the same arguments, which are one function
  (`res_eq`).
-/
import proofs.«205805_g86552180949287_cont_9to1_m_41_25_alg».proof.Defs
import proofs.«205805_g86552180949287_cont_9to1_m_41_25_alg».proof.Proof.Launch
import proofs.«205805_g86552180949287_cont_9to1_m_41_25_alg».proof.Proof.LaunchB
import proofs.«205805_g86552180949287_cont_9to1_m_41_25_alg».proof.Proof.Value
import proofs.«205805_g86552180949287_cont_9to1_m_41_25_alg».proof.Proof.Gen.ReferenceIdeal.Run
import proofs.«205805_g86552180949287_cont_9to1_m_41_25_alg».proof.Proof.Gen.ReferenceIdeal.Read
import proofs.«205805_g86552180949287_cont_9to1_m_41_25_alg».proof.Proof.Gen.Pre_finite_inputs

noncomputable section

namespace Cert.Proof.Claims

open Idealize.ShloMosaic Idealize.SL.Sem

theorem frame_k : Cert.frame_Kernel := fun m ρ _ =>
  (θ_run Cert.Kernel.defs _ _).mono (fun _ h c => ⟨(h c).2.1, (h c).2.2⟩) (Cert.Proof.KB.run_main (F := Bits) m ρ)

theorem frame_ki : Cert.frame_KernelIdeal := fun m ρ _ =>
  (θ_run Cert.KernelIdeal.defs _ _).mono (fun _ h c => ⟨(h c).2.1, (h c).2.2⟩) (Cert.Proof.KI.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.Proof.KI.RES (F := Ideal) m c, Cert.Proof.KI.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2]
  exact (Cert.Proof.KI.res_eq m hpre c).symm

end Cert.Proof.Claims

end
-- ==== Proof.lean ====
/- The proof of `Cert.Claim`. The kernel program — at the word level and idealized — re-lays the input into a flat array whose
   positions are ordered (channel, row, column/8, frame/128, column mod 8, frame mod 128), lets 32 vector subcores multiply the
   second half of it, chunk by chunk, by the per-frame multiplier (1 where the frame's random number is at least the threshold,
   0 elsewhere), lets a pipelined call do the same for the first half block by block, and re-lays the result back; the reference
   selects 0 where the random number is below the threshold and the input elsewhere. The witnesses of the programs' stated facts
   come first; the three frames, the (empty) preservation and the value equality are Proof/Claims.lean's. -/
import proofs.«205805_g86552180949287_cont_9to1_m_41_25_alg».proof.Defs
import proofs.«205805_g86552180949287_cont_9to1_m_41_25_alg».proof.Proof.Claims
import proofs.«205805_g86552180949287_cont_9to1_m_41_25_alg».proof.Proof.Gen.Kernel
import proofs.«205805_g86552180949287_cont_9to1_m_41_25_alg».proof.Proof.Gen.Kernel.Skeleton
import proofs.«205805_g86552180949287_cont_9to1_m_41_25_alg».proof.Proof.Gen.Kernel.Launch
import proofs.«205805_g86552180949287_cont_9to1_m_41_25_alg».proof.Proof.Gen.Kernel.Points
import proofs.«205805_g86552180949287_cont_9to1_m_41_25_alg».proof.Proof.Gen.KernelIdeal
import proofs.«205805_g86552180949287_cont_9to1_m_41_25_alg».proof.Proof.Gen.KernelIdeal.Skeleton
import proofs.«205805_g86552180949287_cont_9to1_m_41_25_alg».proof.Proof.Gen.KernelIdeal.Launch
import proofs.«205805_g86552180949287_cont_9to1_m_41_25_alg».proof.Proof.Gen.KernelIdeal.Points
import proofs.«205805_g86552180949287_cont_9to1_m_41_25_alg».proof.Proof.Gen.ReferenceIdeal
import proofs.«205805_g86552180949287_cont_9to1_m_41_25_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
